-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_147456" .f32 0x36E38E39#32 ((1 / 147456 : ℝ) : EReal)
  ∧ IdealRules.named_const.Statement Cert.KernelIdeal.κ "inv_147456" .f32 0x36E38E39#32 ((1 / 147456 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x96x384x384 : Shape := ⟨4, ![8, 96, 384, 384]⟩
abbrev S16x96 : Shape := ⟨2, ![16, 96]⟩
abbrev S_ : Shape := ⟨0, ![]⟩

class Facts : Prop where
  bcast_S_S8x96x384x384 : S_.BroadcastsInDim S8x96x384x384 (![] : Fin 0 → Fin S8x96x384x384.rank)
  reducesTo_S8x96x384x384_S_d0_1_2_3 : S8x96x384x384.ReducesTo [0, 1, 2, 3] S_
  h_S_ : 0 < S_.numel
  bcast_S_S16x96 : S_.BroadcastsInDim S16x96 (![] : Fin 0 → Fin S16x96.rank)
  reducesTo_S16x96_S_d0_1 : S16x96.ReducesTo [0, 1] S_

variable [Facts]

def fn {F : FTy → Type} [FloatOps F] (main_arg0 : FVec F S8x96x384x384 .f32) (main_arg1 : FVec F S16x96 .f32) : IVec S_ 1 :=
  let main_v0 : FVec F S8x96x384x384 .f32 := Host.absf main_arg0
  let main_cst : FVec F S_ .f32 := constant S_ .f32 0x7F800000#32
  let main_v1 : FVec F S8x96x384x384 .f32 := broadcastInDim S8x96x384x384 ![] bcast_S_S8x96x384x384 main_cst
  let main_v2 : IVec S8x96x384x384 1 := cmpf .olt main_v0 main_v1
  let main_c : IVec S_ 1 := constantI S_ 1 1#1
  let main_v3 : IVec S_ 1 := (fun x v => Host.reduce IntOp.andi x v reducesTo_S8x96x384x384_S_d0_1_2_3 h_S_) main_v2 main_c
  let main_v4 : FVec F S16x96 .f32 := Host.absf main_arg1
  let main_cst_0 : FVec F S_ .f32 := constant S_ .f32 0x7F800000#32
  let main_v5 : FVec F S16x96 .f32 := broadcastInDim S16x96 ![] bcast_S_S16x96 main_cst_0
  let main_v6 : IVec S16x96 1 := cmpf .olt main_v4 main_v5
  let main_c_1 : IVec S_ 1 := constantI S_ 1 1#1
  let main_v7 : IVec S_ 1 := (fun x v => Host.reduce IntOp.andi x v reducesTo_S16x96_S_d0_1 h_S_) main_v6 main_c_1
  let main_v8 : IVec S_ 1 := andi main_v3 main_v7
  main_v8
-- ==== Kernel.lean ====
abbrev S8x96x384x384 : Shape := ⟨4, ![8, 96, 384, 384]⟩
abbrev S16x96 : Shape := ⟨2, ![16, 96]⟩
abbrev S768x384x384 : Shape := ⟨3, ![768, 384, 384]⟩
abbrev S576x1x1 : Shape := ⟨3, ![576, 1, 1]⟩
abbrev S8x8x384x384 : Shape := ⟨4, ![8, 8, 384, 384]⟩
abbrev S8 : Shape := ⟨1, ![8]⟩
abbrev S1 : Shape := ⟨1, ![1]⟩
abbrev S_ : Shape := ⟨0, ![]⟩
abbrev S1x8x384x384 : Shape := ⟨4, ![1, 8, 384, 384]⟩
abbrev S8x384x384 : Shape := ⟨3, ![8, 384, 384]⟩
abbrev S8x1x1 : Shape := ⟨3, ![8, 1, 1]⟩
abbrev S3072 : Shape := ⟨1, ![3072]⟩
abbrev S64x384 : Shape := ⟨2, ![64, 384]⟩
abbrev S96 : Shape := ⟨1, ![96]⟩
abbrev S1x64x384 : Shape := ⟨3, ![1, 64, 384]⟩
abbrev S16 : Shape := ⟨1, ![16]⟩
abbrev S1x16 : Shape := ⟨2, ![1, 16]⟩
abbrev S8x8 : Shape := ⟨2, ![8, 8]⟩
abbrev S8x1x8x1 : Shape := ⟨4, ![8, 1, 8, 1]⟩
abbrev S1x16x1x96 : Shape := ⟨4, ![1, 16, 1, 96]⟩
abbrev S8x16x8x96 : Shape := ⟨4, ![8, 16, 8, 96]⟩
abbrev S128x768 : Shape := ⟨2, ![128, 768]⟩
abbrev S576x1 : Shape := ⟨2, ![576, 1]⟩
abbrev S192x16 : Shape := ⟨2, ![192, 16]⟩
abbrev S128x576 : Shape := ⟨2, ![128, 576]⟩
abbrev S128x192 : Shape := ⟨2, ![128, 192]⟩
abbrev S128x1 : Shape := ⟨2, ![128, 1]⟩
abbrev S192 : Shape := ⟨1, ![192]⟩
abbrev S192x1 : Shape := ⟨2, ![192, 1]⟩
abbrev S8x16 : Shape := ⟨2, ![8, 16]⟩

abbrev nBuf : Table → Nat
  | .hbm => 24
  | .local .tc .vmem => 7
  | .local .scVector .vmem => 4
  | _ => 0

abbrev bufTy : (tb : Table) → Fin (nBuf tb) → BufTy
  | .hbm, ⟨0, _⟩ => ⟨S8x96x384x384, .f32⟩
  | .hbm, ⟨1, _⟩ => ⟨S16x96, .f32⟩
  | .hbm, ⟨2, _⟩ => ⟨S768x384x384, .f32⟩
  | .hbm, ⟨3, _⟩ => ⟨S576x1x1, .f32⟩
  | .hbm, ⟨4, _⟩ => ⟨S3072, .f32⟩
  | .hbm, ⟨5, _⟩ => ⟨S8x8, .i32⟩
  | .hbm, ⟨6, _⟩ => ⟨S8x8, .i32⟩
  | .hbm, ⟨7, _⟩ => ⟨S_, .i32⟩
  | .hbm, ⟨8, _⟩ => ⟨S8x8, .i32⟩
  | .hbm, ⟨9, _⟩ => ⟨S8x8, .i32⟩
  | .hbm, ⟨10, _⟩ => ⟨S8x8, .i1⟩
  | .hbm, ⟨11, _⟩ => ⟨S8x8, .f32⟩
  | .hbm, ⟨12, _⟩ => ⟨S8x1x8x1, .f32⟩
  | .hbm, ⟨13, _⟩ => ⟨S1x16x1x96, .f32⟩
  | .hbm, ⟨14, _⟩ => ⟨S8x16x8x96, .f32⟩
  | .hbm, ⟨15, _⟩ => ⟨S8x16x8x96, .f32⟩
  | .hbm, ⟨16, _⟩ => ⟨S8x16x8x96, .f32⟩
  | .hbm, ⟨17, _⟩ => ⟨S128x768, .f32⟩
  | .hbm, ⟨18, _⟩ => ⟨S576x1, .f32⟩
  | .hbm, ⟨19, _⟩ => ⟨S192x16, .f32⟩
  | .hbm, ⟨20, _⟩ => ⟨S128x576, .f32⟩
  | .hbm, ⟨21, _⟩ => ⟨S128x192, .f32⟩
  | .hbm, ⟨22, _⟩ => ⟨S128x1, .f32⟩
  | .hbm, ⟨23, _⟩ => ⟨S8x16, .f32⟩
  | .local .tc .vmem, ⟨0, _⟩ => ⟨S576x1x1, .f32⟩
  | .local .tc .vmem, ⟨1, _⟩ => ⟨S8x8x384x384, .f32⟩
  | .local .tc .vmem, ⟨2, _⟩ => ⟨S576x1, .f32⟩
  | .local .tc .vmem, ⟨3, _⟩ => ⟨S192x16, .f32⟩
  | .local .tc .vmem, ⟨4, _⟩ => ⟨S128x576, .f32⟩
  | .local .tc .vmem, ⟨5, _⟩ => ⟨S128x192, .f32⟩
  | .local .tc .vmem, ⟨6, _⟩ => ⟨S128x1, .f32⟩
  | .local .scVector .vmem, ⟨0, _⟩ => ⟨S64x384, .f32⟩
  | .local .scVector .vmem, ⟨1, _⟩ => ⟨S64x384, .f32⟩
  | .local .scVector .vmem, ⟨2, _⟩ => ⟨S64x384, .f32⟩
  | .local .scVector .vmem, ⟨3, _⟩ => ⟨S96, .f32⟩
  | _, _ => ⟨S8x96x384x384, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => false
  | ⟨10, _⟩ => false
  | ⟨11, _⟩ => false
  | ⟨12, _⟩ => false
  | ⟨13, _⟩ => true
  | ⟨14, _⟩ => true
  | ⟨15, _⟩ => true
  | ⟨16, _⟩ => true
  | ⟨17, _⟩ => true
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v0_scv : Ref sig .scVector := ⟨.hbm, 2, rfl⟩
abbrev main_v2_scv : Ref sig .scVector := ⟨.hbm, 4, rfl⟩
abbrev cc0_stg0_0 : Ref sig .tc := ⟨.vmem, 0, rfl⟩
abbrev cc0_scratch0 : Ref sig .tc := ⟨.vmem, 1, rfl⟩
abbrev cc2_stg0_0 : Ref sig .tc := ⟨.vmem, 2, rfl⟩
abbrev cc2_stg1_0 : Ref sig .tc := ⟨.vmem, 3, rfl⟩
abbrev cc2_stg2_0 : Ref sig .tc := ⟨.vmem, 4, rfl⟩
abbrev cc2_stg3_0 : Ref sig .tc := ⟨.vmem, 5, rfl⟩
abbrev cc2_stg4_0 : Ref sig .tc := ⟨.vmem, 6, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc2_sem0_0 : DmaSem sig := 13
abbrev cc2_sem1_0 : DmaSem sig := 14
abbrev cc2_sem2_0 : DmaSem sig := 15
abbrev cc2_sem3_0 : DmaSem sig := 16
abbrev cc2_sem4_0 : DmaSem sig := 17
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

def k0_off1 (c0_i32 : BitVec 32) : Fin 1 → Nat :=
  let c8_i32 : BitVec 32 := 8#32
  let v0 : BitVec 32 := Scalar.remsi c0_i32 c8_i32
  ![v0.toNat]
def k0_off2 (c0_i32 : BitVec 32) : Fin 4 → Nat :=
  let c8_i32 : BitVec 32 := 8#32
  let v0 : BitVec 32 := Scalar.remsi c0_i32 c8_i32
  let c0_i32_0 : BitVec 32 := 0#32
  let c0_i32_1 : BitVec 32 := 0#32
  let c0_i32_2 : BitVec 32 := 0#32
  ![v0.toNat, 0, 0, 0]
@[reducible] def k0_t1_loop : Scf.Loop 32 :=
  let c0_i32_43 : BitVec 32 := 0#32
  let c36_i32 : BitVec 32 := 36#32
  let v42 : BitVec 32 := Scalar.addi c0_i32_43 c36_i32
  let c1_i32_44 : BitVec 32 := 1#32
  ⟨c0_i32_43, v42, c1_i32_44⟩
def k0_cond1 (k0_t1 : Fin k0_t1_loop.trips) : BitVec 1 :=
  let c0_i32_47 : BitVec 32 := 0#32
  let c0_i32_43 : BitVec 32 := 0#32
  let c1_i32_44 : BitVec 32 := 1#32
  let arg4 : BitVec 32 := Scf.iv c0_i32_43 c1_i32_44 k0_t1
  let c2_i32_46 : BitVec 32 := 2#32
  let v43 : BitVec 32 := Scalar.muli arg4 c2_i32_46
  let v44 : BitVec 32 := Scalar.addi c0_i32_47 v43
  let c0_i32_48 : BitVec 32 := 0#32
  let v45 : BitVec 32 := Scalar.addi v44 c0_i32_48
  let c8_i32_50 : BitVec 32 := 8#32
  let v47 : BitVec 32 := Scalar.addi v45 c8_i32_50
  let c1_i32_51 : BitVec 32 := 1#32
  let v48 : BitVec 32 := Scalar.subi v47 c1_i32_51
  let c72_i32 : BitVec 32 := 72#32
  let v49 : BitVec 1 := Scalar.cmpi .slt v48 c72_i32
  let v50 : BitVec 32 := Scalar.extui v49
  let c0_i32_52 : BitVec 32 := 0#32
  let v51 : BitVec 1 := Scalar.cmpi .ne v50 c0_i32_52
  v51

def k0_off3 (k0_t1 : Fin k0_t1_loop.trips) : Fin 1 → Nat :=
  let c0_i32_47 : BitVec 32 := 0#32
  let c0_i32_43 : BitVec 32 := 0#32
  let c1_i32_44 : BitVec 32 := 1#32
  let arg4 : BitVec 32 := Scf.iv c0_i32_43 c1_i32_44 k0_t1
  let c2_i32_46 : BitVec 32 := 2#32
  let v43 : BitVec 32 := Scalar.muli arg4 c2_i32_46
  let v44 : BitVec 32 := Scalar.addi c0_i32_47 v43
  let c0_i32_48 : BitVec 32 := 0#32
  let v45 : BitVec 32 := Scalar.addi v44 c0_i32_48
  let c8_i32_50 : BitVec 32 := 8#32
  let v47 : BitVec 32 := Scalar.addi v45 c8_i32_50
  let c1_i32_51 : BitVec 32 := 1#32
  let v48 : BitVec 32 := Scalar.subi v47 c1_i32_51
  let c8_i32_83 : BitVec 32 := 8#32
  let v87 : BitVec 32 := Scalar.remsi v48 c8_i32_83
  ![v87.toNat]
def k0_off4 (k0_t1 : Fin k0_t1_loop.trips) : Fin 4 → Nat :=
  let c0_i32_47 : BitVec 32 := 0#32
  let c0_i32_43 : BitVec 32 := 0#32
  let c1_i32_44 : BitVec 32 := 1#32
  let arg4 : BitVec 32 := Scf.iv c0_i32_43 c1_i32_44 k0_t1
  let c2_i32_46 : BitVec 32 := 2#32
  let v43 : BitVec 32 := Scalar.muli arg4 c2_i32_46
  let v44 : BitVec 32 := Scalar.addi c0_i32_47 v43
  let c0_i32_48 : BitVec 32 := 0#32
  let v45 : BitVec 32 := Scalar.addi v44 c0_i32_48
  let c8_i32_50 : BitVec 32 := 8#32
  let v47 : BitVec 32 := Scalar.addi v45 c8_i32_50
  let c1_i32_51 : BitVec 32 := 1#32
  let v48 : BitVec 32 := Scalar.subi v47 c1_i32_51
  let c8_i32_83 : BitVec 32 := 8#32
  let v87 : BitVec 32 := Scalar.remsi v48 c8_i32_83
  let c0_i32_85 : BitVec 32 := 0#32
  let c0_i32_86 : BitVec 32 := 0#32
  let c0_i32_87 : BitVec 32 := 0#32
  ![v87.toNat, 0, 0, 0]
def k0_off5 (k0_t1 : Fin k0_t1_loop.trips) : Fin 3 → Nat :=
  let c0_i32_47 : BitVec 32 := 0#32
  let c0_i32_43 : BitVec 32 := 0#32
  let c1_i32_44 : BitVec 32 := 1#32
  let arg4 : BitVec 32 := Scf.iv c0_i32_43 c1_i32_44 k0_t1
  let c2_i32_46 : BitVec 32 := 2#32
  let v43 : BitVec 32 := Scalar.muli arg4 c2_i32_46
  let v44 : BitVec 32 := Scalar.addi c0_i32_47 v43
  let c0_i32_48 : BitVec 32 := 0#32
  let v45 : BitVec 32 := Scalar.addi v44 c0_i32_48
  let c8_i32_50 : BitVec 32 := 8#32
  let v47 : BitVec 32 := Scalar.addi v45 c8_i32_50
  let c1_i32_51 : BitVec 32 := 1#32
  let v48 : BitVec 32 := Scalar.subi v47 c1_i32_51
  let c8_i32_84 : BitVec 32 := 8#32
  let v88 : BitVec 32 := Scalar.muli v48 c8_i32_84
  let c0_i32_88 : BitVec 32 := 0#32
  let c0_i32_89 : BitVec 32 := 0#32
  ![v88.toNat, 0, 0]
def k0_off6 (k0_t1 : Fin k0_t1_loop.trips) (c0_i32_48 : BitVec 32) : Fin 1 → Nat :=
  let c0_i32_47 : BitVec 32 := 0#32
  let c0_i32_43 : BitVec 32 := 0#32
  let c1_i32_44 : BitVec 32 := 1#32
  let arg4 : BitVec 32 := Scf.iv c0_i32_43 c1_i32_44 k0_t1
  let c2_i32_46 : BitVec 32 := 2#32
  let v43 : BitVec 32 := Scalar.muli arg4 c2_i32_46
  let v44 : BitVec 32 := Scalar.addi c0_i32_47 v43
  let v45 : BitVec 32 := Scalar.addi v44 c0_i32_48
  let c8_i32_49 : BitVec 32 := 8#32
  let v46 : BitVec 32 := Scalar.remsi v45 c8_i32_49
  ![v46.toNat]
def k0_off7 (k0_t1 : Fin k0_t1_loop.trips) (c0_i32_48 : BitVec 32) : Fin 4 → Nat :=
  let c0_i32_47 : BitVec 32 := 0#32
  let c0_i32_43 : BitVec 32 := 0#32
  let c1_i32_44 : BitVec 32 := 1#32
  let arg4 : BitVec 32 := Scf.iv c0_i32_43 c1_i32_44 k0_t1
  let c2_i32_46 : BitVec 32 := 2#32
  let v43 : BitVec 32 := Scalar.muli arg4 c2_i32_46
  let v44 : BitVec 32 := Scalar.addi c0_i32_47 v43
  let v45 : BitVec 32 := Scalar.addi v44 c0_i32_48
  let c8_i32_49 : BitVec 32 := 8#32
  let v46 : BitVec 32 := Scalar.remsi v45 c8_i32_49
  let c0_i32_54 : BitVec 32 := 0#32
  let c0_i32_55 : BitVec 32 := 0#32
  let c0_i32_56 : BitVec 32 := 0#32
  ![v46.toNat, 0, 0, 0]
def k0_off8 (k0_t1 : Fin k0_t1_loop.trips) (c0_i32_48 : BitVec 32) : Fin 3 → Nat :=
  let c0_i32_47 : BitVec 32 := 0#32
  let c0_i32_43 : BitVec 32 := 0#32
  let c1_i32_44 : BitVec 32 := 1#32
  let arg4 : BitVec 32 := Scf.iv c0_i32_43 c1_i32_44 k0_t1
  let c2_i32_46 : BitVec 32 := 2#32
  let v43 : BitVec 32 := Scalar.muli arg4 c2_i32_46
  let v44 : BitVec 32 := Scalar.addi c0_i32_47 v43
  let v45 : BitVec 32 := Scalar.addi v44 c0_i32_48
  let c8_i32_53 : BitVec 32 := 8#32
  let v52 : BitVec 32 := Scalar.muli v45 c8_i32_53
  let c0_i32_57 : BitVec 32 := 0#32
  let c0_i32_58 : BitVec 32 := 0#32
  ![v52.toNat, 0, 0]
def k0_off9 (k0_t1 : Fin k0_t1_loop.trips) (c0_i32_48 : BitVec 32) : Fin 4 → Nat :=
  let c0_i32_47 : BitVec 32 := 0#32
  let c0_i32_43 : BitVec 32 := 0#32
  let c1_i32_44 : BitVec 32 := 1#32
  let arg4 : BitVec 32 := Scf.iv c0_i32_43 c1_i32_44 k0_t1
  let c2_i32_46 : BitVec 32 := 2#32
  let v43 : BitVec 32 := Scalar.muli arg4 c2_i32_46
  let v44 : BitVec 32 := Scalar.addi c0_i32_47 v43
  let v45 : BitVec 32 := Scalar.addi v44 c0_i32_48
  let c8_i32_49 : BitVec 32 := 8#32
  let v46 : BitVec 32 := Scalar.remsi v45 c8_i32_49
  let v58 : Index := Scalar.indexCast v46
  let c0 : Index := 0#32
  let c0_59 : Index := 0#32
  let c0_60 : Index := 0#32
  ![v58.toNat, 0, 0, 0]
def k0_off10 (k0_t1 : Fin k0_t1_loop.trips) (c0_i32_48 : BitVec 32) : Fin 3 → Nat :=
  let c0_i32_47 : BitVec 32 := 0#32
  let c0_i32_43 : BitVec 32 := 0#32
  let c1_i32_44 : BitVec 32 := 1#32
  let arg4 : BitVec 32 := Scf.iv c0_i32_43 c1_i32_44 k0_t1
  let c2_i32_46 : BitVec 32 := 2#32
  let v43 : BitVec 32 := Scalar.muli arg4 c2_i32_46
  let v44 : BitVec 32 := Scalar.addi c0_i32_47 v43
  let v45 : BitVec 32 := Scalar.addi v44 c0_i32_48
  let c8_i32_61 : BitVec 32 := 8#32
  let v63 : BitVec 32 := Scalar.muli v45 c8_i32_61
  let v64 : Index := Scalar.indexCast v63
  let c0_62 : Index := 0#32
  let c0_63 : Index := 0#32
  ![v64.toNat, 0, 0]
def k0_cond2 (k0_t1 : Fin k0_t1_loop.trips) : BitVec 1 :=
  let c0_i32_47 : BitVec 32 := 0#32
  let c0_i32_43 : BitVec 32 := 0#32
  let c1_i32_44 : BitVec 32 := 1#32
  let arg4 : BitVec 32 := Scf.iv c0_i32_43 c1_i32_44 k0_t1
  let c2_i32_46 : BitVec 32 := 2#32
  let v43 : BitVec 32 := Scalar.muli arg4 c2_i32_46
  let v44 : BitVec 32 := Scalar.addi c0_i32_47 v43
  let c1_i32_64 : BitVec 32 := 1#32
  let v66 : BitVec 32 := Scalar.addi v44 c1_i32_64
  let c8_i32_66 : BitVec 32 := 8#32
  let v68 : BitVec 32 := Scalar.addi v66 c8_i32_66
  let c1_i32_67 : BitVec 32 := 1#32
  let v69 : BitVec 32 := Scalar.subi v68 c1_i32_67
  let c72_i32_68 : BitVec 32 := 72#32
  let v70 : BitVec 1 := Scalar.cmpi .slt v69 c72_i32_68
  let v71 : BitVec 32 := Scalar.extui v70
  let c0_i32_69 : BitVec 32 := 0#32
  let v72 : BitVec 1 := Scalar.cmpi .ne v71 c0_i32_69
  v72

def k0_off11 (k0_t1 : Fin k0_t1_loop.trips) : Fin 1 → Nat :=
  let c0_i32_47 : BitVec 32 := 0#32
  let c0_i32_43 : BitVec 32 := 0#32
  let c1_i32_44 : BitVec 32 := 1#32
  let arg4 : BitVec 32 := Scf.iv c0_i32_43 c1_i32_44 k0_t1
  let c2_i32_46 : BitVec 32 := 2#32
  let v43 : BitVec 32 := Scalar.muli arg4 c2_i32_46
  let v44 : BitVec 32 := Scalar.addi c0_i32_47 v43
  let c1_i32_64 : BitVec 32 := 1#32
  let v66 : BitVec 32 := Scalar.addi v44 c1_i32_64
  let c8_i32_66 : BitVec 32 := 8#32
  let v68 : BitVec 32 := Scalar.addi v66 c8_i32_66
  let c1_i32_67 : BitVec 32 := 1#32
  let v69 : BitVec 32 := Scalar.subi v68 c1_i32_67
  let c8_i32_83 : BitVec 32 := 8#32
  let v87 : BitVec 32 := Scalar.remsi v69 c8_i32_83
  ![v87.toNat]
def k0_off12 (k0_t1 : Fin k0_t1_loop.trips) : Fin 4 → Nat :=
  let c0_i32_47 : BitVec 32 := 0#32
  let c0_i32_43 : BitVec 32 := 0#32
  let c1_i32_44 : BitVec 32 := 1#32
  let arg4 : BitVec 32 := Scf.iv c0_i32_43 c1_i32_44 k0_t1
  let c2_i32_46 : BitVec 32 := 2#32
  let v43 : BitVec 32 := Scalar.muli arg4 c2_i32_46
  let v44 : BitVec 32 := Scalar.addi c0_i32_47 v43
  let c1_i32_64 : BitVec 32 := 1#32
  let v66 : BitVec 32 := Scalar.addi v44 c1_i32_64
  let c8_i32_66 : BitVec 32 := 8#32
  let v68 : BitVec 32 := Scalar.addi v66 c8_i32_66
  let c1_i32_67 : BitVec 32 := 1#32
  let v69 : BitVec 32 := Scalar.subi v68 c1_i32_67
  let c8_i32_83 : BitVec 32 := 8#32
  let v87 : BitVec 32 := Scalar.remsi v69 c8_i32_83
  let c0_i32_85 : BitVec 32 := 0#32
  let c0_i32_86 : BitVec 32 := 0#32
  let c0_i32_87 : BitVec 32 := 0#32
  ![v87.toNat, 0, 0, 0]
def k0_off13 (k0_t1 : Fin k0_t1_loop.trips) : Fin 3 → Nat :=
  let c0_i32_47 : BitVec 32 := 0#32
  let c0_i32_43 : BitVec 32 := 0#32
  let c1_i32_44 : BitVec 32 := 1#32
  let arg4 : BitVec 32 := Scf.iv c0_i32_43 c1_i32_44 k0_t1
  let c2_i32_46 : BitVec 32 := 2#32
  let v43 : BitVec 32 := Scalar.muli arg4 c2_i32_46
  let v44 : BitVec 32 := Scalar.addi c0_i32_47 v43
  let c1_i32_64 : BitVec 32 := 1#32
  let v66 : BitVec 32 := Scalar.addi v44 c1_i32_64
  let c8_i32_66 : BitVec 32 := 8#32
  let v68 : BitVec 32 := Scalar.addi v66 c8_i32_66
  let c1_i32_67 : BitVec 32 := 1#32
  let v69 : BitVec 32 := Scalar.subi v68 c1_i32_67
  let c8_i32_84 : BitVec 32 := 8#32
  let v88 : BitVec 32 := Scalar.muli v69 c8_i32_84
  let c0_i32_88 : BitVec 32 := 0#32
  let c0_i32_89 : BitVec 32 := 0#32
  ![v88.toNat, 0, 0]
abbrev stage0_0 : Fin 1 → Memref sig .tc .vmem S576x1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev grid1 : Pipeline.Grid := ⟨2, ![2, 16], ![false, false]⟩

def k1_off1 (i : grid1.Coords) : Fin 3 → Nat :=
  let c576_i32 : BitVec 32 := 576#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let v3 : BitVec 32 := Scalar.addi c576_i32 v2
  let c0_i32 : BitVec 32 := 0#32
  let v4 : BitVec 32 := Scalar.addi v3 c0_i32
  let c0_i32_0 : BitVec 32 := 0#32
  let c0_i32_1 : BitVec 32 := 0#32
  ![v4.toNat, 0, 0]
def k1_off2 (i : grid1.Coords) : Fin 3 → Nat :=
  let c576_i32 : BitVec 32 := 576#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let v3 : BitVec 32 := Scalar.addi c576_i32 v2
  let c0_i32_4 : BitVec 32 := 0#32
  let v9 : BitVec 32 := Scalar.addi v3 c0_i32_4
  let c64_i32 : BitVec 32 := 64#32
  let c0_i32_5 : BitVec 32 := 0#32
  ![v9.toNat, 64, 0]
@[reducible] def k1_t1_loop : Scf.Loop 32 :=
  let c0_i32_8 : BitVec 32 := 0#32
  let c6_i32_9 : BitVec 32 := 6#32
  let v14 : BitVec 32 := Scalar.addi c0_i32_8 c6_i32_9
  let c1_i32 : BitVec 32 := 1#32
  ⟨c0_i32_8, v14, c1_i32⟩
def k1_cond1 (k1_t1 : Fin k1_t1_loop.trips) : BitVec 1 :=
  let c0_i32_13 : BitVec 32 := 0#32
  let c0_i32_8 : BitVec 32 := 0#32
  let c1_i32 : BitVec 32 := 1#32
  let arg11 : BitVec 32 := Scf.iv c0_i32_8 c1_i32 k1_t1
  let c1_i32_12 : BitVec 32 := 1#32
  let v17 : BitVec 32 := Scalar.muli arg11 c1_i32_12
  let v18 : BitVec 32 := Scalar.addi c0_i32_13 v17
  let c6_i32_14 : BitVec 32 := 6#32
  let v20 : BitVec 1 := Scalar.cmpi .slt v18 c6_i32_14
  let v21 : BitVec 32 := Scalar.extui v20
  let c0_i32_15 : BitVec 32 := 0#32
  let v22 : BitVec 1 := Scalar.cmpi .ne v21 c0_i32_15
  v22

def k1_off3 (i : grid1.Coords) (k1_t1 : Fin k1_t1_loop.trips) : Fin 3 → Nat :=
  let c576_i32 : BitVec 32 := 576#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let v3 : BitVec 32 := Scalar.addi c576_i32 v2
  let c0_i32_13 : BitVec 32 := 0#32
  let c0_i32_8 : BitVec 32 := 0#32
  let c1_i32 : BitVec 32 := 1#32
  let arg11 : BitVec 32 := Scf.iv c0_i32_8 c1_i32 k1_t1
  let c1_i32_12 : BitVec 32 := 1#32
  let v17 : BitVec 32 := Scalar.muli arg11 c1_i32_12
  let v18 : BitVec 32 := Scalar.addi c0_i32_13 v17
  let v89 : BitVec 32 := Scalar.addi v3 v18
  let c128_i32 : BitVec 32 := 128#32
  let c0_i32_77 : BitVec 32 := 0#32
  ![v89.toNat, 128, 0]
def k1_off4 (i : grid1.Coords) : Fin 3 → Nat :=
  let c576_i32 : BitVec 32 := 576#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let v3 : BitVec 32 := Scalar.addi c576_i32 v2
  let c0_i32_16 : BitVec 32 := 0#32
  let c0_i32_17 : BitVec 32 := 0#32
  ![v3.toNat, 0, 0]
@[reducible] def k1_t2_loop : Scf.Loop 32 :=
  let c0_i32_20 : BitVec 32 := 0#32
  let c64_i32_21 : BitVec 32 := 64#32
  let v27 : BitVec 32 := Scalar.addi c0_i32_20 c64_i32_21
  let c1_i32_22 : BitVec 32 := 1#32
  ⟨c0_i32_20, v27, c1_i32_22⟩
def k1_off5 (k1_t2 : Fin k1_t2_loop.trips) : Fin 2 → Nat :=
  let c0_i32_78 : BitVec 32 := 0#32
  let c0_i32_20 : BitVec 32 := 0#32
  let c1_i32_22 : BitVec 32 := 1#32
  let arg12 : BitVec 32 := Scf.iv c0_i32_20 c1_i32_22 k1_t2
  let c1_i32_77 : BitVec 32 := 1#32
  let v89 : BitVec 32 := Scalar.muli arg12 c1_i32_77
  let v90 : BitVec 32 := Scalar.addi c0_i32_78 v89
  let v91 : Index := Scalar.indexCast v90
  let c0 : Index := 0#32
  ![v91.toNat, 0]
def k1_off6 (k1_t2 : Fin k1_t2_loop.trips) : Fin 2 → Nat :=
  let c0_i32_78 : BitVec 32 := 0#32
  let c0_i32_20 : BitVec 32 := 0#32
  let c1_i32_22 : BitVec 32 := 1#32
  let arg12 : BitVec 32 := Scf.iv c0_i32_20 c1_i32_22 k1_t2
  let c1_i32_77 : BitVec 32 := 1#32
  let v89 : BitVec 32 := Scalar.muli arg12 c1_i32_77
  let v90 : BitVec 32 := Scalar.addi c0_i32_78 v89
  let v95 : Index := Scalar.indexCast v90
  let c16 : Index := 16#32
  ![v95.toNat, 16]
def k1_off7 (k1_t2 : Fin k1_t2_loop.trips) : Fin 2 → Nat :=
  let c0_i32_78 : BitVec 32 := 0#32
  let c0_i32_20 : BitVec 32 := 0#32
  let c1_i32_22 : BitVec 32 := 1#32
  let arg12 : BitVec 32 := Scf.iv c0_i32_20 c1_i32_22 k1_t2
  let c1_i32_77 : BitVec 32 := 1#32
  let v89 : BitVec 32 := Scalar.muli arg12 c1_i32_77
  let v90 : BitVec 32 := Scalar.addi c0_i32_78 v89
  let v99 : Index := Scalar.indexCast v90
  let c32 : Index := 32#32
  ![v99.toNat, 32]
def k1_off8 (k1_t2 : Fin k1_t2_loop.trips) : Fin 2 → Nat :=
  let c0_i32_78 : BitVec 32 := 0#32
  let c0_i32_20 : BitVec 32 := 0#32
  let c1_i32_22 : BitVec 32 := 1#32
  let arg12 : BitVec 32 := Scf.iv c0_i32_20 c1_i32_22 k1_t2
  let c1_i32_77 : BitVec 32 := 1#32
  let v89 : BitVec 32 := Scalar.muli arg12 c1_i32_77
  let v90 : BitVec 32 := Scalar.addi c0_i32_78 v89
  let v103 : Index := Scalar.indexCast v90
  let c48 : Index := 48#32
  ![v103.toNat, 48]
def k1_off9 (k1_t2 : Fin k1_t2_loop.trips) : Fin 2 → Nat :=
  let c0_i32_78 : BitVec 32 := 0#32
  let c0_i32_20 : BitVec 32 := 0#32
  let c1_i32_22 : BitVec 32 := 1#32
  let arg12 : BitVec 32 := Scf.iv c0_i32_20 c1_i32_22 k1_t2
  let c1_i32_77 : BitVec 32 := 1#32
  let v89 : BitVec 32 := Scalar.muli arg12 c1_i32_77
  let v90 : BitVec 32 := Scalar.addi c0_i32_78 v89
  let v107 : Index := Scalar.indexCast v90
  let c64 : Index := 64#32
  ![v107.toNat, 64]
def k1_off10 (k1_t2 : Fin k1_t2_loop.trips) : Fin 2 → Nat :=
  let c0_i32_78 : BitVec 32 := 0#32
  let c0_i32_20 : BitVec 32 := 0#32
  let c1_i32_22 : BitVec 32 := 1#32
  let arg12 : BitVec 32 := Scf.iv c0_i32_20 c1_i32_22 k1_t2
  let c1_i32_77 : BitVec 32 := 1#32
  let v89 : BitVec 32 := Scalar.muli arg12 c1_i32_77
  let v90 : BitVec 32 := Scalar.addi c0_i32_78 v89
  let v111 : Index := Scalar.indexCast v90
  let c80 : Index := 80#32
  ![v111.toNat, 80]
def k1_off11 (k1_t2 : Fin k1_t2_loop.trips) : Fin 2 → Nat :=
  let c0_i32_78 : BitVec 32 := 0#32
  let c0_i32_20 : BitVec 32 := 0#32
  let c1_i32_22 : BitVec 32 := 1#32
  let arg12 : BitVec 32 := Scf.iv c0_i32_20 c1_i32_22 k1_t2
  let c1_i32_77 : BitVec 32 := 1#32
  let v89 : BitVec 32 := Scalar.muli arg12 c1_i32_77
  let v90 : BitVec 32 := Scalar.addi c0_i32_78 v89
  let v115 : Index := Scalar.indexCast v90
  let c96 : Index := 96#32
  ![v115.toNat, 96]
def k1_off12 (k1_t2 : Fin k1_t2_loop.trips) : Fin 2 → Nat :=
  let c0_i32_78 : BitVec 32 := 0#32
  let c0_i32_20 : BitVec 32 := 0#32
  let c1_i32_22 : BitVec 32 := 1#32
  let arg12 : BitVec 32 := Scf.iv c0_i32_20 c1_i32_22 k1_t2
  let c1_i32_77 : BitVec 32 := 1#32
  let v89 : BitVec 32 := Scalar.muli arg12 c1_i32_77
  let v90 : BitVec 32 := Scalar.addi c0_i32_78 v89
  let v119 : Index := Scalar.indexCast v90
  let c112 : Index := 112#32
  ![v119.toNat, 112]
def k1_off13 (k1_t2 : Fin k1_t2_loop.trips) : Fin 2 → Nat :=
  let c0_i32_78 : BitVec 32 := 0#32
  let c0_i32_20 : BitVec 32 := 0#32
  let c1_i32_22 : BitVec 32 := 1#32
  let arg12 : BitVec 32 := Scf.iv c0_i32_20 c1_i32_22 k1_t2
  let c1_i32_77 : BitVec 32 := 1#32
  let v89 : BitVec 32 := Scalar.muli arg12 c1_i32_77
  let v90 : BitVec 32 := Scalar.addi c0_i32_78 v89
  let v123 : Index := Scalar.indexCast v90
  let c128 : Index := 128#32
  ![v123.toNat, 128]
def k1_off14 (k1_t2 : Fin k1_t2_loop.trips) : Fin 2 → Nat :=
  let c0_i32_78 : BitVec 32 := 0#32
  let c0_i32_20 : BitVec 32 := 0#32
  let c1_i32_22 : BitVec 32 := 1#32
  let arg12 : BitVec 32 := Scf.iv c0_i32_20 c1_i32_22 k1_t2
  let c1_i32_77 : BitVec 32 := 1#32
  let v89 : BitVec 32 := Scalar.muli arg12 c1_i32_77
  let v90 : BitVec 32 := Scalar.addi c0_i32_78 v89
  let v127 : Index := Scalar.indexCast v90
  let c144 : Index := 144#32
  ![v127.toNat, 144]
def k1_off15 (k1_t2 : Fin k1_t2_loop.trips) : Fin 2 → Nat :=
  let c0_i32_78 : BitVec 32 := 0#32
  let c0_i32_20 : BitVec 32 := 0#32
  let c1_i32_22 : BitVec 32 := 1#32
  let arg12 : BitVec 32 := Scf.iv c0_i32_20 c1_i32_22 k1_t2
  let c1_i32_77 : BitVec 32 := 1#32
  let v89 : BitVec 32 := Scalar.muli arg12 c1_i32_77
  let v90 : BitVec 32 := Scalar.addi c0_i32_78 v89
  let v131 : Index := Scalar.indexCast v90
  let c160 : Index := 160#32
  ![v131.toNat, 160]
def k1_off16 (k1_t2 : Fin k1_t2_loop.trips) : Fin 2 → Nat :=
  let c0_i32_78 : BitVec 32 := 0#32
  let c0_i32_20 : BitVec 32 := 0#32
  let c1_i32_22 : BitVec 32 := 1#32
  let arg12 : BitVec 32 := Scf.iv c0_i32_20 c1_i32_22 k1_t2
  let c1_i32_77 : BitVec 32 := 1#32
  let v89 : BitVec 32 := Scalar.muli arg12 c1_i32_77
  let v90 : BitVec 32 := Scalar.addi c0_i32_78 v89
  let v135 : Index := Scalar.indexCast v90
  let c176 : Index := 176#32
  ![v135.toNat, 176]
def k1_off17 (k1_t2 : Fin k1_t2_loop.trips) : Fin 2 → Nat :=
  let c0_i32_78 : BitVec 32 := 0#32
  let c0_i32_20 : BitVec 32 := 0#32
  let c1_i32_22 : BitVec 32 := 1#32
  let arg12 : BitVec 32 := Scf.iv c0_i32_20 c1_i32_22 k1_t2
  let c1_i32_77 : BitVec 32 := 1#32
  let v89 : BitVec 32 := Scalar.muli arg12 c1_i32_77
  let v90 : BitVec 32 := Scalar.addi c0_i32_78 v89
  let v139 : Index := Scalar.indexCast v90
  let c192 : Index := 192#32
  ![v139.toNat, 192]
def k1_off18 (k1_t2 : Fin k1_t2_loop.trips) : Fin 2 → Nat :=
  let c0_i32_78 : BitVec 32 := 0#32
  let c0_i32_20 : BitVec 32 := 0#32
  let c1_i32_22 : BitVec 32 := 1#32
  let arg12 : BitVec 32 := Scf.iv c0_i32_20 c1_i32_22 k1_t2
  let c1_i32_77 : BitVec 32 := 1#32
  let v89 : BitVec 32 := Scalar.muli arg12 c1_i32_77
  let v90 : BitVec 32 := Scalar.addi c0_i32_78 v89
  let v143 : Index := Scalar.indexCast v90
  let c208 : Index := 208#32
  ![v143.toNat, 208]
def k1_off19 (k1_t2 : Fin k1_t2_loop.trips) : Fin 2 → Nat :=
  let c0_i32_78 : BitVec 32 := 0#32
  let c0_i32_20 : BitVec 32 := 0#32
  let c1_i32_22 : BitVec 32 := 1#32
  let arg12 : BitVec 32 := Scf.iv c0_i32_20 c1_i32_22 k1_t2
  let c1_i32_77 : BitVec 32 := 1#32
  let v89 : BitVec 32 := Scalar.muli arg12 c1_i32_77
  let v90 : BitVec 32 := Scalar.addi c0_i32_78 v89
  let v147 : Index := Scalar.indexCast v90
  let c224 : Index := 224#32
  ![v147.toNat, 224]
def k1_off20 (k1_t2 : Fin k1_t2_loop.trips) : Fin 2 → Nat :=
  let c0_i32_78 : BitVec 32 := 0#32
  let c0_i32_20 : BitVec 32 := 0#32
  let c1_i32_22 : BitVec 32 := 1#32
  let arg12 : BitVec 32 := Scf.iv c0_i32_20 c1_i32_22 k1_t2
  let c1_i32_77 : BitVec 32 := 1#32
  let v89 : BitVec 32 := Scalar.muli arg12 c1_i32_77
  let v90 : BitVec 32 := Scalar.addi c0_i32_78 v89
  let v151 : Index := Scalar.indexCast v90
  let c240 : Index := 240#32
  ![v151.toNat, 240]
def k1_off21 (k1_t2 : Fin k1_t2_loop.trips) : Fin 2 → Nat :=
  let c0_i32_78 : BitVec 32 := 0#32
  let c0_i32_20 : BitVec 32 := 0#32
  let c1_i32_22 : BitVec 32 := 1#32
  let arg12 : BitVec 32 := Scf.iv c0_i32_20 c1_i32_22 k1_t2
  let c1_i32_77 : BitVec 32 := 1#32
  let v89 : BitVec 32 := Scalar.muli arg12 c1_i32_77
  let v90 : BitVec 32 := Scalar.addi c0_i32_78 v89
  let v155 : Index := Scalar.indexCast v90
  let c256 : Index := 256#32
  ![v155.toNat, 256]
def k1_off22 (k1_t2 : Fin k1_t2_loop.trips) : Fin 2 → Nat :=
  let c0_i32_78 : BitVec 32 := 0#32
  let c0_i32_20 : BitVec 32 := 0#32
  let c1_i32_22 : BitVec 32 := 1#32
  let arg12 : BitVec 32 := Scf.iv c0_i32_20 c1_i32_22 k1_t2
  let c1_i32_77 : BitVec 32 := 1#32
  let v89 : BitVec 32 := Scalar.muli arg12 c1_i32_77
  let v90 : BitVec 32 := Scalar.addi c0_i32_78 v89
  let v159 : Index := Scalar.indexCast v90
  let c272 : Index := 272#32
  ![v159.toNat, 272]
def k1_off23 (k1_t2 : Fin k1_t2_loop.trips) : Fin 2 → Nat :=
  let c0_i32_78 : BitVec 32 := 0#32
  let c0_i32_20 : BitVec 32 := 0#32
  let c1_i32_22 : BitVec 32 := 1#32
  let arg12 : BitVec 32 := Scf.iv c0_i32_20 c1_i32_22 k1_t2
  let c1_i32_77 : BitVec 32 := 1#32
  let v89 : BitVec 32 := Scalar.muli arg12 c1_i32_77
  let v90 : BitVec 32 := Scalar.addi c0_i32_78 v89
  let v163 : Index := Scalar.indexCast v90
  let c288 : Index := 288#32
  ![v163.toNat, 288]
def k1_off24 (k1_t2 : Fin k1_t2_loop.trips) : Fin 2 → Nat :=
  let c0_i32_78 : BitVec 32 := 0#32
  let c0_i32_20 : BitVec 32 := 0#32
  let c1_i32_22 : BitVec 32 := 1#32
  let arg12 : BitVec 32 := Scf.iv c0_i32_20 c1_i32_22 k1_t2
  let c1_i32_77 : BitVec 32 := 1#32
  let v89 : BitVec 32 := Scalar.muli arg12 c1_i32_77
  let v90 : BitVec 32 := Scalar.addi c0_i32_78 v89
  let v167 : Index := Scalar.indexCast v90
  let c304 : Index := 304#32
  ![v167.toNat, 304]
def k1_off25 (k1_t2 : Fin k1_t2_loop.trips) : Fin 2 → Nat :=
  let c0_i32_78 : BitVec 32 := 0#32
  let c0_i32_20 : BitVec 32 := 0#32
  let c1_i32_22 : BitVec 32 := 1#32
  let arg12 : BitVec 32 := Scf.iv c0_i32_20 c1_i32_22 k1_t2
  let c1_i32_77 : BitVec 32 := 1#32
  let v89 : BitVec 32 := Scalar.muli arg12 c1_i32_77
  let v90 : BitVec 32 := Scalar.addi c0_i32_78 v89
  let v171 : Index := Scalar.indexCast v90
  let c320 : Index := 320#32
  ![v171.toNat, 320]
def k1_off26 (k1_t2 : Fin k1_t2_loop.trips) : Fin 2 → Nat :=
  let c0_i32_78 : BitVec 32 := 0#32
  let c0_i32_20 : BitVec 32 := 0#32
  let c1_i32_22 : BitVec 32 := 1#32
  let arg12 : BitVec 32 := Scf.iv c0_i32_20 c1_i32_22 k1_t2
  let c1_i32_77 : BitVec 32 := 1#32
  let v89 : BitVec 32 := Scalar.muli arg12 c1_i32_77
  let v90 : BitVec 32 := Scalar.addi c0_i32_78 v89
  let v175 : Index := Scalar.indexCast v90
  let c336 : Index := 336#32
  ![v175.toNat, 336]
def k1_off27 (k1_t2 : Fin k1_t2_loop.trips) : Fin 2 → Nat :=
  let c0_i32_78 : BitVec 32 := 0#32
  let c0_i32_20 : BitVec 32 := 0#32
  let c1_i32_22 : BitVec 32 := 1#32
  let arg12 : BitVec 32 := Scf.iv c0_i32_20 c1_i32_22 k1_t2
  let c1_i32_77 : BitVec 32 := 1#32
  let v89 : BitVec 32 := Scalar.muli arg12 c1_i32_77
  let v90 : BitVec 32 := Scalar.addi c0_i32_78 v89
  let v179 : Index := Scalar.indexCast v90
  let c352 : Index := 352#32
  ![v179.toNat, 352]
def k1_off28 (k1_t2 : Fin k1_t2_loop.trips) : Fin 2 → Nat :=
  let c0_i32_78 : BitVec 32 := 0#32
  let c0_i32_20 : BitVec 32 := 0#32
  let c1_i32_22 : BitVec 32 := 1#32
  let arg12 : BitVec 32 := Scf.iv c0_i32_20 c1_i32_22 k1_t2
  let c1_i32_77 : BitVec 32 := 1#32
  let v89 : BitVec 32 := Scalar.muli arg12 c1_i32_77
  let v90 : BitVec 32 := Scalar.addi c0_i32_78 v89
  let v183 : Index := Scalar.indexCast v90
  let c368 : Index := 368#32
  ![v183.toNat, 368]
def k1_cond2 (k1_t1 : Fin k1_t1_loop.trips) : BitVec 1 :=
  let c0_i32_13 : BitVec 32 := 0#32
  let c0_i32_8 : BitVec 32 := 0#32
  let c1_i32 : BitVec 32 := 1#32
  let arg11 : BitVec 32 := Scf.iv c0_i32_8 c1_i32 k1_t1
  let c1_i32_12 : BitVec 32 := 1#32
  let v17 : BitVec 32 := Scalar.muli arg11 c1_i32_12
  let v18 : BitVec 32 := Scalar.addi c0_i32_13 v17
  let c6_i32_24 : BitVec 32 := 6#32
  let v29 : BitVec 1 := Scalar.cmpi .slt v18 c6_i32_24
  let v30 : BitVec 32 := Scalar.extui v29
  let c0_i32_25 : BitVec 32 := 0#32
  let v31 : BitVec 1 := Scalar.cmpi .ne v30 c0_i32_25
  v31

def k1_off29 (i : grid1.Coords) (k1_t1 : Fin k1_t1_loop.trips) : Fin 3 → Nat :=
  let c576_i32 : BitVec 32 := 576#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let v3 : BitVec 32 := Scalar.addi c576_i32 v2
  let c0_i32_13 : BitVec 32 := 0#32
  let c0_i32_8 : BitVec 32 := 0#32
  let c1_i32 : BitVec 32 := 1#32
  let arg11 : BitVec 32 := Scf.iv c0_i32_8 c1_i32 k1_t1
  let c1_i32_12 : BitVec 32 := 1#32
  let v17 : BitVec 32 := Scalar.muli arg11 c1_i32_12
  let v18 : BitVec 32 := Scalar.addi c0_i32_13 v17
  let v89 : BitVec 32 := Scalar.addi v3 v18
  let c192_i32 : BitVec 32 := 192#32
  let c0_i32_77 : BitVec 32 := 0#32
  ![v89.toNat, 192, 0]
@[reducible] def k1_t3_loop : Scf.Loop 32 :=
  let c0_i32_30 : BitVec 32 := 0#32
  let c64_i32_31 : BitVec 32 := 64#32
  let v36 : BitVec 32 := Scalar.addi c0_i32_30 c64_i32_31
  let c1_i32_32 : BitVec 32 := 1#32
  ⟨c0_i32_30, v36, c1_i32_32⟩
def k1_off30 (k1_t3 : Fin k1_t3_loop.trips) : Fin 2 → Nat :=
  let c0_i32_78 : BitVec 32 := 0#32
  let c0_i32_30 : BitVec 32 := 0#32
  let c1_i32_32 : BitVec 32 := 1#32
  let arg12 : BitVec 32 := Scf.iv c0_i32_30 c1_i32_32 k1_t3
  let c1_i32_77 : BitVec 32 := 1#32
  let v89 : BitVec 32 := Scalar.muli arg12 c1_i32_77
  let v90 : BitVec 32 := Scalar.addi c0_i32_78 v89
  let v91 : Index := Scalar.indexCast v90
  let c0 : Index := 0#32
  ![v91.toNat, 0]
def k1_off31 (k1_t3 : Fin k1_t3_loop.trips) : Fin 2 → Nat :=
  let c0_i32_78 : BitVec 32 := 0#32
  let c0_i32_30 : BitVec 32 := 0#32
  let c1_i32_32 : BitVec 32 := 1#32
  let arg12 : BitVec 32 := Scf.iv c0_i32_30 c1_i32_32 k1_t3
  let c1_i32_77 : BitVec 32 := 1#32
  let v89 : BitVec 32 := Scalar.muli arg12 c1_i32_77
  let v90 : BitVec 32 := Scalar.addi c0_i32_78 v89
  let v95 : Index := Scalar.indexCast v90
  let c16 : Index := 16#32
  ![v95.toNat, 16]
def k1_off32 (k1_t3 : Fin k1_t3_loop.trips) : Fin 2 → Nat :=
  let c0_i32_78 : BitVec 32 := 0#32
  let c0_i32_30 : BitVec 32 := 0#32
  let c1_i32_32 : BitVec 32 := 1#32
  let arg12 : BitVec 32 := Scf.iv c0_i32_30 c1_i32_32 k1_t3
  let c1_i32_77 : BitVec 32 := 1#32
  let v89 : BitVec 32 := Scalar.muli arg12 c1_i32_77
  let v90 : BitVec 32 := Scalar.addi c0_i32_78 v89
  let v99 : Index := Scalar.indexCast v90
  let c32 : Index := 32#32
  ![v99.toNat, 32]
def k1_off33 (k1_t3 : Fin k1_t3_loop.trips) : Fin 2 → Nat :=
  let c0_i32_78 : BitVec 32 := 0#32
  let c0_i32_30 : BitVec 32 := 0#32
  let c1_i32_32 : BitVec 32 := 1#32
  let arg12 : BitVec 32 := Scf.iv c0_i32_30 c1_i32_32 k1_t3
  let c1_i32_77 : BitVec 32 := 1#32
  let v89 : BitVec 32 := Scalar.muli arg12 c1_i32_77
  let v90 : BitVec 32 := Scalar.addi c0_i32_78 v89
  let v103 : Index := Scalar.indexCast v90
  let c48 : Index := 48#32
  ![v103.toNat, 48]
def k1_off34 (k1_t3 : Fin k1_t3_loop.trips) : Fin 2 → Nat :=
  let c0_i32_78 : BitVec 32 := 0#32
  let c0_i32_30 : BitVec 32 := 0#32
  let c1_i32_32 : BitVec 32 := 1#32
  let arg12 : BitVec 32 := Scf.iv c0_i32_30 c1_i32_32 k1_t3
  let c1_i32_77 : BitVec 32 := 1#32
  let v89 : BitVec 32 := Scalar.muli arg12 c1_i32_77
  let v90 : BitVec 32 := Scalar.addi c0_i32_78 v89
  let v107 : Index := Scalar.indexCast v90
  let c64 : Index := 64#32
  ![v107.toNat, 64]
def k1_off35 (k1_t3 : Fin k1_t3_loop.trips) : Fin 2 → Nat :=
  let c0_i32_78 : BitVec 32 := 0#32
  let c0_i32_30 : BitVec 32 := 0#32
  let c1_i32_32 : BitVec 32 := 1#32
  let arg12 : BitVec 32 := Scf.iv c0_i32_30 c1_i32_32 k1_t3
  let c1_i32_77 : BitVec 32 := 1#32
  let v89 : BitVec 32 := Scalar.muli arg12 c1_i32_77
  let v90 : BitVec 32 := Scalar.addi c0_i32_78 v89
  let v111 : Index := Scalar.indexCast v90
  let c80 : Index := 80#32
  ![v111.toNat, 80]
def k1_off36 (k1_t3 : Fin k1_t3_loop.trips) : Fin 2 → Nat :=
  let c0_i32_78 : BitVec 32 := 0#32
  let c0_i32_30 : BitVec 32 := 0#32
  let c1_i32_32 : BitVec 32 := 1#32
  let arg12 : BitVec 32 := Scf.iv c0_i32_30 c1_i32_32 k1_t3
  let c1_i32_77 : BitVec 32 := 1#32
  let v89 : BitVec 32 := Scalar.muli arg12 c1_i32_77
  let v90 : BitVec 32 := Scalar.addi c0_i32_78 v89
  let v115 : Index := Scalar.indexCast v90
  let c96 : Index := 96#32
  ![v115.toNat, 96]
def k1_off37 (k1_t3 : Fin k1_t3_loop.trips) : Fin 2 → Nat :=
  let c0_i32_78 : BitVec 32 := 0#32
  let c0_i32_30 : BitVec 32 := 0#32
  let c1_i32_32 : BitVec 32 := 1#32
  let arg12 : BitVec 32 := Scf.iv c0_i32_30 c1_i32_32 k1_t3
  let c1_i32_77 : BitVec 32 := 1#32
  let v89 : BitVec 32 := Scalar.muli arg12 c1_i32_77
  let v90 : BitVec 32 := Scalar.addi c0_i32_78 v89
  let v119 : Index := Scalar.indexCast v90
  let c112 : Index := 112#32
  ![v119.toNat, 112]
def k1_off38 (k1_t3 : Fin k1_t3_loop.trips) : Fin 2 → Nat :=
  let c0_i32_78 : BitVec 32 := 0#32
  let c0_i32_30 : BitVec 32 := 0#32
  let c1_i32_32 : BitVec 32 := 1#32
  let arg12 : BitVec 32 := Scf.iv c0_i32_30 c1_i32_32 k1_t3
  let c1_i32_77 : BitVec 32 := 1#32
  let v89 : BitVec 32 := Scalar.muli arg12 c1_i32_77
  let v90 : BitVec 32 := Scalar.addi c0_i32_78 v89
  let v123 : Index := Scalar.indexCast v90
  let c128 : Index := 128#32
  ![v123.toNat, 128]
def k1_off39 (k1_t3 : Fin k1_t3_loop.trips) : Fin 2 → Nat :=
  let c0_i32_78 : BitVec 32 := 0#32
  let c0_i32_30 : BitVec 32 := 0#32
  let c1_i32_32 : BitVec 32 := 1#32
  let arg12 : BitVec 32 := Scf.iv c0_i32_30 c1_i32_32 k1_t3
  let c1_i32_77 : BitVec 32 := 1#32
  let v89 : BitVec 32 := Scalar.muli arg12 c1_i32_77
  let v90 : BitVec 32 := Scalar.addi c0_i32_78 v89
  let v127 : Index := Scalar.indexCast v90
  let c144 : Index := 144#32
  ![v127.toNat, 144]
def k1_off40 (k1_t3 : Fin k1_t3_loop.trips) : Fin 2 → Nat :=
  let c0_i32_78 : BitVec 32 := 0#32
  let c0_i32_30 : BitVec 32 := 0#32
  let c1_i32_32 : BitVec 32 := 1#32
  let arg12 : BitVec 32 := Scf.iv c0_i32_30 c1_i32_32 k1_t3
  let c1_i32_77 : BitVec 32 := 1#32
  let v89 : BitVec 32 := Scalar.muli arg12 c1_i32_77
  let v90 : BitVec 32 := Scalar.addi c0_i32_78 v89
  let v131 : Index := Scalar.indexCast v90
  let c160 : Index := 160#32
  ![v131.toNat, 160]
def k1_off41 (k1_t3 : Fin k1_t3_loop.trips) : Fin 2 → Nat :=
  let c0_i32_78 : BitVec 32 := 0#32
  let c0_i32_30 : BitVec 32 := 0#32
  let c1_i32_32 : BitVec 32 := 1#32
  let arg12 : BitVec 32 := Scf.iv c0_i32_30 c1_i32_32 k1_t3
  let c1_i32_77 : BitVec 32 := 1#32
  let v89 : BitVec 32 := Scalar.muli arg12 c1_i32_77
  let v90 : BitVec 32 := Scalar.addi c0_i32_78 v89
  let v135 : Index := Scalar.indexCast v90
  let c176 : Index := 176#32
  ![v135.toNat, 176]
def k1_off42 (k1_t3 : Fin k1_t3_loop.trips) : Fin 2 → Nat :=
  let c0_i32_78 : BitVec 32 := 0#32
  let c0_i32_30 : BitVec 32 := 0#32
  let c1_i32_32 : BitVec 32 := 1#32
  let arg12 : BitVec 32 := Scf.iv c0_i32_30 c1_i32_32 k1_t3
  let c1_i32_77 : BitVec 32 := 1#32
  let v89 : BitVec 32 := Scalar.muli arg12 c1_i32_77
  let v90 : BitVec 32 := Scalar.addi c0_i32_78 v89
  let v139 : Index := Scalar.indexCast v90
  let c192 : Index := 192#32
  ![v139.toNat, 192]
def k1_off43 (k1_t3 : Fin k1_t3_loop.trips) : Fin 2 → Nat :=
  let c0_i32_78 : BitVec 32 := 0#32
  let c0_i32_30 : BitVec 32 := 0#32
  let c1_i32_32 : BitVec 32 := 1#32
  let arg12 : BitVec 32 := Scf.iv c0_i32_30 c1_i32_32 k1_t3
  let c1_i32_77 : BitVec 32 := 1#32
  let v89 : BitVec 32 := Scalar.muli arg12 c1_i32_77
  let v90 : BitVec 32 := Scalar.addi c0_i32_78 v89
  let v143 : Index := Scalar.indexCast v90
  let c208 : Index := 208#32
  ![v143.toNat, 208]
def k1_off44 (k1_t3 : Fin k1_t3_loop.trips) : Fin 2 → Nat :=
  let c0_i32_78 : BitVec 32 := 0#32
  let c0_i32_30 : BitVec 32 := 0#32
  let c1_i32_32 : BitVec 32 := 1#32
  let arg12 : BitVec 32 := Scf.iv c0_i32_30 c1_i32_32 k1_t3
  let c1_i32_77 : BitVec 32 := 1#32
  let v89 : BitVec 32 := Scalar.muli arg12 c1_i32_77
  let v90 : BitVec 32 := Scalar.addi c0_i32_78 v89
  let v147 : Index := Scalar.indexCast v90
  let c224 : Index := 224#32
  ![v147.toNat, 224]
def k1_off45 (k1_t3 : Fin k1_t3_loop.trips) : Fin 2 → Nat :=
  let c0_i32_78 : BitVec 32 := 0#32
  let c0_i32_30 : BitVec 32 := 0#32
  let c1_i32_32 : BitVec 32 := 1#32
  let arg12 : BitVec 32 := Scf.iv c0_i32_30 c1_i32_32 k1_t3
  let c1_i32_77 : BitVec 32 := 1#32
  let v89 : BitVec 32 := Scalar.muli arg12 c1_i32_77
  let v90 : BitVec 32 := Scalar.addi c0_i32_78 v89
  let v151 : Index := Scalar.indexCast v90
  let c240 : Index := 240#32
  ![v151.toNat, 240]
def k1_off46 (k1_t3 : Fin k1_t3_loop.trips) : Fin 2 → Nat :=
  let c0_i32_78 : BitVec 32 := 0#32
  let c0_i32_30 : BitVec 32 := 0#32
  let c1_i32_32 : BitVec 32 := 1#32
  let arg12 : BitVec 32 := Scf.iv c0_i32_30 c1_i32_32 k1_t3
  let c1_i32_77 : BitVec 32 := 1#32
  let v89 : BitVec 32 := Scalar.muli arg12 c1_i32_77
  let v90 : BitVec 32 := Scalar.addi c0_i32_78 v89
  let v155 : Index := Scalar.indexCast v90
  let c256 : Index := 256#32
  ![v155.toNat, 256]
def k1_off47 (k1_t3 : Fin k1_t3_loop.trips) : Fin 2 → Nat :=
  let c0_i32_78 : BitVec 32 := 0#32
  let c0_i32_30 : BitVec 32 := 0#32
  let c1_i32_32 : BitVec 32 := 1#32
  let arg12 : BitVec 32 := Scf.iv c0_i32_30 c1_i32_32 k1_t3
  let c1_i32_77 : BitVec 32 := 1#32
  let v89 : BitVec 32 := Scalar.muli arg12 c1_i32_77
  let v90 : BitVec 32 := Scalar.addi c0_i32_78 v89
  let v159 : Index := Scalar.indexCast v90
  let c272 : Index := 272#32
  ![v159.toNat, 272]
def k1_off48 (k1_t3 : Fin k1_t3_loop.trips) : Fin 2 → Nat :=
  let c0_i32_78 : BitVec 32 := 0#32
  let c0_i32_30 : BitVec 32 := 0#32
  let c1_i32_32 : BitVec 32 := 1#32
  let arg12 : BitVec 32 := Scf.iv c0_i32_30 c1_i32_32 k1_t3
  let c1_i32_77 : BitVec 32 := 1#32
  let v89 : BitVec 32 := Scalar.muli arg12 c1_i32_77
  let v90 : BitVec 32 := Scalar.addi c0_i32_78 v89
  let v163 : Index := Scalar.indexCast v90
  let c288 : Index := 288#32
  ![v163.toNat, 288]
def k1_off49 (k1_t3 : Fin k1_t3_loop.trips) : Fin 2 → Nat :=
  let c0_i32_78 : BitVec 32 := 0#32
  let c0_i32_30 : BitVec 32 := 0#32
  let c1_i32_32 : BitVec 32 := 1#32
  let arg12 : BitVec 32 := Scf.iv c0_i32_30 c1_i32_32 k1_t3
  let c1_i32_77 : BitVec 32 := 1#32
  let v89 : BitVec 32 := Scalar.muli arg12 c1_i32_77
  let v90 : BitVec 32 := Scalar.addi c0_i32_78 v89
  let v167 : Index := Scalar.indexCast v90
  let c304 : Index := 304#32
  ![v167.toNat, 304]
def k1_off50 (k1_t3 : Fin k1_t3_loop.trips) : Fin 2 → Nat :=
  let c0_i32_78 : BitVec 32 := 0#32
  let c0_i32_30 : BitVec 32 := 0#32
  let c1_i32_32 : BitVec 32 := 1#32
  let arg12 : BitVec 32 := Scf.iv c0_i32_30 c1_i32_32 k1_t3
  let c1_i32_77 : BitVec 32 := 1#32
  let v89 : BitVec 32 := Scalar.muli arg12 c1_i32_77
  let v90 : BitVec 32 := Scalar.addi c0_i32_78 v89
  let v171 : Index := Scalar.indexCast v90
  let c320 : Index := 320#32
  ![v171.toNat, 320]
def k1_off51 (k1_t3 : Fin k1_t3_loop.trips) : Fin 2 → Nat :=
  let c0_i32_78 : BitVec 32 := 0#32
  let c0_i32_30 : BitVec 32 := 0#32
  let c1_i32_32 : BitVec 32 := 1#32
  let arg12 : BitVec 32 := Scf.iv c0_i32_30 c1_i32_32 k1_t3
  let c1_i32_77 : BitVec 32 := 1#32
  let v89 : BitVec 32 := Scalar.muli arg12 c1_i32_77
  let v90 : BitVec 32 := Scalar.addi c0_i32_78 v89
  let v175 : Index := Scalar.indexCast v90
  let c336 : Index := 336#32
  ![v175.toNat, 336]
def k1_off52 (k1_t3 : Fin k1_t3_loop.trips) : Fin 2 → Nat :=
  let c0_i32_78 : BitVec 32 := 0#32
  let c0_i32_30 : BitVec 32 := 0#32
  let c1_i32_32 : BitVec 32 := 1#32
  let arg12 : BitVec 32 := Scf.iv c0_i32_30 c1_i32_32 k1_t3
  let c1_i32_77 : BitVec 32 := 1#32
  let v89 : BitVec 32 := Scalar.muli arg12 c1_i32_77
  let v90 : BitVec 32 := Scalar.addi c0_i32_78 v89
  let v179 : Index := Scalar.indexCast v90
  let c352 : Index := 352#32
  ![v179.toNat, 352]
def k1_off53 (k1_t3 : Fin k1_t3_loop.trips) : Fin 2 → Nat :=
  let c0_i32_78 : BitVec 32 := 0#32
  let c0_i32_30 : BitVec 32 := 0#32
  let c1_i32_32 : BitVec 32 := 1#32
  let arg12 : BitVec 32 := Scf.iv c0_i32_30 c1_i32_32 k1_t3
  let c1_i32_77 : BitVec 32 := 1#32
  let v89 : BitVec 32 := Scalar.muli arg12 c1_i32_77
  let v90 : BitVec 32 := Scalar.addi c0_i32_78 v89
  let v183 : Index := Scalar.indexCast v90
  let c368 : Index := 368#32
  ![v183.toNat, 368]
def k1_cond3 (k1_t1 : Fin k1_t1_loop.trips) : BitVec 1 :=
  let c0_i32_13 : BitVec 32 := 0#32
  let c0_i32_8 : BitVec 32 := 0#32
  let c1_i32 : BitVec 32 := 1#32
  let arg11 : BitVec 32 := Scf.iv c0_i32_8 c1_i32 k1_t1
  let c1_i32_12 : BitVec 32 := 1#32
  let v17 : BitVec 32 := Scalar.muli arg11 c1_i32_12
  let v18 : BitVec 32 := Scalar.addi c0_i32_13 v17
  let c6_i32_34 : BitVec 32 := 6#32
  let v38 : BitVec 1 := Scalar.cmpi .slt v18 c6_i32_34
  let v39 : BitVec 32 := Scalar.extui v38
  let c0_i32_35 : BitVec 32 := 0#32
  let v40 : BitVec 1 := Scalar.cmpi .ne v39 c0_i32_35
  v40

def k1_off54 (i : grid1.Coords) (k1_t1 : Fin k1_t1_loop.trips) : Fin 3 → Nat :=
  let c576_i32 : BitVec 32 := 576#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let v3 : BitVec 32 := Scalar.addi c576_i32 v2
  let c0_i32_13 : BitVec 32 := 0#32
  let c0_i32_8 : BitVec 32 := 0#32
  let c1_i32 : BitVec 32 := 1#32
  let arg11 : BitVec 32 := Scf.iv c0_i32_8 c1_i32 k1_t1
  let c1_i32_12 : BitVec 32 := 1#32
  let v17 : BitVec 32 := Scalar.muli arg11 c1_i32_12
  let v18 : BitVec 32 := Scalar.addi c0_i32_13 v17
  let v89 : BitVec 32 := Scalar.addi v3 v18
  let c256_i32 : BitVec 32 := 256#32
  let c0_i32_77 : BitVec 32 := 0#32
  ![v89.toNat, 256, 0]
@[reducible] def k1_t4_loop : Scf.Loop 32 :=
  let c0_i32_40 : BitVec 32 := 0#32
  let c64_i32_41 : BitVec 32 := 64#32
  let v45 : BitVec 32 := Scalar.addi c0_i32_40 c64_i32_41
  let c1_i32_42 : BitVec 32 := 1#32
  ⟨c0_i32_40, v45, c1_i32_42⟩
def k1_off55 (k1_t4 : Fin k1_t4_loop.trips) : Fin 2 → Nat :=
  let c0_i32_78 : BitVec 32 := 0#32
  let c0_i32_40 : BitVec 32 := 0#32
  let c1_i32_42 : BitVec 32 := 1#32
  let arg12 : BitVec 32 := Scf.iv c0_i32_40 c1_i32_42 k1_t4
  let c1_i32_77 : BitVec 32 := 1#32
  let v89 : BitVec 32 := Scalar.muli arg12 c1_i32_77
  let v90 : BitVec 32 := Scalar.addi c0_i32_78 v89
  let v91 : Index := Scalar.indexCast v90
  let c0 : Index := 0#32
  ![v91.toNat, 0]
def k1_off56 (k1_t4 : Fin k1_t4_loop.trips) : Fin 2 → Nat :=
  let c0_i32_78 : BitVec 32 := 0#32
  let c0_i32_40 : BitVec 32 := 0#32
  let c1_i32_42 : BitVec 32 := 1#32
  let arg12 : BitVec 32 := Scf.iv c0_i32_40 c1_i32_42 k1_t4
  let c1_i32_77 : BitVec 32 := 1#32
  let v89 : BitVec 32 := Scalar.muli arg12 c1_i32_77
  let v90 : BitVec 32 := Scalar.addi c0_i32_78 v89
  let v95 : Index := Scalar.indexCast v90
  let c16 : Index := 16#32
  ![v95.toNat, 16]
def k1_off57 (k1_t4 : Fin k1_t4_loop.trips) : Fin 2 → Nat :=
  let c0_i32_78 : BitVec 32 := 0#32
  let c0_i32_40 : BitVec 32 := 0#32
  let c1_i32_42 : BitVec 32 := 1#32
  let arg12 : BitVec 32 := Scf.iv c0_i32_40 c1_i32_42 k1_t4
  let c1_i32_77 : BitVec 32 := 1#32
  let v89 : BitVec 32 := Scalar.muli arg12 c1_i32_77
  let v90 : BitVec 32 := Scalar.addi c0_i32_78 v89
  let v99 : Index := Scalar.indexCast v90
  let c32 : Index := 32#32
  ![v99.toNat, 32]
def k1_off58 (k1_t4 : Fin k1_t4_loop.trips) : Fin 2 → Nat :=
  let c0_i32_78 : BitVec 32 := 0#32
  let c0_i32_40 : BitVec 32 := 0#32
  let c1_i32_42 : BitVec 32 := 1#32
  let arg12 : BitVec 32 := Scf.iv c0_i32_40 c1_i32_42 k1_t4
  let c1_i32_77 : BitVec 32 := 1#32
  let v89 : BitVec 32 := Scalar.muli arg12 c1_i32_77
  let v90 : BitVec 32 := Scalar.addi c0_i32_78 v89
  let v103 : Index := Scalar.indexCast v90
  let c48 : Index := 48#32
  ![v103.toNat, 48]
def k1_off59 (k1_t4 : Fin k1_t4_loop.trips) : Fin 2 → Nat :=
  let c0_i32_78 : BitVec 32 := 0#32
  let c0_i32_40 : BitVec 32 := 0#32
  let c1_i32_42 : BitVec 32 := 1#32
  let arg12 : BitVec 32 := Scf.iv c0_i32_40 c1_i32_42 k1_t4
  let c1_i32_77 : BitVec 32 := 1#32
  let v89 : BitVec 32 := Scalar.muli arg12 c1_i32_77
  let v90 : BitVec 32 := Scalar.addi c0_i32_78 v89
  let v107 : Index := Scalar.indexCast v90
  let c64 : Index := 64#32
  ![v107.toNat, 64]
def k1_off60 (k1_t4 : Fin k1_t4_loop.trips) : Fin 2 → Nat :=
  let c0_i32_78 : BitVec 32 := 0#32
  let c0_i32_40 : BitVec 32 := 0#32
  let c1_i32_42 : BitVec 32 := 1#32
  let arg12 : BitVec 32 := Scf.iv c0_i32_40 c1_i32_42 k1_t4
  let c1_i32_77 : BitVec 32 := 1#32
  let v89 : BitVec 32 := Scalar.muli arg12 c1_i32_77
  let v90 : BitVec 32 := Scalar.addi c0_i32_78 v89
  let v111 : Index := Scalar.indexCast v90
  let c80 : Index := 80#32
  ![v111.toNat, 80]
def k1_off61 (k1_t4 : Fin k1_t4_loop.trips) : Fin 2 → Nat :=
  let c0_i32_78 : BitVec 32 := 0#32
  let c0_i32_40 : BitVec 32 := 0#32
  let c1_i32_42 : BitVec 32 := 1#32
  let arg12 : BitVec 32 := Scf.iv c0_i32_40 c1_i32_42 k1_t4
  let c1_i32_77 : BitVec 32 := 1#32
  let v89 : BitVec 32 := Scalar.muli arg12 c1_i32_77
  let v90 : BitVec 32 := Scalar.addi c0_i32_78 v89
  let v115 : Index := Scalar.indexCast v90
  let c96 : Index := 96#32
  ![v115.toNat, 96]
def k1_off62 (k1_t4 : Fin k1_t4_loop.trips) : Fin 2 → Nat :=
  let c0_i32_78 : BitVec 32 := 0#32
  let c0_i32_40 : BitVec 32 := 0#32
  let c1_i32_42 : BitVec 32 := 1#32
  let arg12 : BitVec 32 := Scf.iv c0_i32_40 c1_i32_42 k1_t4
  let c1_i32_77 : BitVec 32 := 1#32
  let v89 : BitVec 32 := Scalar.muli arg12 c1_i32_77
  let v90 : BitVec 32 := Scalar.addi c0_i32_78 v89
  let v119 : Index := Scalar.indexCast v90
  let c112 : Index := 112#32
  ![v119.toNat, 112]
def k1_off63 (k1_t4 : Fin k1_t4_loop.trips) : Fin 2 → Nat :=
  let c0_i32_78 : BitVec 32 := 0#32
  let c0_i32_40 : BitVec 32 := 0#32
  let c1_i32_42 : BitVec 32 := 1#32
  let arg12 : BitVec 32 := Scf.iv c0_i32_40 c1_i32_42 k1_t4
  let c1_i32_77 : BitVec 32 := 1#32
  let v89 : BitVec 32 := Scalar.muli arg12 c1_i32_77
  let v90 : BitVec 32 := Scalar.addi c0_i32_78 v89
  let v123 : Index := Scalar.indexCast v90
  let c128 : Index := 128#32
  ![v123.toNat, 128]
def k1_off64 (k1_t4 : Fin k1_t4_loop.trips) : Fin 2 → Nat :=
  let c0_i32_78 : BitVec 32 := 0#32
  let c0_i32_40 : BitVec 32 := 0#32
  let c1_i32_42 : BitVec 32 := 1#32
  let arg12 : BitVec 32 := Scf.iv c0_i32_40 c1_i32_42 k1_t4
  let c1_i32_77 : BitVec 32 := 1#32
  let v89 : BitVec 32 := Scalar.muli arg12 c1_i32_77
  let v90 : BitVec 32 := Scalar.addi c0_i32_78 v89
  let v127 : Index := Scalar.indexCast v90
  let c144 : Index := 144#32
  ![v127.toNat, 144]
def k1_off65 (k1_t4 : Fin k1_t4_loop.trips) : Fin 2 → Nat :=
  let c0_i32_78 : BitVec 32 := 0#32
  let c0_i32_40 : BitVec 32 := 0#32
  let c1_i32_42 : BitVec 32 := 1#32
  let arg12 : BitVec 32 := Scf.iv c0_i32_40 c1_i32_42 k1_t4
  let c1_i32_77 : BitVec 32 := 1#32
  let v89 : BitVec 32 := Scalar.muli arg12 c1_i32_77
  let v90 : BitVec 32 := Scalar.addi c0_i32_78 v89
  let v131 : Index := Scalar.indexCast v90
  let c160 : Index := 160#32
  ![v131.toNat, 160]
def k1_off66 (k1_t4 : Fin k1_t4_loop.trips) : Fin 2 → Nat :=
  let c0_i32_78 : BitVec 32 := 0#32
  let c0_i32_40 : BitVec 32 := 0#32
  let c1_i32_42 : BitVec 32 := 1#32
  let arg12 : BitVec 32 := Scf.iv c0_i32_40 c1_i32_42 k1_t4
  let c1_i32_77 : BitVec 32 := 1#32
  let v89 : BitVec 32 := Scalar.muli arg12 c1_i32_77
  let v90 : BitVec 32 := Scalar.addi c0_i32_78 v89
  let v135 : Index := Scalar.indexCast v90
  let c176 : Index := 176#32
  ![v135.toNat, 176]
def k1_off67 (k1_t4 : Fin k1_t4_loop.trips) : Fin 2 → Nat :=
  let c0_i32_78 : BitVec 32 := 0#32
  let c0_i32_40 : BitVec 32 := 0#32
  let c1_i32_42 : BitVec 32 := 1#32
  let arg12 : BitVec 32 := Scf.iv c0_i32_40 c1_i32_42 k1_t4
  let c1_i32_77 : BitVec 32 := 1#32
  let v89 : BitVec 32 := Scalar.muli arg12 c1_i32_77
  let v90 : BitVec 32 := Scalar.addi c0_i32_78 v89
  let v139 : Index := Scalar.indexCast v90
  let c192 : Index := 192#32
  ![v139.toNat, 192]
def k1_off68 (k1_t4 : Fin k1_t4_loop.trips) : Fin 2 → Nat :=
  let c0_i32_78 : BitVec 32 := 0#32
  let c0_i32_40 : BitVec 32 := 0#32
  let c1_i32_42 : BitVec 32 := 1#32
  let arg12 : BitVec 32 := Scf.iv c0_i32_40 c1_i32_42 k1_t4
  let c1_i32_77 : BitVec 32 := 1#32
  let v89 : BitVec 32 := Scalar.muli arg12 c1_i32_77
  let v90 : BitVec 32 := Scalar.addi c0_i32_78 v89
  let v143 : Index := Scalar.indexCast v90
  let c208 : Index := 208#32
  ![v143.toNat, 208]
def k1_off69 (k1_t4 : Fin k1_t4_loop.trips) : Fin 2 → Nat :=
  let c0_i32_78 : BitVec 32 := 0#32
  let c0_i32_40 : BitVec 32 := 0#32
  let c1_i32_42 : BitVec 32 := 1#32
  let arg12 : BitVec 32 := Scf.iv c0_i32_40 c1_i32_42 k1_t4
  let c1_i32_77 : BitVec 32 := 1#32
  let v89 : BitVec 32 := Scalar.muli arg12 c1_i32_77
  let v90 : BitVec 32 := Scalar.addi c0_i32_78 v89
  let v147 : Index := Scalar.indexCast v90
  let c224 : Index := 224#32
  ![v147.toNat, 224]
def k1_off70 (k1_t4 : Fin k1_t4_loop.trips) : Fin 2 → Nat :=
  let c0_i32_78 : BitVec 32 := 0#32
  let c0_i32_40 : BitVec 32 := 0#32
  let c1_i32_42 : BitVec 32 := 1#32
  let arg12 : BitVec 32 := Scf.iv c0_i32_40 c1_i32_42 k1_t4
  let c1_i32_77 : BitVec 32 := 1#32
  let v89 : BitVec 32 := Scalar.muli arg12 c1_i32_77
  let v90 : BitVec 32 := Scalar.addi c0_i32_78 v89
  let v151 : Index := Scalar.indexCast v90
  let c240 : Index := 240#32
  ![v151.toNat, 240]
def k1_off71 (k1_t4 : Fin k1_t4_loop.trips) : Fin 2 → Nat :=
  let c0_i32_78 : BitVec 32 := 0#32
  let c0_i32_40 : BitVec 32 := 0#32
  let c1_i32_42 : BitVec 32 := 1#32
  let arg12 : BitVec 32 := Scf.iv c0_i32_40 c1_i32_42 k1_t4
  let c1_i32_77 : BitVec 32 := 1#32
  let v89 : BitVec 32 := Scalar.muli arg12 c1_i32_77
  let v90 : BitVec 32 := Scalar.addi c0_i32_78 v89
  let v155 : Index := Scalar.indexCast v90
  let c256 : Index := 256#32
  ![v155.toNat, 256]
def k1_off72 (k1_t4 : Fin k1_t4_loop.trips) : Fin 2 → Nat :=
  let c0_i32_78 : BitVec 32 := 0#32
  let c0_i32_40 : BitVec 32 := 0#32
  let c1_i32_42 : BitVec 32 := 1#32
  let arg12 : BitVec 32 := Scf.iv c0_i32_40 c1_i32_42 k1_t4
  let c1_i32_77 : BitVec 32 := 1#32
  let v89 : BitVec 32 := Scalar.muli arg12 c1_i32_77
  let v90 : BitVec 32 := Scalar.addi c0_i32_78 v89
  let v159 : Index := Scalar.indexCast v90
  let c272 : Index := 272#32
  ![v159.toNat, 272]
def k1_off73 (k1_t4 : Fin k1_t4_loop.trips) : Fin 2 → Nat :=
  let c0_i32_78 : BitVec 32 := 0#32
  let c0_i32_40 : BitVec 32 := 0#32
  let c1_i32_42 : BitVec 32 := 1#32
  let arg12 : BitVec 32 := Scf.iv c0_i32_40 c1_i32_42 k1_t4
  let c1_i32_77 : BitVec 32 := 1#32
  let v89 : BitVec 32 := Scalar.muli arg12 c1_i32_77
  let v90 : BitVec 32 := Scalar.addi c0_i32_78 v89
  let v163 : Index := Scalar.indexCast v90
  let c288 : Index := 288#32
  ![v163.toNat, 288]
def k1_off74 (k1_t4 : Fin k1_t4_loop.trips) : Fin 2 → Nat :=
  let c0_i32_78 : BitVec 32 := 0#32
  let c0_i32_40 : BitVec 32 := 0#32
  let c1_i32_42 : BitVec 32 := 1#32
  let arg12 : BitVec 32 := Scf.iv c0_i32_40 c1_i32_42 k1_t4
  let c1_i32_77 : BitVec 32 := 1#32
  let v89 : BitVec 32 := Scalar.muli arg12 c1_i32_77
  let v90 : BitVec 32 := Scalar.addi c0_i32_78 v89
  let v167 : Index := Scalar.indexCast v90
  let c304 : Index := 304#32
  ![v167.toNat, 304]
def k1_off75 (k1_t4 : Fin k1_t4_loop.trips) : Fin 2 → Nat :=
  let c0_i32_78 : BitVec 32 := 0#32
  let c0_i32_40 : BitVec 32 := 0#32
  let c1_i32_42 : BitVec 32 := 1#32
  let arg12 : BitVec 32 := Scf.iv c0_i32_40 c1_i32_42 k1_t4
  let c1_i32_77 : BitVec 32 := 1#32
  let v89 : BitVec 32 := Scalar.muli arg12 c1_i32_77
  let v90 : BitVec 32 := Scalar.addi c0_i32_78 v89
  let v171 : Index := Scalar.indexCast v90
  let c320 : Index := 320#32
  ![v171.toNat, 320]
def k1_off76 (k1_t4 : Fin k1_t4_loop.trips) : Fin 2 → Nat :=
  let c0_i32_78 : BitVec 32 := 0#32
  let c0_i32_40 : BitVec 32 := 0#32
  let c1_i32_42 : BitVec 32 := 1#32
  let arg12 : BitVec 32 := Scf.iv c0_i32_40 c1_i32_42 k1_t4
  let c1_i32_77 : BitVec 32 := 1#32
  let v89 : BitVec 32 := Scalar.muli arg12 c1_i32_77
  let v90 : BitVec 32 := Scalar.addi c0_i32_78 v89
  let v175 : Index := Scalar.indexCast v90
  let c336 : Index := 336#32
  ![v175.toNat, 336]
def k1_off77 (k1_t4 : Fin k1_t4_loop.trips) : Fin 2 → Nat :=
  let c0_i32_78 : BitVec 32 := 0#32
  let c0_i32_40 : BitVec 32 := 0#32
  let c1_i32_42 : BitVec 32 := 1#32
  let arg12 : BitVec 32 := Scf.iv c0_i32_40 c1_i32_42 k1_t4
  let c1_i32_77 : BitVec 32 := 1#32
  let v89 : BitVec 32 := Scalar.muli arg12 c1_i32_77
  let v90 : BitVec 32 := Scalar.addi c0_i32_78 v89
  let v179 : Index := Scalar.indexCast v90
  let c352 : Index := 352#32
  ![v179.toNat, 352]
def k1_off78 (k1_t4 : Fin k1_t4_loop.trips) : Fin 2 → Nat :=
  let c0_i32_78 : BitVec 32 := 0#32
  let c0_i32_40 : BitVec 32 := 0#32
  let c1_i32_42 : BitVec 32 := 1#32
  let arg12 : BitVec 32 := Scf.iv c0_i32_40 c1_i32_42 k1_t4
  let c1_i32_77 : BitVec 32 := 1#32
  let v89 : BitVec 32 := Scalar.muli arg12 c1_i32_77
  let v90 : BitVec 32 := Scalar.addi c0_i32_78 v89
  let v183 : Index := Scalar.indexCast v90
  let c368 : Index := 368#32
  ![v183.toNat, 368]
def k1_cond4 (k1_t1 : Fin k1_t1_loop.trips) : BitVec 1 :=
  let c0_i32_13 : BitVec 32 := 0#32
  let c0_i32_8 : BitVec 32 := 0#32
  let c1_i32 : BitVec 32 := 1#32
  let arg11 : BitVec 32 := Scf.iv c0_i32_8 c1_i32 k1_t1
  let c1_i32_12 : BitVec 32 := 1#32
  let v17 : BitVec 32 := Scalar.muli arg11 c1_i32_12
  let v18 : BitVec 32 := Scalar.addi c0_i32_13 v17
  let c6_i32_44 : BitVec 32 := 6#32
  let v47 : BitVec 1 := Scalar.cmpi .slt v18 c6_i32_44
  let v48 : BitVec 32 := Scalar.extui v47
  let c0_i32_45 : BitVec 32 := 0#32
  let v49 : BitVec 1 := Scalar.cmpi .ne v48 c0_i32_45
  v49

def k1_off79 (i : grid1.Coords) (k1_t1 : Fin k1_t1_loop.trips) : Fin 3 → Nat :=
  let c576_i32 : BitVec 32 := 576#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let v3 : BitVec 32 := Scalar.addi c576_i32 v2
  let c0_i32_13 : BitVec 32 := 0#32
  let c0_i32_8 : BitVec 32 := 0#32
  let c1_i32 : BitVec 32 := 1#32
  let arg11 : BitVec 32 := Scf.iv c0_i32_8 c1_i32 k1_t1
  let c1_i32_12 : BitVec 32 := 1#32
  let v17 : BitVec 32 := Scalar.muli arg11 c1_i32_12
  let v18 : BitVec 32 := Scalar.addi c0_i32_13 v17
  let v89 : BitVec 32 := Scalar.addi v3 v18
  let c320_i32 : BitVec 32 := 320#32
  let c0_i32_77 : BitVec 32 := 0#32
  ![v89.toNat, 320, 0]
@[reducible] def k1_t5_loop : Scf.Loop 32 :=
  let c0_i32_50 : BitVec 32 := 0#32
  let c64_i32_51 : BitVec 32 := 64#32
  let v54 : BitVec 32 := Scalar.addi c0_i32_50 c64_i32_51
  let c1_i32_52 : BitVec 32 := 1#32
  ⟨c0_i32_50, v54, c1_i32_52⟩
def k1_off80 (k1_t5 : Fin k1_t5_loop.trips) : Fin 2 → Nat :=
  let c0_i32_78 : BitVec 32 := 0#32
  let c0_i32_50 : BitVec 32 := 0#32
  let c1_i32_52 : BitVec 32 := 1#32
  let arg12 : BitVec 32 := Scf.iv c0_i32_50 c1_i32_52 k1_t5
  let c1_i32_77 : BitVec 32 := 1#32
  let v89 : BitVec 32 := Scalar.muli arg12 c1_i32_77
  let v90 : BitVec 32 := Scalar.addi c0_i32_78 v89
  let v91 : Index := Scalar.indexCast v90
  let c0 : Index := 0#32
  ![v91.toNat, 0]
def k1_off81 (k1_t5 : Fin k1_t5_loop.trips) : Fin 2 → Nat :=
  let c0_i32_78 : BitVec 32 := 0#32
  let c0_i32_50 : BitVec 32 := 0#32
  let c1_i32_52 : BitVec 32 := 1#32
  let arg12 : BitVec 32 := Scf.iv c0_i32_50 c1_i32_52 k1_t5
  let c1_i32_77 : BitVec 32 := 1#32
  let v89 : BitVec 32 := Scalar.muli arg12 c1_i32_77
  let v90 : BitVec 32 := Scalar.addi c0_i32_78 v89
  let v95 : Index := Scalar.indexCast v90
  let c16 : Index := 16#32
  ![v95.toNat, 16]
def k1_off82 (k1_t5 : Fin k1_t5_loop.trips) : Fin 2 → Nat :=
  let c0_i32_78 : BitVec 32 := 0#32
  let c0_i32_50 : BitVec 32 := 0#32
  let c1_i32_52 : BitVec 32 := 1#32
  let arg12 : BitVec 32 := Scf.iv c0_i32_50 c1_i32_52 k1_t5
  let c1_i32_77 : BitVec 32 := 1#32
  let v89 : BitVec 32 := Scalar.muli arg12 c1_i32_77
  let v90 : BitVec 32 := Scalar.addi c0_i32_78 v89
  let v99 : Index := Scalar.indexCast v90
  let c32 : Index := 32#32
  ![v99.toNat, 32]
def k1_off83 (k1_t5 : Fin k1_t5_loop.trips) : Fin 2 → Nat :=
  let c0_i32_78 : BitVec 32 := 0#32
  let c0_i32_50 : BitVec 32 := 0#32
  let c1_i32_52 : BitVec 32 := 1#32
  let arg12 : BitVec 32 := Scf.iv c0_i32_50 c1_i32_52 k1_t5
  let c1_i32_77 : BitVec 32 := 1#32
  let v89 : BitVec 32 := Scalar.muli arg12 c1_i32_77
  let v90 : BitVec 32 := Scalar.addi c0_i32_78 v89
  let v103 : Index := Scalar.indexCast v90
  let c48 : Index := 48#32
  ![v103.toNat, 48]
def k1_off84 (k1_t5 : Fin k1_t5_loop.trips) : Fin 2 → Nat :=
  let c0_i32_78 : BitVec 32 := 0#32
  let c0_i32_50 : BitVec 32 := 0#32
  let c1_i32_52 : BitVec 32 := 1#32
  let arg12 : BitVec 32 := Scf.iv c0_i32_50 c1_i32_52 k1_t5
  let c1_i32_77 : BitVec 32 := 1#32
  let v89 : BitVec 32 := Scalar.muli arg12 c1_i32_77
  let v90 : BitVec 32 := Scalar.addi c0_i32_78 v89
  let v107 : Index := Scalar.indexCast v90
  let c64 : Index := 64#32
  ![v107.toNat, 64]
def k1_off85 (k1_t5 : Fin k1_t5_loop.trips) : Fin 2 → Nat :=
  let c0_i32_78 : BitVec 32 := 0#32
  let c0_i32_50 : BitVec 32 := 0#32
  let c1_i32_52 : BitVec 32 := 1#32
  let arg12 : BitVec 32 := Scf.iv c0_i32_50 c1_i32_52 k1_t5
  let c1_i32_77 : BitVec 32 := 1#32
  let v89 : BitVec 32 := Scalar.muli arg12 c1_i32_77
  let v90 : BitVec 32 := Scalar.addi c0_i32_78 v89
  let v111 : Index := Scalar.indexCast v90
  let c80 : Index := 80#32
  ![v111.toNat, 80]
def k1_off86 (k1_t5 : Fin k1_t5_loop.trips) : Fin 2 → Nat :=
  let c0_i32_78 : BitVec 32 := 0#32
  let c0_i32_50 : BitVec 32 := 0#32
  let c1_i32_52 : BitVec 32 := 1#32
  let arg12 : BitVec 32 := Scf.iv c0_i32_50 c1_i32_52 k1_t5
  let c1_i32_77 : BitVec 32 := 1#32
  let v89 : BitVec 32 := Scalar.muli arg12 c1_i32_77
  let v90 : BitVec 32 := Scalar.addi c0_i32_78 v89
  let v115 : Index := Scalar.indexCast v90
  let c96 : Index := 96#32
  ![v115.toNat, 96]
def k1_off87 (k1_t5 : Fin k1_t5_loop.trips) : Fin 2 → Nat :=
  let c0_i32_78 : BitVec 32 := 0#32
  let c0_i32_50 : BitVec 32 := 0#32
  let c1_i32_52 : BitVec 32 := 1#32
  let arg12 : BitVec 32 := Scf.iv c0_i32_50 c1_i32_52 k1_t5
  let c1_i32_77 : BitVec 32 := 1#32
  let v89 : BitVec 32 := Scalar.muli arg12 c1_i32_77
  let v90 : BitVec 32 := Scalar.addi c0_i32_78 v89
  let v119 : Index := Scalar.indexCast v90
  let c112 : Index := 112#32
  ![v119.toNat, 112]
def k1_off88 (k1_t5 : Fin k1_t5_loop.trips) : Fin 2 → Nat :=
  let c0_i32_78 : BitVec 32 := 0#32
  let c0_i32_50 : BitVec 32 := 0#32
  let c1_i32_52 : BitVec 32 := 1#32
  let arg12 : BitVec 32 := Scf.iv c0_i32_50 c1_i32_52 k1_t5
  let c1_i32_77 : BitVec 32 := 1#32
  let v89 : BitVec 32 := Scalar.muli arg12 c1_i32_77
  let v90 : BitVec 32 := Scalar.addi c0_i32_78 v89
  let v123 : Index := Scalar.indexCast v90
  let c128 : Index := 128#32
  ![v123.toNat, 128]
def k1_off89 (k1_t5 : Fin k1_t5_loop.trips) : Fin 2 → Nat :=
  let c0_i32_78 : BitVec 32 := 0#32
  let c0_i32_50 : BitVec 32 := 0#32
  let c1_i32_52 : BitVec 32 := 1#32
  let arg12 : BitVec 32 := Scf.iv c0_i32_50 c1_i32_52 k1_t5
  let c1_i32_77 : BitVec 32 := 1#32
  let v89 : BitVec 32 := Scalar.muli arg12 c1_i32_77
  let v90 : BitVec 32 := Scalar.addi c0_i32_78 v89
  let v127 : Index := Scalar.indexCast v90
  let c144 : Index := 144#32
  ![v127.toNat, 144]
def k1_off90 (k1_t5 : Fin k1_t5_loop.trips) : Fin 2 → Nat :=
  let c0_i32_78 : BitVec 32 := 0#32
  let c0_i32_50 : BitVec 32 := 0#32
  let c1_i32_52 : BitVec 32 := 1#32
  let arg12 : BitVec 32 := Scf.iv c0_i32_50 c1_i32_52 k1_t5
  let c1_i32_77 : BitVec 32 := 1#32
  let v89 : BitVec 32 := Scalar.muli arg12 c1_i32_77
  let v90 : BitVec 32 := Scalar.addi c0_i32_78 v89
  let v131 : Index := Scalar.indexCast v90
  let c160 : Index := 160#32
  ![v131.toNat, 160]
def k1_off91 (k1_t5 : Fin k1_t5_loop.trips) : Fin 2 → Nat :=
  let c0_i32_78 : BitVec 32 := 0#32
  let c0_i32_50 : BitVec 32 := 0#32
  let c1_i32_52 : BitVec 32 := 1#32
  let arg12 : BitVec 32 := Scf.iv c0_i32_50 c1_i32_52 k1_t5
  let c1_i32_77 : BitVec 32 := 1#32
  let v89 : BitVec 32 := Scalar.muli arg12 c1_i32_77
  let v90 : BitVec 32 := Scalar.addi c0_i32_78 v89
  let v135 : Index := Scalar.indexCast v90
  let c176 : Index := 176#32
  ![v135.toNat, 176]
def k1_off92 (k1_t5 : Fin k1_t5_loop.trips) : Fin 2 → Nat :=
  let c0_i32_78 : BitVec 32 := 0#32
  let c0_i32_50 : BitVec 32 := 0#32
  let c1_i32_52 : BitVec 32 := 1#32
  let arg12 : BitVec 32 := Scf.iv c0_i32_50 c1_i32_52 k1_t5
  let c1_i32_77 : BitVec 32 := 1#32
  let v89 : BitVec 32 := Scalar.muli arg12 c1_i32_77
  let v90 : BitVec 32 := Scalar.addi c0_i32_78 v89
  let v139 : Index := Scalar.indexCast v90
  let c192 : Index := 192#32
  ![v139.toNat, 192]
def k1_off93 (k1_t5 : Fin k1_t5_loop.trips) : Fin 2 → Nat :=
  let c0_i32_78 : BitVec 32 := 0#32
  let c0_i32_50 : BitVec 32 := 0#32
  let c1_i32_52 : BitVec 32 := 1#32
  let arg12 : BitVec 32 := Scf.iv c0_i32_50 c1_i32_52 k1_t5
  let c1_i32_77 : BitVec 32 := 1#32
  let v89 : BitVec 32 := Scalar.muli arg12 c1_i32_77
  let v90 : BitVec 32 := Scalar.addi c0_i32_78 v89
  let v143 : Index := Scalar.indexCast v90
  let c208 : Index := 208#32
  ![v143.toNat, 208]
def k1_off94 (k1_t5 : Fin k1_t5_loop.trips) : Fin 2 → Nat :=
  let c0_i32_78 : BitVec 32 := 0#32
  let c0_i32_50 : BitVec 32 := 0#32
  let c1_i32_52 : BitVec 32 := 1#32
  let arg12 : BitVec 32 := Scf.iv c0_i32_50 c1_i32_52 k1_t5
  let c1_i32_77 : BitVec 32 := 1#32
  let v89 : BitVec 32 := Scalar.muli arg12 c1_i32_77
  let v90 : BitVec 32 := Scalar.addi c0_i32_78 v89
  let v147 : Index := Scalar.indexCast v90
  let c224 : Index := 224#32
  ![v147.toNat, 224]
def k1_off95 (k1_t5 : Fin k1_t5_loop.trips) : Fin 2 → Nat :=
  let c0_i32_78 : BitVec 32 := 0#32
  let c0_i32_50 : BitVec 32 := 0#32
  let c1_i32_52 : BitVec 32 := 1#32
  let arg12 : BitVec 32 := Scf.iv c0_i32_50 c1_i32_52 k1_t5
  let c1_i32_77 : BitVec 32 := 1#32
  let v89 : BitVec 32 := Scalar.muli arg12 c1_i32_77
  let v90 : BitVec 32 := Scalar.addi c0_i32_78 v89
  let v151 : Index := Scalar.indexCast v90
  let c240 : Index := 240#32
  ![v151.toNat, 240]
def k1_off96 (k1_t5 : Fin k1_t5_loop.trips) : Fin 2 → Nat :=
  let c0_i32_78 : BitVec 32 := 0#32
  let c0_i32_50 : BitVec 32 := 0#32
  let c1_i32_52 : BitVec 32 := 1#32
  let arg12 : BitVec 32 := Scf.iv c0_i32_50 c1_i32_52 k1_t5
  let c1_i32_77 : BitVec 32 := 1#32
  let v89 : BitVec 32 := Scalar.muli arg12 c1_i32_77
  let v90 : BitVec 32 := Scalar.addi c0_i32_78 v89
  let v155 : Index := Scalar.indexCast v90
  let c256 : Index := 256#32
  ![v155.toNat, 256]
def k1_off97 (k1_t5 : Fin k1_t5_loop.trips) : Fin 2 → Nat :=
  let c0_i32_78 : BitVec 32 := 0#32
  let c0_i32_50 : BitVec 32 := 0#32
  let c1_i32_52 : BitVec 32 := 1#32
  let arg12 : BitVec 32 := Scf.iv c0_i32_50 c1_i32_52 k1_t5
  let c1_i32_77 : BitVec 32 := 1#32
  let v89 : BitVec 32 := Scalar.muli arg12 c1_i32_77
  let v90 : BitVec 32 := Scalar.addi c0_i32_78 v89
  let v159 : Index := Scalar.indexCast v90
  let c272 : Index := 272#32
  ![v159.toNat, 272]
def k1_off98 (k1_t5 : Fin k1_t5_loop.trips) : Fin 2 → Nat :=
  let c0_i32_78 : BitVec 32 := 0#32
  let c0_i32_50 : BitVec 32 := 0#32
  let c1_i32_52 : BitVec 32 := 1#32
  let arg12 : BitVec 32 := Scf.iv c0_i32_50 c1_i32_52 k1_t5
  let c1_i32_77 : BitVec 32 := 1#32
  let v89 : BitVec 32 := Scalar.muli arg12 c1_i32_77
  let v90 : BitVec 32 := Scalar.addi c0_i32_78 v89
  let v163 : Index := Scalar.indexCast v90
  let c288 : Index := 288#32
  ![v163.toNat, 288]
def k1_off99 (k1_t5 : Fin k1_t5_loop.trips) : Fin 2 → Nat :=
  let c0_i32_78 : BitVec 32 := 0#32
  let c0_i32_50 : BitVec 32 := 0#32
  let c1_i32_52 : BitVec 32 := 1#32
  let arg12 : BitVec 32 := Scf.iv c0_i32_50 c1_i32_52 k1_t5
  let c1_i32_77 : BitVec 32 := 1#32
  let v89 : BitVec 32 := Scalar.muli arg12 c1_i32_77
  let v90 : BitVec 32 := Scalar.addi c0_i32_78 v89
  let v167 : Index := Scalar.indexCast v90
  let c304 : Index := 304#32
  ![v167.toNat, 304]
def k1_off100 (k1_t5 : Fin k1_t5_loop.trips) : Fin 2 → Nat :=
  let c0_i32_78 : BitVec 32 := 0#32
  let c0_i32_50 : BitVec 32 := 0#32
  let c1_i32_52 : BitVec 32 := 1#32
  let arg12 : BitVec 32 := Scf.iv c0_i32_50 c1_i32_52 k1_t5
  let c1_i32_77 : BitVec 32 := 1#32
  let v89 : BitVec 32 := Scalar.muli arg12 c1_i32_77
  let v90 : BitVec 32 := Scalar.addi c0_i32_78 v89
  let v171 : Index := Scalar.indexCast v90
  let c320 : Index := 320#32
  ![v171.toNat, 320]
def k1_off101 (k1_t5 : Fin k1_t5_loop.trips) : Fin 2 → Nat :=
  let c0_i32_78 : BitVec 32 := 0#32
  let c0_i32_50 : BitVec 32 := 0#32
  let c1_i32_52 : BitVec 32 := 1#32
  let arg12 : BitVec 32 := Scf.iv c0_i32_50 c1_i32_52 k1_t5
  let c1_i32_77 : BitVec 32 := 1#32
  let v89 : BitVec 32 := Scalar.muli arg12 c1_i32_77
  let v90 : BitVec 32 := Scalar.addi c0_i32_78 v89
  let v175 : Index := Scalar.indexCast v90
  let c336 : Index := 336#32
  ![v175.toNat, 336]
def k1_off102 (k1_t5 : Fin k1_t5_loop.trips) : Fin 2 → Nat :=
  let c0_i32_78 : BitVec 32 := 0#32
  let c0_i32_50 : BitVec 32 := 0#32
  let c1_i32_52 : BitVec 32 := 1#32
  let arg12 : BitVec 32 := Scf.iv c0_i32_50 c1_i32_52 k1_t5
  let c1_i32_77 : BitVec 32 := 1#32
  let v89 : BitVec 32 := Scalar.muli arg12 c1_i32_77
  let v90 : BitVec 32 := Scalar.addi c0_i32_78 v89
  let v179 : Index := Scalar.indexCast v90
  let c352 : Index := 352#32
  ![v179.toNat, 352]
def k1_off103 (k1_t5 : Fin k1_t5_loop.trips) : Fin 2 → Nat :=
  let c0_i32_78 : BitVec 32 := 0#32
  let c0_i32_50 : BitVec 32 := 0#32
  let c1_i32_52 : BitVec 32 := 1#32
  let arg12 : BitVec 32 := Scf.iv c0_i32_50 c1_i32_52 k1_t5
  let c1_i32_77 : BitVec 32 := 1#32
  let v89 : BitVec 32 := Scalar.muli arg12 c1_i32_77
  let v90 : BitVec 32 := Scalar.addi c0_i32_78 v89
  let v183 : Index := Scalar.indexCast v90
  let c368 : Index := 368#32
  ![v183.toNat, 368]
def k1_cond5 (k1_t1 : Fin k1_t1_loop.trips) : BitVec 1 :=
  let c0_i32_13 : BitVec 32 := 0#32
  let c0_i32_8 : BitVec 32 := 0#32
  let c1_i32 : BitVec 32 := 1#32
  let arg11 : BitVec 32 := Scf.iv c0_i32_8 c1_i32 k1_t1
  let c1_i32_12 : BitVec 32 := 1#32
  let v17 : BitVec 32 := Scalar.muli arg11 c1_i32_12
  let v18 : BitVec 32 := Scalar.addi c0_i32_13 v17
  let c1_i32_54 : BitVec 32 := 1#32
  let v56 : BitVec 32 := Scalar.addi v18 c1_i32_54
  let c6_i32_55 : BitVec 32 := 6#32
  let v57 : BitVec 1 := Scalar.cmpi .slt v56 c6_i32_55
  let v58 : BitVec 32 := Scalar.extui v57
  let c0_i32_56 : BitVec 32 := 0#32
  let v59 : BitVec 1 := Scalar.cmpi .ne v58 c0_i32_56
  v59

def k1_off104 (i : grid1.Coords) (k1_t1 : Fin k1_t1_loop.trips) : Fin 3 → Nat :=
  let c576_i32 : BitVec 32 := 576#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let v3 : BitVec 32 := Scalar.addi c576_i32 v2
  let c0_i32_13 : BitVec 32 := 0#32
  let c0_i32_8 : BitVec 32 := 0#32
  let c1_i32 : BitVec 32 := 1#32
  let arg11 : BitVec 32 := Scf.iv c0_i32_8 c1_i32 k1_t1
  let c1_i32_12 : BitVec 32 := 1#32
  let v17 : BitVec 32 := Scalar.muli arg11 c1_i32_12
  let v18 : BitVec 32 := Scalar.addi c0_i32_13 v17
  let c1_i32_77 : BitVec 32 := 1#32
  let v89 : BitVec 32 := Scalar.addi v18 c1_i32_77
  let v90 : BitVec 32 := Scalar.addi v3 v89
  let c0_i32_78 : BitVec 32 := 0#32
  let c0_i32_79 : BitVec 32 := 0#32
  ![v90.toNat, 0, 0]
@[reducible] def k1_t6_loop : Scf.Loop 32 :=
  let c0_i32_61 : BitVec 32 := 0#32
  let c64_i32_62 : BitVec 32 := 64#32
  let v64 : BitVec 32 := Scalar.addi c0_i32_61 c64_i32_62
  let c1_i32_63 : BitVec 32 := 1#32
  ⟨c0_i32_61, v64, c1_i32_63⟩
def k1_off105 (k1_t6 : Fin k1_t6_loop.trips) : Fin 2 → Nat :=
  let c0_i32_78 : BitVec 32 := 0#32
  let c0_i32_61 : BitVec 32 := 0#32
  let c1_i32_63 : BitVec 32 := 1#32
  let arg12 : BitVec 32 := Scf.iv c0_i32_61 c1_i32_63 k1_t6
  let c1_i32_77 : BitVec 32 := 1#32
  let v89 : BitVec 32 := Scalar.muli arg12 c1_i32_77
  let v90 : BitVec 32 := Scalar.addi c0_i32_78 v89
  let v91 : Index := Scalar.indexCast v90
  let c0 : Index := 0#32
  ![v91.toNat, 0]
def k1_off106 (k1_t6 : Fin k1_t6_loop.trips) : Fin 2 → Nat :=
  let c0_i32_78 : BitVec 32 := 0#32
  let c0_i32_61 : BitVec 32 := 0#32
  let c1_i32_63 : BitVec 32 := 1#32
  let arg12 : BitVec 32 := Scf.iv c0_i32_61 c1_i32_63 k1_t6
  let c1_i32_77 : BitVec 32 := 1#32
  let v89 : BitVec 32 := Scalar.muli arg12 c1_i32_77
  let v90 : BitVec 32 := Scalar.addi c0_i32_78 v89
  let v95 : Index := Scalar.indexCast v90
  let c16 : Index := 16#32
  ![v95.toNat, 16]
def k1_off107 (k1_t6 : Fin k1_t6_loop.trips) : Fin 2 → Nat :=
  let c0_i32_78 : BitVec 32 := 0#32
  let c0_i32_61 : BitVec 32 := 0#32
  let c1_i32_63 : BitVec 32 := 1#32
  let arg12 : BitVec 32 := Scf.iv c0_i32_61 c1_i32_63 k1_t6
  let c1_i32_77 : BitVec 32 := 1#32
  let v89 : BitVec 32 := Scalar.muli arg12 c1_i32_77
  let v90 : BitVec 32 := Scalar.addi c0_i32_78 v89
  let v99 : Index := Scalar.indexCast v90
  let c32 : Index := 32#32
  ![v99.toNat, 32]
def k1_off108 (k1_t6 : Fin k1_t6_loop.trips) : Fin 2 → Nat :=
  let c0_i32_78 : BitVec 32 := 0#32
  let c0_i32_61 : BitVec 32 := 0#32
  let c1_i32_63 : BitVec 32 := 1#32
  let arg12 : BitVec 32 := Scf.iv c0_i32_61 c1_i32_63 k1_t6
  let c1_i32_77 : BitVec 32 := 1#32
  let v89 : BitVec 32 := Scalar.muli arg12 c1_i32_77
  let v90 : BitVec 32 := Scalar.addi c0_i32_78 v89
  let v103 : Index := Scalar.indexCast v90
  let c48 : Index := 48#32
  ![v103.toNat, 48]
def k1_off109 (k1_t6 : Fin k1_t6_loop.trips) : Fin 2 → Nat :=
  let c0_i32_78 : BitVec 32 := 0#32
  let c0_i32_61 : BitVec 32 := 0#32
  let c1_i32_63 : BitVec 32 := 1#32
  let arg12 : BitVec 32 := Scf.iv c0_i32_61 c1_i32_63 k1_t6
  let c1_i32_77 : BitVec 32 := 1#32
  let v89 : BitVec 32 := Scalar.muli arg12 c1_i32_77
  let v90 : BitVec 32 := Scalar.addi c0_i32_78 v89
  let v107 : Index := Scalar.indexCast v90
  let c64 : Index := 64#32
  ![v107.toNat, 64]
def k1_off110 (k1_t6 : Fin k1_t6_loop.trips) : Fin 2 → Nat :=
  let c0_i32_78 : BitVec 32 := 0#32
  let c0_i32_61 : BitVec 32 := 0#32
  let c1_i32_63 : BitVec 32 := 1#32
  let arg12 : BitVec 32 := Scf.iv c0_i32_61 c1_i32_63 k1_t6
  let c1_i32_77 : BitVec 32 := 1#32
  let v89 : BitVec 32 := Scalar.muli arg12 c1_i32_77
  let v90 : BitVec 32 := Scalar.addi c0_i32_78 v89
  let v111 : Index := Scalar.indexCast v90
  let c80 : Index := 80#32
  ![v111.toNat, 80]
def k1_off111 (k1_t6 : Fin k1_t6_loop.trips) : Fin 2 → Nat :=
  let c0_i32_78 : BitVec 32 := 0#32
  let c0_i32_61 : BitVec 32 := 0#32
  let c1_i32_63 : BitVec 32 := 1#32
  let arg12 : BitVec 32 := Scf.iv c0_i32_61 c1_i32_63 k1_t6
  let c1_i32_77 : BitVec 32 := 1#32
  let v89 : BitVec 32 := Scalar.muli arg12 c1_i32_77
  let v90 : BitVec 32 := Scalar.addi c0_i32_78 v89
  let v115 : Index := Scalar.indexCast v90
  let c96 : Index := 96#32
  ![v115.toNat, 96]
def k1_off112 (k1_t6 : Fin k1_t6_loop.trips) : Fin 2 → Nat :=
  let c0_i32_78 : BitVec 32 := 0#32
  let c0_i32_61 : BitVec 32 := 0#32
  let c1_i32_63 : BitVec 32 := 1#32
  let arg12 : BitVec 32 := Scf.iv c0_i32_61 c1_i32_63 k1_t6
  let c1_i32_77 : BitVec 32 := 1#32
  let v89 : BitVec 32 := Scalar.muli arg12 c1_i32_77
  let v90 : BitVec 32 := Scalar.addi c0_i32_78 v89
  let v119 : Index := Scalar.indexCast v90
  let c112 : Index := 112#32
  ![v119.toNat, 112]
def k1_off113 (k1_t6 : Fin k1_t6_loop.trips) : Fin 2 → Nat :=
  let c0_i32_78 : BitVec 32 := 0#32
  let c0_i32_61 : BitVec 32 := 0#32
  let c1_i32_63 : BitVec 32 := 1#32
  let arg12 : BitVec 32 := Scf.iv c0_i32_61 c1_i32_63 k1_t6
  let c1_i32_77 : BitVec 32 := 1#32
  let v89 : BitVec 32 := Scalar.muli arg12 c1_i32_77
  let v90 : BitVec 32 := Scalar.addi c0_i32_78 v89
  let v123 : Index := Scalar.indexCast v90
  let c128 : Index := 128#32
  ![v123.toNat, 128]
def k1_off114 (k1_t6 : Fin k1_t6_loop.trips) : Fin 2 → Nat :=
  let c0_i32_78 : BitVec 32 := 0#32
  let c0_i32_61 : BitVec 32 := 0#32
  let c1_i32_63 : BitVec 32 := 1#32
  let arg12 : BitVec 32 := Scf.iv c0_i32_61 c1_i32_63 k1_t6
  let c1_i32_77 : BitVec 32 := 1#32
  let v89 : BitVec 32 := Scalar.muli arg12 c1_i32_77
  let v90 : BitVec 32 := Scalar.addi c0_i32_78 v89
  let v127 : Index := Scalar.indexCast v90
  let c144 : Index := 144#32
  ![v127.toNat, 144]
def k1_off115 (k1_t6 : Fin k1_t6_loop.trips) : Fin 2 → Nat :=
  let c0_i32_78 : BitVec 32 := 0#32
  let c0_i32_61 : BitVec 32 := 0#32
  let c1_i32_63 : BitVec 32 := 1#32
  let arg12 : BitVec 32 := Scf.iv c0_i32_61 c1_i32_63 k1_t6
  let c1_i32_77 : BitVec 32 := 1#32
  let v89 : BitVec 32 := Scalar.muli arg12 c1_i32_77
  let v90 : BitVec 32 := Scalar.addi c0_i32_78 v89
  let v131 : Index := Scalar.indexCast v90
  let c160 : Index := 160#32
  ![v131.toNat, 160]
def k1_off116 (k1_t6 : Fin k1_t6_loop.trips) : Fin 2 → Nat :=
  let c0_i32_78 : BitVec 32 := 0#32
  let c0_i32_61 : BitVec 32 := 0#32
  let c1_i32_63 : BitVec 32 := 1#32
  let arg12 : BitVec 32 := Scf.iv c0_i32_61 c1_i32_63 k1_t6
  let c1_i32_77 : BitVec 32 := 1#32
  let v89 : BitVec 32 := Scalar.muli arg12 c1_i32_77
  let v90 : BitVec 32 := Scalar.addi c0_i32_78 v89
  let v135 : Index := Scalar.indexCast v90
  let c176 : Index := 176#32
  ![v135.toNat, 176]
def k1_off117 (k1_t6 : Fin k1_t6_loop.trips) : Fin 2 → Nat :=
  let c0_i32_78 : BitVec 32 := 0#32
  let c0_i32_61 : BitVec 32 := 0#32
  let c1_i32_63 : BitVec 32 := 1#32
  let arg12 : BitVec 32 := Scf.iv c0_i32_61 c1_i32_63 k1_t6
  let c1_i32_77 : BitVec 32 := 1#32
  let v89 : BitVec 32 := Scalar.muli arg12 c1_i32_77
  let v90 : BitVec 32 := Scalar.addi c0_i32_78 v89
  let v139 : Index := Scalar.indexCast v90
  let c192 : Index := 192#32
  ![v139.toNat, 192]
def k1_off118 (k1_t6 : Fin k1_t6_loop.trips) : Fin 2 → Nat :=
  let c0_i32_78 : BitVec 32 := 0#32
  let c0_i32_61 : BitVec 32 := 0#32
  let c1_i32_63 : BitVec 32 := 1#32
  let arg12 : BitVec 32 := Scf.iv c0_i32_61 c1_i32_63 k1_t6
  let c1_i32_77 : BitVec 32 := 1#32
  let v89 : BitVec 32 := Scalar.muli arg12 c1_i32_77
  let v90 : BitVec 32 := Scalar.addi c0_i32_78 v89
  let v143 : Index := Scalar.indexCast v90
  let c208 : Index := 208#32
  ![v143.toNat, 208]
def k1_off119 (k1_t6 : Fin k1_t6_loop.trips) : Fin 2 → Nat :=
  let c0_i32_78 : BitVec 32 := 0#32
  let c0_i32_61 : BitVec 32 := 0#32
  let c1_i32_63 : BitVec 32 := 1#32
  let arg12 : BitVec 32 := Scf.iv c0_i32_61 c1_i32_63 k1_t6
  let c1_i32_77 : BitVec 32 := 1#32
  let v89 : BitVec 32 := Scalar.muli arg12 c1_i32_77
  let v90 : BitVec 32 := Scalar.addi c0_i32_78 v89
  let v147 : Index := Scalar.indexCast v90
  let c224 : Index := 224#32
  ![v147.toNat, 224]
def k1_off120 (k1_t6 : Fin k1_t6_loop.trips) : Fin 2 → Nat :=
  let c0_i32_78 : BitVec 32 := 0#32
  let c0_i32_61 : BitVec 32 := 0#32
  let c1_i32_63 : BitVec 32 := 1#32
  let arg12 : BitVec 32 := Scf.iv c0_i32_61 c1_i32_63 k1_t6
  let c1_i32_77 : BitVec 32 := 1#32
  let v89 : BitVec 32 := Scalar.muli arg12 c1_i32_77
  let v90 : BitVec 32 := Scalar.addi c0_i32_78 v89
  let v151 : Index := Scalar.indexCast v90
  let c240 : Index := 240#32
  ![v151.toNat, 240]
def k1_off121 (k1_t6 : Fin k1_t6_loop.trips) : Fin 2 → Nat :=
  let c0_i32_78 : BitVec 32 := 0#32
  let c0_i32_61 : BitVec 32 := 0#32
  let c1_i32_63 : BitVec 32 := 1#32
  let arg12 : BitVec 32 := Scf.iv c0_i32_61 c1_i32_63 k1_t6
  let c1_i32_77 : BitVec 32 := 1#32
  let v89 : BitVec 32 := Scalar.muli arg12 c1_i32_77
  let v90 : BitVec 32 := Scalar.addi c0_i32_78 v89
  let v155 : Index := Scalar.indexCast v90
  let c256 : Index := 256#32
  ![v155.toNat, 256]
def k1_off122 (k1_t6 : Fin k1_t6_loop.trips) : Fin 2 → Nat :=
  let c0_i32_78 : BitVec 32 := 0#32
  let c0_i32_61 : BitVec 32 := 0#32
  let c1_i32_63 : BitVec 32 := 1#32
  let arg12 : BitVec 32 := Scf.iv c0_i32_61 c1_i32_63 k1_t6
  let c1_i32_77 : BitVec 32 := 1#32
  let v89 : BitVec 32 := Scalar.muli arg12 c1_i32_77
  let v90 : BitVec 32 := Scalar.addi c0_i32_78 v89
  let v159 : Index := Scalar.indexCast v90
  let c272 : Index := 272#32
  ![v159.toNat, 272]
def k1_off123 (k1_t6 : Fin k1_t6_loop.trips) : Fin 2 → Nat :=
  let c0_i32_78 : BitVec 32 := 0#32
  let c0_i32_61 : BitVec 32 := 0#32
  let c1_i32_63 : BitVec 32 := 1#32
  let arg12 : BitVec 32 := Scf.iv c0_i32_61 c1_i32_63 k1_t6
  let c1_i32_77 : BitVec 32 := 1#32
  let v89 : BitVec 32 := Scalar.muli arg12 c1_i32_77
  let v90 : BitVec 32 := Scalar.addi c0_i32_78 v89
  let v163 : Index := Scalar.indexCast v90
  let c288 : Index := 288#32
  ![v163.toNat, 288]
def k1_off124 (k1_t6 : Fin k1_t6_loop.trips) : Fin 2 → Nat :=
  let c0_i32_78 : BitVec 32 := 0#32
  let c0_i32_61 : BitVec 32 := 0#32
  let c1_i32_63 : BitVec 32 := 1#32
  let arg12 : BitVec 32 := Scf.iv c0_i32_61 c1_i32_63 k1_t6
  let c1_i32_77 : BitVec 32 := 1#32
  let v89 : BitVec 32 := Scalar.muli arg12 c1_i32_77
  let v90 : BitVec 32 := Scalar.addi c0_i32_78 v89
  let v167 : Index := Scalar.indexCast v90
  let c304 : Index := 304#32
  ![v167.toNat, 304]
def k1_off125 (k1_t6 : Fin k1_t6_loop.trips) : Fin 2 → Nat :=
  let c0_i32_78 : BitVec 32 := 0#32
  let c0_i32_61 : BitVec 32 := 0#32
  let c1_i32_63 : BitVec 32 := 1#32
  let arg12 : BitVec 32 := Scf.iv c0_i32_61 c1_i32_63 k1_t6
  let c1_i32_77 : BitVec 32 := 1#32
  let v89 : BitVec 32 := Scalar.muli arg12 c1_i32_77
  let v90 : BitVec 32 := Scalar.addi c0_i32_78 v89
  let v171 : Index := Scalar.indexCast v90
  let c320 : Index := 320#32
  ![v171.toNat, 320]
def k1_off126 (k1_t6 : Fin k1_t6_loop.trips) : Fin 2 → Nat :=
  let c0_i32_78 : BitVec 32 := 0#32
  let c0_i32_61 : BitVec 32 := 0#32
  let c1_i32_63 : BitVec 32 := 1#32
  let arg12 : BitVec 32 := Scf.iv c0_i32_61 c1_i32_63 k1_t6
  let c1_i32_77 : BitVec 32 := 1#32
  let v89 : BitVec 32 := Scalar.muli arg12 c1_i32_77
  let v90 : BitVec 32 := Scalar.addi c0_i32_78 v89
  let v175 : Index := Scalar.indexCast v90
  let c336 : Index := 336#32
  ![v175.toNat, 336]
def k1_off127 (k1_t6 : Fin k1_t6_loop.trips) : Fin 2 → Nat :=
  let c0_i32_78 : BitVec 32 := 0#32
  let c0_i32_61 : BitVec 32 := 0#32
  let c1_i32_63 : BitVec 32 := 1#32
  let arg12 : BitVec 32 := Scf.iv c0_i32_61 c1_i32_63 k1_t6
  let c1_i32_77 : BitVec 32 := 1#32
  let v89 : BitVec 32 := Scalar.muli arg12 c1_i32_77
  let v90 : BitVec 32 := Scalar.addi c0_i32_78 v89
  let v179 : Index := Scalar.indexCast v90
  let c352 : Index := 352#32
  ![v179.toNat, 352]
def k1_off128 (k1_t6 : Fin k1_t6_loop.trips) : Fin 2 → Nat :=
  let c0_i32_78 : BitVec 32 := 0#32
  let c0_i32_61 : BitVec 32 := 0#32
  let c1_i32_63 : BitVec 32 := 1#32
  let arg12 : BitVec 32 := Scf.iv c0_i32_61 c1_i32_63 k1_t6
  let c1_i32_77 : BitVec 32 := 1#32
  let v89 : BitVec 32 := Scalar.muli arg12 c1_i32_77
  let v90 : BitVec 32 := Scalar.addi c0_i32_78 v89
  let v183 : Index := Scalar.indexCast v90
  let c368 : Index := 368#32
  ![v183.toNat, 368]
def k1_cond6 (k1_t1 : Fin k1_t1_loop.trips) : BitVec 1 :=
  let c0_i32_13 : BitVec 32 := 0#32
  let c0_i32_8 : BitVec 32 := 0#32
  let c1_i32 : BitVec 32 := 1#32
  let arg11 : BitVec 32 := Scf.iv c0_i32_8 c1_i32 k1_t1
  let c1_i32_12 : BitVec 32 := 1#32
  let v17 : BitVec 32 := Scalar.muli arg11 c1_i32_12
  let v18 : BitVec 32 := Scalar.addi c0_i32_13 v17
  let c1_i32_65 : BitVec 32 := 1#32
  let v66 : BitVec 32 := Scalar.addi v18 c1_i32_65
  let c6_i32_66 : BitVec 32 := 6#32
  let v67 : BitVec 1 := Scalar.cmpi .slt v66 c6_i32_66
  let v68 : BitVec 32 := Scalar.extui v67
  let c0_i32_67 : BitVec 32 := 0#32
  let v69 : BitVec 1 := Scalar.cmpi .ne v68 c0_i32_67
  v69

def k1_off129 (i : grid1.Coords) (k1_t1 : Fin k1_t1_loop.trips) : Fin 3 → Nat :=
  let c576_i32 : BitVec 32 := 576#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let v3 : BitVec 32 := Scalar.addi c576_i32 v2
  let c0_i32_13 : BitVec 32 := 0#32
  let c0_i32_8 : BitVec 32 := 0#32
  let c1_i32 : BitVec 32 := 1#32
  let arg11 : BitVec 32 := Scf.iv c0_i32_8 c1_i32 k1_t1
  let c1_i32_12 : BitVec 32 := 1#32
  let v17 : BitVec 32 := Scalar.muli arg11 c1_i32_12
  let v18 : BitVec 32 := Scalar.addi c0_i32_13 v17
  let c1_i32_77 : BitVec 32 := 1#32
  let v89 : BitVec 32 := Scalar.addi v18 c1_i32_77
  let v90 : BitVec 32 := Scalar.addi v3 v89
  let c64_i32_78 : BitVec 32 := 64#32
  let c0_i32_79 : BitVec 32 := 0#32
  ![v90.toNat, 64, 0]
@[reducible] def k1_t7_loop : Scf.Loop 32 :=
  let c0_i32_72 : BitVec 32 := 0#32
  let c64_i32_73 : BitVec 32 := 64#32
  let v74 : BitVec 32 := Scalar.addi c0_i32_72 c64_i32_73
  let c1_i32_74 : BitVec 32 := 1#32
  ⟨c0_i32_72, v74, c1_i32_74⟩
def k1_off130 (k1_t7 : Fin k1_t7_loop.trips) : Fin 2 → Nat :=
  let c0_i32_78 : BitVec 32 := 0#32
  let c0_i32_72 : BitVec 32 := 0#32
  let c1_i32_74 : BitVec 32 := 1#32
  let arg12 : BitVec 32 := Scf.iv c0_i32_72 c1_i32_74 k1_t7
  let c1_i32_77 : BitVec 32 := 1#32
  let v89 : BitVec 32 := Scalar.muli arg12 c1_i32_77
  let v90 : BitVec 32 := Scalar.addi c0_i32_78 v89
  let v91 : Index := Scalar.indexCast v90
  let c0 : Index := 0#32
  ![v91.toNat, 0]
def k1_off131 (k1_t7 : Fin k1_t7_loop.trips) : Fin 2 → Nat :=
  let c0_i32_78 : BitVec 32 := 0#32
  let c0_i32_72 : BitVec 32 := 0#32
  let c1_i32_74 : BitVec 32 := 1#32
  let arg12 : BitVec 32 := Scf.iv c0_i32_72 c1_i32_74 k1_t7
  let c1_i32_77 : BitVec 32 := 1#32
  let v89 : BitVec 32 := Scalar.muli arg12 c1_i32_77
  let v90 : BitVec 32 := Scalar.addi c0_i32_78 v89
  let v95 : Index := Scalar.indexCast v90
  let c16 : Index := 16#32
  ![v95.toNat, 16]
def k1_off132 (k1_t7 : Fin k1_t7_loop.trips) : Fin 2 → Nat :=
  let c0_i32_78 : BitVec 32 := 0#32
  let c0_i32_72 : BitVec 32 := 0#32
  let c1_i32_74 : BitVec 32 := 1#32
  let arg12 : BitVec 32 := Scf.iv c0_i32_72 c1_i32_74 k1_t7
  let c1_i32_77 : BitVec 32 := 1#32
  let v89 : BitVec 32 := Scalar.muli arg12 c1_i32_77
  let v90 : BitVec 32 := Scalar.addi c0_i32_78 v89
  let v99 : Index := Scalar.indexCast v90
  let c32 : Index := 32#32
  ![v99.toNat, 32]
def k1_off133 (k1_t7 : Fin k1_t7_loop.trips) : Fin 2 → Nat :=
  let c0_i32_78 : BitVec 32 := 0#32
  let c0_i32_72 : BitVec 32 := 0#32
  let c1_i32_74 : BitVec 32 := 1#32
  let arg12 : BitVec 32 := Scf.iv c0_i32_72 c1_i32_74 k1_t7
  let c1_i32_77 : BitVec 32 := 1#32
  let v89 : BitVec 32 := Scalar.muli arg12 c1_i32_77
  let v90 : BitVec 32 := Scalar.addi c0_i32_78 v89
  let v103 : Index := Scalar.indexCast v90
  let c48 : Index := 48#32
  ![v103.toNat, 48]
def k1_off134 (k1_t7 : Fin k1_t7_loop.trips) : Fin 2 → Nat :=
  let c0_i32_78 : BitVec 32 := 0#32
  let c0_i32_72 : BitVec 32 := 0#32
  let c1_i32_74 : BitVec 32 := 1#32
  let arg12 : BitVec 32 := Scf.iv c0_i32_72 c1_i32_74 k1_t7
  let c1_i32_77 : BitVec 32 := 1#32
  let v89 : BitVec 32 := Scalar.muli arg12 c1_i32_77
  let v90 : BitVec 32 := Scalar.addi c0_i32_78 v89
  let v107 : Index := Scalar.indexCast v90
  let c64 : Index := 64#32
  ![v107.toNat, 64]
def k1_off135 (k1_t7 : Fin k1_t7_loop.trips) : Fin 2 → Nat :=
  let c0_i32_78 : BitVec 32 := 0#32
  let c0_i32_72 : BitVec 32 := 0#32
  let c1_i32_74 : BitVec 32 := 1#32
  let arg12 : BitVec 32 := Scf.iv c0_i32_72 c1_i32_74 k1_t7
  let c1_i32_77 : BitVec 32 := 1#32
  let v89 : BitVec 32 := Scalar.muli arg12 c1_i32_77
  let v90 : BitVec 32 := Scalar.addi c0_i32_78 v89
  let v111 : Index := Scalar.indexCast v90
  let c80 : Index := 80#32
  ![v111.toNat, 80]
def k1_off136 (k1_t7 : Fin k1_t7_loop.trips) : Fin 2 → Nat :=
  let c0_i32_78 : BitVec 32 := 0#32
  let c0_i32_72 : BitVec 32 := 0#32
  let c1_i32_74 : BitVec 32 := 1#32
  let arg12 : BitVec 32 := Scf.iv c0_i32_72 c1_i32_74 k1_t7
  let c1_i32_77 : BitVec 32 := 1#32
  let v89 : BitVec 32 := Scalar.muli arg12 c1_i32_77
  let v90 : BitVec 32 := Scalar.addi c0_i32_78 v89
  let v115 : Index := Scalar.indexCast v90
  let c96 : Index := 96#32
  ![v115.toNat, 96]
def k1_off137 (k1_t7 : Fin k1_t7_loop.trips) : Fin 2 → Nat :=
  let c0_i32_78 : BitVec 32 := 0#32
  let c0_i32_72 : BitVec 32 := 0#32
  let c1_i32_74 : BitVec 32 := 1#32
  let arg12 : BitVec 32 := Scf.iv c0_i32_72 c1_i32_74 k1_t7
  let c1_i32_77 : BitVec 32 := 1#32
  let v89 : BitVec 32 := Scalar.muli arg12 c1_i32_77
  let v90 : BitVec 32 := Scalar.addi c0_i32_78 v89
  let v119 : Index := Scalar.indexCast v90
  let c112 : Index := 112#32
  ![v119.toNat, 112]
def k1_off138 (k1_t7 : Fin k1_t7_loop.trips) : Fin 2 → Nat :=
  let c0_i32_78 : BitVec 32 := 0#32
  let c0_i32_72 : BitVec 32 := 0#32
  let c1_i32_74 : BitVec 32 := 1#32
  let arg12 : BitVec 32 := Scf.iv c0_i32_72 c1_i32_74 k1_t7
  let c1_i32_77 : BitVec 32 := 1#32
  let v89 : BitVec 32 := Scalar.muli arg12 c1_i32_77
  let v90 : BitVec 32 := Scalar.addi c0_i32_78 v89
  let v123 : Index := Scalar.indexCast v90
  let c128 : Index := 128#32
  ![v123.toNat, 128]
def k1_off139 (k1_t7 : Fin k1_t7_loop.trips) : Fin 2 → Nat :=
  let c0_i32_78 : BitVec 32 := 0#32
  let c0_i32_72 : BitVec 32 := 0#32
  let c1_i32_74 : BitVec 32 := 1#32
  let arg12 : BitVec 32 := Scf.iv c0_i32_72 c1_i32_74 k1_t7
  let c1_i32_77 : BitVec 32 := 1#32
  let v89 : BitVec 32 := Scalar.muli arg12 c1_i32_77
  let v90 : BitVec 32 := Scalar.addi c0_i32_78 v89
  let v127 : Index := Scalar.indexCast v90
  let c144 : Index := 144#32
  ![v127.toNat, 144]
def k1_off140 (k1_t7 : Fin k1_t7_loop.trips) : Fin 2 → Nat :=
  let c0_i32_78 : BitVec 32 := 0#32
  let c0_i32_72 : BitVec 32 := 0#32
  let c1_i32_74 : BitVec 32 := 1#32
  let arg12 : BitVec 32 := Scf.iv c0_i32_72 c1_i32_74 k1_t7
  let c1_i32_77 : BitVec 32 := 1#32
  let v89 : BitVec 32 := Scalar.muli arg12 c1_i32_77
  let v90 : BitVec 32 := Scalar.addi c0_i32_78 v89
  let v131 : Index := Scalar.indexCast v90
  let c160 : Index := 160#32
  ![v131.toNat, 160]
def k1_off141 (k1_t7 : Fin k1_t7_loop.trips) : Fin 2 → Nat :=
  let c0_i32_78 : BitVec 32 := 0#32
  let c0_i32_72 : BitVec 32 := 0#32
  let c1_i32_74 : BitVec 32 := 1#32
  let arg12 : BitVec 32 := Scf.iv c0_i32_72 c1_i32_74 k1_t7
  let c1_i32_77 : BitVec 32 := 1#32
  let v89 : BitVec 32 := Scalar.muli arg12 c1_i32_77
  let v90 : BitVec 32 := Scalar.addi c0_i32_78 v89
  let v135 : Index := Scalar.indexCast v90
  let c176 : Index := 176#32
  ![v135.toNat, 176]
def k1_off142 (k1_t7 : Fin k1_t7_loop.trips) : Fin 2 → Nat :=
  let c0_i32_78 : BitVec 32 := 0#32
  let c0_i32_72 : BitVec 32 := 0#32
  let c1_i32_74 : BitVec 32 := 1#32
  let arg12 : BitVec 32 := Scf.iv c0_i32_72 c1_i32_74 k1_t7
  let c1_i32_77 : BitVec 32 := 1#32
  let v89 : BitVec 32 := Scalar.muli arg12 c1_i32_77
  let v90 : BitVec 32 := Scalar.addi c0_i32_78 v89
  let v139 : Index := Scalar.indexCast v90
  let c192 : Index := 192#32
  ![v139.toNat, 192]
def k1_off143 (k1_t7 : Fin k1_t7_loop.trips) : Fin 2 → Nat :=
  let c0_i32_78 : BitVec 32 := 0#32
  let c0_i32_72 : BitVec 32 := 0#32
  let c1_i32_74 : BitVec 32 := 1#32
  let arg12 : BitVec 32 := Scf.iv c0_i32_72 c1_i32_74 k1_t7
  let c1_i32_77 : BitVec 32 := 1#32
  let v89 : BitVec 32 := Scalar.muli arg12 c1_i32_77
  let v90 : BitVec 32 := Scalar.addi c0_i32_78 v89
  let v143 : Index := Scalar.indexCast v90
  let c208 : Index := 208#32
  ![v143.toNat, 208]
def k1_off144 (k1_t7 : Fin k1_t7_loop.trips) : Fin 2 → Nat :=
  let c0_i32_78 : BitVec 32 := 0#32
  let c0_i32_72 : BitVec 32 := 0#32
  let c1_i32_74 : BitVec 32 := 1#32
  let arg12 : BitVec 32 := Scf.iv c0_i32_72 c1_i32_74 k1_t7
  let c1_i32_77 : BitVec 32 := 1#32
  let v89 : BitVec 32 := Scalar.muli arg12 c1_i32_77
  let v90 : BitVec 32 := Scalar.addi c0_i32_78 v89
  let v147 : Index := Scalar.indexCast v90
  let c224 : Index := 224#32
  ![v147.toNat, 224]
def k1_off145 (k1_t7 : Fin k1_t7_loop.trips) : Fin 2 → Nat :=
  let c0_i32_78 : BitVec 32 := 0#32
  let c0_i32_72 : BitVec 32 := 0#32
  let c1_i32_74 : BitVec 32 := 1#32
  let arg12 : BitVec 32 := Scf.iv c0_i32_72 c1_i32_74 k1_t7
  let c1_i32_77 : BitVec 32 := 1#32
  let v89 : BitVec 32 := Scalar.muli arg12 c1_i32_77
  let v90 : BitVec 32 := Scalar.addi c0_i32_78 v89
  let v151 : Index := Scalar.indexCast v90
  let c240 : Index := 240#32
  ![v151.toNat, 240]
def k1_off146 (k1_t7 : Fin k1_t7_loop.trips) : Fin 2 → Nat :=
  let c0_i32_78 : BitVec 32 := 0#32
  let c0_i32_72 : BitVec 32 := 0#32
  let c1_i32_74 : BitVec 32 := 1#32
  let arg12 : BitVec 32 := Scf.iv c0_i32_72 c1_i32_74 k1_t7
  let c1_i32_77 : BitVec 32 := 1#32
  let v89 : BitVec 32 := Scalar.muli arg12 c1_i32_77
  let v90 : BitVec 32 := Scalar.addi c0_i32_78 v89
  let v155 : Index := Scalar.indexCast v90
  let c256 : Index := 256#32
  ![v155.toNat, 256]
def k1_off147 (k1_t7 : Fin k1_t7_loop.trips) : Fin 2 → Nat :=
  let c0_i32_78 : BitVec 32 := 0#32
  let c0_i32_72 : BitVec 32 := 0#32
  let c1_i32_74 : BitVec 32 := 1#32
  let arg12 : BitVec 32 := Scf.iv c0_i32_72 c1_i32_74 k1_t7
  let c1_i32_77 : BitVec 32 := 1#32
  let v89 : BitVec 32 := Scalar.muli arg12 c1_i32_77
  let v90 : BitVec 32 := Scalar.addi c0_i32_78 v89
  let v159 : Index := Scalar.indexCast v90
  let c272 : Index := 272#32
  ![v159.toNat, 272]
def k1_off148 (k1_t7 : Fin k1_t7_loop.trips) : Fin 2 → Nat :=
  let c0_i32_78 : BitVec 32 := 0#32
  let c0_i32_72 : BitVec 32 := 0#32
  let c1_i32_74 : BitVec 32 := 1#32
  let arg12 : BitVec 32 := Scf.iv c0_i32_72 c1_i32_74 k1_t7
  let c1_i32_77 : BitVec 32 := 1#32
  let v89 : BitVec 32 := Scalar.muli arg12 c1_i32_77
  let v90 : BitVec 32 := Scalar.addi c0_i32_78 v89
  let v163 : Index := Scalar.indexCast v90
  let c288 : Index := 288#32
  ![v163.toNat, 288]
def k1_off149 (k1_t7 : Fin k1_t7_loop.trips) : Fin 2 → Nat :=
  let c0_i32_78 : BitVec 32 := 0#32
  let c0_i32_72 : BitVec 32 := 0#32
  let c1_i32_74 : BitVec 32 := 1#32
  let arg12 : BitVec 32 := Scf.iv c0_i32_72 c1_i32_74 k1_t7
  let c1_i32_77 : BitVec 32 := 1#32
  let v89 : BitVec 32 := Scalar.muli arg12 c1_i32_77
  let v90 : BitVec 32 := Scalar.addi c0_i32_78 v89
  let v167 : Index := Scalar.indexCast v90
  let c304 : Index := 304#32
  ![v167.toNat, 304]
def k1_off150 (k1_t7 : Fin k1_t7_loop.trips) : Fin 2 → Nat :=
  let c0_i32_78 : BitVec 32 := 0#32
  let c0_i32_72 : BitVec 32 := 0#32
  let c1_i32_74 : BitVec 32 := 1#32
  let arg12 : BitVec 32 := Scf.iv c0_i32_72 c1_i32_74 k1_t7
  let c1_i32_77 : BitVec 32 := 1#32
  let v89 : BitVec 32 := Scalar.muli arg12 c1_i32_77
  let v90 : BitVec 32 := Scalar.addi c0_i32_78 v89
  let v171 : Index := Scalar.indexCast v90
  let c320 : Index := 320#32
  ![v171.toNat, 320]
def k1_off151 (k1_t7 : Fin k1_t7_loop.trips) : Fin 2 → Nat :=
  let c0_i32_78 : BitVec 32 := 0#32
  let c0_i32_72 : BitVec 32 := 0#32
  let c1_i32_74 : BitVec 32 := 1#32
  let arg12 : BitVec 32 := Scf.iv c0_i32_72 c1_i32_74 k1_t7
  let c1_i32_77 : BitVec 32 := 1#32
  let v89 : BitVec 32 := Scalar.muli arg12 c1_i32_77
  let v90 : BitVec 32 := Scalar.addi c0_i32_78 v89
  let v175 : Index := Scalar.indexCast v90
  let c336 : Index := 336#32
  ![v175.toNat, 336]
def k1_off152 (k1_t7 : Fin k1_t7_loop.trips) : Fin 2 → Nat :=
  let c0_i32_78 : BitVec 32 := 0#32
  let c0_i32_72 : BitVec 32 := 0#32
  let c1_i32_74 : BitVec 32 := 1#32
  let arg12 : BitVec 32 := Scf.iv c0_i32_72 c1_i32_74 k1_t7
  let c1_i32_77 : BitVec 32 := 1#32
  let v89 : BitVec 32 := Scalar.muli arg12 c1_i32_77
  let v90 : BitVec 32 := Scalar.addi c0_i32_78 v89
  let v179 : Index := Scalar.indexCast v90
  let c352 : Index := 352#32
  ![v179.toNat, 352]
def k1_off153 (k1_t7 : Fin k1_t7_loop.trips) : Fin 2 → Nat :=
  let c0_i32_78 : BitVec 32 := 0#32
  let c0_i32_72 : BitVec 32 := 0#32
  let c1_i32_74 : BitVec 32 := 1#32
  let arg12 : BitVec 32 := Scf.iv c0_i32_72 c1_i32_74 k1_t7
  let c1_i32_77 : BitVec 32 := 1#32
  let v89 : BitVec 32 := Scalar.muli arg12 c1_i32_77
  let v90 : BitVec 32 := Scalar.addi c0_i32_78 v89
  let v183 : Index := Scalar.indexCast v90
  let c368 : Index := 368#32
  ![v183.toNat, 368]
def k1_mult1 (k1_t1 : Fin k1_t1_loop.trips) : BitVec 32 :=
  let c0_i32_13 : BitVec 32 := 0#32
  let c0_i32_8 : BitVec 32 := 0#32
  let c1_i32 : BitVec 32 := 1#32
  let arg11 : BitVec 32 := Scf.iv c0_i32_8 c1_i32 k1_t1
  let c1_i32_12 : BitVec 32 := 1#32
  let v17 : BitVec 32 := Scalar.muli arg11 c1_i32_12
  let v18 : BitVec 32 := Scalar.addi c0_i32_13 v17
  let c16_i32_76 : BitVec 32 := 16#32
  let v83 : BitVec 32 := Scalar.muli v18 c16_i32_76
  v83
def k1_off154 (k1_t1 : Fin k1_t1_loop.trips) : Fin 1 → Nat :=
  let c0_i32_13 : BitVec 32 := 0#32
  let c0_i32_8 : BitVec 32 := 0#32
  let c1_i32 : BitVec 32 := 1#32
  let arg11 : BitVec 32 := Scf.iv c0_i32_8 c1_i32 k1_t1
  let c1_i32_12 : BitVec 32 := 1#32
  let v17 : BitVec 32 := Scalar.muli arg11 c1_i32_12
  let v18 : BitVec 32 := Scalar.addi c0_i32_13 v17
  let c16_i32_76 : BitVec 32 := 16#32
  let v83 : BitVec 32 := Scalar.muli v18 c16_i32_76
  let v84 : BitVec 32 := v83
  let v85 : Index := Scalar.indexCast v84
  ![v85.toNat]
def k1_off155 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32_11 : BitVec 32 := 6#32
  let v15 : BitVec 32 := Scalar.muli v1 c6_i32_11
  let c16_i32 : BitVec 32 := 16#32
  let v16 : BitVec 32 := Scalar.muli v15 c16_i32
  ![v16.toNat]
abbrev grid2 : Pipeline.Grid := .none

abbrev stage2_0 : Fin 1 → Memref sig .tc .vmem S576x1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S192x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S128x576 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S128x192 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S128x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S8x96x384x384_S768x384x384 : S8x96x384x384.ShapeCasts S768x384x384
  squeezes_S1_S_ : S1.Squeezes S_
  squeezes_S1x8x384x384_S8x384x384 : S1x8x384x384.Squeezes S8x384x384
  inb_S768x384x384_S8x384x384_0_0_0 : ∀ a, (![0, 0, 0] : Fin 3 → Nat) a + S8x384x384.size a ≤ S768x384x384.size a
  inb_S768x384x384_S8x384x384_8_0_0 : ∀ a, (![8, 0, 0] : Fin 3 → Nat) a + S8x384x384.size a ≤ S768x384x384.size a
  inb_S768x384x384_S8x384x384_16_0_0 : ∀ a, (![16, 0, 0] : Fin 3 → Nat) a + S8x384x384.size a ≤ S768x384x384.size a
  inb_S768x384x384_S8x384x384_24_0_0 : ∀ a, (![24, 0, 0] : Fin 3 → Nat) a + S8x384x384.size a ≤ S768x384x384.size a
  inb_S768x384x384_S8x384x384_32_0_0 : ∀ a, (![32, 0, 0] : Fin 3 → Nat) a + S8x384x384.size a ≤ S768x384x384.size a
  inb_S768x384x384_S8x384x384_40_0_0 : ∀ a, (![40, 0, 0] : Fin 3 → Nat) a + S8x384x384.size a ≤ S768x384x384.size a
  inb_S768x384x384_S8x384x384_48_0_0 : ∀ a, (![48, 0, 0] : Fin 3 → Nat) a + S8x384x384.size a ≤ S768x384x384.size a
  h_S1x8x384x384 : 0 < S1x8x384x384.numel
  shapeCasts_S1x8x384x384_S8x384x384 : S1x8x384x384.ShapeCasts S8x384x384
  reduces_S8x384x384_S8 : S8x384x384.Reduces [1, 2] S8
  shapeCasts_S8_S8x1x1 : S8.ShapeCasts S8x1x1
  h_S8x1x1 : 0 < S8x1x1.numel
  squeezes_S1x64x384_S64x384 : S1x64x384.Squeezes S64x384
  h_S1x16 : 0 < S1x16.numel
  shapeCasts_S1x16_S16 : S1x16.ShapeCasts S16
  h_S16 : 0 < S16.numel
  shapeCasts_S16_S16 : S16.ShapeCasts S16
  bcast_S_S8x8 : S_.BroadcastsInDim S8x8 (![] : Fin 0 → Fin S8x8.rank)
  bcast_S8x8_S8x1x8x1_0_2 : S8x8.BroadcastsInDim S8x1x8x1 (![0, 2] : Fin 2 → Fin S8x1x8x1.rank)
  bcast_S16x96_S1x16x1x96_1_3 : S16x96.BroadcastsInDim S1x16x1x96 (![1, 3] : Fin 2 → Fin S1x16x1x96.rank)
  bcast_S8x1x8x1_S8x16x8x96_0_1_2_3 : S8x1x8x1.BroadcastsInDim S8x16x8x96 (![0, 1, 2, 3] : Fin 4 → Fin S8x16x8x96.rank)
  bcast_S1x16x1x96_S8x16x8x96_0_1_2_3 : S1x16x1x96.BroadcastsInDim S8x16x8x96 (![0, 1, 2, 3] : Fin 4 → Fin S8x16x8x96.rank)
  shapeCasts_S8x16x8x96_S128x768 : S8x16x8x96.ShapeCasts S128x768
  shapeCasts_S576x1x1_S576x1 : S576x1x1.ShapeCasts S576x1
  shapeCasts_S3072_S192x16 : S3072.ShapeCasts S192x16
  slices_S128x768_S128x576_0_0 : S128x768.Slices ![0, 0] S128x576
  slices_S128x768_S128x192_0_576 : S128x768.Slices ![0, 576] S128x192
  inb_S576x1_S576x1_0_0 : ∀ a, (![0, 0] : Fin 2 → Nat) a + S576x1.size a ≤ S576x1.size a
  h_S576x1 : 0 < S576x1.numel
  shapeCasts_S576x1_S576x1 : S576x1.ShapeCasts S576x1
  inb_S192x16_S192x16_0_0 : ∀ a, (![0, 0] : Fin 2 → Nat) a + S192x16.size a ≤ S192x16.size a
  h_S192x16 : 0 < S192x16.numel
  shapeCasts_S192x16_S192x16 : S192x16.ShapeCasts S192x16
  reduces_S192x16_S192 : S192x16.Reduces [1] S192
  shapeCasts_S192_S192x1 : S192.ShapeCasts S192x1
  inb_S128x576_S128x576_0_0 : ∀ a, (![0, 0] : Fin 2 → Nat) a + S128x576.size a ≤ S128x576.size a
  h_S128x576 : 0 < S128x576.numel
  shapeCasts_S128x576_S128x576 : S128x576.ShapeCasts S128x576
  inb_S128x192_S128x192_0_0 : ∀ a, (![0, 0] : Fin 2 → Nat) a + S128x192.size a ≤ S128x192.size a
  h_S128x192 : 0 < S128x192.numel
  shapeCasts_S128x192_S128x192 : S128x192.ShapeCasts S128x192
  inb_S128x1_S128x1_0_0 : ∀ a, (![0, 0] : Fin 2 → Nat) a + S128x1.size a ≤ S128x1.size a
  h_S128x1 : 0 < S128x1.numel
  shapeCasts_S128x1_S8x16 : S128x1.ShapeCasts S8x16
  dot_S128x576_S576x1_S128x1_1_0_0_1_n_n_wf : DotDims.WF S128x576 S576x1 S128x1 [1] [0] [0] [1] [] []
  dot_S128x192_S192x1_S128x1_1_0_0_1_n_n_wf : DotDims.WF S128x192 S192x1 S128x1 [1] [0] [0] [1] [] []
  hcc0_scratch1 : 1 + S8.numel ≤ 18
  hcc1_scratch4 : 9 + S_.numel ≤ 18
  hcc1_scratch5 : 10 + S_.numel ≤ 18
  hcc1_scratch6 : 11 + S_.numel ≤ 18
  hcc1_scoped0 : 12 + S_.numel ≤ 18
  hscKind : ∀ q, scKind q ≠ .tc
  hscCore : ∀ q, scNCore q ≤ τ.nSC
  hscSub : ∀ q, scNSub q ≤ τ.nSub
  k0_off1_inb : ∀ (r : Fin 7), ∀ a, (k0_off1 (BitVec.ofNat 32 r.val)) a + S1.size a ≤ S8.size a
  k0_off2_inb : ∀ (r : Fin 7), ∀ a, (k0_off2 (BitVec.ofNat 32 r.val)) a + S1x8x384x384.size a ≤ S8x8x384x384.size a
  k0_t1_ok : k0_t1_loop.OK
  k0_off3_inb : ∀ k0_t1 : Fin k0_t1_loop.trips, ∀ (k0_h1 : k0_cond1 k0_t1 = 1#1), ∀ a, (k0_off3 k0_t1) a + S1.size a ≤ S8.size a
  k0_off4_inb : ∀ k0_t1 : Fin k0_t1_loop.trips, ∀ (k0_h1 : k0_cond1 k0_t1 = 1#1), ∀ a, (k0_off4 k0_t1) a + S1x8x384x384.size a ≤ S8x8x384x384.size a
  k0_off5_inb : ∀ k0_t1 : Fin k0_t1_loop.trips, ∀ (k0_h1 : k0_cond1 k0_t1 = 1#1), ∀ a, (k0_off5 k0_t1) a + S8x384x384.size a ≤ S768x384x384.size a
  k0_off6_inb : ∀ k0_t1 : Fin k0_t1_loop.trips, ∀ (r : Fin 2), ∀ a, (k0_off6 k0_t1 (BitVec.ofNat 32 r.val)) a + S1.size a ≤ S8.size a
  k0_off7_inb : ∀ k0_t1 : Fin k0_t1_loop.trips, ∀ (r : Fin 2), ∀ a, (k0_off7 k0_t1 (BitVec.ofNat 32 r.val)) a + S1x8x384x384.size a ≤ S8x8x384x384.size a
  k0_off8_inb : ∀ k0_t1 : Fin k0_t1_loop.trips, ∀ (r : Fin 2), ∀ a, (k0_off8 k0_t1 (BitVec.ofNat 32 r.val)) a + S8x384x384.size a ≤ S768x384x384.size a
  k0_off9_inb : ∀ k0_t1 : Fin k0_t1_loop.trips, ∀ (r : Fin 2), ∀ a, (k0_off9 k0_t1 (BitVec.ofNat 32 r.val)) a + S1x8x384x384.size a ≤ S8x8x384x384.size a
  k0_off10_inb : ∀ k0_t1 : Fin k0_t1_loop.trips, ∀ (r : Fin 2), ∀ a, (k0_off10 k0_t1 (BitVec.ofNat 32 r.val)) a + S8x1x1.size a ≤ S576x1x1.size a
  k0_off11_inb : ∀ k0_t1 : Fin k0_t1_loop.trips, ∀ (k0_h2 : k0_cond2 k0_t1 = 1#1), ∀ a, (k0_off11 k0_t1) a + S1.size a ≤ S8.size a
  k0_off12_inb : ∀ k0_t1 : Fin k0_t1_loop.trips, ∀ (k0_h2 : k0_cond2 k0_t1 = 1#1), ∀ a, (k0_off12 k0_t1) a + S1x8x384x384.size a ≤ S8x8x384x384.size a
  k0_off13_inb : ∀ k0_t1 : Fin k0_t1_loop.trips, ∀ (k0_h2 : k0_cond2 k0_t1 = 1#1), ∀ a, (k0_off13 k0_t1) a + S8x384x384.size a ≤ S768x384x384.size a
  hstage0_0 : ∀ j, (stage0_0 j).IsWhole
  hcore1 : grid1.bound 0 ≤ τ.nSC
  hsub1 : grid1.bound 1 ≤ τ.nSub
  k1_off1_inb : ∀ i : grid1.Coords, ∀ a, (k1_off1 i) a + S1x64x384.size a ≤ S768x384x384.size a
  k1_off2_inb : ∀ i : grid1.Coords, ∀ a, (k1_off2 i) a + S1x64x384.size a ≤ S768x384x384.size a
  k1_t1_ok : k1_t1_loop.OK
  k1_off3_inb : ∀ (i : grid1.Coords) (k1_t1 : Fin k1_t1_loop.trips), ∀ (k1_h1 : k1_cond1 k1_t1 = 1#1), ∀ a, (k1_off3 i k1_t1) a + S1x64x384.size a ≤ S768x384x384.size a
  k1_off4_inb : ∀ i : grid1.Coords, ∀ a, (k1_off4 i) a + S1x64x384.size a ≤ S768x384x384.size a
  k1_t2_ok : k1_t2_loop.OK
  k1_off5_inb : ∀ k1_t2 : Fin k1_t2_loop.trips, ∀ a, (k1_off5 k1_t2) a + S1x16.size a ≤ S64x384.size a
  k1_off6_inb : ∀ k1_t2 : Fin k1_t2_loop.trips, ∀ a, (k1_off6 k1_t2) a + S1x16.size a ≤ S64x384.size a
  k1_off7_inb : ∀ k1_t2 : Fin k1_t2_loop.trips, ∀ a, (k1_off7 k1_t2) a + S1x16.size a ≤ S64x384.size a
  k1_off8_inb : ∀ k1_t2 : Fin k1_t2_loop.trips, ∀ a, (k1_off8 k1_t2) a + S1x16.size a ≤ S64x384.size a
  k1_off9_inb : ∀ k1_t2 : Fin k1_t2_loop.trips, ∀ a, (k1_off9 k1_t2) a + S1x16.size a ≤ S64x384.size a
  k1_off10_inb : ∀ k1_t2 : Fin k1_t2_loop.trips, ∀ a, (k1_off10 k1_t2) a + S1x16.size a ≤ S64x384.size a
  k1_off11_inb : ∀ k1_t2 : Fin k1_t2_loop.trips, ∀ a, (k1_off11 k1_t2) a + S1x16.size a ≤ S64x384.size a
  k1_off12_inb : ∀ k1_t2 : Fin k1_t2_loop.trips, ∀ a, (k1_off12 k1_t2) a + S1x16.size a ≤ S64x384.size a
  k1_off13_inb : ∀ k1_t2 : Fin k1_t2_loop.trips, ∀ a, (k1_off13 k1_t2) a + S1x16.size a ≤ S64x384.size a
  k1_off14_inb : ∀ k1_t2 : Fin k1_t2_loop.trips, ∀ a, (k1_off14 k1_t2) a + S1x16.size a ≤ S64x384.size a
  k1_off15_inb : ∀ k1_t2 : Fin k1_t2_loop.trips, ∀ a, (k1_off15 k1_t2) a + S1x16.size a ≤ S64x384.size a
  k1_off16_inb : ∀ k1_t2 : Fin k1_t2_loop.trips, ∀ a, (k1_off16 k1_t2) a + S1x16.size a ≤ S64x384.size a
  k1_off17_inb : ∀ k1_t2 : Fin k1_t2_loop.trips, ∀ a, (k1_off17 k1_t2) a + S1x16.size a ≤ S64x384.size a
  k1_off18_inb : ∀ k1_t2 : Fin k1_t2_loop.trips, ∀ a, (k1_off18 k1_t2) a + S1x16.size a ≤ S64x384.size a
  k1_off19_inb : ∀ k1_t2 : Fin k1_t2_loop.trips, ∀ a, (k1_off19 k1_t2) a + S1x16.size a ≤ S64x384.size a
  k1_off20_inb : ∀ k1_t2 : Fin k1_t2_loop.trips, ∀ a, (k1_off20 k1_t2) a + S1x16.size a ≤ S64x384.size a
  k1_off21_inb : ∀ k1_t2 : Fin k1_t2_loop.trips, ∀ a, (k1_off21 k1_t2) a + S1x16.size a ≤ S64x384.size a
  k1_off22_inb : ∀ k1_t2 : Fin k1_t2_loop.trips, ∀ a, (k1_off22 k1_t2) a + S1x16.size a ≤ S64x384.size a
  k1_off23_inb : ∀ k1_t2 : Fin k1_t2_loop.trips, ∀ a, (k1_off23 k1_t2) a + S1x16.size a ≤ S64x384.size a
  k1_off24_inb : ∀ k1_t2 : Fin k1_t2_loop.trips, ∀ a, (k1_off24 k1_t2) a + S1x16.size a ≤ S64x384.size a
  k1_off25_inb : ∀ k1_t2 : Fin k1_t2_loop.trips, ∀ a, (k1_off25 k1_t2) a + S1x16.size a ≤ S64x384.size a
  k1_off26_inb : ∀ k1_t2 : Fin k1_t2_loop.trips, ∀ a, (k1_off26 k1_t2) a + S1x16.size a ≤ S64x384.size a
  k1_off27_inb : ∀ k1_t2 : Fin k1_t2_loop.trips, ∀ a, (k1_off27 k1_t2) a + S1x16.size a ≤ S64x384.size a
  k1_off28_inb : ∀ k1_t2 : Fin k1_t2_loop.trips, ∀ a, (k1_off28 k1_t2) a + S1x16.size a ≤ S64x384.size a
  k1_off29_inb : ∀ (i : grid1.Coords) (k1_t1 : Fin k1_t1_loop.trips), ∀ (k1_h2 : k1_cond2 k1_t1 = 1#1), ∀ a, (k1_off29 i k1_t1) a + S1x64x384.size a ≤ S768x384x384.size a
  k1_t3_ok : k1_t3_loop.OK
  k1_off30_inb : ∀ k1_t3 : Fin k1_t3_loop.trips, ∀ a, (k1_off30 k1_t3) a + S1x16.size a ≤ S64x384.size a
  k1_off31_inb : ∀ k1_t3 : Fin k1_t3_loop.trips, ∀ a, (k1_off31 k1_t3) a + S1x16.size a ≤ S64x384.size a
  k1_off32_inb : ∀ k1_t3 : Fin k1_t3_loop.trips, ∀ a, (k1_off32 k1_t3) a + S1x16.size a ≤ S64x384.size a
  k1_off33_inb : ∀ k1_t3 : Fin k1_t3_loop.trips, ∀ a, (k1_off33 k1_t3) a + S1x16.size a ≤ S64x384.size a
  k1_off34_inb : ∀ k1_t3 : Fin k1_t3_loop.trips, ∀ a, (k1_off34 k1_t3) a + S1x16.size a ≤ S64x384.size a
  k1_off35_inb : ∀ k1_t3 : Fin k1_t3_loop.trips, ∀ a, (k1_off35 k1_t3) a + S1x16.size a ≤ S64x384.size a
  k1_off36_inb : ∀ k1_t3 : Fin k1_t3_loop.trips, ∀ a, (k1_off36 k1_t3) a + S1x16.size a ≤ S64x384.size a
  k1_off37_inb : ∀ k1_t3 : Fin k1_t3_loop.trips, ∀ a, (k1_off37 k1_t3) a + S1x16.size a ≤ S64x384.size a
  k1_off38_inb : ∀ k1_t3 : Fin k1_t3_loop.trips, ∀ a, (k1_off38 k1_t3) a + S1x16.size a ≤ S64x384.size a
  k1_off39_inb : ∀ k1_t3 : Fin k1_t3_loop.trips, ∀ a, (k1_off39 k1_t3) a + S1x16.size a ≤ S64x384.size a
  k1_off40_inb : ∀ k1_t3 : Fin k1_t3_loop.trips, ∀ a, (k1_off40 k1_t3) a + S1x16.size a ≤ S64x384.size a
  k1_off41_inb : ∀ k1_t3 : Fin k1_t3_loop.trips, ∀ a, (k1_off41 k1_t3) a + S1x16.size a ≤ S64x384.size a
  k1_off42_inb : ∀ k1_t3 : Fin k1_t3_loop.trips, ∀ a, (k1_off42 k1_t3) a + S1x16.size a ≤ S64x384.size a
  k1_off43_inb : ∀ k1_t3 : Fin k1_t3_loop.trips, ∀ a, (k1_off43 k1_t3) a + S1x16.size a ≤ S64x384.size a
  k1_off44_inb : ∀ k1_t3 : Fin k1_t3_loop.trips, ∀ a, (k1_off44 k1_t3) a + S1x16.size a ≤ S64x384.size a
  k1_off45_inb : ∀ k1_t3 : Fin k1_t3_loop.trips, ∀ a, (k1_off45 k1_t3) a + S1x16.size a ≤ S64x384.size a
  k1_off46_inb : ∀ k1_t3 : Fin k1_t3_loop.trips, ∀ a, (k1_off46 k1_t3) a + S1x16.size a ≤ S64x384.size a
  k1_off47_inb : ∀ k1_t3 : Fin k1_t3_loop.trips, ∀ a, (k1_off47 k1_t3) a + S1x16.size a ≤ S64x384.size a
  k1_off48_inb : ∀ k1_t3 : Fin k1_t3_loop.trips, ∀ a, (k1_off48 k1_t3) a + S1x16.size a ≤ S64x384.size a
  k1_off49_inb : ∀ k1_t3 : Fin k1_t3_loop.trips, ∀ a, (k1_off49 k1_t3) a + S1x16.size a ≤ S64x384.size a
  k1_off50_inb : ∀ k1_t3 : Fin k1_t3_loop.trips, ∀ a, (k1_off50 k1_t3) a + S1x16.size a ≤ S64x384.size a
  k1_off51_inb : ∀ k1_t3 : Fin k1_t3_loop.trips, ∀ a, (k1_off51 k1_t3) a + S1x16.size a ≤ S64x384.size a
  k1_off52_inb : ∀ k1_t3 : Fin k1_t3_loop.trips, ∀ a, (k1_off52 k1_t3) a + S1x16.size a ≤ S64x384.size a
  k1_off53_inb : ∀ k1_t3 : Fin k1_t3_loop.trips, ∀ a, (k1_off53 k1_t3) a + S1x16.size a ≤ S64x384.size a
  k1_off54_inb : ∀ (i : grid1.Coords) (k1_t1 : Fin k1_t1_loop.trips), ∀ (k1_h3 : k1_cond3 k1_t1 = 1#1), ∀ a, (k1_off54 i k1_t1) a + S1x64x384.size a ≤ S768x384x384.size a
  k1_t4_ok : k1_t4_loop.OK
  k1_off55_inb : ∀ k1_t4 : Fin k1_t4_loop.trips, ∀ a, (k1_off55 k1_t4) a + S1x16.size a ≤ S64x384.size a
  k1_off56_inb : ∀ k1_t4 : Fin k1_t4_loop.trips, ∀ a, (k1_off56 k1_t4) a + S1x16.size a ≤ S64x384.size a
  k1_off57_inb : ∀ k1_t4 : Fin k1_t4_loop.trips, ∀ a, (k1_off57 k1_t4) a + S1x16.size a ≤ S64x384.size a
  k1_off58_inb : ∀ k1_t4 : Fin k1_t4_loop.trips, ∀ a, (k1_off58 k1_t4) a + S1x16.size a ≤ S64x384.size a
  k1_off59_inb : ∀ k1_t4 : Fin k1_t4_loop.trips, ∀ a, (k1_off59 k1_t4) a + S1x16.size a ≤ S64x384.size a
  k1_off60_inb : ∀ k1_t4 : Fin k1_t4_loop.trips, ∀ a, (k1_off60 k1_t4) a + S1x16.size a ≤ S64x384.size a
  k1_off61_inb : ∀ k1_t4 : Fin k1_t4_loop.trips, ∀ a, (k1_off61 k1_t4) a + S1x16.size a ≤ S64x384.size a
  k1_off62_inb : ∀ k1_t4 : Fin k1_t4_loop.trips, ∀ a, (k1_off62 k1_t4) a + S1x16.size a ≤ S64x384.size a
  k1_off63_inb : ∀ k1_t4 : Fin k1_t4_loop.trips, ∀ a, (k1_off63 k1_t4) a + S1x16.size a ≤ S64x384.size a
  k1_off64_inb : ∀ k1_t4 : Fin k1_t4_loop.trips, ∀ a, (k1_off64 k1_t4) a + S1x16.size a ≤ S64x384.size a
  k1_off65_inb : ∀ k1_t4 : Fin k1_t4_loop.trips, ∀ a, (k1_off65 k1_t4) a + S1x16.size a ≤ S64x384.size a
  k1_off66_inb : ∀ k1_t4 : Fin k1_t4_loop.trips, ∀ a, (k1_off66 k1_t4) a + S1x16.size a ≤ S64x384.size a
  k1_off67_inb : ∀ k1_t4 : Fin k1_t4_loop.trips, ∀ a, (k1_off67 k1_t4) a + S1x16.size a ≤ S64x384.size a
  k1_off68_inb : ∀ k1_t4 : Fin k1_t4_loop.trips, ∀ a, (k1_off68 k1_t4) a + S1x16.size a ≤ S64x384.size a
  k1_off69_inb : ∀ k1_t4 : Fin k1_t4_loop.trips, ∀ a, (k1_off69 k1_t4) a + S1x16.size a ≤ S64x384.size a
  k1_off70_inb : ∀ k1_t4 : Fin k1_t4_loop.trips, ∀ a, (k1_off70 k1_t4) a + S1x16.size a ≤ S64x384.size a
  k1_off71_inb : ∀ k1_t4 : Fin k1_t4_loop.trips, ∀ a, (k1_off71 k1_t4) a + S1x16.size a ≤ S64x384.size a
  k1_off72_inb : ∀ k1_t4 : Fin k1_t4_loop.trips, ∀ a, (k1_off72 k1_t4) a + S1x16.size a ≤ S64x384.size a
  k1_off73_inb : ∀ k1_t4 : Fin k1_t4_loop.trips, ∀ a, (k1_off73 k1_t4) a + S1x16.size a ≤ S64x384.size a
  k1_off74_inb : ∀ k1_t4 : Fin k1_t4_loop.trips, ∀ a, (k1_off74 k1_t4) a + S1x16.size a ≤ S64x384.size a
  k1_off75_inb : ∀ k1_t4 : Fin k1_t4_loop.trips, ∀ a, (k1_off75 k1_t4) a + S1x16.size a ≤ S64x384.size a
  k1_off76_inb : ∀ k1_t4 : Fin k1_t4_loop.trips, ∀ a, (k1_off76 k1_t4) a + S1x16.size a ≤ S64x384.size a
  k1_off77_inb : ∀ k1_t4 : Fin k1_t4_loop.trips, ∀ a, (k1_off77 k1_t4) a + S1x16.size a ≤ S64x384.size a
  k1_off78_inb : ∀ k1_t4 : Fin k1_t4_loop.trips, ∀ a, (k1_off78 k1_t4) a + S1x16.size a ≤ S64x384.size a
  k1_off79_inb : ∀ (i : grid1.Coords) (k1_t1 : Fin k1_t1_loop.trips), ∀ (k1_h4 : k1_cond4 k1_t1 = 1#1), ∀ a, (k1_off79 i k1_t1) a + S1x64x384.size a ≤ S768x384x384.size a
  k1_t5_ok : k1_t5_loop.OK
  k1_off80_inb : ∀ k1_t5 : Fin k1_t5_loop.trips, ∀ a, (k1_off80 k1_t5) a + S1x16.size a ≤ S64x384.size a
  k1_off81_inb : ∀ k1_t5 : Fin k1_t5_loop.trips, ∀ a, (k1_off81 k1_t5) a + S1x16.size a ≤ S64x384.size a
  k1_off82_inb : ∀ k1_t5 : Fin k1_t5_loop.trips, ∀ a, (k1_off82 k1_t5) a + S1x16.size a ≤ S64x384.size a
  k1_off83_inb : ∀ k1_t5 : Fin k1_t5_loop.trips, ∀ a, (k1_off83 k1_t5) a + S1x16.size a ≤ S64x384.size a
  k1_off84_inb : ∀ k1_t5 : Fin k1_t5_loop.trips, ∀ a, (k1_off84 k1_t5) a + S1x16.size a ≤ S64x384.size a
  k1_off85_inb : ∀ k1_t5 : Fin k1_t5_loop.trips, ∀ a, (k1_off85 k1_t5) a + S1x16.size a ≤ S64x384.size a
  k1_off86_inb : ∀ k1_t5 : Fin k1_t5_loop.trips, ∀ a, (k1_off86 k1_t5) a + S1x16.size a ≤ S64x384.size a
  k1_off87_inb : ∀ k1_t5 : Fin k1_t5_loop.trips, ∀ a, (k1_off87 k1_t5) a + S1x16.size a ≤ S64x384.size a
  k1_off88_inb : ∀ k1_t5 : Fin k1_t5_loop.trips, ∀ a, (k1_off88 k1_t5) a + S1x16.size a ≤ S64x384.size a
  k1_off89_inb : ∀ k1_t5 : Fin k1_t5_loop.trips, ∀ a, (k1_off89 k1_t5) a + S1x16.size a ≤ S64x384.size a
  k1_off90_inb : ∀ k1_t5 : Fin k1_t5_loop.trips, ∀ a, (k1_off90 k1_t5) a + S1x16.size a ≤ S64x384.size a
  k1_off91_inb : ∀ k1_t5 : Fin k1_t5_loop.trips, ∀ a, (k1_off91 k1_t5) a + S1x16.size a ≤ S64x384.size a
  k1_off92_inb : ∀ k1_t5 : Fin k1_t5_loop.trips, ∀ a, (k1_off92 k1_t5) a + S1x16.size a ≤ S64x384.size a
  k1_off93_inb : ∀ k1_t5 : Fin k1_t5_loop.trips, ∀ a, (k1_off93 k1_t5) a + S1x16.size a ≤ S64x384.size a
  k1_off94_inb : ∀ k1_t5 : Fin k1_t5_loop.trips, ∀ a, (k1_off94 k1_t5) a + S1x16.size a ≤ S64x384.size a
  k1_off95_inb : ∀ k1_t5 : Fin k1_t5_loop.trips, ∀ a, (k1_off95 k1_t5) a + S1x16.size a ≤ S64x384.size a
  k1_off96_inb : ∀ k1_t5 : Fin k1_t5_loop.trips, ∀ a, (k1_off96 k1_t5) a + S1x16.size a ≤ S64x384.size a
  k1_off97_inb : ∀ k1_t5 : Fin k1_t5_loop.trips, ∀ a, (k1_off97 k1_t5) a + S1x16.size a ≤ S64x384.size a
  k1_off98_inb : ∀ k1_t5 : Fin k1_t5_loop.trips, ∀ a, (k1_off98 k1_t5) a + S1x16.size a ≤ S64x384.size a
  k1_off99_inb : ∀ k1_t5 : Fin k1_t5_loop.trips, ∀ a, (k1_off99 k1_t5) a + S1x16.size a ≤ S64x384.size a
  k1_off100_inb : ∀ k1_t5 : Fin k1_t5_loop.trips, ∀ a, (k1_off100 k1_t5) a + S1x16.size a ≤ S64x384.size a
  k1_off101_inb : ∀ k1_t5 : Fin k1_t5_loop.trips, ∀ a, (k1_off101 k1_t5) a + S1x16.size a ≤ S64x384.size a
  k1_off102_inb : ∀ k1_t5 : Fin k1_t5_loop.trips, ∀ a, (k1_off102 k1_t5) a + S1x16.size a ≤ S64x384.size a
  k1_off103_inb : ∀ k1_t5 : Fin k1_t5_loop.trips, ∀ a, (k1_off103 k1_t5) a + S1x16.size a ≤ S64x384.size a
  k1_off104_inb : ∀ (i : grid1.Coords) (k1_t1 : Fin k1_t1_loop.trips), ∀ (k1_h5 : k1_cond5 k1_t1 = 1#1), ∀ a, (k1_off104 i k1_t1) a + S1x64x384.size a ≤ S768x384x384.size a
  k1_t6_ok : k1_t6_loop.OK
  k1_off105_inb : ∀ k1_t6 : Fin k1_t6_loop.trips, ∀ a, (k1_off105 k1_t6) a + S1x16.size a ≤ S64x384.size a
  k1_off106_inb : ∀ k1_t6 : Fin k1_t6_loop.trips, ∀ a, (k1_off106 k1_t6) a + S1x16.size a ≤ S64x384.size a
  k1_off107_inb : ∀ k1_t6 : Fin k1_t6_loop.trips, ∀ a, (k1_off107 k1_t6) a + S1x16.size a ≤ S64x384.size a
  k1_off108_inb : ∀ k1_t6 : Fin k1_t6_loop.trips, ∀ a, (k1_off108 k1_t6) a + S1x16.size a ≤ S64x384.size a
  k1_off109_inb : ∀ k1_t6 : Fin k1_t6_loop.trips, ∀ a, (k1_off109 k1_t6) a + S1x16.size a ≤ S64x384.size a
  k1_off110_inb : ∀ k1_t6 : Fin k1_t6_loop.trips, ∀ a, (k1_off110 k1_t6) a + S1x16.size a ≤ S64x384.size a
  k1_off111_inb : ∀ k1_t6 : Fin k1_t6_loop.trips, ∀ a, (k1_off111 k1_t6) a + S1x16.size a ≤ S64x384.size a
  k1_off112_inb : ∀ k1_t6 : Fin k1_t6_loop.trips, ∀ a, (k1_off112 k1_t6) a + S1x16.size a ≤ S64x384.size a
  k1_off113_inb : ∀ k1_t6 : Fin k1_t6_loop.trips, ∀ a, (k1_off113 k1_t6) a + S1x16.size a ≤ S64x384.size a
  k1_off114_inb : ∀ k1_t6 : Fin k1_t6_loop.trips, ∀ a, (k1_off114 k1_t6) a + S1x16.size a ≤ S64x384.size a
  k1_off115_inb : ∀ k1_t6 : Fin k1_t6_loop.trips, ∀ a, (k1_off115 k1_t6) a + S1x16.size a ≤ S64x384.size a
  k1_off116_inb : ∀ k1_t6 : Fin k1_t6_loop.trips, ∀ a, (k1_off116 k1_t6) a + S1x16.size a ≤ S64x384.size a
  k1_off117_inb : ∀ k1_t6 : Fin k1_t6_loop.trips, ∀ a, (k1_off117 k1_t6) a + S1x16.size a ≤ S64x384.size a
  k1_off118_inb : ∀ k1_t6 : Fin k1_t6_loop.trips, ∀ a, (k1_off118 k1_t6) a + S1x16.size a ≤ S64x384.size a
  k1_off119_inb : ∀ k1_t6 : Fin k1_t6_loop.trips, ∀ a, (k1_off119 k1_t6) a + S1x16.size a ≤ S64x384.size a
  k1_off120_inb : ∀ k1_t6 : Fin k1_t6_loop.trips, ∀ a, (k1_off120 k1_t6) a + S1x16.size a ≤ S64x384.size a
  k1_off121_inb : ∀ k1_t6 : Fin k1_t6_loop.trips, ∀ a, (k1_off121 k1_t6) a + S1x16.size a ≤ S64x384.size a
  k1_off122_inb : ∀ k1_t6 : Fin k1_t6_loop.trips, ∀ a, (k1_off122 k1_t6) a + S1x16.size a ≤ S64x384.size a
  k1_off123_inb : ∀ k1_t6 : Fin k1_t6_loop.trips, ∀ a, (k1_off123 k1_t6) a + S1x16.size a ≤ S64x384.size a
  k1_off124_inb : ∀ k1_t6 : Fin k1_t6_loop.trips, ∀ a, (k1_off124 k1_t6) a + S1x16.size a ≤ S64x384.size a
  k1_off125_inb : ∀ k1_t6 : Fin k1_t6_loop.trips, ∀ a, (k1_off125 k1_t6) a + S1x16.size a ≤ S64x384.size a
  k1_off126_inb : ∀ k1_t6 : Fin k1_t6_loop.trips, ∀ a, (k1_off126 k1_t6) a + S1x16.size a ≤ S64x384.size a
  k1_off127_inb : ∀ k1_t6 : Fin k1_t6_loop.trips, ∀ a, (k1_off127 k1_t6) a + S1x16.size a ≤ S64x384.size a
  k1_off128_inb : ∀ k1_t6 : Fin k1_t6_loop.trips, ∀ a, (k1_off128 k1_t6) a + S1x16.size a ≤ S64x384.size a
  k1_off129_inb : ∀ (i : grid1.Coords) (k1_t1 : Fin k1_t1_loop.trips), ∀ (k1_h6 : k1_cond6 k1_t1 = 1#1), ∀ a, (k1_off129 i k1_t1) a + S1x64x384.size a ≤ S768x384x384.size a
  k1_t7_ok : k1_t7_loop.OK
  k1_off130_inb : ∀ k1_t7 : Fin k1_t7_loop.trips, ∀ a, (k1_off130 k1_t7) a + S1x16.size a ≤ S64x384.size a
  k1_off131_inb : ∀ k1_t7 : Fin k1_t7_loop.trips, ∀ a, (k1_off131 k1_t7) a + S1x16.size a ≤ S64x384.size a
  k1_off132_inb : ∀ k1_t7 : Fin k1_t7_loop.trips, ∀ a, (k1_off132 k1_t7) a + S1x16.size a ≤ S64x384.size a
  k1_off133_inb : ∀ k1_t7 : Fin k1_t7_loop.trips, ∀ a, (k1_off133 k1_t7) a + S1x16.size a ≤ S64x384.size a
  k1_off134_inb : ∀ k1_t7 : Fin k1_t7_loop.trips, ∀ a, (k1_off134 k1_t7) a + S1x16.size a ≤ S64x384.size a
  k1_off135_inb : ∀ k1_t7 : Fin k1_t7_loop.trips, ∀ a, (k1_off135 k1_t7) a + S1x16.size a ≤ S64x384.size a
  k1_off136_inb : ∀ k1_t7 : Fin k1_t7_loop.trips, ∀ a, (k1_off136 k1_t7) a + S1x16.size a ≤ S64x384.size a
  k1_off137_inb : ∀ k1_t7 : Fin k1_t7_loop.trips, ∀ a, (k1_off137 k1_t7) a + S1x16.size a ≤ S64x384.size a
  k1_off138_inb : ∀ k1_t7 : Fin k1_t7_loop.trips, ∀ a, (k1_off138 k1_t7) a + S1x16.size a ≤ S64x384.size a
  k1_off139_inb : ∀ k1_t7 : Fin k1_t7_loop.trips, ∀ a, (k1_off139 k1_t7) a + S1x16.size a ≤ S64x384.size a
  k1_off140_inb : ∀ k1_t7 : Fin k1_t7_loop.trips, ∀ a, (k1_off140 k1_t7) a + S1x16.size a ≤ S64x384.size a
  k1_off141_inb : ∀ k1_t7 : Fin k1_t7_loop.trips, ∀ a, (k1_off141 k1_t7) a + S1x16.size a ≤ S64x384.size a
  k1_off142_inb : ∀ k1_t7 : Fin k1_t7_loop.trips, ∀ a, (k1_off142 k1_t7) a + S1x16.size a ≤ S64x384.size a
  k1_off143_inb : ∀ k1_t7 : Fin k1_t7_loop.trips, ∀ a, (k1_off143 k1_t7) a + S1x16.size a ≤ S64x384.size a
  k1_off144_inb : ∀ k1_t7 : Fin k1_t7_loop.trips, ∀ a, (k1_off144 k1_t7) a + S1x16.size a ≤ S64x384.size a
  k1_off145_inb : ∀ k1_t7 : Fin k1_t7_loop.trips, ∀ a, (k1_off145 k1_t7) a + S1x16.size a ≤ S64x384.size a
  k1_off146_inb : ∀ k1_t7 : Fin k1_t7_loop.trips, ∀ a, (k1_off146 k1_t7) a + S1x16.size a ≤ S64x384.size a
  k1_off147_inb : ∀ k1_t7 : Fin k1_t7_loop.trips, ∀ a, (k1_off147 k1_t7) a + S1x16.size a ≤ S64x384.size a
  k1_off148_inb : ∀ k1_t7 : Fin k1_t7_loop.trips, ∀ a, (k1_off148 k1_t7) a + S1x16.size a ≤ S64x384.size a
  k1_off149_inb : ∀ k1_t7 : Fin k1_t7_loop.trips, ∀ a, (k1_off149 k1_t7) a + S1x16.size a ≤ S64x384.size a
  k1_off150_inb : ∀ k1_t7 : Fin k1_t7_loop.trips, ∀ a, (k1_off150 k1_t7) a + S1x16.size a ≤ S64x384.size a
  k1_off151_inb : ∀ k1_t7 : Fin k1_t7_loop.trips, ∀ a, (k1_off151 k1_t7) a + S1x16.size a ≤ S64x384.size a
  k1_off152_inb : ∀ k1_t7 : Fin k1_t7_loop.trips, ∀ a, (k1_off152 k1_t7) a + S1x16.size a ≤ S64x384.size a
  k1_off153_inb : ∀ k1_t7 : Fin k1_t7_loop.trips, ∀ a, (k1_off153 k1_t7) a + S1x16.size a ≤ S64x384.size a
  k1_mult1_dvd : ∀ k1_t1 : Fin k1_t1_loop.trips, 16 ∣ (k1_mult1 k1_t1).toNat
  k1_off154_inb : ∀ k1_t1 : Fin k1_t1_loop.trips, ∀ a, (k1_off154 k1_t1) a + S16.size a ≤ S96.size a
  k1_off155_inb : ∀ i : grid1.Coords, ∀ a, (k1_off155 i) a + S96.size a ≤ S3072.size a
  hstage2_0 : ∀ j, (stage2_0 j).IsWhole
  hstage2_1 : ∀ j, (stage2_1 j).IsWhole
  hstage2_2 : ∀ j, (stage2_2 j).IsWhole
  hstage2_3 : ∀ j, (stage2_3 j).IsWhole
  hstage2_4 : ∀ j, (stage2_4 j).IsWhole

variable [Facts₀]

abbrev cc0_scratch1 : DmaSems sig S8 := SemArray.consecutive 1 S8 hcc0_scratch1
abbrev cc1_scratch4 : DmaSems sig S_ := SemArray.consecutive 9 S_ hcc1_scratch4
abbrev cc1_scratch5 : DmaSems sig S_ := SemArray.consecutive 10 S_ hcc1_scratch5
abbrev cc1_scratch6 : DmaSems sig S_ := SemArray.consecutive 11 S_ hcc1_scratch6
abbrev cc1_scoped0 : DmaSems sig S_ := SemArray.consecutive 12 S_ hcc1_scoped0
def dot_S128x576_S576x1_S128x1_1_0_0_1_n_n : DotDims S128x576 S576x1 S128x1 where
  lhsContracting := [1]
  rhsContracting := [0]
  lhsNonContracting := [0]
  rhsNonContracting := [1]
  lhsBatch := []
  rhsBatch := []
  wf := dot_S128x576_S576x1_S128x1_1_0_0_1_n_n_wf
def dot_S128x192_S192x1_S128x1_1_0_0_1_n_n : DotDims S128x192 S192x1 S128x1 where
  lhsContracting := [1]
  rhsContracting := [0]
  lhsNonContracting := [0]
  rhsNonContracting := [1]
  lhsBatch := []
  rhsBatch := []
  wf := dot_S128x192_S192x1_S128x1_1_0_0_1_n_n_wf

abbrev win0_0 : Pipeline.Window sig grid0 :=
  Pipeline.Window.whole (Memref.whole main_v1) true false (stage0_0 0) (sem0_0 0) (Memref.isWhole_whole _) (hstage0_0 0)

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

abbrev win2_0 : Pipeline.Window sig grid2 :=
  Pipeline.Window.whole (Memref.whole main_v15) false false (stage2_0 0) (sem2_0 0) (Memref.isWhole_whole _) (hstage2_0 0)

abbrev win2_1 : Pipeline.Window sig grid2 :=
  Pipeline.Window.whole (Memref.whole main_v16) false false (stage2_1 0) (sem2_1 0) (Memref.isWhole_whole _) (hstage2_1 0)

abbrev win2_2 : Pipeline.Window sig grid2 :=
  Pipeline.Window.whole (Memref.whole main_v17) false false (stage2_2 0) (sem2_2 0) (Memref.isWhole_whole _) (hstage2_2 0)

abbrev win2_3 : Pipeline.Window sig grid2 :=
  Pipeline.Window.whole (Memref.whole main_v18) false false (stage2_3 0) (sem2_3 0) (Memref.isWhole_whole _) (hstage2_3 0)

abbrev win2_4 : Pipeline.Window sig grid2 :=
  Pipeline.Window.whole (Memref.whole main_v19) true false (stage2_4 0) (sem2_4 0) (Memref.isWhole_whole _) (hstage2_4 0)

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S8x96x384x384 : Shape := ⟨4, ![8, 96, 384, 384]⟩
abbrev S16x96 : Shape := ⟨2, ![16, 96]⟩
abbrev S_ : Shape := ⟨0, ![]⟩
abbrev S8x96 : Shape := ⟨2, ![8, 96]⟩
abbrev S96x16 : Shape := ⟨2, ![96, 16]⟩
abbrev S8x16 : Shape := ⟨2, ![8, 16]⟩

abbrev nBuf : Space → Nat
  | .hbm => 9
  | .vmem => 0
  | .smem => 0
  | _ => 0

abbrev bufTy : (tb : Table) → Fin (tcTables nBuf tb) → BufTy
  | .hbm, ⟨0, _⟩ => ⟨S8x96x384x384, .f32⟩
  | .hbm, ⟨1, _⟩ => ⟨S16x96, .f32⟩
  | .hbm, ⟨2, _⟩ => ⟨S_, .f32⟩
  | .hbm, ⟨3, _⟩ => ⟨S8x96, .f32⟩
  | .hbm, ⟨4, _⟩ => ⟨S_, .f32⟩
  | .hbm, ⟨5, _⟩ => ⟨S8x96, .f32⟩
  | .hbm, ⟨6, _⟩ => ⟨S8x96, .f32⟩
  | .hbm, ⟨7, _⟩ => ⟨S96x16, .f32⟩
  | .hbm, ⟨8, _⟩ => ⟨S8x16, .f32⟩
  | _, _ => ⟨S8x96x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  reducesTo_S8x96x384x384_S8x96_d2_3 : S8x96x384x384.ReducesTo [2, 3] S8x96
  h_S_ : 0 < S_.numel
  bcast_S_S8x96 : S_.BroadcastsInDim S8x96 (![] : Fin 0 → Fin S8x96.rank)
  transposes_S16x96_S96x16_1_0 : S16x96.Transposes [1, 0] S96x16
  dot_S8x96_S96x16_S8x16_1_0_0_1_n_n_wf : DotDims.WF S8x96 S96x16 S8x16 [1] [0] [0] [1] [] []

variable [Facts₀]

def dot_S8x96_S96x16_S8x16_1_0_0_1_n_n : DotDims S8x96 S96x16 S8x16 where
  lhsContracting := [1]
  rhsContracting := [0]
  lhsNonContracting := [0]
  rhsNonContracting := [1]
  lhsBatch := []
  rhsBatch := []
  wf := dot_S8x96_S96x16_S8x16_1_0_0_1_n_n_wf

class Facts : Prop extends Facts₀ where

variable [Facts]
-- ==== Proof.KI.Common.lean ====
/-
  What the proof's modules for the idealized kernel share: the program as the SparseCore launch theorem sees it, the
  resource algebra (the launch handshakes' rounds beside the two TensorCore regions' staging cells and the transfers'
  counters), and what the one SparseCore call's handshakes carry.

  The program pools 768 planes of 384 x 384 numbers. Planes 0..575 are summed on the TensorCore; plane 576 + 6 w + r
  (w < 32, r < 6) is summed, lane by lane, by vector subcore w = 2 s + c, which leaves sixteen lane sums at words
  (6 w + r) * 16 .. of the partials array. A vector subcore only READS the plane array (a share of it) and OWNS the 96
  words of the partials array it writes.
-/
import proofs.«215010_g72713796321855_cont_9to1c4b_299_31_alg».proof.Defs
import proofs.«215010_g72713796321855_cont_9to1c4b_299_31_alg».proof.Proof.Gen.KernelIdeal
import proofs.«215010_g72713796321855_cont_9to1c4b_299_31_alg».proof.Proof.Gen.KernelIdeal.Launch
import Idealize.ShloMosaic.Lib.SparseCore.Launch
import Idealize.ShloMosaic.Lib.StableHlo.Run
import Idealize.ShloMosaic.Lib.Pipeline.Kit
import Idealize.ShloMosaic.Lib.Transfers
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UU : Type := UH × (UR sig nD τ × Counters)

local notation "𝕄" => MT nD τ sig (HIx 1) (Elt F) ℕ UU ℕ

/-- The handshakes' rounds: the left factor. -/
abbrev EH : Emb UH (MT nD τ sig (HIx 1) (Elt F) ℕ UU ℕ) := embL
/-- The TensorCore regions' staging cells' rounds: the left factor of the right factor. -/
def EP : Emb (UR sig nD τ) (MT nD τ sig (HIx 1) (Elt F) ℕ UU ℕ) :=
  (Emb.inl : Emb (UR sig nD τ) (UR sig nD τ × Counters)).trans embR

instance EP_landsIn : (EP : Emb (UR sig nD τ) 𝕄).LandsIn (upEmb : UEmb _ 𝕄) := by unfold EP; infer_instance

/-! ## The arrays the SparseCore call works on -/

/-- The planes, x reshaped to 768 x 384 x 384. -/
abbrev x3Loc (d : Dev nD) : Loc nD τ sig := (SparseCore.T d).loc main_v0
/-- The TensorCore pool's plane sums, 576 x 1 x 1. -/
abbrev sLoc (d : Dev nD) : Loc nD τ sig := (SparseCore.T d).loc main_v1
/-- The SparseCore pool's lane sums, 3072 words. -/
abbrev pLoc (d : Dev nD) : Loc nD τ sig := (SparseCore.T d).loc main_v2

/-- Vector subcore s of SparseCore c works as number 2 s + c. -/
def wid (c : Fin 2) (s : Fin 16) : Fin 32 := ⟨s.val * 2 + c.val, by omega⟩

/-- The 96 words of the partials array that vector subcore number w writes. -/
def outSet (w : Fin 32) : Finset S3072.Idx := Finset.univ.filter fun j => w.val * 96 ≤ (j 0).val ∧ (j 0).val < w.val * 96 + 96
/-- The words SparseCore c's sixteen vector subcores write. -/
def coreOut (c : Fin 2) : Finset S3072.Idx := Finset.univ.biUnion fun s : Fin 16 => outSet (wid c s)

/-- SparseCore c's read share of the planes, and vector subcore s's part of it. -/
def coreShare (c : Fin 2) : PosShare TreeShare := shareTok fullShare 2 c
def tileShare (c : Fin 2) (s : Fin 16) : PosShare TreeShare := shareTok (coreShare c) 16 s

variable (x3v : (d : Dev nD) → Buf (Elt F) (x3Loc d)) (pv : (d : Dev nD) → Buf (Elt F) (pLoc d))

/-- What the one SparseCore call's handshakes carry: a SparseCore is handed a read share of the planes (at contents
    x3v) and the words of the partials array its vector subcores write; a vector subcore its part of the share and its own 96 words;
    back come the same, the words at their final contents pv. -/
def P : (K (F := F)).Pay (nD := nD) (Val := Elt F) (Name := ℕ) (U := UU) where
  st := fun q d c => match q with
    | 0 => iprop((x3Loc d ↦{coreShare (Fin.cast nCore_zero c)} x3v d) ∗ ∃ f, pLoc d ↦[coreOut (Fin.cast nCore_zero c)]{fullShare} f)
  dn := fun q d c => match q with
    | 0 => iprop((x3Loc d ↦{coreShare (Fin.cast nCore_zero c)} x3v d) ∗ pLoc d ↦[coreOut (Fin.cast nCore_zero c)]{fullShare} pv d)
  go := fun q d c i => match q with
    | 0 => iprop((x3Loc d ↦{tileShare (Fin.cast nCore_zero c) (Fin.cast nSub_zero i)} x3v d)
        ∗ ∃ f, pLoc d ↦[outSet (wid (Fin.cast nCore_zero c) (Fin.cast nSub_zero i))]{fullShare} f)
  td := fun q d c i => match q with
    | 0 => iprop((x3Loc d ↦{tileShare (Fin.cast nCore_zero c) (Fin.cast nSub_zero i)} x3v d)
        ∗ pLoc d ↦[outSet (wid (Fin.cast nCore_zero c) (Fin.cast nSub_zero i))]{fullShare} pv d)
  x := fun _ _ => iprop(emp)

instance P_storable : (P (F := F) x3v pv).IsStorable where
  st q d c := match q with
    | 0 => (inferInstance : BI.Storable (upEmb : UEmb _ 𝕄)
        iprop((x3Loc d ↦{coreShare (Fin.cast nCore_zero c)} x3v d) ∗ ∃ f, pLoc d ↦[coreOut (Fin.cast nCore_zero c)]{fullShare} f))
  dn q d c := match q with
    | 0 => (inferInstance : BI.Storable (upEmb : UEmb _ 𝕄)
        iprop((x3Loc d ↦{coreShare (Fin.cast nCore_zero c)} x3v d) ∗ pLoc d ↦[coreOut (Fin.cast nCore_zero c)]{fullShare} pv d))
  go q d c i := match q with
    | 0 => (inferInstance : BI.Storable (upEmb : UEmb _ 𝕄)
        iprop((x3Loc d ↦{tileShare (Fin.cast nCore_zero c) (Fin.cast nSub_zero i)} x3v d)
          ∗ ∃ f, pLoc d ↦[outSet (wid (Fin.cast nCore_zero c) (Fin.cast nSub_zero i))]{fullShare} f))
  td q d c i := match q with
    | 0 => (inferInstance : BI.Storable (upEmb : UEmb _ 𝕄)
        iprop((x3Loc d ↦{tileShare (Fin.cast nCore_zero c) (Fin.cast nSub_zero i)} x3v d)
          ∗ pLoc d ↦[outSet (wid (Fin.cast nCore_zero c) (Fin.cast nSub_zero i))]{fullShare} pv d))

end Cert.Proof.KI

end
-- ==== Proof.KI.Main.lean ====
/-
  The entry program of the idealized kernel cut at its three calls: a reshape; the TensorCore pooling region; the
  SparseCore call; the seventeen host operations that lay the block-diagonal weight matrix out and reshape the two
  pools' results; the TensorCore projection region; the final reshape.
-/
import proofs.«215010_g72713796321855_cont_9to1c4b_299_31_alg».proof.Proof.KI.Common

noncomputable section

namespace Cert.Proof.KI

open Cert.KernelIdeal Cert.KernelIdeal.Gen
open Idealize.ShloMosaic Idealize.ShloMosaic.StableHlo
open Idealize.SL Idealize.SL.Sem

variable {F : FTy → Type} [FloatOps F] [Named F]

/-- The planes laid out: x as 768 planes. -/
abbrev opsA : List (HloOp τ sig (Elt F)) :=
  [ StableHlo.reshape main_arg0 main_v0 rfl shapeCasts_S8x96x384x384_S768x384x384 ]

/-- The weight matrix M[16 b + e, 96 b' + c] = [b = b'] * W[e, c] with its two column blocks, and the two pools'
    results as a column and as rows of sixteen lanes. -/
abbrev opsB : List (HloOp τ sig (Elt F)) :=
  [ StableHlo.nullary main_v3 (iotaInDim S8x8 32 0),
    StableHlo.nullary main_v4 (iotaInDim S8x8 32 1),
    StableHlo.nullary main_c (constantI S_ 32 0#32),
    StableHlo.unary main_c main_v5 (broadcastInDim S8x8 ![] bcast_S_S8x8 : (⟨S_, .i32⟩ : BufTy).Contents (Elt F) → (⟨S8x8, .i32⟩ : BufTy).Contents (Elt F)),
    StableHlo.binary main_v3 main_v5 main_v6 (addi : (⟨S8x8, .i32⟩ : BufTy).Contents (Elt F) → (⟨S8x8, .i32⟩ : BufTy).Contents (Elt F) → (⟨S8x8, .i32⟩ : BufTy).Contents (Elt F)),
    StableHlo.binary main_v6 main_v4 main_v7 (cmpi .eq : (⟨S8x8, .i32⟩ : BufTy).Contents (Elt F) → (⟨S8x8, .i32⟩ : BufTy).Contents (Elt F) → (⟨S8x8, .i1⟩ : BufTy).Contents (Elt F)),
    StableHlo.unary main_v7 main_v8 (uitofp .f32 : (⟨S8x8, .i1⟩ : BufTy).Contents (Elt F) → (⟨S8x8, .f32⟩ : BufTy).Contents (Elt F)),
    StableHlo.unary main_v8 main_v9 (broadcastInDim S8x1x8x1 ![0, 2] bcast_S8x8_S8x1x8x1_0_2 : (⟨S8x8, .f32⟩ : BufTy).Contents (Elt F) → (⟨S8x1x8x1, .f32⟩ : BufTy).Contents (Elt F)),
    StableHlo.unary main_arg1 main_v10 (broadcastInDim S1x16x1x96 ![1, 3] bcast_S16x96_S1x16x1x96_1_3 : (⟨S16x96, .f32⟩ : BufTy).Contents (Elt F) → (⟨S1x16x1x96, .f32⟩ : BufTy).Contents (Elt F)),
    StableHlo.unary main_v9 main_v11 (broadcastInDim S8x16x8x96 ![0, 1, 2, 3] bcast_S8x1x8x1_S8x16x8x96_0_1_2_3 : (⟨S8x1x8x1, .f32⟩ : BufTy).Contents (Elt F) → (⟨S8x16x8x96, .f32⟩ : BufTy).Contents (Elt F)),
    StableHlo.unary main_v10 main_v12 (broadcastInDim S8x16x8x96 ![0, 1, 2, 3] bcast_S1x16x1x96_S8x16x8x96_0_1_2_3 : (⟨S1x16x1x96, .f32⟩ : BufTy).Contents (Elt F) → (⟨S8x16x8x96, .f32⟩ : BufTy).Contents (Elt F)),
    StableHlo.binary main_v11 main_v12 main_v13 (mulf : (⟨S8x16x8x96, .f32⟩ : BufTy).Contents (Elt F) → (⟨S8x16x8x96, .f32⟩ : BufTy).Contents (Elt F) → (⟨S8x16x8x96, .f32⟩ : BufTy).Contents (Elt F)),
    StableHlo.reshape main_v13 main_v14 rfl shapeCasts_S8x16x8x96_S128x768,
    StableHlo.reshape main_v1 main_v15 rfl shapeCasts_S576x1x1_S576x1,
    StableHlo.reshape main_v2 main_v16 rfl shapeCasts_S3072_S192x16,
    StableHlo.unary main_v14 main_v17 ((extractStridedSlice S128x576 ![0, 0] · slices_S128x768_S128x576_0_0) : (⟨S128x768, .f32⟩ : BufTy).Contents (Elt F) → (⟨S128x576, .f32⟩ : BufTy).Contents (Elt F)),
    StableHlo.unary main_v14 main_v18 ((extractStridedSlice S128x192 ![0, 576] · slices_S128x768_S128x192_0_576) : (⟨S128x768, .f32⟩ : BufTy).Contents (Elt F) → (⟨S128x192, .f32⟩ : BufTy).Contents (Elt F)) ]

/-- The result as 8 x 16. -/
abbrev opsC : List (HloOp τ sig (Elt F)) :=
  [ StableHlo.reshape main_v19 main_v20 rfl shapeCasts_S128x1_S8x16 ]

theorem main_eq (d : Dev nD) :
    main (F := F) d = (seq opsA >>= fun _ => Prog.lift (.customCall (SparseCore.inner (Pipeline.entry 0)) ()) >>= fun _ =>
      (sc (F := F)).run d 0 >>= fun _ => seq opsB >>= fun _ => Prog.lift (.customCall (SparseCore.inner (Pipeline.entry 1)) ()) >>= fun _ =>
      seq opsC) := rfl

end Cert.Proof.KI

end
-- ==== Proof.KI.LaunchParts.lean ====
/-
  The parts of the launch that do not run the entry program: how a SparseCore's share of the planes and its words of
  the partials array split among its sixteen vector subcores and come back; the launch element of the ghost state (the
  handshakes' rounds, and the two TensorCore regions' staging cells funded but not yet under invariants); and how the
  final assertions read the result and the unchanged arguments off the final memory.
-/
import proofs.«215010_g72713796321855_cont_9to1c4b_299_31_alg».proof.Proof.KI.Common
import proofs.«215010_g72713796321855_cont_9to1c4b_299_31_alg».proof.Proof.KI.Main

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within seq after)
open Idealize.ShloMosaic.Transfers (shareTok shareDrop pointsTo_toks_split pointsTo_toks_join)
open Idealize.ShloMosaic.Tactic

variable {F : FTy → Type} [FloatOps F] [Named F]

local notation "𝕄" => MT nD τ sig (HIx 1) (Elt F) ℕ UU ℕ

abbrev adm : (p : Fin 2) → (pcfgs (F := F) p).Adm := fun p => (cfgs p).toPCfg_adm

theorem pcellOf_inj : Function.Injective (Pipeline.cellOf (nD := nD) (τ := τ) (Pipeline.pin (pcfgs (F := F)) adm)) := cellOf_inj

abbrev a0Loc (d : Dev nD) : Loc nD τ sig := (SparseCore.T d).loc main_arg0
abbrev a1Loc (d : Dev nD) : Loc nD τ sig := (SparseCore.T d).loc main_arg1
abbrev rLoc (d : Dev nD) : Loc nD τ sig := (SparseCore.T d).loc main_v20

variable (m : (ℓ : Loc nD τ sig) → Buf (Elt F) ℓ)
variable (x3v : (d : Dev nD) → Buf (Elt F) (x3Loc d)) (pv : (d : Dev nD) → Buf (Elt F) (pLoc d)) (KV : (d : Dev nD) → Buf (Elt F) (rLoc d))

/-! ## A SparseCore's operands among its vector subcores -/

omit [FloatOps F] [Named F] in
theorem wid_inj (c : Fin 2) : Function.Injective (wid c) := by
  intro s s' h
  have := congrArg Fin.val h
  simp only [wid] at this
  exact Fin.ext (by omega)

omit [FloatOps F] [Named F] in
/-- Two vector subcores' words are disjoint: 96 consecutive words each, at distinct multiples of 96. -/
theorem outSets_disjoint (c : Fin 2) :
    ∀ i ∈ (Finset.univ : Finset (Fin 16)), ∀ j ∈ (Finset.univ : Finset (Fin 16)), i ≠ j → Disjoint (outSet (wid c i)) (outSet (wid c j)) := by
  intro i _ j _ hij
  rw [Finset.disjoint_left]
  intro x hx hx'
  simp only [outSet, Finset.mem_filter, Finset.mem_univ, true_and] at hx hx'
  exact hij (wid_inj c (Fin.ext (by omega)))

omit [FloatOps F] [Named F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] [Named F] in
theorem out_split (d : Dev nD) (c : Fin 2) (f : Buf (Elt F) (pLoc d)) :
    (pLoc d ↦[coreOut c]{fullShare} f : sProp 𝕄) = bigSep Finset.univ fun s : Fin 16 => pLoc d ↦[outSet (wid c s)]{fullShare} f := by
  unfold coreOut
  rw [pointsTo_biUnion Finset.univ (ℓ := pLoc d) (fun s : Fin 16 => outSet (wid c s)) (outSets_disjoint c)]

omit [FloatOps F] [Named F] in
theorem out_exists (d : Dev nD) (c : Fin 2) (f : Buf (Elt F) (pLoc d)) :
    (bigSep Finset.univ fun s : Fin 16 => (pLoc d ↦[outSet (wid c s)]{fullShare} f : sProp 𝕄))
      ⊢ bigSep Finset.univ fun s : Fin 16 => iprop(∃ f', pLoc d ↦[outSet (wid c s)]{fullShare} f') :=
  bigSep_mono fun s _ => exists_intro (Φ := fun f' => (pLoc d ↦[outSet (wid c s)]{fullShare} f' : sProp 𝕄)) f

theorem vecSplit : (K (F := F)).VecSplit' (P x3v pv) 0 := by
  intro d c
  show iprop((x3Loc d ↦{coreShare (Fin.cast nCore_zero c)} x3v d) ∗ ∃ f, pLoc d ↦[coreOut (Fin.cast nCore_zero c)]{fullShare} f) ⊢ |={Set.univ}=> iprop(
      (bigSep Finset.univ fun i : Fin ((K (F := F)).nSub 0) =>
        iprop((x3Loc d ↦{tileShare (Fin.cast nCore_zero c) (Fin.cast nSub_zero i)} x3v d)
          ∗ ∃ f, pLoc d ↦[outSet (wid (Fin.cast nCore_zero c) (Fin.cast nSub_zero i))]{fullShare} f))
      ∗ ((bigSep Finset.univ fun i : Fin ((K (F := F)).nSub 0) =>
          iprop((x3Loc d ↦{tileShare (Fin.cast nCore_zero c) (Fin.cast nSub_zero i)} x3v d)
            ∗ pLoc d ↦[outSet (wid (Fin.cast nCore_zero c) (Fin.cast nSub_zero i))]{fullShare} pv d))
          -∗ iprop((x3Loc d ↦{coreShare (Fin.cast nCore_zero c)} x3v d) ∗ pLoc d ↦[coreOut (Fin.cast nCore_zero c)]{fullShare} pv d)))
  generalize Fin.cast nCore_zero c = c'
  rw [bigSep_tasks (F := F) (fun i => iprop((x3Loc d ↦{tileShare c' i} x3v d) ∗ ∃ f, pLoc d ↦[outSet (wid c' i)]{fullShare} f)),
    bigSep_tasks (F := F) (fun i => iprop((x3Loc d ↦{tileShare c' i} x3v d) ∗ pLoc d ↦[outSet (wid c' i)]{fullShare} pv d)),
    bigSep_sep', bigSep_sep', out_split]
  unfold tileShare
  iintro ⟨Hx, %f, Hp⟩
  ihave Hx' := (pointsTo_toks_split (coreShare c') 16) $$ Hx
  icases Hx' with ⟨Hrem, Htoks⟩
  ihave Hp' := (Entails.of_eq (out_split (F := F) d c' f)) $$ Hp
  imodintro
  isplitl [Htoks Hp']
  · isplitl [Htoks]; · iexact Htoks
    iapply (out_exists (F := F) d c' f)
    iexact Hp'
  iintro ⟨Htoks, Hp⟩
  isplitl [Hrem Htoks]
  · iapply (pointsTo_toks_join (coreShare c') 16)
    isplitl [Hrem] <;> iassumption
  iexact Hp

/-! ## The launch element -/

def G (d : Dev nD) : sProp 𝕄 :=
  bigSep Finset.univ fun p : Fin 2 => iprop(Pipeline.cellsGhost (Pipeline.pin (pcfgs (F := F)) adm) EP p d ∗ Pipeline.toksInit (Pipeline.pin (pcfgs (F := F)) adm) EP p d)

def u₀ : UU := (initOf (K (F := F)).hsCells (K (F := F)).hsToks,
  (initOf (Pipeline.cells (Pipeline.pin (pcfgs (F := F)) adm) pcellOf_inj) (Pipeline.launchToks (Pipeline.pin (pcfgs (F := F)) adm) pcellOf_inj), 1))

omit [FloatOps F] [Named F] in
theorem bigSep_emp' {I : Type} (s : Finset I) : (bigSep s fun _ => iprop(emp)) = (iprop(emp) : sProp 𝕄) := bigSep_emp_const s

omit [FloatOps F] [Named F] in
theorem own_EP (x : UR sig nD τ) :
    (BI.own (((Emb.inl : Emb (UR sig nD τ) (UR sig nD τ × Counters)).trans (embR : Emb (UR sig nD τ × Counters) 𝕄)) x) : sProp 𝕄) = BI.own (EP (F := F) x) := rfl

theorem hu₀ : iprop((ownU (u₀ (F := F)) : sProp 𝕄) ∗ (P (F := F) x3v pv).oxCred ∗ (K (F := F)).freeSems0)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P (F := F) x3v pv).x q thr) := by
  unfold u₀
  iintro ⟨Hu, -, -⟩
  ihave H := (ownU_pair _ _) $$ Hu
  icases H with ⟨HH, HR⟩
  ihave HR' := (own_pair_emb (embR : Emb (UR sig nD τ × Counters) 𝕄) _ _) $$ HR
  icases HR' with ⟨HP, -⟩
  ihave HP := (Entails.of_eq (own_EP (F := F) _)) $$ HP
  imod (Pipeline.fund_ghost (Pipeline.pin (pcfgs (F := F)) adm) (EP (F := F)) pcellOf_inj) $$ HP with ⟨Hg, Ht⟩
  imodintro
  isplitl [HH]; · iexact HH
  isplitl [Hg Ht]
  · unfold G
    simp only [bigSep_sep']
    isplitl [Hg] <;> iassumption
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## Reading the claim off the final memory -/

abbrev FIN (d : Dev nD) : sProp 𝕄 := iprop((a0Loc d ↦{fullShare} m (a0Loc d)) ∗ (a1Loc d ↦{fullShare} m (a1Loc d)) ∗ (rLoc d ↦{fullShare} KV d))

def fq (d : Dev nD) (s' : Phys nD τ sig (Elt F)) : Prop :=
  s'.mem.mem (rLoc d) = KV d ∧ s'.mem.mem (a0Loc d) = m (a0Loc d) ∧ s'.mem.mem (a1Loc d) = m (a1Loc d)

theorem hfin (d : Dev nD) (s' : Phys nD τ sig (Elt F)) : iprop(FIN m KV d ∗ SI s') ⊢ (⌜fq m KV d s'⌝ : sProp 𝕄) := by
  iintro ⟨⟨H0, H1, Hr⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (SI_pointsTo_agree (st := s') (ℓ := rLoc d) (I := Finset.univ) (q := fullShare) (f := KV d)) $$ [HSI Hr]
  · isplitl [HSI] <;> iassumption
  icases H with %hr
  ipureintro
  exact ⟨funext fun i => hr i (Finset.mem_univ i), funext fun i => h0 i (Finset.mem_univ i), funext fun i => h1 i (Finset.mem_univ i)⟩

def QC : PUnit × MemSt nD τ sig (Elt F) → Prop := fun r => ∀ c : Dev nD,
  r.2.mem (rLoc c) = KV c ∧ r.2.mem (a0Loc c) = m (a0Loc c) ∧ r.2.mem (a1Loc c) = m (a1Loc c)

end Cert.Proof.KI

end
-- ==== Proof.KI.Host.lean ====
/-
  The host stretches' side conditions: every operation touches unscoped arrays of the TensorCore only, and none
  allocates. The valuations the stretches run between.
-/
import proofs.«215010_g72713796321855_cont_9to1c4b_299_31_alg».proof.Proof.KI.LaunchParts
import Idealize.ShloMosaic.Lib.Pipeline.Frame
import Idealize.ShloMosaic.Lib.Pipeline.Regions

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within seq after)
open Idealize.ShloMosaic.Transfers (shareTok shareDrop pointsTo_toks_split pointsTo_toks_join)
open Idealize.ShloMosaic.Tactic

variable {F : FTy → Type} [FloatOps F] [Named F]

local notation "𝕄" => MT nD τ sig (HIx 1) (Elt F) ℕ UU ℕ

open Idealize.ShloMosaic.StableHlo (tcRefs nullary_bufs_sub unary_bufs_sub binary_bufs_sub reshape_bufs_sub wp_seq)
open Idealize.ShloMosaic.Pipeline (ucRefs unscopedBufs_held sub_ucRefs)

theorem forall_mem_of_Forall {α : Type} {p : α → Prop} {l : List α} (h : l.Forall p) : ∀ a ∈ l, p a :=
  fun a ha => (List.forall_iff_forall_mem.mp h) a ha

theorem opsA_tc : (opsA : List (HloOp τ sig (Elt F))).Forall fun op => op.bufs ⊆ tcRefs τ sig := reshape_bufs_sub ..
theorem opsB_tc : (opsB : List (HloOp τ sig (Elt F))).Forall fun op => op.bufs ⊆ tcRefs τ sig := ⟨nullary_bufs_sub .., nullary_bufs_sub .., nullary_bufs_sub .., unary_bufs_sub .., binary_bufs_sub .., binary_bufs_sub .., unary_bufs_sub .., unary_bufs_sub .., unary_bufs_sub .., unary_bufs_sub .., unary_bufs_sub .., binary_bufs_sub .., reshape_bufs_sub .., reshape_bufs_sub .., reshape_bufs_sub .., unary_bufs_sub .., unary_bufs_sub ..⟩
theorem opsC_tc : (opsC : List (HloOp τ sig (Elt F))).Forall fun op => op.bufs ⊆ tcRefs τ sig := reshape_bufs_sub ..
theorem opsA_fresh : (opsA : List (HloOp τ sig (Elt F))).Forall fun op => op.fresh = ∅ := rfl
theorem opsB_fresh : (opsB : List (HloOp τ sig (Elt F))).Forall fun op => op.fresh = ∅ := ⟨rfl, rfl, rfl, rfl, rfl, rfl, rfl, rfl, rfl, rfl, rfl, rfl, rfl, rfl, rfl, rfl, rfl⟩
theorem opsC_fresh : (opsC : List (HloOp τ sig (Elt F))).Forall fun op => op.fresh = ∅ := rfl

theorem opsA_sub : ∀ op ∈ (opsA : List (HloOp τ sig (Elt F))), op.bufs ⊆ ucRefs τ sig := fun op h => sub_ucRefs op (forall_mem_of_Forall opsA_tc op h)
theorem opsB_sub : ∀ op ∈ (opsB : List (HloOp τ sig (Elt F))), op.bufs ⊆ ucRefs τ sig := fun op h => sub_ucRefs op (forall_mem_of_Forall opsB_tc op h)
theorem opsC_sub : ∀ op ∈ (opsC : List (HloOp τ sig (Elt F))), op.bufs ⊆ ucRefs τ sig := fun op h => sub_ucRefs op (forall_mem_of_Forall opsC_tc op h)

variable (m : (ℓ : Loc nD τ sig) → Buf (Elt F) ℓ)

/-- The launch contents as a valuation; after the first reshape; the planes. -/
abbrev V0 (d : Dev nD) : Valuation τ sig (Elt F) := fun b => m (d, b)
abbrev VA (d : Dev nD) : Valuation τ sig (Elt F) := after opsA (V0 m d)
abbrev x3v (d : Dev nD) : Buf (Elt F) (x3Loc d) := VA m d (Proc.devRef .tc main_v0)

end Cert.Proof.KI

end
-- ==== Proof.KI.Regions.lean ====
/-
  The two TensorCore regions as the segment library takes them: their proof data (what each windowed array holds at
  entry, what the body leaves in each staging buffer, what the core owes the SparseCore launch meanwhile), the
  valuations the entry program runs between, and the regions' entry and exit.
-/
import proofs.«215010_g72713796321855_cont_9to1c4b_299_31_alg».proof.Proof.KI.Host
import proofs.«215010_g72713796321855_cont_9to1c4b_299_31_alg».proof.Proof.Gen.KernelIdeal.Points

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within seq after)
open Idealize.ShloMosaic.Transfers (shareTok shareDrop pointsTo_toks_split pointsTo_toks_join)
open Idealize.ShloMosaic.Tactic

variable {F : FTy → Type} [FloatOps F] [Named F]

local notation "𝕄" => MT nD τ sig (HIx 1) (Elt F) ℕ UU ℕ

open Idealize.ShloMosaic.StableHlo (tcRefs wp_seq)
open Idealize.ShloMosaic.Pipeline (ucRefs unscopedBufs_held sub_ucRefs)

variable (m : (ℓ : Loc nD τ sig) → Buf (Elt F) ℓ)
variable (tcVal : (d : Dev nD) → (cfg0.win 0).block.Idx → Elt F (cfg0.win 0).elt)
variable (pv : (d : Dev nD) → Buf (Elt F) (pLoc d))
variable (projVal : (d : Dev nD) → (cfg2.win 4).block.Idx → Elt F (cfg2.win 4).elt)

abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v19' : DevRef τ sig := Proc.devRef .tc (main_v19 : Ref sig .tc)
abbrev v20' : DevRef τ sig := Proc.devRef .tc (main_v20 : Ref sig .tc)

/-- The pooling kernel's own eight DMA semaphores. -/
abbrev osem0 : S8.Idx → SemLoc sig := fun i => .dma ((cc0_scratch1 : DmaSems sig S8).ix i)

/-- The recorded pairs of the TensorCore at or below a level. -/
abbrev recBelow (d : Dev nD) (b : ℕ) : Set (SemLoc sig × HIx 1) := {p | (K (F := F)).lev ((SparseCore.T d : Thread nD τ), p.1) p.2 ≤ b}

/-- The TensorCore before call n: what it owes the launch, its recorded pairs at or below level 8 n. -/
def owesB (d : Dev nD) (n : ℕ) : sProp 𝕄 :=
  iprop(∃ W, ⌜(K (F := F)).WBelow (SparseCore.T d) W (8 * n)⌝ ∗ owes (SparseCore.T d) ((K (F := F)).Otc d n) W)

/-! ## The pooling region -/

def Φ0 (d : Dev nD) : sProp 𝕄 :=
  iprop(levAts (K (F := F)).L (K (F := F)).lev ∗ (x3Loc d ↦{fullShare} x3v m d) ∗ Pipeline.ownSems0 osem0 d ∗ Pipeline.scopedRest spec0 d)

def dat0 (d : Dev nD) : Pipeline.Dat τ (Elt F) (HIx 1) ℕ UU ℕ cfg0 d where
  A w := VA m d ((cfg0.win w).arr.view.loc (d.tc : Thread nD τ)).2
  after w _ := match w with
    | ⟨0, _⟩ => tcVal d
  Φ _ := Φ0 m d
  q _ := fullShare
  owed _ := (K (F := F)).Otc d 0
  recorded _ := recBelow (F := F) d 0

/-- After the pooling region: the plane sums in place. -/
def V1 (d : Dev nD) : Valuation τ sig (Elt F) := Function.update (VA m d) v1' ((dat0 m tcVal d).arrAt 0 cfg0.N)
/-- After the SparseCore call: the partials in place. -/
def V2 (d : Dev nD) : Valuation τ sig (Elt F) := Function.update (V1 m tcVal d) v2' (pv d)
/-- After the host operations between the calls. -/
abbrev VB (d : Dev nD) : Valuation τ sig (Elt F) := after opsB (V2 m tcVal pv d)

/-! ## The projection region -/

def Φ2 (d : Dev nD) : sProp 𝕄 := iprop(levAts (K (F := F)).L (K (F := F)).lev ∗ Pipeline.scopedRest spec2 d)

def dat2 (d : Dev nD) : Pipeline.Dat τ (Elt F) (HIx 1) ℕ UU ℕ cfg2 d where
  A w := VB m tcVal pv d ((cfg2.win w).arr.view.loc (d.tc : Thread nD τ)).2
  after w _ := match w with
    | ⟨0, _⟩ => ((cfg2.win 0).blk t2_0).view.read (Elt F) (VB m tcVal pv d ((cfg2.win 0).arr.view.loc (d.tc : Thread nD τ)).2)
    | ⟨1, _⟩ => ((cfg2.win 1).blk t2_0).view.read (Elt F) (VB m tcVal pv d ((cfg2.win 1).arr.view.loc (d.tc : Thread nD τ)).2)
    | ⟨2, _⟩ => ((cfg2.win 2).blk t2_0).view.read (Elt F) (VB m tcVal pv d ((cfg2.win 2).arr.view.loc (d.tc : Thread nD τ)).2)
    | ⟨3, _⟩ => ((cfg2.win 3).blk t2_0).view.read (Elt F) (VB m tcVal pv d ((cfg2.win 3).arr.view.loc (d.tc : Thread nD τ)).2)
    | ⟨4, _⟩ => projVal d
  Φ _ := Φ2 d
  q _ := fullShare
  owed _ := (K (F := F)).Otc d 1
  recorded _ := recBelow (F := F) d 8

def pdats : (p : Fin 2) → (c : Dev nD) → Pipeline.Dat τ (Elt F) (HIx 1) ℕ UU ℕ (Pipeline.pin (pcfgs (F := F)) adm p) c
  | ⟨0, _⟩ => dat0 m tcVal
  | ⟨1, _⟩ => dat2 m tcVal pv projVal

/-- After the projection region; after the last reshape; the result. -/
def V3 (d : Dev nD) : Valuation τ sig (Elt F) := Function.update (VB m tcVal pv d) v19' ((dat2 m tcVal pv projVal d).arrAt 4 cfg2.N)
abbrev VC (d : Dev nD) : Valuation τ sig (Elt F) := after opsC (V3 m tcVal pv projVal d)
abbrev KV (d : Dev nD) : Buf (Elt F) (rLoc d) := VC m tcVal pv projVal d v20'

abbrev RS (p : Fin 2) := Pipeline.RegionSeg (pcfgs (F := F)) adm (pdats m tcVal pv projVal) (none : HIx 1) defs₀ 𝒱₀ (K (F := F)).L (K (F := F)).lev p

/-! ## The bodies' runs, as the regions take them -/

/-- The pooling body at the region's one point: from the planes, its eight semaphores at zero and the TensorCore's other
    scoped buffers, the output's staging buffer at any contents, the core owing the launch, to the same with the staging
    buffer at the plane sums. -/
def TcRun : Prop := ∀ (c : Dev nD) (O : CellTallies nD τ sig (HIx 1)) (W : Waits sig (HIx 1)), (∀ g, O g none = 0) →
  iprop(Φ0 m c ∗ owes (SparseCore.T c) O W ∗ (∃ X, owns (c.tc : Thread nD τ) (st0_0 t0_0) fullShare X))
    ⊢ wp frame (wpE (defs₀ (F := F)) 𝒱₀ (c.tc : Thread nD τ) none) Set.univ (bodyAt0 (F := F) t0_0) fun _ =>
        iprop(Φ0 m c ∗ (∃ W', ⌜∀ p ∈ W', p ∈ W ∨ p.2 = none⌝ ∗ owes (SparseCore.T c) O W') ∗ owns (c.tc : Thread nD τ) (st0_0 t0_0) fullShare (tcVal c))

/-- The projection body at its one point: from its four operands' staging buffers at the operands and the result's at
    any contents, to the result's at the projection. -/
def ProjRun : Prop := ∀ (c : Dev nD) (O : CellTallies nD τ sig (HIx 1)) (W : Waits sig (HIx 1)), (∀ g, O g none = 0) →
  iprop(Φ2 (F := F) c ∗ owes (SparseCore.T c) O W
      ∗ owns (c.tc : Thread nD τ) (st2_0 t2_0) fullShare ((dat2 m tcVal pv projVal c).after 0 t2_0)
      ∗ owns (c.tc : Thread nD τ) (st2_1 t2_0) fullShare ((dat2 m tcVal pv projVal c).after 1 t2_0)
      ∗ owns (c.tc : Thread nD τ) (st2_2 t2_0) fullShare ((dat2 m tcVal pv projVal c).after 2 t2_0)
      ∗ owns (c.tc : Thread nD τ) (st2_3 t2_0) fullShare ((dat2 m tcVal pv projVal c).after 3 t2_0)
      ∗ (∃ X, owns (c.tc : Thread nD τ) (st2_4 t2_0) fullShare X))
    ⊢ wp frame (wpE (defs₀ (F := F)) 𝒱₀ (c.tc : Thread nD τ) none) Set.univ (bodyAt2 (F := F) t2_0) fun _ =>
        iprop(Φ2 (F := F) c ∗ (∃ W', ⌜∀ p ∈ W', p ∈ W ∨ p.2 = none⌝ ∗ owes (SparseCore.T c) O W')
          ∗ owns (c.tc : Thread nD τ) (st2_0 t2_0) fullShare ((dat2 m tcVal pv projVal c).after 0 t2_0)
          ∗ owns (c.tc : Thread nD τ) (st2_1 t2_0) fullShare ((dat2 m tcVal pv projVal c).after 1 t2_0)
          ∗ owns (c.tc : Thread nD τ) (st2_2 t2_0) fullShare ((dat2 m tcVal pv projVal c).after 2 t2_0)
          ∗ owns (c.tc : Thread nD τ) (st2_3 t2_0) fullShare ((dat2 m tcVal pv projVal c).after 3 t2_0)
          ∗ owns (c.tc : Thread nD τ) (st2_4 t2_0) fullShare (projVal c))

omit [FloatOps F] [Named F] in
/-- What the TensorCore owes the launch sits at the calls' indices, never at the kernels' own. -/
theorem Otc_none (d : Dev nD) (n : ℕ) (g : GSem nD τ sig) : (K (F := F)).Otc d n g none = 0 := by
  by_contra h
  have := (K (F := F)).lev_of_Otc_pos (Nat.pos_of_ne_zero h)
  rw [SparseCore.Cfg.lev_none] at this
  omega

omit [FloatOps F] [Named F] in
theorem ho0 : Pipeline.OwnSemFacts spec0 osem0 := by decide

/-- The pooling region's one windowed array is the plane-sum array. -/
theorem arrays0_eq (c : Dev nD) (Fa) :
    ((pdats m tcVal pv projVal 0 c).arrays Fa : sProp 𝕄) = (sLoc c ↦{fullShare} Fa 0) := by
  rw [Pipeline.arrays_eq (Pipeline.pin (pcfgs (F := F)) adm) (pdats m tcVal pv projVal) 0 c launch0.arr_whole
    ((pdats m tcVal pv projVal 0 c).share_full fun _ => rfl) Fa, bigSep_W0]
  rfl

omit [FloatOps F] [Named F] in
/-- A pair recorded at a kernel's own index sits at level zero. -/
theorem mem_recBelow_of_none (d : Dev nD) (b : ℕ) (p : SemLoc sig × HIx 1) (h : p.2 = none) : p ∈ recBelow (F := F) d b := by
  show (K (F := F)).lev _ p.2 ≤ b
  rw [h, SparseCore.Cfg.lev_none]; exact Nat.zero_le _

theorem body0_W (htc : TcRun m tcVal) (c : Dev nD) (W : Waits sig (HIx 1)) (hW : (↑W : Set (SemLoc sig × HIx 1)) ⊆ (dat0 m tcVal c).bound none t0_0.castSucc) :
    iprop(Φ0 m c ∗ owes (SparseCore.T c) ((K (F := F)).Otc c 0) W ∗ (∃ X, owns (c.tc : Thread nD τ) (st0_0 t0_0) fullShare X))
      ⊢ wp frame (wpE (defs₀ (F := F)) 𝒱₀ (c.tc : Thread nD τ) none) Set.univ (bodyAt0 (F := F) t0_0) fun _ =>
          iprop(Φ0 m c ∗ (dat0 m tcVal c).owesAt none t0_0.succ ∗ owns (c.tc : Thread nD τ) (st0_0 t0_0) fullShare (tcVal c)) :=
  (htc c _ W (Otc_none c 0)).trans (wp_mono frame _ _ fun _ => by
    iintro ⟨HΦ, ⟨%W', %hW', HO⟩, Hst⟩
    isplitl [HΦ]; · iexact HΦ
    isplitl [HO]
    · iexists W'; isplitr
      · ipureintro
        intro p hp
        rcases hW' p hp with h | h
        · exact hW h
        · exact Or.inl (mem_recBelow_of_none c 0 p h)
      · iexact HO
    iexact Hst)

theorem body_obligation0 (htc : TcRun m tcVal) (c : Dev nD) :
    Pipeline.BodyObligation (dat0 m tcVal c) (defs₀ (F := F)) 𝒱₀ (none : HIx 1) Set.univ := fun t => by
  obtain rfl := fin_N0 t
  rw [bigSep_W0, bigSep_W0]
  show iprop(Φ0 m c ∗ (dat0 m tcVal c).owesAt none t0_0.castSucc ∗ (∃ d, owns (c.tc : Thread nD τ) (st0_0 t0_0) fullShare ((dat0 m tcVal c).before 0 t0_0 d)))
     ⊢ wp frame (wpE (defs₀ (F := F)) 𝒱₀ (c.tc : Thread nD τ) none) Set.univ (bodyAt0 (F := F) t0_0) fun _ =>
         iprop(Φ0 m c ∗ (dat0 m tcVal c).owesAt none t0_0.succ ∗ owns (c.tc : Thread nD τ) (st0_0 t0_0) fullShare (tcVal c))
  iintro ⟨HΦ, ⟨%W, %hW, HO⟩, ⟨%d0, Hst⟩⟩
  iapply (body0_W m tcVal htc c W hW)
  isplitl [HΦ]; · iexact HΦ
  isplitl [HO]; · iexact HO
  iexists _; iexact Hst

omit [FloatOps F] [Named F] in
/-- Pairs within a region's bound sit at or below the region's level. -/
theorem WBelow_of_bound (c : Dev nD) (n : ℕ) (cfg : Pipeline.Cfg sig Λ₀) (W : Waits sig (HIx 1))
    (hW : (↑W : Set (SemLoc sig × HIx 1)) ⊆ recBelow (F := F) c (8 * n) ∪ cfg.waitPairs (none : HIx 1)) :
    (K (F := F)).WBelow (SparseCore.T c) W (8 * n) := by
  intro p hp
  rcases hW hp with h | ⟨w, s, h⟩
  · exact h
  · rw [h, SparseCore.Cfg.lev_none]; exact Nat.zero_le _

def reg0 (htc : TcRun m tcVal) : RS m tcVal pv projVal 0 where
  win := launch0.win.to₀
  block_pos := launch0.block_pos
  stage_whole := launch0.stage_whole
  K := S8.Idx
  osem := osem0
  ho := ho0
  hbody c := (body_obligation0 m tcVal htc c).loose
  hwaits c := Pipeline.cellsWaits_of_cut _ (pdats m tcVal pv projVal) (none : HIx 1) 0 c (lev := (K (F := F)).lev) 0 ((K (F := F)).Otc c 0) (fun _ => rfl)
    (fun _ _ => Finset.mem_univ _) (fun _ _ => le_of_eq rfl) fun g i hg => ⟨Finset.mem_univ _, by have := (K (F := F)).lev_of_Otc_pos hg; omega⟩
  pre c := iprop((x3Loc c ↦{fullShare} x3v m c) ∗ (sLoc c ↦{fullShare} VA m c v1') ∗ owesB (F := F) c 0)
  post c := iprop((x3Loc c ↦{fullShare} x3v m c) ∗ (sLoc c ↦{fullShare} V1 m tcVal c v1') ∗ owesB (F := F) c 0)
  X c := iprop(levAts (K (F := F)).L (K (F := F)).lev ∗ (x3Loc c ↦{fullShare} x3v m c) ∗ Pipeline.ownSems0 osem0 c)
  Y c := iprop(x3Loc c ↦{fullShare} x3v m c)
  Z c := iprop(emp)
  hentry c := by
    rw [arrays0_eq]
    unfold owesB
    iintro ⟨⟨Hx, Hs, ⟨%W, %hW, HO⟩⟩, Hsem, #Hl⟩
    imodintro
    isplitl [Hs]; · iexact Hs
    isplitr
    · unfold Pipeline.prefHeld; rw [show (Finset.univ : Finset (Fin 0)) = ∅ from rfl, BI.bigSep_empty]; iempintro
    isplitl [HO]
    · iexists W; isplitr
      · ipureintro; exact fun p hp => Or.inl (hW p hp)
      · iexact HO
    isplitl [Hx Hsem]
    · isplitr; · iexact Hl
      isplitl [Hx] <;> iassumption
    iempintro
  hin c := by
    show _ ⊢ Φ0 m c
    unfold Φ0
    iintro ⟨⟨Hl, Hx, Hs⟩, -, Hr⟩
    isplitl [Hl]; · iexact Hl
    isplitl [Hx]; · iexact Hx
    isplitl [Hs]; · iexact Hs
    iexact Hr
  hout c := by
    show Φ0 m c ⊢ _
    unfold Φ0
    iintro ⟨-, Hx, Hs, Hr⟩
    isplitl [Hx]; · iexact Hx
    isplitl [Hs]; · iexact Hs
    iexact Hr
  hexit c := by
    rw [arrays0_eq, show V1 m tcVal c v1' = (dat0 m tcVal c).arrAt 0 cfg0.N from Function.update_self ..]
    unfold owesB
    iintro ⟨Hs, ⟨%W, %hW, HO⟩, Hx, -⟩
    imodintro
    isplitl [Hx]; · iexact Hx
    isplitl [Hs]; · iexact Hs
    iexists W; isplitr
    · ipureintro; exact WBelow_of_bound c 0 cfg0 W hW
    · iexact HO

/-! ## The projection region's record -/

abbrev bLoc (d : Dev nD) (b : Ref sig .tc) : Loc nD τ sig := (SparseCore.T d).loc b

theorem arrays2_eq (c : Dev nD) (Fa) :
    ((pdats m tcVal pv projVal 1 c).arrays Fa : sProp 𝕄)
      = iprop((bLoc c main_v15 ↦{fullShare} Fa 0) ∗ (bLoc c main_v16 ↦{fullShare} Fa 1) ∗ (bLoc c main_v17 ↦{fullShare} Fa 2)
          ∗ (bLoc c main_v18 ↦{fullShare} Fa 3) ∗ (bLoc c main_v19 ↦{fullShare} Fa 4)) := by
  rw [Pipeline.arrays_eq (Pipeline.pin (pcfgs (F := F)) adm) (pdats m tcVal pv projVal) 1 c launch2.arr_whole
    ((pdats m tcVal pv projVal 1 c).share_full fun _ => rfl) Fa, bigSep_W2]
  rfl

theorem before_in2_0 (c : Dev nD) (d) : (dat2 m tcVal pv projVal c).before 0 t2_0 d = (dat2 m tcVal pv projVal c).after 0 t2_0 := by
  unfold Pipeline.Dat.before; rw [if_pos (by decide)]; rfl
theorem before_in2_1 (c : Dev nD) (d) : (dat2 m tcVal pv projVal c).before 1 t2_0 d = (dat2 m tcVal pv projVal c).after 1 t2_0 := by
  unfold Pipeline.Dat.before; rw [if_pos (by decide)]; rfl
theorem before_in2_2 (c : Dev nD) (d) : (dat2 m tcVal pv projVal c).before 2 t2_0 d = (dat2 m tcVal pv projVal c).after 2 t2_0 := by
  unfold Pipeline.Dat.before; rw [if_pos (by decide)]; rfl
theorem before_in2_3 (c : Dev nD) (d) : (dat2 m tcVal pv projVal c).before 3 t2_0 d = (dat2 m tcVal pv projVal c).after 3 t2_0 := by
  unfold Pipeline.Dat.before; rw [if_pos (by decide)]; rfl

theorem body2_W (hpj : ProjRun m tcVal pv projVal) (c : Dev nD) (W : Waits sig (HIx 1))
    (hW : (↑W : Set (SemLoc sig × HIx 1)) ⊆ (dat2 m tcVal pv projVal c).bound none t2_0.castSucc) :
    iprop(Φ2 (F := F) c ∗ owes (SparseCore.T c) ((K (F := F)).Otc c 1) W
        ∗ owns (c.tc : Thread nD τ) (st2_0 t2_0) fullShare ((dat2 m tcVal pv projVal c).after 0 t2_0)
        ∗ owns (c.tc : Thread nD τ) (st2_1 t2_0) fullShare ((dat2 m tcVal pv projVal c).after 1 t2_0)
        ∗ owns (c.tc : Thread nD τ) (st2_2 t2_0) fullShare ((dat2 m tcVal pv projVal c).after 2 t2_0)
        ∗ owns (c.tc : Thread nD τ) (st2_3 t2_0) fullShare ((dat2 m tcVal pv projVal c).after 3 t2_0)
        ∗ (∃ X, owns (c.tc : Thread nD τ) (st2_4 t2_0) fullShare X))
      ⊢ wp frame (wpE (defs₀ (F := F)) 𝒱₀ (c.tc : Thread nD τ) none) Set.univ (bodyAt2 (F := F) t2_0) fun _ =>
          iprop(Φ2 (F := F) c ∗ (dat2 m tcVal pv projVal c).owesAt none t2_0.succ
            ∗ owns (c.tc : Thread nD τ) (st2_0 t2_0) fullShare ((dat2 m tcVal pv projVal c).after 0 t2_0)
            ∗ owns (c.tc : Thread nD τ) (st2_1 t2_0) fullShare ((dat2 m tcVal pv projVal c).after 1 t2_0)
            ∗ owns (c.tc : Thread nD τ) (st2_2 t2_0) fullShare ((dat2 m tcVal pv projVal c).after 2 t2_0)
            ∗ owns (c.tc : Thread nD τ) (st2_3 t2_0) fullShare ((dat2 m tcVal pv projVal c).after 3 t2_0)
            ∗ owns (c.tc : Thread nD τ) (st2_4 t2_0) fullShare (projVal c)) :=
  (hpj c _ W (Otc_none c 1)).trans (wp_mono frame _ _ fun _ => by
    iintro ⟨HΦ, ⟨%W', %hW', HO⟩, Hst⟩
    isplitl [HΦ]; · iexact HΦ
    isplitl [HO]
    · iexists W'; isplitr
      · ipureintro
        intro p hp
        rcases hW' p hp with h | h
        · exact hW h
        · exact Or.inl (mem_recBelow_of_none c 8 p h)
      · iexact HO
    iexact Hst)

theorem body_obligation2 (hpj : ProjRun m tcVal pv projVal) (c : Dev nD) :
    Pipeline.BodyObligation (dat2 m tcVal pv projVal c) (defs₀ (F := F)) 𝒱₀ (none : HIx 1) Set.univ := fun t => by
  obtain rfl := fin_N2 t
  rw [bigSep_W2, bigSep_W2]
  show iprop(Φ2 (F := F) c ∗ (dat2 m tcVal pv projVal c).owesAt none t2_0.castSucc
        ∗ (∃ d, owns (c.tc : Thread nD τ) (st2_0 t2_0) fullShare ((dat2 m tcVal pv projVal c).before 0 t2_0 d))
        ∗ (∃ d, owns (c.tc : Thread nD τ) (st2_1 t2_0) fullShare ((dat2 m tcVal pv projVal c).before 1 t2_0 d))
        ∗ (∃ d, owns (c.tc : Thread nD τ) (st2_2 t2_0) fullShare ((dat2 m tcVal pv projVal c).before 2 t2_0 d))
        ∗ (∃ d, owns (c.tc : Thread nD τ) (st2_3 t2_0) fullShare ((dat2 m tcVal pv projVal c).before 3 t2_0 d))
        ∗ (∃ d, owns (c.tc : Thread nD τ) (st2_4 t2_0) fullShare ((dat2 m tcVal pv projVal c).before 4 t2_0 d)))
     ⊢ wp frame (wpE (defs₀ (F := F)) 𝒱₀ (c.tc : Thread nD τ) none) Set.univ (bodyAt2 (F := F) t2_0) fun _ =>
         iprop(Φ2 (F := F) c ∗ (dat2 m tcVal pv projVal c).owesAt none t2_0.succ
            ∗ owns (c.tc : Thread nD τ) (st2_0 t2_0) fullShare ((dat2 m tcVal pv projVal c).after 0 t2_0)
            ∗ owns (c.tc : Thread nD τ) (st2_1 t2_0) fullShare ((dat2 m tcVal pv projVal c).after 1 t2_0)
            ∗ owns (c.tc : Thread nD τ) (st2_2 t2_0) fullShare ((dat2 m tcVal pv projVal c).after 2 t2_0)
            ∗ owns (c.tc : Thread nD τ) (st2_3 t2_0) fullShare ((dat2 m tcVal pv projVal c).after 3 t2_0)
            ∗ owns (c.tc : Thread nD τ) (st2_4 t2_0) fullShare (projVal c))
  iintro ⟨HΦ, ⟨%W, %hW, HO⟩, ⟨%d0, H0⟩, ⟨%d1, H1⟩, ⟨%d2, H2⟩, ⟨%d3, H3⟩, ⟨%d4, H4⟩⟩
  rw [before_in2_0, before_in2_1, before_in2_2, before_in2_3]
  iapply (body2_W m tcVal pv projVal hpj c W hW)
  isplitl [HΦ]; · iexact HΦ
  isplitl [HO]; · iexact HO
  isplitl [H0]; · iexact H0
  isplitl [H1]; · iexact H1
  isplitl [H2]; · iexact H2
  isplitl [H3]; · iexact H3
  iexists _; iexact H4

/-- An operand of the projection region reaches the region's exit as it entered. -/
theorem arrAt2_in0 (c : Dev nD) : (pdats m tcVal pv projVal 1 c).arrAt 0 (Pipeline.pin (pcfgs (F := F)) adm 1).N = VB m tcVal pv c (Proc.devRef .tc main_v15) :=
  (dat2 m tcVal pv projVal c).arrAt_in 0 rfl _
theorem arrAt2_in1 (c : Dev nD) : (pdats m tcVal pv projVal 1 c).arrAt 1 (Pipeline.pin (pcfgs (F := F)) adm 1).N = VB m tcVal pv c (Proc.devRef .tc main_v16) :=
  (dat2 m tcVal pv projVal c).arrAt_in 1 rfl _
theorem arrAt2_in2 (c : Dev nD) : (pdats m tcVal pv projVal 1 c).arrAt 2 (Pipeline.pin (pcfgs (F := F)) adm 1).N = VB m tcVal pv c (Proc.devRef .tc main_v17) :=
  (dat2 m tcVal pv projVal c).arrAt_in 2 rfl _
theorem arrAt2_in3 (c : Dev nD) : (pdats m tcVal pv projVal 1 c).arrAt 3 (Pipeline.pin (pcfgs (F := F)) adm 1).N = VB m tcVal pv c (Proc.devRef .tc main_v18) :=
  (dat2 m tcVal pv projVal c).arrAt_in 3 rfl _

def reg2 (hpj : ProjRun m tcVal pv projVal) : RS m tcVal pv projVal 1 where
  win := launch2.win.to₀
  block_pos := launch2.block_pos
  stage_whole := launch2.stage_whole
  K := PEmpty
  osem k := k.elim
  ho := Pipeline.OwnSemFacts.none _
  hbody c := (body_obligation2 m tcVal pv projVal hpj c).loose
  hwaits c := Pipeline.cellsWaits_of_cut _ (pdats m tcVal pv projVal) (none : HIx 1) 1 c (lev := (K (F := F)).lev) 8 ((K (F := F)).Otc c 1) (fun _ => rfl)
    (fun _ _ => Finset.mem_univ _) (fun _ _ => Nat.zero_le _) fun g i hg => ⟨Finset.mem_univ _, by have := (K (F := F)).lev_of_Otc_pos hg; omega⟩
  pre c := iprop((bLoc c main_v15 ↦{fullShare} VB m tcVal pv c (Proc.devRef .tc main_v15)) ∗ (bLoc c main_v16 ↦{fullShare} VB m tcVal pv c (Proc.devRef .tc main_v16))
    ∗ (bLoc c main_v17 ↦{fullShare} VB m tcVal pv c (Proc.devRef .tc main_v17)) ∗ (bLoc c main_v18 ↦{fullShare} VB m tcVal pv c (Proc.devRef .tc main_v18))
    ∗ (bLoc c main_v19 ↦{fullShare} VB m tcVal pv c v19') ∗ owesB (F := F) c 1)
  post c := iprop((bLoc c main_v15 ↦{fullShare} VB m tcVal pv c (Proc.devRef .tc main_v15)) ∗ (bLoc c main_v16 ↦{fullShare} VB m tcVal pv c (Proc.devRef .tc main_v16))
    ∗ (bLoc c main_v17 ↦{fullShare} VB m tcVal pv c (Proc.devRef .tc main_v17)) ∗ (bLoc c main_v18 ↦{fullShare} VB m tcVal pv c (Proc.devRef .tc main_v18))
    ∗ (bLoc c main_v19 ↦{fullShare} V3 m tcVal pv projVal c v19') ∗ owesB (F := F) c 1)
  X c := iprop(levAts (K (F := F)).L (K (F := F)).lev)
  Y c := iprop(emp)
  Z c := iprop(emp)
  hentry c := by
    rw [arrays2_eq, Pipeline.ownSems0_none]
    unfold owesB
    iintro ⟨⟨H0, H1, H2, H3, H4, ⟨%W, %hW, HO⟩⟩, -, #Hl⟩
    imodintro
    isplitl [H0 H1 H2 H3 H4]
    · isplitl [H0]; · iexact H0
      isplitl [H1]; · iexact H1
      isplitl [H2]; · iexact H2
      isplitl [H3]; · iexact H3
      iexact H4
    isplitr
    · unfold Pipeline.prefHeld; rw [show (Finset.univ : Finset (Fin 0)) = ∅ from rfl, BI.bigSep_empty]; iempintro
    isplitl [HO]
    · iexists W; isplitr
      · ipureintro; exact fun p hp => Or.inl (hW p hp)
      · iexact HO
    isplitr; · iexact Hl
    iempintro
  hin c := by
    show _ ⊢ Φ2 (F := F) c
    unfold Φ2
    iintro ⟨Hl, -, Hr⟩
    isplitl [Hl]; · iexact Hl
    iexact Hr
  hout c := by
    show Φ2 (F := F) c ⊢ _
    unfold Φ2
    rw [Pipeline.ownSems0_none]
    iintro ⟨-, Hr⟩
    isplitr; · iempintro
    isplitr; · iempintro
    iexact Hr
  hexit c := by
    rw [arrays2_eq, arrAt2_in0, arrAt2_in1, arrAt2_in2, arrAt2_in3,
      show V3 m tcVal pv projVal c v19' = (dat2 m tcVal pv projVal c).arrAt 4 cfg2.N from Function.update_self ..]
    unfold owesB
    iintro ⟨⟨H0, H1, H2, H3, H4⟩, ⟨%W, %hW, HO⟩, -, -⟩
    imodintro
    isplitl [H0]; · iexact H0
    isplitl [H1]; · iexact H1
    isplitl [H2]; · iexact H2
    isplitl [H3]; · iexact H3
    isplitl [H4]; · iexact H4
    iexists W; isplitr
    · ipureintro; exact WBelow_of_bound c 1 cfg2 W hW
    · iexact HO

end Cert.Proof.KI

end
-- ==== Proof.KI.CoreSplit.lean ====
/-
  The SparseCore call seen from the TensorCore: the planes whole and the partials array whole go out as the two
  SparseCores' parts (a read share of the planes each; the words their vector subcores write) and come back whole, the partials
  at their final contents. Every word of the partials array belongs to exactly one vector subcore: word j to number j / 96.
-/
import proofs.«215010_g72713796321855_cont_9to1c4b_299_31_alg».proof.Proof.KI.LaunchParts

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within seq after)
open Idealize.ShloMosaic.Transfers (shareTok shareDrop pointsTo_toks_split pointsTo_toks_join)
open Idealize.ShloMosaic.Tactic

variable {F : FTy → Type} [FloatOps F] [Named F]

local notation "𝕄" => MT nD τ sig (HIx 1) (Elt F) ℕ UU ℕ

variable (x3v : (d : Dev nD) → Buf (Elt F) (x3Loc d)) (pv : (d : Dev nD) → Buf (Elt F) (pLoc d))

omit [FloatOps F] [Named F] in
theorem mem_outSet (w : Fin 32) (x : S3072.Idx) : x ∈ outSet w ↔ w.val * 96 ≤ (x 0).val ∧ (x 0).val < w.val * 96 + 96 := by
  unfold outSet; rw [Finset.mem_filter]; exact ⟨fun h => h.2, fun h => ⟨Finset.mem_univ _, h⟩⟩

omit [FloatOps F] [Named F] in
theorem wid_val (c : Fin 2) (s : Fin 16) : (wid c s).val = s.val * 2 + c.val := rfl

omit [FloatOps F] [Named F] in
theorem coreOut_disjoint : ∀ i ∈ (Finset.univ : Finset (Fin 2)), ∀ j ∈ (Finset.univ : Finset (Fin 2)), i ≠ j → Disjoint (coreOut i) (coreOut j) := by
  intro i _ j _ hij
  rw [Finset.disjoint_left]
  intro x hx hx'
  obtain ⟨s, -, hs⟩ := Finset.mem_biUnion.mp hx
  obtain ⟨s', -, hs'⟩ := Finset.mem_biUnion.mp hx'
  rw [mem_outSet, wid_val] at hs hs'
  have hi := i.isLt
  have hj := j.isLt
  exact hij (Fin.ext (by omega))

omit [FloatOps F] [Named F] in
theorem coreOut_cover : (Finset.univ : Finset (Fin 2)).biUnion coreOut = Finset.univ := by
  refine Finset.eq_univ_iff_forall.mpr fun j => ?_
  have hj : (j 0).val < 3072 := (j 0).isLt
  refine Finset.mem_biUnion.mpr ⟨⟨(j 0).val / 96 % 2, by omega⟩, Finset.mem_univ _, ?_⟩
  unfold coreOut
  refine Finset.mem_biUnion.mpr ⟨⟨(j 0).val / 96 / 2, by omega⟩, Finset.mem_univ _, ?_⟩
  rw [mem_outSet, wid_val]
  dsimp only
  constructor <;> omega

omit [FloatOps F] [Named F] in
theorem p_split (d : Dev nD) (f : Buf (Elt F) (pLoc d)) :
    (pLoc d ↦{fullShare} f : sProp 𝕄) = bigSep Finset.univ fun c : Fin 2 => pLoc d ↦[coreOut c]{fullShare} f := by
  rw [← pointsTo_biUnion Finset.univ (ℓ := pLoc d) coreOut coreOut_disjoint, coreOut_cover]; try rfl

omit [FloatOps F] [Named F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit [FloatOps F] [Named F] in
theorem p_exists (d : Dev nD) (f : Buf (Elt F) (pLoc d)) :
    (bigSep Finset.univ fun c : Fin 2 => (pLoc d ↦[coreOut c]{fullShare} f : sProp 𝕄))
      ⊢ bigSep Finset.univ fun c : Fin 2 => iprop(∃ f', pLoc d ↦[coreOut c]{fullShare} f') :=
  bigSep_mono fun c _ => exists_intro (Φ := fun f' => (pLoc d ↦[coreOut c]{fullShare} f' : sProp 𝕄)) f

/-- The planes whole and the partials whole: the call's operands for both SparseCores, and the planes' remaining share. -/
theorem st_intro (d : Dev nD) (f : Buf (Elt F) (pLoc d)) :
    iprop((x3Loc d ↦{fullShare} x3v d) ∗ (pLoc d ↦{fullShare} f))
      ⊢ iprop((x3Loc d ↦{shareDrop fullShare 2} x3v d) ∗ bigSep Finset.univ fun c : Fin ((K (F := F)).nCore 0) => (P x3v pv).st 0 d c) := by
  show _ ⊢ iprop(_ ∗ bigSep Finset.univ fun c : Fin ((K (F := F)).nCore 0) =>
    iprop((x3Loc d ↦{coreShare (Fin.cast nCore_zero c)} x3v d) ∗ ∃ f, pLoc d ↦[coreOut (Fin.cast nCore_zero c)]{fullShare} f))
  rw [bigSep_cores (F := F) (fun c => iprop((x3Loc d ↦{coreShare c} x3v d) ∗ ∃ f, pLoc d ↦[coreOut c]{fullShare} f)), bigSep_sep', p_split]
  unfold coreShare
  iintro ⟨Hx, Hp⟩
  ihave Hx' := (pointsTo_toks_split fullShare 2) $$ Hx
  icases Hx' with ⟨Hrem, Htoks⟩
  isplitl [Hrem]; · iexact Hrem
  isplitl [Htoks]; · iexact Htoks
  iapply (p_exists (F := F) d f); iexact Hp

/-- Back: the planes whole again, the partials whole at their final contents. -/
theorem dn_elim (d : Dev nD) :
    iprop((x3Loc d ↦{shareDrop fullShare 2} x3v d) ∗ bigSep Finset.univ fun c : Fin ((K (F := F)).nCore 0) => (P x3v pv).dn 0 d c)
      ⊢ iprop((x3Loc d ↦{fullShare} x3v d) ∗ (pLoc d ↦{fullShare} pv d)) := by
  show iprop(_ ∗ bigSep Finset.univ fun c : Fin ((K (F := F)).nCore 0) =>
    iprop((x3Loc d ↦{coreShare (Fin.cast nCore_zero c)} x3v d) ∗ pLoc d ↦[coreOut (Fin.cast nCore_zero c)]{fullShare} pv d)) ⊢ _
  rw [bigSep_cores (F := F) (fun c => iprop((x3Loc d ↦{coreShare c} x3v d) ∗ pLoc d ↦[coreOut c]{fullShare} pv d)), bigSep_sep', p_split]
  unfold coreShare
  iintro ⟨Hrem, Htoks, Hp⟩
  isplitl [Hrem Htoks]
  · iapply (pointsTo_toks_join fullShare 2)
    isplitl [Hrem] <;> iassumption
  iexact Hp

end Cert.Proof.KI

end
-- ==== Proof.KI.Keep.lean ====
/-
  The two arguments are never written along the entry program's valuations: no host operation writes them, and the
  three calls' results land in other arrays.
-/
import proofs.«215010_g72713796321855_cont_9to1c4b_299_31_alg».proof.Proof.KI.Regions

noncomputable section

namespace Cert.Proof.KI

open Cert.KernelIdeal Cert.KernelIdeal.Gen
open Idealize.ShloMosaic
open Idealize.ShloMosaic.SparseCore (S V T)
open Idealize.ShloMosaic.SparseCore.Cfg (HIx)
open Idealize.SL Idealize.SL.Sem
open Idealize.ShloMosaic.StableHlo

variable {F : FTy → Type} [FloatOps F] [Named F]

variable (m : (ℓ : Loc nD τ sig) → Buf (Elt F) ℓ)
variable (tcVal : (d : Dev nD) → (cfg0.win 0).block.Idx → Elt F (cfg0.win 0).elt)
variable (pv : (d : Dev nD) → Buf (Elt F) (pLoc d))
variable (projVal : (d : Dev nD) → (cfg2.win 4).block.Idx → Elt F (cfg2.win 4).elt)

theorem VC_a0 (d : Dev nD) :
    VC m tcVal pv projVal d (Proc.devRef .tc (main_arg0 : Ref sig .tc)) = m ((SparseCore.T d).loc main_arg0) := by
  show after opsC (V3 m tcVal pv projVal d) (Proc.devRef .tc main_arg0) = _
  after_results
  unfold V3
  rw [Function.update_of_ne (by decide)]
  show after opsB (V2 m tcVal pv d) (Proc.devRef .tc main_arg0) = _
  after_results
  unfold V2 V1
  rw [Function.update_of_ne (by decide), Function.update_of_ne (by decide)]
  show after opsA (V0 m d) (Proc.devRef .tc main_arg0) = _
  after_results

theorem VC_a1 (d : Dev nD) :
    VC m tcVal pv projVal d (Proc.devRef .tc (main_arg1 : Ref sig .tc)) = m ((SparseCore.T d).loc main_arg1) := by
  show after opsC (V3 m tcVal pv projVal d) (Proc.devRef .tc main_arg1) = _
  after_results
  unfold V3
  rw [Function.update_of_ne (by decide)]
  show after opsB (V2 m tcVal pv d) (Proc.devRef .tc main_arg1) = _
  after_results
  unfold V2 V1
  rw [Function.update_of_ne (by decide), Function.update_of_ne (by decide)]
  show after opsA (V0 m d) (Proc.devRef .tc main_arg1) = _
  after_results

end Cert.Proof.KI

end
-- ==== Proof.KI.Launch.lean ====
/-
  The entry program run on the TensorCore inside the SparseCore launch, and the launch theorem applied.
-/
import proofs.«215010_g72713796321855_cont_9to1c4b_299_31_alg».proof.Proof.KI.Regions
import proofs.«215010_g72713796321855_cont_9to1c4b_299_31_alg».proof.Proof.KI.CoreSplit
import proofs.«215010_g72713796321855_cont_9to1c4b_299_31_alg».proof.Proof.KI.Keep

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within seq after)
open Idealize.ShloMosaic.Transfers (shareTok shareDrop pointsTo_toks_split pointsTo_toks_join)
open Idealize.ShloMosaic.Tactic

variable {F : FTy → Type} [FloatOps F] [Named F]

local notation "𝕄" => MT nD τ sig (HIx 1) (Elt F) ℕ UU ℕ

open Idealize.ShloMosaic.StableHlo (tcRefs wp_seq held_congr devRef_mem_tcRefs devRef_ne_of_ne)
open Idealize.ShloMosaic.Pipeline (ucRefs unscopedBufs_held sub_ucRefs)

variable (m : (ℓ : Loc nD τ sig) → Buf (Elt F) ℓ) (ρ : Dev nD → PrngReg)
variable (tcVal : (d : Dev nD) → (cfg0.win 0).block.Idx → Elt F (cfg0.win 0).elt)
variable (pv : (d : Dev nD) → Buf (Elt F) (pLoc d))
variable (projVal : (d : Dev nD) → (cfg2.win 4).block.Idx → Elt F (cfg2.win 4).elt)

/-! ## Taking a buffer out of a held set and putting it back -/

omit [FloatOps F] [Named F] in
theorem held_take (thr : Thread nD τ) (S : Finset (DevRef τ sig)) (a : DevRef τ sig) (ha : a ∈ S) (V : Valuation τ sig (Elt F)) :
    (held thr S V : sProp 𝕄) = iprop(((thr.1, a) ↦{fullShare} V a) ∗ held thr (S.erase a) V) := by
  unfold held; exact SparseCore.bigSep_erase' ha

omit [FloatOps F] [Named F] in
theorem held_put (thr : Thread nD τ) (S : Finset (DevRef τ sig)) (a : DevRef τ sig) (ha : a ∈ S) (V : Valuation τ sig (Elt F)) (x : Buf (Elt F) (thr.1, a)) :
    (iprop(((thr.1, a) ↦{fullShare} x) ∗ held thr (S.erase a) V) : sProp 𝕄) = held thr S (Function.update V a x) := by
  rw [held_take thr S a ha (Function.update V a x), Function.update_self,
    held_congr thr (S := S.erase a) (V := Function.update V a x) (V' := V) fun b hb => Function.update_of_ne (Finset.ne_of_mem_erase hb) _ _]

omit [FloatOps F] [Named F] in
theorem mem_uc (b : Ref sig .tc) (h : (Proc.devRef .tc b : DevRef τ sig).isScoped = false) : (Proc.devRef .tc b : DevRef τ sig) ∈ ucRefs τ sig :=
  Finset.mem_filter.mpr ⟨devRef_mem_tcRefs b, by rw [h]; exact Bool.false_ne_true⟩

/-! ## The regions' steps on the TensorCore, inside the launch -/

theorem lift_entry (p : Fin 2) : (Prog.lift (.customCall (SparseCore.inner (Pipeline.entry p)) ()) : Prog (TpuEff nD τ sig (Elt F) (SparseCore.Sig (ΛP (F := F)) 1) .tc) PUnit)
    = SparseCore.liftProg (.op (.customCall (Pipeline.entry p) ()) fun _ => .ret ⟨⟩) := rfl

theorem region0_step (htc : TcRun m tcVal) (d : Dev nD) (Φ : PUnit → sProp 𝕄) :
    iprop((iprop(boundary (SparseCore.T d : Thread nD τ) ∗ (reg0 m tcVal pv projVal htc).post d)
            -∗ wp frame (wpE (D (F := F)) 𝒱 (SparseCore.T d) none) Set.univ (.ret ⟨⟩) Φ)
        ∗ boundary (SparseCore.T d : Thread nD τ) ∗ (reg0 m tcVal pv projVal htc).pre d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (SparseCore.T d) none) Set.univ
          (SparseCore.liftProg (.op (.customCall (Pipeline.entry 0) ()) fun _ => .ret ⟨⟩) : Prog (TpuEff nD τ sig (Elt F) (SparseCore.Sig (ΛP (F := F)) 1) .tc) PUnit) Φ := by
  have h := Pipeline.RegionSeg.wp (pcfgs (F := F)) adm (pdats m tcVal pv projVal) (none : HIx 1) pcellOf_inj EP defs₀ 𝒱₀
    (K (F := F)).L (K (F := F)).lev (reg0 m tcVal pv projVal htc) d none (fun u hu => by cases hu) (fun _ => .ret ⟨⟩) Φ
  have h2 := (K (F := F)).wp_liftProg (D (F := F)) 𝒱 (SparseCore.T d) Set.univ (Name := ℕ) (U := UU) none (.op (.customCall (Pipeline.entry 0) ()) fun _ => .ret ⟨⟩) Φ
  exact BI.Entails.trans h h2

theorem region2_step (hpj : ProjRun m tcVal pv projVal) (d : Dev nD) (Φ : PUnit → sProp 𝕄) :
    iprop((iprop(boundary (SparseCore.T d : Thread nD τ) ∗ (reg2 m tcVal pv projVal hpj).post d)
            -∗ wp frame (wpE (D (F := F)) 𝒱 (SparseCore.T d) none) Set.univ (.ret ⟨⟩) Φ)
        ∗ boundary (SparseCore.T d : Thread nD τ) ∗ (reg2 m tcVal pv projVal hpj).pre d ∗ levAts (K (F := F)).L (K (F := F)).lev
        ∗ Pipeline.cellsGhost (Pipeline.pin (pcfgs (F := F)) adm) EP 1 d ∗ Pipeline.toksInit (Pipeline.pin (pcfgs (F := F)) adm) EP 1 d)
      ⊢ wp frame (wpE ((K (F := F)).defs (D (F := F))) 𝒱 (SparseCore.T d) none) Set.univ
          (SparseCore.liftProg (.op (.customCall (Pipeline.entry 1) ()) fun _ => .ret ⟨⟩) : Prog (TpuEff nD τ sig (Elt F) (SparseCore.Sig (ΛP (F := F)) 1) .tc) PUnit) Φ := by
  have h := Pipeline.RegionSeg.wp (pcfgs (F := F)) adm (pdats m tcVal pv projVal) (none : HIx 1) pcellOf_inj EP defs₀ 𝒱₀
    (K (F := F)).L (K (F := F)).lev (reg2 m tcVal pv projVal hpj) d none (fun u hu => by cases hu) (fun _ => .ret ⟨⟩) Φ
  have h2 := (K (F := F)).wp_liftProg (D (F := F)) 𝒱 (SparseCore.T d) Set.univ (Name := ℕ) (U := UU) none (.op (.customCall (Pipeline.entry 1) ()) fun _ => .ret ⟨⟩) Φ
  exact BI.Entails.trans h h2

abbrev a0' : DevRef τ sig := Proc.devRef .tc (main_arg0 : Ref sig .tc)
abbrev a1' : DevRef τ sig := Proc.devRef .tc (main_arg1 : Ref sig .tc)
abbrev v15' : DevRef τ sig := Proc.devRef .tc (main_v15 : Ref sig .tc)
abbrev v16' : DevRef τ sig := Proc.devRef .tc (main_v16 : Ref sig .tc)
abbrev v17' : DevRef τ sig := Proc.devRef .tc (main_v17 : Ref sig .tc)
abbrev v18' : DevRef τ sig := Proc.devRef .tc (main_v18 : Ref sig .tc)

include pv projVal in
theorem region0_step' (htc : TcRun m tcVal) (d : Dev nD) (Φ : PUnit → sProp 𝕄) :
    iprop((iprop(boundary (SparseCore.T d : Thread nD τ) ∗ ((x3Loc d ↦{fullShare} x3v m d) ∗ (sLoc d ↦{fullShare} V1 m tcVal d v1') ∗ owesB (F := F) d 0))
            -∗ wp frame (wpE (D (F := F)) 𝒱 (SparseCore.T d) none) Set.univ (.ret ⟨⟩) Φ)
        ∗ boundary (SparseCore.T d : Thread nD τ) ∗ ((x3Loc d ↦{fullShare} x3v m d) ∗ (sLoc d ↦{fullShare} VA m d v1') ∗ owesB (F := F) d 0)
        ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (SparseCore.T d) none) Set.univ
          (SparseCore.liftProg (.op (.customCall (Pipeline.entry 0) ()) fun _ => .ret ⟨⟩) : Prog (TpuEff nD τ sig (Elt F) (SparseCore.Sig (ΛP (F := F)) 1) .tc) PUnit) Φ :=
  region0_step m tcVal pv projVal htc d Φ

theorem region2_step' (hpj : ProjRun m tcVal pv projVal) (d : Dev nD) (Φ : PUnit → sProp 𝕄) :
    iprop((iprop(boundary (SparseCore.T d : Thread nD τ) ∗ ((bLoc d main_v15 ↦{fullShare} VB m tcVal pv d v15') ∗ (bLoc d main_v16 ↦{fullShare} VB m tcVal pv d v16')
              ∗ (bLoc d main_v17 ↦{fullShare} VB m tcVal pv d v17') ∗ (bLoc d main_v18 ↦{fullShare} VB m tcVal pv d v18')
              ∗ (bLoc d main_v19 ↦{fullShare} V3 m tcVal pv projVal d v19') ∗ owesB (F := F) d 1))
            -∗ wp frame (wpE (D (F := F)) 𝒱 (SparseCore.T d) none) Set.univ (.ret ⟨⟩) Φ)
        ∗ boundary (SparseCore.T d : Thread nD τ) ∗ ((bLoc d main_v15 ↦{fullShare} VB m tcVal pv d v15') ∗ (bLoc d main_v16 ↦{fullShare} VB m tcVal pv d v16')
              ∗ (bLoc d main_v17 ↦{fullShare} VB m tcVal pv d v17') ∗ (bLoc d main_v18 ↦{fullShare} VB m tcVal pv d v18')
              ∗ (bLoc d main_v19 ↦{fullShare} VB m tcVal pv d v19') ∗ owesB (F := F) d 1)
        ∗ levAts (K (F := F)).L (K (F := F)).lev
        ∗ Pipeline.cellsGhost (Pipeline.pin (pcfgs (F := F)) adm) EP 1 d ∗ Pipeline.toksInit (Pipeline.pin (pcfgs (F := F)) adm) EP 1 d)
      ⊢ wp frame (wpE ((K (F := F)).defs (D (F := F))) 𝒱 (SparseCore.T d) none) Set.univ
          (SparseCore.liftProg (.op (.customCall (Pipeline.entry 1) ()) fun _ => .ret ⟨⟩) : Prog (TpuEff nD τ sig (Elt F) (SparseCore.Sig (ΛP (F := F)) 1) .tc) PUnit) Φ :=
  region2_step m tcVal pv projVal hpj d Φ

/-! ## The TensorCore's handshake state, what it owes apart -/

theorem tcSt_split (d : Dev nD) (n : ℕ) : ∃ R : sProp 𝕄, ((K (F := F)).tcSt EH d n : sProp 𝕄) = iprop(owesB (F := F) d n ∗ R) := ⟨_, rfl⟩
def tcRest (d : Dev nD) (n : ℕ) : sProp 𝕄 := Classical.choose (tcSt_split (F := F) d n)
theorem tcSt_eq (d : Dev nD) (n : ℕ) : ((K (F := F)).tcSt EH d n : sProp 𝕄) = iprop(owesB (F := F) d n ∗ tcRest (F := F) d n) :=
  Classical.choose_spec (tcSt_split (F := F) d n)

theorem G_eq (d : Dev nD) : (G (F := F) d : sProp 𝕄)
    = iprop((Pipeline.cellsGhost (Pipeline.pin (pcfgs (F := F)) adm) EP 0 d ∗ Pipeline.toksInit (Pipeline.pin (pcfgs (F := F)) adm) EP 0 d)
        ∗ (Pipeline.cellsGhost (Pipeline.pin (pcfgs (F := F)) adm) EP 1 d ∗ Pipeline.toksInit (Pipeline.pin (pcfgs (F := F)) adm) EP 1 d)) := by
  unfold G
  rw [show (Finset.univ : Finset (Fin 2)) = {0, 1} by decide, SparseCore.bigSep_insert' (by decide), bigSep_singleton]

/-! ## The buffers taken out of the held set, stage by stage -/

abbrev S0 : Finset (DevRef τ sig) := ucRefs τ sig
abbrev S1 : Finset (DevRef τ sig) := S0.erase v0'
abbrev S2 : Finset (DevRef τ sig) := S1.erase v1'
abbrev S2' : Finset (DevRef τ sig) := S1.erase v2'

omit [FloatOps F] [Named F] in
theorem mem_v0 : v0' ∈ (S0 : Finset (DevRef τ sig)) := mem_uc main_v0 rfl
omit [FloatOps F] [Named F] in
theorem mem_v1 : v1' ∈ (S1 : Finset (DevRef τ sig)) := Finset.mem_erase.mpr ⟨devRef_ne_of_ne (by decide), mem_uc main_v1 rfl⟩
omit [FloatOps F] [Named F] in
theorem mem_v2 : v2' ∈ (S1 : Finset (DevRef τ sig)) := Finset.mem_erase.mpr ⟨devRef_ne_of_ne (by decide), mem_uc main_v2 rfl⟩

theorem V1_fold (d : Dev nD) : Function.update (VA m d) v1' (V1 m tcVal d v1') = V1 m tcVal d := by
  unfold V1; rw [Function.update_self]

theorem V2_v0 (d : Dev nD) : V2 m tcVal pv d v0' = x3v m d := by
  unfold V2 V1
  rw [Function.update_of_ne (devRef_ne_of_ne (by decide)), Function.update_of_ne (devRef_ne_of_ne (by decide))]

theorem V2_fold (d : Dev nD) : Function.update (V2 m tcVal pv d) v0' (x3v m d) = V2 m tcVal pv d := by
  rw [← V2_v0 m tcVal pv d, Function.update_eq_self]

abbrev T1 : Finset (DevRef τ sig) := S0.erase v15'
abbrev T2 : Finset (DevRef τ sig) := T1.erase v16'
abbrev T3 : Finset (DevRef τ sig) := T2.erase v17'
abbrev T4 : Finset (DevRef τ sig) := T3.erase v18'
abbrev T5 : Finset (DevRef τ sig) := T4.erase v19'
abbrev F1 : Finset (DevRef τ sig) := S0.erase a0'
abbrev F2 : Finset (DevRef τ sig) := F1.erase a1'

omit [FloatOps F] [Named F] in
theorem mem_v15 : v15' ∈ (S0 : Finset (DevRef τ sig)) := mem_uc main_v15 rfl
omit [FloatOps F] [Named F] in
theorem mem_v16 : v16' ∈ (T1 : Finset (DevRef τ sig)) := Finset.mem_erase.mpr ⟨devRef_ne_of_ne (by decide), mem_uc main_v16 rfl⟩
omit [FloatOps F] [Named F] in
theorem mem_v17 : v17' ∈ (T2 : Finset (DevRef τ sig)) :=
  Finset.mem_erase.mpr ⟨devRef_ne_of_ne (by decide), Finset.mem_erase.mpr ⟨devRef_ne_of_ne (by decide), mem_uc main_v17 rfl⟩⟩
omit [FloatOps F] [Named F] in
theorem mem_v18 : v18' ∈ (T3 : Finset (DevRef τ sig)) :=
  Finset.mem_erase.mpr ⟨devRef_ne_of_ne (by decide), Finset.mem_erase.mpr ⟨devRef_ne_of_ne (by decide), Finset.mem_erase.mpr ⟨devRef_ne_of_ne (by decide), mem_uc main_v18 rfl⟩⟩⟩
omit [FloatOps F] [Named F] in
theorem mem_v19 : v19' ∈ (T4 : Finset (DevRef τ sig)) :=
  Finset.mem_erase.mpr ⟨devRef_ne_of_ne (by decide), Finset.mem_erase.mpr ⟨devRef_ne_of_ne (by decide), Finset.mem_erase.mpr ⟨devRef_ne_of_ne (by decide),
    Finset.mem_erase.mpr ⟨devRef_ne_of_ne (by decide), mem_uc main_v19 rfl⟩⟩⟩⟩
omit [FloatOps F] [Named F] in
theorem mem_a0 : a0' ∈ (S0 : Finset (DevRef τ sig)) := mem_uc main_arg0 rfl
omit [FloatOps F] [Named F] in
theorem mem_a1 : a1' ∈ (F1 : Finset (DevRef τ sig)) := Finset.mem_erase.mpr ⟨devRef_ne_of_ne (by decide), mem_uc main_arg1 rfl⟩
omit [FloatOps F] [Named F] in
theorem mem_v20 : v20' ∈ (F2 : Finset (DevRef τ sig)) :=
  Finset.mem_erase.mpr ⟨devRef_ne_of_ne (by decide), Finset.mem_erase.mpr ⟨devRef_ne_of_ne (by decide), mem_uc main_v20 rfl⟩⟩

theorem V3_fold (d : Dev nD) : Function.update (VB m tcVal pv d) v19' (V3 m tcVal pv projVal d v19') = V3 m tcVal pv projVal d := by
  unfold V3; rw [Function.update_self]

theorem V3_keep (d : Dev nD) (a : DevRef τ sig) (h : a ≠ v19') :
    Function.update (V3 m tcVal pv projVal d) a (VB m tcVal pv d a) = V3 m tcVal pv projVal d := by
  have e : V3 m tcVal pv projVal d a = VB m tcVal pv d a := by unfold V3; exact Function.update_of_ne h _ _
  rw [← e, Function.update_eq_self]

theorem put_v19 (d : Dev nD) :
    (iprop((bLoc d main_v19 ↦{fullShare} V3 m tcVal pv projVal d v19') ∗ held (SparseCore.T d) T5 (VB m tcVal pv d)) : sProp 𝕄)
      = held (SparseCore.T d) T4 (V3 m tcVal pv projVal d) :=
  (held_put (SparseCore.T d) T4 v19' mem_v19 (VB m tcVal pv d) (V3 m tcVal pv projVal d v19')).trans (congrArg _ (V3_fold m tcVal pv projVal d))
theorem put_v18 (d : Dev nD) :
    (iprop((bLoc d main_v18 ↦{fullShare} VB m tcVal pv d v18') ∗ held (SparseCore.T d) T4 (V3 m tcVal pv projVal d)) : sProp 𝕄)
      = held (SparseCore.T d) T3 (V3 m tcVal pv projVal d) :=
  (held_put (SparseCore.T d) T3 v18' mem_v18 (V3 m tcVal pv projVal d) (VB m tcVal pv d v18')).trans (congrArg _ (V3_keep m tcVal pv projVal d v18' (devRef_ne_of_ne (by decide))))
theorem put_v17 (d : Dev nD) :
    (iprop((bLoc d main_v17 ↦{fullShare} VB m tcVal pv d v17') ∗ held (SparseCore.T d) T3 (V3 m tcVal pv projVal d)) : sProp 𝕄)
      = held (SparseCore.T d) T2 (V3 m tcVal pv projVal d) :=
  (held_put (SparseCore.T d) T2 v17' mem_v17 (V3 m tcVal pv projVal d) (VB m tcVal pv d v17')).trans (congrArg _ (V3_keep m tcVal pv projVal d v17' (devRef_ne_of_ne (by decide))))
theorem put_v16 (d : Dev nD) :
    (iprop((bLoc d main_v16 ↦{fullShare} VB m tcVal pv d v16') ∗ held (SparseCore.T d) T2 (V3 m tcVal pv projVal d)) : sProp 𝕄)
      = held (SparseCore.T d) T1 (V3 m tcVal pv projVal d) :=
  (held_put (SparseCore.T d) T1 v16' mem_v16 (V3 m tcVal pv projVal d) (VB m tcVal pv d v16')).trans (congrArg _ (V3_keep m tcVal pv projVal d v16' (devRef_ne_of_ne (by decide))))
theorem put_v15 (d : Dev nD) :
    (iprop((bLoc d main_v15 ↦{fullShare} VB m tcVal pv d v15') ∗ held (SparseCore.T d) T1 (V3 m tcVal pv projVal d)) : sProp 𝕄)
      = held (SparseCore.T d) S0 (V3 m tcVal pv projVal d) :=
  (held_put (SparseCore.T d) S0 v15' mem_v15 (V3 m tcVal pv projVal d) (VB m tcVal pv d v15')).trans (congrArg _ (V3_keep m tcVal pv projVal d v15' (devRef_ne_of_ne (by decide))))

theorem main_eq' (d : Dev nD) :
    main (F := F) d = (seq opsA >>= fun _ => Prog.lift (.customCall (SparseCore.inner (Pipeline.entry 0)) ()) >>= fun _ =>
      (sc (F := F)).run d 0 >>= fun _ => seq opsB >>= fun _ => Prog.lift (.customCall (SparseCore.inner (Pipeline.entry 1)) ()) >>= fun _ =>
      seq opsC >>= fun _ => pure ⟨⟩) := rfl

theorem put_v1 (d : Dev nD) :
    (iprop((sLoc d ↦{fullShare} V1 m tcVal d v1') ∗ held (SparseCore.T d) S2 (VA m d)) : sProp 𝕄) = held (SparseCore.T d) S1 (V1 m tcVal d) :=
  (held_put (SparseCore.T d) S1 v1' mem_v1 (VA m d) (V1 m tcVal d v1')).trans (congrArg _ (V1_fold m tcVal d))

theorem put_v2 (d : Dev nD) :
    (iprop((pLoc d ↦{fullShare} pv d) ∗ held (SparseCore.T d) S2' (V1 m tcVal d)) : sProp 𝕄) = held (SparseCore.T d) S1 (V2 m tcVal pv d) :=
  held_put (SparseCore.T d) S1 v2' mem_v2 (V1 m tcVal d) (pv d)

theorem put_v0 (d : Dev nD) :
    (iprop((x3Loc d ↦{fullShare} x3v m d) ∗ held (SparseCore.T d) S1 (V2 m tcVal pv d)) : sProp 𝕄) = held (SparseCore.T d) S0 (V2 m tcVal pv d) :=
  (held_put (SparseCore.T d) S0 v0' mem_v0 (V2 m tcVal pv d) (x3v m d)).trans (congrArg _ (V2_fold m tcVal pv d))

theorem hmain (htc : TcRun m tcVal) (hpj : ProjRun m tcVal pv projVal) (κ : GSem nD τ sig → ℕ) (d : Dev nD) :
    iprop((K (F := F)).ctx EH (P (x3v m) pv) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m (KV m tcVal pv projVal) d) := by
  unfold SparseCore.Cfg.tcRes
  rw [show (unscopedBufs d (fun b => m ((SparseCore.T d).loc b)) : sProp 𝕄) = held (SparseCore.T d) (ucRefs τ sig) (V0 m d) from unscopedBufs_held d (V0 m d),
    main_eq', G_eq, tcSt_eq d 0]
  iintro ⟨#Hctx, ⟨HO, Hrest⟩, ⟨Hb, Hheld, Hsems, Hprng⟩, ⟨Hcg0, Htk0⟩, ⟨Hcg1, Htk1⟩⟩
  ihave Hl := ((K (F := F)).ctx_levAts (EH := EH) (P := P (x3v m) pv) κ) $$ Hctx
  icases Hl with #Hlev
  -- the planes laid out
  iapply (wp_seq 𝒱 none Set.univ d (ucRefs τ sig) _ opsA opsA_sub (forall_mem_of_Forall opsA_fresh) (V0 m d)) $$ [Hb Hheld]
  · isplitl [Hb] <;> iassumption
  iintro ⟨Hb, Hheld⟩
  rw [wp_bind, lift_entry]
  -- the pooling region: the planes and the plane-sum array go in
  ihave H := (Entails.of_eq (held_take (SparseCore.T d) S0 v0' mem_v0 (VA m d))) $$ Hheld
  icases H with ⟨Hx3, Hheld⟩
  ihave H := (Entails.of_eq (held_take (SparseCore.T d) S1 v1' mem_v1 (VA m d))) $$ Hheld
  icases H with ⟨Hs, Hheld⟩
  iapply (region0_step' m tcVal pv projVal htc d _)
  isplitr [Hb Hx3 Hs HO Hcg0 Htk0]
  swap
  · isplitl [Hb]; · iexact Hb
    isplitl [Hx3 Hs HO]
    · isplitl [Hx3]; · iexact Hx3
      isplitl [Hs]; · iexact Hs
      iexact HO
    isplitr; · iexact Hlev
    isplitl [Hcg0] <;> iassumption
  iintro ⟨Hb, Hx3, Hs, HO⟩
  rw [wp_ret]
  imodintro
  -- the plane sums in place again; the partials array comes out for the SparseCore call
  ihave Hheld := (Entails.of_eq (put_v1 m tcVal d)) $$ [Hs Hheld]
  · isplitl [Hs] <;> iassumption
  ihave H := (Entails.of_eq (held_take (SparseCore.T d) S1 v2' mem_v2 (V1 m tcVal d))) $$ Hheld
  icases H with ⟨Hp, Hheld⟩
  rw [wp_bind]
  ihave H := (st_intro (x3v m) pv d (V1 m tcVal d v2')) $$ [Hx3 Hp]
  · isplitl [Hx3] <;> iassumption
  icases H with ⟨Hrem, Hstq⟩
  iapply ((K (F := F)).wp_run (D (F := F)) 𝒱 (EH := EH) (P := P (x3v m) pv) κ d 0)
  isplitr; · iexact Hctx
  isplitl [HO Hrest]
  · ihave Hst0 := (Entails.of_eq (tcSt_eq (F := F) d 0).symm) $$ [HO Hrest]
    · isplitl [HO] <;> iassumption
    iexact Hst0
  isplitl [Hstq]; · iexact Hstq
  iintro ⟨Hst, Hdn⟩
  ihave H := (dn_elim (x3v m) pv d) $$ [Hrem Hdn]
  · isplitl [Hrem] <;> iassumption
  icases H with ⟨Hx3, Hp⟩
  ihave Hst := (Entails.of_eq (tcSt_eq (F := F) d ((0 : Fin 1).val + 1))) $$ Hst
  icases Hst with ⟨HO, Hrest⟩
  ihave Hheld := (Entails.of_eq (put_v2 m tcVal pv d)) $$ [Hp Hheld]
  · isplitl [Hp] <;> iassumption
  ihave Hheld := (Entails.of_eq (put_v0 m tcVal pv d)) $$ [Hx3 Hheld]
  · isplitl [Hx3] <;> iassumption
  -- the weight matrix laid out, the two pools' results reshaped
  iapply (wp_seq 𝒱 none Set.univ d (ucRefs τ sig) _ opsB opsB_sub (forall_mem_of_Forall opsB_fresh) (V2 m tcVal pv d)) $$ [Hb Hheld]
  · isplitl [Hb] <;> iassumption
  iintro ⟨Hb, Hheld⟩
  rw [wp_bind, lift_entry]
  -- the projection region: its four operands and its result go in
  ihave H := (Entails.of_eq (held_take (SparseCore.T d) S0 v15' mem_v15 (VB m tcVal pv d))) $$ Hheld
  icases H with ⟨H15, Hheld⟩
  ihave H := (Entails.of_eq (held_take (SparseCore.T d) T1 v16' mem_v16 (VB m tcVal pv d))) $$ Hheld
  icases H with ⟨H16, Hheld⟩
  ihave H := (Entails.of_eq (held_take (SparseCore.T d) T2 v17' mem_v17 (VB m tcVal pv d))) $$ Hheld
  icases H with ⟨H17, Hheld⟩
  ihave H := (Entails.of_eq (held_take (SparseCore.T d) T3 v18' mem_v18 (VB m tcVal pv d))) $$ Hheld
  icases H with ⟨H18, Hheld⟩
  ihave H := (Entails.of_eq (held_take (SparseCore.T d) T4 v19' mem_v19 (VB m tcVal pv d))) $$ Hheld
  icases H with ⟨H19, Hheld⟩
  iapply (region2_step' m tcVal pv projVal hpj d _)
  isplitr [Hb H15 H16 H17 H18 H19 HO Hcg1 Htk1]
  swap
  · isplitl [Hb]; · iexact Hb
    isplitl [H15 H16 H17 H18 H19 HO]
    · isplitl [H15]; · iexact H15
      isplitl [H16]; · iexact H16
      isplitl [H17]; · iexact H17
      isplitl [H18]; · iexact H18
      isplitl [H19]; · iexact H19
      iexact HO
    isplitr; · iexact Hlev
    isplitl [Hcg1] <;> iassumption
  iintro ⟨Hb, H15, H16, H17, H18, H19, HO⟩
  rw [wp_ret]
  imodintro
  ihave Hheld := (Entails.of_eq (put_v19 m tcVal pv projVal d)) $$ [H19 Hheld]
  · isplitl [H19] <;> iassumption
  ihave Hheld := (Entails.of_eq (put_v18 m tcVal pv projVal d)) $$ [H18 Hheld]
  · isplitl [H18] <;> iassumption
  ihave Hheld := (Entails.of_eq (put_v17 m tcVal pv projVal d)) $$ [H17 Hheld]
  · isplitl [H17] <;> iassumption
  ihave Hheld := (Entails.of_eq (put_v16 m tcVal pv projVal d)) $$ [H16 Hheld]
  · isplitl [H16] <;> iassumption
  ihave Hheld := (Entails.of_eq (put_v15 m tcVal pv projVal d)) $$ [H15 Hheld]
  · isplitl [H15] <;> iassumption
  -- the result reshaped
  iapply (wp_seq 𝒱 none Set.univ d (ucRefs τ sig) _ opsC opsC_sub (forall_mem_of_Forall opsC_fresh) (V3 m tcVal pv projVal d)) $$ [Hb Hheld]
  · isplitl [Hb] <;> iassumption
  iintro ⟨Hb, Hheld⟩
  rw [wp_pure]
  imodintro
  unfold FIN
  rw [← VC_a0 m tcVal pv projVal d, ← VC_a1 m tcVal pv projVal d]
  isplitl [HO Hrest]
  · ihave Hst1 := (Entails.of_eq (tcSt_eq (F := F) d ((0 : Fin 1).val + 1)).symm) $$ [HO Hrest]
    · isplitl [HO]; · iexact HO
      iexact Hrest
    iexact Hst1
  -- the arguments as launched, the result
  ihave H := (Entails.of_eq (held_take (SparseCore.T d) S0 a0' mem_a0 (VC m tcVal pv projVal d))) $$ Hheld
  icases H with ⟨Ha0, Hheld⟩
  ihave H := (Entails.of_eq (held_take (SparseCore.T d) F1 a1' mem_a1 (VC m tcVal pv projVal d))) $$ Hheld
  icases H with ⟨Ha1, Hheld⟩
  ihave H := (Entails.of_eq (held_take (SparseCore.T d) F2 v20' mem_v20 (VC m tcVal pv projVal d))) $$ Hheld
  icases H with ⟨Hr, -⟩
  isplitl [Ha0]; · iexact Ha0
  isplitl [Ha1]; · iexact Ha1
  iexact Hr

/-! ## The program's run -/

theorem run_main [∀ e, Nonempty (Elt F e)] (htc : TcRun m tcVal) (hpj : ProjRun m tcVal pv projVal)
    (htile : (K (F := F)).TileObl (D (F := F)) 𝒱 (P (x3v m) pv) v₀ 0) :
    θ_run (Cert.KernelIdeal.defs (F := F)) (Cert.KernelIdeal.threads (F := F)) ⟨m, fun _ => 0, ρ⟩ (QC m (KV m tcVal pv projVal)) :=
  SparseCore.Cfg.θ_run_sc (K := K (F := F)) (D := D (F := F)) (𝒱 := 𝒱) (EH := EH) (P := P (x3v m) pv) facts v₀
    (fun q hq => match q with | 0 => nomatch hq)
    (fun q _ => match q with | 0 => htile)
    (fun q _ => match q with | 0 => SparseCore.Cfg.VecSplit.of_plain (vecSplit (x3v m) pv))
    m ρ main (G (F := F)) (FIN m (KV m tcVal pv projVal)) (u₀ (F := F)) (hu₀ (x3v m) pv) (hmain m ρ tcVal pv projVal htc hpj)
    (fq m (KV m tcVal pv projVal)) (hfin m (KV m tcVal pv projVal)) (QC m (KV m tcVal pv projVal)) (fun _ h => h)

end Cert.Proof.KI

end
-- ==== Proof.KI.TcPoolDefs.lean ====
/-
  The TensorCore pool of planes 0 .. 575: names and bookkeeping of its ring of eight slots.

  The planes are pooled slab by slab, a slab being eight consecutive planes; slab b is copied from the plane array into
  ring slot b mod 8, each slot completing on a transfer semaphore of its own, seven slabs ahead of the one being summed.
  This module names a slot, its semaphore and what the slot holds when free and when a copy into it is in flight; says
  which slots are in flight before each trip of the pool's loop; and states the trip's index arithmetic in closed form.
-/
import proofs.«215010_g72713796321855_cont_9to1c4b_299_31_alg».proof.Proof.KI.Common
import proofs.«215010_g72713796321855_cont_9to1c4b_299_31_alg».proof.Proof.Gen.KernelIdeal.Skeleton
import proofs.«215010_g72713796321855_cont_9to1c4b_299_31_alg».proof.Proof.Gen.KernelIdeal.Points
import Idealize.ShloMosaic.Lib.Ring
import Idealize.ShloMosaic.Lib.Exec

noncomputable section

namespace Cert.Proof.KI.TcPool

open Cert.KernelIdeal Cert.KernelIdeal.Gen
open Idealize.ShloMosaic
open Idealize.ShloMosaic.SparseCore (S V T)
open Idealize.ShloMosaic.SparseCore.Cfg (HIx)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok)

variable {F : FTy → Type} [FloatOps F] [Named F]

local notation "𝕄" => MT nD τ sig (HIx 1) (Elt F) ℕ UU ℕ

/-! ## Slots, cells and slabs as slices at given offsets

A ring slot (eight planes' room in the scratch buffer), its transfer semaphore and a slab of eight planes are each a
slice at some offsets. One trip names them at the offsets its own index arithmetic computes; the bookkeeping names slot
s and its semaphore at the offsets (s, 0, 0, 0) and (s), slab b at the offsets (8 b, 0, 0). Equal offsets give equal
slices, whatever says they are in range. -/

abbrev slotP (off : Fin 4 → Nat) (h : ∀ a, off a + S1x8x384x384.size a ≤ S8x8x384x384.size a) : Memref sig .tc .vmem S8x384x384 .f32 :=
  ((Memref.whole cc0_scratch0).slice (Rect.unit (s := S8x8x384x384) off S1x8x384x384.size h) (fun _ => rfl)).squeeze S8x384x384 squeezes_S1x8x384x384_S8x384x384
abbrev cellP (off : Fin 1 → Nat) (h : ∀ a, off a + S1.size a ≤ S8.size a) : SemLoc sig :=
  SemLoc.dma ((cc0_scratch1.slice (Rect.unit (s := S8) off S1.size h)).squeeze S_ squeezes_S1_S_).sem
abbrev slabP (off : Fin 3 → Nat) (h : ∀ a, off a + S8x384x384.size a ≤ S768x384x384.size a) : Memref sig .tc .hbm S8x384x384 .f32 :=
  (Memref.whole main_v0).slice (Rect.unit (s := S768x384x384) off S8x384x384.size h) (fun _ => rfl)

theorem slotP_congr {off off' : Fin 4 → Nat} (e : off = off') (h h') : slotP off h = slotP off' h' := by subst e; rfl
theorem cellP_congr {off off' : Fin 1 → Nat} (e : off = off') (h h') : cellP off h = cellP off' h' := by subst e; rfl

theorem inbSlot (s : Fin 8) : ∀ a, (![s.val, 0, 0, 0] : Fin 4 → Nat) a + S1x8x384x384.size a ≤ S8x8x384x384.size a := by
  have := s.isLt; intro a; fin_cases a
  · show s.val + 1 ≤ 8; omega
  · show 0 + 8 ≤ 8; omega
  · show 0 + 384 ≤ 384; omega
  · show 0 + 384 ≤ 384; omega
theorem inbCell (s : Fin 8) : ∀ a, (![s.val] : Fin 1 → Nat) a + S1.size a ≤ S8.size a := by
  have := s.isLt; intro a; fin_cases a
  show s.val + 1 ≤ 8; omega
theorem inbSlab (b : ℕ) : ∀ a, (![8 * (b % 72), 0, 0] : Fin 3 → Nat) a + S8x384x384.size a ≤ S768x384x384.size a := by
  have := Nat.mod_lt b (show 0 < 72 by decide); intro a; fin_cases a
  · show 8 * (b % 72) + 8 ≤ 768; omega
  · show 0 + 384 ≤ 384; omega
  · show 0 + 384 ≤ 384; omega
theorem inbRow (b : ℕ) : ∀ a, (![8 * (b % 72), 0, 0] : Fin 3 → Nat) a + S8x1x1.size a ≤ S576x1x1.size a := by
  have := Nat.mod_lt b (show 0 < 72 by decide); intro a; fin_cases a
  · show 8 * (b % 72) + 8 ≤ 576; omega
  · show 0 + 1 ≤ 1; omega
  · show 0 + 1 ≤ 1; omega

/-- Ring slot s and its own transfer semaphore. -/
abbrev slotM (s : Fin 8) : Memref sig .tc .vmem S8x384x384 .f32 := slotP ![s.val, 0, 0, 0] (inbSlot s)
abbrev cellM (s : Fin 8) : SemLoc sig := cellP ![s.val] (inbCell s)
/-- The slot slab b travels into. -/
abbrev sOf (b : ℕ) : Fin 8 := ⟨b % 8, Nat.mod_lt _ (by decide)⟩

/-! ## One trip's index arithmetic in closed form

Trip k works on slabs 2k and 2k+1 (slab b: planes 8b .. 8b+7; while in flight it travels into slot b mod 8) and, while
they exist (there are 72 slabs), starts slabs 2k+7 and 2k+8. -/

theorem cond1_iff : ∀ k : Fin k0_t1_loop.trips, k0_cond1 k = 1#1 ↔ k.val ≤ 32 := by decide +kernel
theorem cond2_iff : ∀ k : Fin k0_t1_loop.trips, k0_cond2 k = 1#1 ↔ k.val ≤ 31 := by decide +kernel

theorem off3_eq : ∀ k : Fin k0_t1_loop.trips, k0_off3 k = ![(sOf (2 * k.val + 7)).val] := by decide +kernel
theorem off4_eq : ∀ k : Fin k0_t1_loop.trips, k0_off4 k = ![(sOf (2 * k.val + 7)).val, 0, 0, 0] := by decide +kernel
theorem off5_eq : ∀ k : Fin k0_t1_loop.trips, k.val ≤ 32 → k0_off5 k = ![8 * ((2 * k.val + 7) % 72), 0, 0] := by decide +kernel
theorem off6_0_eq : ∀ k : Fin k0_t1_loop.trips, k0_off6 k 0#32 = ![(sOf (2 * k.val)).val] := by decide +kernel
theorem off6_1_eq : ∀ k : Fin k0_t1_loop.trips, k0_off6 k 1#32 = ![(sOf (2 * k.val + 1)).val] := by decide +kernel
theorem off7_0_eq : ∀ k : Fin k0_t1_loop.trips, k0_off7 k 0#32 = ![(sOf (2 * k.val)).val, 0, 0, 0] := by decide +kernel
theorem off7_1_eq : ∀ k : Fin k0_t1_loop.trips, k0_off7 k 1#32 = ![(sOf (2 * k.val + 1)).val, 0, 0, 0] := by decide +kernel
theorem off9_0_eq : ∀ k : Fin k0_t1_loop.trips, k0_off9 k 0#32 = ![(sOf (2 * k.val)).val, 0, 0, 0] := by decide +kernel
theorem off9_1_eq : ∀ k : Fin k0_t1_loop.trips, k0_off9 k 1#32 = ![(sOf (2 * k.val + 1)).val, 0, 0, 0] := by decide +kernel
theorem off10_0_eq : ∀ k : Fin k0_t1_loop.trips, k0_off10 k 0#32 = ![8 * ((2 * k.val) % 72), 0, 0] := by decide +kernel
theorem off10_1_eq : ∀ k : Fin k0_t1_loop.trips, k0_off10 k 1#32 = ![8 * ((2 * k.val + 1) % 72), 0, 0] := by decide +kernel
theorem off11_eq : ∀ k : Fin k0_t1_loop.trips, k0_off11 k = ![(sOf (2 * k.val)).val] := by decide +kernel
theorem off12_eq : ∀ k : Fin k0_t1_loop.trips, k0_off12 k = ![(sOf (2 * k.val)).val, 0, 0, 0] := by decide +kernel
theorem off13_eq : ∀ k : Fin k0_t1_loop.trips, k.val ≤ 31 → k0_off13 k = ![8 * ((2 * k.val + 8) % 72), 0, 0] := by decide +kernel

/-! ## Which slab is in flight into which slot before trip k

Before trip k the slabs 2k .. 2k+6 that exist are in flight, slab 2k+j into slot (2k+j) mod 8; the eighth slot is
free, and so is every slot whose slab would be number 72 or more. -/

/-- Slot s's place j in the window starting at slab 2k: s = (2k + j) mod 8. -/
def pos (k : ℕ) (s : Fin 8) : ℕ := (s.val + 8 - (2 * k) % 8) % 8
/-- The slab in flight into slot s before trip k, if any. -/
def st (k : ℕ) (s : Fin 8) : Option ℕ := if pos k s < 7 ∧ 2 * k + pos k s < 72 then some (2 * k + pos k s) else none

theorem ne_07 : ∀ k : Fin k0_t1_loop.trips, sOf (2 * k.val) ≠ sOf (2 * k.val + 7) := by decide +kernel
theorem ne_17 : ∀ k : Fin k0_t1_loop.trips, sOf (2 * k.val + 1) ≠ sOf (2 * k.val + 7) := by decide +kernel
theorem ne_10 : ∀ k : Fin k0_t1_loop.trips, sOf (2 * k.val + 1) ≠ sOf (2 * k.val) := by decide +kernel
theorem st_i7 : ∀ k : Fin k0_t1_loop.trips, st k.val (sOf (2 * k.val + 7)) = none := by decide +kernel
theorem st_i0 : ∀ k : Fin k0_t1_loop.trips, st k.val (sOf (2 * k.val)) = some (2 * k.val) := by decide +kernel
theorem st_i1 : ∀ k : Fin k0_t1_loop.trips, st k.val (sOf (2 * k.val + 1)) = some (2 * k.val + 1) := by decide +kernel
theorem st_next_i7 : ∀ k : Fin k0_t1_loop.trips, k.val ≤ 32 → st (k.val + 1) (sOf (2 * k.val + 7)) = some (2 * k.val + 7) := by decide +kernel
theorem st_next_i7' : ∀ k : Fin k0_t1_loop.trips, 33 ≤ k.val → st (k.val + 1) (sOf (2 * k.val + 7)) = none := by decide +kernel
theorem st_next_i0 : ∀ k : Fin k0_t1_loop.trips, k.val ≤ 31 → st (k.val + 1) (sOf (2 * k.val)) = some (2 * k.val + 8) := by decide +kernel
theorem st_next_i0' : ∀ k : Fin k0_t1_loop.trips, 32 ≤ k.val → st (k.val + 1) (sOf (2 * k.val)) = none := by decide +kernel
theorem st_next_i1 : ∀ k : Fin k0_t1_loop.trips, st (k.val + 1) (sOf (2 * k.val + 1)) = none := by decide +kernel
theorem st_next_rest : ∀ k : Fin k0_t1_loop.trips, ∀ s : Fin 8, s ≠ sOf (2 * k.val + 7) → s ≠ sOf (2 * k.val) → s ≠ sOf (2 * k.val + 1) →
    st (k.val + 1) s = st k.val s := by decide +kernel
theorem st_zero : ∀ s : Fin 8, st 0 s = if s.val < 7 then some s.val else none := by decide
theorem st_last : ∀ s : Fin 8, st 36 s = none := by decide

/-! ## What a slot holds, and what the pool stores -/

section Family

variable (d : Dev nD) (q : PosShare TreeShare) (x3v : Buf (Elt F) ((Memref.whole main_v0).view.loc (T d : Thread nD τ)))

/-- What a transfer of the slab at offsets bo carries: the slab's eight planes as they stand in the plane array. -/
def payAt (bo : Fin 3 → Nat) (hbo : ∀ a, bo a + S8x384x384.size a ≤ S768x384x384.size a) : S8x384x384.Idx → Elt F .f32 :=
  ReadAs.same.apply (View.read (Elt F) (slabP bo hbo).view x3v)

/-- What the pool reads back of a slot (named at offsets so; read at offsets lo of the scratch buffer) that a transfer
    carrying w has filled. -/
def loadedAt (so : Fin 4 → Nat) (hso : ∀ a, so a + S1x8x384x384.size a ≤ S8x8x384x384.size a) (lo : Fin 4 → Nat)
    (hlo : ∀ a, lo a + S1x8x384x384.size a ≤ S8x8x384x384.size a) (w : S8x384x384.Idx → Elt F .f32) : Vec F S1x8x384x384 .f32 :=
  View.readAt (Elt F) (Memref.whole cc0_scratch0).view (Rect.unit (s := S8x8x384x384) lo S1x8x384x384.size hlo).toLoadRect
    ((slotP so hso).view.writes (Elt F) (slotP so hso).view.junk [⟨Rect.whole S8x384x384, w⟩])

/-- The piece of the output the pool stores for a slab: at rows ro, the eight plane sums of what it read back. -/
def pcAt (ro : Fin 3 → Nat) (hro : ∀ a, ro a + S8x1x1.size a ≤ S576x1x1.size a) (so : Fin 4 → Nat)
    (hso : ∀ a, so a + S1x8x384x384.size a ≤ S8x8x384x384.size a) (lo : Fin 4 → Nat)
    (hlo : ∀ a, lo a + S1x8x384x384.size a ≤ S8x8x384x384.size a) (w : S8x384x384.Idx → Elt F .f32) : View.Piece (Elt F) S576x1x1 .f32 :=
  ⟨Rect.unit (s := S576x1x1) ro S8x1x1.size hro, k0_pay1 (loadedAt so hso lo hlo w)⟩

theorem pcAt_congr {ro ro' : Fin 3 → Nat} {so so' lo lo' : Fin 4 → Nat} (e1 : ro = ro') (e2 : so = so') (e3 : lo = lo')
    (hro hro' hso hso' hlo hlo') (w : S8x384x384.Idx → Elt F .f32) :
    pcAt (F := F) ro hro so hso lo hlo w = pcAt ro' hro' so' hso' lo' hlo' w := by subst e1; subst e2; subst e3; rfl

/-- Slab b's contribution to the output: rows 8b .. 8b+7. -/
def pc (b : ℕ) : View.Piece (Elt F) S576x1x1 .f32 :=
  pcAt ![8 * (b % 72), 0, 0] (inbRow b) ![(sOf b).val, 0, 0, 0] (inbSlot (sOf b)) ![(sOf b).val, 0, 0, 0] (inbSlot (sOf b))
    (payAt d x3v ![8 * (b % 72), 0, 0] (inbSlab b))
/-- The pieces stored for slabs 0 .. n-1, the latest first. -/
def pcs : ℕ → List (View.Piece (Elt F) S576x1x1 .f32)
  | 0 => []
  | n + 1 => pc d x3v n :: pcs n

/-- Slot s's read token of the planes is number s + 1 of nine (its semaphore is number s + 1 of the core's transfer
    semaphores, and a transfer borrows from the token of its semaphore's number); token 0 is never lent. -/
abbrev tk (s : Fin 8) : Fin 9 := ⟨s.val + 1, by omega⟩

/-- A FREE slot, named at the offsets co (semaphore) and so (slot): the semaphore at zero, the slot's room at any
    contents, and the slot's own read token of the planes, whole. -/
def freeAt (co : Fin 1 → Nat) (hco : ∀ a, co a + S1.size a ≤ S8.size a) (so : Fin 4 → Nat)
    (hso : ∀ a, so a + S1x8x384x384.size a ≤ S8x8x384x384.size a) (s : Fin 8) : sProp 𝕄 :=
  iprop(semVal (T d, cellP co hco) 0
    ∗ (∃ f, (slotP so hso).view.loc (T d) ↦[(slotP so hso).view.set]{fullShare} f)
    ∗ ((Memref.whole main_v0).view.loc (T d) ↦[Finset.univ]{shareTok q 9 (tk s)} x3v))

/-- A slot IN FLIGHT with the slab at offsets bo: the transfer's capability — its wait hands back the slot's room
    filled with that slab and the slab's part of the token — beside the rest of the token. -/
def flyAt (co : Fin 1 → Nat) (hco : ∀ a, co a + S1.size a ≤ S8.size a) (so : Fin 4 → Nat)
    (hso : ∀ a, so a + S1x8x384x384.size a ≤ S8x8x384x384.size a) (bo : Fin 3 → Nat)
    (hbo : ∀ a, bo a + S8x384x384.size a ≤ S768x384x384.size a) (s : Fin 8) : sProp 𝕄 :=
  iprop((∃ f : Buf (Elt F) ((slotP so hso).view.loc (T d : Thread nD τ)),
      Transfers.Flight (countersEmb (U := UU)) (T d) (cellP co hco) (default : HIx 1) 147456
        iprop(((slotP so hso).view.loc (T d) ↦[(slotP so hso).view.set]{fullShare}
              (slotP so hso).view.writes (Elt F) f [⟨Rect.whole S8x384x384, payAt d x3v bo hbo⟩])
          ∗ ((Memref.whole main_v0).view.loc (T d) ↦[(slabP bo hbo).view.set]{shareTok q 9 (tk s)} x3v)))
    ∗ ((Memref.whole main_v0).view.loc (T d) ↦[Finset.univ \ (slabP bo hbo).view.set]{shareTok q 9 (tk s)} x3v))

theorem freeAt_congr {co co' : Fin 1 → Nat} {so so' : Fin 4 → Nat} (ec : co = co') (es : so = so') (hco hco' hso hso') (s : Fin 8) :
    freeAt d q x3v co hco so hso s = freeAt d q x3v co' hco' so' hso' s := by subst ec; subst es; rfl
theorem flyAt_congr {co co' : Fin 1 → Nat} {so so' : Fin 4 → Nat} {bo bo' : Fin 3 → Nat} (ec : co = co') (es : so = so') (eb : bo = bo')
    (hco hco' hso hso' hbo hbo') (s : Fin 8) :
    flyAt d q x3v co hco so hso bo hbo s = flyAt d q x3v co' hco' so' hso' bo' hbo' s := by subst ec; subst es; subst eb; rfl

/-- A slot's room held at one naming of its offsets is held at any other naming of the same offsets. -/
theorem slot_respell {so so' : Fin 4 → Nat} (es : so = so') (hso : ∀ a, so a + S1x8x384x384.size a ≤ S8x8x384x384.size a)
    (hso' : ∀ a, so' a + S1x8x384x384.size a ≤ S8x8x384x384.size a) (g : Buf (Elt F) ((slotP so hso).view.loc (T d : Thread nD τ))) :
    ((slotP so hso).view.loc (T d) ↦[(slotP so hso).view.set]{fullShare} g : sProp 𝕄)
      ⊢ ∃ g', (slotP so' hso').view.loc (T d) ↦[(slotP so' hso').view.set]{fullShare} g' := by
  subst es; iintro H; iexists g; iexact H

/-- Slot s in flight with slab b (some b) or free (none), named by its number. -/
def Φ (s : Fin 8) : Option ℕ → sProp 𝕄
  | some b => flyAt d q x3v ![s.val] (inbCell s) ![s.val, 0, 0, 0] (inbSlot s) ![8 * (b % 72), 0, 0] (inbSlab b) s
  | none => freeAt d q x3v ![s.val] (inbCell s) ![s.val, 0, 0, 0] (inbSlot s) s

end Family

/-! ## Three slots set apart from the ring, and put back -/

theorem AtW_three {M : Type _} [URA M] {α : Type} (Ψ : Fin 8 → α → sProp M) (σt : Fin 8 → α) (a b c : Fin 8)
    (hba : b ≠ a) (hca : c ≠ a) (hcb : c ≠ b) :
    Ring.AtW (σ := fun _ => α) Ψ σt
      = iprop(Ψ a (σt a) ∗ Ψ b (σt b) ∗ Ψ c (σt c) ∗ bigSep (((Finset.univ.erase a).erase b).erase c) fun s => Ψ s (σt s)) := by
  rw [Ring.AtW_focus (σ := fun _ => α) Ψ σt a, Ring.restW_focus (σ := fun _ => α) Ψ σt a b hba,
    BI.bigSep_erase (Φ := fun s => Ψ s (σt s)) (Finset.mem_erase.mpr ⟨hcb, Finset.mem_erase.mpr ⟨hca, Finset.mem_univ c⟩⟩)]
  rfl

theorem AtW_three_next {M : Type _} [URA M] {α : Type} (Ψ : Fin 8 → α → sProp M) (σt σt' : Fin 8 → α) (a b c : Fin 8)
    (hba : b ≠ a) (hca : c ≠ a) (hcb : c ≠ b) (hrest : ∀ s, s ≠ a → s ≠ b → s ≠ c → σt' s = σt s) :
    iprop(Ψ a (σt' a) ∗ Ψ b (σt' b) ∗ Ψ c (σt' c) ∗ bigSep (((Finset.univ.erase a).erase b).erase c) fun s => Ψ s (σt s))
      ⊢ Ring.AtW (σ := fun _ => α) Ψ σt' := by
  rw [AtW_three Ψ σt' a b c hba hca hcb,
    BI.bigSep_congr (s := ((Finset.univ.erase a).erase b).erase c) (Φ := fun s => Ψ s (σt' s)) (Ψ := fun s => Ψ s (σt s))
      fun s hs => by
        have h3 := Finset.mem_erase.mp hs
        have h2 := Finset.mem_erase.mp h3.2
        have h1 := Finset.mem_erase.mp h2.2
        rw [hrest s h1.1 h2.1 h3.1]]

end Cert.Proof.KI.TcPool

end
-- ==== Proof.KI.TcPoolTrip.lean ====
/-
  The TensorCore pool of planes 0 .. 575: one trip of its loop.

  Trip k waits for slabs 2k and 2k+1, sums each slab's eight planes and stores the eight sums at rows 8b .. 8b+7 of the
  output, and meanwhile starts slabs 2k+7 and 2k+8 while they exist. Three slots of the ring are touched: the free one
  (slab 2k+7 goes there), slab 2k's (which then takes slab 2k+8) and slab 2k+1's (left free). The trip is first run at
  its own naming of those slots — the offsets its index arithmetic computes — once for each way its two conditions can
  fall; then the invariant's naming, by slot number and slab number, is translated to the trip's and back with the
  closed forms of that arithmetic. The value is carried along: what a slot's transfer lands is the slab as it stands in
  the plane array, and the output holds, over what it held at the start, one piece per slab done so far.
-/
import proofs.«215010_g72713796321855_cont_9to1c4b_299_31_alg».proof.Proof.KI.TcPoolDefs

noncomputable section

namespace Cert.Proof.KI.TcPool

open Cert.KernelIdeal Cert.KernelIdeal.Gen
open Idealize.ShloMosaic
open Idealize.ShloMosaic.SparseCore (S V T)
open Idealize.ShloMosaic.SparseCore.Cfg (HIx)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok)

variable {F : FTy → Type} [FloatOps F] [Named F]

local notation "𝕄" => MT nD τ sig (HIx 1) (Elt F) ℕ UU ℕ

-- the trip's index arithmetic enters only through its closed forms (the equations of the definitions module): its
-- definitions by machine-word operations are never unfolded at a symbolic trip
attribute [local irreducible] k0_off3 k0_off4 k0_off5 k0_off6 k0_off7 k0_off8 k0_off9 k0_off10 k0_off11 k0_off12 k0_off13 k0_cond1 k0_cond2

/-- What one trip keeps of the thread's debts: the waits made so far recorded. -/
abbrev owesAnd (d : Dev nD) (O : CellTallies nD τ sig (HIx 1)) (W : Waits sig (HIx 1)) : sProp 𝕄 :=
  iprop(∃ W', ⌜∀ p ∈ W', p ∈ W ∨ p.2 = none⌝ ∗ owes (T d) O W')

set_option maxHeartbeats 1600000 in
/-- A trip that starts both of its slabs (k ≤ 31), at the trip's own naming of the three slots it touches: slab 2k+7
    is started into the free slot; slab 2k is awaited, summed and stored, and slab 2k+8 started into its slot; slab
    2k+1 is awaited, summed and stored, its slot left free. The output gains the two slabs' pieces. -/
theorem core_A (d : Dev nD) (q : PosShare TreeShare) (x3v : Buf (Elt F) ((Memref.whole main_v0).view.loc (T d : Thread nD τ)))
    (arg1 : Memref sig .tc .vmem S576x1x1 .f32) (harg1 : arg1.IsWhole)
    (O : CellTallies nD τ sig (HIx 1)) (W : Waits sig (HIx 1)) (k : Fin k0_t1_loop.trips)
    (h1 : k0_cond1 k = 1#1) (h2 : k0_cond2 k = 1#1) (s7 s0 s1 : Fin 8)
    (bo0 bo1 : Fin 3 → Nat) (hbo0 : ∀ a, bo0 a + S8x384x384.size a ≤ S768x384x384.size a) (hbo1 : ∀ a, bo1 a + S8x384x384.size a ≤ S768x384x384.size a)
    (fo : Buf (Elt F) (arg1.view.loc (T d : Thread nD τ))) (L : List (View.Piece (Elt F) S576x1x1 .f32)) :
    iprop(Transfers.MayWaits (T d) (none : HIx 1) O
        ∗ freeAt d q x3v (k0_off3 k) (k0_off3_inb k h1) (k0_off4 k) (k0_off4_inb k h1) s7
        ∗ flyAt d q x3v (k0_off6 k 0#32) (k0_off6_inb k 0) (k0_off7 k 0#32) (k0_off7_inb k 0) bo0 hbo0 s0
        ∗ flyAt d q x3v (k0_off6 k 1#32) (k0_off6_inb k 1) (k0_off7 k 1#32) (k0_off7_inb k 1) bo1 hbo1 s1
        ∗ (arg1.view.loc (T d) ↦{fullShare} arg1.view.writes (Elt F) fo L)
        ∗ owesAnd d O W)
      ⊢ wp frame (wpE (defs₀ (F := F)) 𝒱₀ (T d) none) Set.univ
          (k0_t1_body (F := F) (Memref.whole main_v0) (Memref.isWhole_whole _) arg1 harg1 (Memref.whole cc0_scratch0) (Memref.isWhole_whole _) cc0_scratch1 k ())
          (fun _ => iprop(flyAt d q x3v (k0_off3 k) (k0_off3_inb k h1) (k0_off4 k) (k0_off4_inb k h1) (k0_off5 k) (k0_off5_inb k h1) s7
            ∗ flyAt d q x3v (k0_off11 k) (k0_off11_inb k h2) (k0_off12 k) (k0_off12_inb k h2) (k0_off13 k) (k0_off13_inb k h2) s0
            ∗ freeAt d q x3v (k0_off6 k 1#32) (k0_off6_inb k 1) (k0_off7 k 1#32) (k0_off7_inb k 1) s1
            ∗ (arg1.view.loc (T d) ↦{fullShare} arg1.view.writes (Elt F) fo
                (pcAt (k0_off10 k 1#32) (k0_off10_inb k 1) (k0_off7 k 1#32) (k0_off7_inb k 1) (k0_off9 k 1#32) (k0_off9_inb k 1) (payAt d x3v bo1 hbo1)
                  :: pcAt (k0_off10 k 0#32) (k0_off10_inb k 0) (k0_off7 k 0#32) (k0_off7_inb k 0) (k0_off9 k 0#32) (k0_off9_inb k 0) (payAt d x3v bo0 hbo0)
                  :: L))
            ∗ owesAnd d O W)) := by
  unfold k0_t1_body freeAt flyAt owesAnd
  iintro ⟨#Hmw, ⟨Hc7, ⟨%f7, Hs7⟩, Ht7⟩, ⟨⟨%f0, Hf0⟩, Hr0⟩, ⟨⟨%f1, Hf1⟩, Hr1⟩, Hout, %W', %hW', HO⟩
  sl_exec (disch := first | exact h1 | exact h2)
  -- slab 2k's slot, free again, is the slot slab 2k+8 goes into: the same offsets under the next transfer's naming
  ihave Hc0 := (Entails.of_eq (congrArg (fun c => semVal (T d, c) 0)
      (cellP_congr ((off6_0_eq k).trans (off11_eq k).symm) (k0_off6_inb k 0) (k0_off11_inb k h2)))) $$ Hf0
  ihave Hs0 := (slot_respell d ((off7_0_eq k).trans (off12_eq k).symm) (k0_off7_inb k 0) (k0_off12_inb k h2) _) $$ Hf0_dst
  icases Hs0 with ⟨%g0', Hs0⟩
  sl_exec (disch := first | exact h1 | exact h2)
  sl_step
  isplitl [Hc7 Ht7]
  · isplitl [Hc7]
    · iexists _; iexact Hc7
    · iexact Ht7
  isplitl [Hc0 Hr0]
  · isplitl [Hc0]
    · iexists _; iexact Hc0
    · iexact Hr0
  isplitl [Hf1 Hf1_dst Hr1]
  · isplitl [Hf1]; · iexact Hf1
    isplitl [Hf1_dst]; · iexists _; iexact Hf1_dst
    iexact Hr1
  isplitl [Hout]; · iexact Hout
  iexists (insert (cellP (k0_off6 k 1#32) (k0_off6_inb k 1), (default : HIx 1)) (insert (cellP (k0_off6 k 0#32) (k0_off6_inb k 0), (default : HIx 1)) W')); isplitr
  · ipureintro; intro p hp
    rcases Finset.mem_insert.mp hp with rfl | hp
    · exact .inr rfl
    rcases Finset.mem_insert.mp hp with rfl | hp
    · exact .inr rfl
    exact hW' p hp
  · iexact HO

set_option maxHeartbeats 1600000 in
/-- Trip 32 starts slab 71 only: slab 64's slot is left free. -/
theorem core_B (d : Dev nD) (q : PosShare TreeShare) (x3v : Buf (Elt F) ((Memref.whole main_v0).view.loc (T d : Thread nD τ)))
    (arg1 : Memref sig .tc .vmem S576x1x1 .f32) (harg1 : arg1.IsWhole)
    (O : CellTallies nD τ sig (HIx 1)) (W : Waits sig (HIx 1)) (k : Fin k0_t1_loop.trips)
    (h1 : k0_cond1 k = 1#1) (h2 : ¬ k0_cond2 k = 1#1) (s7 s0 s1 : Fin 8)
    (bo0 bo1 : Fin 3 → Nat) (hbo0 : ∀ a, bo0 a + S8x384x384.size a ≤ S768x384x384.size a) (hbo1 : ∀ a, bo1 a + S8x384x384.size a ≤ S768x384x384.size a)
    (fo : Buf (Elt F) (arg1.view.loc (T d : Thread nD τ))) (L : List (View.Piece (Elt F) S576x1x1 .f32)) :
    iprop(Transfers.MayWaits (T d) (none : HIx 1) O
        ∗ freeAt d q x3v (k0_off3 k) (k0_off3_inb k h1) (k0_off4 k) (k0_off4_inb k h1) s7
        ∗ flyAt d q x3v (k0_off6 k 0#32) (k0_off6_inb k 0) (k0_off7 k 0#32) (k0_off7_inb k 0) bo0 hbo0 s0
        ∗ flyAt d q x3v (k0_off6 k 1#32) (k0_off6_inb k 1) (k0_off7 k 1#32) (k0_off7_inb k 1) bo1 hbo1 s1
        ∗ (arg1.view.loc (T d) ↦{fullShare} arg1.view.writes (Elt F) fo L)
        ∗ owesAnd d O W)
      ⊢ wp frame (wpE (defs₀ (F := F)) 𝒱₀ (T d) none) Set.univ
          (k0_t1_body (F := F) (Memref.whole main_v0) (Memref.isWhole_whole _) arg1 harg1 (Memref.whole cc0_scratch0) (Memref.isWhole_whole _) cc0_scratch1 k ())
          (fun _ => iprop(flyAt d q x3v (k0_off3 k) (k0_off3_inb k h1) (k0_off4 k) (k0_off4_inb k h1) (k0_off5 k) (k0_off5_inb k h1) s7
            ∗ freeAt d q x3v (k0_off6 k 0#32) (k0_off6_inb k 0) (k0_off7 k 0#32) (k0_off7_inb k 0) s0
            ∗ freeAt d q x3v (k0_off6 k 1#32) (k0_off6_inb k 1) (k0_off7 k 1#32) (k0_off7_inb k 1) s1
            ∗ (arg1.view.loc (T d) ↦{fullShare} arg1.view.writes (Elt F) fo
                (pcAt (k0_off10 k 1#32) (k0_off10_inb k 1) (k0_off7 k 1#32) (k0_off7_inb k 1) (k0_off9 k 1#32) (k0_off9_inb k 1) (payAt d x3v bo1 hbo1)
                  :: pcAt (k0_off10 k 0#32) (k0_off10_inb k 0) (k0_off7 k 0#32) (k0_off7_inb k 0) (k0_off9 k 0#32) (k0_off9_inb k 0) (payAt d x3v bo0 hbo0)
                  :: L))
            ∗ owesAnd d O W)) := by
  unfold k0_t1_body freeAt flyAt owesAnd
  iintro ⟨#Hmw, ⟨Hc7, ⟨%f7, Hs7⟩, Ht7⟩, ⟨⟨%f0, Hf0⟩, Hr0⟩, ⟨⟨%f1, Hf1⟩, Hr1⟩, Hout, %W', %hW', HO⟩
  sl_exec (disch := first | exact h1 | exact h2)
  sl_step
  isplitl [Hc7 Ht7]
  · isplitl [Hc7]
    · iexists _; iexact Hc7
    · iexact Ht7
  isplitl [Hf0 Hf0_dst Hr0]
  · isplitl [Hf0]; · iexact Hf0
    isplitl [Hf0_dst]; · iexists _; iexact Hf0_dst
    iexact Hr0
  isplitl [Hf1 Hf1_dst Hr1]
  · isplitl [Hf1]; · iexact Hf1
    isplitl [Hf1_dst]; · iexists _; iexact Hf1_dst
    iexact Hr1
  isplitl [Hout]; · iexact Hout
  iexists (insert (cellP (k0_off6 k 1#32) (k0_off6_inb k 1), (default : HIx 1)) (insert (cellP (k0_off6 k 0#32) (k0_off6_inb k 0), (default : HIx 1)) W')); isplitr
  · ipureintro; intro p hp
    rcases Finset.mem_insert.mp hp with rfl | hp
    · exact .inr rfl
    rcases Finset.mem_insert.mp hp with rfl | hp
    · exact .inr rfl
    exact hW' p hp
  · iexact HO

set_option maxHeartbeats 1600000 in
/-- Trips 33 to 35 start nothing: both slots are left free. -/
theorem core_C (d : Dev nD) (q : PosShare TreeShare) (x3v : Buf (Elt F) ((Memref.whole main_v0).view.loc (T d : Thread nD τ)))
    (arg1 : Memref sig .tc .vmem S576x1x1 .f32) (harg1 : arg1.IsWhole)
    (O : CellTallies nD τ sig (HIx 1)) (W : Waits sig (HIx 1)) (k : Fin k0_t1_loop.trips)
    (h1 : ¬ k0_cond1 k = 1#1) (h2 : ¬ k0_cond2 k = 1#1) (s7 s0 s1 : Fin 8)
    (bo0 bo1 : Fin 3 → Nat) (hbo0 : ∀ a, bo0 a + S8x384x384.size a ≤ S768x384x384.size a) (hbo1 : ∀ a, bo1 a + S8x384x384.size a ≤ S768x384x384.size a)
    (fo : Buf (Elt F) (arg1.view.loc (T d : Thread nD τ))) (L : List (View.Piece (Elt F) S576x1x1 .f32)) :
    iprop(Transfers.MayWaits (T d) (none : HIx 1) O
        ∗ flyAt d q x3v (k0_off6 k 0#32) (k0_off6_inb k 0) (k0_off7 k 0#32) (k0_off7_inb k 0) bo0 hbo0 s0
        ∗ flyAt d q x3v (k0_off6 k 1#32) (k0_off6_inb k 1) (k0_off7 k 1#32) (k0_off7_inb k 1) bo1 hbo1 s1
        ∗ (arg1.view.loc (T d) ↦{fullShare} arg1.view.writes (Elt F) fo L)
        ∗ owesAnd d O W)
      ⊢ wp frame (wpE (defs₀ (F := F)) 𝒱₀ (T d) none) Set.univ
          (k0_t1_body (F := F) (Memref.whole main_v0) (Memref.isWhole_whole _) arg1 harg1 (Memref.whole cc0_scratch0) (Memref.isWhole_whole _) cc0_scratch1 k ())
          (fun _ => iprop(freeAt d q x3v (k0_off6 k 0#32) (k0_off6_inb k 0) (k0_off7 k 0#32) (k0_off7_inb k 0) s0
            ∗ freeAt d q x3v (k0_off6 k 1#32) (k0_off6_inb k 1) (k0_off7 k 1#32) (k0_off7_inb k 1) s1
            ∗ (arg1.view.loc (T d) ↦{fullShare} arg1.view.writes (Elt F) fo
                (pcAt (k0_off10 k 1#32) (k0_off10_inb k 1) (k0_off7 k 1#32) (k0_off7_inb k 1) (k0_off9 k 1#32) (k0_off9_inb k 1) (payAt d x3v bo1 hbo1)
                  :: pcAt (k0_off10 k 0#32) (k0_off10_inb k 0) (k0_off7 k 0#32) (k0_off7_inb k 0) (k0_off9 k 0#32) (k0_off9_inb k 0) (payAt d x3v bo0 hbo0)
                  :: L))
            ∗ owesAnd d O W)) := by
  unfold k0_t1_body freeAt flyAt owesAnd
  iintro ⟨#Hmw, ⟨⟨%f0, Hf0⟩, Hr0⟩, ⟨⟨%f1, Hf1⟩, Hr1⟩, Hout, %W', %hW', HO⟩
  sl_exec (disch := first | exact h1 | exact h2)
  sl_step
  isplitl [Hf0 Hf0_dst Hr0]
  · isplitl [Hf0]; · iexact Hf0
    isplitl [Hf0_dst]; · iexists _; iexact Hf0_dst
    iexact Hr0
  isplitl [Hf1 Hf1_dst Hr1]
  · isplitl [Hf1]; · iexact Hf1
    isplitl [Hf1_dst]; · iexists _; iexact Hf1_dst
    iexact Hr1
  isplitl [Hout]; · iexact Hout
  iexists (insert (cellP (k0_off6 k 1#32) (k0_off6_inb k 1), (default : HIx 1)) (insert (cellP (k0_off6 k 0#32) (k0_off6_inb k 0), (default : HIx 1)) W')); isplitr
  · ipureintro; intro p hp
    rcases Finset.mem_insert.mp hp with rfl | hp
    · exact .inr rfl
    rcases Finset.mem_insert.mp hp with rfl | hp
    · exact .inr rfl
    exact hW' p hp
  · iexact HO

/-- The ring slot by slot. -/
theorem AtW_eight {M : Type _} [URA M] {α : Type} (Ψ : Fin 8 → α → sProp M) (σt : Fin 8 → α) :
    Ring.AtW (σ := fun _ => α) Ψ σt
      = iprop(Ψ 0 (σt 0) ∗ Ψ 1 (σt 1) ∗ Ψ 2 (σt 2) ∗ Ψ 3 (σt 3) ∗ Ψ 4 (σt 4) ∗ Ψ 5 (σt 5) ∗ Ψ 6 (σt 6) ∗ Ψ 7 (σt 7)) :=
  bigSep_univ_eq_bigSepL [0, 1, 2, 3, 4, 5, 6, 7] (by decide) (by decide) (fun s => Ψ s (σt s))

/-! ## The loop's invariant and one trip -/

section Trip

variable (d : Dev nD) (q : PosShare TreeShare) (x3v : Buf (Elt F) ((Memref.whole main_v0).view.loc (T d : Thread nD τ)))
  (arg1 : Memref sig .tc .vmem S576x1x1 .f32) (harg1 : arg1.IsWhole) (fo : Buf (Elt F) (arg1.view.loc (T d : Thread nD τ)))
  (O : CellTallies nD τ sig (HIx 1)) (W : Waits sig (HIx 1))

theorem Φ_none (s : Fin 8) :
    Φ d q x3v s none = freeAt d q x3v ![s.val] (inbCell s) ![s.val, 0, 0, 0] (inbSlot s) s := rfl
theorem Φ_some (s : Fin 8) (b : ℕ) :
    Φ d q x3v s (some b) = flyAt d q x3v ![s.val] (inbCell s) ![s.val, 0, 0, 0] (inbSlot s) ![8 * (b % 72), 0, 0] (inbSlab b) s := rfl

/-- Before trip k: the ring as the in-flight map says, the output holding the pieces of slabs 0 .. 2k-1 over what it
    held at the start, the thread's debts with the waits so far recorded; and the evidence that its waits are admissible. -/
def inv (k : ℕ) (_ : Unit) : sProp 𝕄 :=
  iprop(Transfers.MayWaits (T d) (none : HIx 1) O
    ∗ Ring.AtW (σ := fun _ => Option ℕ) (Φ d q x3v) (st k)
    ∗ (arg1.view.loc (T d) ↦{fullShare} arg1.view.writes (Elt F) fo (pcs d x3v (2 * k)))
    ∗ owesAnd d O W)

/-- The two pieces trip k stores, under the trip's naming, are slab 2k's and slab 2k+1's. -/
theorem pcs_step (k : Fin k0_t1_loop.trips) :
    (pcAt (F := F) (k0_off10 k 1#32) (k0_off10_inb k 1) (k0_off7 k 1#32) (k0_off7_inb k 1) (k0_off9 k 1#32) (k0_off9_inb k 1)
        (payAt d x3v ![8 * ((2 * k.val + 1) % 72), 0, 0] (inbSlab (2 * k.val + 1)))
      :: pcAt (k0_off10 k 0#32) (k0_off10_inb k 0) (k0_off7 k 0#32) (k0_off7_inb k 0) (k0_off9 k 0#32) (k0_off9_inb k 0)
        (payAt d x3v ![8 * ((2 * k.val) % 72), 0, 0] (inbSlab (2 * k.val)))
      :: pcs d x3v (2 * k.val)) = pcs d x3v (2 * (k.val + 1)) := by
  rw [show 2 * (k.val + 1) = (2 * k.val + 1) + 1 by omega,
    pcAt_congr (F := F) (off10_1_eq k) (off7_1_eq k) (off9_1_eq k) (k0_off10_inb k 1) (inbRow (2 * k.val + 1)) (k0_off7_inb k 1)
      (inbSlot (sOf (2 * k.val + 1))) (k0_off9_inb k 1) (inbSlot (sOf (2 * k.val + 1))),
    pcAt_congr (F := F) (off10_0_eq k) (off7_0_eq k) (off9_0_eq k) (k0_off10_inb k 0) (inbRow (2 * k.val)) (k0_off7_inb k 0)
      (inbSlot (sOf (2 * k.val))) (k0_off9_inb k 0) (inbSlot (sOf (2 * k.val)))]
  rfl

set_option maxHeartbeats 1600000 in
/-- One trip takes the invariant to the next: the three slots the trip touches are set apart, renamed as the trip names
    them, run (by the two conditions' closed forms: both slabs started, only slab 71, or none), renamed back and put
    back; the other five slots are not touched and hold the same slabs before and after. -/
theorem trip (k : Fin k0_t1_loop.trips) :
    inv d q x3v arg1 fo O W k.val ()
      ⊢ wp frame (wpE (defs₀ (F := F)) 𝒱₀ (T d) none) Set.univ
          (k0_t1_body (F := F) (Memref.whole main_v0) (Memref.isWhole_whole _) arg1 harg1 (Memref.whole cc0_scratch0) (Memref.isWhole_whole _) cc0_scratch1 k ())
          (fun _ => inv d q x3v arg1 fo O W (k.val + 1) ()) := by
  unfold inv
  rw [AtW_three (Φ d q x3v) (st k.val) (sOf (2 * k.val + 7)) (sOf (2 * k.val)) (sOf (2 * k.val + 1)) (ne_07 k) (ne_17 k) (ne_10 k),
    st_i7 k, st_i0 k, st_i1 k, Φ_none, Φ_some, Φ_some]
  iintro ⟨#Hmw, ⟨H7, H0, H1, Hrest⟩, Hout, HO⟩
  rcases Nat.lt_or_ge k.val 32 with hA | hA
  · -- both slabs are started
    have hk : k.val ≤ 31 := by omega
    have h1 : k0_cond1 k = 1#1 := (cond1_iff k).2 (by omega)
    have h2 : k0_cond2 k = 1#1 := (cond2_iff k).2 hk
    iapply ((core_A d q x3v arg1 harg1 O W k h1 h2 (sOf (2 * k.val + 7)) (sOf (2 * k.val)) (sOf (2 * k.val + 1))
        ![8 * ((2 * k.val) % 72), 0, 0] ![8 * ((2 * k.val + 1) % 72), 0, 0] (inbSlab _) (inbSlab _) fo (pcs d x3v (2 * k.val))).trans (wp_wand frame (wpE (defs₀ (F := F)) 𝒱₀ (T d) none) Set.univ)) $$ [H7 H0 H1 Hout HO] [Hrest]
    · isplitr; · iexact Hmw
      isplitl [H7]
      · iapply (Entails.of_eq (freeAt_congr d q x3v (off3_eq k).symm (off4_eq k).symm (inbCell _) (k0_off3_inb k h1) (inbSlot _) (k0_off4_inb k h1) _))
        iexact H7
      isplitl [H0]
      · iapply (Entails.of_eq (flyAt_congr d q x3v (off6_0_eq k).symm (off7_0_eq k).symm rfl (inbCell _) (k0_off6_inb k 0) (inbSlot _) (k0_off7_inb k 0) (inbSlab _) (inbSlab _) _))
        iexact H0
      isplitl [H1]
      · iapply (Entails.of_eq (flyAt_congr d q x3v (off6_1_eq k).symm (off7_1_eq k).symm rfl (inbCell _) (k0_off6_inb k 1) (inbSlot _) (k0_off7_inb k 1) (inbSlab _) (inbSlab _) _))
        iexact H1
      isplitl [Hout]; · iexact Hout
      iexact HO
    · iintro %_ ⟨H7, H0, H1, Hout, HO⟩
      isplitr; · iexact Hmw
      isplitl [H7 H0 H1 Hrest]
      · iapply (AtW_three_next (Φ d q x3v) (st k.val) (st (k.val + 1)) (sOf (2 * k.val + 7)) (sOf (2 * k.val)) (sOf (2 * k.val + 1))
          (ne_07 k) (ne_17 k) (ne_10 k) (st_next_rest k))
        rw [st_next_i7 k (by omega), st_next_i0 k hk, st_next_i1 k, Φ_some, Φ_some, Φ_none]
        isplitl [H7]
        · iapply (Entails.of_eq (flyAt_congr d q x3v (off3_eq k) (off4_eq k) (off5_eq k (by omega)) (k0_off3_inb k h1) (inbCell _) (k0_off4_inb k h1) (inbSlot _) (k0_off5_inb k h1) (inbSlab _) _))
          iexact H7
        isplitl [H0]
        · iapply (Entails.of_eq (flyAt_congr d q x3v (off11_eq k) (off12_eq k) (off13_eq k hk) (k0_off11_inb k h2) (inbCell _) (k0_off12_inb k h2) (inbSlot _) (k0_off13_inb k h2) (inbSlab _) _))
          iexact H0
        isplitl [H1]
        · iapply (Entails.of_eq (freeAt_congr d q x3v (off6_1_eq k) (off7_1_eq k) (k0_off6_inb k 1) (inbCell _) (k0_off7_inb k 1) (inbSlot _) _))
          iexact H1
        iexact Hrest
      isplitl [Hout]
      · iapply (Entails.of_eq (congrArg (fun L => (arg1.view.loc (T d) ↦{fullShare} arg1.view.writes (Elt F) fo L : sProp 𝕄)) (pcs_step d x3v k)))
        iexact Hout
      iexact HO
  · rcases Nat.eq_or_lt_of_le hA with hB | hC
    · -- trip 32: slab 71 is started, slab 72 does not exist
      have h1 : k0_cond1 k = 1#1 := (cond1_iff k).2 (by omega)
      have h2 : ¬ k0_cond2 k = 1#1 := fun h => by have := (cond2_iff k).1 h; omega
      iapply ((core_B d q x3v arg1 harg1 O W k h1 h2 (sOf (2 * k.val + 7)) (sOf (2 * k.val)) (sOf (2 * k.val + 1))
          ![8 * ((2 * k.val) % 72), 0, 0] ![8 * ((2 * k.val + 1) % 72), 0, 0] (inbSlab _) (inbSlab _) fo (pcs d x3v (2 * k.val))).trans (wp_wand frame (wpE (defs₀ (F := F)) 𝒱₀ (T d) none) Set.univ)) $$ [H7 H0 H1 Hout HO] [Hrest]
      · isplitr; · iexact Hmw
        isplitl [H7]
        · iapply (Entails.of_eq (freeAt_congr d q x3v (off3_eq k).symm (off4_eq k).symm (inbCell _) (k0_off3_inb k h1) (inbSlot _) (k0_off4_inb k h1) _))
          iexact H7
        isplitl [H0]
        · iapply (Entails.of_eq (flyAt_congr d q x3v (off6_0_eq k).symm (off7_0_eq k).symm rfl (inbCell _) (k0_off6_inb k 0) (inbSlot _) (k0_off7_inb k 0) (inbSlab _) (inbSlab _) _))
          iexact H0
        isplitl [H1]
        · iapply (Entails.of_eq (flyAt_congr d q x3v (off6_1_eq k).symm (off7_1_eq k).symm rfl (inbCell _) (k0_off6_inb k 1) (inbSlot _) (k0_off7_inb k 1) (inbSlab _) (inbSlab _) _))
          iexact H1
        isplitl [Hout]; · iexact Hout
        iexact HO
      · iintro %_ ⟨H7, H0, H1, Hout, HO⟩
        isplitr; · iexact Hmw
        isplitl [H7 H0 H1 Hrest]
        · iapply (AtW_three_next (Φ d q x3v) (st k.val) (st (k.val + 1)) (sOf (2 * k.val + 7)) (sOf (2 * k.val)) (sOf (2 * k.val + 1))
            (ne_07 k) (ne_17 k) (ne_10 k) (st_next_rest k))
          rw [st_next_i7 k (by omega), st_next_i0' k (by omega), st_next_i1 k, Φ_some, Φ_none, Φ_none]
          isplitl [H7]
          · iapply (Entails.of_eq (flyAt_congr d q x3v (off3_eq k) (off4_eq k) (off5_eq k (by omega)) (k0_off3_inb k h1) (inbCell _) (k0_off4_inb k h1) (inbSlot _) (k0_off5_inb k h1) (inbSlab _) _))
            iexact H7
          isplitl [H0]
          · iapply (Entails.of_eq (freeAt_congr d q x3v (off6_0_eq k) (off7_0_eq k) (k0_off6_inb k 0) (inbCell _) (k0_off7_inb k 0) (inbSlot _) _))
            iexact H0
          isplitl [H1]
          · iapply (Entails.of_eq (freeAt_congr d q x3v (off6_1_eq k) (off7_1_eq k) (k0_off6_inb k 1) (inbCell _) (k0_off7_inb k 1) (inbSlot _) _))
            iexact H1
          iexact Hrest
        isplitl [Hout]
        · iapply (Entails.of_eq (congrArg (fun L => (arg1.view.loc (T d) ↦{fullShare} arg1.view.writes (Elt F) fo L : sProp 𝕄)) (pcs_step d x3v k)))
          iexact Hout
        iexact HO
    · -- trips 33 to 35: nothing is started; the eighth slot stays free
      have h1 : ¬ k0_cond1 k = 1#1 := fun h => by have := (cond1_iff k).1 h; omega
      have h2 : ¬ k0_cond2 k = 1#1 := fun h => by have := (cond2_iff k).1 h; omega
      iapply ((core_C d q x3v arg1 harg1 O W k h1 h2 (sOf (2 * k.val + 7)) (sOf (2 * k.val)) (sOf (2 * k.val + 1))
          ![8 * ((2 * k.val) % 72), 0, 0] ![8 * ((2 * k.val + 1) % 72), 0, 0] (inbSlab _) (inbSlab _) fo (pcs d x3v (2 * k.val))).trans (wp_wand frame (wpE (defs₀ (F := F)) 𝒱₀ (T d) none) Set.univ)) $$ [H0 H1 Hout HO] [H7 Hrest]
      · isplitr; · iexact Hmw
        isplitl [H0]
        · iapply (Entails.of_eq (flyAt_congr d q x3v (off6_0_eq k).symm (off7_0_eq k).symm rfl (inbCell _) (k0_off6_inb k 0) (inbSlot _) (k0_off7_inb k 0) (inbSlab _) (inbSlab _) _))
          iexact H0
        isplitl [H1]
        · iapply (Entails.of_eq (flyAt_congr d q x3v (off6_1_eq k).symm (off7_1_eq k).symm rfl (inbCell _) (k0_off6_inb k 1) (inbSlot _) (k0_off7_inb k 1) (inbSlab _) (inbSlab _) _))
          iexact H1
        isplitl [Hout]; · iexact Hout
        iexact HO
      · iintro %_ ⟨H0, H1, Hout, HO⟩
        isplitr; · iexact Hmw
        isplitl [H7 H0 H1 Hrest]
        · iapply (AtW_three_next (Φ d q x3v) (st k.val) (st (k.val + 1)) (sOf (2 * k.val + 7)) (sOf (2 * k.val)) (sOf (2 * k.val + 1))
            (ne_07 k) (ne_17 k) (ne_10 k) (st_next_rest k))
          rw [st_next_i7' k (by omega), st_next_i0' k (by omega), st_next_i1 k, Φ_none, Φ_none, Φ_none]
          isplitl [H7]; · iexact H7
          isplitl [H0]
          · iapply (Entails.of_eq (freeAt_congr d q x3v (off6_0_eq k) (off7_0_eq k) (k0_off6_inb k 0) (inbCell _) (k0_off7_inb k 0) (inbSlot _) _))
            iexact H0
          isplitl [H1]
          · iapply (Entails.of_eq (freeAt_congr d q x3v (off6_1_eq k) (off7_1_eq k) (k0_off6_inb k 1) (inbCell _) (k0_off7_inb k 1) (inbSlot _) _))
            iexact H1
          iexact Hrest
        isplitl [Hout]
        · iapply (Entails.of_eq (congrArg (fun L => (arg1.view.loc (T d) ↦{fullShare} arg1.view.writes (Elt F) fo L : sProp 𝕄)) (pcs_step d x3v k)))
          iexact Hout
        iexact HO
end Trip

end Cert.Proof.KI.TcPool

end
-- ==== Proof.KI.TcPool.lean ====
/-
  The TensorCore pool of planes 0 .. 575: the whole body.

  From the ring all free — every slot's semaphore at zero, its room at any contents, its read token of the planes
  whole — and the output's staging buffer at some contents: the body starts slabs 0 .. 6, runs its 36 trips by the
  invariant of the trip module (before trip k the slabs 2k .. 2k+6 that exist are in flight and the output holds the
  pieces of slabs 0 .. 2k-1), and returns with the ring all free again and the output holding one piece per slab, 72 in
  all, over what it held at the start.
-/
import proofs.«215010_g72713796321855_cont_9to1c4b_299_31_alg».proof.Proof.KI.TcPoolTrip

noncomputable section

namespace Cert.Proof.KI.TcPool

open Cert.KernelIdeal Cert.KernelIdeal.Gen
open Idealize.ShloMosaic
open Idealize.ShloMosaic.SparseCore (S V T)
open Idealize.ShloMosaic.SparseCore.Cfg (HIx)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok)

variable {F : FTy → Type} [FloatOps F] [Named F]

local notation "𝕄" => MT nD τ sig (HIx 1) (Elt F) ℕ UU ℕ

-- the trip's index arithmetic enters only through its closed forms (the equations of the definitions module): its
-- definitions by machine-word operations are never unfolded at a symbolic trip
attribute [local irreducible] k0_off3 k0_off4 k0_off5 k0_off6 k0_off7 k0_off8 k0_off9 k0_off10 k0_off11 k0_off12 k0_off13 k0_cond1 k0_cond2

theorem trips_eq : Scf.trips k0_t1_loop.lb k0_t1_loop.ub k0_t1_loop.st = 36 := by decide

/-- The ring all free, slot by slot. -/
theorem ring_free_eq (d : Dev nD) (q : PosShare TreeShare) (x3v : Buf (Elt F) ((Memref.whole main_v0).view.loc (T d : Thread nD τ))) :
    Ring.AtW (σ := fun _ => Option ℕ) (Φ d q x3v) (fun _ => none)
      = iprop(freeAt d q x3v ![(0 : Fin 8).val] (inbCell 0) ![(0 : Fin 8).val, 0, 0, 0] (inbSlot 0) 0
        ∗ freeAt d q x3v ![(1 : Fin 8).val] (inbCell 1) ![(1 : Fin 8).val, 0, 0, 0] (inbSlot 1) 1
        ∗ freeAt d q x3v ![(2 : Fin 8).val] (inbCell 2) ![(2 : Fin 8).val, 0, 0, 0] (inbSlot 2) 2
        ∗ freeAt d q x3v ![(3 : Fin 8).val] (inbCell 3) ![(3 : Fin 8).val, 0, 0, 0] (inbSlot 3) 3
        ∗ freeAt d q x3v ![(4 : Fin 8).val] (inbCell 4) ![(4 : Fin 8).val, 0, 0, 0] (inbSlot 4) 4
        ∗ freeAt d q x3v ![(5 : Fin 8).val] (inbCell 5) ![(5 : Fin 8).val, 0, 0, 0] (inbSlot 5) 5
        ∗ freeAt d q x3v ![(6 : Fin 8).val] (inbCell 6) ![(6 : Fin 8).val, 0, 0, 0] (inbSlot 6) 6
        ∗ freeAt d q x3v ![(7 : Fin 8).val] (inbCell 7) ![(7 : Fin 8).val, 0, 0, 0] (inbSlot 7) 7) := by
  rw [AtW_eight (Φ d q x3v) (fun _ => none)]
  rfl

set_option maxHeartbeats 3200000 in
/-- The pool's body from the ring all free and the output at fo: slabs 0 .. 6 are started, the loop runs by its
    invariant, and the ring is all free again with the output holding all 72 slabs' pieces over fo. -/
theorem tcPool_core (d : Dev nD) (q : PosShare TreeShare) (x3v : Buf (Elt F) ((Memref.whole main_v0).view.loc (T d : Thread nD τ)))
    (arg1 : Memref sig .tc .vmem S576x1x1 .f32) (harg1 : arg1.IsWhole) (fo : Buf (Elt F) (arg1.view.loc (T d : Thread nD τ)))
    (O : CellTallies nD τ sig (HIx 1)) (W : Waits sig (HIx 1)) :
    iprop(Transfers.MayWaits (T d) (none : HIx 1) O
        ∗ Ring.AtW (σ := fun _ => Option ℕ) (Φ d q x3v) (fun _ => none)
        ∗ (arg1.view.loc (T d) ↦{fullShare} fo)
        ∗ owes (T d) O W)
      ⊢ wp frame (wpE (defs₀ (F := F)) 𝒱₀ (T d) none) Set.univ
          (cc0__tc_pool_body (F := F) (Memref.whole main_v0) (Memref.isWhole_whole _) arg1 harg1 (Memref.whole cc0_scratch0) (Memref.isWhole_whole _) cc0_scratch1)
          (fun _ => iprop(Ring.AtW (σ := fun _ => Option ℕ) (Φ d q x3v) (fun _ => none)
            ∗ (arg1.view.loc (T d) ↦{fullShare} arg1.view.writes (Elt F) fo (pcs d x3v 72))
            ∗ owesAnd d O W)) := by
  simp only [cc0__tc_pool_body_eq_skeleton]; unfold cc0__tc_pool_body_skel
  iintro ⟨#Hmw, HR, Hout, HO⟩
  ihave HR := (Entails.of_eq (ring_free_eq d q x3v)) $$ HR
  unfold freeAt
  icases HR with ⟨⟨Hc0, ⟨%f0, Hs0⟩, Ht0⟩, ⟨Hc1, ⟨%f1, Hs1⟩, Ht1⟩, ⟨Hc2, ⟨%f2, Hs2⟩, Ht2⟩, ⟨Hc3, ⟨%f3, Hs3⟩, Ht3⟩, ⟨Hc4, ⟨%f4, Hs4⟩, Ht4⟩,
    ⟨Hc5, ⟨%f5, Hs5⟩, Ht5⟩, ⟨Hc6, ⟨%f6, Hs6⟩, Ht6⟩, Hc7, ⟨%f7, Hs7⟩, Ht7⟩
  sl_exec
  sl_for (inv d q x3v arg1 fo O W) $$ [Hc0 Ht0 Hc1 Ht1 Hc2 Ht2 Hc3 Ht3 Hc4 Ht4 Hc5 Ht5 Hc6 Ht6 Hc7 Hs7 Ht7 Hout HO]
  case region => intro k acc; exact trip d q x3v arg1 harg1 fo O W k
  · unfold inv
    isplitr; · iexact Hmw
    isplitl [Hc0 Ht0 Hc1 Ht1 Hc2 Ht2 Hc3 Ht3 Hc4 Ht4 Hc5 Ht5 Hc6 Ht6 Hc7 Hs7 Ht7]
    · rw [AtW_eight (Φ d q x3v) (st 0),
        show st 0 (0 : Fin 8) = some 0 from by decide, show st 0 (1 : Fin 8) = some 1 from by decide,
        show st 0 (2 : Fin 8) = some 2 from by decide, show st 0 (3 : Fin 8) = some 3 from by decide,
        show st 0 (4 : Fin 8) = some 4 from by decide, show st 0 (5 : Fin 8) = some 5 from by decide,
        show st 0 (6 : Fin 8) = some 6 from by decide, show st 0 (7 : Fin 8) = none from by decide,
        Φ_some, Φ_some, Φ_some, Φ_some, Φ_some, Φ_some, Φ_some, Φ_none]
      isplitl [Hc0 Ht0]
      · unfold flyAt
        isplitl [Hc0]
        · iexists f0; iexact Hc0
        · iexact Ht0
      isplitl [Hc1 Ht1]
      · unfold flyAt
        isplitl [Hc1]
        · iexists f1; iexact Hc1
        · iexact Ht1
      isplitl [Hc2 Ht2]
      · unfold flyAt
        isplitl [Hc2]
        · iexists f2; iexact Hc2
        · iexact Ht2
      isplitl [Hc3 Ht3]
      · unfold flyAt
        isplitl [Hc3]
        · iexists f3; iexact Hc3
        · iexact Ht3
      isplitl [Hc4 Ht4]
      · unfold flyAt
        isplitl [Hc4]
        · iexists f4; iexact Hc4
        · iexact Ht4
      isplitl [Hc5 Ht5]
      · unfold flyAt
        isplitl [Hc5]
        · iexists f5; iexact Hc5
        · iexact Ht5
      isplitl [Hc6 Ht6]
      · unfold flyAt
        isplitl [Hc6]
        · iexists f6; iexact Hc6
        · iexact Ht6
      unfold freeAt
      isplitl [Hc7]; · iexact Hc7
      isplitl [Hs7]; · iexists f7; iexact Hs7
      iexact Ht7
    isplitl [Hout]; · iexact Hout
    iexists W; isplitr
    · ipureintro; exact fun p hp => .inl hp
    · iexact HO
  iintro %_ HI
  unfold inv
  icases HI with ⟨-, HR, Hout, HO⟩
  sl_exec
  sl_step
  isplitl [HR]
  · iapply (Entails.of_eq (congrArg (Ring.AtW (σ := fun _ => Option ℕ) (Φ d q x3v))
      (show st (Scf.trips k0_t1_loop.lb k0_t1_loop.ub k0_t1_loop.st) = fun _ => none from by rw [trips_eq]; exact funext st_last)))
    iexact HR
  isplitl [Hout]
  · iapply (Entails.of_eq (congrArg (fun n => (arg1.view.loc (T d) ↦{fullShare} arg1.view.writes (Elt F) fo (pcs d x3v n) : sProp 𝕄))
      (show 2 * Scf.trips k0_t1_loop.lb k0_t1_loop.ub k0_t1_loop.st = 72 from by rw [trips_eq])))
    iexact Hout
  iexact HO

end Cert.Proof.KI.TcPool

end
-- ==== Proof.KI.TcPoolRun.lean ====
/-
  The TensorCore pool of planes 0 .. 575, as the pooling region takes its body.

  The region hands the body the plane array whole, the kernel's eight transfer semaphores at zero, the TensorCore's
  other scoped buffers (the ring's scratch buffer among them) and the output's staging buffer at any contents. The ring
  is made of these: the scratch buffer is its eight slots (eight disjoint stretches of its leading axis that cover it),
  the plane array's share is split into one read token per slot and a remainder, each slot takes its semaphore. After
  the body the parts are joined back. The output is stored slab by slab and the 72 pieces cover it (row r lies in slab
  r / 8's), so what it reads afterwards is a function of the pieces alone: that function is the pool's value.
-/
import proofs.«215010_g72713796321855_cont_9to1c4b_299_31_alg».proof.Proof.KI.Regions
import proofs.«215010_g72713796321855_cont_9to1c4b_299_31_alg».proof.Proof.KI.TcPool
import Idealize.ShloMosaic.Lib.Pipeline.FrameBody
import Idealize.ShloMosaic.Lib.ValueIdx

noncomputable section

namespace Cert.Proof.KI.TcPool

open Cert.KernelIdeal Cert.KernelIdeal.Gen
open Idealize.ShloMosaic
open Idealize.ShloMosaic.SparseCore (S V T)
open Idealize.ShloMosaic.SparseCore.Cfg (HIx)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type} [FloatOps F] [Named F]

local notation "𝕄" => MT nD τ sig (HIx 1) (Elt F) ℕ UU ℕ

open Idealize.ShloMosaic.ValueIdx (ix1)

section Bridge

variable (c : Dev nD)

/-- The elements of slot s within the scratch buffer. -/
theorem slot_set (s : Fin 8) :
    (slotM s).view.set = (Rect.unit (s := S8x8x384x384) ![s.val, 0, 0, 0] S1x8x384x384.size (inbSlot s)).set := by
  show (((View.whole cc0_scratch0).slice (Rect.unit (s := S8x8x384x384) ![s.val, 0, 0, 0] S1x8x384x384.size (inbSlot s))).reshape S8x384x384 _).set = _
  rw [View.set_reshape, View.set_slice_whole]

theorem slots_disjoint (s s' : Fin 8) (h : s ≠ s') : Disjoint (slotM s).view.set (slotM s').view.set := by
  rw [slot_set, slot_set]
  exact Ring.lead_disjoint (s := S8x8x384x384) (NB := 8) (0 : Fin 4) 1 (fun b : Fin 8 => ![b.val, 0, 0, 0]) S1x8x384x384.size
    (fun b => inbSlot b) (fun b => by show b.val = 1 * b.val; omega) rfl s s' h

/-- The eight slots' element sets, as sets of the scratch buffer's elements. -/
def Is (s : Fin 8) : Finset (Idx ((T c : Thread nD τ).loc cc0_scratch0)) := (slotM s).view.set

theorem Is_disjoint (s s' : Fin 8) (h : s ≠ s') : Disjoint (Is c s) (Is c s') := slots_disjoint s s' h

theorem slots_cover : (Finset.univ : Finset (Fin 8)).biUnion (Is c) = Finset.univ := by
  have := Ring.lead_cover (s := S8x8x384x384) (NB := 8) (0 : Fin 4) 1 (fun b : Fin 8 => ![b.val, 0, 0, 0]) S1x8x384x384.size
    (fun b => inbSlot b) (fun b => by show b.val = 1 * b.val; omega)
    (fun b a ha => by fin_cases a <;> first | exact absurd rfl ha | rfl) rfl
    (fun a ha => by fin_cases a <;> first | exact absurd rfl ha | rfl) rfl
  rw [← this]
  exact Finset.biUnion_congr rfl fun s _ => slot_set s

/-! ## What the output reads after the body -/

theorem pc_mem_pcs (x3v : Buf (Elt F) ((Memref.whole main_v0).view.loc (T c : Thread nD τ))) :
    ∀ (n b : ℕ), b < n → pc c x3v b ∈ pcs c x3v n
  | 0, b, h => absurd h (Nat.not_lt_zero _)
  | n + 1, b, h => by
    rcases Nat.lt_succ_iff_lt_or_eq.mp h with h | rfl
    · exact List.mem_cons_of_mem _ (pc_mem_pcs x3v n b h)
    · exact List.mem_cons_self ..

/-- Every row of the output lies in the piece of its slab: row r in slab r / 8's. -/
theorem pcs_cover (x3v : Buf (Elt F) ((Memref.whole main_v0).view.loc (T c : Thread nD τ))) (y : S576x1x1.Idx) :
    ∃ p ∈ pcs c x3v 72, y ∈ p.1.set := by
  have hy : (y 0).val < 576 := (y 0).isLt
  have hb : (y 0).val / 8 < 72 := by omega
  refine ⟨pc c x3v ((y 0).val / 8), pc_mem_pcs c x3v 72 _ hb, ?_⟩
  show y ∈ (Rect.unit (s := S576x1x1) ![8 * (((y 0).val / 8) % 72), 0, 0] S8x1x1.size (inbRow _)).set
  rw [Rect.mem_set_unit]
  intro a; fin_cases a
  · show 8 * (((y 0).val / 8) % 72) ≤ (y 0).val ∧ (y 0).val < 8 * (((y 0).val / 8) % 72) + 8
    rw [Nat.mod_eq_of_lt hb]; omega
  · have h1 : (y 1).val < 1 := (y 1).isLt
    show 0 ≤ (y 1).val ∧ (y 1).val < 0 + 1; omega
  · have h2 : (y 2).val < 1 := (y 2).isLt
    show 0 ≤ (y 2).val ∧ (y 2).val < 0 + 1; omega

/-- The plane sums as the pool leaves them: row 8b + i is the i-th of the eight sums the pool computes of slab b. -/
def tcVal (x3v : Buf (Elt F) ((Memref.whole main_v0).view.loc (T c : Thread nD τ))) : S576x1x1.Idx → Elt F .f32 :=
  View.canon (pcs c x3v 72)

theorem read_out (x3v : Buf (Elt F) ((Memref.whole main_v0).view.loc (T c : Thread nD τ)))
    (arg1 : Memref sig .tc .vmem S576x1x1 .f32) (fo : Buf (Elt F) (arg1.view.loc (T c : Thread nD τ))) :
    arg1.view.read (Elt F) (arg1.view.writes (Elt F) fo (pcs c x3v 72)) = tcVal c x3v :=
  View.read_writes_eq_canon arg1.view fo _ (pcs_cover c x3v)

/-! ## The ring's parts out of what the region hands the body, and back -/

theorem sems_eight :
    (Pipeline.ownSems0 (Ix := HIx 1) (Val := Elt F) (Name := ℕ) (U := UU) (Lvl := ℕ) osem0 c : sProp 𝕄)
      = iprop(semVal ((T c : Thread nD τ), osem0 (ix1 (0 : Fin 8))) 0
        ∗ semVal ((T c : Thread nD τ), osem0 (ix1 (1 : Fin 8))) 0
        ∗ semVal ((T c : Thread nD τ), osem0 (ix1 (2 : Fin 8))) 0
        ∗ semVal ((T c : Thread nD τ), osem0 (ix1 (3 : Fin 8))) 0
        ∗ semVal ((T c : Thread nD τ), osem0 (ix1 (4 : Fin 8))) 0
        ∗ semVal ((T c : Thread nD τ), osem0 (ix1 (5 : Fin 8))) 0
        ∗ semVal ((T c : Thread nD τ), osem0 (ix1 (6 : Fin 8))) 0
        ∗ semVal ((T c : Thread nD τ), osem0 (ix1 (7 : Fin 8))) 0) :=
  bigSep_univ_eq_bigSepL [ix1 (0 : Fin 8), ix1 (1 : Fin 8), ix1 (2 : Fin 8), ix1 (3 : Fin 8), ix1 (4 : Fin 8), ix1 (5 : Fin 8), ix1 (6 : Fin 8), ix1 (7 : Fin 8)] (by decide) (by decide)
    (fun k => semVal ((T c : Thread nD τ), osem0 k) 0)

theorem slots_eight (fs : Buf (Elt F) ((T c : Thread nD τ).loc cc0_scratch0)) :
    (((T c : Thread nD τ).loc cc0_scratch0) ↦{fullShare} fs : sProp 𝕄)
      = iprop((((T c : Thread nD τ).loc cc0_scratch0) ↦[Is c 0]{fullShare} fs)
        ∗ (((T c : Thread nD τ).loc cc0_scratch0) ↦[Is c 1]{fullShare} fs)
        ∗ (((T c : Thread nD τ).loc cc0_scratch0) ↦[Is c 2]{fullShare} fs)
        ∗ (((T c : Thread nD τ).loc cc0_scratch0) ↦[Is c 3]{fullShare} fs)
        ∗ (((T c : Thread nD τ).loc cc0_scratch0) ↦[Is c 4]{fullShare} fs)
        ∗ (((T c : Thread nD τ).loc cc0_scratch0) ↦[Is c 5]{fullShare} fs)
        ∗ (((T c : Thread nD τ).loc cc0_scratch0) ↦[Is c 6]{fullShare} fs)
        ∗ (((T c : Thread nD τ).loc cc0_scratch0) ↦[Is c 7]{fullShare} fs)) := by
  rw [Ring.pointsTo_blocks (Is c) (Is_disjoint c) (slots_cover c) fs]
  exact bigSep_univ_eq_bigSepL [0, 1, 2, 3, 4, 5, 6, 7] (by decide) (by decide) _

theorem slots_eight_ex :
    (bigSep Finset.univ (fun s : Fin 8 => iprop(∃ f, ((T c : Thread nD τ).loc cc0_scratch0) ↦[Is c s]{fullShare} f)) : sProp 𝕄)
      = iprop((∃ f, ((T c : Thread nD τ).loc cc0_scratch0) ↦[Is c 0]{fullShare} f)
        ∗ (∃ f, ((T c : Thread nD τ).loc cc0_scratch0) ↦[Is c 1]{fullShare} f)
        ∗ (∃ f, ((T c : Thread nD τ).loc cc0_scratch0) ↦[Is c 2]{fullShare} f)
        ∗ (∃ f, ((T c : Thread nD τ).loc cc0_scratch0) ↦[Is c 3]{fullShare} f)
        ∗ (∃ f, ((T c : Thread nD τ).loc cc0_scratch0) ↦[Is c 4]{fullShare} f)
        ∗ (∃ f, ((T c : Thread nD τ).loc cc0_scratch0) ↦[Is c 5]{fullShare} f)
        ∗ (∃ f, ((T c : Thread nD τ).loc cc0_scratch0) ↦[Is c 6]{fullShare} f)
        ∗ (∃ f, ((T c : Thread nD τ).loc cc0_scratch0) ↦[Is c 7]{fullShare} f)) :=
  bigSep_univ_eq_bigSepL [0, 1, 2, 3, 4, 5, 6, 7] (by decide) (by decide) _

theorem toks_nine (q : PosShare TreeShare) (x3v : Buf (Elt F) ((Memref.whole main_v0).view.loc (T c : Thread nD τ))) :
    (bigSep Finset.univ (fun i : Fin 9 => ((Memref.whole main_v0).view.loc (T c : Thread nD τ) ↦[Finset.univ]{shareTok q 9 i} x3v)) : sProp 𝕄)
      = iprop(((Memref.whole main_v0).view.loc (T c : Thread nD τ) ↦[Finset.univ]{shareTok q 9 0} x3v)
        ∗ ((Memref.whole main_v0).view.loc (T c : Thread nD τ) ↦[Finset.univ]{shareTok q 9 1} x3v)
        ∗ ((Memref.whole main_v0).view.loc (T c : Thread nD τ) ↦[Finset.univ]{shareTok q 9 2} x3v)
        ∗ ((Memref.whole main_v0).view.loc (T c : Thread nD τ) ↦[Finset.univ]{shareTok q 9 3} x3v)
        ∗ ((Memref.whole main_v0).view.loc (T c : Thread nD τ) ↦[Finset.univ]{shareTok q 9 4} x3v)
        ∗ ((Memref.whole main_v0).view.loc (T c : Thread nD τ) ↦[Finset.univ]{shareTok q 9 5} x3v)
        ∗ ((Memref.whole main_v0).view.loc (T c : Thread nD τ) ↦[Finset.univ]{shareTok q 9 6} x3v)
        ∗ ((Memref.whole main_v0).view.loc (T c : Thread nD τ) ↦[Finset.univ]{shareTok q 9 7} x3v)
        ∗ ((Memref.whole main_v0).view.loc (T c : Thread nD τ) ↦[Finset.univ]{shareTok q 9 8} x3v)) :=
  bigSep_univ_eq_bigSepL [0, 1, 2, 3, 4, 5, 6, 7, 8] (by decide) (by decide) _

set_option maxHeartbeats 1600000 in
/-- The eight semaphores at zero, the scratch buffer whole and the planes at share q make the ring all free, leaving
    what remains of the share and the token never lent. -/
theorem ring_intro (q : PosShare TreeShare) (x3v : Buf (Elt F) ((Memref.whole main_v0).view.loc (T c : Thread nD τ)))
    (fs : Buf (Elt F) ((T c : Thread nD τ).loc cc0_scratch0)) :
    iprop((Pipeline.ownSems0 (Ix := HIx 1) (Val := Elt F) (Name := ℕ) (U := UU) (Lvl := ℕ) osem0 c : sProp 𝕄)
        ∗ (((T c : Thread nD τ).loc cc0_scratch0) ↦{fullShare} fs)
        ∗ ((Memref.whole main_v0).view.loc (T c : Thread nD τ) ↦[Finset.univ]{q} x3v))
      ⊢ iprop(Ring.AtW (σ := fun _ => Option ℕ) (Φ c q x3v) (fun _ => none)
          ∗ ((Memref.whole main_v0).view.loc (T c : Thread nD τ) ↦[Finset.univ]{shareDrop q 9} x3v)
          ∗ ((Memref.whole main_v0).view.loc (T c : Thread nD τ) ↦[Finset.univ]{shareTok q 9 0} x3v)) := by
  rw [ring_free_eq, sems_eight, slots_eight c fs]
  unfold freeAt
  iintro ⟨⟨S0, S1, S2, S3, S4, S5, S6, S7⟩, ⟨B0, B1, B2, B3, B4, B5, B6, B7⟩, Hx⟩
  ihave Hx := (pointsTo_toks_split q 9) $$ Hx
  icases Hx with ⟨Hrem, Htoks⟩
  ihave Htoks := (Entails.of_eq (toks_nine c q x3v)) $$ Htoks
  icases Htoks with ⟨T0, T1, T2, T3, T4, T5, T6, T7, T8⟩
  isplitl [S0 B0 T1 S1 B1 T2 S2 B2 T3 S3 B3 T4 S4 B4 T5 S5 B5 T6 S6 B6 T7 S7 B7 T8]
  · isplitl [S0 B0 T1]
    · isplitl [S0]; · iexact S0
      isplitl [B0]; · iexists fs; iexact B0
      iexact T1
    isplitl [S1 B1 T2]
    · isplitl [S1]; · iexact S1
      isplitl [B1]; · iexists fs; iexact B1
      iexact T2
    isplitl [S2 B2 T3]
    · isplitl [S2]; · iexact S2
      isplitl [B2]; · iexists fs; iexact B2
      iexact T3
    isplitl [S3 B3 T4]
    · isplitl [S3]; · iexact S3
      isplitl [B3]; · iexists fs; iexact B3
      iexact T4
    isplitl [S4 B4 T5]
    · isplitl [S4]; · iexact S4
      isplitl [B4]; · iexists fs; iexact B4
      iexact T5
    isplitl [S5 B5 T6]
    · isplitl [S5]; · iexact S5
      isplitl [B5]; · iexists fs; iexact B5
      iexact T6
    isplitl [S6 B6 T7]
    · isplitl [S6]; · iexact S6
      isplitl [B6]; · iexists fs; iexact B6
      iexact T7
    isplitl [S7]; · iexact S7
    isplitl [B7]; · iexists fs; iexact B7
    iexact T8
  isplitl [Hrem]; · iexact Hrem
  iexact T0

set_option maxHeartbeats 1600000 in
/-- The ring all free, with what remained of the share and the token never lent, gives back the eight semaphores at
    zero, the scratch buffer whole at some contents and the planes at share q. -/
theorem ring_elim (q : PosShare TreeShare) (x3v : Buf (Elt F) ((Memref.whole main_v0).view.loc (T c : Thread nD τ)))
    (f₀ : Buf (Elt F) ((T c : Thread nD τ).loc cc0_scratch0)) :
    iprop(Ring.AtW (σ := fun _ => Option ℕ) (Φ c q x3v) (fun _ => none)
        ∗ ((Memref.whole main_v0).view.loc (T c : Thread nD τ) ↦[Finset.univ]{shareDrop q 9} x3v)
        ∗ ((Memref.whole main_v0).view.loc (T c : Thread nD τ) ↦[Finset.univ]{shareTok q 9 0} x3v))
      ⊢ iprop((Pipeline.ownSems0 (Ix := HIx 1) (Val := Elt F) (Name := ℕ) (U := UU) (Lvl := ℕ) osem0 c : sProp 𝕄)
          ∗ (∃ g, ((T c : Thread nD τ).loc cc0_scratch0) ↦{fullShare} g)
          ∗ ((Memref.whole main_v0).view.loc (T c : Thread nD τ) ↦[Finset.univ]{q} x3v)) := by
  rw [ring_free_eq, sems_eight]
  unfold freeAt
  iintro ⟨⟨⟨S0, ⟨%g0, B0⟩, T1⟩, ⟨S1, ⟨%g1, B1⟩, T2⟩, ⟨S2, ⟨%g2, B2⟩, T3⟩, ⟨S3, ⟨%g3, B3⟩, T4⟩, ⟨S4, ⟨%g4, B4⟩, T5⟩, ⟨S5, ⟨%g5, B5⟩, T6⟩, ⟨S6, ⟨%g6, B6⟩, T7⟩, S7, ⟨%g7, B7⟩, T8⟩, Hrem, T0⟩
  isplitl [S0 S1 S2 S3 S4 S5 S6 S7]
  · isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  isplitl [B0 B1 B2 B3 B4 B5 B6 B7]
  · iapply (Ring.pointsTo_blocks_join_exists (Is c) (Is_disjoint c) (slots_cover c) f₀)
    rw [slots_eight_ex]
    isplitl [B0]; · iexists g0; iexact B0
    isplitl [B1]; · iexists g1; iexact B1
    isplitl [B2]; · iexists g2; iexact B2
    isplitl [B3]; · iexists g3; iexact B3
    isplitl [B4]; · iexists g4; iexact B4
    isplitl [B5]; · iexists g5; iexact B5
    isplitl [B6]; · iexists g6; iexact B6
    iexists g7; iexact B7
  · iapply (pointsTo_toks_join q 9)
    isplitl [Hrem]; · iexact Hrem
    rw [toks_nine]
    isplitl [T0]; · iexact T0
    isplitl [T1]; · iexact T1
    isplitl [T2]; · iexact T2
    isplitl [T3]; · iexact T3
    isplitl [T4]; · iexact T4
    isplitl [T5]; · iexact T5
    isplitl [T6]; · iexact T6
    isplitl [T7]; · iexact T7
    iexact T8

end Bridge

/-! ## The pool's body as the region takes it -/

set_option maxHeartbeats 3200000 in
/-- The pooling body at the region's one point: the region hands it the planes whole, its eight semaphores at zero,
    the TensorCore's other scoped buffers and the output's staging buffer at any contents; it gives them back with the
    staging buffer reading the plane sums. -/
theorem tcRun (m : (ℓ : Loc nD τ sig) → Buf (Elt F) ℓ) : Cert.Proof.KI.TcRun (F := F) m (fun c => tcVal c (x3v m c)) := by
  intro c O W hO
  unfold Φ0
  rw [Gen.scopedRest0_eq]
  iintro ⟨⟨#Hlv, Hx, Hsem, ⟨%fs, Hscr⟩, Hrest⟩, HO, %X, Hown⟩
  unfold owns
  icases Hown with ⟨%fo, -, Hout⟩
  ihave Hmw := ((K (F := F)).mayWaits_none (thr := T c) hO) $$ Hlv
  ihave HR := (ring_intro c fullShare (x3v m c) fs) $$ [Hsem Hscr Hx]
  · isplitl [Hsem]; · iexact Hsem
    isplitl [Hscr]; · iexact Hscr
    iexact Hx
  icases HR with ⟨HR, Hrem, Ht0⟩
  -- the staging buffer is whole: its elements are all of its buffer's
  have hw : (st0_0 t0_0).view.set = Finset.univ := (hstage0_0 0).set_eq_univ
  rw [hw]
  iapply ((tcPool_core c fullShare (x3v m c) (st0_0 t0_0) (hstage0_0 0) fo O W).trans
    (wp_wand frame (wpE (defs₀ (F := F)) 𝒱₀ (T c) none) Set.univ)) $$ [HR Hout HO] [Hrest Hrem Ht0]
  · isplitr; · iexact Hmw
    isplitl [HR]; · iexact HR
    isplitl [Hout]; · iexact Hout
    iexact HO
  · iintro %_ ⟨HR, Hout, HO⟩
    ihave H := (ring_elim c fullShare (x3v m c) fs) $$ [HR Hrem Ht0]
    · isplitl [HR]; · iexact HR
      isplitl [Hrem]; · iexact Hrem
      iexact Ht0
    icases H with ⟨Hsem, ⟨%g, Hscr⟩, Hx⟩
    isplitl [Hx Hsem Hscr Hrest]
    · isplitr; · iexact Hlv
      isplitl [Hx]; · iexact Hx
      isplitl [Hsem]; · iexact Hsem
      isplitl [Hscr]; · iexists g; iexact Hscr
      iexact Hrest
    isplitl [HO]; · iexact HO
    iexists _; isplitr
    · ipureintro; exact read_out c (x3v m c) (st0_0 t0_0) fo
    · iexact Hout

end Cert.Proof.KI.TcPool

end
-- ==== Proof.KI.ScPoolBase.lean ====
/-
  The pooling task of one vector subcore, part 1: the subcore's storage and the invariant of its loop over planes.

  Vector subcore (c, s) works as number w = 2 s + c. It sums planes 576 + 6 w + r, r < 6, of the 768 x 384 x 384 plane array,
  lane by lane. A plane comes in as six chunks of 64 rows, each copied into one of three 64 x 384 buffers on that buffer's own
  semaphore, two chunks ahead of the one being summed: so at most one copy is outstanding per semaphore, and up to three copies
  read the plane array at once. The subcore's read share of the plane array is therefore cut into three read tokens, one per
  semaphore (numbered as the semaphores are: 9, 10, 11), and a remainder it never lends. Between planes, chunks 0 and 1 of the
  next plane are on their way into buffers 0 and 1 (nothing is, after the last plane), and buffer 2 is free.
-/
import proofs.«215010_g72713796321855_cont_9to1c4b_299_31_alg».proof.Proof.KI.Common
import proofs.«215010_g72713796321855_cont_9to1c4b_299_31_alg».proof.Proof.Gen.KernelIdeal.Skeleton

noncomputable section

namespace Cert.Proof.KI.ScPool

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareTokN shareDrop)
open Idealize.ShloMosaic.Tactic

variable {F : FTy → Type}

local notation "𝕄" => MT nD τ sig (HIx 1) (Elt F) ℕ UU ℕ

local notation "x3M" => (Memref.whole Cert.KernelIdeal.main_v0_scv : Memref Cert.KernelIdeal.sig Kind.scVector Space.hbm Cert.KernelIdeal.S768x384x384 EltTy.f32)
local notation "oM" => (Memref.whole Cert.KernelIdeal.main_v2_scv : Memref Cert.KernelIdeal.sig Kind.scVector Space.hbm Cert.KernelIdeal.S3072 EltTy.f32)
local notation "b0M" => (Memref.whole Cert.KernelIdeal.cc1_scratch0 : Memref Cert.KernelIdeal.sig Kind.scVector Space.vmem Cert.KernelIdeal.S64x384 EltTy.f32)
local notation "b1M" => (Memref.whole Cert.KernelIdeal.cc1_scratch1 : Memref Cert.KernelIdeal.sig Kind.scVector Space.vmem Cert.KernelIdeal.S64x384 EltTy.f32)
local notation "b2M" => (Memref.whole Cert.KernelIdeal.cc1_scratch2 : Memref Cert.KernelIdeal.sig Kind.scVector Space.vmem Cert.KernelIdeal.S64x384 EltTy.f32)
local notation "prM" => (Memref.whole Cert.KernelIdeal.cc1_scratch3 : Memref Cert.KernelIdeal.sig Kind.scVector Space.vmem Cert.KernelIdeal.S96 EltTy.f32)

variable (x3v : (d : Dev nD) → Buf (Elt F) (x3Loc d))

section Tile

variable (d : Dev nD) (L : grid1.Coords)

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
abbrev cL (L : grid1.Coords) : Fin 2 := Fin.cast bound_zero (L 0)
abbrev sL (L : grid1.Coords) : Fin 16 := Fin.cast bound_one (L 1)

/-- The 96 words of the partials array the tile's last copy writes, as the program slices them. -/
abbrev outK (L : grid1.Coords) : Memref sig .scVector .hbm S96 .f32 :=
  (oM).slice (Rect.unit (s := S3072) (k1_off155 L) S96.size (k1_off155_inb L)) (fun _ => rfl)

abbrev c8cell : GSem nD τ sig := (V d (cV L) (jV L), .dma cc1_scratch4.sem)
abbrev c9cell : GSem nD τ sig := (V d (cV L) (jV L), .dma cc1_scratch5.sem)
abbrev c10cell : GSem nD τ sig := (V d (cV L) (jV L), .dma cc1_scratch6.sem)
abbrev cRcell : GSem nD τ sig := (V d (cV L) (jV L), .dma cc1_scoped0.sem)

theorem ownSems0_V :
    (ownSems0 (V d (cV L) (jV L)) : sProp 𝕄)
      = iprop(semVal (c8cell d L) 0 ∗ semVal (c9cell d L) 0 ∗ semVal (c10cell d L) 0 ∗ semVal (cRcell d L) 0
          ∗ bigSep (((((ownCells (V d (cV L) (jV L))).erase (c8cell d L)).erase (c9cell d L)).erase (c10cell d L)).erase (cRcell d L))
              fun g => semVal g 0) := by
  unfold SparseCore.Cfg.ownSems0
  rw [SparseCore.bigSep_erase' ((mem_ownCells (g := c8cell d L)).mpr ⟨rfl, by
      show (SemLoc.dma cc1_scratch4.sem : SemLoc sig).isScoped .scVector = true; decide⟩),
    SparseCore.bigSep_erase' (Finset.mem_erase.mpr ⟨fun e => absurd (congrArg Prod.snd e) (show (SemLoc.dma cc1_scratch5.sem : SemLoc sig) ≠ SemLoc.dma cc1_scratch4.sem by decide),
      (mem_ownCells (g := c9cell d L)).mpr ⟨rfl, by show (SemLoc.dma cc1_scratch5.sem : SemLoc sig).isScoped .scVector = true; decide⟩⟩),
    SparseCore.bigSep_erase' (Finset.mem_erase.mpr ⟨fun e => absurd (congrArg Prod.snd e) (show (SemLoc.dma cc1_scratch6.sem : SemLoc sig) ≠ SemLoc.dma cc1_scratch5.sem by decide),
      Finset.mem_erase.mpr ⟨fun e => absurd (congrArg Prod.snd e) (show (SemLoc.dma cc1_scratch6.sem : SemLoc sig) ≠ SemLoc.dma cc1_scratch4.sem by decide),
      (mem_ownCells (g := c10cell d L)).mpr ⟨rfl, by show (SemLoc.dma cc1_scratch6.sem : SemLoc sig).isScoped .scVector = true; decide⟩⟩⟩),
    SparseCore.bigSep_erase' (Finset.mem_erase.mpr ⟨fun e => absurd (congrArg Prod.snd e) (show (SemLoc.dma cc1_scoped0.sem : SemLoc sig) ≠ SemLoc.dma cc1_scratch6.sem by decide),
      Finset.mem_erase.mpr ⟨fun e => absurd (congrArg Prod.snd e) (show (SemLoc.dma cc1_scoped0.sem : SemLoc sig) ≠ SemLoc.dma cc1_scratch5.sem by decide),
      Finset.mem_erase.mpr ⟨fun e => absurd (congrArg Prod.snd e) (show (SemLoc.dma cc1_scoped0.sem : SemLoc sig) ≠ SemLoc.dma cc1_scratch4.sem by decide),
      (mem_ownCells (g := cRcell d L)).mpr ⟨rfl, by show (SemLoc.dma cc1_scoped0.sem : SemLoc sig).isScoped .scVector = true; decide⟩⟩⟩⟩)]

/-- The four scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f)
          ∗ bigSep (((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2)).erase
              ((Proc.scVector (cV L) (jV L)).devRef cc1_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩),
    SparseCore.bigSep_erase' (Finset.mem_erase.mpr ⟨fun e => absurd (Proc.devRef_injective _ e) (show (cc1_scratch3 : Ref sig .scVector) ≠ cc1_scratch2 by decide),
      Finset.mem_erase.mpr ⟨fun e => absurd (Proc.devRef_injective _ e) (show (cc1_scratch3 : Ref sig .scVector) ≠ cc1_scratch1 by decide),
      Finset.mem_erase.mpr ⟨fun e => absurd (Proc.devRef_injective _ e) (show (cc1_scratch3 : Ref sig .scVector) ≠ cc1_scratch0 by decide),
    SparseCore.Cfg.mem_ownRefs_of_owner (p := Proc.scVector (cV L) (jV L)) (b := (Proc.scVector (cV L) (jV L)).devRef cc1_scratch3) rfl⟩⟩⟩)]

/-- A read share of an array as three read tokens, numbered as the three chunk semaphores are, and what is left. -/
theorem toks_split {ℓ : Loc nD τ sig} {S : Finset (Idx ℓ)} {f : Buf (Elt F) ℓ} (q : PosShare TreeShare) :
    (ℓ ↦[S]{q} f : sProp 𝕄) ⊣⊢ iprop(((ℓ ↦[S]{shareDrop q 12} f) ∗ BI.bigSep (Finset.range 9) (fun i => ℓ ↦[S]{shareTokN q i} f))
        ∗ (ℓ ↦[S]{shareTokN q 9} f) ∗ (ℓ ↦[S]{shareTokN q 10} f) ∗ (ℓ ↦[S]{shareTokN q 11} f)) := by
  have h9 := Transfers.pointsTo_toks_range (ℓ := ℓ) (S := S) (f := f) (U := UU) (Name := ℕ) (Lvl := ℕ) (Ix := HIx 1) q 9
  have hs : ∀ k, (ℓ ↦[S]{shareDrop q k} f : sProp 𝕄) ⊣⊢ iprop((ℓ ↦[S]{shareDrop q (k + 1)} f) ∗ ℓ ↦[S]{shareTokN q k} f) :=
    fun k => pointsTo_share (PosShare.mem_left_op_right _)
  constructor
  · iintro H
    ihave H := h9.1 $$ H
    icases H with ⟨Hd, Hr⟩
    ihave Hd := (hs 9).1 $$ Hd
    icases Hd with ⟨Hd, H9⟩
    ihave Hd := (hs 10).1 $$ Hd
    icases Hd with ⟨Hd, H10⟩
    ihave Hd := (hs 11).1 $$ Hd
    icases Hd with ⟨Hd, H11⟩
    isplitl [Hd Hr]; · isplitl [Hd] <;> iassumption
    isplitl [H9]; · iexact H9
    isplitl [H10] <;> iassumption
  · iintro ⟨⟨Hd, Hr⟩, H9, H10, H11⟩
    iapply h9.2
    isplitl [Hd H9 H10 H11]
    · iapply (hs 9).2
      isplitl [Hd H10 H11]
      · iapply (hs 10).2
        isplitl [Hd H11]
        · iapply (hs 11).2
          isplitl [Hd] <;> iassumption
        · iexact H10
      · iexact H9
    · iexact Hr

theorem pts_x3 (q : PosShare TreeShare) (f : Buf (Elt F) (x3Loc d)) :
    ((x3M).view.loc (V d (cV L) (jV L)) ↦{q} f : sProp 𝕄) = x3Loc d ↦{q} f := by
  simp only [Memref.view_whole, View.set_whole]
theorem pts_b0 (f : Buf (Elt F) ((V d (cV L) (jV L)).loc cc1_scratch0)) :
    ((b0M).view.loc (V d (cV L) (jV L)) ↦{fullShare} f : sProp 𝕄) = (V d (cV L) (jV L)).loc cc1_scratch0 ↦{fullShare} f := rfl
theorem pts_b1 (f : Buf (Elt F) ((V d (cV L) (jV L)).loc cc1_scratch1)) :
    ((b1M).view.loc (V d (cV L) (jV L)) ↦{fullShare} f : sProp 𝕄) = (V d (cV L) (jV L)).loc cc1_scratch1 ↦{fullShare} f := rfl
theorem pts_b2 (f : Buf (Elt F) ((V d (cV L) (jV L)).loc cc1_scratch2)) :
    ((b2M).view.loc (V d (cV L) (jV L)) ↦{fullShare} f : sProp 𝕄) = (V d (cV L) (jV L)).loc cc1_scratch2 ↦{fullShare} f := rfl
theorem pts_pr (f : Buf (Elt F) ((V d (cV L) (jV L)).loc cc1_scratch3)) :
    ((prM).view.loc (V d (cV L) (jV L)) ↦{fullShare} f : sProp 𝕄) = (V d (cV L) (jV L)).loc cc1_scratch3 ↦{fullShare} f := rfl

variable [FloatOps F] [Named F]

abbrev qT (L : grid1.Coords) : PosShare TreeShare := tileShare (cL L) (sL L)

/-- A chunk on its way into a buffer on its semaphore: the wait hands back the buffer at some contents and the elements the read
    token lent; what the token keeps meanwhile is held beside it. -/
def inFlight (sm : DmaSem sig) (bM : Memref sig .scVector .vmem S64x384 .f32) (tk : ℕ) : sProp 𝕄 :=
  iprop(∃ (S : Finset (Idx ((x3M).view.loc (V d (cV L) (jV L))))) (fb : Buf (Elt F) (bM.view.loc (V d (cV L) (jV L)))),
    Transfers.Flight countersEmb (V d (cV L) (jV L)) (SemLoc.dma sm) (default : HIx 1) 786432
        iprop((bM.view.loc (V d (cV L) (jV L)) ↦{fullShare} fb) ∗ ((x3M).view.loc (V d (cV L) (jV L)) ↦[S]{shareTokN (qT L) tk} x3v d))
      ∗ ((x3M).view.loc (V d (cV L) (jV L)) ↦[Finset.univ \ S]{shareTokN (qT L) tk} x3v d))

/-- Nothing on its way: the semaphore at zero, the buffer at some contents, the read token whole. -/
def idle (sm : DmaSem sig) (bM : Memref sig .scVector .vmem S64x384 .f32) (tk : ℕ) : sProp 𝕄 :=
  iprop(semVal ((V d (cV L) (jV L)), SemLoc.dma sm) 0 ∗ (∃ fb : Buf (Elt F) (bM.view.loc (V d (cV L) (jV L))), bM.view.loc (V d (cV L) (jV L)) ↦{fullShare} fb)
    ∗ ((x3M).view.loc (V d (cV L) (jV L)) ↦{shareTokN (qT L) tk} x3v d))

/-- Before plane k: chunks 0 and 1 of the plane are on their way into buffers 0 and 1 (after the last plane, nothing is); buffer 2
    is free; the lane-sum row at some contents; the waits recorded so far are at no index. -/
def inv (O : CellTallies nD τ sig (HIx 1)) (W : Waits sig (HIx 1)) (k : ℕ) (_ : Unit) : sProp 𝕄 :=
  iprop(Transfers.MayWaits (V d (cV L) (jV L)) (none : HIx 1) O
    ∗ (if k < 6 then iprop(inFlight x3v d L ⟨9, by decide⟩ b0M 9 ∗ inFlight x3v d L ⟨10, by decide⟩ b1M 10)
        else iprop(idle x3v d L ⟨9, by decide⟩ b0M 9 ∗ idle x3v d L ⟨10, by decide⟩ b1M 10))
    ∗ idle x3v d L ⟨11, by decide⟩ b2M 11
    ∗ (∃ fp : Buf (Elt F) ((prM).view.loc (V d (cV L) (jV L))), (prM).view.loc (V d (cV L) (jV L)) ↦{fullShare} fp)
    ∗ ∃ W', ⌜∀ p ∈ W', p ∈ W ∨ p.2 = none⌝ ∗ owes (V d (cV L) (jV L)) O W')

theorem waits_ok {W W' : Waits sig (HIx 1)} (h : ∀ p ∈ W', p ∈ W ∨ p.2 = none) {sm : SemLoc sig} :
    ∀ p ∈ insert (sm, (default : HIx 1)) W', p ∈ W ∨ p.2 = none := by
  intro p hp
  rcases Finset.mem_insert.mp hp with rfl | hp
  · exact .inr rfl
  · exact h p hp

theorem buf_ex {ℓ : Loc nD τ sig} {f : Buf (Elt F) ℓ} : (ℓ ↦{fullShare} f : sProp 𝕄) ⊢ iprop(∃ g, ℓ ↦{fullShare} g) := by
  iintro H; iexists _; iexact H

theorem inv_lt (O : CellTallies nD τ sig (HIx 1)) (W : Waits sig (HIx 1)) {k : ℕ} (h : k < 6) (u : Unit) :
    inv x3v d L O W k u = iprop(Transfers.MayWaits (V d (cV L) (jV L)) (none : HIx 1) O
      ∗ (inFlight x3v d L ⟨9, by decide⟩ b0M 9 ∗ inFlight x3v d L ⟨10, by decide⟩ b1M 10)
      ∗ idle x3v d L ⟨11, by decide⟩ b2M 11
      ∗ (∃ fp : Buf (Elt F) ((prM).view.loc (V d (cV L) (jV L))), (prM).view.loc (V d (cV L) (jV L)) ↦{fullShare} fp)
      ∗ ∃ W', ⌜∀ p ∈ W', p ∈ W ∨ p.2 = none⌝ ∗ owes (V d (cV L) (jV L)) O W') := by
  unfold inv; rw [if_pos h]

theorem inv_ge (O : CellTallies nD τ sig (HIx 1)) (W : Waits sig (HIx 1)) {k : ℕ} (h : ¬ k < 6) (u : Unit) :
    inv x3v d L O W k u = iprop(Transfers.MayWaits (V d (cV L) (jV L)) (none : HIx 1) O
      ∗ (idle x3v d L ⟨9, by decide⟩ b0M 9 ∗ idle x3v d L ⟨10, by decide⟩ b1M 10)
      ∗ idle x3v d L ⟨11, by decide⟩ b2M 11
      ∗ (∃ fp : Buf (Elt F) ((prM).view.loc (V d (cV L) (jV L))), (prM).view.loc (V d (cV L) (jV L)) ↦{fullShare} fp)
      ∗ ∃ W', ⌜∀ p ∈ W', p ∈ W ∨ p.2 = none⌝ ∗ owes (V d (cV L) (jV L)) O W') := by
  unfold inv; rw [if_neg h]

theorem cond5_iff : ∀ k : Fin k1_t1_loop.trips, (k1_cond5 k = 1#1 ↔ k.val + 1 < 6) := by decide +kernel
theorem cond6_iff : ∀ k : Fin k1_t1_loop.trips, (k1_cond6 k = 1#1 ↔ k.val + 1 < 6) := by decide +kernel

theorem rest_pos {ℓ : Loc nD τ sig} {C : Prop} [Decidable C] {R : C → Finset (Idx ℓ)} {q : PosShare TreeShare} {f : Buf (Elt F) ℓ} (h : C) :
    (ℓ ↦[Finset.univ \ gset C R]{q} f : sProp 𝕄) ⊢ (ℓ ↦[Finset.univ \ R h]{q} f) := by rw [gset.pos h]
theorem rest_neg {ℓ : Loc nD τ sig} {C : Prop} [Decidable C] {R : C → Finset (Idx ℓ)} {q : PosShare TreeShare} {f : Buf (Elt F) ℓ} (h : ¬C) :
    (ℓ ↦[Finset.univ \ gset C R]{q} f : sProp 𝕄) ⊢ (ℓ ↦{q} f) := by rw [gset.neg h, Finset.sdiff_empty]

theorem set_outK : (outK L).view.set = outSet (wid (cL L) (sL L)) := by
  show ((View.whole (main_v2_scv : Ref sig .scVector)).slice (Rect.unit (s := S3072) (k1_off155 L) S96.size (k1_off155_inb L))).set = _
  rw [View.set_slice_whole]
  ext j
  rw [Rect.mem_set_unit]
  simp only [outSet, Finset.mem_filter, Finset.mem_univ, true_and, k1_off155_eq]
  constructor
  · intro h
    have h0 := h 0
    simp [wid] at h0 ⊢
    omega
  · intro h a
    have ha : a = 0 := Fin.ext (Nat.lt_one_iff.mp a.isLt)
    subst ha
    simp [wid] at h ⊢
    omega

theorem pts_out (f : Buf (Elt F) (pLoc d)) :
    ((outK L).view.loc (V d (cV L) (jV L)) ↦[(outK L).view.set]{fullShare} f : sProp 𝕄) = pLoc d ↦[outSet (wid (cL L) (sL L))]{fullShare} f := by
  rw [set_outK]

end Tile

end Cert.Proof.KI.ScPool

end
-- ==== Proof.KI.ScVal.lean ====
/-
  What one vector subcore computes, as pure functions of the plane array's contents.

  A plane p of the 768 x 384 x 384 array is read as six chunks of 64 rows. A chunk's row j is twenty-four 16-lane vectors (columns
  16 c .. 16 c + 15, c < 24); adding a row puts vector c into accumulator c mod 8, in the order c = a, a + 8, a + 16 for
  accumulator a. A plane's eight accumulators start at zero, take the 384 rows chunk after chunk, and are summed as
  ((a0 + a1) + (a2 + a3)) + ((a4 + a5) + (a6 + a7)) to sixteen lane sums. Word j of the partials array is lane j mod 16 of plane
  576 + j / 16.

  The six chunks of a plane pass through three buffers in turn (chunk h through buffer h mod 3), and the program reads each with
  its own offset functions, so the row step is written once per chunk position (step2 .. step7) over the program's own load
  rectangles and payloads; all six are the same function of the chunk's contents.
-/
import proofs.«215010_g72713796321855_cont_9to1c4b_299_31_alg».proof.Proof.KI.Common
import proofs.«215010_g72713796321855_cont_9to1c4b_299_31_alg».proof.Proof.Gen.KernelIdeal.Skeleton
import Idealize.ShloMosaic.Lib.ValueIdx

noncomputable section

namespace Cert.Proof.KI.ScVal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareTokN shareDrop)
open Idealize.ShloMosaic.Tactic

variable {F : FTy → Type}

local notation "𝕄" => MT nD τ sig (HIx 1) (Elt F) ℕ UU ℕ

local notation "x3M" => (Memref.whole Cert.KernelIdeal.main_v0_scv : Memref Cert.KernelIdeal.sig Kind.scVector Space.hbm Cert.KernelIdeal.S768x384x384 EltTy.f32)
local notation "oM" => (Memref.whole Cert.KernelIdeal.main_v2_scv : Memref Cert.KernelIdeal.sig Kind.scVector Space.hbm Cert.KernelIdeal.S3072 EltTy.f32)
local notation "b0M" => (Memref.whole Cert.KernelIdeal.cc1_scratch0 : Memref Cert.KernelIdeal.sig Kind.scVector Space.vmem Cert.KernelIdeal.S64x384 EltTy.f32)
local notation "b1M" => (Memref.whole Cert.KernelIdeal.cc1_scratch1 : Memref Cert.KernelIdeal.sig Kind.scVector Space.vmem Cert.KernelIdeal.S64x384 EltTy.f32)
local notation "b2M" => (Memref.whole Cert.KernelIdeal.cc1_scratch2 : Memref Cert.KernelIdeal.sig Kind.scVector Space.vmem Cert.KernelIdeal.S64x384 EltTy.f32)
local notation "prM" => (Memref.whole Cert.KernelIdeal.cc1_scratch3 : Memref Cert.KernelIdeal.sig Kind.scVector Space.vmem Cert.KernelIdeal.S96 EltTy.f32)

variable [FloatOps F] [Named F]

/-- Eight 16-lane accumulators. -/
abbrev Acc8 (F : FTy → Type) : Type := FVec F S16 .f32 × FVec F S16 .f32 × FVec F S16 .f32 × FVec F S16 .f32 × FVec F S16 .f32 × FVec F S16 .f32 × FVec F S16 .f32 × FVec F S16 .f32

/-- One 16-lane vector loaded from a 64 x 384 buffer at the given row and column offsets. -/
def rd (bM : Memref sig .scVector .vmem S64x384 .f32) (fb : bM.view.ty.Contents (Elt F)) (off : Fin 2 → ℕ)
    (inb : ∀ a, off a + S1x16.size a ≤ S64x384.size a) : Vec F S1x16 .f32 :=
  View.readAt (Elt F) bM.view (Rect.unit (s := S64x384) off S1x16.size inb).toLoadRect fb

/-- One row of the chunk in buffer `cc1_scratch0` added: the row's twenty-four 16-lane vectors, vector c into accumulator c mod 8. -/
def step2 (fb : (b0M).view.ty.Contents (Elt F)) (j : Fin k1_t2_loop.trips) (a : Acc8 F) : Acc8 F :=
  match a with
  | (arg13, arg14, arg15, arg16, arg17, arg18, arg19, arg20) =>
    let v92 := rd b0M fb (k1_off5 j) (k1_off5_inb j)
    let v96 := rd b0M fb (k1_off6 j) (k1_off6_inb j)
    let v100 := rd b0M fb (k1_off7 j) (k1_off7_inb j)
    let v104 := rd b0M fb (k1_off8 j) (k1_off8_inb j)
    let v108 := rd b0M fb (k1_off9 j) (k1_off9_inb j)
    let v112 := rd b0M fb (k1_off10 j) (k1_off10_inb j)
    let v116 := rd b0M fb (k1_off11 j) (k1_off11_inb j)
    let v120 := rd b0M fb (k1_off12 j) (k1_off12_inb j)
    let v124 := rd b0M fb (k1_off13 j) (k1_off13_inb j)
    let v128 := rd b0M fb (k1_off14 j) (k1_off14_inb j)
    let v132 := rd b0M fb (k1_off15 j) (k1_off15_inb j)
    let v106 := k1_pay3 arg16 v104
    let v110 := k1_pay4 arg17 v108
    let v114 := k1_pay5 arg18 v112
    let v118 := k1_pay6 arg19 v116
    let v122 := k1_pay7 arg20 v120
    let v126 := k1_pay8 arg13 v92 v124
    let v130 := k1_pay9 arg14 v96 v128
    let v134 := k1_pay10 arg15 v100 v132
    let v136 := rd b0M fb (k1_off16 j) (k1_off16_inb j)
    let v140 := rd b0M fb (k1_off17 j) (k1_off17_inb j)
    let v144 := rd b0M fb (k1_off18 j) (k1_off18_inb j)
    let v148 := rd b0M fb (k1_off19 j) (k1_off19_inb j)
    let v152 := rd b0M fb (k1_off20 j) (k1_off20_inb j)
    let v156 := rd b0M fb (k1_off21 j) (k1_off21_inb j)
    let v160 := rd b0M fb (k1_off22 j) (k1_off22_inb j)
    let v164 := rd b0M fb (k1_off23 j) (k1_off23_inb j)
    let v168 := rd b0M fb (k1_off24 j) (k1_off24_inb j)
    let v172 := rd b0M fb (k1_off25 j) (k1_off25_inb j)
    let v176 := rd b0M fb (k1_off26 j) (k1_off26_inb j)
    let v180 := rd b0M fb (k1_off27 j) (k1_off27_inb j)
    let v154 := k1_pay11 v122 v152
    let v158 := k1_pay12 v126 v156
    let v162 := k1_pay13 v130 v160
    let v166 := k1_pay14 v134 v164
    let v170 := k1_pay15 v106 v136 v168
    let v174 := k1_pay16 v110 v140 v172
    let v178 := k1_pay17 v114 v144 v176
    let v182 := k1_pay18 v118 v148 v180
    let v184 := rd b0M fb (k1_off28 j) (k1_off28_inb j)
    (v158, v162, v166, v170, v174, v178, v182, k1_pay100 v154 v184)

/-- The accumulators after the first j rows of the chunk. -/
def acc2 (fb : (b0M).view.ty.Contents (Elt F)) (init : Acc8 F) : ℕ → Acc8 F
  | 0 => init
  | j + 1 => if h : j < k1_t2_loop.trips then step2 fb ⟨j, h⟩ (acc2 fb init j) else acc2 fb init j

theorem acc2_succ (fb : (b0M).view.ty.Contents (Elt F)) (init : Acc8 F) (k : Fin k1_t2_loop.trips) :
    acc2 fb init (k.val + 1) = step2 fb k (acc2 fb init k.val) := by
  rw [acc2]; exact dif_pos k.isLt

/-- One row of the chunk in buffer `cc1_scratch1` added: the row's twenty-four 16-lane vectors, vector c into accumulator c mod 8. -/
def step3 (fb : (b1M).view.ty.Contents (Elt F)) (j : Fin k1_t3_loop.trips) (a : Acc8 F) : Acc8 F :=
  match a with
  | (arg13, arg14, arg15, arg16, arg17, arg18, arg19, arg20) =>
    let v92 := rd b1M fb (k1_off30 j) (k1_off30_inb j)
    let v96 := rd b1M fb (k1_off31 j) (k1_off31_inb j)
    let v100 := rd b1M fb (k1_off32 j) (k1_off32_inb j)
    let v104 := rd b1M fb (k1_off33 j) (k1_off33_inb j)
    let v108 := rd b1M fb (k1_off34 j) (k1_off34_inb j)
    let v112 := rd b1M fb (k1_off35 j) (k1_off35_inb j)
    let v116 := rd b1M fb (k1_off36 j) (k1_off36_inb j)
    let v120 := rd b1M fb (k1_off37 j) (k1_off37_inb j)
    let v124 := rd b1M fb (k1_off38 j) (k1_off38_inb j)
    let v128 := rd b1M fb (k1_off39 j) (k1_off39_inb j)
    let v132 := rd b1M fb (k1_off40 j) (k1_off40_inb j)
    let v106 := k1_pay19 arg16 v104
    let v110 := k1_pay20 arg17 v108
    let v114 := k1_pay21 arg18 v112
    let v118 := k1_pay22 arg19 v116
    let v122 := k1_pay23 arg20 v120
    let v126 := k1_pay24 arg13 v92 v124
    let v130 := k1_pay25 arg14 v96 v128
    let v134 := k1_pay26 arg15 v100 v132
    let v136 := rd b1M fb (k1_off41 j) (k1_off41_inb j)
    let v140 := rd b1M fb (k1_off42 j) (k1_off42_inb j)
    let v144 := rd b1M fb (k1_off43 j) (k1_off43_inb j)
    let v148 := rd b1M fb (k1_off44 j) (k1_off44_inb j)
    let v152 := rd b1M fb (k1_off45 j) (k1_off45_inb j)
    let v156 := rd b1M fb (k1_off46 j) (k1_off46_inb j)
    let v160 := rd b1M fb (k1_off47 j) (k1_off47_inb j)
    let v164 := rd b1M fb (k1_off48 j) (k1_off48_inb j)
    let v168 := rd b1M fb (k1_off49 j) (k1_off49_inb j)
    let v172 := rd b1M fb (k1_off50 j) (k1_off50_inb j)
    let v176 := rd b1M fb (k1_off51 j) (k1_off51_inb j)
    let v180 := rd b1M fb (k1_off52 j) (k1_off52_inb j)
    let v154 := k1_pay27 v122 v152
    let v158 := k1_pay28 v126 v156
    let v162 := k1_pay29 v130 v160
    let v166 := k1_pay30 v134 v164
    let v170 := k1_pay31 v106 v136 v168
    let v174 := k1_pay32 v110 v140 v172
    let v178 := k1_pay33 v114 v144 v176
    let v182 := k1_pay34 v118 v148 v180
    let v184 := rd b1M fb (k1_off53 j) (k1_off53_inb j)
    (v158, v162, v166, v170, v174, v178, v182, k1_pay101 v154 v184)

/-- The accumulators after the first j rows of the chunk. -/
def acc3 (fb : (b1M).view.ty.Contents (Elt F)) (init : Acc8 F) : ℕ → Acc8 F
  | 0 => init
  | j + 1 => if h : j < k1_t3_loop.trips then step3 fb ⟨j, h⟩ (acc3 fb init j) else acc3 fb init j

theorem acc3_succ (fb : (b1M).view.ty.Contents (Elt F)) (init : Acc8 F) (k : Fin k1_t3_loop.trips) :
    acc3 fb init (k.val + 1) = step3 fb k (acc3 fb init k.val) := by
  rw [acc3]; exact dif_pos k.isLt

/-- One row of the chunk in buffer `cc1_scratch2` added: the row's twenty-four 16-lane vectors, vector c into accumulator c mod 8. -/
def step4 (fb : (b2M).view.ty.Contents (Elt F)) (j : Fin k1_t4_loop.trips) (a : Acc8 F) : Acc8 F :=
  match a with
  | (arg13, arg14, arg15, arg16, arg17, arg18, arg19, arg20) =>
    let v92 := rd b2M fb (k1_off55 j) (k1_off55_inb j)
    let v96 := rd b2M fb (k1_off56 j) (k1_off56_inb j)
    let v100 := rd b2M fb (k1_off57 j) (k1_off57_inb j)
    let v104 := rd b2M fb (k1_off58 j) (k1_off58_inb j)
    let v108 := rd b2M fb (k1_off59 j) (k1_off59_inb j)
    let v112 := rd b2M fb (k1_off60 j) (k1_off60_inb j)
    let v116 := rd b2M fb (k1_off61 j) (k1_off61_inb j)
    let v120 := rd b2M fb (k1_off62 j) (k1_off62_inb j)
    let v124 := rd b2M fb (k1_off63 j) (k1_off63_inb j)
    let v128 := rd b2M fb (k1_off64 j) (k1_off64_inb j)
    let v132 := rd b2M fb (k1_off65 j) (k1_off65_inb j)
    let v106 := k1_pay35 arg16 v104
    let v110 := k1_pay36 arg17 v108
    let v114 := k1_pay37 arg18 v112
    let v118 := k1_pay38 arg19 v116
    let v122 := k1_pay39 arg20 v120
    let v126 := k1_pay40 arg13 v92 v124
    let v130 := k1_pay41 arg14 v96 v128
    let v134 := k1_pay42 arg15 v100 v132
    let v136 := rd b2M fb (k1_off66 j) (k1_off66_inb j)
    let v140 := rd b2M fb (k1_off67 j) (k1_off67_inb j)
    let v144 := rd b2M fb (k1_off68 j) (k1_off68_inb j)
    let v148 := rd b2M fb (k1_off69 j) (k1_off69_inb j)
    let v152 := rd b2M fb (k1_off70 j) (k1_off70_inb j)
    let v156 := rd b2M fb (k1_off71 j) (k1_off71_inb j)
    let v160 := rd b2M fb (k1_off72 j) (k1_off72_inb j)
    let v164 := rd b2M fb (k1_off73 j) (k1_off73_inb j)
    let v168 := rd b2M fb (k1_off74 j) (k1_off74_inb j)
    let v172 := rd b2M fb (k1_off75 j) (k1_off75_inb j)
    let v176 := rd b2M fb (k1_off76 j) (k1_off76_inb j)
    let v180 := rd b2M fb (k1_off77 j) (k1_off77_inb j)
    let v154 := k1_pay43 v122 v152
    let v158 := k1_pay44 v126 v156
    let v162 := k1_pay45 v130 v160
    let v166 := k1_pay46 v134 v164
    let v170 := k1_pay47 v106 v136 v168
    let v174 := k1_pay48 v110 v140 v172
    let v178 := k1_pay49 v114 v144 v176
    let v182 := k1_pay50 v118 v148 v180
    let v184 := rd b2M fb (k1_off78 j) (k1_off78_inb j)
    (v158, v162, v166, v170, v174, v178, v182, k1_pay102 v154 v184)

/-- The accumulators after the first j rows of the chunk. -/
def acc4 (fb : (b2M).view.ty.Contents (Elt F)) (init : Acc8 F) : ℕ → Acc8 F
  | 0 => init
  | j + 1 => if h : j < k1_t4_loop.trips then step4 fb ⟨j, h⟩ (acc4 fb init j) else acc4 fb init j

theorem acc4_succ (fb : (b2M).view.ty.Contents (Elt F)) (init : Acc8 F) (k : Fin k1_t4_loop.trips) :
    acc4 fb init (k.val + 1) = step4 fb k (acc4 fb init k.val) := by
  rw [acc4]; exact dif_pos k.isLt

/-- One row of the chunk in buffer `cc1_scratch0` added: the row's twenty-four 16-lane vectors, vector c into accumulator c mod 8. -/
def step5 (fb : (b0M).view.ty.Contents (Elt F)) (j : Fin k1_t5_loop.trips) (a : Acc8 F) : Acc8 F :=
  match a with
  | (arg13, arg14, arg15, arg16, arg17, arg18, arg19, arg20) =>
    let v92 := rd b0M fb (k1_off80 j) (k1_off80_inb j)
    let v96 := rd b0M fb (k1_off81 j) (k1_off81_inb j)
    let v100 := rd b0M fb (k1_off82 j) (k1_off82_inb j)
    let v104 := rd b0M fb (k1_off83 j) (k1_off83_inb j)
    let v108 := rd b0M fb (k1_off84 j) (k1_off84_inb j)
    let v112 := rd b0M fb (k1_off85 j) (k1_off85_inb j)
    let v116 := rd b0M fb (k1_off86 j) (k1_off86_inb j)
    let v120 := rd b0M fb (k1_off87 j) (k1_off87_inb j)
    let v124 := rd b0M fb (k1_off88 j) (k1_off88_inb j)
    let v128 := rd b0M fb (k1_off89 j) (k1_off89_inb j)
    let v132 := rd b0M fb (k1_off90 j) (k1_off90_inb j)
    let v106 := k1_pay51 arg16 v104
    let v110 := k1_pay52 arg17 v108
    let v114 := k1_pay53 arg18 v112
    let v118 := k1_pay54 arg19 v116
    let v122 := k1_pay55 arg20 v120
    let v126 := k1_pay56 arg13 v92 v124
    let v130 := k1_pay57 arg14 v96 v128
    let v134 := k1_pay58 arg15 v100 v132
    let v136 := rd b0M fb (k1_off91 j) (k1_off91_inb j)
    let v140 := rd b0M fb (k1_off92 j) (k1_off92_inb j)
    let v144 := rd b0M fb (k1_off93 j) (k1_off93_inb j)
    let v148 := rd b0M fb (k1_off94 j) (k1_off94_inb j)
    let v152 := rd b0M fb (k1_off95 j) (k1_off95_inb j)
    let v156 := rd b0M fb (k1_off96 j) (k1_off96_inb j)
    let v160 := rd b0M fb (k1_off97 j) (k1_off97_inb j)
    let v164 := rd b0M fb (k1_off98 j) (k1_off98_inb j)
    let v168 := rd b0M fb (k1_off99 j) (k1_off99_inb j)
    let v172 := rd b0M fb (k1_off100 j) (k1_off100_inb j)
    let v176 := rd b0M fb (k1_off101 j) (k1_off101_inb j)
    let v180 := rd b0M fb (k1_off102 j) (k1_off102_inb j)
    let v154 := k1_pay59 v122 v152
    let v158 := k1_pay60 v126 v156
    let v162 := k1_pay61 v130 v160
    let v166 := k1_pay62 v134 v164
    let v170 := k1_pay63 v106 v136 v168
    let v174 := k1_pay64 v110 v140 v172
    let v178 := k1_pay65 v114 v144 v176
    let v182 := k1_pay66 v118 v148 v180
    let v184 := rd b0M fb (k1_off103 j) (k1_off103_inb j)
    (v158, v162, v166, v170, v174, v178, v182, k1_pay103 v154 v184)

/-- The accumulators after the first j rows of the chunk. -/
def acc5 (fb : (b0M).view.ty.Contents (Elt F)) (init : Acc8 F) : ℕ → Acc8 F
  | 0 => init
  | j + 1 => if h : j < k1_t5_loop.trips then step5 fb ⟨j, h⟩ (acc5 fb init j) else acc5 fb init j

theorem acc5_succ (fb : (b0M).view.ty.Contents (Elt F)) (init : Acc8 F) (k : Fin k1_t5_loop.trips) :
    acc5 fb init (k.val + 1) = step5 fb k (acc5 fb init k.val) := by
  rw [acc5]; exact dif_pos k.isLt

/-- One row of the chunk in buffer `cc1_scratch1` added: the row's twenty-four 16-lane vectors, vector c into accumulator c mod 8. -/
def step6 (fb : (b1M).view.ty.Contents (Elt F)) (j : Fin k1_t6_loop.trips) (a : Acc8 F) : Acc8 F :=
  match a with
  | (arg13, arg14, arg15, arg16, arg17, arg18, arg19, arg20) =>
    let v92 := rd b1M fb (k1_off105 j) (k1_off105_inb j)
    let v96 := rd b1M fb (k1_off106 j) (k1_off106_inb j)
    let v100 := rd b1M fb (k1_off107 j) (k1_off107_inb j)
    let v104 := rd b1M fb (k1_off108 j) (k1_off108_inb j)
    let v108 := rd b1M fb (k1_off109 j) (k1_off109_inb j)
    let v112 := rd b1M fb (k1_off110 j) (k1_off110_inb j)
    let v116 := rd b1M fb (k1_off111 j) (k1_off111_inb j)
    let v120 := rd b1M fb (k1_off112 j) (k1_off112_inb j)
    let v124 := rd b1M fb (k1_off113 j) (k1_off113_inb j)
    let v128 := rd b1M fb (k1_off114 j) (k1_off114_inb j)
    let v132 := rd b1M fb (k1_off115 j) (k1_off115_inb j)
    let v106 := k1_pay67 arg16 v104
    let v110 := k1_pay68 arg17 v108
    let v114 := k1_pay69 arg18 v112
    let v118 := k1_pay70 arg19 v116
    let v122 := k1_pay71 arg20 v120
    let v126 := k1_pay72 arg13 v92 v124
    let v130 := k1_pay73 arg14 v96 v128
    let v134 := k1_pay74 arg15 v100 v132
    let v136 := rd b1M fb (k1_off116 j) (k1_off116_inb j)
    let v140 := rd b1M fb (k1_off117 j) (k1_off117_inb j)
    let v144 := rd b1M fb (k1_off118 j) (k1_off118_inb j)
    let v148 := rd b1M fb (k1_off119 j) (k1_off119_inb j)
    let v152 := rd b1M fb (k1_off120 j) (k1_off120_inb j)
    let v156 := rd b1M fb (k1_off121 j) (k1_off121_inb j)
    let v160 := rd b1M fb (k1_off122 j) (k1_off122_inb j)
    let v164 := rd b1M fb (k1_off123 j) (k1_off123_inb j)
    let v168 := rd b1M fb (k1_off124 j) (k1_off124_inb j)
    let v172 := rd b1M fb (k1_off125 j) (k1_off125_inb j)
    let v176 := rd b1M fb (k1_off126 j) (k1_off126_inb j)
    let v180 := rd b1M fb (k1_off127 j) (k1_off127_inb j)
    let v154 := k1_pay75 v122 v152
    let v158 := k1_pay76 v126 v156
    let v162 := k1_pay77 v130 v160
    let v166 := k1_pay78 v134 v164
    let v170 := k1_pay79 v106 v136 v168
    let v174 := k1_pay80 v110 v140 v172
    let v178 := k1_pay81 v114 v144 v176
    let v182 := k1_pay82 v118 v148 v180
    let v184 := rd b1M fb (k1_off128 j) (k1_off128_inb j)
    (v158, v162, v166, v170, v174, v178, v182, k1_pay104 v154 v184)

/-- The accumulators after the first j rows of the chunk. -/
def acc6 (fb : (b1M).view.ty.Contents (Elt F)) (init : Acc8 F) : ℕ → Acc8 F
  | 0 => init
  | j + 1 => if h : j < k1_t6_loop.trips then step6 fb ⟨j, h⟩ (acc6 fb init j) else acc6 fb init j

theorem acc6_succ (fb : (b1M).view.ty.Contents (Elt F)) (init : Acc8 F) (k : Fin k1_t6_loop.trips) :
    acc6 fb init (k.val + 1) = step6 fb k (acc6 fb init k.val) := by
  rw [acc6]; exact dif_pos k.isLt

/-- One row of the chunk in buffer `cc1_scratch2` added: the row's twenty-four 16-lane vectors, vector c into accumulator c mod 8. -/
def step7 (fb : (b2M).view.ty.Contents (Elt F)) (j : Fin k1_t7_loop.trips) (a : Acc8 F) : Acc8 F :=
  match a with
  | (arg13, arg14, arg15, arg16, arg17, arg18, arg19, arg20) =>
    let v92 := rd b2M fb (k1_off130 j) (k1_off130_inb j)
    let v96 := rd b2M fb (k1_off131 j) (k1_off131_inb j)
    let v100 := rd b2M fb (k1_off132 j) (k1_off132_inb j)
    let v104 := rd b2M fb (k1_off133 j) (k1_off133_inb j)
    let v108 := rd b2M fb (k1_off134 j) (k1_off134_inb j)
    let v112 := rd b2M fb (k1_off135 j) (k1_off135_inb j)
    let v116 := rd b2M fb (k1_off136 j) (k1_off136_inb j)
    let v120 := rd b2M fb (k1_off137 j) (k1_off137_inb j)
    let v124 := rd b2M fb (k1_off138 j) (k1_off138_inb j)
    let v128 := rd b2M fb (k1_off139 j) (k1_off139_inb j)
    let v132 := rd b2M fb (k1_off140 j) (k1_off140_inb j)
    let v106 := k1_pay83 arg16 v104
    let v110 := k1_pay84 arg17 v108
    let v114 := k1_pay85 arg18 v112
    let v118 := k1_pay86 arg19 v116
    let v122 := k1_pay87 arg20 v120
    let v126 := k1_pay88 arg13 v92 v124
    let v130 := k1_pay89 arg14 v96 v128
    let v134 := k1_pay90 arg15 v100 v132
    let v136 := rd b2M fb (k1_off141 j) (k1_off141_inb j)
    let v140 := rd b2M fb (k1_off142 j) (k1_off142_inb j)
    let v144 := rd b2M fb (k1_off143 j) (k1_off143_inb j)
    let v148 := rd b2M fb (k1_off144 j) (k1_off144_inb j)
    let v152 := rd b2M fb (k1_off145 j) (k1_off145_inb j)
    let v156 := rd b2M fb (k1_off146 j) (k1_off146_inb j)
    let v160 := rd b2M fb (k1_off147 j) (k1_off147_inb j)
    let v164 := rd b2M fb (k1_off148 j) (k1_off148_inb j)
    let v168 := rd b2M fb (k1_off149 j) (k1_off149_inb j)
    let v172 := rd b2M fb (k1_off150 j) (k1_off150_inb j)
    let v176 := rd b2M fb (k1_off151 j) (k1_off151_inb j)
    let v180 := rd b2M fb (k1_off152 j) (k1_off152_inb j)
    let v154 := k1_pay91 v122 v152
    let v158 := k1_pay92 v126 v156
    let v162 := k1_pay93 v130 v160
    let v166 := k1_pay94 v134 v164
    let v170 := k1_pay95 v106 v136 v168
    let v174 := k1_pay96 v110 v140 v172
    let v178 := k1_pay97 v114 v144 v176
    let v182 := k1_pay98 v118 v148 v180
    let v184 := rd b2M fb (k1_off153 j) (k1_off153_inb j)
    (v158, v162, v166, v170, v174, v178, v182, k1_pay1 v154 v184)

/-- The accumulators after the first j rows of the chunk. -/
def acc7 (fb : (b2M).view.ty.Contents (Elt F)) (init : Acc8 F) : ℕ → Acc8 F
  | 0 => init
  | j + 1 => if h : j < k1_t7_loop.trips then step7 fb ⟨j, h⟩ (acc7 fb init j) else acc7 fb init j

theorem acc7_succ (fb : (b2M).view.ty.Contents (Elt F)) (init : Acc8 F) (k : Fin k1_t7_loop.trips) :
    acc7 fb init (k.val + 1) = step7 fb k (acc7 fb init k.val) := by
  rw [acc7]; exact dif_pos k.isLt

/-- Rows off 1 .. off 1 + 63 of plane off 0, as a chunk copy reads them out of the plane array. -/
def chunkRd (x3 : (x3M).view.ty.Contents (Elt F)) (off : Fin 3 → ℕ)
    (inb : ∀ a, off a + S1x64x384.size a ≤ S768x384x384.size a) : (b0M).view.ty.Contents (Elt F) :=
  (((x3M).slice (Rect.unit (s := S768x384x384) off S1x64x384.size inb) (fun _ => rfl)).squeeze S64x384 squeezes_S1x64x384_S64x384).view.read (Elt F) x3

theorem chunkRd_congr (x3 : (x3M).view.ty.Contents (Elt F)) {off off' : Fin 3 → ℕ} (h : off = off')
    (inb : ∀ a, off a + S1x64x384.size a ≤ S768x384x384.size a) (inb' : ∀ a, off' a + S1x64x384.size a ≤ S768x384x384.size a) :
    chunkRd x3 off inb = chunkRd x3 off' inb' := by
  subst h; rfl

/-- Where chunk hc of plane p starts. -/
def offC (p hc : ℕ) : Fin 3 → ℕ := ![p, 64 * hc, 0]

theorem offC_inb {p hc : ℕ} (hp : p < 768) (hh : hc < 6) : ∀ a, offC p hc a + S1x64x384.size a ≤ S768x384x384.size a := by
  intro a
  match a with
  | ⟨0, _⟩ => show p + 1 ≤ 768; omega
  | ⟨1, _⟩ => show 64 * hc + 64 ≤ 384; omega
  | ⟨2, _⟩ => show 0 + 384 ≤ 384; omega

/-- Chunk hc of plane p. -/
def chunk (x3 : (x3M).view.ty.Contents (Elt F)) (p hc : ℕ) (hp : p < 768) (hh : hc < 6) : (b0M).view.ty.Contents (Elt F) :=
  chunkRd x3 (offC p hc) (offC_inb hp hh)

/-- Eight zero accumulators. -/
def zeros8 : Acc8 F := (k1_pay99, k1_pay99, k1_pay99, k1_pay99, k1_pay99, k1_pay99, k1_pay99, k1_pay99)

/-- The eight accumulators summed pairwise to sixteen lanes. -/
def pay2T (a : Acc8 F) : FVec F S16 .f32 :=
  match a with
  | (a0, a1, a2, a3, a4, a5, a6, a7) => k1_pay2 a0 a1 a2 a3 a4 a5 a6 a7

/-- A plane's eight accumulators after all six chunks. -/
def planeAcc (x3 : (x3M).view.ty.Contents (Elt F)) (p : ℕ) (hp : p < 768) : Acc8 F :=
  acc7 (chunk x3 p 5 hp (by decide)) (acc6 (chunk x3 p 4 hp (by decide)) (acc5 (chunk x3 p 3 hp (by decide))
    (acc4 (chunk x3 p 2 hp (by decide)) (acc3 (chunk x3 p 1 hp (by decide)) (acc2 (chunk x3 p 0 hp (by decide)) zeros8
      k1_t2_loop.trips) k1_t3_loop.trips) k1_t4_loop.trips) k1_t5_loop.trips) k1_t6_loop.trips) k1_t7_loop.trips

/-- A plane's sixteen lane sums. -/
def planeVec (x3 : (x3M).view.ty.Contents (Elt F)) (p : ℕ) (hp : p < 768) : FVec F S16 .f32 := pay2T (planeAcc x3 p hp)

theorem planeVec_congr (x3 : (x3M).view.ty.Contents (Elt F)) {p p' : ℕ} (h : p = p') (hp : p < 768) (hp' : p' < 768) :
    planeVec x3 p hp = planeVec x3 p' hp' := by
  subst h; rfl

theorem plane_lt (j : S3072.Idx) : 576 + (j 0).val / 16 < 768 := by
  have := (j 0).isLt
  have h : (j 0).val < 3072 := this
  omega

/-- The partials array: word j is lane j mod 16 of the lane sums of plane 576 + j / 16. -/
def scVal (x3 : (x3M).view.ty.Contents (Elt F)) : (oM).view.ty.Contents (Elt F) :=
  fun j => planeVec x3 (576 + (j 0).val / 16) (plane_lt j) (ValueIdx.ix1 (⟨(j 0).val % 16, Nat.mod_lt _ (by decide)⟩ : Fin 16))

end Cert.Proof.KI.ScVal

end
-- ==== Proof.KI.ScPoolVBase.lean ====
/-
  The pooling task of one vector subcore with its values named, part 1: the invariant of the loop over planes.

  As in the frame form, but every contents is a function of the plane array's contents x3: a chunk on its way lands as chunk
  (plane, number) of x3; the lane-sum row holds, over what it held at the start, the lane sums of the planes done so far, one
  store of sixteen words per plane. The program's chunk offsets are identified with the chunks of the subcore's planes.
-/
import proofs.«215010_g72713796321855_cont_9to1c4b_299_31_alg».proof.Proof.KI.ScPoolBase
import proofs.«215010_g72713796321855_cont_9to1c4b_299_31_alg».proof.Proof.KI.ScVal

noncomputable section

namespace Cert.Proof.KI.ScPoolV

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareTokN shareDrop)
open Idealize.ShloMosaic.Tactic
open Cert.Proof.KI.ScPool
open Cert.Proof.KI

variable {F : FTy → Type}

local notation "𝕄" => MT nD τ sig (HIx 1) (Elt F) ℕ UU ℕ

local notation "x3M" => (Memref.whole Cert.KernelIdeal.main_v0_scv : Memref Cert.KernelIdeal.sig Kind.scVector Space.hbm Cert.KernelIdeal.S768x384x384 EltTy.f32)
local notation "oM" => (Memref.whole Cert.KernelIdeal.main_v2_scv : Memref Cert.KernelIdeal.sig Kind.scVector Space.hbm Cert.KernelIdeal.S3072 EltTy.f32)
local notation "b0M" => (Memref.whole Cert.KernelIdeal.cc1_scratch0 : Memref Cert.KernelIdeal.sig Kind.scVector Space.vmem Cert.KernelIdeal.S64x384 EltTy.f32)
local notation "b1M" => (Memref.whole Cert.KernelIdeal.cc1_scratch1 : Memref Cert.KernelIdeal.sig Kind.scVector Space.vmem Cert.KernelIdeal.S64x384 EltTy.f32)
local notation "b2M" => (Memref.whole Cert.KernelIdeal.cc1_scratch2 : Memref Cert.KernelIdeal.sig Kind.scVector Space.vmem Cert.KernelIdeal.S64x384 EltTy.f32)
local notation "prM" => (Memref.whole Cert.KernelIdeal.cc1_scratch3 : Memref Cert.KernelIdeal.sig Kind.scVector Space.vmem Cert.KernelIdeal.S96 EltTy.f32)

variable (x3v : (d : Dev nD) → Buf (Elt F) (x3Loc d))

section Tile

variable (d : Dev nD) (L : grid1.Coords)
variable [FloatOps F] [Named F]

/-- The plane vector subcore L sums at its trip k. -/
def planeOf (L : grid1.Coords) (k : ℕ) : ℕ := 12 * (L 1).val + 6 * (L 0).val + k + 576

theorem planeOf_lt (L : grid1.Coords) {k : ℕ} (h : k < 6) : planeOf L k < 768 := by
  have h0 : (L 0).val < 2 := (L 0).isLt
  have h1 : (L 1).val < 16 := (L 1).isLt
  unfold planeOf; omega

/-- A chunk on its way into a buffer, to land as the contents cv: the wait hands back the buffer at cv and the elements the read
    token lent; what the token keeps meanwhile is held beside it. -/
def inFlightV (sm : DmaSem sig) (bM : Memref sig .scVector .vmem S64x384 .f32) (tk : ℕ) (cv : Buf (Elt F) (bM.view.loc (V d (cV L) (jV L)))) : sProp 𝕄 :=
  iprop(∃ (S : Finset (Idx ((x3M).view.loc (V d (cV L) (jV L))))),
    Transfers.Flight countersEmb (V d (cV L) (jV L)) (SemLoc.dma sm) (default : HIx 1) 786432
        iprop((bM.view.loc (V d (cV L) (jV L)) ↦{fullShare} cv) ∗ ((x3M).view.loc (V d (cV L) (jV L)) ↦[S]{shareTokN (qT L) tk} x3v d))
      ∗ ((x3M).view.loc (V d (cV L) (jV L)) ↦[Finset.univ \ S]{shareTokN (qT L) tk} x3v d))

/-- The stores into the lane-sum row by the first k planes, the last first: plane r's sixteen lane sums at words 16 r .. 16 r + 15. -/
def pieces : ℕ → List (View.Piece (Elt F) S96 .f32)
  | 0 => []
  | k + 1 => if h : k < k1_t1_loop.trips then
      (⟨Rect.unit (s := S96) (k1_off154 ⟨k, h⟩) S16.size (k1_off154_inb ⟨k, h⟩),
        ScVal.planeVec (x3v d) (planeOf L k) (planeOf_lt L h)⟩ : View.Piece (Elt F) S96 .f32) :: pieces k
    else pieces k

theorem pieces_succ (k : Fin k1_t1_loop.trips) :
    pieces x3v d L (k.val + 1) = (⟨Rect.unit (s := S96) (k1_off154 k) S16.size (k1_off154_inb k),
        ScVal.planeVec (x3v d) (planeOf L k.val) (planeOf_lt L k.isLt)⟩ : View.Piece (Elt F) S96 .f32) :: pieces x3v d L k.val := by
  rw [pieces]; exact dif_pos k.isLt

/-- Before plane k, with the contents named: chunks 0 and 1 of plane k are on their way into buffers 0 and 1 (after the last
    plane, nothing is); buffer 2 is free; the lane-sum row holds the first k planes' lane sums over what it held at the start. -/
def invV (fp0 : Buf (Elt F) ((prM).view.loc (V d (cV L) (jV L)))) (O : CellTallies nD τ sig (HIx 1)) (W : Waits sig (HIx 1)) (k : ℕ) (_ : Unit) : sProp 𝕄 :=
  iprop(Transfers.MayWaits (V d (cV L) (jV L)) (none : HIx 1) O
    ∗ (if h : k < 6 then iprop(inFlightV x3v d L ⟨9, by decide⟩ b0M 9 (ScVal.chunk (x3v d) (planeOf L k) 0 (planeOf_lt L h) (by decide))
          ∗ inFlightV x3v d L ⟨10, by decide⟩ b1M 10 (ScVal.chunk (x3v d) (planeOf L k) 1 (planeOf_lt L h) (by decide)))
        else iprop(idle x3v d L ⟨9, by decide⟩ b0M 9 ∗ idle x3v d L ⟨10, by decide⟩ b1M 10))
    ∗ idle x3v d L ⟨11, by decide⟩ b2M 11
    ∗ ((prM).view.loc (V d (cV L) (jV L)) ↦{fullShare} (prM).view.writes (Elt F) fp0 (pieces x3v d L k))
    ∗ ∃ W', ⌜∀ p ∈ W', p ∈ W ∨ p.2 = none⌝ ∗ owes (V d (cV L) (jV L)) O W')

theorem invV_lt (fp0 : Buf (Elt F) ((prM).view.loc (V d (cV L) (jV L)))) (O : CellTallies nD τ sig (HIx 1)) (W : Waits sig (HIx 1)) {k : ℕ} (h : k < 6) (u : Unit) :
    invV x3v d L fp0 O W k u = iprop(Transfers.MayWaits (V d (cV L) (jV L)) (none : HIx 1) O
      ∗ (inFlightV x3v d L ⟨9, by decide⟩ b0M 9 (ScVal.chunk (x3v d) (planeOf L k) 0 (planeOf_lt L h) (by decide))
          ∗ inFlightV x3v d L ⟨10, by decide⟩ b1M 10 (ScVal.chunk (x3v d) (planeOf L k) 1 (planeOf_lt L h) (by decide)))
      ∗ idle x3v d L ⟨11, by decide⟩ b2M 11
      ∗ ((prM).view.loc (V d (cV L) (jV L)) ↦{fullShare} (prM).view.writes (Elt F) fp0 (pieces x3v d L k))
      ∗ ∃ W', ⌜∀ p ∈ W', p ∈ W ∨ p.2 = none⌝ ∗ owes (V d (cV L) (jV L)) O W') := by
  unfold invV; rw [dif_pos h]

theorem invV_ge (fp0 : Buf (Elt F) ((prM).view.loc (V d (cV L) (jV L)))) (O : CellTallies nD τ sig (HIx 1)) (W : Waits sig (HIx 1)) {k : ℕ} (h : ¬ k < 6) (u : Unit) :
    invV x3v d L fp0 O W k u = iprop(Transfers.MayWaits (V d (cV L) (jV L)) (none : HIx 1) O
      ∗ (idle x3v d L ⟨9, by decide⟩ b0M 9 ∗ idle x3v d L ⟨10, by decide⟩ b1M 10)
      ∗ idle x3v d L ⟨11, by decide⟩ b2M 11
      ∗ ((prM).view.loc (V d (cV L) (jV L)) ↦{fullShare} (prM).view.writes (Elt F) fp0 (pieces x3v d L k))
      ∗ ∃ W', ⌜∀ p ∈ W', p ∈ W ∨ p.2 = none⌝ ∗ owes (V d (cV L) (jV L)) O W') := by
  unfold invV; rw [dif_neg h]

/-- Equal contents, the same points-to. -/
theorem pts_eq {ℓ : Loc nD τ sig} {f g : Buf (Elt F) ℓ} (h : f = g) : (ℓ ↦{fullShare} f : sProp 𝕄) ⊢ ℓ ↦{fullShare} g := by
  subst h; exact Entails.refl _

/-- and the same copy on its way. -/
theorem flight_eq {sm : SemLoc sig} {ℓ : Loc nD τ sig} {f g : Buf (Elt F) ℓ} {X : sProp 𝕄} (h : f = g) :
    (Transfers.Flight countersEmb (V d (cV L) (jV L)) sm (default : HIx 1) 786432 iprop((ℓ ↦{fullShare} f) ∗ X) : sProp 𝕄)
      ⊢ Transfers.Flight countersEmb (V d (cV L) (jV L)) sm (default : HIx 1) 786432 iprop((ℓ ↦{fullShare} g) ∗ X) := by
  subst h; exact Entails.refl _

/-- A chunk copied whole into a buffer is the buffer's new contents, whatever it held. -/
theorem land0 (fd : (b0M).view.ty.Contents (Elt F)) {off : Fin 3 → ℕ} (inb : ∀ a, off a + S1x64x384.size a ≤ S768x384x384.size a)
    {p hc : ℕ} (hp : p < 768) (hh : hc < 6) (hoff : off = ScVal.offC p hc) :
    View.write (Elt F) (b0M).view fd (ScVal.chunkRd (x3v d) off inb) Finset.univ = ScVal.chunk (x3v d) p hc hp hh := by
  exact (View.write_whole_univ _ fd _).trans (ScVal.chunkRd_congr _ hoff _ _)
theorem land1 (fd : (b1M).view.ty.Contents (Elt F)) {off : Fin 3 → ℕ} (inb : ∀ a, off a + S1x64x384.size a ≤ S768x384x384.size a)
    {p hc : ℕ} (hp : p < 768) (hh : hc < 6) (hoff : off = ScVal.offC p hc) :
    View.write (Elt F) (b1M).view fd (ScVal.chunkRd (x3v d) off inb) Finset.univ = ScVal.chunk (x3v d) p hc hp hh := by
  exact (View.write_whole_univ _ fd _).trans (ScVal.chunkRd_congr _ hoff _ _)
theorem land2 (fd : (b2M).view.ty.Contents (Elt F)) {off : Fin 3 → ℕ} (inb : ∀ a, off a + S1x64x384.size a ≤ S768x384x384.size a)
    {p hc : ℕ} (hp : p < 768) (hh : hc < 6) (hoff : off = ScVal.offC p hc) :
    View.write (Elt F) (b2M).view fd (ScVal.chunkRd (x3v d) off inb) Finset.univ = ScVal.chunk (x3v d) p hc hp hh := by
  exact (View.write_whole_univ _ fd _).trans (ScVal.chunkRd_congr _ hoff _ _)

/-! The program's chunk offsets are the chunks of the subcore's planes. -/

theorem off1_eq : k1_off1 L = ScVal.offC (planeOf L 0) 0 := by
  rw [k1_off1_eq]; funext a; match a with | ⟨0, _⟩ => rfl | ⟨1, _⟩ => rfl | ⟨2, _⟩ => rfl
theorem off2_eq : k1_off2 L = ScVal.offC (planeOf L 0) 1 := by
  rw [k1_off2_eq]; funext a; match a with | ⟨0, _⟩ => rfl | ⟨1, _⟩ => rfl | ⟨2, _⟩ => rfl
theorem off3_eq (k : Fin k1_t1_loop.trips) : k1_off3 L k = ScVal.offC (planeOf L k.val) 2 := by
  rw [k1_off3_eq]; funext a; match a with | ⟨0, _⟩ => rfl | ⟨1, _⟩ => rfl | ⟨2, _⟩ => rfl
theorem off29_eq (k : Fin k1_t1_loop.trips) : k1_off29 L k = ScVal.offC (planeOf L k.val) 3 := by
  rw [k1_off29_eq]; funext a; match a with | ⟨0, _⟩ => rfl | ⟨1, _⟩ => rfl | ⟨2, _⟩ => rfl
theorem off54_eq (k : Fin k1_t1_loop.trips) : k1_off54 L k = ScVal.offC (planeOf L k.val) 4 := by
  rw [k1_off54_eq]; funext a; match a with | ⟨0, _⟩ => rfl | ⟨1, _⟩ => rfl | ⟨2, _⟩ => rfl
theorem off79_eq (k : Fin k1_t1_loop.trips) : k1_off79 L k = ScVal.offC (planeOf L k.val) 5 := by
  rw [k1_off79_eq]; funext a; match a with | ⟨0, _⟩ => rfl | ⟨1, _⟩ => rfl | ⟨2, _⟩ => rfl
theorem off104_eq (k : Fin k1_t1_loop.trips) : k1_off104 L k = ScVal.offC (planeOf L (k.val + 1)) 0 := by
  rw [k1_off104_eq]; funext a
  match a with
  | ⟨0, _⟩ => show 12 * (L 1).val + 6 * (L 0).val + k.val + 577 = 12 * (L 1).val + 6 * (L 0).val + (k.val + 1) + 576; omega
  | ⟨1, _⟩ => rfl
  | ⟨2, _⟩ => rfl
theorem off129_eq (k : Fin k1_t1_loop.trips) : k1_off129 L k = ScVal.offC (planeOf L (k.val + 1)) 1 := by
  rw [k1_off129_eq]; funext a
  match a with
  | ⟨0, _⟩ => show 12 * (L 1).val + 6 * (L 0).val + k.val + 577 = 12 * (L 1).val + 6 * (L 0).val + (k.val + 1) + 576; omega
  | ⟨1, _⟩ => rfl
  | ⟨2, _⟩ => rfl

end Tile

end Cert.Proof.KI.ScPoolV

end
-- ==== Proof.KI.ScPoolVRegion.lean ====
/-
  The pooling task of one vector subcore with its values named, part 2: one plane.

  Each of the six inner loops carries its eight accumulators as the fold of the row step over the rows read so far of the chunk
  in its buffer; the six folds chain (each starts from the previous one's result, the first from zeros), so the sixteen lanes
  stored at the end of the trip are the plane's lane sums as a function of the plane array.
-/
import proofs.«215010_g72713796321855_cont_9to1c4b_299_31_alg».proof.Proof.KI.ScPoolVBase

noncomputable section

namespace Cert.Proof.KI.ScPoolV

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareTokN shareDrop)
open Idealize.ShloMosaic.Tactic
open Cert.Proof.KI.ScPool
open Cert.Proof.KI

variable {F : FTy → Type}

local notation "𝕄" => MT nD τ sig (HIx 1) (Elt F) ℕ UU ℕ

local notation "x3M" => (Memref.whole Cert.KernelIdeal.main_v0_scv : Memref Cert.KernelIdeal.sig Kind.scVector Space.hbm Cert.KernelIdeal.S768x384x384 EltTy.f32)
local notation "oM" => (Memref.whole Cert.KernelIdeal.main_v2_scv : Memref Cert.KernelIdeal.sig Kind.scVector Space.hbm Cert.KernelIdeal.S3072 EltTy.f32)
local notation "b0M" => (Memref.whole Cert.KernelIdeal.cc1_scratch0 : Memref Cert.KernelIdeal.sig Kind.scVector Space.vmem Cert.KernelIdeal.S64x384 EltTy.f32)
local notation "b1M" => (Memref.whole Cert.KernelIdeal.cc1_scratch1 : Memref Cert.KernelIdeal.sig Kind.scVector Space.vmem Cert.KernelIdeal.S64x384 EltTy.f32)
local notation "b2M" => (Memref.whole Cert.KernelIdeal.cc1_scratch2 : Memref Cert.KernelIdeal.sig Kind.scVector Space.vmem Cert.KernelIdeal.S64x384 EltTy.f32)
local notation "prM" => (Memref.whole Cert.KernelIdeal.cc1_scratch3 : Memref Cert.KernelIdeal.sig Kind.scVector Space.vmem Cert.KernelIdeal.S96 EltTy.f32)

variable (x3v : (d : Dev nD) → Buf (Elt F) (x3Loc d))

section Tile

variable (d : Dev nD) (L : grid1.Coords)
variable [FloatOps F] [Named F]

theorem regionV (fp0 : Buf (Elt F) ((prM).view.loc (V d (cV L) (jV L)))) (O : CellTallies nD τ sig (HIx 1)) (W : Waits sig (HIx 1)) (v3 : BitVec 32) (k : Fin k1_t1_loop.trips) :
    invV x3v d L fp0 O W k.val () ⊢ wp frame (wpE (defs₀ (F := F)) 𝒱₀ (V d (cV L) (jV L)) none) Set.univ
      (k1_t1_body L x3M (Memref.isWhole_whole _) oM (Memref.isWhole_whole _) b0M (Memref.isWhole_whole _) b1M (Memref.isWhole_whole _)
            b2M (Memref.isWhole_whole _) prM (Memref.isWhole_whole _) cc1_scratch4 cc1_scratch5 cc1_scratch6 cc1_scoped0 v3 k ()) (fun acc => invV x3v d L fp0 O W (k.val + 1) acc) := by
  have hk : k.val < 6 := k.isLt
  have k1_h1 : k1_cond1 k = 1#1 := by revert k; decide +kernel
  have k1_h2 : k1_cond2 k = 1#1 := by revert k; decide +kernel
  have k1_h3 : k1_cond3 k = 1#1 := by revert k; decide +kernel
  have k1_h4 : k1_cond4 k = 1#1 := by revert k; decide +kernel
  rw [invV_lt x3v d L fp0 O W hk]
  unfold inFlightV idle
  iintro ⟨#Hmw, ⟨⟨%S9, HF9, Hx9⟩, ⟨%S10, HF10, Hx10⟩⟩, ⟨Hs11, ⟨%fb2, Hb2⟩, Hx11⟩, Hpr, %W', %hW', HO⟩
  sl_exec
  sl_for (fun (j : ℕ) (acc : ScVal.Acc8 F) => (iprop(((b0M).view.loc (V d (cV L) (jV L)) ↦{fullShare} (ScVal.chunk (x3v d) (planeOf L k.val) 0 (planeOf_lt L hk) (by decide))) ∗ ⌜acc = ScVal.acc2 (ScVal.chunk (x3v d) (planeOf L k.val) 0 (planeOf_lt L hk) (by decide)) ScVal.zeros8 j⌝) : sProp 𝕄)) $$ [HF9_dst]
  case region =>
    intro j acc
    obtain ⟨a13, a14, a15, a16, a17, a18, a19, a20⟩ := acc
    iintro ⟨Hb, %hacc⟩
    sl_exec
    sl_step
    isplitl [Hb]; · iexact Hb
    ipureintro
    rw [ScVal.acc2_succ, ← hacc]
    rfl
  · isplitl [HF9_dst]; · iexact HF9_dst
    ipureintro; rfl
  iintro %accs ⟨HF9_dst, %hfin2⟩
  obtain ⟨r20, r21, r22, r23, r24, r25, r26, r27⟩ := accs

  sl_exec
  sl_for (fun (j : ℕ) (acc : ScVal.Acc8 F) => (iprop(((b1M).view.loc (V d (cV L) (jV L)) ↦{fullShare} (ScVal.chunk (x3v d) (planeOf L k.val) 1 (planeOf_lt L hk) (by decide))) ∗ ⌜acc = ScVal.acc3 (ScVal.chunk (x3v d) (planeOf L k.val) 1 (planeOf_lt L hk) (by decide)) (r20, r21, r22, r23, r24, r25, r26, r27) j⌝) : sProp 𝕄)) $$ [HF10_dst]
  case region =>
    intro j acc
    obtain ⟨a13, a14, a15, a16, a17, a18, a19, a20⟩ := acc
    iintro ⟨Hb, %hacc⟩
    sl_exec
    sl_step
    isplitl [Hb]; · iexact Hb
    ipureintro
    rw [ScVal.acc3_succ, ← hacc]
    rfl
  · isplitl [HF10_dst]; · iexact HF10_dst
    ipureintro; rfl
  iintro %accs ⟨HF10_dst, %hfin3⟩
  obtain ⟨r30, r31, r32, r33, r34, r35, r36, r37⟩ := accs

  sl_exec
  ihave Hb2 := (pts_eq (F := F) (land2 x3v d _ (k1_off3_inb L k k1_h1) (planeOf_lt L hk) (by decide : 2 < 6) (off3_eq L k))) $$ Hb2
  sl_for (fun (j : ℕ) (acc : ScVal.Acc8 F) => (iprop(((b2M).view.loc (V d (cV L) (jV L)) ↦{fullShare} (ScVal.chunk (x3v d) (planeOf L k.val) 2 (planeOf_lt L hk) (by decide))) ∗ ⌜acc = ScVal.acc4 (ScVal.chunk (x3v d) (planeOf L k.val) 2 (planeOf_lt L hk) (by decide)) (r30, r31, r32, r33, r34, r35, r36, r37) j⌝) : sProp 𝕄)) $$ [Hb2]
  case region =>
    intro j acc
    obtain ⟨a13, a14, a15, a16, a17, a18, a19, a20⟩ := acc
    iintro ⟨Hb, %hacc⟩
    sl_exec
    sl_step
    isplitl [Hb]; · iexact Hb
    ipureintro
    rw [ScVal.acc4_succ, ← hacc]
    rfl
  · isplitl [Hb2]; · iexact Hb2
    ipureintro; rfl
  iintro %accs ⟨Hb2, %hfin4⟩
  obtain ⟨r40, r41, r42, r43, r44, r45, r46, r47⟩ := accs

  sl_exec
  ihave HF9_dst := (pts_eq (F := F) (land0 x3v d _ (k1_off29_inb L k k1_h2) (planeOf_lt L hk) (by decide : 3 < 6) (off29_eq L k))) $$ HF9_dst
  sl_for (fun (j : ℕ) (acc : ScVal.Acc8 F) => (iprop(((b0M).view.loc (V d (cV L) (jV L)) ↦{fullShare} (ScVal.chunk (x3v d) (planeOf L k.val) 3 (planeOf_lt L hk) (by decide))) ∗ ⌜acc = ScVal.acc5 (ScVal.chunk (x3v d) (planeOf L k.val) 3 (planeOf_lt L hk) (by decide)) (r40, r41, r42, r43, r44, r45, r46, r47) j⌝) : sProp 𝕄)) $$ [HF9_dst]
  case region =>
    intro j acc
    obtain ⟨a13, a14, a15, a16, a17, a18, a19, a20⟩ := acc
    iintro ⟨Hb, %hacc⟩
    sl_exec
    sl_step
    isplitl [Hb]; · iexact Hb
    ipureintro
    rw [ScVal.acc5_succ, ← hacc]
    rfl
  · isplitl [HF9_dst]; · iexact HF9_dst
    ipureintro; rfl
  iintro %accs ⟨HF9_dst, %hfin5⟩
  obtain ⟨r50, r51, r52, r53, r54, r55, r56, r57⟩ := accs

  sl_exec
  ihave HF10_dst := (pts_eq (F := F) (land1 x3v d _ (k1_off54_inb L k k1_h3) (planeOf_lt L hk) (by decide : 4 < 6) (off54_eq L k))) $$ HF10_dst
  sl_for (fun (j : ℕ) (acc : ScVal.Acc8 F) => (iprop(((b1M).view.loc (V d (cV L) (jV L)) ↦{fullShare} (ScVal.chunk (x3v d) (planeOf L k.val) 4 (planeOf_lt L hk) (by decide))) ∗ ⌜acc = ScVal.acc6 (ScVal.chunk (x3v d) (planeOf L k.val) 4 (planeOf_lt L hk) (by decide)) (r50, r51, r52, r53, r54, r55, r56, r57) j⌝) : sProp 𝕄)) $$ [HF10_dst]
  case region =>
    intro j acc
    obtain ⟨a13, a14, a15, a16, a17, a18, a19, a20⟩ := acc
    iintro ⟨Hb, %hacc⟩
    sl_exec
    sl_step
    isplitl [Hb]; · iexact Hb
    ipureintro
    rw [ScVal.acc6_succ, ← hacc]
    rfl
  · isplitl [HF10_dst]; · iexact HF10_dst
    ipureintro; rfl
  iintro %accs ⟨HF10_dst, %hfin6⟩
  obtain ⟨r60, r61, r62, r63, r64, r65, r66, r67⟩ := accs

  sl_exec
  ihave Hb2 := (pts_eq (F := F) (land2 x3v d _ (k1_off79_inb L k k1_h4) (planeOf_lt L hk) (by decide : 5 < 6) (off79_eq L k))) $$ Hb2
  sl_for (fun (j : ℕ) (acc : ScVal.Acc8 F) => (iprop(((b2M).view.loc (V d (cV L) (jV L)) ↦{fullShare} (ScVal.chunk (x3v d) (planeOf L k.val) 5 (planeOf_lt L hk) (by decide))) ∗ ⌜acc = ScVal.acc7 (ScVal.chunk (x3v d) (planeOf L k.val) 5 (planeOf_lt L hk) (by decide)) (r60, r61, r62, r63, r64, r65, r66, r67) j⌝) : sProp 𝕄)) $$ [Hb2]
  case region =>
    intro j acc
    obtain ⟨a13, a14, a15, a16, a17, a18, a19, a20⟩ := acc
    iintro ⟨Hb, %hacc⟩
    sl_exec
    sl_step
    isplitl [Hb]; · iexact Hb
    ipureintro
    rw [ScVal.acc7_succ, ← hacc]
    rfl
  · isplitl [Hb2]; · iexact Hb2
    ipureintro; rfl
  iintro %accs ⟨Hb2, %hfin7⟩
  obtain ⟨r70, r71, r72, r73, r74, r75, r76, r77⟩ := accs

  sl_exec
  sl_step
  have hval : k1_pay2 r70 r71 r72 r73 r74 r75 r76 r77 = ScVal.planeVec (x3v d) (planeOf L k.val) (planeOf_lt L hk) := by
    show ScVal.pay2T (r70, r71, r72, r73, r74, r75, r76, r77) = _
    rw [hfin7, hfin6, hfin5, hfin4, hfin3, hfin2]
    rfl

  have hpr : (prM).view.writes (Elt F) ((prM).view.writes (Elt F) fp0 (pieces x3v d L k.val))
        [(⟨Rect.unit (s := S96) (k1_off154 k) S16.size (k1_off154_inb k), k1_pay2 r70 r71 r72 r73 r74 r75 r76 r77⟩ : View.Piece (Elt F) S96 .f32)]
      = (prM).view.writes (Elt F) fp0 (pieces x3v d L (k.val + 1)) := by
    rw [pieces_succ x3v d L k, hval]; rfl
  ihave Hpr := (pts_eq (F := F) hpr) $$ Hpr
  by_cases hk1 : k.val + 1 < 6
  · have k1_h5 : k1_cond5 k = 1#1 := (cond5_iff k).mpr hk1
    have k1_h6 : k1_cond6 k = 1#1 := (cond6_iff k).mpr hk1
    irw [invV_lt x3v d L fp0 O W hk1]
    unfold inFlightV idle
    ihave HF := (Guarded.elim_pos k1_h6) $$ if1
    icases HF with ⟨HF9, HF10⟩
    ihave HF9 := (flight_eq (F := F) d L (land0 x3v d _ (k1_off104_inb L k k1_h5) (planeOf_lt L hk1) (by decide : 0 < 6) (off104_eq L k))) $$ HF9
    ihave HF10 := (flight_eq (F := F) d L (land1 x3v d _ (k1_off129_inb L k k1_h6) (planeOf_lt L hk1) (by decide : 1 < 6) (off129_eq L k))) $$ HF10
    ihave Hx9 := (rest_pos (F := F) k1_h6) $$ Hx9
    ihave Hx10 := (rest_pos (F := F) k1_h6) $$ Hx10
    isplitr; · iexact Hmw
    isplitl [HF9 Hx9 HF10 Hx10]
    · isplitl [HF9 Hx9]
      · iexists _
        isplitl [HF9]; · iexact HF9
        iexact Hx9
      · iexists _
        isplitl [HF10]; · iexact HF10
        iexact Hx10
    isplitl [Hs11 Hb2 Hx11]
    · isplitl [Hs11]; · iexact Hs11
      isplitl [Hb2]; · iexists _; iexact Hb2
      iexact Hx11
    isplitl [Hpr]; · iexact Hpr
    iexists _; isplitr
    rotate_left
    · iexact HO
    · ipureintro; exact waits_ok (waits_ok (waits_ok (waits_ok (waits_ok (waits_ok hW')))))
  · have k1_n6 : ¬ k1_cond6 k = 1#1 := fun h => hk1 ((cond6_iff k).mp h)
    irw [invV_ge x3v d L fp0 O W hk1]
    unfold idle
    ihave HF := (Guarded.elim_neg k1_n6) $$ if1
    icases HF with ⟨Hs9, Hb0, Hs10, Hb1⟩
    ihave Hx9 := (rest_neg (F := F) k1_n6) $$ Hx9
    ihave Hx10 := (rest_neg (F := F) k1_n6) $$ Hx10
    isplitr; · iexact Hmw
    isplitl [Hs9 Hb0 Hx9 Hs10 Hb1 Hx10]
    · isplitl [Hs9 Hb0 Hx9]
      · isplitl [Hs9]; · iexact Hs9
        isplitl [Hb0]; · iexists _; iexact Hb0
        iexact Hx9
      · isplitl [Hs10]; · iexact Hs10
        isplitl [Hb1]; · iexists _; iexact Hb1
        iexact Hx10
    isplitl [Hs11 Hb2 Hx11]
    · isplitl [Hs11]; · iexact Hs11
      isplitl [Hb2]; · iexists _; iexact Hb2
      iexact Hx11
    isplitl [Hpr]; · iexact Hpr
    iexists _; isplitr
    rotate_left
    · iexact HO
    · ipureintro; exact waits_ok (waits_ok (waits_ok (waits_ok (waits_ok (waits_ok hW')))))

end Tile

end Cert.Proof.KI.ScPoolV

end
-- ==== Proof.KI.ScPoolRegion.lean ====
/-
  The pooling task of one vector subcore, part 2: one plane.

  Before plane k, chunks 0 and 1 of the plane are on their way. The plane's trip starts chunk 2, waits for chunk 0 and adds its
  64 rows into the eight accumulators, starts chunk 3 into the buffer just read, waits for chunk 1, and so on through chunk 5;
  after chunk 3 it starts chunk 0 of the next plane and after chunk 4 chunk 1 of the next plane — unless this is the last plane
  (k + 1 = 6), when it starts nothing. Each buffer is read only between the wait for the copy into it and the start of the next
  copy into it. The trip ends with the eight accumulators summed to sixteen lanes and stored at words 16 k .. 16 k + 15 of the
  lane-sum row. Whether the two copies for the next plane were started is one condition (k + 1 < 6), decided only when the
  invariant is stated again.
-/
import proofs.«215010_g72713796321855_cont_9to1c4b_299_31_alg».proof.Proof.KI.ScPoolBase

noncomputable section

namespace Cert.Proof.KI.ScPool

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareTokN shareDrop)
open Idealize.ShloMosaic.Tactic

variable {F : FTy → Type}

local notation "𝕄" => MT nD τ sig (HIx 1) (Elt F) ℕ UU ℕ

local notation "x3M" => (Memref.whole Cert.KernelIdeal.main_v0_scv : Memref Cert.KernelIdeal.sig Kind.scVector Space.hbm Cert.KernelIdeal.S768x384x384 EltTy.f32)
local notation "oM" => (Memref.whole Cert.KernelIdeal.main_v2_scv : Memref Cert.KernelIdeal.sig Kind.scVector Space.hbm Cert.KernelIdeal.S3072 EltTy.f32)
local notation "b0M" => (Memref.whole Cert.KernelIdeal.cc1_scratch0 : Memref Cert.KernelIdeal.sig Kind.scVector Space.vmem Cert.KernelIdeal.S64x384 EltTy.f32)
local notation "b1M" => (Memref.whole Cert.KernelIdeal.cc1_scratch1 : Memref Cert.KernelIdeal.sig Kind.scVector Space.vmem Cert.KernelIdeal.S64x384 EltTy.f32)
local notation "b2M" => (Memref.whole Cert.KernelIdeal.cc1_scratch2 : Memref Cert.KernelIdeal.sig Kind.scVector Space.vmem Cert.KernelIdeal.S64x384 EltTy.f32)
local notation "prM" => (Memref.whole Cert.KernelIdeal.cc1_scratch3 : Memref Cert.KernelIdeal.sig Kind.scVector Space.vmem Cert.KernelIdeal.S96 EltTy.f32)

variable (x3v : (d : Dev nD) → Buf (Elt F) (x3Loc d))

section Tile

variable (d : Dev nD) (L : grid1.Coords)
variable [FloatOps F] [Named F]

theorem region (O : CellTallies nD τ sig (HIx 1)) (W : Waits sig (HIx 1)) (v3 : BitVec 32) (k : Fin k1_t1_loop.trips) :
    inv x3v d L O W k.val () ⊢ wp frame (wpE (defs₀ (F := F)) 𝒱₀ (V d (cV L) (jV L)) none) Set.univ
      (k1_t1_body L x3M (Memref.isWhole_whole _) oM (Memref.isWhole_whole _) b0M (Memref.isWhole_whole _) b1M (Memref.isWhole_whole _)
            b2M (Memref.isWhole_whole _) prM (Memref.isWhole_whole _) cc1_scratch4 cc1_scratch5 cc1_scratch6 cc1_scoped0 v3 k ()) (fun acc => inv x3v d L O W (k.val + 1) acc) := by
  have hk : k.val < 6 := k.isLt
  have k1_h1 : k1_cond1 k = 1#1 := by revert k; decide +kernel
  have k1_h2 : k1_cond2 k = 1#1 := by revert k; decide +kernel
  have k1_h3 : k1_cond3 k = 1#1 := by revert k; decide +kernel
  have k1_h4 : k1_cond4 k = 1#1 := by revert k; decide +kernel
  rw [inv_lt x3v d L O W hk]
  unfold inFlight idle
  iintro ⟨#Hmw, ⟨⟨%S9, %fb0, HF9, Hx9⟩, ⟨%S10, %fb1, HF10, Hx10⟩⟩, ⟨Hs11, ⟨%fb2, Hb2⟩, Hx11⟩, ⟨%fp, Hpr⟩, %W', %hW', HO⟩
  sl_exec
  sl_for (fun (_ : ℕ) (_ : FVec F S16 .f32 × FVec F S16 .f32 × FVec F S16 .f32 × FVec F S16 .f32 × FVec F S16 .f32 × FVec F S16 .f32 × FVec F S16 .f32 × FVec F S16 .f32) => ((b0M).view.loc (V d (cV L) (jV L)) ↦{fullShare} fb0 : sProp 𝕄)) $$ [HF9_dst]
  case region =>
    intro j acc
    obtain ⟨a13, a14, a15, a16, a17, a18, a19, a20⟩ := acc
    iintro Hb
    sl_exec
    sl_step
    iexact Hb
  · iexact HF9_dst
  iintro %accs HF9_dst
  obtain ⟨a13, a14, a15, a16, a17, a18, a19, a20⟩ := accs

  sl_exec
  sl_for (fun (_ : ℕ) (_ : FVec F S16 .f32 × FVec F S16 .f32 × FVec F S16 .f32 × FVec F S16 .f32 × FVec F S16 .f32 × FVec F S16 .f32 × FVec F S16 .f32 × FVec F S16 .f32) => ((b1M).view.loc (V d (cV L) (jV L)) ↦{fullShare} fb1 : sProp 𝕄)) $$ [HF10_dst]
  case region =>
    intro j acc
    obtain ⟨a13, a14, a15, a16, a17, a18, a19, a20⟩ := acc
    iintro Hb
    sl_exec
    sl_step
    iexact Hb
  · iexact HF10_dst
  iintro %accs HF10_dst
  obtain ⟨a13, a14, a15, a16, a17, a18, a19, a20⟩ := accs

  sl_exec
  ihave Hb2 := (buf_ex (F := F)) $$ Hb2
  icases Hb2 with ⟨%g2, Hb2⟩
  sl_for (fun (_ : ℕ) (_ : FVec F S16 .f32 × FVec F S16 .f32 × FVec F S16 .f32 × FVec F S16 .f32 × FVec F S16 .f32 × FVec F S16 .f32 × FVec F S16 .f32 × FVec F S16 .f32) => ((b2M).view.loc (V d (cV L) (jV L)) ↦{fullShare} g2 : sProp 𝕄)) $$ [Hb2]
  case region =>
    intro j acc
    obtain ⟨a13, a14, a15, a16, a17, a18, a19, a20⟩ := acc
    iintro Hb
    sl_exec
    sl_step
    iexact Hb
  · iexact Hb2
  iintro %accs Hb2
  obtain ⟨a13, a14, a15, a16, a17, a18, a19, a20⟩ := accs

  sl_exec
  ihave HF9_dst := (buf_ex (F := F)) $$ HF9_dst
  icases HF9_dst with ⟨%g0, HF9_dst⟩
  sl_for (fun (_ : ℕ) (_ : FVec F S16 .f32 × FVec F S16 .f32 × FVec F S16 .f32 × FVec F S16 .f32 × FVec F S16 .f32 × FVec F S16 .f32 × FVec F S16 .f32 × FVec F S16 .f32) => ((b0M).view.loc (V d (cV L) (jV L)) ↦{fullShare} g0 : sProp 𝕄)) $$ [HF9_dst]
  case region =>
    intro j acc
    obtain ⟨a13, a14, a15, a16, a17, a18, a19, a20⟩ := acc
    iintro Hb
    sl_exec
    sl_step
    iexact Hb
  · iexact HF9_dst
  iintro %accs HF9_dst
  obtain ⟨a13, a14, a15, a16, a17, a18, a19, a20⟩ := accs

  sl_exec

  ihave HF10_dst := (buf_ex (F := F)) $$ HF10_dst
  icases HF10_dst with ⟨%g1, HF10_dst⟩
  sl_for (fun (_ : ℕ) (_ : FVec F S16 .f32 × FVec F S16 .f32 × FVec F S16 .f32 × FVec F S16 .f32 × FVec F S16 .f32 × FVec F S16 .f32 × FVec F S16 .f32 × FVec F S16 .f32) => ((b1M).view.loc (V d (cV L) (jV L)) ↦{fullShare} g1 : sProp 𝕄)) $$ [HF10_dst]
  case region =>
    intro j acc
    obtain ⟨a13, a14, a15, a16, a17, a18, a19, a20⟩ := acc
    iintro Hb
    sl_exec
    sl_step
    iexact Hb
  · iexact HF10_dst
  iintro %accs HF10_dst
  obtain ⟨a13, a14, a15, a16, a17, a18, a19, a20⟩ := accs

  sl_exec
  ihave Hb2 := (buf_ex (F := F)) $$ Hb2
  icases Hb2 with ⟨%g2c, Hb2⟩
  sl_for (fun (_ : ℕ) (_ : FVec F S16 .f32 × FVec F S16 .f32 × FVec F S16 .f32 × FVec F S16 .f32 × FVec F S16 .f32 × FVec F S16 .f32 × FVec F S16 .f32 × FVec F S16 .f32) => ((b2M).view.loc (V d (cV L) (jV L)) ↦{fullShare} g2c : sProp 𝕄)) $$ [Hb2]
  case region =>
    intro j acc
    obtain ⟨a13, a14, a15, a16, a17, a18, a19, a20⟩ := acc
    iintro Hb
    sl_exec
    sl_step
    iexact Hb
  · iexact Hb2
  iintro %accs Hb2
  obtain ⟨a13, a14, a15, a16, a17, a18, a19, a20⟩ := accs

  sl_exec
  sl_step
  by_cases hk1 : k.val + 1 < 6
  · have k1_h5 : k1_cond5 k = 1#1 := (cond5_iff k).mpr hk1
    have k1_h6 : k1_cond6 k = 1#1 := (cond6_iff k).mpr hk1
    irw [inv_lt x3v d L O W hk1]
    unfold inFlight idle
    ihave HF := (Guarded.elim_pos k1_h6) $$ if1
    icases HF with ⟨HF9, HF10⟩
    ihave Hx9 := (rest_pos (F := F) k1_h6) $$ Hx9
    ihave Hx10 := (rest_pos (F := F) k1_h6) $$ Hx10
    isplitr; · iexact Hmw
    isplitl [HF9 Hx9 HF10 Hx10]
    · isplitl [HF9 Hx9]
      · iexists _; iexists _
        isplitl [HF9]; · iexact HF9
        iexact Hx9
      · iexists _; iexists _
        isplitl [HF10]; · iexact HF10
        iexact Hx10
    isplitl [Hs11 Hb2 Hx11]
    · isplitl [Hs11]; · iexact Hs11
      isplitl [Hb2]; · iexists _; iexact Hb2
      iexact Hx11
    isplitl [Hpr]; · iexists _; iexact Hpr
    iexists _; isplitr
    rotate_left
    · iexact HO
    · ipureintro; exact waits_ok (waits_ok (waits_ok (waits_ok (waits_ok (waits_ok hW')))))
  · have k1_n5 : ¬ k1_cond5 k = 1#1 := fun h => hk1 ((cond5_iff k).mp h)
    have k1_n6 : ¬ k1_cond6 k = 1#1 := fun h => hk1 ((cond6_iff k).mp h)
    irw [inv_ge x3v d L O W hk1]
    unfold idle
    ihave HF := (Guarded.elim_neg k1_n6) $$ if1
    icases HF with ⟨Hs9, Hb0, Hs10, Hb1⟩
    ihave Hx9 := (rest_neg (F := F) k1_n6) $$ Hx9
    ihave Hx10 := (rest_neg (F := F) k1_n6) $$ Hx10
    isplitr; · iexact Hmw
    isplitl [Hs9 Hb0 Hx9 Hs10 Hb1 Hx10]
    · isplitl [Hs9 Hb0 Hx9]
      · isplitl [Hs9]; · iexact Hs9
        isplitl [Hb0]; · iexists _; iexact Hb0
        iexact Hx9
      · isplitl [Hs10]; · iexact Hs10
        isplitl [Hb1]; · iexists _; iexact Hb1
        iexact Hx10
    isplitl [Hs11 Hb2 Hx11]
    · isplitl [Hs11]; · iexact Hs11
      isplitl [Hb2]; · iexists _; iexact Hb2
      iexact Hx11
    isplitl [Hpr]; · iexists _; iexact Hpr
    iexists _; isplitr
    rotate_left
    · iexact HO
    · ipureintro; exact waits_ok (waits_ok (waits_ok (waits_ok (waits_ok (waits_ok hW')))))

end Tile

end Cert.Proof.KI.ScPool

end
-- ==== Proof.KI.ScPool.lean ====
/-
  The pooling task of one vector subcore, part 3: the whole task and the launch theorem's obligation.

  The task starts chunks 0 and 1 of its first plane, goes through its six planes, and copies the 96 lane sums to words
  96 w .. 96 w + 95 of the partials array on a semaphore of its own, waiting for that copy before it ends. It gives back its read
  share of the plane array whole, its buffers and semaphores as it found them (every semaphore at zero), and owns its 96 words of
  the partials array throughout. Every wait it makes is on a semaphore of its own at no index of the launch's handshakes.
-/
import proofs.«215010_g72713796321855_cont_9to1c4b_299_31_alg».proof.Proof.KI.ScPoolRegion

noncomputable section

namespace Cert.Proof.KI.ScPool

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareTokN shareDrop)
open Idealize.ShloMosaic.Tactic

variable {F : FTy → Type}

local notation "𝕄" => MT nD τ sig (HIx 1) (Elt F) ℕ UU ℕ

local notation "x3M" => (Memref.whole Cert.KernelIdeal.main_v0_scv : Memref Cert.KernelIdeal.sig Kind.scVector Space.hbm Cert.KernelIdeal.S768x384x384 EltTy.f32)
local notation "oM" => (Memref.whole Cert.KernelIdeal.main_v2_scv : Memref Cert.KernelIdeal.sig Kind.scVector Space.hbm Cert.KernelIdeal.S3072 EltTy.f32)
local notation "b0M" => (Memref.whole Cert.KernelIdeal.cc1_scratch0 : Memref Cert.KernelIdeal.sig Kind.scVector Space.vmem Cert.KernelIdeal.S64x384 EltTy.f32)
local notation "b1M" => (Memref.whole Cert.KernelIdeal.cc1_scratch1 : Memref Cert.KernelIdeal.sig Kind.scVector Space.vmem Cert.KernelIdeal.S64x384 EltTy.f32)
local notation "b2M" => (Memref.whole Cert.KernelIdeal.cc1_scratch2 : Memref Cert.KernelIdeal.sig Kind.scVector Space.vmem Cert.KernelIdeal.S64x384 EltTy.f32)
local notation "prM" => (Memref.whole Cert.KernelIdeal.cc1_scratch3 : Memref Cert.KernelIdeal.sig Kind.scVector Space.vmem Cert.KernelIdeal.S96 EltTy.f32)

variable (x3v : (d : Dev nD) → Buf (Elt F) (x3Loc d))

section Tile

variable (d : Dev nD) (L : grid1.Coords)
variable [FloatOps F] [Named F]

/-- The task of vector subcore (L 0, L 1): two chunks started, the six planes (each: four more chunks of the plane and two of
    the next started, six waited for and summed row by row, the lane sums stored), the 96 lane sums copied out. It only reads
    the planes (its share comes back whole) and writes its own 96 words of the partials array. -/
theorem tile_body (hF : (K (F := F)).Facts) (O : CellTallies nD τ sig (HIx 1)) (W : Waits sig (HIx 1)) (hO : ∀ g, O g none = 0) :
    (iprop(levAts (K (F := F)).L (K (F := F)).lev ∗ emp
        ∗ ((x3Loc d ↦{qT L} x3v d) ∗ ∃ f, pLoc d ↦[outSet (wid (cL L) (sL L))]{fullShare} f)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc1__sc_pool_body L x3M (Memref.isWhole_whole _) oM (Memref.isWhole_whole _) b0M (Memref.isWhole_whole _) b1M (Memref.isWhole_whole _)
            b2M (Memref.isWhole_whole _) prM (Memref.isWhole_whole _) cc1_scratch4 cc1_scratch5 cc1_scratch6 cc1_scoped0)
          fun _ => iprop(((x3Loc d ↦{qT L} x3v d) ∗ ∃ f, pLoc d ↦[outSet (wid (cL L) (sL L))]{fullShare} f)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__sc_pool_body_eq_skeleton]; unfold cc1__sc_pool_body_skel
  rw [(K (F := F)).scopedBufs_V hF d (cV L) (jV L), SparseCore.Cfg.scopedSems0_V (Val := Elt F) d (cV L) (jV L), ownSems0_V, ownBufs_V]
  iintro ⟨#Hlv, -, ⟨Hx, %fo, Ho⟩, ⟨⟨%f0, Hb0⟩, ⟨%f1, Hb1⟩, ⟨%f2, Hb2⟩, ⟨%fp, Hpr⟩, Hbufs⟩, ⟨Hs8, Hs9, Hs10, HsR, Hsems⟩, HO⟩
  ihave Hmw := ((K (F := F)).mayWaits_none (thr := (V d (cV L) (jV L))) hO) $$ Hlv
  ihave Hx := (toks_split (F := F) (qT L)).1 $$ Hx
  icases Hx with ⟨Hxr, Hx9, Hx10, Hx11⟩
  ihave Hx9 := (Entails.of_eq (pts_x3 (F := F) d L _ _).symm) $$ Hx9
  ihave Hx10 := (Entails.of_eq (pts_x3 (F := F) d L _ _).symm) $$ Hx10
  ihave Hx11 := (Entails.of_eq (pts_x3 (F := F) d L _ _).symm) $$ Hx11
  ihave Hb0 := (Entails.of_eq (pts_b0 (F := F) d L _).symm) $$ Hb0
  ihave Hb1 := (Entails.of_eq (pts_b1 (F := F) d L _).symm) $$ Hb1
  ihave Hb2 := (Entails.of_eq (pts_b2 (F := F) d L _).symm) $$ Hb2
  ihave Hpr := (Entails.of_eq (pts_pr (F := F) d L _).symm) $$ Hpr
  sl_exec
  sl_for (inv x3v d L O W) $$ [Hs8 Hx9 Hs9 Hx10 Hs10 Hb2 Hx11 Hpr HO]
  case region =>
    intro k u
    exact region x3v d L O W _ k
  · irw [inv_lt x3v d L O W (by decide : 0 < 6)]
    unfold inFlight idle
    isplitr; · iexact Hmw
    isplitl [Hs8 Hx9 Hs9 Hx10]
    · isplitl [Hs8 Hx9]
      · iexists _; iexists _
        isplitl [Hs8]; · iexact Hs8
        iexact Hx9
      · iexists _; iexists _
        isplitl [Hs9]; · iexact Hs9
        iexact Hx10
    isplitl [Hs10 Hb2 Hx11]
    · isplitl [Hs10]; · iexact Hs10
      isplitl [Hb2]; · iexists _; iexact Hb2
      iexact Hx11
    isplitl [Hpr]; · iexists _; iexact Hpr
    iexists W; isplitr
    · ipureintro; exact fun p hp => .inl hp
    · iexact HO
  iintro %u HI
  have h6 : ¬ k1_t1_loop.trips < 6 := by decide
  ihave HI := (Entails.of_eq (inv_ge x3v d L O W (k := k1_t1_loop.trips) h6 u)) $$ HI
  unfold idle
  icases HI with ⟨-, ⟨⟨Hs8, ⟨%g0, Hb0⟩, Hx9⟩, ⟨Hs9, ⟨%g1, Hb1⟩, Hx10⟩⟩, ⟨Hs10, ⟨%g2, Hb2⟩, Hx11⟩, ⟨%gp, Hpr⟩, %W', %hW', HO⟩
  ihave Ho := (Entails.of_eq (pts_out (F := F) d L _).symm) $$ Ho
  sl_exec
  sl_step
  ihave Hx9 := (Entails.of_eq (pts_x3 (F := F) d L _ _)) $$ Hx9
  ihave Hx10 := (Entails.of_eq (pts_x3 (F := F) d L _ _)) $$ Hx10
  ihave Hx11 := (Entails.of_eq (pts_x3 (F := F) d L _ _)) $$ Hx11
  isplitl [Hxr Hx9 Hx10 Hx11 Ho]
  · isplitl [Hxr Hx9 Hx10 Hx11]
    · iapply (toks_split (F := F) (qT L)).2
      isplitl [Hxr]; · iexact Hxr
      isplitl [Hx9]; · iexact Hx9
      isplitl [Hx10] <;> iassumption
    · iexists _; iapply (Entails.of_eq (pts_out (F := F) d L _)); iexact Ho
  isplitl [Hb0 Hb1 Hb2 Hpr Hbufs]
  · isplitl [Hb0]; · iexists _; iexact Hb0
    isplitl [Hb1]; · iexists _; iexact Hb1
    isplitl [Hb2]; · iexists _; iexact Hb2
    isplitl [Hpr]; · iexists _; iexact Hpr
    iexact Hbufs
  isplitl [Hs8 Hs9 Hs10 HsR Hsems]
  · isplitl [Hs8]; · iexact Hs8
    isplitl [Hs9]; · iexact Hs9
    isplitl [Hs10]; · iexact Hs10
    isplitl [HsR]; · iexact HsR
    iexact Hsems
  iexists _; isplitr
  rotate_left
  · iexact HO
  · ipureintro; exact waits_ok hW'

end Tile

/-! ## The launch theorem's obligation -/

section Obligation

variable [FloatOps F] [Named F]

/-- What the SparseCore call's handshakes carry when only the shape of the result is kept: a SparseCore is handed a read share
    of the planes and the words of the partials array its vector subcores write (at some contents); a vector subcore its part of the share and
    its own 96 words; back come the same, the words at some contents. -/
def PE : (K (F := F)).Pay (nD := nD) (Val := Elt F) (Name := ℕ) (U := UU) where
  st := fun q d c => match q with
    | 0 => iprop((x3Loc d ↦{coreShare (Fin.cast nCore_zero c)} x3v d) ∗ ∃ f, pLoc d ↦[coreOut (Fin.cast nCore_zero c)]{fullShare} f)
  dn := fun q d c => match q with
    | 0 => iprop((x3Loc d ↦{coreShare (Fin.cast nCore_zero c)} x3v d) ∗ ∃ f, pLoc d ↦[coreOut (Fin.cast nCore_zero c)]{fullShare} f)
  go := fun q d c i => match q with
    | 0 => iprop((x3Loc d ↦{tileShare (Fin.cast nCore_zero c) (Fin.cast nSub_zero i)} x3v d)
        ∗ ∃ f, pLoc d ↦[outSet (wid (Fin.cast nCore_zero c) (Fin.cast nSub_zero i))]{fullShare} f)
  td := fun q d c i => match q with
    | 0 => iprop((x3Loc d ↦{tileShare (Fin.cast nCore_zero c) (Fin.cast nSub_zero i)} x3v d)
        ∗ ∃ f, pLoc d ↦[outSet (wid (Fin.cast nCore_zero c) (Fin.cast nSub_zero i))]{fullShare} f)
  x := fun _ _ => iprop(emp)

instance PE_storable : (PE (F := F) x3v).IsStorable where
  st q d c := match q with
    | 0 => (inferInstance : BI.Storable (upEmb : UEmb _ 𝕄)
        iprop((x3Loc d ↦{coreShare (Fin.cast nCore_zero c)} x3v d) ∗ ∃ f, pLoc d ↦[coreOut (Fin.cast nCore_zero c)]{fullShare} f))
  dn q d c := match q with
    | 0 => (inferInstance : BI.Storable (upEmb : UEmb _ 𝕄)
        iprop((x3Loc d ↦{coreShare (Fin.cast nCore_zero c)} x3v d) ∗ ∃ f, pLoc d ↦[coreOut (Fin.cast nCore_zero c)]{fullShare} f))
  go q d c i := match q with
    | 0 => (inferInstance : BI.Storable (upEmb : UEmb _ 𝕄)
        iprop((x3Loc d ↦{tileShare (Fin.cast nCore_zero c) (Fin.cast nSub_zero i)} x3v d)
          ∗ ∃ f, pLoc d ↦[outSet (wid (Fin.cast nCore_zero c) (Fin.cast nSub_zero i))]{fullShare} f))
  td q d c i := match q with
    | 0 => (inferInstance : BI.Storable (upEmb : UEmb _ 𝕄)
        iprop((x3Loc d ↦{tileShare (Fin.cast nCore_zero c) (Fin.cast nSub_zero i)} x3v d)
          ∗ ∃ f, pLoc d ↦[outSet (wid (Fin.cast nCore_zero c) (Fin.cast nSub_zero i))]{fullShare} f))

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ⟨⟩
      = SparseCore.onTile hcore1 hsub1 (fun c s => cc1__sc_pool_body (coordsV c s)
          x3M (Memref.isWhole_whole _) oM (Memref.isWhole_whole _) b0M (Memref.isWhole_whole _) b1M (Memref.isWhole_whole _)
          b2M (Memref.isWhole_whole _) prM (Memref.isWhole_whole _) cc1_scratch4 cc1_scratch5 cc1_scratch6 cc1_scoped0) ⟨⟩ c s := rfl

omit [FloatOps F] [Named F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every vector subcore's task at the one SparseCore call. -/
theorem tileObl (hF : (K (F := F)).Facts) : (K (F := F)).TileObl (D (F := F)) 𝒱 (PE x3v) v₀ 0 := by
  intro d c i O W hO _ _
  simp only [show (PE x3v).ox = fun _ _ => 0 from rfl, add_zero]
  change _ ⊢ wp _ _ _ (Pipeline.liftProg (defs₀ (F := F) (.scVector ((K (F := F)).core 0 c) ((K (F := F)).sub 0 i)) 1 ⟨⟩)) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body x3v d (coordsV ⟨_, hc.1⟩ ⟨_, hc.2⟩) hF O W hO).trans (wp_mono frame _ _ fun _ => obl_post)

end Obligation

end Cert.Proof.KI.ScPool

end
-- ==== Proof.KI.ScPoolV.lean ====
/-
  The pooling task of one vector subcore with its values named, part 3: the whole task and the launch theorem's obligation.

  After the six planes the lane-sum row, read at word y, is lane y mod 16 of the subcore's plane number y / 16, whatever the row
  held at the start: the six stores of sixteen words cover it. The last copy writes the row to words 96 w .. 96 w + 95 of the
  partials array, so those words are the partials array's values: word j is lane j mod 16 of plane 576 + j / 16.
-/
import proofs.«215010_g72713796321855_cont_9to1c4b_299_31_alg».proof.Proof.KI.ScPoolVRegion
import proofs.«215010_g72713796321855_cont_9to1c4b_299_31_alg».proof.Proof.KI.ScPool
import Idealize.ShloMosaic.Lib.ValueIdx

noncomputable section

namespace Cert.Proof.KI.ScPoolV

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareTokN shareDrop)
open Idealize.ShloMosaic.Tactic
open Cert.Proof.KI.ScPool
open Cert.Proof.KI

variable {F : FTy → Type}

local notation "𝕄" => MT nD τ sig (HIx 1) (Elt F) ℕ UU ℕ

local notation "x3M" => (Memref.whole Cert.KernelIdeal.main_v0_scv : Memref Cert.KernelIdeal.sig Kind.scVector Space.hbm Cert.KernelIdeal.S768x384x384 EltTy.f32)
local notation "oM" => (Memref.whole Cert.KernelIdeal.main_v2_scv : Memref Cert.KernelIdeal.sig Kind.scVector Space.hbm Cert.KernelIdeal.S3072 EltTy.f32)
local notation "b0M" => (Memref.whole Cert.KernelIdeal.cc1_scratch0 : Memref Cert.KernelIdeal.sig Kind.scVector Space.vmem Cert.KernelIdeal.S64x384 EltTy.f32)
local notation "b1M" => (Memref.whole Cert.KernelIdeal.cc1_scratch1 : Memref Cert.KernelIdeal.sig Kind.scVector Space.vmem Cert.KernelIdeal.S64x384 EltTy.f32)
local notation "b2M" => (Memref.whole Cert.KernelIdeal.cc1_scratch2 : Memref Cert.KernelIdeal.sig Kind.scVector Space.vmem Cert.KernelIdeal.S64x384 EltTy.f32)
local notation "prM" => (Memref.whole Cert.KernelIdeal.cc1_scratch3 : Memref Cert.KernelIdeal.sig Kind.scVector Space.vmem Cert.KernelIdeal.S96 EltTy.f32)

variable (x3v : (d : Dev nD) → Buf (Elt F) (x3Loc d))

section Tile

variable (d : Dev nD) (L : grid1.Coords)
variable [FloatOps F] [Named F]

/-- What the lane-sum row holds after the six planes: word y is lane y mod 16 of the plane of number y / 16 among the subcore's. -/
def rowG (y : S96.Idx) : Elt F .f32 :=
  ScVal.planeVec (x3v d) (planeOf L ((y 0).val / 16))
    (planeOf_lt L (by have h : (y 0).val < 96 := (y 0).isLt; omega))
    (ValueIdx.ix1 (⟨(y 0).val % 16, Nat.mod_lt _ (by decide)⟩ : Fin 16))

/-- The store of plane r's lane sums. -/
abbrev pieceOf (r : Fin k1_t1_loop.trips) : View.Piece (Elt F) S96 .f32 :=
  ⟨Rect.unit (s := S96) (k1_off154 r) S16.size (k1_off154_inb r), ScVal.planeVec (x3v d) (planeOf L r.val) (planeOf_lt L r.isLt)⟩

theorem pieces_mem : ∀ {k : ℕ}, k ≤ 6 → ∀ p ∈ pieces x3v d L k, ∃ r : Fin k1_t1_loop.trips, r.val < k ∧ p = pieceOf x3v d L r
  | 0, _, p, hp => by simp [pieces] at hp
  | k + 1, hk, p, hp => by
    have hk6 : k < 6 := Nat.lt_of_succ_le hk
    rw [pieces_succ x3v d L ⟨k, hk6⟩] at hp
    rcases List.mem_cons.mp hp with rfl | hp
    · exact ⟨⟨k, hk6⟩, Nat.lt_succ_self k, rfl⟩
    · obtain ⟨r, hr, e⟩ := pieces_mem (Nat.le_of_lt hk6) p hp
      exact ⟨r, Nat.lt_succ_of_lt hr, e⟩

theorem pieces_has (r : Fin k1_t1_loop.trips) : ∀ {k : ℕ}, k ≤ 6 → r.val < k → pieceOf x3v d L r ∈ pieces x3v d L k
  | 0, _, hr => absurd hr (Nat.not_lt_zero _)
  | k + 1, hk, hr => by
    have hk6 : k < 6 := Nat.lt_of_succ_le hk
    rw [pieces_succ x3v d L ⟨k, hk6⟩]
    by_cases h : r.val = k
    · have : r = ⟨k, hk6⟩ := Fin.ext h
      subst this; exact List.mem_cons_self
    · exact List.mem_cons_of_mem _ (pieces_has r (Nat.le_of_lt hk6) (Nat.lt_of_le_of_ne (Nat.le_of_lt_succ hr) h))

theorem piece_emb (r : Fin k1_t1_loop.trips) (x : S16.Idx) :
    (((Rect.unit (s := S96) (k1_off154 r) S16.size (k1_off154_inb r)).emb x) 0).val = 16 * r.val + (x 0).val := by
  rw [Rect.emb_apply]
  show k1_off154 r 0 + 1 * (x 0).val = 16 * r.val + (x 0).val
  rw [k1_off154_eq]
  simp

theorem piece_agrees (r : Fin k1_t1_loop.trips) (x : S16.Idx) :
    ScVal.planeVec (x3v d) (planeOf L r.val) (planeOf_lt L r.isLt) x
      = rowG x3v d L ((Rect.unit (s := S96) (k1_off154 r) S16.size (k1_off154_inb r)).emb x) := by
  have he := piece_emb r x
  have hx : (x 0).val < 16 := (x 0).isLt
  have hq : (16 * r.val + (x 0).val) / 16 = r.val := by omega
  have hm : (16 * r.val + (x 0).val) % 16 = (x 0).val := by omega
  unfold rowG
  have hp : planeOf L ((((Rect.unit (s := S96) (k1_off154 r) S16.size (k1_off154_inb r)).emb x) 0).val / 16) = planeOf L r.val := by
    rw [he, hq]
  rw [ScVal.planeVec_congr (x3v d) hp _ (planeOf_lt L r.isLt)]
  refine congrArg _ ?_
  refine (ValueIdx.eq_ix1 x).trans ?_
  refine congrArg ValueIdx.ix1 (Fin.ext ?_)
  show (x 0).val = (((Rect.unit (s := S96) (k1_off154 r) S16.size (k1_off154_inb r)).emb x) 0).val % 16
  rw [he, hm]

theorem row_cover (y : S96.Idx) : ∃ p ∈ pieces x3v d L 6, y ∈ p.1.set := by
  have hy : (y 0).val < 96 := (y 0).isLt
  have hr : (y 0).val / 16 < k1_t1_loop.trips := by show (y 0).val / 16 < 6; omega
  refine ⟨pieceOf x3v d L ⟨(y 0).val / 16, hr⟩, pieces_has x3v d L _ (le_refl 6) (by show (y 0).val / 16 < 6; omega), ?_⟩
  show y ∈ (Rect.unit (s := S96) (k1_off154 ⟨(y 0).val / 16, hr⟩) S16.size (k1_off154_inb _)).set
  rw [Rect.mem_set_unit]
  intro a
  have ha : a = 0 := Fin.ext (Nat.lt_one_iff.mp a.isLt)
  subst ha
  rw [k1_off154_eq]
  simp
  omega

/-- The lane-sum row after the six planes, read at any word, whatever it held at the start. -/
theorem row_read (fp : Buf (Elt F) ((prM).view.loc (V d (cV L) (jV L)))) (y : S96.Idx) :
    (prM).view.read (Elt F) ((prM).view.writes (Elt F) fp (pieces x3v d L 6)) y = rowG x3v d L y :=
  View.read_writes_apply_of_pieces (prM).view fp (rowG x3v d L) (pieces x3v d L 6)
    (fun p hp x => by
      obtain ⟨r, -, rfl⟩ := pieces_mem x3v d L (le_refl 6) p hp
      exact piece_agrees x3v d L r x)
    y (row_cover x3v d L y)

theorem out_emb (y : S96.Idx) : (((outK L).view.emb y) 0).val = 192 * (L 1).val + 96 * (L 0).val + (y 0).val := by
  show (((Rect.unit (s := S3072) (k1_off155 L) S96.size (k1_off155_inb L)).emb y) 0).val = _
  rw [Rect.emb_apply]
  show k1_off155 L 0 + 1 * (y 0).val = 192 * (L 1).val + 96 * (L 0).val + (y 0).val
  rw [k1_off155_eq]
  simp

/-- The 96 words the subcore's last copy writes are the partials array's values there. -/
theorem out_val (fo : Buf (Elt F) ((outK L).view.loc (V d (cV L) (jV L)))) (fp : Buf (Elt F) ((prM).view.loc (V d (cV L) (jV L)))) :
    ∀ i ∈ (outK L).view.set,
      (outK L).view.writes (Elt F) fo [(⟨Rect.whole S96, (prM).view.read (Elt F) ((prM).view.writes (Elt F) fp (pieces x3v d L 6))⟩ : View.Piece (Elt F) S96 .f32)] i
        = ScVal.scVal (x3v d) i := by
  intro i hi
  obtain ⟨y, -, rfl⟩ := Finset.mem_map.mp hi
  have hw : (Rect.whole S96).emb y = y := by
    funext a; apply Fin.ext; rw [Rect.emb_apply]
    show 0 + 1 * (y a).val = (y a).val
    omega
  have h1 := View.read_writes_cons_emb (outK L).view fo (Rect.whole S96)
    ((prM).view.read (Elt F) ((prM).view.writes (Elt F) fp (pieces x3v d L 6))) [] y
  rw [hw] at h1
  refine (h1 : _ = _).trans ?_
  rw [row_read]
  have he := out_emb L y
  have hy : (y 0).val < 96 := (y 0).isLt
  unfold rowG ScVal.scVal
  have hp : planeOf L ((y 0).val / 16) = 576 + (((outK L).view.emb y) 0).val / 16 := by
    rw [he]; unfold planeOf; omega
  rw [ScVal.planeVec_congr (x3v d) hp _ (ScVal.plane_lt _)]
  refine congrArg _ (congrArg ValueIdx.ix1 (Fin.ext ?_))
  show (y 0).val % 16 = (((outK L).view.emb y) 0).val % 16
  rw [he]; omega

/-- The whole task with its values named: the 96 words end at the partials array's values, a function of the plane array alone. -/
theorem tile_bodyV (hF : (K (F := F)).Facts) (O : CellTallies nD τ sig (HIx 1)) (W : Waits sig (HIx 1)) (hO : ∀ g, O g none = 0) :
    (iprop(levAts (K (F := F)).L (K (F := F)).lev ∗ emp
        ∗ ((x3Loc d ↦{qT L} x3v d) ∗ ∃ f, pLoc d ↦[outSet (wid (cL L) (sL L))]{fullShare} f)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc1__sc_pool_body L x3M (Memref.isWhole_whole _) oM (Memref.isWhole_whole _) b0M (Memref.isWhole_whole _) b1M (Memref.isWhole_whole _)
            b2M (Memref.isWhole_whole _) prM (Memref.isWhole_whole _) cc1_scratch4 cc1_scratch5 cc1_scratch6 cc1_scoped0)
          fun _ => iprop(((x3Loc d ↦{qT L} x3v d) ∗ pLoc d ↦[outSet (wid (cL L) (sL L))]{fullShare} ScVal.scVal (x3v d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__sc_pool_body_eq_skeleton]; unfold cc1__sc_pool_body_skel
  rw [(K (F := F)).scopedBufs_V hF d (cV L) (jV L), SparseCore.Cfg.scopedSems0_V (Val := Elt F) d (cV L) (jV L), ownSems0_V, ownBufs_V]
  iintro ⟨#Hlv, -, ⟨Hx, %fo, Ho⟩, ⟨⟨%f0, Hb0⟩, ⟨%f1, Hb1⟩, ⟨%f2, Hb2⟩, ⟨%fp, Hpr⟩, Hbufs⟩, ⟨Hs8, Hs9, Hs10, HsR, Hsems⟩, HO⟩
  ihave Hmw := ((K (F := F)).mayWaits_none (thr := (V d (cV L) (jV L))) hO) $$ Hlv
  ihave Hx := (toks_split (F := F) (qT L)).1 $$ Hx
  icases Hx with ⟨Hxr, Hx9, Hx10, Hx11⟩
  ihave Hx9 := (Entails.of_eq (pts_x3 (F := F) d L _ _).symm) $$ Hx9
  ihave Hx10 := (Entails.of_eq (pts_x3 (F := F) d L _ _).symm) $$ Hx10
  ihave Hx11 := (Entails.of_eq (pts_x3 (F := F) d L _ _).symm) $$ Hx11
  ihave Hb0 := (Entails.of_eq (pts_b0 (F := F) d L _).symm) $$ Hb0
  ihave Hb1 := (Entails.of_eq (pts_b1 (F := F) d L _).symm) $$ Hb1
  ihave Hb2 := (Entails.of_eq (pts_b2 (F := F) d L _).symm) $$ Hb2
  ihave Hpr := (Entails.of_eq (pts_pr (F := F) d L _).symm) $$ Hpr
  sl_exec
  have h06 : (0 : ℕ) < 6 := by decide
  ihave Hs8 := (flight_eq (F := F) d L (land0 x3v d _ (k1_off1_inb L) (planeOf_lt L h06) (by decide : 0 < 6) (off1_eq L))) $$ Hs8
  ihave Hs9 := (flight_eq (F := F) d L (land1 x3v d _ (k1_off2_inb L) (planeOf_lt L h06) (by decide : 1 < 6) (off2_eq L))) $$ Hs9
  sl_for (invV x3v d L fp O W) $$ [Hs8 Hx9 Hs9 Hx10 Hs10 Hb2 Hx11 Hpr HO]
  case region =>
    intro k u
    exact regionV x3v d L fp O W _ k
  · irw [invV_lt x3v d L fp O W h06]
    unfold inFlightV idle
    isplitr; · iexact Hmw
    isplitl [Hs8 Hx9 Hs9 Hx10]
    · isplitl [Hs8 Hx9]
      · iexists _
        isplitl [Hs8]; · iexact Hs8
        iexact Hx9
      · iexists _
        isplitl [Hs9]; · iexact Hs9
        iexact Hx10
    isplitl [Hs10 Hb2 Hx11]
    · isplitl [Hs10]; · iexact Hs10
      isplitl [Hb2]; · iexists _; iexact Hb2
      iexact Hx11
    isplitl [Hpr]; · iexact Hpr
    iexists W; isplitr
    · ipureintro; exact fun p hp => .inl hp
    · iexact HO
  iintro %u HI
  have h6 : ¬ k1_t1_loop.trips < 6 := by decide
  have ht : k1_t1_loop.trips = 6 := by decide
  ihave HI := (Entails.of_eq (invV_ge x3v d L fp O W (k := k1_t1_loop.trips) h6 u)) $$ HI
  unfold idle
  icases HI with ⟨-, ⟨⟨Hs8, ⟨%g0, Hb0⟩, Hx9⟩, ⟨Hs9, ⟨%g1, Hb1⟩, Hx10⟩⟩, ⟨Hs10, ⟨%g2, Hb2⟩, Hx11⟩, Hpr, %W', %hW', HO⟩
  ihave Hpr := (pts_eq (F := F) (congrArg (fun n => (prM).view.writes (Elt F) fp (pieces x3v d L n)) ht)) $$ Hpr
  ihave Ho := (Entails.of_eq (pts_out (F := F) d L _).symm) $$ Ho
  sl_exec
  sl_step
  ihave Ho := (Entails.of_eq (pointsTo_congr (out_val x3v d L _ fp))) $$ Ho
  ihave Hx9 := (Entails.of_eq (pts_x3 (F := F) d L _ _)) $$ Hx9
  ihave Hx10 := (Entails.of_eq (pts_x3 (F := F) d L _ _)) $$ Hx10
  ihave Hx11 := (Entails.of_eq (pts_x3 (F := F) d L _ _)) $$ Hx11
  isplitl [Hxr Hx9 Hx10 Hx11 Ho]
  · isplitl [Hxr Hx9 Hx10 Hx11]
    · iapply (toks_split (F := F) (qT L)).2
      isplitl [Hxr]; · iexact Hxr
      isplitl [Hx9]; · iexact Hx9
      isplitl [Hx10] <;> iassumption
    · iapply (Entails.of_eq (pts_out (F := F) d L _)); iexact Ho
  isplitl [Hb0 Hb1 Hb2 Hpr Hbufs]
  · isplitl [Hb0]; · iexists _; iexact Hb0
    isplitl [Hb1]; · iexists _; iexact Hb1
    isplitl [Hb2]; · iexists _; iexact Hb2
    isplitl [Hpr]; · iexists _; iexact Hpr
    iexact Hbufs
  isplitl [Hs8 Hs9 Hs10 HsR Hsems]
  · isplitl [Hs8]; · iexact Hs8
    isplitl [Hs9]; · iexact Hs9
    isplitl [Hs10]; · iexact Hs10
    isplitl [HsR]; · iexact HsR
    iexact Hsems
  iexists _; isplitr
  rotate_left
  · iexact HO
  · ipureintro; exact waits_ok hW'

end Tile

/-! ## The launch theorem's obligation -/

section Obligation

variable [FloatOps F] [Named F]

/-- Every vector subcore's task at the one SparseCore call, with the partials array's final contents named. -/
theorem tileObl (hF : (K (F := F)).Facts) : (K (F := F)).TileObl (D (F := F)) 𝒱 (P x3v (fun d => ScVal.scVal (x3v d))) v₀ 0 := by
  intro d c i O W hO _ _
  simp only [show (P x3v (fun d => ScVal.scVal (x3v d))).ox = fun _ _ => 0 from rfl, add_zero]
  change _ ⊢ wp _ _ _ (Pipeline.liftProg (defs₀ (F := F) (.scVector ((K (F := F)).core 0 c) ((K (F := F)).sub 0 i)) 1 ⟨⟩)) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_bodyV x3v d (coordsV ⟨_, hc.1⟩ ⟨_, hc.2⟩) hF O W hO).trans (wp_mono frame _ _ fun _ => obl_post)

end Obligation

end Cert.Proof.KI.ScPoolV

end
-- ==== Proof.KI.Proj.lean ====
/-
  The projection kernel's body at the region's one point: from its four operands' staging buffers and the result's, it
  loads the operands whole, computes its one store and stores it over the whole of the result's buffer; nothing else
  is touched, and what the core owes the launch is carried along.
-/
import proofs.«215010_g72713796321855_cont_9to1c4b_299_31_alg».proof.Proof.KI.Regions
import proofs.«215010_g72713796321855_cont_9to1c4b_299_31_alg».proof.Proof.Gen.KernelIdeal.Skeleton
import Idealize.ShloMosaic.Lib.Tactic
import Idealize.ShloMosaic.Lib.Pipeline.FrameBody
import Idealize.ShloMosaic.Lib.Pipeline.Value

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- A memref's buffer on the TensorCore held whole at contents f. -/
abbrev ptM (c : Dev nD) {sp : Space} {S : Shape} {e : EltTy} (M : Memref sig .tc sp S e) (f : Buf (Elt F) (M.view.loc (c.tc : Thread nD τ))) : sProp 𝕄 :=
  M.view.loc (c.tc : Thread nD τ) ↦{fullShare} f

/-- The projection body run from its five staging buffers held whole, the four operands' at f0 … f3, WITH what the
    result's buffer holds afterwards (over whatever it held before: all of it is overwritten). -/
def projCore (c : Dev nD) (M0 : Memref sig .tc .vmem S576x1 .f32) (h0 : M0.IsWhole) (M1 : Memref sig .tc .vmem S192x16 .f32) (h1 : M1.IsWhole)
    (M2 : Memref sig .tc .vmem S128x576 .f32) (h2 : M2.IsWhole) (M3 : Memref sig .tc .vmem S128x192 .f32) (h3 : M3.IsWhole)
    (M4 : Memref sig .tc .vmem S128x1 .f32) (h4 : M4.IsWhole)
    (f0 : Buf (Elt F) (M0.view.loc (c.tc : Thread nD τ))) (f1 : Buf (Elt F) (M1.view.loc (c.tc : Thread nD τ)))
    (f2 : Buf (Elt F) (M2.view.loc (c.tc : Thread nD τ))) (f3 : Buf (Elt F) (M3.view.loc (c.tc : Thread nD τ))) :
    { pay : Buf (Elt F) (M4.view.loc (c.tc : Thread nD τ)) //
      ∀ (f4 : Buf (Elt F) (M4.view.loc (c.tc : Thread nD τ))) (Q : PUnit → sProp 𝕄),
        iprop(ptM c M0 f0 ∗ ptM c M1 f1 ∗ ptM c M2 f2 ∗ ptM c M3 f3 ∗ ptM c M4 f4
            ∗ (iprop(ptM c M0 f0 ∗ ptM c M1 f1 ∗ ptM c M2 f2 ∗ ptM c M3 f3 ∗ ptM c M4 pay) -∗ Q ⟨⟩))
          ⊢ wp frame (wpE (defs₀ (F := F)) 𝒱₀ (c.tc : Thread nD τ) none) Set.univ (cc2__proj_body (F := F) M0 h0 M1 h1 M2 h2 M3 h3 M4 h4) Q } := by
  refine ⟨?_, fun f4 Q => ?run⟩
  case run =>
    iintro ⟨H0, H1, H2, H3, H4, Hk⟩
    simp only [cc2__proj_body_eq_skeleton]; unfold cc2__proj_body_skel
    sl_exec!
    sl_step
    iapply Hk
    isplitl [H0]; · iexact H0
    isplitl [H1]; · iexact H1
    isplitl [H2]; · iexact H2
    isplitl [H3]; · iexact H3
    iexact H4

/-- The zero offsets of a rank-two whole-array access, as the library's lemmas spell them. -/
theorem hz2 : (![0, 0] : Fin 2 → Nat) = fun _ => 0 := funext fun a => by fin_cases a <;> rfl

/-- From the pipeline's own staging buffers, what the run leaves in the result's is the body's store of the four
    operands' contents: every load reads a whole buffer, the store covers the whole buffer. -/
theorem projCore_val (c : Dev nD) (f0 : Buf (Elt F) ((Memref.whole cc2_stg0_0 : Memref sig .tc .vmem S576x1 .f32).view.loc (c.tc : Thread nD τ)))
    (f1 : Buf (Elt F) ((Memref.whole cc2_stg1_0 : Memref sig .tc .vmem S192x16 .f32).view.loc (c.tc : Thread nD τ)))
    (f2 : Buf (Elt F) ((Memref.whole cc2_stg2_0 : Memref sig .tc .vmem S128x576 .f32).view.loc (c.tc : Thread nD τ)))
    (f3 : Buf (Elt F) ((Memref.whole cc2_stg3_0 : Memref sig .tc .vmem S128x192 .f32).view.loc (c.tc : Thread nD τ))) :
    (projCore c (Memref.whole cc2_stg0_0) (Memref.isWhole_whole _) (Memref.whole cc2_stg1_0) (Memref.isWhole_whole _)
      (Memref.whole cc2_stg2_0) (Memref.isWhole_whole _) (Memref.whole cc2_stg3_0) (Memref.isWhole_whole _)
      (Memref.whole cc2_stg4_0) (Memref.isWhole_whole _) f0 f1 f2 f3).1 = k2_pay1 f0 f1 f2 f3 := by
  show (Memref.whole cc2_stg4_0 : Memref sig .tc .vmem S128x1 .f32).view.read (Elt F)
    ((Memref.whole cc2_stg4_0 : Memref sig .tc .vmem S128x1 .f32).view.writes (Elt F) _ _) = _
  unfold projCore.sl.H4_1
  rw [View.read_writes_junk_eq_canon, View.canon_unit_zero (S := S128x1) hz2]
  simp only [View.readAt_eq_ld, View.ld_unit_zero (S := S576x1) hz2, View.ld_unit_zero (S := S192x16) hz2,
    View.ld_unit_zero (S := S128x576) hz2, View.ld_unit_zero (S := S128x192) hz2, Memref.view_whole, View.read_whole]

/-! ## The body as the projection region takes it -/

variable (m : (ℓ : Loc nD τ sig) → Buf (Elt F) ℓ)
variable (tcVal : (d : Dev nD) → (cfg0.win 0).block.Idx → Elt F (cfg0.win 0).elt)
variable (pv : (d : Dev nD) → Buf (Elt F) (pLoc d))

/-- What the projection leaves in its result's staging buffer: its store of its four operands as staged, each the
    whole array the host laid out. -/
def projValDef (d : Dev nD) : (cfg2.win 4).block.Idx → Elt F (cfg2.win 4).elt :=
  k2_pay1 (((cfg2.win 0).blk t2_0).view.read (Elt F) (VB m tcVal pv d ((cfg2.win 0).arr.view.loc (d.tc : Thread nD τ)).2))
    (((cfg2.win 1).blk t2_0).view.read (Elt F) (VB m tcVal pv d ((cfg2.win 1).arr.view.loc (d.tc : Thread nD τ)).2))
    (((cfg2.win 2).blk t2_0).view.read (Elt F) (VB m tcVal pv d ((cfg2.win 2).arr.view.loc (d.tc : Thread nD τ)).2))
    (((cfg2.win 3).blk t2_0).view.read (Elt F) (VB m tcVal pv d ((cfg2.win 3).arr.view.loc (d.tc : Thread nD τ)).2))

theorem projValDef_eq (d : Dev nD) :
    projValDef m tcVal pv d = k2_pay1 ((dat2 m tcVal pv (projValDef m tcVal pv) d).after 0 t2_0)
      ((dat2 m tcVal pv (projValDef m tcVal pv) d).after 1 t2_0) ((dat2 m tcVal pv (projValDef m tcVal pv) d).after 2 t2_0)
      ((dat2 m tcVal pv (projValDef m tcVal pv) d).after 3 t2_0) := rfl

omit [FloatOps F] [Named F] in
/-- A whole buffer held through its memref at contents X is its points-to at contents X. -/
theorem owns_whole_eq (c : Dev nD) (b : Ref sig .tc) (X : b.ty.Contents (Elt F)) :
    (owns (Ix := HIx 1) (Name := ℕ) (U := UU) (Lvl := ℕ) (c.tc : Thread nD τ) (Memref.whole b) fullShare X : sProp 𝕄)
      = iprop(∃ f : Buf (Elt F) ((c.tc : Thread nD τ).loc b), ⌜f = X⌝ ∗ (((c.tc : Thread nD τ).loc b) ↦{fullShare} f)) := by
  unfold owns; simp only [Memref.view_whole, View.read_whole, View.set_whole]

theorem projRun : ProjRun m tcVal pv (projValDef m tcVal pv) := by
  intro c O W _
  show iprop(Φ2 (F := F) c ∗ owes (SparseCore.T c) O W
      ∗ owns (c.tc : Thread nD τ) (Memref.whole cc2_stg0_0) fullShare ((dat2 m tcVal pv (projValDef m tcVal pv) c).after 0 t2_0)
      ∗ owns (c.tc : Thread nD τ) (Memref.whole cc2_stg1_0) fullShare ((dat2 m tcVal pv (projValDef m tcVal pv) c).after 1 t2_0)
      ∗ owns (c.tc : Thread nD τ) (Memref.whole cc2_stg2_0) fullShare ((dat2 m tcVal pv (projValDef m tcVal pv) c).after 2 t2_0)
      ∗ owns (c.tc : Thread nD τ) (Memref.whole cc2_stg3_0) fullShare ((dat2 m tcVal pv (projValDef m tcVal pv) c).after 3 t2_0)
      ∗ (∃ X, owns (c.tc : Thread nD τ) (Memref.whole cc2_stg4_0) fullShare X))
    ⊢ wp frame (wpE (defs₀ (F := F)) 𝒱₀ (c.tc : Thread nD τ) none) Set.univ (bodyAt2 (F := F) t2_0) fun _ =>
        iprop(Φ2 (F := F) c ∗ (∃ W', ⌜∀ p ∈ W', p ∈ W ∨ p.2 = none⌝ ∗ owes (SparseCore.T c) O W')
          ∗ owns (c.tc : Thread nD τ) (Memref.whole cc2_stg0_0) fullShare ((dat2 m tcVal pv (projValDef m tcVal pv) c).after 0 t2_0)
          ∗ owns (c.tc : Thread nD τ) (Memref.whole cc2_stg1_0) fullShare ((dat2 m tcVal pv (projValDef m tcVal pv) c).after 1 t2_0)
          ∗ owns (c.tc : Thread nD τ) (Memref.whole cc2_stg2_0) fullShare ((dat2 m tcVal pv (projValDef m tcVal pv) c).after 2 t2_0)
          ∗ owns (c.tc : Thread nD τ) (Memref.whole cc2_stg3_0) fullShare ((dat2 m tcVal pv (projValDef m tcVal pv) c).after 3 t2_0)
          ∗ owns (c.tc : Thread nD τ) (Memref.whole cc2_stg4_0) fullShare (projValDef m tcVal pv c))
  simp only [owns_whole_eq]
  iintro ⟨HΦ, HO, ⟨%f0, %hf0, H0⟩, ⟨%f1, %hf1, H1⟩, ⟨%f2, %hf2, H2⟩, ⟨%f3, %hf3, H3⟩, ⟨%X, %f4, %hf4, H4⟩⟩
  subst hf0 hf1 hf2 hf3
  iapply ((projCore c (Memref.whole cc2_stg0_0) (Memref.isWhole_whole _) (Memref.whole cc2_stg1_0) (Memref.isWhole_whole _)
    (Memref.whole cc2_stg2_0) (Memref.isWhole_whole _) (Memref.whole cc2_stg3_0) (Memref.isWhole_whole _)
    (Memref.whole cc2_stg4_0) (Memref.isWhole_whole _)
    ((dat2 m tcVal pv (projValDef m tcVal pv) c).after 0 t2_0) ((dat2 m tcVal pv (projValDef m tcVal pv) c).after 1 t2_0)
    ((dat2 m tcVal pv (projValDef m tcVal pv) c).after 2 t2_0) ((dat2 m tcVal pv (projValDef m tcVal pv) c).after 3 t2_0)).2 f4 _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [HO]
  · iexists W; isplitr
    · ipureintro; exact fun p hp => Or.inl hp
    · iexact HO
  isplitl [H0]
  · iexists _; isplitr; swap; (· iexact H0); ipureintro; rfl
  isplitl [H1]
  · iexists _; isplitr; swap; (· iexact H1); ipureintro; rfl
  isplitl [H2]
  · iexists _; isplitr; swap; (· iexact H2); ipureintro; rfl
  isplitl [H3]
  · iexists _; isplitr; swap; (· iexact H3); ipureintro; rfl
  iexists _; isplitr; swap; (· iexact H4)
  ipureintro
  exact (projCore_val c _ _ _ _).trans (projValDef_eq m tcVal pv c).symm

end Cert.Proof.KI

end
-- ==== Proof.KB.Common.lean ====
/-
  What the proof's modules for the word-level kernel share: the program as the SparseCore launch theorem sees it, the
  resource algebra (the launch handshakes' rounds beside the two TensorCore regions' staging cells and the transfers'
  counters), and what the one SparseCore call's handshakes carry.

  The program pools 768 planes of 384 x 384 numbers. Planes 0..575 are summed on the TensorCore; plane 576 + 6 w + r
  (w < 32, r < 6) is summed, lane by lane, by vector subcore w = 2 s + c, which leaves sixteen lane sums at words
  (6 w + r) * 16 .. of the partials array. A vector subcore only READS the plane array (a share of it) and OWNS the 96
  words of the partials array it writes.
-/
import proofs.«215010_g72713796321855_cont_9to1c4b_299_31_alg».proof.Defs
import proofs.«215010_g72713796321855_cont_9to1c4b_299_31_alg».proof.Proof.Gen.Kernel
import proofs.«215010_g72713796321855_cont_9to1c4b_299_31_alg».proof.Proof.Gen.Kernel.Launch
import Idealize.ShloMosaic.Lib.SparseCore.Launch
import Idealize.ShloMosaic.Lib.StableHlo.Run
import Idealize.ShloMosaic.Lib.Pipeline.Kit
import Idealize.ShloMosaic.Lib.Transfers
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UU : Type := UH × (UR sig nD τ × Counters)

local notation "𝕄" => MT nD τ sig (HIx 1) (Elt F) ℕ UU ℕ

/-- The handshakes' rounds: the left factor. -/
abbrev EH : Emb UH (MT nD τ sig (HIx 1) (Elt F) ℕ UU ℕ) := embL
/-- The TensorCore regions' staging cells' rounds: the left factor of the right factor. -/
def EP : Emb (UR sig nD τ) (MT nD τ sig (HIx 1) (Elt F) ℕ UU ℕ) :=
  (Emb.inl : Emb (UR sig nD τ) (UR sig nD τ × Counters)).trans embR

instance EP_landsIn : (EP : Emb (UR sig nD τ) 𝕄).LandsIn (upEmb : UEmb _ 𝕄) := by unfold EP; infer_instance

/-! ## The arrays the SparseCore call works on -/

/-- The planes, x reshaped to 768 x 384 x 384. -/
abbrev x3Loc (d : Dev nD) : Loc nD τ sig := (SparseCore.T d).loc main_v0
/-- The TensorCore pool's plane sums, 576 x 1 x 1. -/
abbrev sLoc (d : Dev nD) : Loc nD τ sig := (SparseCore.T d).loc main_v1
/-- The SparseCore pool's lane sums, 3072 words. -/
abbrev pLoc (d : Dev nD) : Loc nD τ sig := (SparseCore.T d).loc main_v2

/-- Vector subcore s of SparseCore c works as number 2 s + c. -/
def wid (c : Fin 2) (s : Fin 16) : Fin 32 := ⟨s.val * 2 + c.val, by omega⟩

/-- The 96 words of the partials array that vector subcore number w writes. -/
def outSet (w : Fin 32) : Finset S3072.Idx := Finset.univ.filter fun j => w.val * 96 ≤ (j 0).val ∧ (j 0).val < w.val * 96 + 96
/-- The words SparseCore c's sixteen vector subcores write. -/
def coreOut (c : Fin 2) : Finset S3072.Idx := Finset.univ.biUnion fun s : Fin 16 => outSet (wid c s)

/-- SparseCore c's read share of the planes, and vector subcore s's part of it. -/
def coreShare (c : Fin 2) : PosShare TreeShare := shareTok fullShare 2 c
def tileShare (c : Fin 2) (s : Fin 16) : PosShare TreeShare := shareTok (coreShare c) 16 s

variable (x3v : (d : Dev nD) → Buf (Elt F) (x3Loc d)) (pv : (d : Dev nD) → Buf (Elt F) (pLoc d))

/-- What the one SparseCore call's handshakes carry: a SparseCore is handed a read share of the planes (at contents
    x3v) and the words of the partials array its vector subcores write; a vector subcore its part of the share and its own 96 words;
    back come the same, the words at their final contents pv. -/
def P : (K (F := F)).Pay (nD := nD) (Val := Elt F) (Name := ℕ) (U := UU) where
  st := fun q d c => match q with
    | 0 => iprop((x3Loc d ↦{coreShare (Fin.cast nCore_zero c)} x3v d) ∗ ∃ f, pLoc d ↦[coreOut (Fin.cast nCore_zero c)]{fullShare} f)
  dn := fun q d c => match q with
    | 0 => iprop((x3Loc d ↦{coreShare (Fin.cast nCore_zero c)} x3v d) ∗ pLoc d ↦[coreOut (Fin.cast nCore_zero c)]{fullShare} pv d)
  go := fun q d c i => match q with
    | 0 => iprop((x3Loc d ↦{tileShare (Fin.cast nCore_zero c) (Fin.cast nSub_zero i)} x3v d)
        ∗ ∃ f, pLoc d ↦[outSet (wid (Fin.cast nCore_zero c) (Fin.cast nSub_zero i))]{fullShare} f)
  td := fun q d c i => match q with
    | 0 => iprop((x3Loc d ↦{tileShare (Fin.cast nCore_zero c) (Fin.cast nSub_zero i)} x3v d)
        ∗ pLoc d ↦[outSet (wid (Fin.cast nCore_zero c) (Fin.cast nSub_zero i))]{fullShare} pv d)
  x := fun _ _ => iprop(emp)

instance P_storable : (P (F := F) x3v pv).IsStorable where
  st q d c := match q with
    | 0 => (inferInstance : BI.Storable (upEmb : UEmb _ 𝕄)
        iprop((x3Loc d ↦{coreShare (Fin.cast nCore_zero c)} x3v d) ∗ ∃ f, pLoc d ↦[coreOut (Fin.cast nCore_zero c)]{fullShare} f))
  dn q d c := match q with
    | 0 => (inferInstance : BI.Storable (upEmb : UEmb _ 𝕄)
        iprop((x3Loc d ↦{coreShare (Fin.cast nCore_zero c)} x3v d) ∗ pLoc d ↦[coreOut (Fin.cast nCore_zero c)]{fullShare} pv d))
  go q d c i := match q with
    | 0 => (inferInstance : BI.Storable (upEmb : UEmb _ 𝕄)
        iprop((x3Loc d ↦{tileShare (Fin.cast nCore_zero c) (Fin.cast nSub_zero i)} x3v d)
          ∗ ∃ f, pLoc d ↦[outSet (wid (Fin.cast nCore_zero c) (Fin.cast nSub_zero i))]{fullShare} f))
  td q d c i := match q with
    | 0 => (inferInstance : BI.Storable (upEmb : UEmb _ 𝕄)
        iprop((x3Loc d ↦{tileShare (Fin.cast nCore_zero c) (Fin.cast nSub_zero i)} x3v d)
          ∗ pLoc d ↦[outSet (wid (Fin.cast nCore_zero c) (Fin.cast nSub_zero i))]{fullShare} pv d))

end Cert.Proof.KB

end
-- ==== Proof.KB.Main.lean ====
/-
  The entry program of the kernel as printed cut at its three calls: a reshape; the TensorCore pooling region; the
  SparseCore call; the seventeen host operations that lay the block-diagonal weight matrix out and reshape the two
  pools' results; the TensorCore projection region; the final reshape.
-/
import proofs.«215010_g72713796321855_cont_9to1c4b_299_31_alg».proof.Proof.KB.Common

noncomputable section

namespace Cert.Proof.KB

open Cert.Kernel Cert.Kernel.Gen
open Idealize.ShloMosaic Idealize.ShloMosaic.StableHlo
open Idealize.SL Idealize.SL.Sem

variable {F : FTy → Type} [FloatOps F]

/-- The planes laid out: x as 768 planes. -/
abbrev opsA : List (HloOp τ sig (Elt F)) :=
  [ StableHlo.reshape main_arg0 main_v0 rfl shapeCasts_S8x96x384x384_S768x384x384 ]

/-- The weight matrix M[16 b + e, 96 b' + c] = [b = b'] * W[e, c] with its two column blocks, and the two pools'
    results as a column and as rows of sixteen lanes. -/
abbrev opsB : List (HloOp τ sig (Elt F)) :=
  [ StableHlo.nullary main_v3 (iotaInDim S8x8 32 0),
    StableHlo.nullary main_v4 (iotaInDim S8x8 32 1),
    StableHlo.nullary main_c (constantI S_ 32 0#32),
    StableHlo.unary main_c main_v5 (broadcastInDim S8x8 ![] bcast_S_S8x8 : (⟨S_, .i32⟩ : BufTy).Contents (Elt F) → (⟨S8x8, .i32⟩ : BufTy).Contents (Elt F)),
    StableHlo.binary main_v3 main_v5 main_v6 (addi : (⟨S8x8, .i32⟩ : BufTy).Contents (Elt F) → (⟨S8x8, .i32⟩ : BufTy).Contents (Elt F) → (⟨S8x8, .i32⟩ : BufTy).Contents (Elt F)),
    StableHlo.binary main_v6 main_v4 main_v7 (cmpi .eq : (⟨S8x8, .i32⟩ : BufTy).Contents (Elt F) → (⟨S8x8, .i32⟩ : BufTy).Contents (Elt F) → (⟨S8x8, .i1⟩ : BufTy).Contents (Elt F)),
    StableHlo.unary main_v7 main_v8 (uitofp .f32 : (⟨S8x8, .i1⟩ : BufTy).Contents (Elt F) → (⟨S8x8, .f32⟩ : BufTy).Contents (Elt F)),
    StableHlo.unary main_v8 main_v9 (broadcastInDim S8x1x8x1 ![0, 2] bcast_S8x8_S8x1x8x1_0_2 : (⟨S8x8, .f32⟩ : BufTy).Contents (Elt F) → (⟨S8x1x8x1, .f32⟩ : BufTy).Contents (Elt F)),
    StableHlo.unary main_arg1 main_v10 (broadcastInDim S1x16x1x96 ![1, 3] bcast_S16x96_S1x16x1x96_1_3 : (⟨S16x96, .f32⟩ : BufTy).Contents (Elt F) → (⟨S1x16x1x96, .f32⟩ : BufTy).Contents (Elt F)),
    StableHlo.unary main_v9 main_v11 (broadcastInDim S8x16x8x96 ![0, 1, 2, 3] bcast_S8x1x8x1_S8x16x8x96_0_1_2_3 : (⟨S8x1x8x1, .f32⟩ : BufTy).Contents (Elt F) → (⟨S8x16x8x96, .f32⟩ : BufTy).Contents (Elt F)),
    StableHlo.unary main_v10 main_v12 (broadcastInDim S8x16x8x96 ![0, 1, 2, 3] bcast_S1x16x1x96_S8x16x8x96_0_1_2_3 : (⟨S1x16x1x96, .f32⟩ : BufTy).Contents (Elt F) → (⟨S8x16x8x96, .f32⟩ : BufTy).Contents (Elt F)),
    StableHlo.binary main_v11 main_v12 main_v13 (mulf : (⟨S8x16x8x96, .f32⟩ : BufTy).Contents (Elt F) → (⟨S8x16x8x96, .f32⟩ : BufTy).Contents (Elt F) → (⟨S8x16x8x96, .f32⟩ : BufTy).Contents (Elt F)),
    StableHlo.reshape main_v13 main_v14 rfl shapeCasts_S8x16x8x96_S128x768,
    StableHlo.reshape main_v1 main_v15 rfl shapeCasts_S576x1x1_S576x1,
    StableHlo.reshape main_v2 main_v16 rfl shapeCasts_S3072_S192x16,
    StableHlo.unary main_v14 main_v17 ((extractStridedSlice S128x576 ![0, 0] · slices_S128x768_S128x576_0_0) : (⟨S128x768, .f32⟩ : BufTy).Contents (Elt F) → (⟨S128x576, .f32⟩ : BufTy).Contents (Elt F)),
    StableHlo.unary main_v14 main_v18 ((extractStridedSlice S128x192 ![0, 576] · slices_S128x768_S128x192_0_576) : (⟨S128x768, .f32⟩ : BufTy).Contents (Elt F) → (⟨S128x192, .f32⟩ : BufTy).Contents (Elt F)) ]

/-- The result as 8 x 16. -/
abbrev opsC : List (HloOp τ sig (Elt F)) :=
  [ StableHlo.reshape main_v19 main_v20 rfl shapeCasts_S128x1_S8x16 ]

theorem main_eq (d : Dev nD) :
    main (F := F) d = (seq opsA >>= fun _ => Prog.lift (.customCall (SparseCore.inner (Pipeline.entry 0)) ()) >>= fun _ =>
      (sc (F := F)).run d 0 >>= fun _ => seq opsB >>= fun _ => Prog.lift (.customCall (SparseCore.inner (Pipeline.entry 1)) ()) >>= fun _ =>
      seq opsC) := rfl

end Cert.Proof.KB

end
-- ==== Proof.KB.LaunchParts.lean ====
/-
  The parts of the launch that do not run the entry program: how a SparseCore's share of the planes and its words of
  the partials array split among its sixteen vector subcores and come back; the launch element of the ghost state (the
  handshakes' rounds, and the two TensorCore regions' staging cells funded but not yet under invariants); and how the
  final assertions read the result and the unchanged arguments off the final memory.
-/
import proofs.«215010_g72713796321855_cont_9to1c4b_299_31_alg».proof.Proof.KB.Common
import proofs.«215010_g72713796321855_cont_9to1c4b_299_31_alg».proof.Proof.KB.Main

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within seq after)
open Idealize.ShloMosaic.Transfers (shareTok shareDrop pointsTo_toks_split pointsTo_toks_join)
open Idealize.ShloMosaic.Tactic

variable {F : FTy → Type} [FloatOps F]

local notation "𝕄" => MT nD τ sig (HIx 1) (Elt F) ℕ UU ℕ

abbrev adm : (p : Fin 2) → (pcfgs (F := F) p).Adm := fun p => (cfgs p).toPCfg_adm

theorem pcellOf_inj : Function.Injective (Pipeline.cellOf (nD := nD) (τ := τ) (Pipeline.pin (pcfgs (F := F)) adm)) := cellOf_inj

abbrev a0Loc (d : Dev nD) : Loc nD τ sig := (SparseCore.T d).loc main_arg0
abbrev a1Loc (d : Dev nD) : Loc nD τ sig := (SparseCore.T d).loc main_arg1
abbrev rLoc (d : Dev nD) : Loc nD τ sig := (SparseCore.T d).loc main_v20

variable (m : (ℓ : Loc nD τ sig) → Buf (Elt F) ℓ)
variable (x3v : (d : Dev nD) → Buf (Elt F) (x3Loc d)) (pv : (d : Dev nD) → Buf (Elt F) (pLoc d)) (KV : (d : Dev nD) → Buf (Elt F) (rLoc d))

/-! ## A SparseCore's operands among its vector subcores -/

omit [FloatOps F] in
theorem wid_inj (c : Fin 2) : Function.Injective (wid c) := by
  intro s s' h
  have := congrArg Fin.val h
  simp only [wid] at this
  exact Fin.ext (by omega)

omit [FloatOps F] in
/-- Two vector subcores' words are disjoint: 96 consecutive words each, at distinct multiples of 96. -/
theorem outSets_disjoint (c : Fin 2) :
    ∀ i ∈ (Finset.univ : Finset (Fin 16)), ∀ j ∈ (Finset.univ : Finset (Fin 16)), i ≠ j → Disjoint (outSet (wid c i)) (outSet (wid c j)) := by
  intro i _ j _ hij
  rw [Finset.disjoint_left]
  intro x hx hx'
  simp only [outSet, Finset.mem_filter, Finset.mem_univ, true_and] at hx hx'
  exact hij (wid_inj c (Fin.ext (by omega)))

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem out_split (d : Dev nD) (c : Fin 2) (f : Buf (Elt F) (pLoc d)) :
    (pLoc d ↦[coreOut c]{fullShare} f : sProp 𝕄) = bigSep Finset.univ fun s : Fin 16 => pLoc d ↦[outSet (wid c s)]{fullShare} f := by
  unfold coreOut
  rw [pointsTo_biUnion Finset.univ (ℓ := pLoc d) (fun s : Fin 16 => outSet (wid c s)) (outSets_disjoint c)]

omit [FloatOps F] in
theorem out_exists (d : Dev nD) (c : Fin 2) (f : Buf (Elt F) (pLoc d)) :
    (bigSep Finset.univ fun s : Fin 16 => (pLoc d ↦[outSet (wid c s)]{fullShare} f : sProp 𝕄))
      ⊢ bigSep Finset.univ fun s : Fin 16 => iprop(∃ f', pLoc d ↦[outSet (wid c s)]{fullShare} f') :=
  bigSep_mono fun s _ => exists_intro (Φ := fun f' => (pLoc d ↦[outSet (wid c s)]{fullShare} f' : sProp 𝕄)) f

theorem vecSplit : (K (F := F)).VecSplit' (P x3v pv) 0 := by
  intro d c
  show iprop((x3Loc d ↦{coreShare (Fin.cast nCore_zero c)} x3v d) ∗ ∃ f, pLoc d ↦[coreOut (Fin.cast nCore_zero c)]{fullShare} f) ⊢ |={Set.univ}=> iprop(
      (bigSep Finset.univ fun i : Fin ((K (F := F)).nSub 0) =>
        iprop((x3Loc d ↦{tileShare (Fin.cast nCore_zero c) (Fin.cast nSub_zero i)} x3v d)
          ∗ ∃ f, pLoc d ↦[outSet (wid (Fin.cast nCore_zero c) (Fin.cast nSub_zero i))]{fullShare} f))
      ∗ ((bigSep Finset.univ fun i : Fin ((K (F := F)).nSub 0) =>
          iprop((x3Loc d ↦{tileShare (Fin.cast nCore_zero c) (Fin.cast nSub_zero i)} x3v d)
            ∗ pLoc d ↦[outSet (wid (Fin.cast nCore_zero c) (Fin.cast nSub_zero i))]{fullShare} pv d))
          -∗ iprop((x3Loc d ↦{coreShare (Fin.cast nCore_zero c)} x3v d) ∗ pLoc d ↦[coreOut (Fin.cast nCore_zero c)]{fullShare} pv d)))
  generalize Fin.cast nCore_zero c = c'
  rw [bigSep_tasks (F := F) (fun i => iprop((x3Loc d ↦{tileShare c' i} x3v d) ∗ ∃ f, pLoc d ↦[outSet (wid c' i)]{fullShare} f)),
    bigSep_tasks (F := F) (fun i => iprop((x3Loc d ↦{tileShare c' i} x3v d) ∗ pLoc d ↦[outSet (wid c' i)]{fullShare} pv d)),
    bigSep_sep', bigSep_sep', out_split]
  unfold tileShare
  iintro ⟨Hx, %f, Hp⟩
  ihave Hx' := (pointsTo_toks_split (coreShare c') 16) $$ Hx
  icases Hx' with ⟨Hrem, Htoks⟩
  ihave Hp' := (Entails.of_eq (out_split (F := F) d c' f)) $$ Hp
  imodintro
  isplitl [Htoks Hp']
  · isplitl [Htoks]; · iexact Htoks
    iapply (out_exists (F := F) d c' f)
    iexact Hp'
  iintro ⟨Htoks, Hp⟩
  isplitl [Hrem Htoks]
  · iapply (pointsTo_toks_join (coreShare c') 16)
    isplitl [Hrem] <;> iassumption
  iexact Hp

/-! ## The launch element -/

def G (d : Dev nD) : sProp 𝕄 :=
  bigSep Finset.univ fun p : Fin 2 => iprop(Pipeline.cellsGhost (Pipeline.pin (pcfgs (F := F)) adm) EP p d ∗ Pipeline.toksInit (Pipeline.pin (pcfgs (F := F)) adm) EP p d)

def u₀ : UU := (initOf (K (F := F)).hsCells (K (F := F)).hsToks,
  (initOf (Pipeline.cells (Pipeline.pin (pcfgs (F := F)) adm) pcellOf_inj) (Pipeline.launchToks (Pipeline.pin (pcfgs (F := F)) adm) pcellOf_inj), 1))

omit [FloatOps F] in
theorem bigSep_emp' {I : Type} (s : Finset I) : (bigSep s fun _ => iprop(emp)) = (iprop(emp) : sProp 𝕄) := bigSep_emp_const s

omit [FloatOps F] in
theorem own_EP (x : UR sig nD τ) :
    (BI.own (((Emb.inl : Emb (UR sig nD τ) (UR sig nD τ × Counters)).trans (embR : Emb (UR sig nD τ × Counters) 𝕄)) x) : sProp 𝕄) = BI.own (EP (F := F) x) := rfl

theorem hu₀ : iprop((ownU (u₀ (F := F)) : sProp 𝕄) ∗ (P (F := F) x3v pv).oxCred ∗ (K (F := F)).freeSems0)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P (F := F) x3v pv).x q thr) := by
  unfold u₀
  iintro ⟨Hu, -, -⟩
  ihave H := (ownU_pair _ _) $$ Hu
  icases H with ⟨HH, HR⟩
  ihave HR' := (own_pair_emb (embR : Emb (UR sig nD τ × Counters) 𝕄) _ _) $$ HR
  icases HR' with ⟨HP, -⟩
  ihave HP := (Entails.of_eq (own_EP (F := F) _)) $$ HP
  imod (Pipeline.fund_ghost (Pipeline.pin (pcfgs (F := F)) adm) (EP (F := F)) pcellOf_inj) $$ HP with ⟨Hg, Ht⟩
  imodintro
  isplitl [HH]; · iexact HH
  isplitl [Hg Ht]
  · unfold G
    simp only [bigSep_sep']
    isplitl [Hg] <;> iassumption
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## Reading the claim off the final memory -/

abbrev FIN (d : Dev nD) : sProp 𝕄 := iprop((a0Loc d ↦{fullShare} m (a0Loc d)) ∗ (a1Loc d ↦{fullShare} m (a1Loc d)) ∗ (rLoc d ↦{fullShare} KV d))

def fq (d : Dev nD) (s' : Phys nD τ sig (Elt F)) : Prop :=
  s'.mem.mem (rLoc d) = KV d ∧ s'.mem.mem (a0Loc d) = m (a0Loc d) ∧ s'.mem.mem (a1Loc d) = m (a1Loc d)

theorem hfin (d : Dev nD) (s' : Phys nD τ sig (Elt F)) : iprop(FIN m KV d ∗ SI s') ⊢ (⌜fq m KV d s'⌝ : sProp 𝕄) := by
  iintro ⟨⟨H0, H1, Hr⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (SI_pointsTo_agree (st := s') (ℓ := rLoc d) (I := Finset.univ) (q := fullShare) (f := KV d)) $$ [HSI Hr]
  · isplitl [HSI] <;> iassumption
  icases H with %hr
  ipureintro
  exact ⟨funext fun i => hr i (Finset.mem_univ i), funext fun i => h0 i (Finset.mem_univ i), funext fun i => h1 i (Finset.mem_univ i)⟩

def QC : PUnit × MemSt nD τ sig (Elt F) → Prop := fun r => ∀ c : Dev nD,
  r.2.mem (rLoc c) = KV c ∧ r.2.mem (a0Loc c) = m (a0Loc c) ∧ r.2.mem (a1Loc c) = m (a1Loc c)

end Cert.Proof.KB

end
-- ==== Proof.KB.Host.lean ====
/-
  The host stretches' side conditions: every operation touches unscoped arrays of the TensorCore only, and none
  allocates. The valuations the stretches run between.
-/
import proofs.«215010_g72713796321855_cont_9to1c4b_299_31_alg».proof.Proof.KB.LaunchParts
import Idealize.ShloMosaic.Lib.Pipeline.Frame
import Idealize.ShloMosaic.Lib.Pipeline.Regions

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within seq after)
open Idealize.ShloMosaic.Transfers (shareTok shareDrop pointsTo_toks_split pointsTo_toks_join)
open Idealize.ShloMosaic.Tactic

variable {F : FTy → Type} [FloatOps F]

local notation "𝕄" => MT nD τ sig (HIx 1) (Elt F) ℕ UU ℕ

open Idealize.ShloMosaic.StableHlo (tcRefs nullary_bufs_sub unary_bufs_sub binary_bufs_sub reshape_bufs_sub wp_seq)
open Idealize.ShloMosaic.Pipeline (ucRefs unscopedBufs_held sub_ucRefs)

theorem forall_mem_of_Forall {α : Type} {p : α → Prop} {l : List α} (h : l.Forall p) : ∀ a ∈ l, p a :=
  fun a ha => (List.forall_iff_forall_mem.mp h) a ha

theorem opsA_tc : (opsA : List (HloOp τ sig (Elt F))).Forall fun op => op.bufs ⊆ tcRefs τ sig := reshape_bufs_sub ..
theorem opsB_tc : (opsB : List (HloOp τ sig (Elt F))).Forall fun op => op.bufs ⊆ tcRefs τ sig := ⟨nullary_bufs_sub .., nullary_bufs_sub .., nullary_bufs_sub .., unary_bufs_sub .., binary_bufs_sub .., binary_bufs_sub .., unary_bufs_sub .., unary_bufs_sub .., unary_bufs_sub .., unary_bufs_sub .., unary_bufs_sub .., binary_bufs_sub .., reshape_bufs_sub .., reshape_bufs_sub .., reshape_bufs_sub .., unary_bufs_sub .., unary_bufs_sub ..⟩
theorem opsC_tc : (opsC : List (HloOp τ sig (Elt F))).Forall fun op => op.bufs ⊆ tcRefs τ sig := reshape_bufs_sub ..
theorem opsA_fresh : (opsA : List (HloOp τ sig (Elt F))).Forall fun op => op.fresh = ∅ := rfl
theorem opsB_fresh : (opsB : List (HloOp τ sig (Elt F))).Forall fun op => op.fresh = ∅ := ⟨rfl, rfl, rfl, rfl, rfl, rfl, rfl, rfl, rfl, rfl, rfl, rfl, rfl, rfl, rfl, rfl, rfl⟩
theorem opsC_fresh : (opsC : List (HloOp τ sig (Elt F))).Forall fun op => op.fresh = ∅ := rfl

theorem opsA_sub : ∀ op ∈ (opsA : List (HloOp τ sig (Elt F))), op.bufs ⊆ ucRefs τ sig := fun op h => sub_ucRefs op (forall_mem_of_Forall opsA_tc op h)
theorem opsB_sub : ∀ op ∈ (opsB : List (HloOp τ sig (Elt F))), op.bufs ⊆ ucRefs τ sig := fun op h => sub_ucRefs op (forall_mem_of_Forall opsB_tc op h)
theorem opsC_sub : ∀ op ∈ (opsC : List (HloOp τ sig (Elt F))), op.bufs ⊆ ucRefs τ sig := fun op h => sub_ucRefs op (forall_mem_of_Forall opsC_tc op h)

variable (m : (ℓ : Loc nD τ sig) → Buf (Elt F) ℓ)

/-- The launch contents as a valuation; after the first reshape; the planes. -/
abbrev V0 (d : Dev nD) : Valuation τ sig (Elt F) := fun b => m (d, b)
abbrev VA (d : Dev nD) : Valuation τ sig (Elt F) := after opsA (V0 m d)
abbrev x3v (d : Dev nD) : Buf (Elt F) (x3Loc d) := VA m d (Proc.devRef .tc main_v0)

end Cert.Proof.KB

end
-- ==== Proof.KB.Regions.lean ====
/-
  The two TensorCore regions as the segment library takes them: their proof data (what each windowed array holds at
  entry, what the body leaves in each staging buffer, what the core owes the SparseCore launch meanwhile), the
  valuations the entry program runs between, and the regions' entry and exit.
-/
import proofs.«215010_g72713796321855_cont_9to1c4b_299_31_alg».proof.Proof.KB.Host
import proofs.«215010_g72713796321855_cont_9to1c4b_299_31_alg».proof.Proof.Gen.Kernel.Points

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within seq after)
open Idealize.ShloMosaic.Transfers (shareTok shareDrop pointsTo_toks_split pointsTo_toks_join)
open Idealize.ShloMosaic.Tactic

variable {F : FTy → Type} [FloatOps F]

local notation "𝕄" => MT nD τ sig (HIx 1) (Elt F) ℕ UU ℕ

open Idealize.ShloMosaic.StableHlo (tcRefs wp_seq)
open Idealize.ShloMosaic.Pipeline (ucRefs unscopedBufs_held sub_ucRefs)

variable (m : (ℓ : Loc nD τ sig) → Buf (Elt F) ℓ)
variable (tcVal : (d : Dev nD) → (cfg0.win 0).block.Idx → Elt F (cfg0.win 0).elt)
variable (pv : (d : Dev nD) → Buf (Elt F) (pLoc d))
variable (projVal : (d : Dev nD) → (cfg2.win 4).block.Idx → Elt F (cfg2.win 4).elt)

abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v19' : DevRef τ sig := Proc.devRef .tc (main_v19 : Ref sig .tc)
abbrev v20' : DevRef τ sig := Proc.devRef .tc (main_v20 : Ref sig .tc)

/-- The pooling kernel's own eight DMA semaphores. -/
abbrev osem0 : S8.Idx → SemLoc sig := fun i => .dma ((cc0_scratch1 : DmaSems sig S8).ix i)

/-- The recorded pairs of the TensorCore at or below a level. -/
abbrev recBelow (d : Dev nD) (b : ℕ) : Set (SemLoc sig × HIx 1) := {p | (K (F := F)).lev ((SparseCore.T d : Thread nD τ), p.1) p.2 ≤ b}

/-- The TensorCore before call n: what it owes the launch, its recorded pairs at or below level 8 n. -/
def owesB (d : Dev nD) (n : ℕ) : sProp 𝕄 :=
  iprop(∃ W, ⌜(K (F := F)).WBelow (SparseCore.T d) W (8 * n)⌝ ∗ owes (SparseCore.T d) ((K (F := F)).Otc d n) W)

/-! ## The pooling region -/

def Φ0 (d : Dev nD) : sProp 𝕄 :=
  iprop(levAts (K (F := F)).L (K (F := F)).lev ∗ (x3Loc d ↦{fullShare} x3v m d) ∗ Pipeline.ownSems0 osem0 d ∗ Pipeline.scopedRest spec0 d)

def dat0 (d : Dev nD) : Pipeline.Dat τ (Elt F) (HIx 1) ℕ UU ℕ cfg0 d where
  A w := VA m d ((cfg0.win w).arr.view.loc (d.tc : Thread nD τ)).2
  after w _ := match w with
    | ⟨0, _⟩ => tcVal d
  Φ _ := Φ0 m d
  q _ := fullShare
  owed _ := (K (F := F)).Otc d 0
  recorded _ := recBelow (F := F) d 0

/-- After the pooling region: the plane sums in place. -/
def V1 (d : Dev nD) : Valuation τ sig (Elt F) := Function.update (VA m d) v1' ((dat0 m tcVal d).arrAt 0 cfg0.N)
/-- After the SparseCore call: the partials in place. -/
def V2 (d : Dev nD) : Valuation τ sig (Elt F) := Function.update (V1 m tcVal d) v2' (pv d)
/-- After the host operations between the calls. -/
abbrev VB (d : Dev nD) : Valuation τ sig (Elt F) := after opsB (V2 m tcVal pv d)

/-! ## The projection region -/

def Φ2 (d : Dev nD) : sProp 𝕄 := iprop(levAts (K (F := F)).L (K (F := F)).lev ∗ Pipeline.scopedRest spec2 d)

def dat2 (d : Dev nD) : Pipeline.Dat τ (Elt F) (HIx 1) ℕ UU ℕ cfg2 d where
  A w := VB m tcVal pv d ((cfg2.win w).arr.view.loc (d.tc : Thread nD τ)).2
  after w _ := match w with
    | ⟨0, _⟩ => ((cfg2.win 0).blk t2_0).view.read (Elt F) (VB m tcVal pv d ((cfg2.win 0).arr.view.loc (d.tc : Thread nD τ)).2)
    | ⟨1, _⟩ => ((cfg2.win 1).blk t2_0).view.read (Elt F) (VB m tcVal pv d ((cfg2.win 1).arr.view.loc (d.tc : Thread nD τ)).2)
    | ⟨2, _⟩ => ((cfg2.win 2).blk t2_0).view.read (Elt F) (VB m tcVal pv d ((cfg2.win 2).arr.view.loc (d.tc : Thread nD τ)).2)
    | ⟨3, _⟩ => ((cfg2.win 3).blk t2_0).view.read (Elt F) (VB m tcVal pv d ((cfg2.win 3).arr.view.loc (d.tc : Thread nD τ)).2)
    | ⟨4, _⟩ => projVal d
  Φ _ := Φ2 d
  q _ := fullShare
  owed _ := (K (F := F)).Otc d 1
  recorded _ := recBelow (F := F) d 8

def pdats : (p : Fin 2) → (c : Dev nD) → Pipeline.Dat τ (Elt F) (HIx 1) ℕ UU ℕ (Pipeline.pin (pcfgs (F := F)) adm p) c
  | ⟨0, _⟩ => dat0 m tcVal
  | ⟨1, _⟩ => dat2 m tcVal pv projVal

/-- After the projection region; after the last reshape; the result. -/
def V3 (d : Dev nD) : Valuation τ sig (Elt F) := Function.update (VB m tcVal pv d) v19' ((dat2 m tcVal pv projVal d).arrAt 4 cfg2.N)
abbrev VC (d : Dev nD) : Valuation τ sig (Elt F) := after opsC (V3 m tcVal pv projVal d)
abbrev KV (d : Dev nD) : Buf (Elt F) (rLoc d) := VC m tcVal pv projVal d v20'

abbrev RS (p : Fin 2) := Pipeline.RegionSeg (pcfgs (F := F)) adm (pdats m tcVal pv projVal) (none : HIx 1) defs₀ 𝒱₀ (K (F := F)).L (K (F := F)).lev p

/-! ## The bodies' runs, as the regions take them -/

/-- The pooling body at the region's one point: from the planes, its eight semaphores at zero and the TensorCore's other
    scoped buffers, the output's staging buffer at any contents, the core owing the launch, to the same with the staging
    buffer at the plane sums. -/
def TcRun : Prop := ∀ (c : Dev nD) (O : CellTallies nD τ sig (HIx 1)) (W : Waits sig (HIx 1)), (∀ g, O g none = 0) →
  iprop(Φ0 m c ∗ owes (SparseCore.T c) O W ∗ (∃ X, owns (c.tc : Thread nD τ) (st0_0 t0_0) fullShare X))
    ⊢ wp frame (wpE (defs₀ (F := F)) 𝒱₀ (c.tc : Thread nD τ) none) Set.univ (bodyAt0 (F := F) t0_0) fun _ =>
        iprop(Φ0 m c ∗ (∃ W', ⌜∀ p ∈ W', p ∈ W ∨ p.2 = none⌝ ∗ owes (SparseCore.T c) O W') ∗ owns (c.tc : Thread nD τ) (st0_0 t0_0) fullShare (tcVal c))

/-- The projection body at its one point: from its four operands' staging buffers at the operands and the result's at
    any contents, to the result's at the projection. -/
def ProjRun : Prop := ∀ (c : Dev nD) (O : CellTallies nD τ sig (HIx 1)) (W : Waits sig (HIx 1)), (∀ g, O g none = 0) →
  iprop(Φ2 (F := F) c ∗ owes (SparseCore.T c) O W
      ∗ owns (c.tc : Thread nD τ) (st2_0 t2_0) fullShare ((dat2 m tcVal pv projVal c).after 0 t2_0)
      ∗ owns (c.tc : Thread nD τ) (st2_1 t2_0) fullShare ((dat2 m tcVal pv projVal c).after 1 t2_0)
      ∗ owns (c.tc : Thread nD τ) (st2_2 t2_0) fullShare ((dat2 m tcVal pv projVal c).after 2 t2_0)
      ∗ owns (c.tc : Thread nD τ) (st2_3 t2_0) fullShare ((dat2 m tcVal pv projVal c).after 3 t2_0)
      ∗ (∃ X, owns (c.tc : Thread nD τ) (st2_4 t2_0) fullShare X))
    ⊢ wp frame (wpE (defs₀ (F := F)) 𝒱₀ (c.tc : Thread nD τ) none) Set.univ (bodyAt2 (F := F) t2_0) fun _ =>
        iprop(Φ2 (F := F) c ∗ (∃ W', ⌜∀ p ∈ W', p ∈ W ∨ p.2 = none⌝ ∗ owes (SparseCore.T c) O W')
          ∗ owns (c.tc : Thread nD τ) (st2_0 t2_0) fullShare ((dat2 m tcVal pv projVal c).after 0 t2_0)
          ∗ owns (c.tc : Thread nD τ) (st2_1 t2_0) fullShare ((dat2 m tcVal pv projVal c).after 1 t2_0)
          ∗ owns (c.tc : Thread nD τ) (st2_2 t2_0) fullShare ((dat2 m tcVal pv projVal c).after 2 t2_0)
          ∗ owns (c.tc : Thread nD τ) (st2_3 t2_0) fullShare ((dat2 m tcVal pv projVal c).after 3 t2_0)
          ∗ owns (c.tc : Thread nD τ) (st2_4 t2_0) fullShare (projVal c))

omit [FloatOps F] in
/-- What the TensorCore owes the launch sits at the calls' indices, never at the kernels' own. -/
theorem Otc_none (d : Dev nD) (n : ℕ) (g : GSem nD τ sig) : (K (F := F)).Otc d n g none = 0 := by
  by_contra h
  have := (K (F := F)).lev_of_Otc_pos (Nat.pos_of_ne_zero h)
  rw [SparseCore.Cfg.lev_none] at this
  omega

omit [FloatOps F] in
theorem ho0 : Pipeline.OwnSemFacts spec0 osem0 := by decide

/-- The pooling region's one windowed array is the plane-sum array. -/
theorem arrays0_eq (c : Dev nD) (Fa) :
    ((pdats m tcVal pv projVal 0 c).arrays Fa : sProp 𝕄) = (sLoc c ↦{fullShare} Fa 0) := by
  rw [Pipeline.arrays_eq (Pipeline.pin (pcfgs (F := F)) adm) (pdats m tcVal pv projVal) 0 c launch0.arr_whole
    ((pdats m tcVal pv projVal 0 c).share_full fun _ => rfl) Fa, bigSep_W0]
  rfl

omit [FloatOps F] in
/-- A pair recorded at a kernel's own index sits at level zero. -/
theorem mem_recBelow_of_none (d : Dev nD) (b : ℕ) (p : SemLoc sig × HIx 1) (h : p.2 = none) : p ∈ recBelow (F := F) d b := by
  show (K (F := F)).lev _ p.2 ≤ b
  rw [h, SparseCore.Cfg.lev_none]; exact Nat.zero_le _

theorem body0_W (htc : TcRun m tcVal) (c : Dev nD) (W : Waits sig (HIx 1)) (hW : (↑W : Set (SemLoc sig × HIx 1)) ⊆ (dat0 m tcVal c).bound none t0_0.castSucc) :
    iprop(Φ0 m c ∗ owes (SparseCore.T c) ((K (F := F)).Otc c 0) W ∗ (∃ X, owns (c.tc : Thread nD τ) (st0_0 t0_0) fullShare X))
      ⊢ wp frame (wpE (defs₀ (F := F)) 𝒱₀ (c.tc : Thread nD τ) none) Set.univ (bodyAt0 (F := F) t0_0) fun _ =>
          iprop(Φ0 m c ∗ (dat0 m tcVal c).owesAt none t0_0.succ ∗ owns (c.tc : Thread nD τ) (st0_0 t0_0) fullShare (tcVal c)) :=
  (htc c _ W (Otc_none c 0)).trans (wp_mono frame _ _ fun _ => by
    iintro ⟨HΦ, ⟨%W', %hW', HO⟩, Hst⟩
    isplitl [HΦ]; · iexact HΦ
    isplitl [HO]
    · iexists W'; isplitr
      · ipureintro
        intro p hp
        rcases hW' p hp with h | h
        · exact hW h
        · exact Or.inl (mem_recBelow_of_none c 0 p h)
      · iexact HO
    iexact Hst)

theorem body_obligation0 (htc : TcRun m tcVal) (c : Dev nD) :
    Pipeline.BodyObligation (dat0 m tcVal c) (defs₀ (F := F)) 𝒱₀ (none : HIx 1) Set.univ := fun t => by
  obtain rfl := fin_N0 t
  rw [bigSep_W0, bigSep_W0]
  show iprop(Φ0 m c ∗ (dat0 m tcVal c).owesAt none t0_0.castSucc ∗ (∃ d, owns (c.tc : Thread nD τ) (st0_0 t0_0) fullShare ((dat0 m tcVal c).before 0 t0_0 d)))
     ⊢ wp frame (wpE (defs₀ (F := F)) 𝒱₀ (c.tc : Thread nD τ) none) Set.univ (bodyAt0 (F := F) t0_0) fun _ =>
         iprop(Φ0 m c ∗ (dat0 m tcVal c).owesAt none t0_0.succ ∗ owns (c.tc : Thread nD τ) (st0_0 t0_0) fullShare (tcVal c))
  iintro ⟨HΦ, ⟨%W, %hW, HO⟩, ⟨%d0, Hst⟩⟩
  iapply (body0_W m tcVal htc c W hW)
  isplitl [HΦ]; · iexact HΦ
  isplitl [HO]; · iexact HO
  iexists _; iexact Hst

omit [FloatOps F] in
/-- Pairs within a region's bound sit at or below the region's level. -/
theorem WBelow_of_bound (c : Dev nD) (n : ℕ) (cfg : Pipeline.Cfg sig Λ₀) (W : Waits sig (HIx 1))
    (hW : (↑W : Set (SemLoc sig × HIx 1)) ⊆ recBelow (F := F) c (8 * n) ∪ cfg.waitPairs (none : HIx 1)) :
    (K (F := F)).WBelow (SparseCore.T c) W (8 * n) := by
  intro p hp
  rcases hW hp with h | ⟨w, s, h⟩
  · exact h
  · rw [h, SparseCore.Cfg.lev_none]; exact Nat.zero_le _

def reg0 (htc : TcRun m tcVal) : RS m tcVal pv projVal 0 where
  win := launch0.win.to₀
  block_pos := launch0.block_pos
  stage_whole := launch0.stage_whole
  K := S8.Idx
  osem := osem0
  ho := ho0
  hbody c := (body_obligation0 m tcVal htc c).loose
  hwaits c := Pipeline.cellsWaits_of_cut _ (pdats m tcVal pv projVal) (none : HIx 1) 0 c (lev := (K (F := F)).lev) 0 ((K (F := F)).Otc c 0) (fun _ => rfl)
    (fun _ _ => Finset.mem_univ _) (fun _ _ => le_of_eq rfl) fun g i hg => ⟨Finset.mem_univ _, by have := (K (F := F)).lev_of_Otc_pos hg; omega⟩
  pre c := iprop((x3Loc c ↦{fullShare} x3v m c) ∗ (sLoc c ↦{fullShare} VA m c v1') ∗ owesB (F := F) c 0)
  post c := iprop((x3Loc c ↦{fullShare} x3v m c) ∗ (sLoc c ↦{fullShare} V1 m tcVal c v1') ∗ owesB (F := F) c 0)
  X c := iprop(levAts (K (F := F)).L (K (F := F)).lev ∗ (x3Loc c ↦{fullShare} x3v m c) ∗ Pipeline.ownSems0 osem0 c)
  Y c := iprop(x3Loc c ↦{fullShare} x3v m c)
  Z c := iprop(emp)
  hentry c := by
    rw [arrays0_eq]
    unfold owesB
    iintro ⟨⟨Hx, Hs, ⟨%W, %hW, HO⟩⟩, Hsem, #Hl⟩
    imodintro
    isplitl [Hs]; · iexact Hs
    isplitr
    · unfold Pipeline.prefHeld; rw [show (Finset.univ : Finset (Fin 0)) = ∅ from rfl, BI.bigSep_empty]; iempintro
    isplitl [HO]
    · iexists W; isplitr
      · ipureintro; exact fun p hp => Or.inl (hW p hp)
      · iexact HO
    isplitl [Hx Hsem]
    · isplitr; · iexact Hl
      isplitl [Hx] <;> iassumption
    iempintro
  hin c := by
    show _ ⊢ Φ0 m c
    unfold Φ0
    iintro ⟨⟨Hl, Hx, Hs⟩, -, Hr⟩
    isplitl [Hl]; · iexact Hl
    isplitl [Hx]; · iexact Hx
    isplitl [Hs]; · iexact Hs
    iexact Hr
  hout c := by
    show Φ0 m c ⊢ _
    unfold Φ0
    iintro ⟨-, Hx, Hs, Hr⟩
    isplitl [Hx]; · iexact Hx
    isplitl [Hs]; · iexact Hs
    iexact Hr
  hexit c := by
    rw [arrays0_eq, show V1 m tcVal c v1' = (dat0 m tcVal c).arrAt 0 cfg0.N from Function.update_self ..]
    unfold owesB
    iintro ⟨Hs, ⟨%W, %hW, HO⟩, Hx, -⟩
    imodintro
    isplitl [Hx]; · iexact Hx
    isplitl [Hs]; · iexact Hs
    iexists W; isplitr
    · ipureintro; exact WBelow_of_bound c 0 cfg0 W hW
    · iexact HO

/-! ## The projection region's record -/

abbrev bLoc (d : Dev nD) (b : Ref sig .tc) : Loc nD τ sig := (SparseCore.T d).loc b

theorem arrays2_eq (c : Dev nD) (Fa) :
    ((pdats m tcVal pv projVal 1 c).arrays Fa : sProp 𝕄)
      = iprop((bLoc c main_v15 ↦{fullShare} Fa 0) ∗ (bLoc c main_v16 ↦{fullShare} Fa 1) ∗ (bLoc c main_v17 ↦{fullShare} Fa 2)
          ∗ (bLoc c main_v18 ↦{fullShare} Fa 3) ∗ (bLoc c main_v19 ↦{fullShare} Fa 4)) := by
  rw [Pipeline.arrays_eq (Pipeline.pin (pcfgs (F := F)) adm) (pdats m tcVal pv projVal) 1 c launch2.arr_whole
    ((pdats m tcVal pv projVal 1 c).share_full fun _ => rfl) Fa, bigSep_W2]
  rfl

theorem before_in2_0 (c : Dev nD) (d) : (dat2 m tcVal pv projVal c).before 0 t2_0 d = (dat2 m tcVal pv projVal c).after 0 t2_0 := by
  unfold Pipeline.Dat.before; rw [if_pos (by decide)]; rfl
theorem before_in2_1 (c : Dev nD) (d) : (dat2 m tcVal pv projVal c).before 1 t2_0 d = (dat2 m tcVal pv projVal c).after 1 t2_0 := by
  unfold Pipeline.Dat.before; rw [if_pos (by decide)]; rfl
theorem before_in2_2 (c : Dev nD) (d) : (dat2 m tcVal pv projVal c).before 2 t2_0 d = (dat2 m tcVal pv projVal c).after 2 t2_0 := by
  unfold Pipeline.Dat.before; rw [if_pos (by decide)]; rfl
theorem before_in2_3 (c : Dev nD) (d) : (dat2 m tcVal pv projVal c).before 3 t2_0 d = (dat2 m tcVal pv projVal c).after 3 t2_0 := by
  unfold Pipeline.Dat.before; rw [if_pos (by decide)]; rfl

theorem body2_W (hpj : ProjRun m tcVal pv projVal) (c : Dev nD) (W : Waits sig (HIx 1))
    (hW : (↑W : Set (SemLoc sig × HIx 1)) ⊆ (dat2 m tcVal pv projVal c).bound none t2_0.castSucc) :
    iprop(Φ2 (F := F) c ∗ owes (SparseCore.T c) ((K (F := F)).Otc c 1) W
        ∗ owns (c.tc : Thread nD τ) (st2_0 t2_0) fullShare ((dat2 m tcVal pv projVal c).after 0 t2_0)
        ∗ owns (c.tc : Thread nD τ) (st2_1 t2_0) fullShare ((dat2 m tcVal pv projVal c).after 1 t2_0)
        ∗ owns (c.tc : Thread nD τ) (st2_2 t2_0) fullShare ((dat2 m tcVal pv projVal c).after 2 t2_0)
        ∗ owns (c.tc : Thread nD τ) (st2_3 t2_0) fullShare ((dat2 m tcVal pv projVal c).after 3 t2_0)
        ∗ (∃ X, owns (c.tc : Thread nD τ) (st2_4 t2_0) fullShare X))
      ⊢ wp frame (wpE (defs₀ (F := F)) 𝒱₀ (c.tc : Thread nD τ) none) Set.univ (bodyAt2 (F := F) t2_0) fun _ =>
          iprop(Φ2 (F := F) c ∗ (dat2 m tcVal pv projVal c).owesAt none t2_0.succ
            ∗ owns (c.tc : Thread nD τ) (st2_0 t2_0) fullShare ((dat2 m tcVal pv projVal c).after 0 t2_0)
            ∗ owns (c.tc : Thread nD τ) (st2_1 t2_0) fullShare ((dat2 m tcVal pv projVal c).after 1 t2_0)
            ∗ owns (c.tc : Thread nD τ) (st2_2 t2_0) fullShare ((dat2 m tcVal pv projVal c).after 2 t2_0)
            ∗ owns (c.tc : Thread nD τ) (st2_3 t2_0) fullShare ((dat2 m tcVal pv projVal c).after 3 t2_0)
            ∗ owns (c.tc : Thread nD τ) (st2_4 t2_0) fullShare (projVal c)) :=
  (hpj c _ W (Otc_none c 1)).trans (wp_mono frame _ _ fun _ => by
    iintro ⟨HΦ, ⟨%W', %hW', HO⟩, Hst⟩
    isplitl [HΦ]; · iexact HΦ
    isplitl [HO]
    · iexists W'; isplitr
      · ipureintro
        intro p hp
        rcases hW' p hp with h | h
        · exact hW h
        · exact Or.inl (mem_recBelow_of_none c 8 p h)
      · iexact HO
    iexact Hst)

theorem body_obligation2 (hpj : ProjRun m tcVal pv projVal) (c : Dev nD) :
    Pipeline.BodyObligation (dat2 m tcVal pv projVal c) (defs₀ (F := F)) 𝒱₀ (none : HIx 1) Set.univ := fun t => by
  obtain rfl := fin_N2 t
  rw [bigSep_W2, bigSep_W2]
  show iprop(Φ2 (F := F) c ∗ (dat2 m tcVal pv projVal c).owesAt none t2_0.castSucc
        ∗ (∃ d, owns (c.tc : Thread nD τ) (st2_0 t2_0) fullShare ((dat2 m tcVal pv projVal c).before 0 t2_0 d))
        ∗ (∃ d, owns (c.tc : Thread nD τ) (st2_1 t2_0) fullShare ((dat2 m tcVal pv projVal c).before 1 t2_0 d))
        ∗ (∃ d, owns (c.tc : Thread nD τ) (st2_2 t2_0) fullShare ((dat2 m tcVal pv projVal c).before 2 t2_0 d))
        ∗ (∃ d, owns (c.tc : Thread nD τ) (st2_3 t2_0) fullShare ((dat2 m tcVal pv projVal c).before 3 t2_0 d))
        ∗ (∃ d, owns (c.tc : Thread nD τ) (st2_4 t2_0) fullShare ((dat2 m tcVal pv projVal c).before 4 t2_0 d)))
     ⊢ wp frame (wpE (defs₀ (F := F)) 𝒱₀ (c.tc : Thread nD τ) none) Set.univ (bodyAt2 (F := F) t2_0) fun _ =>
         iprop(Φ2 (F := F) c ∗ (dat2 m tcVal pv projVal c).owesAt none t2_0.succ
            ∗ owns (c.tc : Thread nD τ) (st2_0 t2_0) fullShare ((dat2 m tcVal pv projVal c).after 0 t2_0)
            ∗ owns (c.tc : Thread nD τ) (st2_1 t2_0) fullShare ((dat2 m tcVal pv projVal c).after 1 t2_0)
            ∗ owns (c.tc : Thread nD τ) (st2_2 t2_0) fullShare ((dat2 m tcVal pv projVal c).after 2 t2_0)
            ∗ owns (c.tc : Thread nD τ) (st2_3 t2_0) fullShare ((dat2 m tcVal pv projVal c).after 3 t2_0)
            ∗ owns (c.tc : Thread nD τ) (st2_4 t2_0) fullShare (projVal c))
  iintro ⟨HΦ, ⟨%W, %hW, HO⟩, ⟨%d0, H0⟩, ⟨%d1, H1⟩, ⟨%d2, H2⟩, ⟨%d3, H3⟩, ⟨%d4, H4⟩⟩
  rw [before_in2_0, before_in2_1, before_in2_2, before_in2_3]
  iapply (body2_W m tcVal pv projVal hpj c W hW)
  isplitl [HΦ]; · iexact HΦ
  isplitl [HO]; · iexact HO
  isplitl [H0]; · iexact H0
  isplitl [H1]; · iexact H1
  isplitl [H2]; · iexact H2
  isplitl [H3]; · iexact H3
  iexists _; iexact H4

/-- An operand of the projection region reaches the region's exit as it entered. -/
theorem arrAt2_in0 (c : Dev nD) : (pdats m tcVal pv projVal 1 c).arrAt 0 (Pipeline.pin (pcfgs (F := F)) adm 1).N = VB m tcVal pv c (Proc.devRef .tc main_v15) :=
  (dat2 m tcVal pv projVal c).arrAt_in 0 rfl _
theorem arrAt2_in1 (c : Dev nD) : (pdats m tcVal pv projVal 1 c).arrAt 1 (Pipeline.pin (pcfgs (F := F)) adm 1).N = VB m tcVal pv c (Proc.devRef .tc main_v16) :=
  (dat2 m tcVal pv projVal c).arrAt_in 1 rfl _
theorem arrAt2_in2 (c : Dev nD) : (pdats m tcVal pv projVal 1 c).arrAt 2 (Pipeline.pin (pcfgs (F := F)) adm 1).N = VB m tcVal pv c (Proc.devRef .tc main_v17) :=
  (dat2 m tcVal pv projVal c).arrAt_in 2 rfl _
theorem arrAt2_in3 (c : Dev nD) : (pdats m tcVal pv projVal 1 c).arrAt 3 (Pipeline.pin (pcfgs (F := F)) adm 1).N = VB m tcVal pv c (Proc.devRef .tc main_v18) :=
  (dat2 m tcVal pv projVal c).arrAt_in 3 rfl _

def reg2 (hpj : ProjRun m tcVal pv projVal) : RS m tcVal pv projVal 1 where
  win := launch2.win.to₀
  block_pos := launch2.block_pos
  stage_whole := launch2.stage_whole
  K := PEmpty
  osem k := k.elim
  ho := Pipeline.OwnSemFacts.none _
  hbody c := (body_obligation2 m tcVal pv projVal hpj c).loose
  hwaits c := Pipeline.cellsWaits_of_cut _ (pdats m tcVal pv projVal) (none : HIx 1) 1 c (lev := (K (F := F)).lev) 8 ((K (F := F)).Otc c 1) (fun _ => rfl)
    (fun _ _ => Finset.mem_univ _) (fun _ _ => Nat.zero_le _) fun g i hg => ⟨Finset.mem_univ _, by have := (K (F := F)).lev_of_Otc_pos hg; omega⟩
  pre c := iprop((bLoc c main_v15 ↦{fullShare} VB m tcVal pv c (Proc.devRef .tc main_v15)) ∗ (bLoc c main_v16 ↦{fullShare} VB m tcVal pv c (Proc.devRef .tc main_v16))
    ∗ (bLoc c main_v17 ↦{fullShare} VB m tcVal pv c (Proc.devRef .tc main_v17)) ∗ (bLoc c main_v18 ↦{fullShare} VB m tcVal pv c (Proc.devRef .tc main_v18))
    ∗ (bLoc c main_v19 ↦{fullShare} VB m tcVal pv c v19') ∗ owesB (F := F) c 1)
  post c := iprop((bLoc c main_v15 ↦{fullShare} VB m tcVal pv c (Proc.devRef .tc main_v15)) ∗ (bLoc c main_v16 ↦{fullShare} VB m tcVal pv c (Proc.devRef .tc main_v16))
    ∗ (bLoc c main_v17 ↦{fullShare} VB m tcVal pv c (Proc.devRef .tc main_v17)) ∗ (bLoc c main_v18 ↦{fullShare} VB m tcVal pv c (Proc.devRef .tc main_v18))
    ∗ (bLoc c main_v19 ↦{fullShare} V3 m tcVal pv projVal c v19') ∗ owesB (F := F) c 1)
  X c := iprop(levAts (K (F := F)).L (K (F := F)).lev)
  Y c := iprop(emp)
  Z c := iprop(emp)
  hentry c := by
    rw [arrays2_eq, Pipeline.ownSems0_none]
    unfold owesB
    iintro ⟨⟨H0, H1, H2, H3, H4, ⟨%W, %hW, HO⟩⟩, -, #Hl⟩
    imodintro
    isplitl [H0 H1 H2 H3 H4]
    · isplitl [H0]; · iexact H0
      isplitl [H1]; · iexact H1
      isplitl [H2]; · iexact H2
      isplitl [H3]; · iexact H3
      iexact H4
    isplitr
    · unfold Pipeline.prefHeld; rw [show (Finset.univ : Finset (Fin 0)) = ∅ from rfl, BI.bigSep_empty]; iempintro
    isplitl [HO]
    · iexists W; isplitr
      · ipureintro; exact fun p hp => Or.inl (hW p hp)
      · iexact HO
    isplitr; · iexact Hl
    iempintro
  hin c := by
    show _ ⊢ Φ2 (F := F) c
    unfold Φ2
    iintro ⟨Hl, -, Hr⟩
    isplitl [Hl]; · iexact Hl
    iexact Hr
  hout c := by
    show Φ2 (F := F) c ⊢ _
    unfold Φ2
    rw [Pipeline.ownSems0_none]
    iintro ⟨-, Hr⟩
    isplitr; · iempintro
    isplitr; · iempintro
    iexact Hr
  hexit c := by
    rw [arrays2_eq, arrAt2_in0, arrAt2_in1, arrAt2_in2, arrAt2_in3,
      show V3 m tcVal pv projVal c v19' = (dat2 m tcVal pv projVal c).arrAt 4 cfg2.N from Function.update_self ..]
    unfold owesB
    iintro ⟨⟨H0, H1, H2, H3, H4⟩, ⟨%W, %hW, HO⟩, -, -⟩
    imodintro
    isplitl [H0]; · iexact H0
    isplitl [H1]; · iexact H1
    isplitl [H2]; · iexact H2
    isplitl [H3]; · iexact H3
    isplitl [H4]; · iexact H4
    iexists W; isplitr
    · ipureintro; exact WBelow_of_bound c 1 cfg2 W hW
    · iexact HO

end Cert.Proof.KB

end
-- ==== Proof.KB.CoreSplit.lean ====
/-
  The SparseCore call seen from the TensorCore: the planes whole and the partials array whole go out as the two
  SparseCores' parts (a read share of the planes each; the words their vector subcores write) and come back whole, the partials
  at their final contents. Every word of the partials array belongs to exactly one vector subcore: word j to number j / 96.
-/
import proofs.«215010_g72713796321855_cont_9to1c4b_299_31_alg».proof.Proof.KB.LaunchParts

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within seq after)
open Idealize.ShloMosaic.Transfers (shareTok shareDrop pointsTo_toks_split pointsTo_toks_join)
open Idealize.ShloMosaic.Tactic

variable {F : FTy → Type} [FloatOps F]

local notation "𝕄" => MT nD τ sig (HIx 1) (Elt F) ℕ UU ℕ

variable (x3v : (d : Dev nD) → Buf (Elt F) (x3Loc d)) (pv : (d : Dev nD) → Buf (Elt F) (pLoc d))

omit [FloatOps F] in
theorem mem_outSet (w : Fin 32) (x : S3072.Idx) : x ∈ outSet w ↔ w.val * 96 ≤ (x 0).val ∧ (x 0).val < w.val * 96 + 96 := by
  unfold outSet; rw [Finset.mem_filter]; exact ⟨fun h => h.2, fun h => ⟨Finset.mem_univ _, h⟩⟩

omit [FloatOps F] in
theorem wid_val (c : Fin 2) (s : Fin 16) : (wid c s).val = s.val * 2 + c.val := rfl

omit [FloatOps F] in
theorem coreOut_disjoint : ∀ i ∈ (Finset.univ : Finset (Fin 2)), ∀ j ∈ (Finset.univ : Finset (Fin 2)), i ≠ j → Disjoint (coreOut i) (coreOut j) := by
  intro i _ j _ hij
  rw [Finset.disjoint_left]
  intro x hx hx'
  obtain ⟨s, -, hs⟩ := Finset.mem_biUnion.mp hx
  obtain ⟨s', -, hs'⟩ := Finset.mem_biUnion.mp hx'
  rw [mem_outSet, wid_val] at hs hs'
  have hi := i.isLt
  have hj := j.isLt
  exact hij (Fin.ext (by omega))

omit [FloatOps F] in
theorem coreOut_cover : (Finset.univ : Finset (Fin 2)).biUnion coreOut = Finset.univ := by
  refine Finset.eq_univ_iff_forall.mpr fun j => ?_
  have hj : (j 0).val < 3072 := (j 0).isLt
  refine Finset.mem_biUnion.mpr ⟨⟨(j 0).val / 96 % 2, by omega⟩, Finset.mem_univ _, ?_⟩
  unfold coreOut
  refine Finset.mem_biUnion.mpr ⟨⟨(j 0).val / 96 / 2, by omega⟩, Finset.mem_univ _, ?_⟩
  rw [mem_outSet, wid_val]
  dsimp only
  constructor <;> omega

omit [FloatOps F] in
theorem p_split (d : Dev nD) (f : Buf (Elt F) (pLoc d)) :
    (pLoc d ↦{fullShare} f : sProp 𝕄) = bigSep Finset.univ fun c : Fin 2 => pLoc d ↦[coreOut c]{fullShare} f := by
  rw [← pointsTo_biUnion Finset.univ (ℓ := pLoc d) coreOut coreOut_disjoint, coreOut_cover]; try rfl

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit [FloatOps F] in
theorem p_exists (d : Dev nD) (f : Buf (Elt F) (pLoc d)) :
    (bigSep Finset.univ fun c : Fin 2 => (pLoc d ↦[coreOut c]{fullShare} f : sProp 𝕄))
      ⊢ bigSep Finset.univ fun c : Fin 2 => iprop(∃ f', pLoc d ↦[coreOut c]{fullShare} f') :=
  bigSep_mono fun c _ => exists_intro (Φ := fun f' => (pLoc d ↦[coreOut c]{fullShare} f' : sProp 𝕄)) f

/-- The planes whole and the partials whole: the call's operands for both SparseCores, and the planes' remaining share. -/
theorem st_intro (d : Dev nD) (f : Buf (Elt F) (pLoc d)) :
    iprop((x3Loc d ↦{fullShare} x3v d) ∗ (pLoc d ↦{fullShare} f))
      ⊢ iprop((x3Loc d ↦{shareDrop fullShare 2} x3v d) ∗ bigSep Finset.univ fun c : Fin ((K (F := F)).nCore 0) => (P x3v pv).st 0 d c) := by
  show _ ⊢ iprop(_ ∗ bigSep Finset.univ fun c : Fin ((K (F := F)).nCore 0) =>
    iprop((x3Loc d ↦{coreShare (Fin.cast nCore_zero c)} x3v d) ∗ ∃ f, pLoc d ↦[coreOut (Fin.cast nCore_zero c)]{fullShare} f))
  rw [bigSep_cores (F := F) (fun c => iprop((x3Loc d ↦{coreShare c} x3v d) ∗ ∃ f, pLoc d ↦[coreOut c]{fullShare} f)), bigSep_sep', p_split]
  unfold coreShare
  iintro ⟨Hx, Hp⟩
  ihave Hx' := (pointsTo_toks_split fullShare 2) $$ Hx
  icases Hx' with ⟨Hrem, Htoks⟩
  isplitl [Hrem]; · iexact Hrem
  isplitl [Htoks]; · iexact Htoks
  iapply (p_exists (F := F) d f); iexact Hp

/-- Back: the planes whole again, the partials whole at their final contents. -/
theorem dn_elim (d : Dev nD) :
    iprop((x3Loc d ↦{shareDrop fullShare 2} x3v d) ∗ bigSep Finset.univ fun c : Fin ((K (F := F)).nCore 0) => (P x3v pv).dn 0 d c)
      ⊢ iprop((x3Loc d ↦{fullShare} x3v d) ∗ (pLoc d ↦{fullShare} pv d)) := by
  show iprop(_ ∗ bigSep Finset.univ fun c : Fin ((K (F := F)).nCore 0) =>
    iprop((x3Loc d ↦{coreShare (Fin.cast nCore_zero c)} x3v d) ∗ pLoc d ↦[coreOut (Fin.cast nCore_zero c)]{fullShare} pv d)) ⊢ _
  rw [bigSep_cores (F := F) (fun c => iprop((x3Loc d ↦{coreShare c} x3v d) ∗ pLoc d ↦[coreOut c]{fullShare} pv d)), bigSep_sep', p_split]
  unfold coreShare
  iintro ⟨Hrem, Htoks, Hp⟩
  isplitl [Hrem Htoks]
  · iapply (pointsTo_toks_join fullShare 2)
    isplitl [Hrem] <;> iassumption
  iexact Hp

end Cert.Proof.KB

end
-- ==== Proof.KB.Keep.lean ====
/-
  The two arguments are never written along the entry program's valuations: no host operation writes them, and the
  three calls' results land in other arrays.
-/
import proofs.«215010_g72713796321855_cont_9to1c4b_299_31_alg».proof.Proof.KB.Regions

noncomputable section

namespace Cert.Proof.KB

open Cert.Kernel Cert.Kernel.Gen
open Idealize.ShloMosaic
open Idealize.ShloMosaic.SparseCore (S V T)
open Idealize.ShloMosaic.SparseCore.Cfg (HIx)
open Idealize.SL Idealize.SL.Sem
open Idealize.ShloMosaic.StableHlo

variable {F : FTy → Type} [FloatOps F]

variable (m : (ℓ : Loc nD τ sig) → Buf (Elt F) ℓ)
variable (tcVal : (d : Dev nD) → (cfg0.win 0).block.Idx → Elt F (cfg0.win 0).elt)
variable (pv : (d : Dev nD) → Buf (Elt F) (pLoc d))
variable (projVal : (d : Dev nD) → (cfg2.win 4).block.Idx → Elt F (cfg2.win 4).elt)

theorem VC_a0 (d : Dev nD) :
    VC m tcVal pv projVal d (Proc.devRef .tc (main_arg0 : Ref sig .tc)) = m ((SparseCore.T d).loc main_arg0) := by
  show after opsC (V3 m tcVal pv projVal d) (Proc.devRef .tc main_arg0) = _
  after_results
  unfold V3
  rw [Function.update_of_ne (by decide)]
  show after opsB (V2 m tcVal pv d) (Proc.devRef .tc main_arg0) = _
  after_results
  unfold V2 V1
  rw [Function.update_of_ne (by decide), Function.update_of_ne (by decide)]
  show after opsA (V0 m d) (Proc.devRef .tc main_arg0) = _
  after_results

theorem VC_a1 (d : Dev nD) :
    VC m tcVal pv projVal d (Proc.devRef .tc (main_arg1 : Ref sig .tc)) = m ((SparseCore.T d).loc main_arg1) := by
  show after opsC (V3 m tcVal pv projVal d) (Proc.devRef .tc main_arg1) = _
  after_results
  unfold V3
  rw [Function.update_of_ne (by decide)]
  show after opsB (V2 m tcVal pv d) (Proc.devRef .tc main_arg1) = _
  after_results
  unfold V2 V1
  rw [Function.update_of_ne (by decide), Function.update_of_ne (by decide)]
  show after opsA (V0 m d) (Proc.devRef .tc main_arg1) = _
  after_results

end Cert.Proof.KB

end
-- ==== Proof.KB.Launch.lean ====
/-
  The entry program run on the TensorCore inside the SparseCore launch, and the launch theorem applied.
-/
import proofs.«215010_g72713796321855_cont_9to1c4b_299_31_alg».proof.Proof.KB.Regions
import proofs.«215010_g72713796321855_cont_9to1c4b_299_31_alg».proof.Proof.KB.CoreSplit
import proofs.«215010_g72713796321855_cont_9to1c4b_299_31_alg».proof.Proof.KB.Keep

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within seq after)
open Idealize.ShloMosaic.Transfers (shareTok shareDrop pointsTo_toks_split pointsTo_toks_join)
open Idealize.ShloMosaic.Tactic

variable {F : FTy → Type} [FloatOps F]

local notation "𝕄" => MT nD τ sig (HIx 1) (Elt F) ℕ UU ℕ

open Idealize.ShloMosaic.StableHlo (tcRefs wp_seq held_congr devRef_mem_tcRefs devRef_ne_of_ne)
open Idealize.ShloMosaic.Pipeline (ucRefs unscopedBufs_held sub_ucRefs)

variable (m : (ℓ : Loc nD τ sig) → Buf (Elt F) ℓ) (ρ : Dev nD → PrngReg)
variable (tcVal : (d : Dev nD) → (cfg0.win 0).block.Idx → Elt F (cfg0.win 0).elt)
variable (pv : (d : Dev nD) → Buf (Elt F) (pLoc d))
variable (projVal : (d : Dev nD) → (cfg2.win 4).block.Idx → Elt F (cfg2.win 4).elt)

/-! ## Taking a buffer out of a held set and putting it back -/

omit [FloatOps F] in
theorem held_take (thr : Thread nD τ) (S : Finset (DevRef τ sig)) (a : DevRef τ sig) (ha : a ∈ S) (V : Valuation τ sig (Elt F)) :
    (held thr S V : sProp 𝕄) = iprop(((thr.1, a) ↦{fullShare} V a) ∗ held thr (S.erase a) V) := by
  unfold held; exact SparseCore.bigSep_erase' ha

omit [FloatOps F] in
theorem held_put (thr : Thread nD τ) (S : Finset (DevRef τ sig)) (a : DevRef τ sig) (ha : a ∈ S) (V : Valuation τ sig (Elt F)) (x : Buf (Elt F) (thr.1, a)) :
    (iprop(((thr.1, a) ↦{fullShare} x) ∗ held thr (S.erase a) V) : sProp 𝕄) = held thr S (Function.update V a x) := by
  rw [held_take thr S a ha (Function.update V a x), Function.update_self,
    held_congr thr (S := S.erase a) (V := Function.update V a x) (V' := V) fun b hb => Function.update_of_ne (Finset.ne_of_mem_erase hb) _ _]

omit [FloatOps F] in
theorem mem_uc (b : Ref sig .tc) (h : (Proc.devRef .tc b : DevRef τ sig).isScoped = false) : (Proc.devRef .tc b : DevRef τ sig) ∈ ucRefs τ sig :=
  Finset.mem_filter.mpr ⟨devRef_mem_tcRefs b, by rw [h]; exact Bool.false_ne_true⟩

/-! ## The regions' steps on the TensorCore, inside the launch -/

theorem lift_entry (p : Fin 2) : (Prog.lift (.customCall (SparseCore.inner (Pipeline.entry p)) ()) : Prog (TpuEff nD τ sig (Elt F) (SparseCore.Sig (ΛP (F := F)) 1) .tc) PUnit)
    = SparseCore.liftProg (.op (.customCall (Pipeline.entry p) ()) fun _ => .ret ⟨⟩) := rfl

theorem region0_step (htc : TcRun m tcVal) (d : Dev nD) (Φ : PUnit → sProp 𝕄) :
    iprop((iprop(boundary (SparseCore.T d : Thread nD τ) ∗ (reg0 m tcVal pv projVal htc).post d)
            -∗ wp frame (wpE (D (F := F)) 𝒱 (SparseCore.T d) none) Set.univ (.ret ⟨⟩) Φ)
        ∗ boundary (SparseCore.T d : Thread nD τ) ∗ (reg0 m tcVal pv projVal htc).pre d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (SparseCore.T d) none) Set.univ
          (SparseCore.liftProg (.op (.customCall (Pipeline.entry 0) ()) fun _ => .ret ⟨⟩) : Prog (TpuEff nD τ sig (Elt F) (SparseCore.Sig (ΛP (F := F)) 1) .tc) PUnit) Φ := by
  have h := Pipeline.RegionSeg.wp (pcfgs (F := F)) adm (pdats m tcVal pv projVal) (none : HIx 1) pcellOf_inj EP defs₀ 𝒱₀
    (K (F := F)).L (K (F := F)).lev (reg0 m tcVal pv projVal htc) d none (fun u hu => by cases hu) (fun _ => .ret ⟨⟩) Φ
  have h2 := (K (F := F)).wp_liftProg (D (F := F)) 𝒱 (SparseCore.T d) Set.univ (Name := ℕ) (U := UU) none (.op (.customCall (Pipeline.entry 0) ()) fun _ => .ret ⟨⟩) Φ
  exact BI.Entails.trans h h2

theorem region2_step (hpj : ProjRun m tcVal pv projVal) (d : Dev nD) (Φ : PUnit → sProp 𝕄) :
    iprop((iprop(boundary (SparseCore.T d : Thread nD τ) ∗ (reg2 m tcVal pv projVal hpj).post d)
            -∗ wp frame (wpE (D (F := F)) 𝒱 (SparseCore.T d) none) Set.univ (.ret ⟨⟩) Φ)
        ∗ boundary (SparseCore.T d : Thread nD τ) ∗ (reg2 m tcVal pv projVal hpj).pre d ∗ levAts (K (F := F)).L (K (F := F)).lev
        ∗ Pipeline.cellsGhost (Pipeline.pin (pcfgs (F := F)) adm) EP 1 d ∗ Pipeline.toksInit (Pipeline.pin (pcfgs (F := F)) adm) EP 1 d)
      ⊢ wp frame (wpE ((K (F := F)).defs (D (F := F))) 𝒱 (SparseCore.T d) none) Set.univ
          (SparseCore.liftProg (.op (.customCall (Pipeline.entry 1) ()) fun _ => .ret ⟨⟩) : Prog (TpuEff nD τ sig (Elt F) (SparseCore.Sig (ΛP (F := F)) 1) .tc) PUnit) Φ := by
  have h := Pipeline.RegionSeg.wp (pcfgs (F := F)) adm (pdats m tcVal pv projVal) (none : HIx 1) pcellOf_inj EP defs₀ 𝒱₀
    (K (F := F)).L (K (F := F)).lev (reg2 m tcVal pv projVal hpj) d none (fun u hu => by cases hu) (fun _ => .ret ⟨⟩) Φ
  have h2 := (K (F := F)).wp_liftProg (D (F := F)) 𝒱 (SparseCore.T d) Set.univ (Name := ℕ) (U := UU) none (.op (.customCall (Pipeline.entry 1) ()) fun _ => .ret ⟨⟩) Φ
  exact BI.Entails.trans h h2

abbrev a0' : DevRef τ sig := Proc.devRef .tc (main_arg0 : Ref sig .tc)
abbrev a1' : DevRef τ sig := Proc.devRef .tc (main_arg1 : Ref sig .tc)
abbrev v15' : DevRef τ sig := Proc.devRef .tc (main_v15 : Ref sig .tc)
abbrev v16' : DevRef τ sig := Proc.devRef .tc (main_v16 : Ref sig .tc)
abbrev v17' : DevRef τ sig := Proc.devRef .tc (main_v17 : Ref sig .tc)
abbrev v18' : DevRef τ sig := Proc.devRef .tc (main_v18 : Ref sig .tc)

include pv projVal in
theorem region0_step' (htc : TcRun m tcVal) (d : Dev nD) (Φ : PUnit → sProp 𝕄) :
    iprop((iprop(boundary (SparseCore.T d : Thread nD τ) ∗ ((x3Loc d ↦{fullShare} x3v m d) ∗ (sLoc d ↦{fullShare} V1 m tcVal d v1') ∗ owesB (F := F) d 0))
            -∗ wp frame (wpE (D (F := F)) 𝒱 (SparseCore.T d) none) Set.univ (.ret ⟨⟩) Φ)
        ∗ boundary (SparseCore.T d : Thread nD τ) ∗ ((x3Loc d ↦{fullShare} x3v m d) ∗ (sLoc d ↦{fullShare} VA m d v1') ∗ owesB (F := F) d 0)
        ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (SparseCore.T d) none) Set.univ
          (SparseCore.liftProg (.op (.customCall (Pipeline.entry 0) ()) fun _ => .ret ⟨⟩) : Prog (TpuEff nD τ sig (Elt F) (SparseCore.Sig (ΛP (F := F)) 1) .tc) PUnit) Φ :=
  region0_step m tcVal pv projVal htc d Φ

theorem region2_step' (hpj : ProjRun m tcVal pv projVal) (d : Dev nD) (Φ : PUnit → sProp 𝕄) :
    iprop((iprop(boundary (SparseCore.T d : Thread nD τ) ∗ ((bLoc d main_v15 ↦{fullShare} VB m tcVal pv d v15') ∗ (bLoc d main_v16 ↦{fullShare} VB m tcVal pv d v16')
              ∗ (bLoc d main_v17 ↦{fullShare} VB m tcVal pv d v17') ∗ (bLoc d main_v18 ↦{fullShare} VB m tcVal pv d v18')
              ∗ (bLoc d main_v19 ↦{fullShare} V3 m tcVal pv projVal d v19') ∗ owesB (F := F) d 1))
            -∗ wp frame (wpE (D (F := F)) 𝒱 (SparseCore.T d) none) Set.univ (.ret ⟨⟩) Φ)
        ∗ boundary (SparseCore.T d : Thread nD τ) ∗ ((bLoc d main_v15 ↦{fullShare} VB m tcVal pv d v15') ∗ (bLoc d main_v16 ↦{fullShare} VB m tcVal pv d v16')
              ∗ (bLoc d main_v17 ↦{fullShare} VB m tcVal pv d v17') ∗ (bLoc d main_v18 ↦{fullShare} VB m tcVal pv d v18')
              ∗ (bLoc d main_v19 ↦{fullShare} VB m tcVal pv d v19') ∗ owesB (F := F) d 1)
        ∗ levAts (K (F := F)).L (K (F := F)).lev
        ∗ Pipeline.cellsGhost (Pipeline.pin (pcfgs (F := F)) adm) EP 1 d ∗ Pipeline.toksInit (Pipeline.pin (pcfgs (F := F)) adm) EP 1 d)
      ⊢ wp frame (wpE ((K (F := F)).defs (D (F := F))) 𝒱 (SparseCore.T d) none) Set.univ
          (SparseCore.liftProg (.op (.customCall (Pipeline.entry 1) ()) fun _ => .ret ⟨⟩) : Prog (TpuEff nD τ sig (Elt F) (SparseCore.Sig (ΛP (F := F)) 1) .tc) PUnit) Φ :=
  region2_step m tcVal pv projVal hpj d Φ

/-! ## The TensorCore's handshake state, what it owes apart -/

theorem tcSt_split (d : Dev nD) (n : ℕ) : ∃ R : sProp 𝕄, ((K (F := F)).tcSt EH d n : sProp 𝕄) = iprop(owesB (F := F) d n ∗ R) := ⟨_, rfl⟩
def tcRest (d : Dev nD) (n : ℕ) : sProp 𝕄 := Classical.choose (tcSt_split (F := F) d n)
theorem tcSt_eq (d : Dev nD) (n : ℕ) : ((K (F := F)).tcSt EH d n : sProp 𝕄) = iprop(owesB (F := F) d n ∗ tcRest (F := F) d n) :=
  Classical.choose_spec (tcSt_split (F := F) d n)

theorem G_eq (d : Dev nD) : (G (F := F) d : sProp 𝕄)
    = iprop((Pipeline.cellsGhost (Pipeline.pin (pcfgs (F := F)) adm) EP 0 d ∗ Pipeline.toksInit (Pipeline.pin (pcfgs (F := F)) adm) EP 0 d)
        ∗ (Pipeline.cellsGhost (Pipeline.pin (pcfgs (F := F)) adm) EP 1 d ∗ Pipeline.toksInit (Pipeline.pin (pcfgs (F := F)) adm) EP 1 d)) := by
  unfold G
  rw [show (Finset.univ : Finset (Fin 2)) = {0, 1} by decide, SparseCore.bigSep_insert' (by decide), bigSep_singleton]

/-! ## The buffers taken out of the held set, stage by stage -/

abbrev S0 : Finset (DevRef τ sig) := ucRefs τ sig
abbrev S1 : Finset (DevRef τ sig) := S0.erase v0'
abbrev S2 : Finset (DevRef τ sig) := S1.erase v1'
abbrev S2' : Finset (DevRef τ sig) := S1.erase v2'

omit [FloatOps F] in
theorem mem_v0 : v0' ∈ (S0 : Finset (DevRef τ sig)) := mem_uc main_v0 rfl
omit [FloatOps F] in
theorem mem_v1 : v1' ∈ (S1 : Finset (DevRef τ sig)) := Finset.mem_erase.mpr ⟨devRef_ne_of_ne (by decide), mem_uc main_v1 rfl⟩
omit [FloatOps F] in
theorem mem_v2 : v2' ∈ (S1 : Finset (DevRef τ sig)) := Finset.mem_erase.mpr ⟨devRef_ne_of_ne (by decide), mem_uc main_v2 rfl⟩

theorem V1_fold (d : Dev nD) : Function.update (VA m d) v1' (V1 m tcVal d v1') = V1 m tcVal d := by
  unfold V1; rw [Function.update_self]

theorem V2_v0 (d : Dev nD) : V2 m tcVal pv d v0' = x3v m d := by
  unfold V2 V1
  rw [Function.update_of_ne (devRef_ne_of_ne (by decide)), Function.update_of_ne (devRef_ne_of_ne (by decide))]

theorem V2_fold (d : Dev nD) : Function.update (V2 m tcVal pv d) v0' (x3v m d) = V2 m tcVal pv d := by
  rw [← V2_v0 m tcVal pv d, Function.update_eq_self]

abbrev T1 : Finset (DevRef τ sig) := S0.erase v15'
abbrev T2 : Finset (DevRef τ sig) := T1.erase v16'
abbrev T3 : Finset (DevRef τ sig) := T2.erase v17'
abbrev T4 : Finset (DevRef τ sig) := T3.erase v18'
abbrev T5 : Finset (DevRef τ sig) := T4.erase v19'
abbrev F1 : Finset (DevRef τ sig) := S0.erase a0'
abbrev F2 : Finset (DevRef τ sig) := F1.erase a1'

omit [FloatOps F] in
theorem mem_v15 : v15' ∈ (S0 : Finset (DevRef τ sig)) := mem_uc main_v15 rfl
omit [FloatOps F] in
theorem mem_v16 : v16' ∈ (T1 : Finset (DevRef τ sig)) := Finset.mem_erase.mpr ⟨devRef_ne_of_ne (by decide), mem_uc main_v16 rfl⟩
omit [FloatOps F] in
theorem mem_v17 : v17' ∈ (T2 : Finset (DevRef τ sig)) :=
  Finset.mem_erase.mpr ⟨devRef_ne_of_ne (by decide), Finset.mem_erase.mpr ⟨devRef_ne_of_ne (by decide), mem_uc main_v17 rfl⟩⟩
omit [FloatOps F] in
theorem mem_v18 : v18' ∈ (T3 : Finset (DevRef τ sig)) :=
  Finset.mem_erase.mpr ⟨devRef_ne_of_ne (by decide), Finset.mem_erase.mpr ⟨devRef_ne_of_ne (by decide), Finset.mem_erase.mpr ⟨devRef_ne_of_ne (by decide), mem_uc main_v18 rfl⟩⟩⟩
omit [FloatOps F] in
theorem mem_v19 : v19' ∈ (T4 : Finset (DevRef τ sig)) :=
  Finset.mem_erase.mpr ⟨devRef_ne_of_ne (by decide), Finset.mem_erase.mpr ⟨devRef_ne_of_ne (by decide), Finset.mem_erase.mpr ⟨devRef_ne_of_ne (by decide),
    Finset.mem_erase.mpr ⟨devRef_ne_of_ne (by decide), mem_uc main_v19 rfl⟩⟩⟩⟩
omit [FloatOps F] in
theorem mem_a0 : a0' ∈ (S0 : Finset (DevRef τ sig)) := mem_uc main_arg0 rfl
omit [FloatOps F] in
theorem mem_a1 : a1' ∈ (F1 : Finset (DevRef τ sig)) := Finset.mem_erase.mpr ⟨devRef_ne_of_ne (by decide), mem_uc main_arg1 rfl⟩
omit [FloatOps F] in
theorem mem_v20 : v20' ∈ (F2 : Finset (DevRef τ sig)) :=
  Finset.mem_erase.mpr ⟨devRef_ne_of_ne (by decide), Finset.mem_erase.mpr ⟨devRef_ne_of_ne (by decide), mem_uc main_v20 rfl⟩⟩

theorem V3_fold (d : Dev nD) : Function.update (VB m tcVal pv d) v19' (V3 m tcVal pv projVal d v19') = V3 m tcVal pv projVal d := by
  unfold V3; rw [Function.update_self]

theorem V3_keep (d : Dev nD) (a : DevRef τ sig) (h : a ≠ v19') :
    Function.update (V3 m tcVal pv projVal d) a (VB m tcVal pv d a) = V3 m tcVal pv projVal d := by
  have e : V3 m tcVal pv projVal d a = VB m tcVal pv d a := by unfold V3; exact Function.update_of_ne h _ _
  rw [← e, Function.update_eq_self]

theorem put_v19 (d : Dev nD) :
    (iprop((bLoc d main_v19 ↦{fullShare} V3 m tcVal pv projVal d v19') ∗ held (SparseCore.T d) T5 (VB m tcVal pv d)) : sProp 𝕄)
      = held (SparseCore.T d) T4 (V3 m tcVal pv projVal d) :=
  (held_put (SparseCore.T d) T4 v19' mem_v19 (VB m tcVal pv d) (V3 m tcVal pv projVal d v19')).trans (congrArg _ (V3_fold m tcVal pv projVal d))
theorem put_v18 (d : Dev nD) :
    (iprop((bLoc d main_v18 ↦{fullShare} VB m tcVal pv d v18') ∗ held (SparseCore.T d) T4 (V3 m tcVal pv projVal d)) : sProp 𝕄)
      = held (SparseCore.T d) T3 (V3 m tcVal pv projVal d) :=
  (held_put (SparseCore.T d) T3 v18' mem_v18 (V3 m tcVal pv projVal d) (VB m tcVal pv d v18')).trans (congrArg _ (V3_keep m tcVal pv projVal d v18' (devRef_ne_of_ne (by decide))))
theorem put_v17 (d : Dev nD) :
    (iprop((bLoc d main_v17 ↦{fullShare} VB m tcVal pv d v17') ∗ held (SparseCore.T d) T3 (V3 m tcVal pv projVal d)) : sProp 𝕄)
      = held (SparseCore.T d) T2 (V3 m tcVal pv projVal d) :=
  (held_put (SparseCore.T d) T2 v17' mem_v17 (V3 m tcVal pv projVal d) (VB m tcVal pv d v17')).trans (congrArg _ (V3_keep m tcVal pv projVal d v17' (devRef_ne_of_ne (by decide))))
theorem put_v16 (d : Dev nD) :
    (iprop((bLoc d main_v16 ↦{fullShare} VB m tcVal pv d v16') ∗ held (SparseCore.T d) T2 (V3 m tcVal pv projVal d)) : sProp 𝕄)
      = held (SparseCore.T d) T1 (V3 m tcVal pv projVal d) :=
  (held_put (SparseCore.T d) T1 v16' mem_v16 (V3 m tcVal pv projVal d) (VB m tcVal pv d v16')).trans (congrArg _ (V3_keep m tcVal pv projVal d v16' (devRef_ne_of_ne (by decide))))
theorem put_v15 (d : Dev nD) :
    (iprop((bLoc d main_v15 ↦{fullShare} VB m tcVal pv d v15') ∗ held (SparseCore.T d) T1 (V3 m tcVal pv projVal d)) : sProp 𝕄)
      = held (SparseCore.T d) S0 (V3 m tcVal pv projVal d) :=
  (held_put (SparseCore.T d) S0 v15' mem_v15 (V3 m tcVal pv projVal d) (VB m tcVal pv d v15')).trans (congrArg _ (V3_keep m tcVal pv projVal d v15' (devRef_ne_of_ne (by decide))))

theorem main_eq' (d : Dev nD) :
    main (F := F) d = (seq opsA >>= fun _ => Prog.lift (.customCall (SparseCore.inner (Pipeline.entry 0)) ()) >>= fun _ =>
      (sc (F := F)).run d 0 >>= fun _ => seq opsB >>= fun _ => Prog.lift (.customCall (SparseCore.inner (Pipeline.entry 1)) ()) >>= fun _ =>
      seq opsC >>= fun _ => pure ⟨⟩) := rfl

theorem put_v1 (d : Dev nD) :
    (iprop((sLoc d ↦{fullShare} V1 m tcVal d v1') ∗ held (SparseCore.T d) S2 (VA m d)) : sProp 𝕄) = held (SparseCore.T d) S1 (V1 m tcVal d) :=
  (held_put (SparseCore.T d) S1 v1' mem_v1 (VA m d) (V1 m tcVal d v1')).trans (congrArg _ (V1_fold m tcVal d))

theorem put_v2 (d : Dev nD) :
    (iprop((pLoc d ↦{fullShare} pv d) ∗ held (SparseCore.T d) S2' (V1 m tcVal d)) : sProp 𝕄) = held (SparseCore.T d) S1 (V2 m tcVal pv d) :=
  held_put (SparseCore.T d) S1 v2' mem_v2 (V1 m tcVal d) (pv d)

theorem put_v0 (d : Dev nD) :
    (iprop((x3Loc d ↦{fullShare} x3v m d) ∗ held (SparseCore.T d) S1 (V2 m tcVal pv d)) : sProp 𝕄) = held (SparseCore.T d) S0 (V2 m tcVal pv d) :=
  (held_put (SparseCore.T d) S0 v0' mem_v0 (V2 m tcVal pv d) (x3v m d)).trans (congrArg _ (V2_fold m tcVal pv d))

theorem hmain (htc : TcRun m tcVal) (hpj : ProjRun m tcVal pv projVal) (κ : GSem nD τ sig → ℕ) (d : Dev nD) :
    iprop((K (F := F)).ctx EH (P (x3v m) pv) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m (KV m tcVal pv projVal) d) := by
  unfold SparseCore.Cfg.tcRes
  rw [show (unscopedBufs d (fun b => m ((SparseCore.T d).loc b)) : sProp 𝕄) = held (SparseCore.T d) (ucRefs τ sig) (V0 m d) from unscopedBufs_held d (V0 m d),
    main_eq', G_eq, tcSt_eq d 0]
  iintro ⟨#Hctx, ⟨HO, Hrest⟩, ⟨Hb, Hheld, Hsems, Hprng⟩, ⟨Hcg0, Htk0⟩, ⟨Hcg1, Htk1⟩⟩
  ihave Hl := ((K (F := F)).ctx_levAts (EH := EH) (P := P (x3v m) pv) κ) $$ Hctx
  icases Hl with #Hlev
  -- the planes laid out
  iapply (wp_seq 𝒱 none Set.univ d (ucRefs τ sig) _ opsA opsA_sub (forall_mem_of_Forall opsA_fresh) (V0 m d)) $$ [Hb Hheld]
  · isplitl [Hb] <;> iassumption
  iintro ⟨Hb, Hheld⟩
  rw [wp_bind, lift_entry]
  -- the pooling region: the planes and the plane-sum array go in
  ihave H := (Entails.of_eq (held_take (SparseCore.T d) S0 v0' mem_v0 (VA m d))) $$ Hheld
  icases H with ⟨Hx3, Hheld⟩
  ihave H := (Entails.of_eq (held_take (SparseCore.T d) S1 v1' mem_v1 (VA m d))) $$ Hheld
  icases H with ⟨Hs, Hheld⟩
  iapply (region0_step' m tcVal pv projVal htc d _)
  isplitr [Hb Hx3 Hs HO Hcg0 Htk0]
  swap
  · isplitl [Hb]; · iexact Hb
    isplitl [Hx3 Hs HO]
    · isplitl [Hx3]; · iexact Hx3
      isplitl [Hs]; · iexact Hs
      iexact HO
    isplitr; · iexact Hlev
    isplitl [Hcg0] <;> iassumption
  iintro ⟨Hb, Hx3, Hs, HO⟩
  rw [wp_ret]
  imodintro
  -- the plane sums in place again; the partials array comes out for the SparseCore call
  ihave Hheld := (Entails.of_eq (put_v1 m tcVal d)) $$ [Hs Hheld]
  · isplitl [Hs] <;> iassumption
  ihave H := (Entails.of_eq (held_take (SparseCore.T d) S1 v2' mem_v2 (V1 m tcVal d))) $$ Hheld
  icases H with ⟨Hp, Hheld⟩
  rw [wp_bind]
  ihave H := (st_intro (x3v m) pv d (V1 m tcVal d v2')) $$ [Hx3 Hp]
  · isplitl [Hx3] <;> iassumption
  icases H with ⟨Hrem, Hstq⟩
  iapply ((K (F := F)).wp_run (D (F := F)) 𝒱 (EH := EH) (P := P (x3v m) pv) κ d 0)
  isplitr; · iexact Hctx
  isplitl [HO Hrest]
  · ihave Hst0 := (Entails.of_eq (tcSt_eq (F := F) d 0).symm) $$ [HO Hrest]
    · isplitl [HO] <;> iassumption
    iexact Hst0
  isplitl [Hstq]; · iexact Hstq
  iintro ⟨Hst, Hdn⟩
  ihave H := (dn_elim (x3v m) pv d) $$ [Hrem Hdn]
  · isplitl [Hrem] <;> iassumption
  icases H with ⟨Hx3, Hp⟩
  ihave Hst := (Entails.of_eq (tcSt_eq (F := F) d ((0 : Fin 1).val + 1))) $$ Hst
  icases Hst with ⟨HO, Hrest⟩
  ihave Hheld := (Entails.of_eq (put_v2 m tcVal pv d)) $$ [Hp Hheld]
  · isplitl [Hp] <;> iassumption
  ihave Hheld := (Entails.of_eq (put_v0 m tcVal pv d)) $$ [Hx3 Hheld]
  · isplitl [Hx3] <;> iassumption
  -- the weight matrix laid out, the two pools' results reshaped
  iapply (wp_seq 𝒱 none Set.univ d (ucRefs τ sig) _ opsB opsB_sub (forall_mem_of_Forall opsB_fresh) (V2 m tcVal pv d)) $$ [Hb Hheld]
  · isplitl [Hb] <;> iassumption
  iintro ⟨Hb, Hheld⟩
  rw [wp_bind, lift_entry]
  -- the projection region: its four operands and its result go in
  ihave H := (Entails.of_eq (held_take (SparseCore.T d) S0 v15' mem_v15 (VB m tcVal pv d))) $$ Hheld
  icases H with ⟨H15, Hheld⟩
  ihave H := (Entails.of_eq (held_take (SparseCore.T d) T1 v16' mem_v16 (VB m tcVal pv d))) $$ Hheld
  icases H with ⟨H16, Hheld⟩
  ihave H := (Entails.of_eq (held_take (SparseCore.T d) T2 v17' mem_v17 (VB m tcVal pv d))) $$ Hheld
  icases H with ⟨H17, Hheld⟩
  ihave H := (Entails.of_eq (held_take (SparseCore.T d) T3 v18' mem_v18 (VB m tcVal pv d))) $$ Hheld
  icases H with ⟨H18, Hheld⟩
  ihave H := (Entails.of_eq (held_take (SparseCore.T d) T4 v19' mem_v19 (VB m tcVal pv d))) $$ Hheld
  icases H with ⟨H19, Hheld⟩
  iapply (region2_step' m tcVal pv projVal hpj d _)
  isplitr [Hb H15 H16 H17 H18 H19 HO Hcg1 Htk1]
  swap
  · isplitl [Hb]; · iexact Hb
    isplitl [H15 H16 H17 H18 H19 HO]
    · isplitl [H15]; · iexact H15
      isplitl [H16]; · iexact H16
      isplitl [H17]; · iexact H17
      isplitl [H18]; · iexact H18
      isplitl [H19]; · iexact H19
      iexact HO
    isplitr; · iexact Hlev
    isplitl [Hcg1] <;> iassumption
  iintro ⟨Hb, H15, H16, H17, H18, H19, HO⟩
  rw [wp_ret]
  imodintro
  ihave Hheld := (Entails.of_eq (put_v19 m tcVal pv projVal d)) $$ [H19 Hheld]
  · isplitl [H19] <;> iassumption
  ihave Hheld := (Entails.of_eq (put_v18 m tcVal pv projVal d)) $$ [H18 Hheld]
  · isplitl [H18] <;> iassumption
  ihave Hheld := (Entails.of_eq (put_v17 m tcVal pv projVal d)) $$ [H17 Hheld]
  · isplitl [H17] <;> iassumption
  ihave Hheld := (Entails.of_eq (put_v16 m tcVal pv projVal d)) $$ [H16 Hheld]
  · isplitl [H16] <;> iassumption
  ihave Hheld := (Entails.of_eq (put_v15 m tcVal pv projVal d)) $$ [H15 Hheld]
  · isplitl [H15] <;> iassumption
  -- the result reshaped
  iapply (wp_seq 𝒱 none Set.univ d (ucRefs τ sig) _ opsC opsC_sub (forall_mem_of_Forall opsC_fresh) (V3 m tcVal pv projVal d)) $$ [Hb Hheld]
  · isplitl [Hb] <;> iassumption
  iintro ⟨Hb, Hheld⟩
  rw [wp_pure]
  imodintro
  unfold FIN
  rw [← VC_a0 m tcVal pv projVal d, ← VC_a1 m tcVal pv projVal d]
  isplitl [HO Hrest]
  · ihave Hst1 := (Entails.of_eq (tcSt_eq (F := F) d ((0 : Fin 1).val + 1)).symm) $$ [HO Hrest]
    · isplitl [HO]; · iexact HO
      iexact Hrest
    iexact Hst1
  -- the arguments as launched, the result
  ihave H := (Entails.of_eq (held_take (SparseCore.T d) S0 a0' mem_a0 (VC m tcVal pv projVal d))) $$ Hheld
  icases H with ⟨Ha0, Hheld⟩
  ihave H := (Entails.of_eq (held_take (SparseCore.T d) F1 a1' mem_a1 (VC m tcVal pv projVal d))) $$ Hheld
  icases H with ⟨Ha1, Hheld⟩
  ihave H := (Entails.of_eq (held_take (SparseCore.T d) F2 v20' mem_v20 (VC m tcVal pv projVal d))) $$ Hheld
  icases H with ⟨Hr, -⟩
  isplitl [Ha0]; · iexact Ha0
  isplitl [Ha1]; · iexact Ha1
  iexact Hr

/-! ## The program's run -/

theorem run_main [∀ e, Nonempty (Elt F e)] (htc : TcRun m tcVal) (hpj : ProjRun m tcVal pv projVal)
    (htile : (K (F := F)).TileObl (D (F := F)) 𝒱 (P (x3v m) pv) v₀ 0) :
    θ_run (Cert.Kernel.defs (F := F)) (Cert.Kernel.threads (F := F)) ⟨m, fun _ => 0, ρ⟩ (QC m (KV m tcVal pv projVal)) :=
  SparseCore.Cfg.θ_run_sc (K := K (F := F)) (D := D (F := F)) (𝒱 := 𝒱) (EH := EH) (P := P (x3v m) pv) facts v₀
    (fun q hq => match q with | 0 => nomatch hq)
    (fun q _ => match q with | 0 => htile)
    (fun q _ => match q with | 0 => SparseCore.Cfg.VecSplit.of_plain (vecSplit (x3v m) pv))
    m ρ main (G (F := F)) (FIN m (KV m tcVal pv projVal)) (u₀ (F := F)) (hu₀ (x3v m) pv) (hmain m ρ tcVal pv projVal htc hpj)
    (fq m (KV m tcVal pv projVal)) (hfin m (KV m tcVal pv projVal)) (QC m (KV m tcVal pv projVal)) (fun _ h => h)

end Cert.Proof.KB

end
-- ==== Proof.KB.TcPoolDefs.lean ====
/-
  The TensorCore pool of planes 0 .. 575: names and bookkeeping of its ring of eight slots.

  The planes are pooled slab by slab, a slab being eight consecutive planes; slab b is copied from the plane array into
  ring slot b mod 8, each slot completing on a transfer semaphore of its own, seven slabs ahead of the one being summed.
  This module names a slot, its semaphore and what the slot holds when free and when a copy into it is in flight; says
  which slots are in flight before each trip of the pool's loop; and states the trip's index arithmetic in closed form.
-/
import proofs.«215010_g72713796321855_cont_9to1c4b_299_31_alg».proof.Proof.KB.Common
import proofs.«215010_g72713796321855_cont_9to1c4b_299_31_alg».proof.Proof.Gen.Kernel.Skeleton
import proofs.«215010_g72713796321855_cont_9to1c4b_299_31_alg».proof.Proof.Gen.Kernel.Points
import Idealize.ShloMosaic.Lib.Ring
import Idealize.ShloMosaic.Lib.Exec

noncomputable section

namespace Cert.Proof.KB.TcPool

open Cert.Kernel Cert.Kernel.Gen
open Idealize.ShloMosaic
open Idealize.ShloMosaic.SparseCore (S V T)
open Idealize.ShloMosaic.SparseCore.Cfg (HIx)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok)

variable {F : FTy → Type} [FloatOps F]

local notation "𝕄" => MT nD τ sig (HIx 1) (Elt F) ℕ UU ℕ

/-! ## Slots, cells and slabs as slices at given offsets

A ring slot (eight planes' room in the scratch buffer), its transfer semaphore and a slab of eight planes are each a
slice at some offsets. One trip names them at the offsets its own index arithmetic computes; the bookkeeping names slot
s and its semaphore at the offsets (s, 0, 0, 0) and (s), slab b at the offsets (8 b, 0, 0). Equal offsets give equal
slices, whatever says they are in range. -/

abbrev slotP (off : Fin 4 → Nat) (h : ∀ a, off a + S1x8x384x384.size a ≤ S8x8x384x384.size a) : Memref sig .tc .vmem S8x384x384 .f32 :=
  ((Memref.whole cc0_scratch0).slice (Rect.unit (s := S8x8x384x384) off S1x8x384x384.size h) (fun _ => rfl)).squeeze S8x384x384 squeezes_S1x8x384x384_S8x384x384
abbrev cellP (off : Fin 1 → Nat) (h : ∀ a, off a + S1.size a ≤ S8.size a) : SemLoc sig :=
  SemLoc.dma ((cc0_scratch1.slice (Rect.unit (s := S8) off S1.size h)).squeeze S_ squeezes_S1_S_).sem
abbrev slabP (off : Fin 3 → Nat) (h : ∀ a, off a + S8x384x384.size a ≤ S768x384x384.size a) : Memref sig .tc .hbm S8x384x384 .f32 :=
  (Memref.whole main_v0).slice (Rect.unit (s := S768x384x384) off S8x384x384.size h) (fun _ => rfl)

theorem slotP_congr {off off' : Fin 4 → Nat} (e : off = off') (h h') : slotP off h = slotP off' h' := by subst e; rfl
theorem cellP_congr {off off' : Fin 1 → Nat} (e : off = off') (h h') : cellP off h = cellP off' h' := by subst e; rfl

theorem inbSlot (s : Fin 8) : ∀ a, (![s.val, 0, 0, 0] : Fin 4 → Nat) a + S1x8x384x384.size a ≤ S8x8x384x384.size a := by
  have := s.isLt; intro a; fin_cases a
  · show s.val + 1 ≤ 8; omega
  · show 0 + 8 ≤ 8; omega
  · show 0 + 384 ≤ 384; omega
  · show 0 + 384 ≤ 384; omega
theorem inbCell (s : Fin 8) : ∀ a, (![s.val] : Fin 1 → Nat) a + S1.size a ≤ S8.size a := by
  have := s.isLt; intro a; fin_cases a
  show s.val + 1 ≤ 8; omega
theorem inbSlab (b : ℕ) : ∀ a, (![8 * (b % 72), 0, 0] : Fin 3 → Nat) a + S8x384x384.size a ≤ S768x384x384.size a := by
  have := Nat.mod_lt b (show 0 < 72 by decide); intro a; fin_cases a
  · show 8 * (b % 72) + 8 ≤ 768; omega
  · show 0 + 384 ≤ 384; omega
  · show 0 + 384 ≤ 384; omega
theorem inbRow (b : ℕ) : ∀ a, (![8 * (b % 72), 0, 0] : Fin 3 → Nat) a + S8x1x1.size a ≤ S576x1x1.size a := by
  have := Nat.mod_lt b (show 0 < 72 by decide); intro a; fin_cases a
  · show 8 * (b % 72) + 8 ≤ 576; omega
  · show 0 + 1 ≤ 1; omega
  · show 0 + 1 ≤ 1; omega

/-- Ring slot s and its own transfer semaphore. -/
abbrev slotM (s : Fin 8) : Memref sig .tc .vmem S8x384x384 .f32 := slotP ![s.val, 0, 0, 0] (inbSlot s)
abbrev cellM (s : Fin 8) : SemLoc sig := cellP ![s.val] (inbCell s)
/-- The slot slab b travels into. -/
abbrev sOf (b : ℕ) : Fin 8 := ⟨b % 8, Nat.mod_lt _ (by decide)⟩

/-! ## One trip's index arithmetic in closed form

Trip k works on slabs 2k and 2k+1 (slab b: planes 8b .. 8b+7; while in flight it travels into slot b mod 8) and, while
they exist (there are 72 slabs), starts slabs 2k+7 and 2k+8. -/

theorem cond1_iff : ∀ k : Fin k0_t1_loop.trips, k0_cond1 k = 1#1 ↔ k.val ≤ 32 := by decide +kernel
theorem cond2_iff : ∀ k : Fin k0_t1_loop.trips, k0_cond2 k = 1#1 ↔ k.val ≤ 31 := by decide +kernel

theorem off3_eq : ∀ k : Fin k0_t1_loop.trips, k0_off3 k = ![(sOf (2 * k.val + 7)).val] := by decide +kernel
theorem off4_eq : ∀ k : Fin k0_t1_loop.trips, k0_off4 k = ![(sOf (2 * k.val + 7)).val, 0, 0, 0] := by decide +kernel
theorem off5_eq : ∀ k : Fin k0_t1_loop.trips, k.val ≤ 32 → k0_off5 k = ![8 * ((2 * k.val + 7) % 72), 0, 0] := by decide +kernel
theorem off6_0_eq : ∀ k : Fin k0_t1_loop.trips, k0_off6 k 0#32 = ![(sOf (2 * k.val)).val] := by decide +kernel
theorem off6_1_eq : ∀ k : Fin k0_t1_loop.trips, k0_off6 k 1#32 = ![(sOf (2 * k.val + 1)).val] := by decide +kernel
theorem off7_0_eq : ∀ k : Fin k0_t1_loop.trips, k0_off7 k 0#32 = ![(sOf (2 * k.val)).val, 0, 0, 0] := by decide +kernel
theorem off7_1_eq : ∀ k : Fin k0_t1_loop.trips, k0_off7 k 1#32 = ![(sOf (2 * k.val + 1)).val, 0, 0, 0] := by decide +kernel
theorem off9_0_eq : ∀ k : Fin k0_t1_loop.trips, k0_off9 k 0#32 = ![(sOf (2 * k.val)).val, 0, 0, 0] := by decide +kernel
theorem off9_1_eq : ∀ k : Fin k0_t1_loop.trips, k0_off9 k 1#32 = ![(sOf (2 * k.val + 1)).val, 0, 0, 0] := by decide +kernel
theorem off10_0_eq : ∀ k : Fin k0_t1_loop.trips, k0_off10 k 0#32 = ![8 * ((2 * k.val) % 72), 0, 0] := by decide +kernel
theorem off10_1_eq : ∀ k : Fin k0_t1_loop.trips, k0_off10 k 1#32 = ![8 * ((2 * k.val + 1) % 72), 0, 0] := by decide +kernel
theorem off11_eq : ∀ k : Fin k0_t1_loop.trips, k0_off11 k = ![(sOf (2 * k.val)).val] := by decide +kernel
theorem off12_eq : ∀ k : Fin k0_t1_loop.trips, k0_off12 k = ![(sOf (2 * k.val)).val, 0, 0, 0] := by decide +kernel
theorem off13_eq : ∀ k : Fin k0_t1_loop.trips, k.val ≤ 31 → k0_off13 k = ![8 * ((2 * k.val + 8) % 72), 0, 0] := by decide +kernel

/-! ## Which slab is in flight into which slot before trip k

Before trip k the slabs 2k .. 2k+6 that exist are in flight, slab 2k+j into slot (2k+j) mod 8; the eighth slot is
free, and so is every slot whose slab would be number 72 or more. -/

/-- Slot s's place j in the window starting at slab 2k: s = (2k + j) mod 8. -/
def pos (k : ℕ) (s : Fin 8) : ℕ := (s.val + 8 - (2 * k) % 8) % 8
/-- The slab in flight into slot s before trip k, if any. -/
def st (k : ℕ) (s : Fin 8) : Option ℕ := if pos k s < 7 ∧ 2 * k + pos k s < 72 then some (2 * k + pos k s) else none

theorem ne_07 : ∀ k : Fin k0_t1_loop.trips, sOf (2 * k.val) ≠ sOf (2 * k.val + 7) := by decide +kernel
theorem ne_17 : ∀ k : Fin k0_t1_loop.trips, sOf (2 * k.val + 1) ≠ sOf (2 * k.val + 7) := by decide +kernel
theorem ne_10 : ∀ k : Fin k0_t1_loop.trips, sOf (2 * k.val + 1) ≠ sOf (2 * k.val) := by decide +kernel
theorem st_i7 : ∀ k : Fin k0_t1_loop.trips, st k.val (sOf (2 * k.val + 7)) = none := by decide +kernel
theorem st_i0 : ∀ k : Fin k0_t1_loop.trips, st k.val (sOf (2 * k.val)) = some (2 * k.val) := by decide +kernel
theorem st_i1 : ∀ k : Fin k0_t1_loop.trips, st k.val (sOf (2 * k.val + 1)) = some (2 * k.val + 1) := by decide +kernel
theorem st_next_i7 : ∀ k : Fin k0_t1_loop.trips, k.val ≤ 32 → st (k.val + 1) (sOf (2 * k.val + 7)) = some (2 * k.val + 7) := by decide +kernel
theorem st_next_i7' : ∀ k : Fin k0_t1_loop.trips, 33 ≤ k.val → st (k.val + 1) (sOf (2 * k.val + 7)) = none := by decide +kernel
theorem st_next_i0 : ∀ k : Fin k0_t1_loop.trips, k.val ≤ 31 → st (k.val + 1) (sOf (2 * k.val)) = some (2 * k.val + 8) := by decide +kernel
theorem st_next_i0' : ∀ k : Fin k0_t1_loop.trips, 32 ≤ k.val → st (k.val + 1) (sOf (2 * k.val)) = none := by decide +kernel
theorem st_next_i1 : ∀ k : Fin k0_t1_loop.trips, st (k.val + 1) (sOf (2 * k.val + 1)) = none := by decide +kernel
theorem st_next_rest : ∀ k : Fin k0_t1_loop.trips, ∀ s : Fin 8, s ≠ sOf (2 * k.val + 7) → s ≠ sOf (2 * k.val) → s ≠ sOf (2 * k.val + 1) →
    st (k.val + 1) s = st k.val s := by decide +kernel
theorem st_zero : ∀ s : Fin 8, st 0 s = if s.val < 7 then some s.val else none := by decide
theorem st_last : ∀ s : Fin 8, st 36 s = none := by decide

/-! ## What a slot holds, and what the pool stores -/

section Family

variable (d : Dev nD) (q : PosShare TreeShare) (x3v : Buf (Elt F) ((Memref.whole main_v0).view.loc (T d : Thread nD τ)))

/-- What a transfer of the slab at offsets bo carries: the slab's eight planes as they stand in the plane array. -/
def payAt (bo : Fin 3 → Nat) (hbo : ∀ a, bo a + S8x384x384.size a ≤ S768x384x384.size a) : S8x384x384.Idx → Elt F .f32 :=
  ReadAs.same.apply (View.read (Elt F) (slabP bo hbo).view x3v)

/-- What the pool reads back of a slot (named at offsets so; read at offsets lo of the scratch buffer) that a transfer
    carrying w has filled. -/
def loadedAt (so : Fin 4 → Nat) (hso : ∀ a, so a + S1x8x384x384.size a ≤ S8x8x384x384.size a) (lo : Fin 4 → Nat)
    (hlo : ∀ a, lo a + S1x8x384x384.size a ≤ S8x8x384x384.size a) (w : S8x384x384.Idx → Elt F .f32) : Vec F S1x8x384x384 .f32 :=
  View.readAt (Elt F) (Memref.whole cc0_scratch0).view (Rect.unit (s := S8x8x384x384) lo S1x8x384x384.size hlo).toLoadRect
    ((slotP so hso).view.writes (Elt F) (slotP so hso).view.junk [⟨Rect.whole S8x384x384, w⟩])

/-- The piece of the output the pool stores for a slab: at rows ro, the eight plane sums of what it read back. -/
def pcAt (ro : Fin 3 → Nat) (hro : ∀ a, ro a + S8x1x1.size a ≤ S576x1x1.size a) (so : Fin 4 → Nat)
    (hso : ∀ a, so a + S1x8x384x384.size a ≤ S8x8x384x384.size a) (lo : Fin 4 → Nat)
    (hlo : ∀ a, lo a + S1x8x384x384.size a ≤ S8x8x384x384.size a) (w : S8x384x384.Idx → Elt F .f32) : View.Piece (Elt F) S576x1x1 .f32 :=
  ⟨Rect.unit (s := S576x1x1) ro S8x1x1.size hro, k0_pay1 (loadedAt so hso lo hlo w)⟩

theorem pcAt_congr {ro ro' : Fin 3 → Nat} {so so' lo lo' : Fin 4 → Nat} (e1 : ro = ro') (e2 : so = so') (e3 : lo = lo')
    (hro hro' hso hso' hlo hlo') (w : S8x384x384.Idx → Elt F .f32) :
    pcAt (F := F) ro hro so hso lo hlo w = pcAt ro' hro' so' hso' lo' hlo' w := by subst e1; subst e2; subst e3; rfl

/-- Slab b's contribution to the output: rows 8b .. 8b+7. -/
def pc (b : ℕ) : View.Piece (Elt F) S576x1x1 .f32 :=
  pcAt ![8 * (b % 72), 0, 0] (inbRow b) ![(sOf b).val, 0, 0, 0] (inbSlot (sOf b)) ![(sOf b).val, 0, 0, 0] (inbSlot (sOf b))
    (payAt d x3v ![8 * (b % 72), 0, 0] (inbSlab b))
/-- The pieces stored for slabs 0 .. n-1, the latest first. -/
def pcs : ℕ → List (View.Piece (Elt F) S576x1x1 .f32)
  | 0 => []
  | n + 1 => pc d x3v n :: pcs n

/-- Slot s's read token of the planes is number s + 1 of nine (its semaphore is number s + 1 of the core's transfer
    semaphores, and a transfer borrows from the token of its semaphore's number); token 0 is never lent. -/
abbrev tk (s : Fin 8) : Fin 9 := ⟨s.val + 1, by omega⟩

/-- A FREE slot, named at the offsets co (semaphore) and so (slot): the semaphore at zero, the slot's room at any
    contents, and the slot's own read token of the planes, whole. -/
def freeAt (co : Fin 1 → Nat) (hco : ∀ a, co a + S1.size a ≤ S8.size a) (so : Fin 4 → Nat)
    (hso : ∀ a, so a + S1x8x384x384.size a ≤ S8x8x384x384.size a) (s : Fin 8) : sProp 𝕄 :=
  iprop(semVal (T d, cellP co hco) 0
    ∗ (∃ f, (slotP so hso).view.loc (T d) ↦[(slotP so hso).view.set]{fullShare} f)
    ∗ ((Memref.whole main_v0).view.loc (T d) ↦[Finset.univ]{shareTok q 9 (tk s)} x3v))

/-- A slot IN FLIGHT with the slab at offsets bo: the transfer's capability — its wait hands back the slot's room
    filled with that slab and the slab's part of the token — beside the rest of the token. -/
def flyAt (co : Fin 1 → Nat) (hco : ∀ a, co a + S1.size a ≤ S8.size a) (so : Fin 4 → Nat)
    (hso : ∀ a, so a + S1x8x384x384.size a ≤ S8x8x384x384.size a) (bo : Fin 3 → Nat)
    (hbo : ∀ a, bo a + S8x384x384.size a ≤ S768x384x384.size a) (s : Fin 8) : sProp 𝕄 :=
  iprop((∃ f : Buf (Elt F) ((slotP so hso).view.loc (T d : Thread nD τ)),
      Transfers.Flight (countersEmb (U := UU)) (T d) (cellP co hco) (default : HIx 1) 147456
        iprop(((slotP so hso).view.loc (T d) ↦[(slotP so hso).view.set]{fullShare}
              (slotP so hso).view.writes (Elt F) f [⟨Rect.whole S8x384x384, payAt d x3v bo hbo⟩])
          ∗ ((Memref.whole main_v0).view.loc (T d) ↦[(slabP bo hbo).view.set]{shareTok q 9 (tk s)} x3v)))
    ∗ ((Memref.whole main_v0).view.loc (T d) ↦[Finset.univ \ (slabP bo hbo).view.set]{shareTok q 9 (tk s)} x3v))

theorem freeAt_congr {co co' : Fin 1 → Nat} {so so' : Fin 4 → Nat} (ec : co = co') (es : so = so') (hco hco' hso hso') (s : Fin 8) :
    freeAt d q x3v co hco so hso s = freeAt d q x3v co' hco' so' hso' s := by subst ec; subst es; rfl
theorem flyAt_congr {co co' : Fin 1 → Nat} {so so' : Fin 4 → Nat} {bo bo' : Fin 3 → Nat} (ec : co = co') (es : so = so') (eb : bo = bo')
    (hco hco' hso hso' hbo hbo') (s : Fin 8) :
    flyAt d q x3v co hco so hso bo hbo s = flyAt d q x3v co' hco' so' hso' bo' hbo' s := by subst ec; subst es; subst eb; rfl

/-- A slot's room held at one naming of its offsets is held at any other naming of the same offsets. -/
theorem slot_respell {so so' : Fin 4 → Nat} (es : so = so') (hso : ∀ a, so a + S1x8x384x384.size a ≤ S8x8x384x384.size a)
    (hso' : ∀ a, so' a + S1x8x384x384.size a ≤ S8x8x384x384.size a) (g : Buf (Elt F) ((slotP so hso).view.loc (T d : Thread nD τ))) :
    ((slotP so hso).view.loc (T d) ↦[(slotP so hso).view.set]{fullShare} g : sProp 𝕄)
      ⊢ ∃ g', (slotP so' hso').view.loc (T d) ↦[(slotP so' hso').view.set]{fullShare} g' := by
  subst es; iintro H; iexists g; iexact H

/-- Slot s in flight with slab b (some b) or free (none), named by its number. -/
def Φ (s : Fin 8) : Option ℕ → sProp 𝕄
  | some b => flyAt d q x3v ![s.val] (inbCell s) ![s.val, 0, 0, 0] (inbSlot s) ![8 * (b % 72), 0, 0] (inbSlab b) s
  | none => freeAt d q x3v ![s.val] (inbCell s) ![s.val, 0, 0, 0] (inbSlot s) s

end Family

/-! ## Three slots set apart from the ring, and put back -/

theorem AtW_three {M : Type _} [URA M] {α : Type} (Ψ : Fin 8 → α → sProp M) (σt : Fin 8 → α) (a b c : Fin 8)
    (hba : b ≠ a) (hca : c ≠ a) (hcb : c ≠ b) :
    Ring.AtW (σ := fun _ => α) Ψ σt
      = iprop(Ψ a (σt a) ∗ Ψ b (σt b) ∗ Ψ c (σt c) ∗ bigSep (((Finset.univ.erase a).erase b).erase c) fun s => Ψ s (σt s)) := by
  rw [Ring.AtW_focus (σ := fun _ => α) Ψ σt a, Ring.restW_focus (σ := fun _ => α) Ψ σt a b hba,
    BI.bigSep_erase (Φ := fun s => Ψ s (σt s)) (Finset.mem_erase.mpr ⟨hcb, Finset.mem_erase.mpr ⟨hca, Finset.mem_univ c⟩⟩)]
  rfl

theorem AtW_three_next {M : Type _} [URA M] {α : Type} (Ψ : Fin 8 → α → sProp M) (σt σt' : Fin 8 → α) (a b c : Fin 8)
    (hba : b ≠ a) (hca : c ≠ a) (hcb : c ≠ b) (hrest : ∀ s, s ≠ a → s ≠ b → s ≠ c → σt' s = σt s) :
    iprop(Ψ a (σt' a) ∗ Ψ b (σt' b) ∗ Ψ c (σt' c) ∗ bigSep (((Finset.univ.erase a).erase b).erase c) fun s => Ψ s (σt s))
      ⊢ Ring.AtW (σ := fun _ => α) Ψ σt' := by
  rw [AtW_three Ψ σt' a b c hba hca hcb,
    BI.bigSep_congr (s := ((Finset.univ.erase a).erase b).erase c) (Φ := fun s => Ψ s (σt' s)) (Ψ := fun s => Ψ s (σt s))
      fun s hs => by
        have h3 := Finset.mem_erase.mp hs
        have h2 := Finset.mem_erase.mp h3.2
        have h1 := Finset.mem_erase.mp h2.2
        rw [hrest s h1.1 h2.1 h3.1]]

end Cert.Proof.KB.TcPool

end
-- ==== Proof.KB.TcPoolTrip.lean ====
/-
  The TensorCore pool of planes 0 .. 575: one trip of its loop.

  Trip k waits for slabs 2k and 2k+1, sums each slab's eight planes and stores the eight sums at rows 8b .. 8b+7 of the
  output, and meanwhile starts slabs 2k+7 and 2k+8 while they exist. Three slots of the ring are touched: the free one
  (slab 2k+7 goes there), slab 2k's (which then takes slab 2k+8) and slab 2k+1's (left free). The trip is first run at
  its own naming of those slots — the offsets its index arithmetic computes — once for each way its two conditions can
  fall; then the invariant's naming, by slot number and slab number, is translated to the trip's and back with the
  closed forms of that arithmetic. The value is carried along: what a slot's transfer lands is the slab as it stands in
  the plane array, and the output holds, over what it held at the start, one piece per slab done so far.
-/
import proofs.«215010_g72713796321855_cont_9to1c4b_299_31_alg».proof.Proof.KB.TcPoolDefs

noncomputable section

namespace Cert.Proof.KB.TcPool

open Cert.Kernel Cert.Kernel.Gen
open Idealize.ShloMosaic
open Idealize.ShloMosaic.SparseCore (S V T)
open Idealize.ShloMosaic.SparseCore.Cfg (HIx)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok)

variable {F : FTy → Type} [FloatOps F]

local notation "𝕄" => MT nD τ sig (HIx 1) (Elt F) ℕ UU ℕ

-- the trip's index arithmetic enters only through its closed forms (the equations of the definitions module): its
-- definitions by machine-word operations are never unfolded at a symbolic trip
attribute [local irreducible] k0_off3 k0_off4 k0_off5 k0_off6 k0_off7 k0_off8 k0_off9 k0_off10 k0_off11 k0_off12 k0_off13 k0_cond1 k0_cond2

/-- What one trip keeps of the thread's debts: the waits made so far recorded. -/
abbrev owesAnd (d : Dev nD) (O : CellTallies nD τ sig (HIx 1)) (W : Waits sig (HIx 1)) : sProp 𝕄 :=
  iprop(∃ W', ⌜∀ p ∈ W', p ∈ W ∨ p.2 = none⌝ ∗ owes (T d) O W')

set_option maxHeartbeats 1600000 in
/-- A trip that starts both of its slabs (k ≤ 31), at the trip's own naming of the three slots it touches: slab 2k+7
    is started into the free slot; slab 2k is awaited, summed and stored, and slab 2k+8 started into its slot; slab
    2k+1 is awaited, summed and stored, its slot left free. The output gains the two slabs' pieces. -/
theorem core_A (d : Dev nD) (q : PosShare TreeShare) (x3v : Buf (Elt F) ((Memref.whole main_v0).view.loc (T d : Thread nD τ)))
    (arg1 : Memref sig .tc .vmem S576x1x1 .f32) (harg1 : arg1.IsWhole)
    (O : CellTallies nD τ sig (HIx 1)) (W : Waits sig (HIx 1)) (k : Fin k0_t1_loop.trips)
    (h1 : k0_cond1 k = 1#1) (h2 : k0_cond2 k = 1#1) (s7 s0 s1 : Fin 8)
    (bo0 bo1 : Fin 3 → Nat) (hbo0 : ∀ a, bo0 a + S8x384x384.size a ≤ S768x384x384.size a) (hbo1 : ∀ a, bo1 a + S8x384x384.size a ≤ S768x384x384.size a)
    (fo : Buf (Elt F) (arg1.view.loc (T d : Thread nD τ))) (L : List (View.Piece (Elt F) S576x1x1 .f32)) :
    iprop(Transfers.MayWaits (T d) (none : HIx 1) O
        ∗ freeAt d q x3v (k0_off3 k) (k0_off3_inb k h1) (k0_off4 k) (k0_off4_inb k h1) s7
        ∗ flyAt d q x3v (k0_off6 k 0#32) (k0_off6_inb k 0) (k0_off7 k 0#32) (k0_off7_inb k 0) bo0 hbo0 s0
        ∗ flyAt d q x3v (k0_off6 k 1#32) (k0_off6_inb k 1) (k0_off7 k 1#32) (k0_off7_inb k 1) bo1 hbo1 s1
        ∗ (arg1.view.loc (T d) ↦{fullShare} arg1.view.writes (Elt F) fo L)
        ∗ owesAnd d O W)
      ⊢ wp frame (wpE (defs₀ (F := F)) 𝒱₀ (T d) none) Set.univ
          (k0_t1_body (F := F) (Memref.whole main_v0) (Memref.isWhole_whole _) arg1 harg1 (Memref.whole cc0_scratch0) (Memref.isWhole_whole _) cc0_scratch1 k ())
          (fun _ => iprop(flyAt d q x3v (k0_off3 k) (k0_off3_inb k h1) (k0_off4 k) (k0_off4_inb k h1) (k0_off5 k) (k0_off5_inb k h1) s7
            ∗ flyAt d q x3v (k0_off11 k) (k0_off11_inb k h2) (k0_off12 k) (k0_off12_inb k h2) (k0_off13 k) (k0_off13_inb k h2) s0
            ∗ freeAt d q x3v (k0_off6 k 1#32) (k0_off6_inb k 1) (k0_off7 k 1#32) (k0_off7_inb k 1) s1
            ∗ (arg1.view.loc (T d) ↦{fullShare} arg1.view.writes (Elt F) fo
                (pcAt (k0_off10 k 1#32) (k0_off10_inb k 1) (k0_off7 k 1#32) (k0_off7_inb k 1) (k0_off9 k 1#32) (k0_off9_inb k 1) (payAt d x3v bo1 hbo1)
                  :: pcAt (k0_off10 k 0#32) (k0_off10_inb k 0) (k0_off7 k 0#32) (k0_off7_inb k 0) (k0_off9 k 0#32) (k0_off9_inb k 0) (payAt d x3v bo0 hbo0)
                  :: L))
            ∗ owesAnd d O W)) := by
  unfold k0_t1_body freeAt flyAt owesAnd
  iintro ⟨#Hmw, ⟨Hc7, ⟨%f7, Hs7⟩, Ht7⟩, ⟨⟨%f0, Hf0⟩, Hr0⟩, ⟨⟨%f1, Hf1⟩, Hr1⟩, Hout, %W', %hW', HO⟩
  sl_exec (disch := first | exact h1 | exact h2)
  -- slab 2k's slot, free again, is the slot slab 2k+8 goes into: the same offsets under the next transfer's naming
  ihave Hc0 := (Entails.of_eq (congrArg (fun c => semVal (T d, c) 0)
      (cellP_congr ((off6_0_eq k).trans (off11_eq k).symm) (k0_off6_inb k 0) (k0_off11_inb k h2)))) $$ Hf0
  ihave Hs0 := (slot_respell d ((off7_0_eq k).trans (off12_eq k).symm) (k0_off7_inb k 0) (k0_off12_inb k h2) _) $$ Hf0_dst
  icases Hs0 with ⟨%g0', Hs0⟩
  sl_exec (disch := first | exact h1 | exact h2)
  sl_step
  isplitl [Hc7 Ht7]
  · isplitl [Hc7]
    · iexists _; iexact Hc7
    · iexact Ht7
  isplitl [Hc0 Hr0]
  · isplitl [Hc0]
    · iexists _; iexact Hc0
    · iexact Hr0
  isplitl [Hf1 Hf1_dst Hr1]
  · isplitl [Hf1]; · iexact Hf1
    isplitl [Hf1_dst]; · iexists _; iexact Hf1_dst
    iexact Hr1
  isplitl [Hout]; · iexact Hout
  iexists (insert (cellP (k0_off6 k 1#32) (k0_off6_inb k 1), (default : HIx 1)) (insert (cellP (k0_off6 k 0#32) (k0_off6_inb k 0), (default : HIx 1)) W')); isplitr
  · ipureintro; intro p hp
    rcases Finset.mem_insert.mp hp with rfl | hp
    · exact .inr rfl
    rcases Finset.mem_insert.mp hp with rfl | hp
    · exact .inr rfl
    exact hW' p hp
  · iexact HO

set_option maxHeartbeats 1600000 in
/-- Trip 32 starts slab 71 only: slab 64's slot is left free. -/
theorem core_B (d : Dev nD) (q : PosShare TreeShare) (x3v : Buf (Elt F) ((Memref.whole main_v0).view.loc (T d : Thread nD τ)))
    (arg1 : Memref sig .tc .vmem S576x1x1 .f32) (harg1 : arg1.IsWhole)
    (O : CellTallies nD τ sig (HIx 1)) (W : Waits sig (HIx 1)) (k : Fin k0_t1_loop.trips)
    (h1 : k0_cond1 k = 1#1) (h2 : ¬ k0_cond2 k = 1#1) (s7 s0 s1 : Fin 8)
    (bo0 bo1 : Fin 3 → Nat) (hbo0 : ∀ a, bo0 a + S8x384x384.size a ≤ S768x384x384.size a) (hbo1 : ∀ a, bo1 a + S8x384x384.size a ≤ S768x384x384.size a)
    (fo : Buf (Elt F) (arg1.view.loc (T d : Thread nD τ))) (L : List (View.Piece (Elt F) S576x1x1 .f32)) :
    iprop(Transfers.MayWaits (T d) (none : HIx 1) O
        ∗ freeAt d q x3v (k0_off3 k) (k0_off3_inb k h1) (k0_off4 k) (k0_off4_inb k h1) s7
        ∗ flyAt d q x3v (k0_off6 k 0#32) (k0_off6_inb k 0) (k0_off7 k 0#32) (k0_off7_inb k 0) bo0 hbo0 s0
        ∗ flyAt d q x3v (k0_off6 k 1#32) (k0_off6_inb k 1) (k0_off7 k 1#32) (k0_off7_inb k 1) bo1 hbo1 s1
        ∗ (arg1.view.loc (T d) ↦{fullShare} arg1.view.writes (Elt F) fo L)
        ∗ owesAnd d O W)
      ⊢ wp frame (wpE (defs₀ (F := F)) 𝒱₀ (T d) none) Set.univ
          (k0_t1_body (F := F) (Memref.whole main_v0) (Memref.isWhole_whole _) arg1 harg1 (Memref.whole cc0_scratch0) (Memref.isWhole_whole _) cc0_scratch1 k ())
          (fun _ => iprop(flyAt d q x3v (k0_off3 k) (k0_off3_inb k h1) (k0_off4 k) (k0_off4_inb k h1) (k0_off5 k) (k0_off5_inb k h1) s7
            ∗ freeAt d q x3v (k0_off6 k 0#32) (k0_off6_inb k 0) (k0_off7 k 0#32) (k0_off7_inb k 0) s0
            ∗ freeAt d q x3v (k0_off6 k 1#32) (k0_off6_inb k 1) (k0_off7 k 1#32) (k0_off7_inb k 1) s1
            ∗ (arg1.view.loc (T d) ↦{fullShare} arg1.view.writes (Elt F) fo
                (pcAt (k0_off10 k 1#32) (k0_off10_inb k 1) (k0_off7 k 1#32) (k0_off7_inb k 1) (k0_off9 k 1#32) (k0_off9_inb k 1) (payAt d x3v bo1 hbo1)
                  :: pcAt (k0_off10 k 0#32) (k0_off10_inb k 0) (k0_off7 k 0#32) (k0_off7_inb k 0) (k0_off9 k 0#32) (k0_off9_inb k 0) (payAt d x3v bo0 hbo0)
                  :: L))
            ∗ owesAnd d O W)) := by
  unfold k0_t1_body freeAt flyAt owesAnd
  iintro ⟨#Hmw, ⟨Hc7, ⟨%f7, Hs7⟩, Ht7⟩, ⟨⟨%f0, Hf0⟩, Hr0⟩, ⟨⟨%f1, Hf1⟩, Hr1⟩, Hout, %W', %hW', HO⟩
  sl_exec (disch := first | exact h1 | exact h2)
  sl_step
  isplitl [Hc7 Ht7]
  · isplitl [Hc7]
    · iexists _; iexact Hc7
    · iexact Ht7
  isplitl [Hf0 Hf0_dst Hr0]
  · isplitl [Hf0]; · iexact Hf0
    isplitl [Hf0_dst]; · iexists _; iexact Hf0_dst
    iexact Hr0
  isplitl [Hf1 Hf1_dst Hr1]
  · isplitl [Hf1]; · iexact Hf1
    isplitl [Hf1_dst]; · iexists _; iexact Hf1_dst
    iexact Hr1
  isplitl [Hout]; · iexact Hout
  iexists (insert (cellP (k0_off6 k 1#32) (k0_off6_inb k 1), (default : HIx 1)) (insert (cellP (k0_off6 k 0#32) (k0_off6_inb k 0), (default : HIx 1)) W')); isplitr
  · ipureintro; intro p hp
    rcases Finset.mem_insert.mp hp with rfl | hp
    · exact .inr rfl
    rcases Finset.mem_insert.mp hp with rfl | hp
    · exact .inr rfl
    exact hW' p hp
  · iexact HO

set_option maxHeartbeats 1600000 in
/-- Trips 33 to 35 start nothing: both slots are left free. -/
theorem core_C (d : Dev nD) (q : PosShare TreeShare) (x3v : Buf (Elt F) ((Memref.whole main_v0).view.loc (T d : Thread nD τ)))
    (arg1 : Memref sig .tc .vmem S576x1x1 .f32) (harg1 : arg1.IsWhole)
    (O : CellTallies nD τ sig (HIx 1)) (W : Waits sig (HIx 1)) (k : Fin k0_t1_loop.trips)
    (h1 : ¬ k0_cond1 k = 1#1) (h2 : ¬ k0_cond2 k = 1#1) (s7 s0 s1 : Fin 8)
    (bo0 bo1 : Fin 3 → Nat) (hbo0 : ∀ a, bo0 a + S8x384x384.size a ≤ S768x384x384.size a) (hbo1 : ∀ a, bo1 a + S8x384x384.size a ≤ S768x384x384.size a)
    (fo : Buf (Elt F) (arg1.view.loc (T d : Thread nD τ))) (L : List (View.Piece (Elt F) S576x1x1 .f32)) :
    iprop(Transfers.MayWaits (T d) (none : HIx 1) O
        ∗ flyAt d q x3v (k0_off6 k 0#32) (k0_off6_inb k 0) (k0_off7 k 0#32) (k0_off7_inb k 0) bo0 hbo0 s0
        ∗ flyAt d q x3v (k0_off6 k 1#32) (k0_off6_inb k 1) (k0_off7 k 1#32) (k0_off7_inb k 1) bo1 hbo1 s1
        ∗ (arg1.view.loc (T d) ↦{fullShare} arg1.view.writes (Elt F) fo L)
        ∗ owesAnd d O W)
      ⊢ wp frame (wpE (defs₀ (F := F)) 𝒱₀ (T d) none) Set.univ
          (k0_t1_body (F := F) (Memref.whole main_v0) (Memref.isWhole_whole _) arg1 harg1 (Memref.whole cc0_scratch0) (Memref.isWhole_whole _) cc0_scratch1 k ())
          (fun _ => iprop(freeAt d q x3v (k0_off6 k 0#32) (k0_off6_inb k 0) (k0_off7 k 0#32) (k0_off7_inb k 0) s0
            ∗ freeAt d q x3v (k0_off6 k 1#32) (k0_off6_inb k 1) (k0_off7 k 1#32) (k0_off7_inb k 1) s1
            ∗ (arg1.view.loc (T d) ↦{fullShare} arg1.view.writes (Elt F) fo
                (pcAt (k0_off10 k 1#32) (k0_off10_inb k 1) (k0_off7 k 1#32) (k0_off7_inb k 1) (k0_off9 k 1#32) (k0_off9_inb k 1) (payAt d x3v bo1 hbo1)
                  :: pcAt (k0_off10 k 0#32) (k0_off10_inb k 0) (k0_off7 k 0#32) (k0_off7_inb k 0) (k0_off9 k 0#32) (k0_off9_inb k 0) (payAt d x3v bo0 hbo0)
                  :: L))
            ∗ owesAnd d O W)) := by
  unfold k0_t1_body freeAt flyAt owesAnd
  iintro ⟨#Hmw, ⟨⟨%f0, Hf0⟩, Hr0⟩, ⟨⟨%f1, Hf1⟩, Hr1⟩, Hout, %W', %hW', HO⟩
  sl_exec (disch := first | exact h1 | exact h2)
  sl_step
  isplitl [Hf0 Hf0_dst Hr0]
  · isplitl [Hf0]; · iexact Hf0
    isplitl [Hf0_dst]; · iexists _; iexact Hf0_dst
    iexact Hr0
  isplitl [Hf1 Hf1_dst Hr1]
  · isplitl [Hf1]; · iexact Hf1
    isplitl [Hf1_dst]; · iexists _; iexact Hf1_dst
    iexact Hr1
  isplitl [Hout]; · iexact Hout
  iexists (insert (cellP (k0_off6 k 1#32) (k0_off6_inb k 1), (default : HIx 1)) (insert (cellP (k0_off6 k 0#32) (k0_off6_inb k 0), (default : HIx 1)) W')); isplitr
  · ipureintro; intro p hp
    rcases Finset.mem_insert.mp hp with rfl | hp
    · exact .inr rfl
    rcases Finset.mem_insert.mp hp with rfl | hp
    · exact .inr rfl
    exact hW' p hp
  · iexact HO

/-- The ring slot by slot. -/
theorem AtW_eight {M : Type _} [URA M] {α : Type} (Ψ : Fin 8 → α → sProp M) (σt : Fin 8 → α) :
    Ring.AtW (σ := fun _ => α) Ψ σt
      = iprop(Ψ 0 (σt 0) ∗ Ψ 1 (σt 1) ∗ Ψ 2 (σt 2) ∗ Ψ 3 (σt 3) ∗ Ψ 4 (σt 4) ∗ Ψ 5 (σt 5) ∗ Ψ 6 (σt 6) ∗ Ψ 7 (σt 7)) :=
  bigSep_univ_eq_bigSepL [0, 1, 2, 3, 4, 5, 6, 7] (by decide) (by decide) (fun s => Ψ s (σt s))

/-! ## The loop's invariant and one trip -/

section Trip

variable (d : Dev nD) (q : PosShare TreeShare) (x3v : Buf (Elt F) ((Memref.whole main_v0).view.loc (T d : Thread nD τ)))
  (arg1 : Memref sig .tc .vmem S576x1x1 .f32) (harg1 : arg1.IsWhole) (fo : Buf (Elt F) (arg1.view.loc (T d : Thread nD τ)))
  (O : CellTallies nD τ sig (HIx 1)) (W : Waits sig (HIx 1))

theorem Φ_none (s : Fin 8) :
    Φ d q x3v s none = freeAt d q x3v ![s.val] (inbCell s) ![s.val, 0, 0, 0] (inbSlot s) s := rfl
theorem Φ_some (s : Fin 8) (b : ℕ) :
    Φ d q x3v s (some b) = flyAt d q x3v ![s.val] (inbCell s) ![s.val, 0, 0, 0] (inbSlot s) ![8 * (b % 72), 0, 0] (inbSlab b) s := rfl

/-- Before trip k: the ring as the in-flight map says, the output holding the pieces of slabs 0 .. 2k-1 over what it
    held at the start, the thread's debts with the waits so far recorded; and the evidence that its waits are admissible. -/
def inv (k : ℕ) (_ : Unit) : sProp 𝕄 :=
  iprop(Transfers.MayWaits (T d) (none : HIx 1) O
    ∗ Ring.AtW (σ := fun _ => Option ℕ) (Φ d q x3v) (st k)
    ∗ (arg1.view.loc (T d) ↦{fullShare} arg1.view.writes (Elt F) fo (pcs d x3v (2 * k)))
    ∗ owesAnd d O W)

/-- The two pieces trip k stores, under the trip's naming, are slab 2k's and slab 2k+1's. -/
theorem pcs_step (k : Fin k0_t1_loop.trips) :
    (pcAt (F := F) (k0_off10 k 1#32) (k0_off10_inb k 1) (k0_off7 k 1#32) (k0_off7_inb k 1) (k0_off9 k 1#32) (k0_off9_inb k 1)
        (payAt d x3v ![8 * ((2 * k.val + 1) % 72), 0, 0] (inbSlab (2 * k.val + 1)))
      :: pcAt (k0_off10 k 0#32) (k0_off10_inb k 0) (k0_off7 k 0#32) (k0_off7_inb k 0) (k0_off9 k 0#32) (k0_off9_inb k 0)
        (payAt d x3v ![8 * ((2 * k.val) % 72), 0, 0] (inbSlab (2 * k.val)))
      :: pcs d x3v (2 * k.val)) = pcs d x3v (2 * (k.val + 1)) := by
  rw [show 2 * (k.val + 1) = (2 * k.val + 1) + 1 by omega,
    pcAt_congr (F := F) (off10_1_eq k) (off7_1_eq k) (off9_1_eq k) (k0_off10_inb k 1) (inbRow (2 * k.val + 1)) (k0_off7_inb k 1)
      (inbSlot (sOf (2 * k.val + 1))) (k0_off9_inb k 1) (inbSlot (sOf (2 * k.val + 1))),
    pcAt_congr (F := F) (off10_0_eq k) (off7_0_eq k) (off9_0_eq k) (k0_off10_inb k 0) (inbRow (2 * k.val)) (k0_off7_inb k 0)
      (inbSlot (sOf (2 * k.val))) (k0_off9_inb k 0) (inbSlot (sOf (2 * k.val)))]
  rfl

set_option maxHeartbeats 1600000 in
/-- One trip takes the invariant to the next: the three slots the trip touches are set apart, renamed as the trip names
    them, run (by the two conditions' closed forms: both slabs started, only slab 71, or none), renamed back and put
    back; the other five slots are not touched and hold the same slabs before and after. -/
theorem trip (k : Fin k0_t1_loop.trips) :
    inv d q x3v arg1 fo O W k.val ()
      ⊢ wp frame (wpE (defs₀ (F := F)) 𝒱₀ (T d) none) Set.univ
          (k0_t1_body (F := F) (Memref.whole main_v0) (Memref.isWhole_whole _) arg1 harg1 (Memref.whole cc0_scratch0) (Memref.isWhole_whole _) cc0_scratch1 k ())
          (fun _ => inv d q x3v arg1 fo O W (k.val + 1) ()) := by
  unfold inv
  rw [AtW_three (Φ d q x3v) (st k.val) (sOf (2 * k.val + 7)) (sOf (2 * k.val)) (sOf (2 * k.val + 1)) (ne_07 k) (ne_17 k) (ne_10 k),
    st_i7 k, st_i0 k, st_i1 k, Φ_none, Φ_some, Φ_some]
  iintro ⟨#Hmw, ⟨H7, H0, H1, Hrest⟩, Hout, HO⟩
  rcases Nat.lt_or_ge k.val 32 with hA | hA
  · -- both slabs are started
    have hk : k.val ≤ 31 := by omega
    have h1 : k0_cond1 k = 1#1 := (cond1_iff k).2 (by omega)
    have h2 : k0_cond2 k = 1#1 := (cond2_iff k).2 hk
    iapply ((core_A d q x3v arg1 harg1 O W k h1 h2 (sOf (2 * k.val + 7)) (sOf (2 * k.val)) (sOf (2 * k.val + 1))
        ![8 * ((2 * k.val) % 72), 0, 0] ![8 * ((2 * k.val + 1) % 72), 0, 0] (inbSlab _) (inbSlab _) fo (pcs d x3v (2 * k.val))).trans (wp_wand frame (wpE (defs₀ (F := F)) 𝒱₀ (T d) none) Set.univ)) $$ [H7 H0 H1 Hout HO] [Hrest]
    · isplitr; · iexact Hmw
      isplitl [H7]
      · iapply (Entails.of_eq (freeAt_congr d q x3v (off3_eq k).symm (off4_eq k).symm (inbCell _) (k0_off3_inb k h1) (inbSlot _) (k0_off4_inb k h1) _))
        iexact H7
      isplitl [H0]
      · iapply (Entails.of_eq (flyAt_congr d q x3v (off6_0_eq k).symm (off7_0_eq k).symm rfl (inbCell _) (k0_off6_inb k 0) (inbSlot _) (k0_off7_inb k 0) (inbSlab _) (inbSlab _) _))
        iexact H0
      isplitl [H1]
      · iapply (Entails.of_eq (flyAt_congr d q x3v (off6_1_eq k).symm (off7_1_eq k).symm rfl (inbCell _) (k0_off6_inb k 1) (inbSlot _) (k0_off7_inb k 1) (inbSlab _) (inbSlab _) _))
        iexact H1
      isplitl [Hout]; · iexact Hout
      iexact HO
    · iintro %_ ⟨H7, H0, H1, Hout, HO⟩
      isplitr; · iexact Hmw
      isplitl [H7 H0 H1 Hrest]
      · iapply (AtW_three_next (Φ d q x3v) (st k.val) (st (k.val + 1)) (sOf (2 * k.val + 7)) (sOf (2 * k.val)) (sOf (2 * k.val + 1))
          (ne_07 k) (ne_17 k) (ne_10 k) (st_next_rest k))
        rw [st_next_i7 k (by omega), st_next_i0 k hk, st_next_i1 k, Φ_some, Φ_some, Φ_none]
        isplitl [H7]
        · iapply (Entails.of_eq (flyAt_congr d q x3v (off3_eq k) (off4_eq k) (off5_eq k (by omega)) (k0_off3_inb k h1) (inbCell _) (k0_off4_inb k h1) (inbSlot _) (k0_off5_inb k h1) (inbSlab _) _))
          iexact H7
        isplitl [H0]
        · iapply (Entails.of_eq (flyAt_congr d q x3v (off11_eq k) (off12_eq k) (off13_eq k hk) (k0_off11_inb k h2) (inbCell _) (k0_off12_inb k h2) (inbSlot _) (k0_off13_inb k h2) (inbSlab _) _))
          iexact H0
        isplitl [H1]
        · iapply (Entails.of_eq (freeAt_congr d q x3v (off6_1_eq k) (off7_1_eq k) (k0_off6_inb k 1) (inbCell _) (k0_off7_inb k 1) (inbSlot _) _))
          iexact H1
        iexact Hrest
      isplitl [Hout]
      · iapply (Entails.of_eq (congrArg (fun L => (arg1.view.loc (T d) ↦{fullShare} arg1.view.writes (Elt F) fo L : sProp 𝕄)) (pcs_step d x3v k)))
        iexact Hout
      iexact HO
  · rcases Nat.eq_or_lt_of_le hA with hB | hC
    · -- trip 32: slab 71 is started, slab 72 does not exist
      have h1 : k0_cond1 k = 1#1 := (cond1_iff k).2 (by omega)
      have h2 : ¬ k0_cond2 k = 1#1 := fun h => by have := (cond2_iff k).1 h; omega
      iapply ((core_B d q x3v arg1 harg1 O W k h1 h2 (sOf (2 * k.val + 7)) (sOf (2 * k.val)) (sOf (2 * k.val + 1))
          ![8 * ((2 * k.val) % 72), 0, 0] ![8 * ((2 * k.val + 1) % 72), 0, 0] (inbSlab _) (inbSlab _) fo (pcs d x3v (2 * k.val))).trans (wp_wand frame (wpE (defs₀ (F := F)) 𝒱₀ (T d) none) Set.univ)) $$ [H7 H0 H1 Hout HO] [Hrest]
      · isplitr; · iexact Hmw
        isplitl [H7]
        · iapply (Entails.of_eq (freeAt_congr d q x3v (off3_eq k).symm (off4_eq k).symm (inbCell _) (k0_off3_inb k h1) (inbSlot _) (k0_off4_inb k h1) _))
          iexact H7
        isplitl [H0]
        · iapply (Entails.of_eq (flyAt_congr d q x3v (off6_0_eq k).symm (off7_0_eq k).symm rfl (inbCell _) (k0_off6_inb k 0) (inbSlot _) (k0_off7_inb k 0) (inbSlab _) (inbSlab _) _))
          iexact H0
        isplitl [H1]
        · iapply (Entails.of_eq (flyAt_congr d q x3v (off6_1_eq k).symm (off7_1_eq k).symm rfl (inbCell _) (k0_off6_inb k 1) (inbSlot _) (k0_off7_inb k 1) (inbSlab _) (inbSlab _) _))
          iexact H1
        isplitl [Hout]; · iexact Hout
        iexact HO
      · iintro %_ ⟨H7, H0, H1, Hout, HO⟩
        isplitr; · iexact Hmw
        isplitl [H7 H0 H1 Hrest]
        · iapply (AtW_three_next (Φ d q x3v) (st k.val) (st (k.val + 1)) (sOf (2 * k.val + 7)) (sOf (2 * k.val)) (sOf (2 * k.val + 1))
            (ne_07 k) (ne_17 k) (ne_10 k) (st_next_rest k))
          rw [st_next_i7 k (by omega), st_next_i0' k (by omega), st_next_i1 k, Φ_some, Φ_none, Φ_none]
          isplitl [H7]
          · iapply (Entails.of_eq (flyAt_congr d q x3v (off3_eq k) (off4_eq k) (off5_eq k (by omega)) (k0_off3_inb k h1) (inbCell _) (k0_off4_inb k h1) (inbSlot _) (k0_off5_inb k h1) (inbSlab _) _))
            iexact H7
          isplitl [H0]
          · iapply (Entails.of_eq (freeAt_congr d q x3v (off6_0_eq k) (off7_0_eq k) (k0_off6_inb k 0) (inbCell _) (k0_off7_inb k 0) (inbSlot _) _))
            iexact H0
          isplitl [H1]
          · iapply (Entails.of_eq (freeAt_congr d q x3v (off6_1_eq k) (off7_1_eq k) (k0_off6_inb k 1) (inbCell _) (k0_off7_inb k 1) (inbSlot _) _))
            iexact H1
          iexact Hrest
        isplitl [Hout]
        · iapply (Entails.of_eq (congrArg (fun L => (arg1.view.loc (T d) ↦{fullShare} arg1.view.writes (Elt F) fo L : sProp 𝕄)) (pcs_step d x3v k)))
          iexact Hout
        iexact HO
    · -- trips 33 to 35: nothing is started; the eighth slot stays free
      have h1 : ¬ k0_cond1 k = 1#1 := fun h => by have := (cond1_iff k).1 h; omega
      have h2 : ¬ k0_cond2 k = 1#1 := fun h => by have := (cond2_iff k).1 h; omega
      iapply ((core_C d q x3v arg1 harg1 O W k h1 h2 (sOf (2 * k.val + 7)) (sOf (2 * k.val)) (sOf (2 * k.val + 1))
          ![8 * ((2 * k.val) % 72), 0, 0] ![8 * ((2 * k.val + 1) % 72), 0, 0] (inbSlab _) (inbSlab _) fo (pcs d x3v (2 * k.val))).trans (wp_wand frame (wpE (defs₀ (F := F)) 𝒱₀ (T d) none) Set.univ)) $$ [H0 H1 Hout HO] [H7 Hrest]
      · isplitr; · iexact Hmw
        isplitl [H0]
        · iapply (Entails.of_eq (flyAt_congr d q x3v (off6_0_eq k).symm (off7_0_eq k).symm rfl (inbCell _) (k0_off6_inb k 0) (inbSlot _) (k0_off7_inb k 0) (inbSlab _) (inbSlab _) _))
          iexact H0
        isplitl [H1]
        · iapply (Entails.of_eq (flyAt_congr d q x3v (off6_1_eq k).symm (off7_1_eq k).symm rfl (inbCell _) (k0_off6_inb k 1) (inbSlot _) (k0_off7_inb k 1) (inbSlab _) (inbSlab _) _))
          iexact H1
        isplitl [Hout]; · iexact Hout
        iexact HO
      · iintro %_ ⟨H0, H1, Hout, HO⟩
        isplitr; · iexact Hmw
        isplitl [H7 H0 H1 Hrest]
        · iapply (AtW_three_next (Φ d q x3v) (st k.val) (st (k.val + 1)) (sOf (2 * k.val + 7)) (sOf (2 * k.val)) (sOf (2 * k.val + 1))
            (ne_07 k) (ne_17 k) (ne_10 k) (st_next_rest k))
          rw [st_next_i7' k (by omega), st_next_i0' k (by omega), st_next_i1 k, Φ_none, Φ_none, Φ_none]
          isplitl [H7]; · iexact H7
          isplitl [H0]
          · iapply (Entails.of_eq (freeAt_congr d q x3v (off6_0_eq k) (off7_0_eq k) (k0_off6_inb k 0) (inbCell _) (k0_off7_inb k 0) (inbSlot _) _))
            iexact H0
          isplitl [H1]
          · iapply (Entails.of_eq (freeAt_congr d q x3v (off6_1_eq k) (off7_1_eq k) (k0_off6_inb k 1) (inbCell _) (k0_off7_inb k 1) (inbSlot _) _))
            iexact H1
          iexact Hrest
        isplitl [Hout]
        · iapply (Entails.of_eq (congrArg (fun L => (arg1.view.loc (T d) ↦{fullShare} arg1.view.writes (Elt F) fo L : sProp 𝕄)) (pcs_step d x3v k)))
          iexact Hout
        iexact HO
end Trip

end Cert.Proof.KB.TcPool

end
-- ==== Proof.KB.TcPool.lean ====
/-
  The TensorCore pool of planes 0 .. 575: the whole body.

  From the ring all free — every slot's semaphore at zero, its room at any contents, its read token of the planes
  whole — and the output's staging buffer at some contents: the body starts slabs 0 .. 6, runs its 36 trips by the
  invariant of the trip module (before trip k the slabs 2k .. 2k+6 that exist are in flight and the output holds the
  pieces of slabs 0 .. 2k-1), and returns with the ring all free again and the output holding one piece per slab, 72 in
  all, over what it held at the start.
-/
import proofs.«215010_g72713796321855_cont_9to1c4b_299_31_alg».proof.Proof.KB.TcPoolTrip

noncomputable section

namespace Cert.Proof.KB.TcPool

open Cert.Kernel Cert.Kernel.Gen
open Idealize.ShloMosaic
open Idealize.ShloMosaic.SparseCore (S V T)
open Idealize.ShloMosaic.SparseCore.Cfg (HIx)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok)

variable {F : FTy → Type} [FloatOps F]

local notation "𝕄" => MT nD τ sig (HIx 1) (Elt F) ℕ UU ℕ

-- the trip's index arithmetic enters only through its closed forms (the equations of the definitions module): its
-- definitions by machine-word operations are never unfolded at a symbolic trip
attribute [local irreducible] k0_off3 k0_off4 k0_off5 k0_off6 k0_off7 k0_off8 k0_off9 k0_off10 k0_off11 k0_off12 k0_off13 k0_cond1 k0_cond2

theorem trips_eq : Scf.trips k0_t1_loop.lb k0_t1_loop.ub k0_t1_loop.st = 36 := by decide

/-- The ring all free, slot by slot. -/
theorem ring_free_eq (d : Dev nD) (q : PosShare TreeShare) (x3v : Buf (Elt F) ((Memref.whole main_v0).view.loc (T d : Thread nD τ))) :
    Ring.AtW (σ := fun _ => Option ℕ) (Φ d q x3v) (fun _ => none)
      = iprop(freeAt d q x3v ![(0 : Fin 8).val] (inbCell 0) ![(0 : Fin 8).val, 0, 0, 0] (inbSlot 0) 0
        ∗ freeAt d q x3v ![(1 : Fin 8).val] (inbCell 1) ![(1 : Fin 8).val, 0, 0, 0] (inbSlot 1) 1
        ∗ freeAt d q x3v ![(2 : Fin 8).val] (inbCell 2) ![(2 : Fin 8).val, 0, 0, 0] (inbSlot 2) 2
        ∗ freeAt d q x3v ![(3 : Fin 8).val] (inbCell 3) ![(3 : Fin 8).val, 0, 0, 0] (inbSlot 3) 3
        ∗ freeAt d q x3v ![(4 : Fin 8).val] (inbCell 4) ![(4 : Fin 8).val, 0, 0, 0] (inbSlot 4) 4
        ∗ freeAt d q x3v ![(5 : Fin 8).val] (inbCell 5) ![(5 : Fin 8).val, 0, 0, 0] (inbSlot 5) 5
        ∗ freeAt d q x3v ![(6 : Fin 8).val] (inbCell 6) ![(6 : Fin 8).val, 0, 0, 0] (inbSlot 6) 6
        ∗ freeAt d q x3v ![(7 : Fin 8).val] (inbCell 7) ![(7 : Fin 8).val, 0, 0, 0] (inbSlot 7) 7) := by
  rw [AtW_eight (Φ d q x3v) (fun _ => none)]
  rfl

set_option maxHeartbeats 3200000 in
/-- The pool's body from the ring all free and the output at fo: slabs 0 .. 6 are started, the loop runs by its
    invariant, and the ring is all free again with the output holding all 72 slabs' pieces over fo. -/
theorem tcPool_core (d : Dev nD) (q : PosShare TreeShare) (x3v : Buf (Elt F) ((Memref.whole main_v0).view.loc (T d : Thread nD τ)))
    (arg1 : Memref sig .tc .vmem S576x1x1 .f32) (harg1 : arg1.IsWhole) (fo : Buf (Elt F) (arg1.view.loc (T d : Thread nD τ)))
    (O : CellTallies nD τ sig (HIx 1)) (W : Waits sig (HIx 1)) :
    iprop(Transfers.MayWaits (T d) (none : HIx 1) O
        ∗ Ring.AtW (σ := fun _ => Option ℕ) (Φ d q x3v) (fun _ => none)
        ∗ (arg1.view.loc (T d) ↦{fullShare} fo)
        ∗ owes (T d) O W)
      ⊢ wp frame (wpE (defs₀ (F := F)) 𝒱₀ (T d) none) Set.univ
          (cc0__tc_pool_body (F := F) (Memref.whole main_v0) (Memref.isWhole_whole _) arg1 harg1 (Memref.whole cc0_scratch0) (Memref.isWhole_whole _) cc0_scratch1)
          (fun _ => iprop(Ring.AtW (σ := fun _ => Option ℕ) (Φ d q x3v) (fun _ => none)
            ∗ (arg1.view.loc (T d) ↦{fullShare} arg1.view.writes (Elt F) fo (pcs d x3v 72))
            ∗ owesAnd d O W)) := by
  simp only [cc0__tc_pool_body_eq_skeleton]; unfold cc0__tc_pool_body_skel
  iintro ⟨#Hmw, HR, Hout, HO⟩
  ihave HR := (Entails.of_eq (ring_free_eq d q x3v)) $$ HR
  unfold freeAt
  icases HR with ⟨⟨Hc0, ⟨%f0, Hs0⟩, Ht0⟩, ⟨Hc1, ⟨%f1, Hs1⟩, Ht1⟩, ⟨Hc2, ⟨%f2, Hs2⟩, Ht2⟩, ⟨Hc3, ⟨%f3, Hs3⟩, Ht3⟩, ⟨Hc4, ⟨%f4, Hs4⟩, Ht4⟩,
    ⟨Hc5, ⟨%f5, Hs5⟩, Ht5⟩, ⟨Hc6, ⟨%f6, Hs6⟩, Ht6⟩, Hc7, ⟨%f7, Hs7⟩, Ht7⟩
  sl_exec
  sl_for (inv d q x3v arg1 fo O W) $$ [Hc0 Ht0 Hc1 Ht1 Hc2 Ht2 Hc3 Ht3 Hc4 Ht4 Hc5 Ht5 Hc6 Ht6 Hc7 Hs7 Ht7 Hout HO]
  case region => intro k acc; exact trip d q x3v arg1 harg1 fo O W k
  · unfold inv
    isplitr; · iexact Hmw
    isplitl [Hc0 Ht0 Hc1 Ht1 Hc2 Ht2 Hc3 Ht3 Hc4 Ht4 Hc5 Ht5 Hc6 Ht6 Hc7 Hs7 Ht7]
    · rw [AtW_eight (Φ d q x3v) (st 0),
        show st 0 (0 : Fin 8) = some 0 from by decide, show st 0 (1 : Fin 8) = some 1 from by decide,
        show st 0 (2 : Fin 8) = some 2 from by decide, show st 0 (3 : Fin 8) = some 3 from by decide,
        show st 0 (4 : Fin 8) = some 4 from by decide, show st 0 (5 : Fin 8) = some 5 from by decide,
        show st 0 (6 : Fin 8) = some 6 from by decide, show st 0 (7 : Fin 8) = none from by decide,
        Φ_some, Φ_some, Φ_some, Φ_some, Φ_some, Φ_some, Φ_some, Φ_none]
      isplitl [Hc0 Ht0]
      · unfold flyAt
        isplitl [Hc0]
        · iexists f0; iexact Hc0
        · iexact Ht0
      isplitl [Hc1 Ht1]
      · unfold flyAt
        isplitl [Hc1]
        · iexists f1; iexact Hc1
        · iexact Ht1
      isplitl [Hc2 Ht2]
      · unfold flyAt
        isplitl [Hc2]
        · iexists f2; iexact Hc2
        · iexact Ht2
      isplitl [Hc3 Ht3]
      · unfold flyAt
        isplitl [Hc3]
        · iexists f3; iexact Hc3
        · iexact Ht3
      isplitl [Hc4 Ht4]
      · unfold flyAt
        isplitl [Hc4]
        · iexists f4; iexact Hc4
        · iexact Ht4
      isplitl [Hc5 Ht5]
      · unfold flyAt
        isplitl [Hc5]
        · iexists f5; iexact Hc5
        · iexact Ht5
      isplitl [Hc6 Ht6]
      · unfold flyAt
        isplitl [Hc6]
        · iexists f6; iexact Hc6
        · iexact Ht6
      unfold freeAt
      isplitl [Hc7]; · iexact Hc7
      isplitl [Hs7]; · iexists f7; iexact Hs7
      iexact Ht7
    isplitl [Hout]; · iexact Hout
    iexists W; isplitr
    · ipureintro; exact fun p hp => .inl hp
    · iexact HO
  iintro %_ HI
  unfold inv
  icases HI with ⟨-, HR, Hout, HO⟩
  sl_exec
  sl_step
  isplitl [HR]
  · iapply (Entails.of_eq (congrArg (Ring.AtW (σ := fun _ => Option ℕ) (Φ d q x3v))
      (show st (Scf.trips k0_t1_loop.lb k0_t1_loop.ub k0_t1_loop.st) = fun _ => none from by rw [trips_eq]; exact funext st_last)))
    iexact HR
  isplitl [Hout]
  · iapply (Entails.of_eq (congrArg (fun n => (arg1.view.loc (T d) ↦{fullShare} arg1.view.writes (Elt F) fo (pcs d x3v n) : sProp 𝕄))
      (show 2 * Scf.trips k0_t1_loop.lb k0_t1_loop.ub k0_t1_loop.st = 72 from by rw [trips_eq])))
    iexact Hout
  iexact HO

end Cert.Proof.KB.TcPool

end
-- ==== Proof.KB.TcPoolRun.lean ====
/-
  The TensorCore pool of planes 0 .. 575, as the pooling region takes its body.

  The region hands the body the plane array whole, the kernel's eight transfer semaphores at zero, the TensorCore's
  other scoped buffers (the ring's scratch buffer among them) and the output's staging buffer at any contents. The ring
  is made of these: the scratch buffer is its eight slots (eight disjoint stretches of its leading axis that cover it),
  the plane array's share is split into one read token per slot and a remainder, each slot takes its semaphore. After
  the body the parts are joined back. The output is stored slab by slab and the 72 pieces cover it (row r lies in slab
  r / 8's), so what it reads afterwards is a function of the pieces alone: that function is the pool's value.
-/
import proofs.«215010_g72713796321855_cont_9to1c4b_299_31_alg».proof.Proof.KB.Regions
import proofs.«215010_g72713796321855_cont_9to1c4b_299_31_alg».proof.Proof.KB.TcPool
import Idealize.ShloMosaic.Lib.Pipeline.FrameBody
import Idealize.ShloMosaic.Lib.ValueIdx

noncomputable section

namespace Cert.Proof.KB.TcPool

open Cert.Kernel Cert.Kernel.Gen
open Idealize.ShloMosaic
open Idealize.ShloMosaic.SparseCore (S V T)
open Idealize.ShloMosaic.SparseCore.Cfg (HIx)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type} [FloatOps F]

local notation "𝕄" => MT nD τ sig (HIx 1) (Elt F) ℕ UU ℕ

open Idealize.ShloMosaic.ValueIdx (ix1)

section Bridge

variable (c : Dev nD)

/-- The elements of slot s within the scratch buffer. -/
theorem slot_set (s : Fin 8) :
    (slotM s).view.set = (Rect.unit (s := S8x8x384x384) ![s.val, 0, 0, 0] S1x8x384x384.size (inbSlot s)).set := by
  show (((View.whole cc0_scratch0).slice (Rect.unit (s := S8x8x384x384) ![s.val, 0, 0, 0] S1x8x384x384.size (inbSlot s))).reshape S8x384x384 _).set = _
  rw [View.set_reshape, View.set_slice_whole]

theorem slots_disjoint (s s' : Fin 8) (h : s ≠ s') : Disjoint (slotM s).view.set (slotM s').view.set := by
  rw [slot_set, slot_set]
  exact Ring.lead_disjoint (s := S8x8x384x384) (NB := 8) (0 : Fin 4) 1 (fun b : Fin 8 => ![b.val, 0, 0, 0]) S1x8x384x384.size
    (fun b => inbSlot b) (fun b => by show b.val = 1 * b.val; omega) rfl s s' h

/-- The eight slots' element sets, as sets of the scratch buffer's elements. -/
def Is (s : Fin 8) : Finset (Idx ((T c : Thread nD τ).loc cc0_scratch0)) := (slotM s).view.set

theorem Is_disjoint (s s' : Fin 8) (h : s ≠ s') : Disjoint (Is c s) (Is c s') := slots_disjoint s s' h

theorem slots_cover : (Finset.univ : Finset (Fin 8)).biUnion (Is c) = Finset.univ := by
  have := Ring.lead_cover (s := S8x8x384x384) (NB := 8) (0 : Fin 4) 1 (fun b : Fin 8 => ![b.val, 0, 0, 0]) S1x8x384x384.size
    (fun b => inbSlot b) (fun b => by show b.val = 1 * b.val; omega)
    (fun b a ha => by fin_cases a <;> first | exact absurd rfl ha | rfl) rfl
    (fun a ha => by fin_cases a <;> first | exact absurd rfl ha | rfl) rfl
  rw [← this]
  exact Finset.biUnion_congr rfl fun s _ => slot_set s

/-! ## What the output reads after the body -/

theorem pc_mem_pcs (x3v : Buf (Elt F) ((Memref.whole main_v0).view.loc (T c : Thread nD τ))) :
    ∀ (n b : ℕ), b < n → pc c x3v b ∈ pcs c x3v n
  | 0, b, h => absurd h (Nat.not_lt_zero _)
  | n + 1, b, h => by
    rcases Nat.lt_succ_iff_lt_or_eq.mp h with h | rfl
    · exact List.mem_cons_of_mem _ (pc_mem_pcs x3v n b h)
    · exact List.mem_cons_self ..

/-- Every row of the output lies in the piece of its slab: row r in slab r / 8's. -/
theorem pcs_cover (x3v : Buf (Elt F) ((Memref.whole main_v0).view.loc (T c : Thread nD τ))) (y : S576x1x1.Idx) :
    ∃ p ∈ pcs c x3v 72, y ∈ p.1.set := by
  have hy : (y 0).val < 576 := (y 0).isLt
  have hb : (y 0).val / 8 < 72 := by omega
  refine ⟨pc c x3v ((y 0).val / 8), pc_mem_pcs c x3v 72 _ hb, ?_⟩
  show y ∈ (Rect.unit (s := S576x1x1) ![8 * (((y 0).val / 8) % 72), 0, 0] S8x1x1.size (inbRow _)).set
  rw [Rect.mem_set_unit]
  intro a; fin_cases a
  · show 8 * (((y 0).val / 8) % 72) ≤ (y 0).val ∧ (y 0).val < 8 * (((y 0).val / 8) % 72) + 8
    rw [Nat.mod_eq_of_lt hb]; omega
  · have h1 : (y 1).val < 1 := (y 1).isLt
    show 0 ≤ (y 1).val ∧ (y 1).val < 0 + 1; omega
  · have h2 : (y 2).val < 1 := (y 2).isLt
    show 0 ≤ (y 2).val ∧ (y 2).val < 0 + 1; omega

/-- The plane sums as the pool leaves them: row 8b + i is the i-th of the eight sums the pool computes of slab b. -/
def tcVal (x3v : Buf (Elt F) ((Memref.whole main_v0).view.loc (T c : Thread nD τ))) : S576x1x1.Idx → Elt F .f32 :=
  View.canon (pcs c x3v 72)

theorem read_out (x3v : Buf (Elt F) ((Memref.whole main_v0).view.loc (T c : Thread nD τ)))
    (arg1 : Memref sig .tc .vmem S576x1x1 .f32) (fo : Buf (Elt F) (arg1.view.loc (T c : Thread nD τ))) :
    arg1.view.read (Elt F) (arg1.view.writes (Elt F) fo (pcs c x3v 72)) = tcVal c x3v :=
  View.read_writes_eq_canon arg1.view fo _ (pcs_cover c x3v)

/-! ## The ring's parts out of what the region hands the body, and back -/

theorem sems_eight :
    (Pipeline.ownSems0 (Ix := HIx 1) (Val := Elt F) (Name := ℕ) (U := UU) (Lvl := ℕ) osem0 c : sProp 𝕄)
      = iprop(semVal ((T c : Thread nD τ), osem0 (ix1 (0 : Fin 8))) 0
        ∗ semVal ((T c : Thread nD τ), osem0 (ix1 (1 : Fin 8))) 0
        ∗ semVal ((T c : Thread nD τ), osem0 (ix1 (2 : Fin 8))) 0
        ∗ semVal ((T c : Thread nD τ), osem0 (ix1 (3 : Fin 8))) 0
        ∗ semVal ((T c : Thread nD τ), osem0 (ix1 (4 : Fin 8))) 0
        ∗ semVal ((T c : Thread nD τ), osem0 (ix1 (5 : Fin 8))) 0
        ∗ semVal ((T c : Thread nD τ), osem0 (ix1 (6 : Fin 8))) 0
        ∗ semVal ((T c : Thread nD τ), osem0 (ix1 (7 : Fin 8))) 0) :=
  bigSep_univ_eq_bigSepL [ix1 (0 : Fin 8), ix1 (1 : Fin 8), ix1 (2 : Fin 8), ix1 (3 : Fin 8), ix1 (4 : Fin 8), ix1 (5 : Fin 8), ix1 (6 : Fin 8), ix1 (7 : Fin 8)] (by decide) (by decide)
    (fun k => semVal ((T c : Thread nD τ), osem0 k) 0)

theorem slots_eight (fs : Buf (Elt F) ((T c : Thread nD τ).loc cc0_scratch0)) :
    (((T c : Thread nD τ).loc cc0_scratch0) ↦{fullShare} fs : sProp 𝕄)
      = iprop((((T c : Thread nD τ).loc cc0_scratch0) ↦[Is c 0]{fullShare} fs)
        ∗ (((T c : Thread nD τ).loc cc0_scratch0) ↦[Is c 1]{fullShare} fs)
        ∗ (((T c : Thread nD τ).loc cc0_scratch0) ↦[Is c 2]{fullShare} fs)
        ∗ (((T c : Thread nD τ).loc cc0_scratch0) ↦[Is c 3]{fullShare} fs)
        ∗ (((T c : Thread nD τ).loc cc0_scratch0) ↦[Is c 4]{fullShare} fs)
        ∗ (((T c : Thread nD τ).loc cc0_scratch0) ↦[Is c 5]{fullShare} fs)
        ∗ (((T c : Thread nD τ).loc cc0_scratch0) ↦[Is c 6]{fullShare} fs)
        ∗ (((T c : Thread nD τ).loc cc0_scratch0) ↦[Is c 7]{fullShare} fs)) := by
  rw [Ring.pointsTo_blocks (Is c) (Is_disjoint c) (slots_cover c) fs]
  exact bigSep_univ_eq_bigSepL [0, 1, 2, 3, 4, 5, 6, 7] (by decide) (by decide) _

theorem slots_eight_ex :
    (bigSep Finset.univ (fun s : Fin 8 => iprop(∃ f, ((T c : Thread nD τ).loc cc0_scratch0) ↦[Is c s]{fullShare} f)) : sProp 𝕄)
      = iprop((∃ f, ((T c : Thread nD τ).loc cc0_scratch0) ↦[Is c 0]{fullShare} f)
        ∗ (∃ f, ((T c : Thread nD τ).loc cc0_scratch0) ↦[Is c 1]{fullShare} f)
        ∗ (∃ f, ((T c : Thread nD τ).loc cc0_scratch0) ↦[Is c 2]{fullShare} f)
        ∗ (∃ f, ((T c : Thread nD τ).loc cc0_scratch0) ↦[Is c 3]{fullShare} f)
        ∗ (∃ f, ((T c : Thread nD τ).loc cc0_scratch0) ↦[Is c 4]{fullShare} f)
        ∗ (∃ f, ((T c : Thread nD τ).loc cc0_scratch0) ↦[Is c 5]{fullShare} f)
        ∗ (∃ f, ((T c : Thread nD τ).loc cc0_scratch0) ↦[Is c 6]{fullShare} f)
        ∗ (∃ f, ((T c : Thread nD τ).loc cc0_scratch0) ↦[Is c 7]{fullShare} f)) :=
  bigSep_univ_eq_bigSepL [0, 1, 2, 3, 4, 5, 6, 7] (by decide) (by decide) _

theorem toks_nine (q : PosShare TreeShare) (x3v : Buf (Elt F) ((Memref.whole main_v0).view.loc (T c : Thread nD τ))) :
    (bigSep Finset.univ (fun i : Fin 9 => ((Memref.whole main_v0).view.loc (T c : Thread nD τ) ↦[Finset.univ]{shareTok q 9 i} x3v)) : sProp 𝕄)
      = iprop(((Memref.whole main_v0).view.loc (T c : Thread nD τ) ↦[Finset.univ]{shareTok q 9 0} x3v)
        ∗ ((Memref.whole main_v0).view.loc (T c : Thread nD τ) ↦[Finset.univ]{shareTok q 9 1} x3v)
        ∗ ((Memref.whole main_v0).view.loc (T c : Thread nD τ) ↦[Finset.univ]{shareTok q 9 2} x3v)
        ∗ ((Memref.whole main_v0).view.loc (T c : Thread nD τ) ↦[Finset.univ]{shareTok q 9 3} x3v)
        ∗ ((Memref.whole main_v0).view.loc (T c : Thread nD τ) ↦[Finset.univ]{shareTok q 9 4} x3v)
        ∗ ((Memref.whole main_v0).view.loc (T c : Thread nD τ) ↦[Finset.univ]{shareTok q 9 5} x3v)
        ∗ ((Memref.whole main_v0).view.loc (T c : Thread nD τ) ↦[Finset.univ]{shareTok q 9 6} x3v)
        ∗ ((Memref.whole main_v0).view.loc (T c : Thread nD τ) ↦[Finset.univ]{shareTok q 9 7} x3v)
        ∗ ((Memref.whole main_v0).view.loc (T c : Thread nD τ) ↦[Finset.univ]{shareTok q 9 8} x3v)) :=
  bigSep_univ_eq_bigSepL [0, 1, 2, 3, 4, 5, 6, 7, 8] (by decide) (by decide) _

set_option maxHeartbeats 1600000 in
/-- The eight semaphores at zero, the scratch buffer whole and the planes at share q make the ring all free, leaving
    what remains of the share and the token never lent. -/
theorem ring_intro (q : PosShare TreeShare) (x3v : Buf (Elt F) ((Memref.whole main_v0).view.loc (T c : Thread nD τ)))
    (fs : Buf (Elt F) ((T c : Thread nD τ).loc cc0_scratch0)) :
    iprop((Pipeline.ownSems0 (Ix := HIx 1) (Val := Elt F) (Name := ℕ) (U := UU) (Lvl := ℕ) osem0 c : sProp 𝕄)
        ∗ (((T c : Thread nD τ).loc cc0_scratch0) ↦{fullShare} fs)
        ∗ ((Memref.whole main_v0).view.loc (T c : Thread nD τ) ↦[Finset.univ]{q} x3v))
      ⊢ iprop(Ring.AtW (σ := fun _ => Option ℕ) (Φ c q x3v) (fun _ => none)
          ∗ ((Memref.whole main_v0).view.loc (T c : Thread nD τ) ↦[Finset.univ]{shareDrop q 9} x3v)
          ∗ ((Memref.whole main_v0).view.loc (T c : Thread nD τ) ↦[Finset.univ]{shareTok q 9 0} x3v)) := by
  rw [ring_free_eq, sems_eight, slots_eight c fs]
  unfold freeAt
  iintro ⟨⟨S0, S1, S2, S3, S4, S5, S6, S7⟩, ⟨B0, B1, B2, B3, B4, B5, B6, B7⟩, Hx⟩
  ihave Hx := (pointsTo_toks_split q 9) $$ Hx
  icases Hx with ⟨Hrem, Htoks⟩
  ihave Htoks := (Entails.of_eq (toks_nine c q x3v)) $$ Htoks
  icases Htoks with ⟨T0, T1, T2, T3, T4, T5, T6, T7, T8⟩
  isplitl [S0 B0 T1 S1 B1 T2 S2 B2 T3 S3 B3 T4 S4 B4 T5 S5 B5 T6 S6 B6 T7 S7 B7 T8]
  · isplitl [S0 B0 T1]
    · isplitl [S0]; · iexact S0
      isplitl [B0]; · iexists fs; iexact B0
      iexact T1
    isplitl [S1 B1 T2]
    · isplitl [S1]; · iexact S1
      isplitl [B1]; · iexists fs; iexact B1
      iexact T2
    isplitl [S2 B2 T3]
    · isplitl [S2]; · iexact S2
      isplitl [B2]; · iexists fs; iexact B2
      iexact T3
    isplitl [S3 B3 T4]
    · isplitl [S3]; · iexact S3
      isplitl [B3]; · iexists fs; iexact B3
      iexact T4
    isplitl [S4 B4 T5]
    · isplitl [S4]; · iexact S4
      isplitl [B4]; · iexists fs; iexact B4
      iexact T5
    isplitl [S5 B5 T6]
    · isplitl [S5]; · iexact S5
      isplitl [B5]; · iexists fs; iexact B5
      iexact T6
    isplitl [S6 B6 T7]
    · isplitl [S6]; · iexact S6
      isplitl [B6]; · iexists fs; iexact B6
      iexact T7
    isplitl [S7]; · iexact S7
    isplitl [B7]; · iexists fs; iexact B7
    iexact T8
  isplitl [Hrem]; · iexact Hrem
  iexact T0

set_option maxHeartbeats 1600000 in
/-- The ring all free, with what remained of the share and the token never lent, gives back the eight semaphores at
    zero, the scratch buffer whole at some contents and the planes at share q. -/
theorem ring_elim (q : PosShare TreeShare) (x3v : Buf (Elt F) ((Memref.whole main_v0).view.loc (T c : Thread nD τ)))
    (f₀ : Buf (Elt F) ((T c : Thread nD τ).loc cc0_scratch0)) :
    iprop(Ring.AtW (σ := fun _ => Option ℕ) (Φ c q x3v) (fun _ => none)
        ∗ ((Memref.whole main_v0).view.loc (T c : Thread nD τ) ↦[Finset.univ]{shareDrop q 9} x3v)
        ∗ ((Memref.whole main_v0).view.loc (T c : Thread nD τ) ↦[Finset.univ]{shareTok q 9 0} x3v))
      ⊢ iprop((Pipeline.ownSems0 (Ix := HIx 1) (Val := Elt F) (Name := ℕ) (U := UU) (Lvl := ℕ) osem0 c : sProp 𝕄)
          ∗ (∃ g, ((T c : Thread nD τ).loc cc0_scratch0) ↦{fullShare} g)
          ∗ ((Memref.whole main_v0).view.loc (T c : Thread nD τ) ↦[Finset.univ]{q} x3v)) := by
  rw [ring_free_eq, sems_eight]
  unfold freeAt
  iintro ⟨⟨⟨S0, ⟨%g0, B0⟩, T1⟩, ⟨S1, ⟨%g1, B1⟩, T2⟩, ⟨S2, ⟨%g2, B2⟩, T3⟩, ⟨S3, ⟨%g3, B3⟩, T4⟩, ⟨S4, ⟨%g4, B4⟩, T5⟩, ⟨S5, ⟨%g5, B5⟩, T6⟩, ⟨S6, ⟨%g6, B6⟩, T7⟩, S7, ⟨%g7, B7⟩, T8⟩, Hrem, T0⟩
  isplitl [S0 S1 S2 S3 S4 S5 S6 S7]
  · isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  isplitl [B0 B1 B2 B3 B4 B5 B6 B7]
  · iapply (Ring.pointsTo_blocks_join_exists (Is c) (Is_disjoint c) (slots_cover c) f₀)
    rw [slots_eight_ex]
    isplitl [B0]; · iexists g0; iexact B0
    isplitl [B1]; · iexists g1; iexact B1
    isplitl [B2]; · iexists g2; iexact B2
    isplitl [B3]; · iexists g3; iexact B3
    isplitl [B4]; · iexists g4; iexact B4
    isplitl [B5]; · iexists g5; iexact B5
    isplitl [B6]; · iexists g6; iexact B6
    iexists g7; iexact B7
  · iapply (pointsTo_toks_join q 9)
    isplitl [Hrem]; · iexact Hrem
    rw [toks_nine]
    isplitl [T0]; · iexact T0
    isplitl [T1]; · iexact T1
    isplitl [T2]; · iexact T2
    isplitl [T3]; · iexact T3
    isplitl [T4]; · iexact T4
    isplitl [T5]; · iexact T5
    isplitl [T6]; · iexact T6
    isplitl [T7]; · iexact T7
    iexact T8

end Bridge

/-! ## The pool's body as the region takes it -/

set_option maxHeartbeats 3200000 in
/-- The pooling body at the region's one point: the region hands it the planes whole, its eight semaphores at zero,
    the TensorCore's other scoped buffers and the output's staging buffer at any contents; it gives them back with the
    staging buffer reading the plane sums. -/
theorem tcRun (m : (ℓ : Loc nD τ sig) → Buf (Elt F) ℓ) : Cert.Proof.KB.TcRun (F := F) m (fun c => tcVal c (x3v m c)) := by
  intro c O W hO
  unfold Φ0
  rw [Gen.scopedRest0_eq]
  iintro ⟨⟨#Hlv, Hx, Hsem, ⟨%fs, Hscr⟩, Hrest⟩, HO, %X, Hown⟩
  unfold owns
  icases Hown with ⟨%fo, -, Hout⟩
  ihave Hmw := ((K (F := F)).mayWaits_none (thr := T c) hO) $$ Hlv
  ihave HR := (ring_intro c fullShare (x3v m c) fs) $$ [Hsem Hscr Hx]
  · isplitl [Hsem]; · iexact Hsem
    isplitl [Hscr]; · iexact Hscr
    iexact Hx
  icases HR with ⟨HR, Hrem, Ht0⟩
  -- the staging buffer is whole: its elements are all of its buffer's
  have hw : (st0_0 t0_0).view.set = Finset.univ := (hstage0_0 0).set_eq_univ
  rw [hw]
  iapply ((tcPool_core c fullShare (x3v m c) (st0_0 t0_0) (hstage0_0 0) fo O W).trans
    (wp_wand frame (wpE (defs₀ (F := F)) 𝒱₀ (T c) none) Set.univ)) $$ [HR Hout HO] [Hrest Hrem Ht0]
  · isplitr; · iexact Hmw
    isplitl [HR]; · iexact HR
    isplitl [Hout]; · iexact Hout
    iexact HO
  · iintro %_ ⟨HR, Hout, HO⟩
    ihave H := (ring_elim c fullShare (x3v m c) fs) $$ [HR Hrem Ht0]
    · isplitl [HR]; · iexact HR
      isplitl [Hrem]; · iexact Hrem
      iexact Ht0
    icases H with ⟨Hsem, ⟨%g, Hscr⟩, Hx⟩
    isplitl [Hx Hsem Hscr Hrest]
    · isplitr; · iexact Hlv
      isplitl [Hx]; · iexact Hx
      isplitl [Hsem]; · iexact Hsem
      isplitl [Hscr]; · iexists g; iexact Hscr
      iexact Hrest
    isplitl [HO]; · iexact HO
    iexists _; isplitr
    · ipureintro; exact read_out c (x3v m c) (st0_0 t0_0) fo
    · iexact Hout

end Cert.Proof.KB.TcPool

end
-- ==== Proof.KB.ScPoolBase.lean ====
/-
  The pooling task of one vector subcore, part 1: the subcore's storage and the invariant of its loop over planes.

  Vector subcore (c, s) works as number w = 2 s + c. It sums planes 576 + 6 w + r, r < 6, of the 768 x 384 x 384 plane array,
  lane by lane. A plane comes in as six chunks of 64 rows, each copied into one of three 64 x 384 buffers on that buffer's own
  semaphore, two chunks ahead of the one being summed: so at most one copy is outstanding per semaphore, and up to three copies
  read the plane array at once. The subcore's read share of the plane array is therefore cut into three read tokens, one per
  semaphore (numbered as the semaphores are: 9, 10, 11), and a remainder it never lends. Between planes, chunks 0 and 1 of the
  next plane are on their way into buffers 0 and 1 (nothing is, after the last plane), and buffer 2 is free.
-/
import proofs.«215010_g72713796321855_cont_9to1c4b_299_31_alg».proof.Proof.KB.Common
import proofs.«215010_g72713796321855_cont_9to1c4b_299_31_alg».proof.Proof.Gen.Kernel.Skeleton

noncomputable section

namespace Cert.Proof.KB.ScPool

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareTokN shareDrop)
open Idealize.ShloMosaic.Tactic

variable {F : FTy → Type}

local notation "𝕄" => MT nD τ sig (HIx 1) (Elt F) ℕ UU ℕ

local notation "x3M" => (Memref.whole Cert.Kernel.main_v0_scv : Memref Cert.Kernel.sig Kind.scVector Space.hbm Cert.Kernel.S768x384x384 EltTy.f32)
local notation "oM" => (Memref.whole Cert.Kernel.main_v2_scv : Memref Cert.Kernel.sig Kind.scVector Space.hbm Cert.Kernel.S3072 EltTy.f32)
local notation "b0M" => (Memref.whole Cert.Kernel.cc1_scratch0 : Memref Cert.Kernel.sig Kind.scVector Space.vmem Cert.Kernel.S64x384 EltTy.f32)
local notation "b1M" => (Memref.whole Cert.Kernel.cc1_scratch1 : Memref Cert.Kernel.sig Kind.scVector Space.vmem Cert.Kernel.S64x384 EltTy.f32)
local notation "b2M" => (Memref.whole Cert.Kernel.cc1_scratch2 : Memref Cert.Kernel.sig Kind.scVector Space.vmem Cert.Kernel.S64x384 EltTy.f32)
local notation "prM" => (Memref.whole Cert.Kernel.cc1_scratch3 : Memref Cert.Kernel.sig Kind.scVector Space.vmem Cert.Kernel.S96 EltTy.f32)

variable (x3v : (d : Dev nD) → Buf (Elt F) (x3Loc d))

section Tile

variable (d : Dev nD) (L : grid1.Coords)

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
abbrev cL (L : grid1.Coords) : Fin 2 := Fin.cast bound_zero (L 0)
abbrev sL (L : grid1.Coords) : Fin 16 := Fin.cast bound_one (L 1)

/-- The 96 words of the partials array the tile's last copy writes, as the program slices them. -/
abbrev outK (L : grid1.Coords) : Memref sig .scVector .hbm S96 .f32 :=
  (oM).slice (Rect.unit (s := S3072) (k1_off155 L) S96.size (k1_off155_inb L)) (fun _ => rfl)

abbrev c8cell : GSem nD τ sig := (V d (cV L) (jV L), .dma cc1_scratch4.sem)
abbrev c9cell : GSem nD τ sig := (V d (cV L) (jV L), .dma cc1_scratch5.sem)
abbrev c10cell : GSem nD τ sig := (V d (cV L) (jV L), .dma cc1_scratch6.sem)
abbrev cRcell : GSem nD τ sig := (V d (cV L) (jV L), .dma cc1_scoped0.sem)

theorem ownSems0_V :
    (ownSems0 (V d (cV L) (jV L)) : sProp 𝕄)
      = iprop(semVal (c8cell d L) 0 ∗ semVal (c9cell d L) 0 ∗ semVal (c10cell d L) 0 ∗ semVal (cRcell d L) 0
          ∗ bigSep (((((ownCells (V d (cV L) (jV L))).erase (c8cell d L)).erase (c9cell d L)).erase (c10cell d L)).erase (cRcell d L))
              fun g => semVal g 0) := by
  unfold SparseCore.Cfg.ownSems0
  rw [SparseCore.bigSep_erase' ((mem_ownCells (g := c8cell d L)).mpr ⟨rfl, by
      show (SemLoc.dma cc1_scratch4.sem : SemLoc sig).isScoped .scVector = true; decide⟩),
    SparseCore.bigSep_erase' (Finset.mem_erase.mpr ⟨fun e => absurd (congrArg Prod.snd e) (show (SemLoc.dma cc1_scratch5.sem : SemLoc sig) ≠ SemLoc.dma cc1_scratch4.sem by decide),
      (mem_ownCells (g := c9cell d L)).mpr ⟨rfl, by show (SemLoc.dma cc1_scratch5.sem : SemLoc sig).isScoped .scVector = true; decide⟩⟩),
    SparseCore.bigSep_erase' (Finset.mem_erase.mpr ⟨fun e => absurd (congrArg Prod.snd e) (show (SemLoc.dma cc1_scratch6.sem : SemLoc sig) ≠ SemLoc.dma cc1_scratch5.sem by decide),
      Finset.mem_erase.mpr ⟨fun e => absurd (congrArg Prod.snd e) (show (SemLoc.dma cc1_scratch6.sem : SemLoc sig) ≠ SemLoc.dma cc1_scratch4.sem by decide),
      (mem_ownCells (g := c10cell d L)).mpr ⟨rfl, by show (SemLoc.dma cc1_scratch6.sem : SemLoc sig).isScoped .scVector = true; decide⟩⟩⟩),
    SparseCore.bigSep_erase' (Finset.mem_erase.mpr ⟨fun e => absurd (congrArg Prod.snd e) (show (SemLoc.dma cc1_scoped0.sem : SemLoc sig) ≠ SemLoc.dma cc1_scratch6.sem by decide),
      Finset.mem_erase.mpr ⟨fun e => absurd (congrArg Prod.snd e) (show (SemLoc.dma cc1_scoped0.sem : SemLoc sig) ≠ SemLoc.dma cc1_scratch5.sem by decide),
      Finset.mem_erase.mpr ⟨fun e => absurd (congrArg Prod.snd e) (show (SemLoc.dma cc1_scoped0.sem : SemLoc sig) ≠ SemLoc.dma cc1_scratch4.sem by decide),
      (mem_ownCells (g := cRcell d L)).mpr ⟨rfl, by show (SemLoc.dma cc1_scoped0.sem : SemLoc sig).isScoped .scVector = true; decide⟩⟩⟩⟩)]

/-- The four scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f)
          ∗ bigSep (((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2)).erase
              ((Proc.scVector (cV L) (jV L)).devRef cc1_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩),
    SparseCore.bigSep_erase' (Finset.mem_erase.mpr ⟨fun e => absurd (Proc.devRef_injective _ e) (show (cc1_scratch3 : Ref sig .scVector) ≠ cc1_scratch2 by decide),
      Finset.mem_erase.mpr ⟨fun e => absurd (Proc.devRef_injective _ e) (show (cc1_scratch3 : Ref sig .scVector) ≠ cc1_scratch1 by decide),
      Finset.mem_erase.mpr ⟨fun e => absurd (Proc.devRef_injective _ e) (show (cc1_scratch3 : Ref sig .scVector) ≠ cc1_scratch0 by decide),
    SparseCore.Cfg.mem_ownRefs_of_owner (p := Proc.scVector (cV L) (jV L)) (b := (Proc.scVector (cV L) (jV L)).devRef cc1_scratch3) rfl⟩⟩⟩)]

/-- A read share of an array as three read tokens, numbered as the three chunk semaphores are, and what is left. -/
theorem toks_split {ℓ : Loc nD τ sig} {S : Finset (Idx ℓ)} {f : Buf (Elt F) ℓ} (q : PosShare TreeShare) :
    (ℓ ↦[S]{q} f : sProp 𝕄) ⊣⊢ iprop(((ℓ ↦[S]{shareDrop q 12} f) ∗ BI.bigSep (Finset.range 9) (fun i => ℓ ↦[S]{shareTokN q i} f))
        ∗ (ℓ ↦[S]{shareTokN q 9} f) ∗ (ℓ ↦[S]{shareTokN q 10} f) ∗ (ℓ ↦[S]{shareTokN q 11} f)) := by
  have h9 := Transfers.pointsTo_toks_range (ℓ := ℓ) (S := S) (f := f) (U := UU) (Name := ℕ) (Lvl := ℕ) (Ix := HIx 1) q 9
  have hs : ∀ k, (ℓ ↦[S]{shareDrop q k} f : sProp 𝕄) ⊣⊢ iprop((ℓ ↦[S]{shareDrop q (k + 1)} f) ∗ ℓ ↦[S]{shareTokN q k} f) :=
    fun k => pointsTo_share (PosShare.mem_left_op_right _)
  constructor
  · iintro H
    ihave H := h9.1 $$ H
    icases H with ⟨Hd, Hr⟩
    ihave Hd := (hs 9).1 $$ Hd
    icases Hd with ⟨Hd, H9⟩
    ihave Hd := (hs 10).1 $$ Hd
    icases Hd with ⟨Hd, H10⟩
    ihave Hd := (hs 11).1 $$ Hd
    icases Hd with ⟨Hd, H11⟩
    isplitl [Hd Hr]; · isplitl [Hd] <;> iassumption
    isplitl [H9]; · iexact H9
    isplitl [H10] <;> iassumption
  · iintro ⟨⟨Hd, Hr⟩, H9, H10, H11⟩
    iapply h9.2
    isplitl [Hd H9 H10 H11]
    · iapply (hs 9).2
      isplitl [Hd H10 H11]
      · iapply (hs 10).2
        isplitl [Hd H11]
        · iapply (hs 11).2
          isplitl [Hd] <;> iassumption
        · iexact H10
      · iexact H9
    · iexact Hr

theorem pts_x3 (q : PosShare TreeShare) (f : Buf (Elt F) (x3Loc d)) :
    ((x3M).view.loc (V d (cV L) (jV L)) ↦{q} f : sProp 𝕄) = x3Loc d ↦{q} f := by
  simp only [Memref.view_whole, View.set_whole]
theorem pts_b0 (f : Buf (Elt F) ((V d (cV L) (jV L)).loc cc1_scratch0)) :
    ((b0M).view.loc (V d (cV L) (jV L)) ↦{fullShare} f : sProp 𝕄) = (V d (cV L) (jV L)).loc cc1_scratch0 ↦{fullShare} f := rfl
theorem pts_b1 (f : Buf (Elt F) ((V d (cV L) (jV L)).loc cc1_scratch1)) :
    ((b1M).view.loc (V d (cV L) (jV L)) ↦{fullShare} f : sProp 𝕄) = (V d (cV L) (jV L)).loc cc1_scratch1 ↦{fullShare} f := rfl
theorem pts_b2 (f : Buf (Elt F) ((V d (cV L) (jV L)).loc cc1_scratch2)) :
    ((b2M).view.loc (V d (cV L) (jV L)) ↦{fullShare} f : sProp 𝕄) = (V d (cV L) (jV L)).loc cc1_scratch2 ↦{fullShare} f := rfl
theorem pts_pr (f : Buf (Elt F) ((V d (cV L) (jV L)).loc cc1_scratch3)) :
    ((prM).view.loc (V d (cV L) (jV L)) ↦{fullShare} f : sProp 𝕄) = (V d (cV L) (jV L)).loc cc1_scratch3 ↦{fullShare} f := rfl

variable [FloatOps F]

abbrev qT (L : grid1.Coords) : PosShare TreeShare := tileShare (cL L) (sL L)

/-- A chunk on its way into a buffer on its semaphore: the wait hands back the buffer at some contents and the elements the read
    token lent; what the token keeps meanwhile is held beside it. -/
def inFlight (sm : DmaSem sig) (bM : Memref sig .scVector .vmem S64x384 .f32) (tk : ℕ) : sProp 𝕄 :=
  iprop(∃ (S : Finset (Idx ((x3M).view.loc (V d (cV L) (jV L))))) (fb : Buf (Elt F) (bM.view.loc (V d (cV L) (jV L)))),
    Transfers.Flight countersEmb (V d (cV L) (jV L)) (SemLoc.dma sm) (default : HIx 1) 786432
        iprop((bM.view.loc (V d (cV L) (jV L)) ↦{fullShare} fb) ∗ ((x3M).view.loc (V d (cV L) (jV L)) ↦[S]{shareTokN (qT L) tk} x3v d))
      ∗ ((x3M).view.loc (V d (cV L) (jV L)) ↦[Finset.univ \ S]{shareTokN (qT L) tk} x3v d))

/-- Nothing on its way: the semaphore at zero, the buffer at some contents, the read token whole. -/
def idle (sm : DmaSem sig) (bM : Memref sig .scVector .vmem S64x384 .f32) (tk : ℕ) : sProp 𝕄 :=
  iprop(semVal ((V d (cV L) (jV L)), SemLoc.dma sm) 0 ∗ (∃ fb : Buf (Elt F) (bM.view.loc (V d (cV L) (jV L))), bM.view.loc (V d (cV L) (jV L)) ↦{fullShare} fb)
    ∗ ((x3M).view.loc (V d (cV L) (jV L)) ↦{shareTokN (qT L) tk} x3v d))

/-- Before plane k: chunks 0 and 1 of the plane are on their way into buffers 0 and 1 (after the last plane, nothing is); buffer 2
    is free; the lane-sum row at some contents; the waits recorded so far are at no index. -/
def inv (O : CellTallies nD τ sig (HIx 1)) (W : Waits sig (HIx 1)) (k : ℕ) (_ : Unit) : sProp 𝕄 :=
  iprop(Transfers.MayWaits (V d (cV L) (jV L)) (none : HIx 1) O
    ∗ (if k < 6 then iprop(inFlight x3v d L ⟨9, by decide⟩ b0M 9 ∗ inFlight x3v d L ⟨10, by decide⟩ b1M 10)
        else iprop(idle x3v d L ⟨9, by decide⟩ b0M 9 ∗ idle x3v d L ⟨10, by decide⟩ b1M 10))
    ∗ idle x3v d L ⟨11, by decide⟩ b2M 11
    ∗ (∃ fp : Buf (Elt F) ((prM).view.loc (V d (cV L) (jV L))), (prM).view.loc (V d (cV L) (jV L)) ↦{fullShare} fp)
    ∗ ∃ W', ⌜∀ p ∈ W', p ∈ W ∨ p.2 = none⌝ ∗ owes (V d (cV L) (jV L)) O W')

theorem waits_ok {W W' : Waits sig (HIx 1)} (h : ∀ p ∈ W', p ∈ W ∨ p.2 = none) {sm : SemLoc sig} :
    ∀ p ∈ insert (sm, (default : HIx 1)) W', p ∈ W ∨ p.2 = none := by
  intro p hp
  rcases Finset.mem_insert.mp hp with rfl | hp
  · exact .inr rfl
  · exact h p hp

theorem buf_ex {ℓ : Loc nD τ sig} {f : Buf (Elt F) ℓ} : (ℓ ↦{fullShare} f : sProp 𝕄) ⊢ iprop(∃ g, ℓ ↦{fullShare} g) := by
  iintro H; iexists _; iexact H

theorem inv_lt (O : CellTallies nD τ sig (HIx 1)) (W : Waits sig (HIx 1)) {k : ℕ} (h : k < 6) (u : Unit) :
    inv x3v d L O W k u = iprop(Transfers.MayWaits (V d (cV L) (jV L)) (none : HIx 1) O
      ∗ (inFlight x3v d L ⟨9, by decide⟩ b0M 9 ∗ inFlight x3v d L ⟨10, by decide⟩ b1M 10)
      ∗ idle x3v d L ⟨11, by decide⟩ b2M 11
      ∗ (∃ fp : Buf (Elt F) ((prM).view.loc (V d (cV L) (jV L))), (prM).view.loc (V d (cV L) (jV L)) ↦{fullShare} fp)
      ∗ ∃ W', ⌜∀ p ∈ W', p ∈ W ∨ p.2 = none⌝ ∗ owes (V d (cV L) (jV L)) O W') := by
  unfold inv; rw [if_pos h]

theorem inv_ge (O : CellTallies nD τ sig (HIx 1)) (W : Waits sig (HIx 1)) {k : ℕ} (h : ¬ k < 6) (u : Unit) :
    inv x3v d L O W k u = iprop(Transfers.MayWaits (V d (cV L) (jV L)) (none : HIx 1) O
      ∗ (idle x3v d L ⟨9, by decide⟩ b0M 9 ∗ idle x3v d L ⟨10, by decide⟩ b1M 10)
      ∗ idle x3v d L ⟨11, by decide⟩ b2M 11
      ∗ (∃ fp : Buf (Elt F) ((prM).view.loc (V d (cV L) (jV L))), (prM).view.loc (V d (cV L) (jV L)) ↦{fullShare} fp)
      ∗ ∃ W', ⌜∀ p ∈ W', p ∈ W ∨ p.2 = none⌝ ∗ owes (V d (cV L) (jV L)) O W') := by
  unfold inv; rw [if_neg h]

theorem cond5_iff : ∀ k : Fin k1_t1_loop.trips, (k1_cond5 k = 1#1 ↔ k.val + 1 < 6) := by decide +kernel
theorem cond6_iff : ∀ k : Fin k1_t1_loop.trips, (k1_cond6 k = 1#1 ↔ k.val + 1 < 6) := by decide +kernel

theorem rest_pos {ℓ : Loc nD τ sig} {C : Prop} [Decidable C] {R : C → Finset (Idx ℓ)} {q : PosShare TreeShare} {f : Buf (Elt F) ℓ} (h : C) :
    (ℓ ↦[Finset.univ \ gset C R]{q} f : sProp 𝕄) ⊢ (ℓ ↦[Finset.univ \ R h]{q} f) := by rw [gset.pos h]
theorem rest_neg {ℓ : Loc nD τ sig} {C : Prop} [Decidable C] {R : C → Finset (Idx ℓ)} {q : PosShare TreeShare} {f : Buf (Elt F) ℓ} (h : ¬C) :
    (ℓ ↦[Finset.univ \ gset C R]{q} f : sProp 𝕄) ⊢ (ℓ ↦{q} f) := by rw [gset.neg h, Finset.sdiff_empty]

theorem set_outK : (outK L).view.set = outSet (wid (cL L) (sL L)) := by
  show ((View.whole (main_v2_scv : Ref sig .scVector)).slice (Rect.unit (s := S3072) (k1_off155 L) S96.size (k1_off155_inb L))).set = _
  rw [View.set_slice_whole]
  ext j
  rw [Rect.mem_set_unit]
  simp only [outSet, Finset.mem_filter, Finset.mem_univ, true_and, k1_off155_eq]
  constructor
  · intro h
    have h0 := h 0
    simp [wid] at h0 ⊢
    omega
  · intro h a
    have ha : a = 0 := Fin.ext (Nat.lt_one_iff.mp a.isLt)
    subst ha
    simp [wid] at h ⊢
    omega

theorem pts_out (f : Buf (Elt F) (pLoc d)) :
    ((outK L).view.loc (V d (cV L) (jV L)) ↦[(outK L).view.set]{fullShare} f : sProp 𝕄) = pLoc d ↦[outSet (wid (cL L) (sL L))]{fullShare} f := by
  rw [set_outK]

end Tile

end Cert.Proof.KB.ScPool

end
-- ==== Proof.KB.ScVal.lean ====
/-
  What one vector subcore computes, as pure functions of the plane array's contents.

  A plane p of the 768 x 384 x 384 array is read as six chunks of 64 rows. A chunk's row j is twenty-four 16-lane vectors (columns
  16 c .. 16 c + 15, c < 24); adding a row puts vector c into accumulator c mod 8, in the order c = a, a + 8, a + 16 for
  accumulator a. A plane's eight accumulators start at zero, take the 384 rows chunk after chunk, and are summed as
  ((a0 + a1) + (a2 + a3)) + ((a4 + a5) + (a6 + a7)) to sixteen lane sums. Word j of the partials array is lane j mod 16 of plane
  576 + j / 16.

  The six chunks of a plane pass through three buffers in turn (chunk h through buffer h mod 3), and the program reads each with
  its own offset functions, so the row step is written once per chunk position (step2 .. step7) over the program's own load
  rectangles and payloads; all six are the same function of the chunk's contents.
-/
import proofs.«215010_g72713796321855_cont_9to1c4b_299_31_alg».proof.Proof.KB.Common
import proofs.«215010_g72713796321855_cont_9to1c4b_299_31_alg».proof.Proof.Gen.Kernel.Skeleton
import Idealize.ShloMosaic.Lib.ValueIdx

noncomputable section

namespace Cert.Proof.KB.ScVal

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareTokN shareDrop)
open Idealize.ShloMosaic.Tactic

variable {F : FTy → Type}

local notation "𝕄" => MT nD τ sig (HIx 1) (Elt F) ℕ UU ℕ

local notation "x3M" => (Memref.whole Cert.Kernel.main_v0_scv : Memref Cert.Kernel.sig Kind.scVector Space.hbm Cert.Kernel.S768x384x384 EltTy.f32)
local notation "oM" => (Memref.whole Cert.Kernel.main_v2_scv : Memref Cert.Kernel.sig Kind.scVector Space.hbm Cert.Kernel.S3072 EltTy.f32)
local notation "b0M" => (Memref.whole Cert.Kernel.cc1_scratch0 : Memref Cert.Kernel.sig Kind.scVector Space.vmem Cert.Kernel.S64x384 EltTy.f32)
local notation "b1M" => (Memref.whole Cert.Kernel.cc1_scratch1 : Memref Cert.Kernel.sig Kind.scVector Space.vmem Cert.Kernel.S64x384 EltTy.f32)
local notation "b2M" => (Memref.whole Cert.Kernel.cc1_scratch2 : Memref Cert.Kernel.sig Kind.scVector Space.vmem Cert.Kernel.S64x384 EltTy.f32)
local notation "prM" => (Memref.whole Cert.Kernel.cc1_scratch3 : Memref Cert.Kernel.sig Kind.scVector Space.vmem Cert.Kernel.S96 EltTy.f32)

variable [FloatOps F]

/-- Eight 16-lane accumulators. -/
abbrev Acc8 (F : FTy → Type) : Type := FVec F S16 .f32 × FVec F S16 .f32 × FVec F S16 .f32 × FVec F S16 .f32 × FVec F S16 .f32 × FVec F S16 .f32 × FVec F S16 .f32 × FVec F S16 .f32

/-- One 16-lane vector loaded from a 64 x 384 buffer at the given row and column offsets. -/
def rd (bM : Memref sig .scVector .vmem S64x384 .f32) (fb : bM.view.ty.Contents (Elt F)) (off : Fin 2 → ℕ)
    (inb : ∀ a, off a + S1x16.size a ≤ S64x384.size a) : Vec F S1x16 .f32 :=
  View.readAt (Elt F) bM.view (Rect.unit (s := S64x384) off S1x16.size inb).toLoadRect fb

/-- One row of the chunk in buffer `cc1_scratch0` added: the row's twenty-four 16-lane vectors, vector c into accumulator c mod 8. -/
def step2 (fb : (b0M).view.ty.Contents (Elt F)) (j : Fin k1_t2_loop.trips) (a : Acc8 F) : Acc8 F :=
  match a with
  | (arg13, arg14, arg15, arg16, arg17, arg18, arg19, arg20) =>
    let v92 := rd b0M fb (k1_off5 j) (k1_off5_inb j)
    let v96 := rd b0M fb (k1_off6 j) (k1_off6_inb j)
    let v100 := rd b0M fb (k1_off7 j) (k1_off7_inb j)
    let v104 := rd b0M fb (k1_off8 j) (k1_off8_inb j)
    let v108 := rd b0M fb (k1_off9 j) (k1_off9_inb j)
    let v112 := rd b0M fb (k1_off10 j) (k1_off10_inb j)
    let v116 := rd b0M fb (k1_off11 j) (k1_off11_inb j)
    let v120 := rd b0M fb (k1_off12 j) (k1_off12_inb j)
    let v124 := rd b0M fb (k1_off13 j) (k1_off13_inb j)
    let v128 := rd b0M fb (k1_off14 j) (k1_off14_inb j)
    let v132 := rd b0M fb (k1_off15 j) (k1_off15_inb j)
    let v106 := k1_pay3 arg16 v104
    let v110 := k1_pay4 arg17 v108
    let v114 := k1_pay5 arg18 v112
    let v118 := k1_pay6 arg19 v116
    let v122 := k1_pay7 arg20 v120
    let v126 := k1_pay8 arg13 v92 v124
    let v130 := k1_pay9 arg14 v96 v128
    let v134 := k1_pay10 arg15 v100 v132
    let v136 := rd b0M fb (k1_off16 j) (k1_off16_inb j)
    let v140 := rd b0M fb (k1_off17 j) (k1_off17_inb j)
    let v144 := rd b0M fb (k1_off18 j) (k1_off18_inb j)
    let v148 := rd b0M fb (k1_off19 j) (k1_off19_inb j)
    let v152 := rd b0M fb (k1_off20 j) (k1_off20_inb j)
    let v156 := rd b0M fb (k1_off21 j) (k1_off21_inb j)
    let v160 := rd b0M fb (k1_off22 j) (k1_off22_inb j)
    let v164 := rd b0M fb (k1_off23 j) (k1_off23_inb j)
    let v168 := rd b0M fb (k1_off24 j) (k1_off24_inb j)
    let v172 := rd b0M fb (k1_off25 j) (k1_off25_inb j)
    let v176 := rd b0M fb (k1_off26 j) (k1_off26_inb j)
    let v180 := rd b0M fb (k1_off27 j) (k1_off27_inb j)
    let v154 := k1_pay11 v122 v152
    let v158 := k1_pay12 v126 v156
    let v162 := k1_pay13 v130 v160
    let v166 := k1_pay14 v134 v164
    let v170 := k1_pay15 v106 v136 v168
    let v174 := k1_pay16 v110 v140 v172
    let v178 := k1_pay17 v114 v144 v176
    let v182 := k1_pay18 v118 v148 v180
    let v184 := rd b0M fb (k1_off28 j) (k1_off28_inb j)
    (v158, v162, v166, v170, v174, v178, v182, k1_pay100 v154 v184)

/-- The accumulators after the first j rows of the chunk. -/
def acc2 (fb : (b0M).view.ty.Contents (Elt F)) (init : Acc8 F) : ℕ → Acc8 F
  | 0 => init
  | j + 1 => if h : j < k1_t2_loop.trips then step2 fb ⟨j, h⟩ (acc2 fb init j) else acc2 fb init j

theorem acc2_succ (fb : (b0M).view.ty.Contents (Elt F)) (init : Acc8 F) (k : Fin k1_t2_loop.trips) :
    acc2 fb init (k.val + 1) = step2 fb k (acc2 fb init k.val) := by
  rw [acc2]; exact dif_pos k.isLt

/-- One row of the chunk in buffer `cc1_scratch1` added: the row's twenty-four 16-lane vectors, vector c into accumulator c mod 8. -/
def step3 (fb : (b1M).view.ty.Contents (Elt F)) (j : Fin k1_t3_loop.trips) (a : Acc8 F) : Acc8 F :=
  match a with
  | (arg13, arg14, arg15, arg16, arg17, arg18, arg19, arg20) =>
    let v92 := rd b1M fb (k1_off30 j) (k1_off30_inb j)
    let v96 := rd b1M fb (k1_off31 j) (k1_off31_inb j)
    let v100 := rd b1M fb (k1_off32 j) (k1_off32_inb j)
    let v104 := rd b1M fb (k1_off33 j) (k1_off33_inb j)
    let v108 := rd b1M fb (k1_off34 j) (k1_off34_inb j)
    let v112 := rd b1M fb (k1_off35 j) (k1_off35_inb j)
    let v116 := rd b1M fb (k1_off36 j) (k1_off36_inb j)
    let v120 := rd b1M fb (k1_off37 j) (k1_off37_inb j)
    let v124 := rd b1M fb (k1_off38 j) (k1_off38_inb j)
    let v128 := rd b1M fb (k1_off39 j) (k1_off39_inb j)
    let v132 := rd b1M fb (k1_off40 j) (k1_off40_inb j)
    let v106 := k1_pay19 arg16 v104
    let v110 := k1_pay20 arg17 v108
    let v114 := k1_pay21 arg18 v112
    let v118 := k1_pay22 arg19 v116
    let v122 := k1_pay23 arg20 v120
    let v126 := k1_pay24 arg13 v92 v124
    let v130 := k1_pay25 arg14 v96 v128
    let v134 := k1_pay26 arg15 v100 v132
    let v136 := rd b1M fb (k1_off41 j) (k1_off41_inb j)
    let v140 := rd b1M fb (k1_off42 j) (k1_off42_inb j)
    let v144 := rd b1M fb (k1_off43 j) (k1_off43_inb j)
    let v148 := rd b1M fb (k1_off44 j) (k1_off44_inb j)
    let v152 := rd b1M fb (k1_off45 j) (k1_off45_inb j)
    let v156 := rd b1M fb (k1_off46 j) (k1_off46_inb j)
    let v160 := rd b1M fb (k1_off47 j) (k1_off47_inb j)
    let v164 := rd b1M fb (k1_off48 j) (k1_off48_inb j)
    let v168 := rd b1M fb (k1_off49 j) (k1_off49_inb j)
    let v172 := rd b1M fb (k1_off50 j) (k1_off50_inb j)
    let v176 := rd b1M fb (k1_off51 j) (k1_off51_inb j)
    let v180 := rd b1M fb (k1_off52 j) (k1_off52_inb j)
    let v154 := k1_pay27 v122 v152
    let v158 := k1_pay28 v126 v156
    let v162 := k1_pay29 v130 v160
    let v166 := k1_pay30 v134 v164
    let v170 := k1_pay31 v106 v136 v168
    let v174 := k1_pay32 v110 v140 v172
    let v178 := k1_pay33 v114 v144 v176
    let v182 := k1_pay34 v118 v148 v180
    let v184 := rd b1M fb (k1_off53 j) (k1_off53_inb j)
    (v158, v162, v166, v170, v174, v178, v182, k1_pay101 v154 v184)

/-- The accumulators after the first j rows of the chunk. -/
def acc3 (fb : (b1M).view.ty.Contents (Elt F)) (init : Acc8 F) : ℕ → Acc8 F
  | 0 => init
  | j + 1 => if h : j < k1_t3_loop.trips then step3 fb ⟨j, h⟩ (acc3 fb init j) else acc3 fb init j

theorem acc3_succ (fb : (b1M).view.ty.Contents (Elt F)) (init : Acc8 F) (k : Fin k1_t3_loop.trips) :
    acc3 fb init (k.val + 1) = step3 fb k (acc3 fb init k.val) := by
  rw [acc3]; exact dif_pos k.isLt

/-- One row of the chunk in buffer `cc1_scratch2` added: the row's twenty-four 16-lane vectors, vector c into accumulator c mod 8. -/
def step4 (fb : (b2M).view.ty.Contents (Elt F)) (j : Fin k1_t4_loop.trips) (a : Acc8 F) : Acc8 F :=
  match a with
  | (arg13, arg14, arg15, arg16, arg17, arg18, arg19, arg20) =>
    let v92 := rd b2M fb (k1_off55 j) (k1_off55_inb j)
    let v96 := rd b2M fb (k1_off56 j) (k1_off56_inb j)
    let v100 := rd b2M fb (k1_off57 j) (k1_off57_inb j)
    let v104 := rd b2M fb (k1_off58 j) (k1_off58_inb j)
    let v108 := rd b2M fb (k1_off59 j) (k1_off59_inb j)
    let v112 := rd b2M fb (k1_off60 j) (k1_off60_inb j)
    let v116 := rd b2M fb (k1_off61 j) (k1_off61_inb j)
    let v120 := rd b2M fb (k1_off62 j) (k1_off62_inb j)
    let v124 := rd b2M fb (k1_off63 j) (k1_off63_inb j)
    let v128 := rd b2M fb (k1_off64 j) (k1_off64_inb j)
    let v132 := rd b2M fb (k1_off65 j) (k1_off65_inb j)
    let v106 := k1_pay35 arg16 v104
    let v110 := k1_pay36 arg17 v108
    let v114 := k1_pay37 arg18 v112
    let v118 := k1_pay38 arg19 v116
    let v122 := k1_pay39 arg20 v120
    let v126 := k1_pay40 arg13 v92 v124
    let v130 := k1_pay41 arg14 v96 v128
    let v134 := k1_pay42 arg15 v100 v132
    let v136 := rd b2M fb (k1_off66 j) (k1_off66_inb j)
    let v140 := rd b2M fb (k1_off67 j) (k1_off67_inb j)
    let v144 := rd b2M fb (k1_off68 j) (k1_off68_inb j)
    let v148 := rd b2M fb (k1_off69 j) (k1_off69_inb j)
    let v152 := rd b2M fb (k1_off70 j) (k1_off70_inb j)
    let v156 := rd b2M fb (k1_off71 j) (k1_off71_inb j)
    let v160 := rd b2M fb (k1_off72 j) (k1_off72_inb j)
    let v164 := rd b2M fb (k1_off73 j) (k1_off73_inb j)
    let v168 := rd b2M fb (k1_off74 j) (k1_off74_inb j)
    let v172 := rd b2M fb (k1_off75 j) (k1_off75_inb j)
    let v176 := rd b2M fb (k1_off76 j) (k1_off76_inb j)
    let v180 := rd b2M fb (k1_off77 j) (k1_off77_inb j)
    let v154 := k1_pay43 v122 v152
    let v158 := k1_pay44 v126 v156
    let v162 := k1_pay45 v130 v160
    let v166 := k1_pay46 v134 v164
    let v170 := k1_pay47 v106 v136 v168
    let v174 := k1_pay48 v110 v140 v172
    let v178 := k1_pay49 v114 v144 v176
    let v182 := k1_pay50 v118 v148 v180
    let v184 := rd b2M fb (k1_off78 j) (k1_off78_inb j)
    (v158, v162, v166, v170, v174, v178, v182, k1_pay102 v154 v184)

/-- The accumulators after the first j rows of the chunk. -/
def acc4 (fb : (b2M).view.ty.Contents (Elt F)) (init : Acc8 F) : ℕ → Acc8 F
  | 0 => init
  | j + 1 => if h : j < k1_t4_loop.trips then step4 fb ⟨j, h⟩ (acc4 fb init j) else acc4 fb init j

theorem acc4_succ (fb : (b2M).view.ty.Contents (Elt F)) (init : Acc8 F) (k : Fin k1_t4_loop.trips) :
    acc4 fb init (k.val + 1) = step4 fb k (acc4 fb init k.val) := by
  rw [acc4]; exact dif_pos k.isLt

/-- One row of the chunk in buffer `cc1_scratch0` added: the row's twenty-four 16-lane vectors, vector c into accumulator c mod 8. -/
def step5 (fb : (b0M).view.ty.Contents (Elt F)) (j : Fin k1_t5_loop.trips) (a : Acc8 F) : Acc8 F :=
  match a with
  | (arg13, arg14, arg15, arg16, arg17, arg18, arg19, arg20) =>
    let v92 := rd b0M fb (k1_off80 j) (k1_off80_inb j)
    let v96 := rd b0M fb (k1_off81 j) (k1_off81_inb j)
    let v100 := rd b0M fb (k1_off82 j) (k1_off82_inb j)
    let v104 := rd b0M fb (k1_off83 j) (k1_off83_inb j)
    let v108 := rd b0M fb (k1_off84 j) (k1_off84_inb j)
    let v112 := rd b0M fb (k1_off85 j) (k1_off85_inb j)
    let v116 := rd b0M fb (k1_off86 j) (k1_off86_inb j)
    let v120 := rd b0M fb (k1_off87 j) (k1_off87_inb j)
    let v124 := rd b0M fb (k1_off88 j) (k1_off88_inb j)
    let v128 := rd b0M fb (k1_off89 j) (k1_off89_inb j)
    let v132 := rd b0M fb (k1_off90 j) (k1_off90_inb j)
    let v106 := k1_pay51 arg16 v104
    let v110 := k1_pay52 arg17 v108
    let v114 := k1_pay53 arg18 v112
    let v118 := k1_pay54 arg19 v116
    let v122 := k1_pay55 arg20 v120
    let v126 := k1_pay56 arg13 v92 v124
    let v130 := k1_pay57 arg14 v96 v128
    let v134 := k1_pay58 arg15 v100 v132
    let v136 := rd b0M fb (k1_off91 j) (k1_off91_inb j)
    let v140 := rd b0M fb (k1_off92 j) (k1_off92_inb j)
    let v144 := rd b0M fb (k1_off93 j) (k1_off93_inb j)
    let v148 := rd b0M fb (k1_off94 j) (k1_off94_inb j)
    let v152 := rd b0M fb (k1_off95 j) (k1_off95_inb j)
    let v156 := rd b0M fb (k1_off96 j) (k1_off96_inb j)
    let v160 := rd b0M fb (k1_off97 j) (k1_off97_inb j)
    let v164 := rd b0M fb (k1_off98 j) (k1_off98_inb j)
    let v168 := rd b0M fb (k1_off99 j) (k1_off99_inb j)
    let v172 := rd b0M fb (k1_off100 j) (k1_off100_inb j)
    let v176 := rd b0M fb (k1_off101 j) (k1_off101_inb j)
    let v180 := rd b0M fb (k1_off102 j) (k1_off102_inb j)
    let v154 := k1_pay59 v122 v152
    let v158 := k1_pay60 v126 v156
    let v162 := k1_pay61 v130 v160
    let v166 := k1_pay62 v134 v164
    let v170 := k1_pay63 v106 v136 v168
    let v174 := k1_pay64 v110 v140 v172
    let v178 := k1_pay65 v114 v144 v176
    let v182 := k1_pay66 v118 v148 v180
    let v184 := rd b0M fb (k1_off103 j) (k1_off103_inb j)
    (v158, v162, v166, v170, v174, v178, v182, k1_pay103 v154 v184)

/-- The accumulators after the first j rows of the chunk. -/
def acc5 (fb : (b0M).view.ty.Contents (Elt F)) (init : Acc8 F) : ℕ → Acc8 F
  | 0 => init
  | j + 1 => if h : j < k1_t5_loop.trips then step5 fb ⟨j, h⟩ (acc5 fb init j) else acc5 fb init j

theorem acc5_succ (fb : (b0M).view.ty.Contents (Elt F)) (init : Acc8 F) (k : Fin k1_t5_loop.trips) :
    acc5 fb init (k.val + 1) = step5 fb k (acc5 fb init k.val) := by
  rw [acc5]; exact dif_pos k.isLt

/-- One row of the chunk in buffer `cc1_scratch1` added: the row's twenty-four 16-lane vectors, vector c into accumulator c mod 8. -/
def step6 (fb : (b1M).view.ty.Contents (Elt F)) (j : Fin k1_t6_loop.trips) (a : Acc8 F) : Acc8 F :=
  match a with
  | (arg13, arg14, arg15, arg16, arg17, arg18, arg19, arg20) =>
    let v92 := rd b1M fb (k1_off105 j) (k1_off105_inb j)
    let v96 := rd b1M fb (k1_off106 j) (k1_off106_inb j)
    let v100 := rd b1M fb (k1_off107 j) (k1_off107_inb j)
    let v104 := rd b1M fb (k1_off108 j) (k1_off108_inb j)
    let v108 := rd b1M fb (k1_off109 j) (k1_off109_inb j)
    let v112 := rd b1M fb (k1_off110 j) (k1_off110_inb j)
    let v116 := rd b1M fb (k1_off111 j) (k1_off111_inb j)
    let v120 := rd b1M fb (k1_off112 j) (k1_off112_inb j)
    let v124 := rd b1M fb (k1_off113 j) (k1_off113_inb j)
    let v128 := rd b1M fb (k1_off114 j) (k1_off114_inb j)
    let v132 := rd b1M fb (k1_off115 j) (k1_off115_inb j)
    let v106 := k1_pay67 arg16 v104
    let v110 := k1_pay68 arg17 v108
    let v114 := k1_pay69 arg18 v112
    let v118 := k1_pay70 arg19 v116
    let v122 := k1_pay71 arg20 v120
    let v126 := k1_pay72 arg13 v92 v124
    let v130 := k1_pay73 arg14 v96 v128
    let v134 := k1_pay74 arg15 v100 v132
    let v136 := rd b1M fb (k1_off116 j) (k1_off116_inb j)
    let v140 := rd b1M fb (k1_off117 j) (k1_off117_inb j)
    let v144 := rd b1M fb (k1_off118 j) (k1_off118_inb j)
    let v148 := rd b1M fb (k1_off119 j) (k1_off119_inb j)
    let v152 := rd b1M fb (k1_off120 j) (k1_off120_inb j)
    let v156 := rd b1M fb (k1_off121 j) (k1_off121_inb j)
    let v160 := rd b1M fb (k1_off122 j) (k1_off122_inb j)
    let v164 := rd b1M fb (k1_off123 j) (k1_off123_inb j)
    let v168 := rd b1M fb (k1_off124 j) (k1_off124_inb j)
    let v172 := rd b1M fb (k1_off125 j) (k1_off125_inb j)
    let v176 := rd b1M fb (k1_off126 j) (k1_off126_inb j)
    let v180 := rd b1M fb (k1_off127 j) (k1_off127_inb j)
    let v154 := k1_pay75 v122 v152
    let v158 := k1_pay76 v126 v156
    let v162 := k1_pay77 v130 v160
    let v166 := k1_pay78 v134 v164
    let v170 := k1_pay79 v106 v136 v168
    let v174 := k1_pay80 v110 v140 v172
    let v178 := k1_pay81 v114 v144 v176
    let v182 := k1_pay82 v118 v148 v180
    let v184 := rd b1M fb (k1_off128 j) (k1_off128_inb j)
    (v158, v162, v166, v170, v174, v178, v182, k1_pay104 v154 v184)

/-- The accumulators after the first j rows of the chunk. -/
def acc6 (fb : (b1M).view.ty.Contents (Elt F)) (init : Acc8 F) : ℕ → Acc8 F
  | 0 => init
  | j + 1 => if h : j < k1_t6_loop.trips then step6 fb ⟨j, h⟩ (acc6 fb init j) else acc6 fb init j

theorem acc6_succ (fb : (b1M).view.ty.Contents (Elt F)) (init : Acc8 F) (k : Fin k1_t6_loop.trips) :
    acc6 fb init (k.val + 1) = step6 fb k (acc6 fb init k.val) := by
  rw [acc6]; exact dif_pos k.isLt

/-- One row of the chunk in buffer `cc1_scratch2` added: the row's twenty-four 16-lane vectors, vector c into accumulator c mod 8. -/
def step7 (fb : (b2M).view.ty.Contents (Elt F)) (j : Fin k1_t7_loop.trips) (a : Acc8 F) : Acc8 F :=
  match a with
  | (arg13, arg14, arg15, arg16, arg17, arg18, arg19, arg20) =>
    let v92 := rd b2M fb (k1_off130 j) (k1_off130_inb j)
    let v96 := rd b2M fb (k1_off131 j) (k1_off131_inb j)
    let v100 := rd b2M fb (k1_off132 j) (k1_off132_inb j)
    let v104 := rd b2M fb (k1_off133 j) (k1_off133_inb j)
    let v108 := rd b2M fb (k1_off134 j) (k1_off134_inb j)
    let v112 := rd b2M fb (k1_off135 j) (k1_off135_inb j)
    let v116 := rd b2M fb (k1_off136 j) (k1_off136_inb j)
    let v120 := rd b2M fb (k1_off137 j) (k1_off137_inb j)
    let v124 := rd b2M fb (k1_off138 j) (k1_off138_inb j)
    let v128 := rd b2M fb (k1_off139 j) (k1_off139_inb j)
    let v132 := rd b2M fb (k1_off140 j) (k1_off140_inb j)
    let v106 := k1_pay83 arg16 v104
    let v110 := k1_pay84 arg17 v108
    let v114 := k1_pay85 arg18 v112
    let v118 := k1_pay86 arg19 v116
    let v122 := k1_pay87 arg20 v120
    let v126 := k1_pay88 arg13 v92 v124
    let v130 := k1_pay89 arg14 v96 v128
    let v134 := k1_pay90 arg15 v100 v132
    let v136 := rd b2M fb (k1_off141 j) (k1_off141_inb j)
    let v140 := rd b2M fb (k1_off142 j) (k1_off142_inb j)
    let v144 := rd b2M fb (k1_off143 j) (k1_off143_inb j)
    let v148 := rd b2M fb (k1_off144 j) (k1_off144_inb j)
    let v152 := rd b2M fb (k1_off145 j) (k1_off145_inb j)
    let v156 := rd b2M fb (k1_off146 j) (k1_off146_inb j)
    let v160 := rd b2M fb (k1_off147 j) (k1_off147_inb j)
    let v164 := rd b2M fb (k1_off148 j) (k1_off148_inb j)
    let v168 := rd b2M fb (k1_off149 j) (k1_off149_inb j)
    let v172 := rd b2M fb (k1_off150 j) (k1_off150_inb j)
    let v176 := rd b2M fb (k1_off151 j) (k1_off151_inb j)
    let v180 := rd b2M fb (k1_off152 j) (k1_off152_inb j)
    let v154 := k1_pay91 v122 v152
    let v158 := k1_pay92 v126 v156
    let v162 := k1_pay93 v130 v160
    let v166 := k1_pay94 v134 v164
    let v170 := k1_pay95 v106 v136 v168
    let v174 := k1_pay96 v110 v140 v172
    let v178 := k1_pay97 v114 v144 v176
    let v182 := k1_pay98 v118 v148 v180
    let v184 := rd b2M fb (k1_off153 j) (k1_off153_inb j)
    (v158, v162, v166, v170, v174, v178, v182, k1_pay1 v154 v184)

/-- The accumulators after the first j rows of the chunk. -/
def acc7 (fb : (b2M).view.ty.Contents (Elt F)) (init : Acc8 F) : ℕ → Acc8 F
  | 0 => init
  | j + 1 => if h : j < k1_t7_loop.trips then step7 fb ⟨j, h⟩ (acc7 fb init j) else acc7 fb init j

theorem acc7_succ (fb : (b2M).view.ty.Contents (Elt F)) (init : Acc8 F) (k : Fin k1_t7_loop.trips) :
    acc7 fb init (k.val + 1) = step7 fb k (acc7 fb init k.val) := by
  rw [acc7]; exact dif_pos k.isLt

/-- Rows off 1 .. off 1 + 63 of plane off 0, as a chunk copy reads them out of the plane array. -/
def chunkRd (x3 : (x3M).view.ty.Contents (Elt F)) (off : Fin 3 → ℕ)
    (inb : ∀ a, off a + S1x64x384.size a ≤ S768x384x384.size a) : (b0M).view.ty.Contents (Elt F) :=
  (((x3M).slice (Rect.unit (s := S768x384x384) off S1x64x384.size inb) (fun _ => rfl)).squeeze S64x384 squeezes_S1x64x384_S64x384).view.read (Elt F) x3

theorem chunkRd_congr (x3 : (x3M).view.ty.Contents (Elt F)) {off off' : Fin 3 → ℕ} (h : off = off')
    (inb : ∀ a, off a + S1x64x384.size a ≤ S768x384x384.size a) (inb' : ∀ a, off' a + S1x64x384.size a ≤ S768x384x384.size a) :
    chunkRd x3 off inb = chunkRd x3 off' inb' := by
  subst h; rfl

/-- Where chunk hc of plane p starts. -/
def offC (p hc : ℕ) : Fin 3 → ℕ := ![p, 64 * hc, 0]

theorem offC_inb {p hc : ℕ} (hp : p < 768) (hh : hc < 6) : ∀ a, offC p hc a + S1x64x384.size a ≤ S768x384x384.size a := by
  intro a
  match a with
  | ⟨0, _⟩ => show p + 1 ≤ 768; omega
  | ⟨1, _⟩ => show 64 * hc + 64 ≤ 384; omega
  | ⟨2, _⟩ => show 0 + 384 ≤ 384; omega

/-- Chunk hc of plane p. -/
def chunk (x3 : (x3M).view.ty.Contents (Elt F)) (p hc : ℕ) (hp : p < 768) (hh : hc < 6) : (b0M).view.ty.Contents (Elt F) :=
  chunkRd x3 (offC p hc) (offC_inb hp hh)

/-- Eight zero accumulators. -/
def zeros8 : Acc8 F := (k1_pay99, k1_pay99, k1_pay99, k1_pay99, k1_pay99, k1_pay99, k1_pay99, k1_pay99)

/-- The eight accumulators summed pairwise to sixteen lanes. -/
def pay2T (a : Acc8 F) : FVec F S16 .f32 :=
  match a with
  | (a0, a1, a2, a3, a4, a5, a6, a7) => k1_pay2 a0 a1 a2 a3 a4 a5 a6 a7

/-- A plane's eight accumulators after all six chunks. -/
def planeAcc (x3 : (x3M).view.ty.Contents (Elt F)) (p : ℕ) (hp : p < 768) : Acc8 F :=
  acc7 (chunk x3 p 5 hp (by decide)) (acc6 (chunk x3 p 4 hp (by decide)) (acc5 (chunk x3 p 3 hp (by decide))
    (acc4 (chunk x3 p 2 hp (by decide)) (acc3 (chunk x3 p 1 hp (by decide)) (acc2 (chunk x3 p 0 hp (by decide)) zeros8
      k1_t2_loop.trips) k1_t3_loop.trips) k1_t4_loop.trips) k1_t5_loop.trips) k1_t6_loop.trips) k1_t7_loop.trips

/-- A plane's sixteen lane sums. -/
def planeVec (x3 : (x3M).view.ty.Contents (Elt F)) (p : ℕ) (hp : p < 768) : FVec F S16 .f32 := pay2T (planeAcc x3 p hp)

theorem planeVec_congr (x3 : (x3M).view.ty.Contents (Elt F)) {p p' : ℕ} (h : p = p') (hp : p < 768) (hp' : p' < 768) :
    planeVec x3 p hp = planeVec x3 p' hp' := by
  subst h; rfl

theorem plane_lt (j : S3072.Idx) : 576 + (j 0).val / 16 < 768 := by
  have := (j 0).isLt
  have h : (j 0).val < 3072 := this
  omega

/-- The partials array: word j is lane j mod 16 of the lane sums of plane 576 + j / 16. -/
def scVal (x3 : (x3M).view.ty.Contents (Elt F)) : (oM).view.ty.Contents (Elt F) :=
  fun j => planeVec x3 (576 + (j 0).val / 16) (plane_lt j) (ValueIdx.ix1 (⟨(j 0).val % 16, Nat.mod_lt _ (by decide)⟩ : Fin 16))

end Cert.Proof.KB.ScVal

end
-- ==== Proof.KB.ScPoolVBase.lean ====
/-
  The pooling task of one vector subcore with its values named, part 1: the invariant of the loop over planes.

  As in the frame form, but every contents is a function of the plane array's contents x3: a chunk on its way lands as chunk
  (plane, number) of x3; the lane-sum row holds, over what it held at the start, the lane sums of the planes done so far, one
  store of sixteen words per plane. The program's chunk offsets are identified with the chunks of the subcore's planes.
-/
import proofs.«215010_g72713796321855_cont_9to1c4b_299_31_alg».proof.Proof.KB.ScPoolBase
import proofs.«215010_g72713796321855_cont_9to1c4b_299_31_alg».proof.Proof.KB.ScVal

noncomputable section

namespace Cert.Proof.KB.ScPoolV

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareTokN shareDrop)
open Idealize.ShloMosaic.Tactic
open Cert.Proof.KB.ScPool
open Cert.Proof.KB

variable {F : FTy → Type}

local notation "𝕄" => MT nD τ sig (HIx 1) (Elt F) ℕ UU ℕ

local notation "x3M" => (Memref.whole Cert.Kernel.main_v0_scv : Memref Cert.Kernel.sig Kind.scVector Space.hbm Cert.Kernel.S768x384x384 EltTy.f32)
local notation "oM" => (Memref.whole Cert.Kernel.main_v2_scv : Memref Cert.Kernel.sig Kind.scVector Space.hbm Cert.Kernel.S3072 EltTy.f32)
local notation "b0M" => (Memref.whole Cert.Kernel.cc1_scratch0 : Memref Cert.Kernel.sig Kind.scVector Space.vmem Cert.Kernel.S64x384 EltTy.f32)
local notation "b1M" => (Memref.whole Cert.Kernel.cc1_scratch1 : Memref Cert.Kernel.sig Kind.scVector Space.vmem Cert.Kernel.S64x384 EltTy.f32)
local notation "b2M" => (Memref.whole Cert.Kernel.cc1_scratch2 : Memref Cert.Kernel.sig Kind.scVector Space.vmem Cert.Kernel.S64x384 EltTy.f32)
local notation "prM" => (Memref.whole Cert.Kernel.cc1_scratch3 : Memref Cert.Kernel.sig Kind.scVector Space.vmem Cert.Kernel.S96 EltTy.f32)

variable (x3v : (d : Dev nD) → Buf (Elt F) (x3Loc d))

section Tile

variable (d : Dev nD) (L : grid1.Coords)
variable [FloatOps F]

/-- The plane vector subcore L sums at its trip k. -/
def planeOf (L : grid1.Coords) (k : ℕ) : ℕ := 12 * (L 1).val + 6 * (L 0).val + k + 576

theorem planeOf_lt (L : grid1.Coords) {k : ℕ} (h : k < 6) : planeOf L k < 768 := by
  have h0 : (L 0).val < 2 := (L 0).isLt
  have h1 : (L 1).val < 16 := (L 1).isLt
  unfold planeOf; omega

/-- A chunk on its way into a buffer, to land as the contents cv: the wait hands back the buffer at cv and the elements the read
    token lent; what the token keeps meanwhile is held beside it. -/
def inFlightV (sm : DmaSem sig) (bM : Memref sig .scVector .vmem S64x384 .f32) (tk : ℕ) (cv : Buf (Elt F) (bM.view.loc (V d (cV L) (jV L)))) : sProp 𝕄 :=
  iprop(∃ (S : Finset (Idx ((x3M).view.loc (V d (cV L) (jV L))))),
    Transfers.Flight countersEmb (V d (cV L) (jV L)) (SemLoc.dma sm) (default : HIx 1) 786432
        iprop((bM.view.loc (V d (cV L) (jV L)) ↦{fullShare} cv) ∗ ((x3M).view.loc (V d (cV L) (jV L)) ↦[S]{shareTokN (qT L) tk} x3v d))
      ∗ ((x3M).view.loc (V d (cV L) (jV L)) ↦[Finset.univ \ S]{shareTokN (qT L) tk} x3v d))

/-- The stores into the lane-sum row by the first k planes, the last first: plane r's sixteen lane sums at words 16 r .. 16 r + 15. -/
def pieces : ℕ → List (View.Piece (Elt F) S96 .f32)
  | 0 => []
  | k + 1 => if h : k < k1_t1_loop.trips then
      (⟨Rect.unit (s := S96) (k1_off154 ⟨k, h⟩) S16.size (k1_off154_inb ⟨k, h⟩),
        ScVal.planeVec (x3v d) (planeOf L k) (planeOf_lt L h)⟩ : View.Piece (Elt F) S96 .f32) :: pieces k
    else pieces k

theorem pieces_succ (k : Fin k1_t1_loop.trips) :
    pieces x3v d L (k.val + 1) = (⟨Rect.unit (s := S96) (k1_off154 k) S16.size (k1_off154_inb k),
        ScVal.planeVec (x3v d) (planeOf L k.val) (planeOf_lt L k.isLt)⟩ : View.Piece (Elt F) S96 .f32) :: pieces x3v d L k.val := by
  rw [pieces]; exact dif_pos k.isLt

/-- Before plane k, with the contents named: chunks 0 and 1 of plane k are on their way into buffers 0 and 1 (after the last
    plane, nothing is); buffer 2 is free; the lane-sum row holds the first k planes' lane sums over what it held at the start. -/
def invV (fp0 : Buf (Elt F) ((prM).view.loc (V d (cV L) (jV L)))) (O : CellTallies nD τ sig (HIx 1)) (W : Waits sig (HIx 1)) (k : ℕ) (_ : Unit) : sProp 𝕄 :=
  iprop(Transfers.MayWaits (V d (cV L) (jV L)) (none : HIx 1) O
    ∗ (if h : k < 6 then iprop(inFlightV x3v d L ⟨9, by decide⟩ b0M 9 (ScVal.chunk (x3v d) (planeOf L k) 0 (planeOf_lt L h) (by decide))
          ∗ inFlightV x3v d L ⟨10, by decide⟩ b1M 10 (ScVal.chunk (x3v d) (planeOf L k) 1 (planeOf_lt L h) (by decide)))
        else iprop(idle x3v d L ⟨9, by decide⟩ b0M 9 ∗ idle x3v d L ⟨10, by decide⟩ b1M 10))
    ∗ idle x3v d L ⟨11, by decide⟩ b2M 11
    ∗ ((prM).view.loc (V d (cV L) (jV L)) ↦{fullShare} (prM).view.writes (Elt F) fp0 (pieces x3v d L k))
    ∗ ∃ W', ⌜∀ p ∈ W', p ∈ W ∨ p.2 = none⌝ ∗ owes (V d (cV L) (jV L)) O W')

theorem invV_lt (fp0 : Buf (Elt F) ((prM).view.loc (V d (cV L) (jV L)))) (O : CellTallies nD τ sig (HIx 1)) (W : Waits sig (HIx 1)) {k : ℕ} (h : k < 6) (u : Unit) :
    invV x3v d L fp0 O W k u = iprop(Transfers.MayWaits (V d (cV L) (jV L)) (none : HIx 1) O
      ∗ (inFlightV x3v d L ⟨9, by decide⟩ b0M 9 (ScVal.chunk (x3v d) (planeOf L k) 0 (planeOf_lt L h) (by decide))
          ∗ inFlightV x3v d L ⟨10, by decide⟩ b1M 10 (ScVal.chunk (x3v d) (planeOf L k) 1 (planeOf_lt L h) (by decide)))
      ∗ idle x3v d L ⟨11, by decide⟩ b2M 11
      ∗ ((prM).view.loc (V d (cV L) (jV L)) ↦{fullShare} (prM).view.writes (Elt F) fp0 (pieces x3v d L k))
      ∗ ∃ W', ⌜∀ p ∈ W', p ∈ W ∨ p.2 = none⌝ ∗ owes (V d (cV L) (jV L)) O W') := by
  unfold invV; rw [dif_pos h]

theorem invV_ge (fp0 : Buf (Elt F) ((prM).view.loc (V d (cV L) (jV L)))) (O : CellTallies nD τ sig (HIx 1)) (W : Waits sig (HIx 1)) {k : ℕ} (h : ¬ k < 6) (u : Unit) :
    invV x3v d L fp0 O W k u = iprop(Transfers.MayWaits (V d (cV L) (jV L)) (none : HIx 1) O
      ∗ (idle x3v d L ⟨9, by decide⟩ b0M 9 ∗ idle x3v d L ⟨10, by decide⟩ b1M 10)
      ∗ idle x3v d L ⟨11, by decide⟩ b2M 11
      ∗ ((prM).view.loc (V d (cV L) (jV L)) ↦{fullShare} (prM).view.writes (Elt F) fp0 (pieces x3v d L k))
      ∗ ∃ W', ⌜∀ p ∈ W', p ∈ W ∨ p.2 = none⌝ ∗ owes (V d (cV L) (jV L)) O W') := by
  unfold invV; rw [dif_neg h]

/-- Equal contents, the same points-to. -/
theorem pts_eq {ℓ : Loc nD τ sig} {f g : Buf (Elt F) ℓ} (h : f = g) : (ℓ ↦{fullShare} f : sProp 𝕄) ⊢ ℓ ↦{fullShare} g := by
  subst h; exact Entails.refl _

/-- and the same copy on its way. -/
theorem flight_eq {sm : SemLoc sig} {ℓ : Loc nD τ sig} {f g : Buf (Elt F) ℓ} {X : sProp 𝕄} (h : f = g) :
    (Transfers.Flight countersEmb (V d (cV L) (jV L)) sm (default : HIx 1) 786432 iprop((ℓ ↦{fullShare} f) ∗ X) : sProp 𝕄)
      ⊢ Transfers.Flight countersEmb (V d (cV L) (jV L)) sm (default : HIx 1) 786432 iprop((ℓ ↦{fullShare} g) ∗ X) := by
  subst h; exact Entails.refl _

/-- A chunk copied whole into a buffer is the buffer's new contents, whatever it held. -/
theorem land0 (fd : (b0M).view.ty.Contents (Elt F)) {off : Fin 3 → ℕ} (inb : ∀ a, off a + S1x64x384.size a ≤ S768x384x384.size a)
    {p hc : ℕ} (hp : p < 768) (hh : hc < 6) (hoff : off = ScVal.offC p hc) :
    View.write (Elt F) (b0M).view fd (ScVal.chunkRd (x3v d) off inb) Finset.univ = ScVal.chunk (x3v d) p hc hp hh := by
  exact (View.write_whole_univ _ fd _).trans (ScVal.chunkRd_congr _ hoff _ _)
theorem land1 (fd : (b1M).view.ty.Contents (Elt F)) {off : Fin 3 → ℕ} (inb : ∀ a, off a + S1x64x384.size a ≤ S768x384x384.size a)
    {p hc : ℕ} (hp : p < 768) (hh : hc < 6) (hoff : off = ScVal.offC p hc) :
    View.write (Elt F) (b1M).view fd (ScVal.chunkRd (x3v d) off inb) Finset.univ = ScVal.chunk (x3v d) p hc hp hh := by
  exact (View.write_whole_univ _ fd _).trans (ScVal.chunkRd_congr _ hoff _ _)
theorem land2 (fd : (b2M).view.ty.Contents (Elt F)) {off : Fin 3 → ℕ} (inb : ∀ a, off a + S1x64x384.size a ≤ S768x384x384.size a)
    {p hc : ℕ} (hp : p < 768) (hh : hc < 6) (hoff : off = ScVal.offC p hc) :
    View.write (Elt F) (b2M).view fd (ScVal.chunkRd (x3v d) off inb) Finset.univ = ScVal.chunk (x3v d) p hc hp hh := by
  exact (View.write_whole_univ _ fd _).trans (ScVal.chunkRd_congr _ hoff _ _)

/-! The program's chunk offsets are the chunks of the subcore's planes. -/

theorem off1_eq : k1_off1 L = ScVal.offC (planeOf L 0) 0 := by
  rw [k1_off1_eq]; funext a; match a with | ⟨0, _⟩ => rfl | ⟨1, _⟩ => rfl | ⟨2, _⟩ => rfl
theorem off2_eq : k1_off2 L = ScVal.offC (planeOf L 0) 1 := by
  rw [k1_off2_eq]; funext a; match a with | ⟨0, _⟩ => rfl | ⟨1, _⟩ => rfl | ⟨2, _⟩ => rfl
theorem off3_eq (k : Fin k1_t1_loop.trips) : k1_off3 L k = ScVal.offC (planeOf L k.val) 2 := by
  rw [k1_off3_eq]; funext a; match a with | ⟨0, _⟩ => rfl | ⟨1, _⟩ => rfl | ⟨2, _⟩ => rfl
theorem off29_eq (k : Fin k1_t1_loop.trips) : k1_off29 L k = ScVal.offC (planeOf L k.val) 3 := by
  rw [k1_off29_eq]; funext a; match a with | ⟨0, _⟩ => rfl | ⟨1, _⟩ => rfl | ⟨2, _⟩ => rfl
theorem off54_eq (k : Fin k1_t1_loop.trips) : k1_off54 L k = ScVal.offC (planeOf L k.val) 4 := by
  rw [k1_off54_eq]; funext a; match a with | ⟨0, _⟩ => rfl | ⟨1, _⟩ => rfl | ⟨2, _⟩ => rfl
theorem off79_eq (k : Fin k1_t1_loop.trips) : k1_off79 L k = ScVal.offC (planeOf L k.val) 5 := by
  rw [k1_off79_eq]; funext a; match a with | ⟨0, _⟩ => rfl | ⟨1, _⟩ => rfl | ⟨2, _⟩ => rfl
theorem off104_eq (k : Fin k1_t1_loop.trips) : k1_off104 L k = ScVal.offC (planeOf L (k.val + 1)) 0 := by
  rw [k1_off104_eq]; funext a
  match a with
  | ⟨0, _⟩ => show 12 * (L 1).val + 6 * (L 0).val + k.val + 577 = 12 * (L 1).val + 6 * (L 0).val + (k.val + 1) + 576; omega
  | ⟨1, _⟩ => rfl
  | ⟨2, _⟩ => rfl
theorem off129_eq (k : Fin k1_t1_loop.trips) : k1_off129 L k = ScVal.offC (planeOf L (k.val + 1)) 1 := by
  rw [k1_off129_eq]; funext a
  match a with
  | ⟨0, _⟩ => show 12 * (L 1).val + 6 * (L 0).val + k.val + 577 = 12 * (L 1).val + 6 * (L 0).val + (k.val + 1) + 576; omega
  | ⟨1, _⟩ => rfl
  | ⟨2, _⟩ => rfl

end Tile

end Cert.Proof.KB.ScPoolV

end
-- ==== Proof.KB.ScPoolVRegion.lean ====
/-
  The pooling task of one vector subcore with its values named, part 2: one plane.

  Each of the six inner loops carries its eight accumulators as the fold of the row step over the rows read so far of the chunk
  in its buffer; the six folds chain (each starts from the previous one's result, the first from zeros), so the sixteen lanes
  stored at the end of the trip are the plane's lane sums as a function of the plane array.
-/
import proofs.«215010_g72713796321855_cont_9to1c4b_299_31_alg».proof.Proof.KB.ScPoolVBase

noncomputable section

namespace Cert.Proof.KB.ScPoolV

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareTokN shareDrop)
open Idealize.ShloMosaic.Tactic
open Cert.Proof.KB.ScPool
open Cert.Proof.KB

variable {F : FTy → Type}

local notation "𝕄" => MT nD τ sig (HIx 1) (Elt F) ℕ UU ℕ

local notation "x3M" => (Memref.whole Cert.Kernel.main_v0_scv : Memref Cert.Kernel.sig Kind.scVector Space.hbm Cert.Kernel.S768x384x384 EltTy.f32)
local notation "oM" => (Memref.whole Cert.Kernel.main_v2_scv : Memref Cert.Kernel.sig Kind.scVector Space.hbm Cert.Kernel.S3072 EltTy.f32)
local notation "b0M" => (Memref.whole Cert.Kernel.cc1_scratch0 : Memref Cert.Kernel.sig Kind.scVector Space.vmem Cert.Kernel.S64x384 EltTy.f32)
local notation "b1M" => (Memref.whole Cert.Kernel.cc1_scratch1 : Memref Cert.Kernel.sig Kind.scVector Space.vmem Cert.Kernel.S64x384 EltTy.f32)
local notation "b2M" => (Memref.whole Cert.Kernel.cc1_scratch2 : Memref Cert.Kernel.sig Kind.scVector Space.vmem Cert.Kernel.S64x384 EltTy.f32)
local notation "prM" => (Memref.whole Cert.Kernel.cc1_scratch3 : Memref Cert.Kernel.sig Kind.scVector Space.vmem Cert.Kernel.S96 EltTy.f32)

variable (x3v : (d : Dev nD) → Buf (Elt F) (x3Loc d))

section Tile

variable (d : Dev nD) (L : grid1.Coords)
variable [FloatOps F]

theorem regionV (fp0 : Buf (Elt F) ((prM).view.loc (V d (cV L) (jV L)))) (O : CellTallies nD τ sig (HIx 1)) (W : Waits sig (HIx 1)) (v3 : BitVec 32) (k : Fin k1_t1_loop.trips) :
    invV x3v d L fp0 O W k.val () ⊢ wp frame (wpE (defs₀ (F := F)) 𝒱₀ (V d (cV L) (jV L)) none) Set.univ
      (k1_t1_body L x3M (Memref.isWhole_whole _) oM (Memref.isWhole_whole _) b0M (Memref.isWhole_whole _) b1M (Memref.isWhole_whole _)
            b2M (Memref.isWhole_whole _) prM (Memref.isWhole_whole _) cc1_scratch4 cc1_scratch5 cc1_scratch6 cc1_scoped0 v3 k ()) (fun acc => invV x3v d L fp0 O W (k.val + 1) acc) := by
  have hk : k.val < 6 := k.isLt
  have k1_h1 : k1_cond1 k = 1#1 := by revert k; decide +kernel
  have k1_h2 : k1_cond2 k = 1#1 := by revert k; decide +kernel
  have k1_h3 : k1_cond3 k = 1#1 := by revert k; decide +kernel
  have k1_h4 : k1_cond4 k = 1#1 := by revert k; decide +kernel
  rw [invV_lt x3v d L fp0 O W hk]
  unfold inFlightV idle
  iintro ⟨#Hmw, ⟨⟨%S9, HF9, Hx9⟩, ⟨%S10, HF10, Hx10⟩⟩, ⟨Hs11, ⟨%fb2, Hb2⟩, Hx11⟩, Hpr, %W', %hW', HO⟩
  sl_exec
  sl_for (fun (j : ℕ) (acc : ScVal.Acc8 F) => (iprop(((b0M).view.loc (V d (cV L) (jV L)) ↦{fullShare} (ScVal.chunk (x3v d) (planeOf L k.val) 0 (planeOf_lt L hk) (by decide))) ∗ ⌜acc = ScVal.acc2 (ScVal.chunk (x3v d) (planeOf L k.val) 0 (planeOf_lt L hk) (by decide)) ScVal.zeros8 j⌝) : sProp 𝕄)) $$ [HF9_dst]
  case region =>
    intro j acc
    obtain ⟨a13, a14, a15, a16, a17, a18, a19, a20⟩ := acc
    iintro ⟨Hb, %hacc⟩
    sl_exec
    sl_step
    isplitl [Hb]; · iexact Hb
    ipureintro
    rw [ScVal.acc2_succ, ← hacc]
    rfl
  · isplitl [HF9_dst]; · iexact HF9_dst
    ipureintro; rfl
  iintro %accs ⟨HF9_dst, %hfin2⟩
  obtain ⟨r20, r21, r22, r23, r24, r25, r26, r27⟩ := accs

  sl_exec
  sl_for (fun (j : ℕ) (acc : ScVal.Acc8 F) => (iprop(((b1M).view.loc (V d (cV L) (jV L)) ↦{fullShare} (ScVal.chunk (x3v d) (planeOf L k.val) 1 (planeOf_lt L hk) (by decide))) ∗ ⌜acc = ScVal.acc3 (ScVal.chunk (x3v d) (planeOf L k.val) 1 (planeOf_lt L hk) (by decide)) (r20, r21, r22, r23, r24, r25, r26, r27) j⌝) : sProp 𝕄)) $$ [HF10_dst]
  case region =>
    intro j acc
    obtain ⟨a13, a14, a15, a16, a17, a18, a19, a20⟩ := acc
    iintro ⟨Hb, %hacc⟩
    sl_exec
    sl_step
    isplitl [Hb]; · iexact Hb
    ipureintro
    rw [ScVal.acc3_succ, ← hacc]
    rfl
  · isplitl [HF10_dst]; · iexact HF10_dst
    ipureintro; rfl
  iintro %accs ⟨HF10_dst, %hfin3⟩
  obtain ⟨r30, r31, r32, r33, r34, r35, r36, r37⟩ := accs

  sl_exec
  ihave Hb2 := (pts_eq (F := F) (land2 x3v d _ (k1_off3_inb L k k1_h1) (planeOf_lt L hk) (by decide : 2 < 6) (off3_eq L k))) $$ Hb2
  sl_for (fun (j : ℕ) (acc : ScVal.Acc8 F) => (iprop(((b2M).view.loc (V d (cV L) (jV L)) ↦{fullShare} (ScVal.chunk (x3v d) (planeOf L k.val) 2 (planeOf_lt L hk) (by decide))) ∗ ⌜acc = ScVal.acc4 (ScVal.chunk (x3v d) (planeOf L k.val) 2 (planeOf_lt L hk) (by decide)) (r30, r31, r32, r33, r34, r35, r36, r37) j⌝) : sProp 𝕄)) $$ [Hb2]
  case region =>
    intro j acc
    obtain ⟨a13, a14, a15, a16, a17, a18, a19, a20⟩ := acc
    iintro ⟨Hb, %hacc⟩
    sl_exec
    sl_step
    isplitl [Hb]; · iexact Hb
    ipureintro
    rw [ScVal.acc4_succ, ← hacc]
    rfl
  · isplitl [Hb2]; · iexact Hb2
    ipureintro; rfl
  iintro %accs ⟨Hb2, %hfin4⟩
  obtain ⟨r40, r41, r42, r43, r44, r45, r46, r47⟩ := accs

  sl_exec
  ihave HF9_dst := (pts_eq (F := F) (land0 x3v d _ (k1_off29_inb L k k1_h2) (planeOf_lt L hk) (by decide : 3 < 6) (off29_eq L k))) $$ HF9_dst
  sl_for (fun (j : ℕ) (acc : ScVal.Acc8 F) => (iprop(((b0M).view.loc (V d (cV L) (jV L)) ↦{fullShare} (ScVal.chunk (x3v d) (planeOf L k.val) 3 (planeOf_lt L hk) (by decide))) ∗ ⌜acc = ScVal.acc5 (ScVal.chunk (x3v d) (planeOf L k.val) 3 (planeOf_lt L hk) (by decide)) (r40, r41, r42, r43, r44, r45, r46, r47) j⌝) : sProp 𝕄)) $$ [HF9_dst]
  case region =>
    intro j acc
    obtain ⟨a13, a14, a15, a16, a17, a18, a19, a20⟩ := acc
    iintro ⟨Hb, %hacc⟩
    sl_exec
    sl_step
    isplitl [Hb]; · iexact Hb
    ipureintro
    rw [ScVal.acc5_succ, ← hacc]
    rfl
  · isplitl [HF9_dst]; · iexact HF9_dst
    ipureintro; rfl
  iintro %accs ⟨HF9_dst, %hfin5⟩
  obtain ⟨r50, r51, r52, r53, r54, r55, r56, r57⟩ := accs

  sl_exec
  ihave HF10_dst := (pts_eq (F := F) (land1 x3v d _ (k1_off54_inb L k k1_h3) (planeOf_lt L hk) (by decide : 4 < 6) (off54_eq L k))) $$ HF10_dst
  sl_for (fun (j : ℕ) (acc : ScVal.Acc8 F) => (iprop(((b1M).view.loc (V d (cV L) (jV L)) ↦{fullShare} (ScVal.chunk (x3v d) (planeOf L k.val) 4 (planeOf_lt L hk) (by decide))) ∗ ⌜acc = ScVal.acc6 (ScVal.chunk (x3v d) (planeOf L k.val) 4 (planeOf_lt L hk) (by decide)) (r50, r51, r52, r53, r54, r55, r56, r57) j⌝) : sProp 𝕄)) $$ [HF10_dst]
  case region =>
    intro j acc
    obtain ⟨a13, a14, a15, a16, a17, a18, a19, a20⟩ := acc
    iintro ⟨Hb, %hacc⟩
    sl_exec
    sl_step
    isplitl [Hb]; · iexact Hb
    ipureintro
    rw [ScVal.acc6_succ, ← hacc]
    rfl
  · isplitl [HF10_dst]; · iexact HF10_dst
    ipureintro; rfl
  iintro %accs ⟨HF10_dst, %hfin6⟩
  obtain ⟨r60, r61, r62, r63, r64, r65, r66, r67⟩ := accs

  sl_exec
  ihave Hb2 := (pts_eq (F := F) (land2 x3v d _ (k1_off79_inb L k k1_h4) (planeOf_lt L hk) (by decide : 5 < 6) (off79_eq L k))) $$ Hb2
  sl_for (fun (j : ℕ) (acc : ScVal.Acc8 F) => (iprop(((b2M).view.loc (V d (cV L) (jV L)) ↦{fullShare} (ScVal.chunk (x3v d) (planeOf L k.val) 5 (planeOf_lt L hk) (by decide))) ∗ ⌜acc = ScVal.acc7 (ScVal.chunk (x3v d) (planeOf L k.val) 5 (planeOf_lt L hk) (by decide)) (r60, r61, r62, r63, r64, r65, r66, r67) j⌝) : sProp 𝕄)) $$ [Hb2]
  case region =>
    intro j acc
    obtain ⟨a13, a14, a15, a16, a17, a18, a19, a20⟩ := acc
    iintro ⟨Hb, %hacc⟩
    sl_exec
    sl_step
    isplitl [Hb]; · iexact Hb
    ipureintro
    rw [ScVal.acc7_succ, ← hacc]
    rfl
  · isplitl [Hb2]; · iexact Hb2
    ipureintro; rfl
  iintro %accs ⟨Hb2, %hfin7⟩
  obtain ⟨r70, r71, r72, r73, r74, r75, r76, r77⟩ := accs

  sl_exec
  sl_step
  have hval : k1_pay2 r70 r71 r72 r73 r74 r75 r76 r77 = ScVal.planeVec (x3v d) (planeOf L k.val) (planeOf_lt L hk) := by
    show ScVal.pay2T (r70, r71, r72, r73, r74, r75, r76, r77) = _
    rw [hfin7, hfin6, hfin5, hfin4, hfin3, hfin2]
    rfl

  have hpr : (prM).view.writes (Elt F) ((prM).view.writes (Elt F) fp0 (pieces x3v d L k.val))
        [(⟨Rect.unit (s := S96) (k1_off154 k) S16.size (k1_off154_inb k), k1_pay2 r70 r71 r72 r73 r74 r75 r76 r77⟩ : View.Piece (Elt F) S96 .f32)]
      = (prM).view.writes (Elt F) fp0 (pieces x3v d L (k.val + 1)) := by
    rw [pieces_succ x3v d L k, hval]; rfl
  ihave Hpr := (pts_eq (F := F) hpr) $$ Hpr
  by_cases hk1 : k.val + 1 < 6
  · have k1_h5 : k1_cond5 k = 1#1 := (cond5_iff k).mpr hk1
    have k1_h6 : k1_cond6 k = 1#1 := (cond6_iff k).mpr hk1
    irw [invV_lt x3v d L fp0 O W hk1]
    unfold inFlightV idle
    ihave HF := (Guarded.elim_pos k1_h6) $$ if1
    icases HF with ⟨HF9, HF10⟩
    ihave HF9 := (flight_eq (F := F) d L (land0 x3v d _ (k1_off104_inb L k k1_h5) (planeOf_lt L hk1) (by decide : 0 < 6) (off104_eq L k))) $$ HF9
    ihave HF10 := (flight_eq (F := F) d L (land1 x3v d _ (k1_off129_inb L k k1_h6) (planeOf_lt L hk1) (by decide : 1 < 6) (off129_eq L k))) $$ HF10
    ihave Hx9 := (rest_pos (F := F) k1_h6) $$ Hx9
    ihave Hx10 := (rest_pos (F := F) k1_h6) $$ Hx10
    isplitr; · iexact Hmw
    isplitl [HF9 Hx9 HF10 Hx10]
    · isplitl [HF9 Hx9]
      · iexists _
        isplitl [HF9]; · iexact HF9
        iexact Hx9
      · iexists _
        isplitl [HF10]; · iexact HF10
        iexact Hx10
    isplitl [Hs11 Hb2 Hx11]
    · isplitl [Hs11]; · iexact Hs11
      isplitl [Hb2]; · iexists _; iexact Hb2
      iexact Hx11
    isplitl [Hpr]; · iexact Hpr
    iexists _; isplitr
    rotate_left
    · iexact HO
    · ipureintro; exact waits_ok (waits_ok (waits_ok (waits_ok (waits_ok (waits_ok hW')))))
  · have k1_n6 : ¬ k1_cond6 k = 1#1 := fun h => hk1 ((cond6_iff k).mp h)
    irw [invV_ge x3v d L fp0 O W hk1]
    unfold idle
    ihave HF := (Guarded.elim_neg k1_n6) $$ if1
    icases HF with ⟨Hs9, Hb0, Hs10, Hb1⟩
    ihave Hx9 := (rest_neg (F := F) k1_n6) $$ Hx9
    ihave Hx10 := (rest_neg (F := F) k1_n6) $$ Hx10
    isplitr; · iexact Hmw
    isplitl [Hs9 Hb0 Hx9 Hs10 Hb1 Hx10]
    · isplitl [Hs9 Hb0 Hx9]
      · isplitl [Hs9]; · iexact Hs9
        isplitl [Hb0]; · iexists _; iexact Hb0
        iexact Hx9
      · isplitl [Hs10]; · iexact Hs10
        isplitl [Hb1]; · iexists _; iexact Hb1
        iexact Hx10
    isplitl [Hs11 Hb2 Hx11]
    · isplitl [Hs11]; · iexact Hs11
      isplitl [Hb2]; · iexists _; iexact Hb2
      iexact Hx11
    isplitl [Hpr]; · iexact Hpr
    iexists _; isplitr
    rotate_left
    · iexact HO
    · ipureintro; exact waits_ok (waits_ok (waits_ok (waits_ok (waits_ok (waits_ok hW')))))

end Tile

end Cert.Proof.KB.ScPoolV

end
-- ==== Proof.KB.ScPoolRegion.lean ====
/-
  The pooling task of one vector subcore, part 2: one plane.

  Before plane k, chunks 0 and 1 of the plane are on their way. The plane's trip starts chunk 2, waits for chunk 0 and adds its
  64 rows into the eight accumulators, starts chunk 3 into the buffer just read, waits for chunk 1, and so on through chunk 5;
  after chunk 3 it starts chunk 0 of the next plane and after chunk 4 chunk 1 of the next plane — unless this is the last plane
  (k + 1 = 6), when it starts nothing. Each buffer is read only between the wait for the copy into it and the start of the next
  copy into it. The trip ends with the eight accumulators summed to sixteen lanes and stored at words 16 k .. 16 k + 15 of the
  lane-sum row. Whether the two copies for the next plane were started is one condition (k + 1 < 6), decided only when the
  invariant is stated again.
-/
import proofs.«215010_g72713796321855_cont_9to1c4b_299_31_alg».proof.Proof.KB.ScPoolBase

noncomputable section

namespace Cert.Proof.KB.ScPool

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareTokN shareDrop)
open Idealize.ShloMosaic.Tactic

variable {F : FTy → Type}

local notation "𝕄" => MT nD τ sig (HIx 1) (Elt F) ℕ UU ℕ

local notation "x3M" => (Memref.whole Cert.Kernel.main_v0_scv : Memref Cert.Kernel.sig Kind.scVector Space.hbm Cert.Kernel.S768x384x384 EltTy.f32)
local notation "oM" => (Memref.whole Cert.Kernel.main_v2_scv : Memref Cert.Kernel.sig Kind.scVector Space.hbm Cert.Kernel.S3072 EltTy.f32)
local notation "b0M" => (Memref.whole Cert.Kernel.cc1_scratch0 : Memref Cert.Kernel.sig Kind.scVector Space.vmem Cert.Kernel.S64x384 EltTy.f32)
local notation "b1M" => (Memref.whole Cert.Kernel.cc1_scratch1 : Memref Cert.Kernel.sig Kind.scVector Space.vmem Cert.Kernel.S64x384 EltTy.f32)
local notation "b2M" => (Memref.whole Cert.Kernel.cc1_scratch2 : Memref Cert.Kernel.sig Kind.scVector Space.vmem Cert.Kernel.S64x384 EltTy.f32)
local notation "prM" => (Memref.whole Cert.Kernel.cc1_scratch3 : Memref Cert.Kernel.sig Kind.scVector Space.vmem Cert.Kernel.S96 EltTy.f32)

variable (x3v : (d : Dev nD) → Buf (Elt F) (x3Loc d))

section Tile

variable (d : Dev nD) (L : grid1.Coords)
variable [FloatOps F]

theorem region (O : CellTallies nD τ sig (HIx 1)) (W : Waits sig (HIx 1)) (v3 : BitVec 32) (k : Fin k1_t1_loop.trips) :
    inv x3v d L O W k.val () ⊢ wp frame (wpE (defs₀ (F := F)) 𝒱₀ (V d (cV L) (jV L)) none) Set.univ
      (k1_t1_body L x3M (Memref.isWhole_whole _) oM (Memref.isWhole_whole _) b0M (Memref.isWhole_whole _) b1M (Memref.isWhole_whole _)
            b2M (Memref.isWhole_whole _) prM (Memref.isWhole_whole _) cc1_scratch4 cc1_scratch5 cc1_scratch6 cc1_scoped0 v3 k ()) (fun acc => inv x3v d L O W (k.val + 1) acc) := by
  have hk : k.val < 6 := k.isLt
  have k1_h1 : k1_cond1 k = 1#1 := by revert k; decide +kernel
  have k1_h2 : k1_cond2 k = 1#1 := by revert k; decide +kernel
  have k1_h3 : k1_cond3 k = 1#1 := by revert k; decide +kernel
  have k1_h4 : k1_cond4 k = 1#1 := by revert k; decide +kernel
  rw [inv_lt x3v d L O W hk]
  unfold inFlight idle
  iintro ⟨#Hmw, ⟨⟨%S9, %fb0, HF9, Hx9⟩, ⟨%S10, %fb1, HF10, Hx10⟩⟩, ⟨Hs11, ⟨%fb2, Hb2⟩, Hx11⟩, ⟨%fp, Hpr⟩, %W', %hW', HO⟩
  sl_exec
  sl_for (fun (_ : ℕ) (_ : FVec F S16 .f32 × FVec F S16 .f32 × FVec F S16 .f32 × FVec F S16 .f32 × FVec F S16 .f32 × FVec F S16 .f32 × FVec F S16 .f32 × FVec F S16 .f32) => ((b0M).view.loc (V d (cV L) (jV L)) ↦{fullShare} fb0 : sProp 𝕄)) $$ [HF9_dst]
  case region =>
    intro j acc
    obtain ⟨a13, a14, a15, a16, a17, a18, a19, a20⟩ := acc
    iintro Hb
    sl_exec
    sl_step
    iexact Hb
  · iexact HF9_dst
  iintro %accs HF9_dst
  obtain ⟨a13, a14, a15, a16, a17, a18, a19, a20⟩ := accs

  sl_exec
  sl_for (fun (_ : ℕ) (_ : FVec F S16 .f32 × FVec F S16 .f32 × FVec F S16 .f32 × FVec F S16 .f32 × FVec F S16 .f32 × FVec F S16 .f32 × FVec F S16 .f32 × FVec F S16 .f32) => ((b1M).view.loc (V d (cV L) (jV L)) ↦{fullShare} fb1 : sProp 𝕄)) $$ [HF10_dst]
  case region =>
    intro j acc
    obtain ⟨a13, a14, a15, a16, a17, a18, a19, a20⟩ := acc
    iintro Hb
    sl_exec
    sl_step
    iexact Hb
  · iexact HF10_dst
  iintro %accs HF10_dst
  obtain ⟨a13, a14, a15, a16, a17, a18, a19, a20⟩ := accs

  sl_exec
  ihave Hb2 := (buf_ex (F := F)) $$ Hb2
  icases Hb2 with ⟨%g2, Hb2⟩
  sl_for (fun (_ : ℕ) (_ : FVec F S16 .f32 × FVec F S16 .f32 × FVec F S16 .f32 × FVec F S16 .f32 × FVec F S16 .f32 × FVec F S16 .f32 × FVec F S16 .f32 × FVec F S16 .f32) => ((b2M).view.loc (V d (cV L) (jV L)) ↦{fullShare} g2 : sProp 𝕄)) $$ [Hb2]
  case region =>
    intro j acc
    obtain ⟨a13, a14, a15, a16, a17, a18, a19, a20⟩ := acc
    iintro Hb
    sl_exec
    sl_step
    iexact Hb
  · iexact Hb2
  iintro %accs Hb2
  obtain ⟨a13, a14, a15, a16, a17, a18, a19, a20⟩ := accs

  sl_exec
  ihave HF9_dst := (buf_ex (F := F)) $$ HF9_dst
  icases HF9_dst with ⟨%g0, HF9_dst⟩
  sl_for (fun (_ : ℕ) (_ : FVec F S16 .f32 × FVec F S16 .f32 × FVec F S16 .f32 × FVec F S16 .f32 × FVec F S16 .f32 × FVec F S16 .f32 × FVec F S16 .f32 × FVec F S16 .f32) => ((b0M).view.loc (V d (cV L) (jV L)) ↦{fullShare} g0 : sProp 𝕄)) $$ [HF9_dst]
  case region =>
    intro j acc
    obtain ⟨a13, a14, a15, a16, a17, a18, a19, a20⟩ := acc
    iintro Hb
    sl_exec
    sl_step
    iexact Hb
  · iexact HF9_dst
  iintro %accs HF9_dst
  obtain ⟨a13, a14, a15, a16, a17, a18, a19, a20⟩ := accs

  sl_exec

  ihave HF10_dst := (buf_ex (F := F)) $$ HF10_dst
  icases HF10_dst with ⟨%g1, HF10_dst⟩
  sl_for (fun (_ : ℕ) (_ : FVec F S16 .f32 × FVec F S16 .f32 × FVec F S16 .f32 × FVec F S16 .f32 × FVec F S16 .f32 × FVec F S16 .f32 × FVec F S16 .f32 × FVec F S16 .f32) => ((b1M).view.loc (V d (cV L) (jV L)) ↦{fullShare} g1 : sProp 𝕄)) $$ [HF10_dst]
  case region =>
    intro j acc
    obtain ⟨a13, a14, a15, a16, a17, a18, a19, a20⟩ := acc
    iintro Hb
    sl_exec
    sl_step
    iexact Hb
  · iexact HF10_dst
  iintro %accs HF10_dst
  obtain ⟨a13, a14, a15, a16, a17, a18, a19, a20⟩ := accs

  sl_exec
  ihave Hb2 := (buf_ex (F := F)) $$ Hb2
  icases Hb2 with ⟨%g2c, Hb2⟩
  sl_for (fun (_ : ℕ) (_ : FVec F S16 .f32 × FVec F S16 .f32 × FVec F S16 .f32 × FVec F S16 .f32 × FVec F S16 .f32 × FVec F S16 .f32 × FVec F S16 .f32 × FVec F S16 .f32) => ((b2M).view.loc (V d (cV L) (jV L)) ↦{fullShare} g2c : sProp 𝕄)) $$ [Hb2]
  case region =>
    intro j acc
    obtain ⟨a13, a14, a15, a16, a17, a18, a19, a20⟩ := acc
    iintro Hb
    sl_exec
    sl_step
    iexact Hb
  · iexact Hb2
  iintro %accs Hb2
  obtain ⟨a13, a14, a15, a16, a17, a18, a19, a20⟩ := accs

  sl_exec
  sl_step
  by_cases hk1 : k.val + 1 < 6
  · have k1_h5 : k1_cond5 k = 1#1 := (cond5_iff k).mpr hk1
    have k1_h6 : k1_cond6 k = 1#1 := (cond6_iff k).mpr hk1
    irw [inv_lt x3v d L O W hk1]
    unfold inFlight idle
    ihave HF := (Guarded.elim_pos k1_h6) $$ if1
    icases HF with ⟨HF9, HF10⟩
    ihave Hx9 := (rest_pos (F := F) k1_h6) $$ Hx9
    ihave Hx10 := (rest_pos (F := F) k1_h6) $$ Hx10
    isplitr; · iexact Hmw
    isplitl [HF9 Hx9 HF10 Hx10]
    · isplitl [HF9 Hx9]
      · iexists _; iexists _
        isplitl [HF9]; · iexact HF9
        iexact Hx9
      · iexists _; iexists _
        isplitl [HF10]; · iexact HF10
        iexact Hx10
    isplitl [Hs11 Hb2 Hx11]
    · isplitl [Hs11]; · iexact Hs11
      isplitl [Hb2]; · iexists _; iexact Hb2
      iexact Hx11
    isplitl [Hpr]; · iexists _; iexact Hpr
    iexists _; isplitr
    rotate_left
    · iexact HO
    · ipureintro; exact waits_ok (waits_ok (waits_ok (waits_ok (waits_ok (waits_ok hW')))))
  · have k1_n5 : ¬ k1_cond5 k = 1#1 := fun h => hk1 ((cond5_iff k).mp h)
    have k1_n6 : ¬ k1_cond6 k = 1#1 := fun h => hk1 ((cond6_iff k).mp h)
    irw [inv_ge x3v d L O W hk1]
    unfold idle
    ihave HF := (Guarded.elim_neg k1_n6) $$ if1
    icases HF with ⟨Hs9, Hb0, Hs10, Hb1⟩
    ihave Hx9 := (rest_neg (F := F) k1_n6) $$ Hx9
    ihave Hx10 := (rest_neg (F := F) k1_n6) $$ Hx10
    isplitr; · iexact Hmw
    isplitl [Hs9 Hb0 Hx9 Hs10 Hb1 Hx10]
    · isplitl [Hs9 Hb0 Hx9]
      · isplitl [Hs9]; · iexact Hs9
        isplitl [Hb0]; · iexists _; iexact Hb0
        iexact Hx9
      · isplitl [Hs10]; · iexact Hs10
        isplitl [Hb1]; · iexists _; iexact Hb1
        iexact Hx10
    isplitl [Hs11 Hb2 Hx11]
    · isplitl [Hs11]; · iexact Hs11
      isplitl [Hb2]; · iexists _; iexact Hb2
      iexact Hx11
    isplitl [Hpr]; · iexists _; iexact Hpr
    iexists _; isplitr
    rotate_left
    · iexact HO
    · ipureintro; exact waits_ok (waits_ok (waits_ok (waits_ok (waits_ok (waits_ok hW')))))

end Tile

end Cert.Proof.KB.ScPool

end
-- ==== Proof.KB.ScPool.lean ====
/-
  The pooling task of one vector subcore, part 3: the whole task and the launch theorem's obligation.

  The task starts chunks 0 and 1 of its first plane, goes through its six planes, and copies the 96 lane sums to words
  96 w .. 96 w + 95 of the partials array on a semaphore of its own, waiting for that copy before it ends. It gives back its read
  share of the plane array whole, its buffers and semaphores as it found them (every semaphore at zero), and owns its 96 words of
  the partials array throughout. Every wait it makes is on a semaphore of its own at no index of the launch's handshakes.
-/
import proofs.«215010_g72713796321855_cont_9to1c4b_299_31_alg».proof.Proof.KB.ScPoolRegion

noncomputable section

namespace Cert.Proof.KB.ScPool

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareTokN shareDrop)
open Idealize.ShloMosaic.Tactic

variable {F : FTy → Type}

local notation "𝕄" => MT nD τ sig (HIx 1) (Elt F) ℕ UU ℕ

local notation "x3M" => (Memref.whole Cert.Kernel.main_v0_scv : Memref Cert.Kernel.sig Kind.scVector Space.hbm Cert.Kernel.S768x384x384 EltTy.f32)
local notation "oM" => (Memref.whole Cert.Kernel.main_v2_scv : Memref Cert.Kernel.sig Kind.scVector Space.hbm Cert.Kernel.S3072 EltTy.f32)
local notation "b0M" => (Memref.whole Cert.Kernel.cc1_scratch0 : Memref Cert.Kernel.sig Kind.scVector Space.vmem Cert.Kernel.S64x384 EltTy.f32)
local notation "b1M" => (Memref.whole Cert.Kernel.cc1_scratch1 : Memref Cert.Kernel.sig Kind.scVector Space.vmem Cert.Kernel.S64x384 EltTy.f32)
local notation "b2M" => (Memref.whole Cert.Kernel.cc1_scratch2 : Memref Cert.Kernel.sig Kind.scVector Space.vmem Cert.Kernel.S64x384 EltTy.f32)
local notation "prM" => (Memref.whole Cert.Kernel.cc1_scratch3 : Memref Cert.Kernel.sig Kind.scVector Space.vmem Cert.Kernel.S96 EltTy.f32)

variable (x3v : (d : Dev nD) → Buf (Elt F) (x3Loc d))

section Tile

variable (d : Dev nD) (L : grid1.Coords)
variable [FloatOps F]

/-- The task of vector subcore (L 0, L 1): two chunks started, the six planes (each: four more chunks of the plane and two of
    the next started, six waited for and summed row by row, the lane sums stored), the 96 lane sums copied out. It only reads
    the planes (its share comes back whole) and writes its own 96 words of the partials array. -/
theorem tile_body (hF : (K (F := F)).Facts) (O : CellTallies nD τ sig (HIx 1)) (W : Waits sig (HIx 1)) (hO : ∀ g, O g none = 0) :
    (iprop(levAts (K (F := F)).L (K (F := F)).lev ∗ emp
        ∗ ((x3Loc d ↦{qT L} x3v d) ∗ ∃ f, pLoc d ↦[outSet (wid (cL L) (sL L))]{fullShare} f)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc1__sc_pool_body L x3M (Memref.isWhole_whole _) oM (Memref.isWhole_whole _) b0M (Memref.isWhole_whole _) b1M (Memref.isWhole_whole _)
            b2M (Memref.isWhole_whole _) prM (Memref.isWhole_whole _) cc1_scratch4 cc1_scratch5 cc1_scratch6 cc1_scoped0)
          fun _ => iprop(((x3Loc d ↦{qT L} x3v d) ∗ ∃ f, pLoc d ↦[outSet (wid (cL L) (sL L))]{fullShare} f)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__sc_pool_body_eq_skeleton]; unfold cc1__sc_pool_body_skel
  rw [(K (F := F)).scopedBufs_V hF d (cV L) (jV L), SparseCore.Cfg.scopedSems0_V (Val := Elt F) d (cV L) (jV L), ownSems0_V, ownBufs_V]
  iintro ⟨#Hlv, -, ⟨Hx, %fo, Ho⟩, ⟨⟨%f0, Hb0⟩, ⟨%f1, Hb1⟩, ⟨%f2, Hb2⟩, ⟨%fp, Hpr⟩, Hbufs⟩, ⟨Hs8, Hs9, Hs10, HsR, Hsems⟩, HO⟩
  ihave Hmw := ((K (F := F)).mayWaits_none (thr := (V d (cV L) (jV L))) hO) $$ Hlv
  ihave Hx := (toks_split (F := F) (qT L)).1 $$ Hx
  icases Hx with ⟨Hxr, Hx9, Hx10, Hx11⟩
  ihave Hx9 := (Entails.of_eq (pts_x3 (F := F) d L _ _).symm) $$ Hx9
  ihave Hx10 := (Entails.of_eq (pts_x3 (F := F) d L _ _).symm) $$ Hx10
  ihave Hx11 := (Entails.of_eq (pts_x3 (F := F) d L _ _).symm) $$ Hx11
  ihave Hb0 := (Entails.of_eq (pts_b0 (F := F) d L _).symm) $$ Hb0
  ihave Hb1 := (Entails.of_eq (pts_b1 (F := F) d L _).symm) $$ Hb1
  ihave Hb2 := (Entails.of_eq (pts_b2 (F := F) d L _).symm) $$ Hb2
  ihave Hpr := (Entails.of_eq (pts_pr (F := F) d L _).symm) $$ Hpr
  sl_exec
  sl_for (inv x3v d L O W) $$ [Hs8 Hx9 Hs9 Hx10 Hs10 Hb2 Hx11 Hpr HO]
  case region =>
    intro k u
    exact region x3v d L O W _ k
  · irw [inv_lt x3v d L O W (by decide : 0 < 6)]
    unfold inFlight idle
    isplitr; · iexact Hmw
    isplitl [Hs8 Hx9 Hs9 Hx10]
    · isplitl [Hs8 Hx9]
      · iexists _; iexists _
        isplitl [Hs8]; · iexact Hs8
        iexact Hx9
      · iexists _; iexists _
        isplitl [Hs9]; · iexact Hs9
        iexact Hx10
    isplitl [Hs10 Hb2 Hx11]
    · isplitl [Hs10]; · iexact Hs10
      isplitl [Hb2]; · iexists _; iexact Hb2
      iexact Hx11
    isplitl [Hpr]; · iexists _; iexact Hpr
    iexists W; isplitr
    · ipureintro; exact fun p hp => .inl hp
    · iexact HO
  iintro %u HI
  have h6 : ¬ k1_t1_loop.trips < 6 := by decide
  ihave HI := (Entails.of_eq (inv_ge x3v d L O W (k := k1_t1_loop.trips) h6 u)) $$ HI
  unfold idle
  icases HI with ⟨-, ⟨⟨Hs8, ⟨%g0, Hb0⟩, Hx9⟩, ⟨Hs9, ⟨%g1, Hb1⟩, Hx10⟩⟩, ⟨Hs10, ⟨%g2, Hb2⟩, Hx11⟩, ⟨%gp, Hpr⟩, %W', %hW', HO⟩
  ihave Ho := (Entails.of_eq (pts_out (F := F) d L _).symm) $$ Ho
  sl_exec
  sl_step
  ihave Hx9 := (Entails.of_eq (pts_x3 (F := F) d L _ _)) $$ Hx9
  ihave Hx10 := (Entails.of_eq (pts_x3 (F := F) d L _ _)) $$ Hx10
  ihave Hx11 := (Entails.of_eq (pts_x3 (F := F) d L _ _)) $$ Hx11
  isplitl [Hxr Hx9 Hx10 Hx11 Ho]
  · isplitl [Hxr Hx9 Hx10 Hx11]
    · iapply (toks_split (F := F) (qT L)).2
      isplitl [Hxr]; · iexact Hxr
      isplitl [Hx9]; · iexact Hx9
      isplitl [Hx10] <;> iassumption
    · iexists _; iapply (Entails.of_eq (pts_out (F := F) d L _)); iexact Ho
  isplitl [Hb0 Hb1 Hb2 Hpr Hbufs]
  · isplitl [Hb0]; · iexists _; iexact Hb0
    isplitl [Hb1]; · iexists _; iexact Hb1
    isplitl [Hb2]; · iexists _; iexact Hb2
    isplitl [Hpr]; · iexists _; iexact Hpr
    iexact Hbufs
  isplitl [Hs8 Hs9 Hs10 HsR Hsems]
  · isplitl [Hs8]; · iexact Hs8
    isplitl [Hs9]; · iexact Hs9
    isplitl [Hs10]; · iexact Hs10
    isplitl [HsR]; · iexact HsR
    iexact Hsems
  iexists _; isplitr
  rotate_left
  · iexact HO
  · ipureintro; exact waits_ok hW'

end Tile

/-! ## The launch theorem's obligation -/

section Obligation

variable [FloatOps F]

/-- What the SparseCore call's handshakes carry when only the shape of the result is kept: a SparseCore is handed a read share
    of the planes and the words of the partials array its vector subcores write (at some contents); a vector subcore its part of the share and
    its own 96 words; back come the same, the words at some contents. -/
def PE : (K (F := F)).Pay (nD := nD) (Val := Elt F) (Name := ℕ) (U := UU) where
  st := fun q d c => match q with
    | 0 => iprop((x3Loc d ↦{coreShare (Fin.cast nCore_zero c)} x3v d) ∗ ∃ f, pLoc d ↦[coreOut (Fin.cast nCore_zero c)]{fullShare} f)
  dn := fun q d c => match q with
    | 0 => iprop((x3Loc d ↦{coreShare (Fin.cast nCore_zero c)} x3v d) ∗ ∃ f, pLoc d ↦[coreOut (Fin.cast nCore_zero c)]{fullShare} f)
  go := fun q d c i => match q with
    | 0 => iprop((x3Loc d ↦{tileShare (Fin.cast nCore_zero c) (Fin.cast nSub_zero i)} x3v d)
        ∗ ∃ f, pLoc d ↦[outSet (wid (Fin.cast nCore_zero c) (Fin.cast nSub_zero i))]{fullShare} f)
  td := fun q d c i => match q with
    | 0 => iprop((x3Loc d ↦{tileShare (Fin.cast nCore_zero c) (Fin.cast nSub_zero i)} x3v d)
        ∗ ∃ f, pLoc d ↦[outSet (wid (Fin.cast nCore_zero c) (Fin.cast nSub_zero i))]{fullShare} f)
  x := fun _ _ => iprop(emp)

instance PE_storable : (PE (F := F) x3v).IsStorable where
  st q d c := match q with
    | 0 => (inferInstance : BI.Storable (upEmb : UEmb _ 𝕄)
        iprop((x3Loc d ↦{coreShare (Fin.cast nCore_zero c)} x3v d) ∗ ∃ f, pLoc d ↦[coreOut (Fin.cast nCore_zero c)]{fullShare} f))
  dn q d c := match q with
    | 0 => (inferInstance : BI.Storable (upEmb : UEmb _ 𝕄)
        iprop((x3Loc d ↦{coreShare (Fin.cast nCore_zero c)} x3v d) ∗ ∃ f, pLoc d ↦[coreOut (Fin.cast nCore_zero c)]{fullShare} f))
  go q d c i := match q with
    | 0 => (inferInstance : BI.Storable (upEmb : UEmb _ 𝕄)
        iprop((x3Loc d ↦{tileShare (Fin.cast nCore_zero c) (Fin.cast nSub_zero i)} x3v d)
          ∗ ∃ f, pLoc d ↦[outSet (wid (Fin.cast nCore_zero c) (Fin.cast nSub_zero i))]{fullShare} f))
  td q d c i := match q with
    | 0 => (inferInstance : BI.Storable (upEmb : UEmb _ 𝕄)
        iprop((x3Loc d ↦{tileShare (Fin.cast nCore_zero c) (Fin.cast nSub_zero i)} x3v d)
          ∗ ∃ f, pLoc d ↦[outSet (wid (Fin.cast nCore_zero c) (Fin.cast nSub_zero i))]{fullShare} f))

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ⟨⟩
      = SparseCore.onTile hcore1 hsub1 (fun c s => cc1__sc_pool_body (coordsV c s)
          x3M (Memref.isWhole_whole _) oM (Memref.isWhole_whole _) b0M (Memref.isWhole_whole _) b1M (Memref.isWhole_whole _)
          b2M (Memref.isWhole_whole _) prM (Memref.isWhole_whole _) cc1_scratch4 cc1_scratch5 cc1_scratch6 cc1_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every vector subcore's task at the one SparseCore call. -/
theorem tileObl (hF : (K (F := F)).Facts) : (K (F := F)).TileObl (D (F := F)) 𝒱 (PE x3v) v₀ 0 := by
  intro d c i O W hO _ _
  simp only [show (PE x3v).ox = fun _ _ => 0 from rfl, add_zero]
  change _ ⊢ wp _ _ _ (Pipeline.liftProg (defs₀ (F := F) (.scVector ((K (F := F)).core 0 c) ((K (F := F)).sub 0 i)) 1 ⟨⟩)) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body x3v d (coordsV ⟨_, hc.1⟩ ⟨_, hc.2⟩) hF O W hO).trans (wp_mono frame _ _ fun _ => obl_post)

end Obligation

end Cert.Proof.KB.ScPool

end
-- ==== Proof.KB.ScPoolV.lean ====
/-
  The pooling task of one vector subcore with its values named, part 3: the whole task and the launch theorem's obligation.

  After the six planes the lane-sum row, read at word y, is lane y mod 16 of the subcore's plane number y / 16, whatever the row
  held at the start: the six stores of sixteen words cover it. The last copy writes the row to words 96 w .. 96 w + 95 of the
  partials array, so those words are the partials array's values: word j is lane j mod 16 of plane 576 + j / 16.
-/
import proofs.«215010_g72713796321855_cont_9to1c4b_299_31_alg».proof.Proof.KB.ScPoolVRegion
import proofs.«215010_g72713796321855_cont_9to1c4b_299_31_alg».proof.Proof.KB.ScPool
import Idealize.ShloMosaic.Lib.ValueIdx

noncomputable section

namespace Cert.Proof.KB.ScPoolV

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareTokN shareDrop)
open Idealize.ShloMosaic.Tactic
open Cert.Proof.KB.ScPool
open Cert.Proof.KB

variable {F : FTy → Type}

local notation "𝕄" => MT nD τ sig (HIx 1) (Elt F) ℕ UU ℕ

local notation "x3M" => (Memref.whole Cert.Kernel.main_v0_scv : Memref Cert.Kernel.sig Kind.scVector Space.hbm Cert.Kernel.S768x384x384 EltTy.f32)
local notation "oM" => (Memref.whole Cert.Kernel.main_v2_scv : Memref Cert.Kernel.sig Kind.scVector Space.hbm Cert.Kernel.S3072 EltTy.f32)
local notation "b0M" => (Memref.whole Cert.Kernel.cc1_scratch0 : Memref Cert.Kernel.sig Kind.scVector Space.vmem Cert.Kernel.S64x384 EltTy.f32)
local notation "b1M" => (Memref.whole Cert.Kernel.cc1_scratch1 : Memref Cert.Kernel.sig Kind.scVector Space.vmem Cert.Kernel.S64x384 EltTy.f32)
local notation "b2M" => (Memref.whole Cert.Kernel.cc1_scratch2 : Memref Cert.Kernel.sig Kind.scVector Space.vmem Cert.Kernel.S64x384 EltTy.f32)
local notation "prM" => (Memref.whole Cert.Kernel.cc1_scratch3 : Memref Cert.Kernel.sig Kind.scVector Space.vmem Cert.Kernel.S96 EltTy.f32)

variable (x3v : (d : Dev nD) → Buf (Elt F) (x3Loc d))

section Tile

variable (d : Dev nD) (L : grid1.Coords)
variable [FloatOps F]

/-- What the lane-sum row holds after the six planes: word y is lane y mod 16 of the plane of number y / 16 among the subcore's. -/
def rowG (y : S96.Idx) : Elt F .f32 :=
  ScVal.planeVec (x3v d) (planeOf L ((y 0).val / 16))
    (planeOf_lt L (by have h : (y 0).val < 96 := (y 0).isLt; omega))
    (ValueIdx.ix1 (⟨(y 0).val % 16, Nat.mod_lt _ (by decide)⟩ : Fin 16))

/-- The store of plane r's lane sums. -/
abbrev pieceOf (r : Fin k1_t1_loop.trips) : View.Piece (Elt F) S96 .f32 :=
  ⟨Rect.unit (s := S96) (k1_off154 r) S16.size (k1_off154_inb r), ScVal.planeVec (x3v d) (planeOf L r.val) (planeOf_lt L r.isLt)⟩

theorem pieces_mem : ∀ {k : ℕ}, k ≤ 6 → ∀ p ∈ pieces x3v d L k, ∃ r : Fin k1_t1_loop.trips, r.val < k ∧ p = pieceOf x3v d L r
  | 0, _, p, hp => by simp [pieces] at hp
  | k + 1, hk, p, hp => by
    have hk6 : k < 6 := Nat.lt_of_succ_le hk
    rw [pieces_succ x3v d L ⟨k, hk6⟩] at hp
    rcases List.mem_cons.mp hp with rfl | hp
    · exact ⟨⟨k, hk6⟩, Nat.lt_succ_self k, rfl⟩
    · obtain ⟨r, hr, e⟩ := pieces_mem (Nat.le_of_lt hk6) p hp
      exact ⟨r, Nat.lt_succ_of_lt hr, e⟩

theorem pieces_has (r : Fin k1_t1_loop.trips) : ∀ {k : ℕ}, k ≤ 6 → r.val < k → pieceOf x3v d L r ∈ pieces x3v d L k
  | 0, _, hr => absurd hr (Nat.not_lt_zero _)
  | k + 1, hk, hr => by
    have hk6 : k < 6 := Nat.lt_of_succ_le hk
    rw [pieces_succ x3v d L ⟨k, hk6⟩]
    by_cases h : r.val = k
    · have : r = ⟨k, hk6⟩ := Fin.ext h
      subst this; exact List.mem_cons_self
    · exact List.mem_cons_of_mem _ (pieces_has r (Nat.le_of_lt hk6) (Nat.lt_of_le_of_ne (Nat.le_of_lt_succ hr) h))

theorem piece_emb (r : Fin k1_t1_loop.trips) (x : S16.Idx) :
    (((Rect.unit (s := S96) (k1_off154 r) S16.size (k1_off154_inb r)).emb x) 0).val = 16 * r.val + (x 0).val := by
  rw [Rect.emb_apply]
  show k1_off154 r 0 + 1 * (x 0).val = 16 * r.val + (x 0).val
  rw [k1_off154_eq]
  simp

theorem piece_agrees (r : Fin k1_t1_loop.trips) (x : S16.Idx) :
    ScVal.planeVec (x3v d) (planeOf L r.val) (planeOf_lt L r.isLt) x
      = rowG x3v d L ((Rect.unit (s := S96) (k1_off154 r) S16.size (k1_off154_inb r)).emb x) := by
  have he := piece_emb r x
  have hx : (x 0).val < 16 := (x 0).isLt
  have hq : (16 * r.val + (x 0).val) / 16 = r.val := by omega
  have hm : (16 * r.val + (x 0).val) % 16 = (x 0).val := by omega
  unfold rowG
  have hp : planeOf L ((((Rect.unit (s := S96) (k1_off154 r) S16.size (k1_off154_inb r)).emb x) 0).val / 16) = planeOf L r.val := by
    rw [he, hq]
  rw [ScVal.planeVec_congr (x3v d) hp _ (planeOf_lt L r.isLt)]
  refine congrArg _ ?_
  refine (ValueIdx.eq_ix1 x).trans ?_
  refine congrArg ValueIdx.ix1 (Fin.ext ?_)
  show (x 0).val = (((Rect.unit (s := S96) (k1_off154 r) S16.size (k1_off154_inb r)).emb x) 0).val % 16
  rw [he, hm]

theorem row_cover (y : S96.Idx) : ∃ p ∈ pieces x3v d L 6, y ∈ p.1.set := by
  have hy : (y 0).val < 96 := (y 0).isLt
  have hr : (y 0).val / 16 < k1_t1_loop.trips := by show (y 0).val / 16 < 6; omega
  refine ⟨pieceOf x3v d L ⟨(y 0).val / 16, hr⟩, pieces_has x3v d L _ (le_refl 6) (by show (y 0).val / 16 < 6; omega), ?_⟩
  show y ∈ (Rect.unit (s := S96) (k1_off154 ⟨(y 0).val / 16, hr⟩) S16.size (k1_off154_inb _)).set
  rw [Rect.mem_set_unit]
  intro a
  have ha : a = 0 := Fin.ext (Nat.lt_one_iff.mp a.isLt)
  subst ha
  rw [k1_off154_eq]
  simp
  omega

/-- The lane-sum row after the six planes, read at any word, whatever it held at the start. -/
theorem row_read (fp : Buf (Elt F) ((prM).view.loc (V d (cV L) (jV L)))) (y : S96.Idx) :
    (prM).view.read (Elt F) ((prM).view.writes (Elt F) fp (pieces x3v d L 6)) y = rowG x3v d L y :=
  View.read_writes_apply_of_pieces (prM).view fp (rowG x3v d L) (pieces x3v d L 6)
    (fun p hp x => by
      obtain ⟨r, -, rfl⟩ := pieces_mem x3v d L (le_refl 6) p hp
      exact piece_agrees x3v d L r x)
    y (row_cover x3v d L y)

theorem out_emb (y : S96.Idx) : (((outK L).view.emb y) 0).val = 192 * (L 1).val + 96 * (L 0).val + (y 0).val := by
  show (((Rect.unit (s := S3072) (k1_off155 L) S96.size (k1_off155_inb L)).emb y) 0).val = _
  rw [Rect.emb_apply]
  show k1_off155 L 0 + 1 * (y 0).val = 192 * (L 1).val + 96 * (L 0).val + (y 0).val
  rw [k1_off155_eq]
  simp

/-- The 96 words the subcore's last copy writes are the partials array's values there. -/
theorem out_val (fo : Buf (Elt F) ((outK L).view.loc (V d (cV L) (jV L)))) (fp : Buf (Elt F) ((prM).view.loc (V d (cV L) (jV L)))) :
    ∀ i ∈ (outK L).view.set,
      (outK L).view.writes (Elt F) fo [(⟨Rect.whole S96, (prM).view.read (Elt F) ((prM).view.writes (Elt F) fp (pieces x3v d L 6))⟩ : View.Piece (Elt F) S96 .f32)] i
        = ScVal.scVal (x3v d) i := by
  intro i hi
  obtain ⟨y, -, rfl⟩ := Finset.mem_map.mp hi
  have hw : (Rect.whole S96).emb y = y := by
    funext a; apply Fin.ext; rw [Rect.emb_apply]
    show 0 + 1 * (y a).val = (y a).val
    omega
  have h1 := View.read_writes_cons_emb (outK L).view fo (Rect.whole S96)
    ((prM).view.read (Elt F) ((prM).view.writes (Elt F) fp (pieces x3v d L 6))) [] y
  rw [hw] at h1
  refine (h1 : _ = _).trans ?_
  rw [row_read]
  have he := out_emb L y
  have hy : (y 0).val < 96 := (y 0).isLt
  unfold rowG ScVal.scVal
  have hp : planeOf L ((y 0).val / 16) = 576 + (((outK L).view.emb y) 0).val / 16 := by
    rw [he]; unfold planeOf; omega
  rw [ScVal.planeVec_congr (x3v d) hp _ (ScVal.plane_lt _)]
  refine congrArg _ (congrArg ValueIdx.ix1 (Fin.ext ?_))
  show (y 0).val % 16 = (((outK L).view.emb y) 0).val % 16
  rw [he]; omega

/-- The whole task with its values named: the 96 words end at the partials array's values, a function of the plane array alone. -/
theorem tile_bodyV (hF : (K (F := F)).Facts) (O : CellTallies nD τ sig (HIx 1)) (W : Waits sig (HIx 1)) (hO : ∀ g, O g none = 0) :
    (iprop(levAts (K (F := F)).L (K (F := F)).lev ∗ emp
        ∗ ((x3Loc d ↦{qT L} x3v d) ∗ ∃ f, pLoc d ↦[outSet (wid (cL L) (sL L))]{fullShare} f)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc1__sc_pool_body L x3M (Memref.isWhole_whole _) oM (Memref.isWhole_whole _) b0M (Memref.isWhole_whole _) b1M (Memref.isWhole_whole _)
            b2M (Memref.isWhole_whole _) prM (Memref.isWhole_whole _) cc1_scratch4 cc1_scratch5 cc1_scratch6 cc1_scoped0)
          fun _ => iprop(((x3Loc d ↦{qT L} x3v d) ∗ pLoc d ↦[outSet (wid (cL L) (sL L))]{fullShare} ScVal.scVal (x3v d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__sc_pool_body_eq_skeleton]; unfold cc1__sc_pool_body_skel
  rw [(K (F := F)).scopedBufs_V hF d (cV L) (jV L), SparseCore.Cfg.scopedSems0_V (Val := Elt F) d (cV L) (jV L), ownSems0_V, ownBufs_V]
  iintro ⟨#Hlv, -, ⟨Hx, %fo, Ho⟩, ⟨⟨%f0, Hb0⟩, ⟨%f1, Hb1⟩, ⟨%f2, Hb2⟩, ⟨%fp, Hpr⟩, Hbufs⟩, ⟨Hs8, Hs9, Hs10, HsR, Hsems⟩, HO⟩
  ihave Hmw := ((K (F := F)).mayWaits_none (thr := (V d (cV L) (jV L))) hO) $$ Hlv
  ihave Hx := (toks_split (F := F) (qT L)).1 $$ Hx
  icases Hx with ⟨Hxr, Hx9, Hx10, Hx11⟩
  ihave Hx9 := (Entails.of_eq (pts_x3 (F := F) d L _ _).symm) $$ Hx9
  ihave Hx10 := (Entails.of_eq (pts_x3 (F := F) d L _ _).symm) $$ Hx10
  ihave Hx11 := (Entails.of_eq (pts_x3 (F := F) d L _ _).symm) $$ Hx11
  ihave Hb0 := (Entails.of_eq (pts_b0 (F := F) d L _).symm) $$ Hb0
  ihave Hb1 := (Entails.of_eq (pts_b1 (F := F) d L _).symm) $$ Hb1
  ihave Hb2 := (Entails.of_eq (pts_b2 (F := F) d L _).symm) $$ Hb2
  ihave Hpr := (Entails.of_eq (pts_pr (F := F) d L _).symm) $$ Hpr
  sl_exec
  have h06 : (0 : ℕ) < 6 := by decide
  ihave Hs8 := (flight_eq (F := F) d L (land0 x3v d _ (k1_off1_inb L) (planeOf_lt L h06) (by decide : 0 < 6) (off1_eq L))) $$ Hs8
  ihave Hs9 := (flight_eq (F := F) d L (land1 x3v d _ (k1_off2_inb L) (planeOf_lt L h06) (by decide : 1 < 6) (off2_eq L))) $$ Hs9
  sl_for (invV x3v d L fp O W) $$ [Hs8 Hx9 Hs9 Hx10 Hs10 Hb2 Hx11 Hpr HO]
  case region =>
    intro k u
    exact regionV x3v d L fp O W _ k
  · irw [invV_lt x3v d L fp O W h06]
    unfold inFlightV idle
    isplitr; · iexact Hmw
    isplitl [Hs8 Hx9 Hs9 Hx10]
    · isplitl [Hs8 Hx9]
      · iexists _
        isplitl [Hs8]; · iexact Hs8
        iexact Hx9
      · iexists _
        isplitl [Hs9]; · iexact Hs9
        iexact Hx10
    isplitl [Hs10 Hb2 Hx11]
    · isplitl [Hs10]; · iexact Hs10
      isplitl [Hb2]; · iexists _; iexact Hb2
      iexact Hx11
    isplitl [Hpr]; · iexact Hpr
    iexists W; isplitr
    · ipureintro; exact fun p hp => .inl hp
    · iexact HO
  iintro %u HI
  have h6 : ¬ k1_t1_loop.trips < 6 := by decide
  have ht : k1_t1_loop.trips = 6 := by decide
  ihave HI := (Entails.of_eq (invV_ge x3v d L fp O W (k := k1_t1_loop.trips) h6 u)) $$ HI
  unfold idle
  icases HI with ⟨-, ⟨⟨Hs8, ⟨%g0, Hb0⟩, Hx9⟩, ⟨Hs9, ⟨%g1, Hb1⟩, Hx10⟩⟩, ⟨Hs10, ⟨%g2, Hb2⟩, Hx11⟩, Hpr, %W', %hW', HO⟩
  ihave Hpr := (pts_eq (F := F) (congrArg (fun n => (prM).view.writes (Elt F) fp (pieces x3v d L n)) ht)) $$ Hpr
  ihave Ho := (Entails.of_eq (pts_out (F := F) d L _).symm) $$ Ho
  sl_exec
  sl_step
  ihave Ho := (Entails.of_eq (pointsTo_congr (out_val x3v d L _ fp))) $$ Ho
  ihave Hx9 := (Entails.of_eq (pts_x3 (F := F) d L _ _)) $$ Hx9
  ihave Hx10 := (Entails.of_eq (pts_x3 (F := F) d L _ _)) $$ Hx10
  ihave Hx11 := (Entails.of_eq (pts_x3 (F := F) d L _ _)) $$ Hx11
  isplitl [Hxr Hx9 Hx10 Hx11 Ho]
  · isplitl [Hxr Hx9 Hx10 Hx11]
    · iapply (toks_split (F := F) (qT L)).2
      isplitl [Hxr]; · iexact Hxr
      isplitl [Hx9]; · iexact Hx9
      isplitl [Hx10] <;> iassumption
    · iapply (Entails.of_eq (pts_out (F := F) d L _)); iexact Ho
  isplitl [Hb0 Hb1 Hb2 Hpr Hbufs]
  · isplitl [Hb0]; · iexists _; iexact Hb0
    isplitl [Hb1]; · iexists _; iexact Hb1
    isplitl [Hb2]; · iexists _; iexact Hb2
    isplitl [Hpr]; · iexists _; iexact Hpr
    iexact Hbufs
  isplitl [Hs8 Hs9 Hs10 HsR Hsems]
  · isplitl [Hs8]; · iexact Hs8
    isplitl [Hs9]; · iexact Hs9
    isplitl [Hs10]; · iexact Hs10
    isplitl [HsR]; · iexact HsR
    iexact Hsems
  iexists _; isplitr
  rotate_left
  · iexact HO
  · ipureintro; exact waits_ok hW'

end Tile

/-! ## The launch theorem's obligation -/

section Obligation

variable [FloatOps F]

/-- Every vector subcore's task at the one SparseCore call, with the partials array's final contents named. -/
theorem tileObl (hF : (K (F := F)).Facts) : (K (F := F)).TileObl (D (F := F)) 𝒱 (P x3v (fun d => ScVal.scVal (x3v d))) v₀ 0 := by
  intro d c i O W hO _ _
  simp only [show (P x3v (fun d => ScVal.scVal (x3v d))).ox = fun _ _ => 0 from rfl, add_zero]
  change _ ⊢ wp _ _ _ (Pipeline.liftProg (defs₀ (F := F) (.scVector ((K (F := F)).core 0 c) ((K (F := F)).sub 0 i)) 1 ⟨⟩)) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_bodyV x3v d (coordsV ⟨_, hc.1⟩ ⟨_, hc.2⟩) hF O W hO).trans (wp_mono frame _ _ fun _ => obl_post)

end Obligation

end Cert.Proof.KB.ScPoolV

end
-- ==== Proof.KB.Proj.lean ====
/-
  The projection kernel's body at the region's one point: from its four operands' staging buffers and the result's, it
  loads the operands whole, computes its one store and stores it over the whole of the result's buffer; nothing else
  is touched, and what the core owes the launch is carried along.
-/
import proofs.«215010_g72713796321855_cont_9to1c4b_299_31_alg».proof.Proof.KB.Regions
import proofs.«215010_g72713796321855_cont_9to1c4b_299_31_alg».proof.Proof.Gen.Kernel.Skeleton
import Idealize.ShloMosaic.Lib.Tactic
import Idealize.ShloMosaic.Lib.Pipeline.FrameBody
import Idealize.ShloMosaic.Lib.Pipeline.Value

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- A memref's buffer on the TensorCore held whole at contents f. -/
abbrev ptM (c : Dev nD) {sp : Space} {S : Shape} {e : EltTy} (M : Memref sig .tc sp S e) (f : Buf (Elt F) (M.view.loc (c.tc : Thread nD τ))) : sProp 𝕄 :=
  M.view.loc (c.tc : Thread nD τ) ↦{fullShare} f

/-- The projection body run from its five staging buffers held whole, the four operands' at f0 … f3, WITH what the
    result's buffer holds afterwards (over whatever it held before: all of it is overwritten). -/
def projCore (c : Dev nD) (M0 : Memref sig .tc .vmem S576x1 .f32) (h0 : M0.IsWhole) (M1 : Memref sig .tc .vmem S192x16 .f32) (h1 : M1.IsWhole)
    (M2 : Memref sig .tc .vmem S128x576 .f32) (h2 : M2.IsWhole) (M3 : Memref sig .tc .vmem S128x192 .f32) (h3 : M3.IsWhole)
    (M4 : Memref sig .tc .vmem S128x1 .f32) (h4 : M4.IsWhole)
    (f0 : Buf (Elt F) (M0.view.loc (c.tc : Thread nD τ))) (f1 : Buf (Elt F) (M1.view.loc (c.tc : Thread nD τ)))
    (f2 : Buf (Elt F) (M2.view.loc (c.tc : Thread nD τ))) (f3 : Buf (Elt F) (M3.view.loc (c.tc : Thread nD τ))) :
    { pay : Buf (Elt F) (M4.view.loc (c.tc : Thread nD τ)) //
      ∀ (f4 : Buf (Elt F) (M4.view.loc (c.tc : Thread nD τ))) (Q : PUnit → sProp 𝕄),
        iprop(ptM c M0 f0 ∗ ptM c M1 f1 ∗ ptM c M2 f2 ∗ ptM c M3 f3 ∗ ptM c M4 f4
            ∗ (iprop(ptM c M0 f0 ∗ ptM c M1 f1 ∗ ptM c M2 f2 ∗ ptM c M3 f3 ∗ ptM c M4 pay) -∗ Q ⟨⟩))
          ⊢ wp frame (wpE (defs₀ (F := F)) 𝒱₀ (c.tc : Thread nD τ) none) Set.univ (cc2__proj_body (F := F) M0 h0 M1 h1 M2 h2 M3 h3 M4 h4) Q } := by
  refine ⟨?_, fun f4 Q => ?run⟩
  case run =>
    iintro ⟨H0, H1, H2, H3, H4, Hk⟩
    simp only [cc2__proj_body_eq_skeleton]; unfold cc2__proj_body_skel
    sl_exec!
    sl_step
    iapply Hk
    isplitl [H0]; · iexact H0
    isplitl [H1]; · iexact H1
    isplitl [H2]; · iexact H2
    isplitl [H3]; · iexact H3
    iexact H4

/-- The zero offsets of a rank-two whole-array access, as the library's lemmas spell them. -/
theorem hz2 : (![0, 0] : Fin 2 → Nat) = fun _ => 0 := funext fun a => by fin_cases a <;> rfl

/-- From the pipeline's own staging buffers, what the run leaves in the result's is the body's store of the four
    operands' contents: every load reads a whole buffer, the store covers the whole buffer. -/
theorem projCore_val (c : Dev nD) (f0 : Buf (Elt F) ((Memref.whole cc2_stg0_0 : Memref sig .tc .vmem S576x1 .f32).view.loc (c.tc : Thread nD τ)))
    (f1 : Buf (Elt F) ((Memref.whole cc2_stg1_0 : Memref sig .tc .vmem S192x16 .f32).view.loc (c.tc : Thread nD τ)))
    (f2 : Buf (Elt F) ((Memref.whole cc2_stg2_0 : Memref sig .tc .vmem S128x576 .f32).view.loc (c.tc : Thread nD τ)))
    (f3 : Buf (Elt F) ((Memref.whole cc2_stg3_0 : Memref sig .tc .vmem S128x192 .f32).view.loc (c.tc : Thread nD τ))) :
    (projCore c (Memref.whole cc2_stg0_0) (Memref.isWhole_whole _) (Memref.whole cc2_stg1_0) (Memref.isWhole_whole _)
      (Memref.whole cc2_stg2_0) (Memref.isWhole_whole _) (Memref.whole cc2_stg3_0) (Memref.isWhole_whole _)
      (Memref.whole cc2_stg4_0) (Memref.isWhole_whole _) f0 f1 f2 f3).1 = k2_pay1 f0 f1 f2 f3 := by
  show (Memref.whole cc2_stg4_0 : Memref sig .tc .vmem S128x1 .f32).view.read (Elt F)
    ((Memref.whole cc2_stg4_0 : Memref sig .tc .vmem S128x1 .f32).view.writes (Elt F) _ _) = _
  unfold projCore.sl.H4_1
  rw [View.read_writes_junk_eq_canon, View.canon_unit_zero (S := S128x1) hz2]
  simp only [View.readAt_eq_ld, View.ld_unit_zero (S := S576x1) hz2, View.ld_unit_zero (S := S192x16) hz2,
    View.ld_unit_zero (S := S128x576) hz2, View.ld_unit_zero (S := S128x192) hz2, Memref.view_whole, View.read_whole]

/-! ## The body as the projection region takes it -/

variable (m : (ℓ : Loc nD τ sig) → Buf (Elt F) ℓ)
variable (tcVal : (d : Dev nD) → (cfg0.win 0).block.Idx → Elt F (cfg0.win 0).elt)
variable (pv : (d : Dev nD) → Buf (Elt F) (pLoc d))

/-- What the projection leaves in its result's staging buffer: its store of its four operands as staged, each the
    whole array the host laid out. -/
def projValDef (d : Dev nD) : (cfg2.win 4).block.Idx → Elt F (cfg2.win 4).elt :=
  k2_pay1 (((cfg2.win 0).blk t2_0).view.read (Elt F) (VB m tcVal pv d ((cfg2.win 0).arr.view.loc (d.tc : Thread nD τ)).2))
    (((cfg2.win 1).blk t2_0).view.read (Elt F) (VB m tcVal pv d ((cfg2.win 1).arr.view.loc (d.tc : Thread nD τ)).2))
    (((cfg2.win 2).blk t2_0).view.read (Elt F) (VB m tcVal pv d ((cfg2.win 2).arr.view.loc (d.tc : Thread nD τ)).2))
    (((cfg2.win 3).blk t2_0).view.read (Elt F) (VB m tcVal pv d ((cfg2.win 3).arr.view.loc (d.tc : Thread nD τ)).2))

theorem projValDef_eq (d : Dev nD) :
    projValDef m tcVal pv d = k2_pay1 ((dat2 m tcVal pv (projValDef m tcVal pv) d).after 0 t2_0)
      ((dat2 m tcVal pv (projValDef m tcVal pv) d).after 1 t2_0) ((dat2 m tcVal pv (projValDef m tcVal pv) d).after 2 t2_0)
      ((dat2 m tcVal pv (projValDef m tcVal pv) d).after 3 t2_0) := rfl

omit [FloatOps F] in
/-- A whole buffer held through its memref at contents X is its points-to at contents X. -/
theorem owns_whole_eq (c : Dev nD) (b : Ref sig .tc) (X : b.ty.Contents (Elt F)) :
    (owns (Ix := HIx 1) (Name := ℕ) (U := UU) (Lvl := ℕ) (c.tc : Thread nD τ) (Memref.whole b) fullShare X : sProp 𝕄)
      = iprop(∃ f : Buf (Elt F) ((c.tc : Thread nD τ).loc b), ⌜f = X⌝ ∗ (((c.tc : Thread nD τ).loc b) ↦{fullShare} f)) := by
  unfold owns; simp only [Memref.view_whole, View.read_whole, View.set_whole]

theorem projRun : ProjRun m tcVal pv (projValDef m tcVal pv) := by
  intro c O W _
  show iprop(Φ2 (F := F) c ∗ owes (SparseCore.T c) O W
      ∗ owns (c.tc : Thread nD τ) (Memref.whole cc2_stg0_0) fullShare ((dat2 m tcVal pv (projValDef m tcVal pv) c).after 0 t2_0)
      ∗ owns (c.tc : Thread nD τ) (Memref.whole cc2_stg1_0) fullShare ((dat2 m tcVal pv (projValDef m tcVal pv) c).after 1 t2_0)
      ∗ owns (c.tc : Thread nD τ) (Memref.whole cc2_stg2_0) fullShare ((dat2 m tcVal pv (projValDef m tcVal pv) c).after 2 t2_0)
      ∗ owns (c.tc : Thread nD τ) (Memref.whole cc2_stg3_0) fullShare ((dat2 m tcVal pv (projValDef m tcVal pv) c).after 3 t2_0)
      ∗ (∃ X, owns (c.tc : Thread nD τ) (Memref.whole cc2_stg4_0) fullShare X))
    ⊢ wp frame (wpE (defs₀ (F := F)) 𝒱₀ (c.tc : Thread nD τ) none) Set.univ (bodyAt2 (F := F) t2_0) fun _ =>
        iprop(Φ2 (F := F) c ∗ (∃ W', ⌜∀ p ∈ W', p ∈ W ∨ p.2 = none⌝ ∗ owes (SparseCore.T c) O W')
          ∗ owns (c.tc : Thread nD τ) (Memref.whole cc2_stg0_0) fullShare ((dat2 m tcVal pv (projValDef m tcVal pv) c).after 0 t2_0)
          ∗ owns (c.tc : Thread nD τ) (Memref.whole cc2_stg1_0) fullShare ((dat2 m tcVal pv (projValDef m tcVal pv) c).after 1 t2_0)
          ∗ owns (c.tc : Thread nD τ) (Memref.whole cc2_stg2_0) fullShare ((dat2 m tcVal pv (projValDef m tcVal pv) c).after 2 t2_0)
          ∗ owns (c.tc : Thread nD τ) (Memref.whole cc2_stg3_0) fullShare ((dat2 m tcVal pv (projValDef m tcVal pv) c).after 3 t2_0)
          ∗ owns (c.tc : Thread nD τ) (Memref.whole cc2_stg4_0) fullShare (projValDef m tcVal pv c))
  simp only [owns_whole_eq]
  iintro ⟨HΦ, HO, ⟨%f0, %hf0, H0⟩, ⟨%f1, %hf1, H1⟩, ⟨%f2, %hf2, H2⟩, ⟨%f3, %hf3, H3⟩, ⟨%X, %f4, %hf4, H4⟩⟩
  subst hf0 hf1 hf2 hf3
  iapply ((projCore c (Memref.whole cc2_stg0_0) (Memref.isWhole_whole _) (Memref.whole cc2_stg1_0) (Memref.isWhole_whole _)
    (Memref.whole cc2_stg2_0) (Memref.isWhole_whole _) (Memref.whole cc2_stg3_0) (Memref.isWhole_whole _)
    (Memref.whole cc2_stg4_0) (Memref.isWhole_whole _)
    ((dat2 m tcVal pv (projValDef m tcVal pv) c).after 0 t2_0) ((dat2 m tcVal pv (projValDef m tcVal pv) c).after 1 t2_0)
    ((dat2 m tcVal pv (projValDef m tcVal pv) c).after 2 t2_0) ((dat2 m tcVal pv (projValDef m tcVal pv) c).after 3 t2_0)).2 f4 _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [HO]
  · iexists W; isplitr
    · ipureintro; exact fun p hp => Or.inl hp
    · iexact HO
  isplitl [H0]
  · iexists _; isplitr; swap; (· iexact H0); ipureintro; rfl
  isplitl [H1]
  · iexists _; isplitr; swap; (· iexact H1); ipureintro; rfl
  isplitl [H2]
  · iexists _; isplitr; swap; (· iexact H2); ipureintro; rfl
  isplitl [H3]
  · iexists _; isplitr; swap; (· iexact H3); ipureintro; rfl
  iexists _; isplitr; swap; (· iexact H4)
  ipureintro
  exact (projCore_val c _ _ _ _).trans (projValDef_eq m tcVal pv c).symm

end Cert.Proof.KB

end
-- ==== Proof.Spec.lean ====
/-
  The result, as ONE function of the two argument arrays, and the rearrangements of finite sums that
  join the kernel's order of summation to it.

  With x : [8, 96, 384, 384] and W : [16, 96], the entry (b, e) of the result is
      ∑ c < 96, (∑ h < 384, ∑ w < 384, x[b, c, h, w]) · (1 / 147456) · W[e, c]
  (`G`): the mean of each of the 768 planes of x, then a product with the transpose of W.
  147456 = 384 · 384.

  Everything below is about sums on the extended reals. Addition there is commutative and
  associative, 0 · y = 0 and 1 · y = y for EVERY y (the infinities too), and the product is
  commutative; nothing else is used, so no entry has to be finite:
  * a sum over m + n indices cut at m (`sum_fin_add`), and a sum over m · n indices as a double sum
    (`sum_fin_mul`);
  * a product with the block-diagonal matrix δ(q, j / 96) · W[j % 96] over j < 768, cut at 576,
    is the product with W of block q alone (`blockdiag_sum`);
  * eight partial sums added as a balanced tree are their sum (`tree8`), and a plane's 384 × 384
    entries summed as 16 lanes of 8 residues of 3 vectors per row, rows in 6 chunks of 64, are the
    plane's sum (`plane_by_lanes`).
-/
import Idealize.ShloMosaic.PureOps.Ideal
import Idealize.ShloMosaic.Lib.ValueIdx

noncomputable section

open scoped BigOperators

namespace Cert.Proof.Spec

open Idealize.ShloMosaic Idealize.ShloMosaic.ValueIdx

abbrev S8x96x384x384 : Shape := ⟨4, ![8, 96, 384, 384]⟩
abbrev S16x96 : Shape := ⟨2, ![16, 96]⟩
abbrev S8x16 : Shape := ⟨2, ![8, 16]⟩

/-- The reciprocal of a plane's number of entries, 384 · 384 = 147456. -/
def inv : EReal := ((1 / 147456 : ℝ) : EReal)

/-- The sum of plane (b, c) of x. -/
def planeSum (x : S8x96x384x384.Idx → EReal) (b : Fin 8) (c : Fin 96) : EReal :=
  ∑ h : Fin 384, ∑ w : Fin 384, x (ix4 b c h w)

/-- Entry (b, e) of the result: the means of the planes of batch b against row e of W. -/
def Gat (x : S8x96x384x384.Idx → EReal) (W : S16x96.Idx → EReal) (b : Fin 8) (e : Fin 16) : EReal :=
  ∑ c : Fin 96, planeSum x b c * inv * W (ix2 e c)

/-- The result as a function of the two arrays. -/
def G (x : S8x96x384x384.Idx → EReal) (W : S16x96.Idx → EReal) : S8x16.Idx → EReal :=
  fun i => Gat x W (i 0) (i 1)

theorem G_ix2 (x : S8x96x384x384.Idx → EReal) (W : S16x96.Idx → EReal) (b : Fin 8) (e : Fin 16) :
    G x W (ix2 b e) = Gat x W b e := rfl

/-! ## Sums over a product of ranges, and over a range cut in two -/

section Sums
variable {M : Type*} [AddCommMonoid M]

/-- A sum over m · n indices is the double sum over quotient and remainder. -/
theorem sum_fin_mul (m n : ℕ) (g : ℕ → M) :
    ∑ j : Fin (m * n), g j.val = ∑ a : Fin m, ∑ b : Fin n, g (a.val * n + b.val) := by
  rw [← Equiv.sum_comp finProdFinEquiv, Fintype.sum_prod_type]
  refine Finset.sum_congr rfl fun a _ => Finset.sum_congr rfl fun b _ => congrArg g ?_
  show b.val + n * a.val = _
  rw [Nat.mul_comm, Nat.add_comm]

/-- A sum over m + n indices is the sum over the first m plus the sum over the last n. -/
theorem sum_fin_add (m n : ℕ) (g : ℕ → M) :
    ∑ j : Fin (m + n), g j.val = ∑ a : Fin m, g a.val + ∑ b : Fin n, g (m + b.val) := by
  rw [Fin.sum_univ_add]; rfl

end Sums

/-! ## The block-diagonal product -/

/-- A function on the 768 plane numbers as a function on the naturals, zero past them. -/
private def ext768 (F : Fin 768 → EReal) (j : ℕ) : EReal := if h : j < 768 then F ⟨j, h⟩ else 0

private theorem ext768_of_lt (F : Fin 768 → EReal) (j : ℕ) (h : j < 768) : ext768 F j = F ⟨j, h⟩ := dif_pos h

/-- A sum over the 768 plane numbers, taken as the first 576 and then the last 192, is the sum over batch b
    and channel c of plane b · 96 + c. -/
theorem sum_768 (F : Fin 768 → EReal) :
    (∑ k : Fin 576, F ⟨k.val, by have := k.isLt; omega⟩) + (∑ k : Fin 192, F ⟨576 + k.val, by have := k.isLt; omega⟩)
      = ∑ b : Fin 8, ∑ c : Fin 96, F ⟨b.val * 96 + c.val, by have := b.isLt; have := c.isLt; omega⟩ := by
  calc (∑ k : Fin 576, F ⟨k.val, by have := k.isLt; omega⟩) + (∑ k : Fin 192, F ⟨576 + k.val, by have := k.isLt; omega⟩)
      = (∑ k : Fin 576, ext768 F k.val) + (∑ k : Fin 192, ext768 F (576 + k.val)) := by
        congr 1 <;> exact Finset.sum_congr rfl fun k _ => (ext768_of_lt F _ _).symm
    _ = ∑ j : Fin (576 + 192), ext768 F j.val := (sum_fin_add 576 192 _).symm
    _ = ∑ b : Fin 8, ∑ c : Fin 96, ext768 F (b.val * 96 + c.val) := sum_fin_mul 8 96 _
    _ = _ := Finset.sum_congr rfl fun b _ => Finset.sum_congr rfl fun c _ => ext768_of_lt F _ _

/-- The product of row (q, ·) of the block-diagonal matrix δ(q, j / 96) · W[j % 96], j < 768, with a vector T over
    the 768 planes, taken as a product over the first 576 columns plus one over the last 192: only block q survives, and
    it is the product of W with T's block q. 0 · y = 0 for every extended real y, so nothing has to be finite. -/
theorem blockdiag_sum (q : Fin 8) (W : Fin 96 → EReal) (T : Fin 768 → EReal) :
    (∑ k : Fin 576, (if q.val = k.val / 96 then (1 : EReal) else 0) * W ⟨k.val % 96, Nat.mod_lt _ (by norm_num)⟩
        * T ⟨k.val, by have := k.isLt; omega⟩)
      + (∑ k : Fin 192, (if q.val = (576 + k.val) / 96 then (1 : EReal) else 0) * W ⟨(576 + k.val) % 96, Nat.mod_lt _ (by norm_num)⟩
        * T ⟨576 + k.val, by have := k.isLt; omega⟩)
      = ∑ c : Fin 96, T ⟨q.val * 96 + c.val, by have := q.isLt; have := c.isLt; omega⟩ * W c := by
  refine (sum_768 fun j => (if q.val = j.val / 96 then (1 : EReal) else 0) * W ⟨j.val % 96, Nat.mod_lt _ (by norm_num)⟩ * T j).trans ?_
  rw [Finset.sum_eq_single q]
  · refine Finset.sum_congr rfl fun c _ => ?_
    have hc := c.isLt
    have h1 : q.val = (q.val * 96 + c.val) / 96 := by omega
    have h2 : (⟨(q.val * 96 + c.val) % 96, Nat.mod_lt _ (by norm_num)⟩ : Fin 96) = c := Fin.ext (by show (q.val * 96 + c.val) % 96 = c.val; omega)
    simp only [if_pos h1, one_mul, h2]
    exact mul_comm _ _
  · intro b _ hb
    refine Finset.sum_eq_zero fun c _ => ?_
    have hc := c.isLt
    have h1 : ¬ q.val = (b.val * 96 + c.val) / 96 := by
      intro h; apply hb; apply Fin.ext; omega
    simp only [if_neg h1, zero_mul]
  · intro h; exact absurd (Finset.mem_univ q) h

/-! ## A plane summed by lanes -/

section Lanes
variable {M : Type*} [AddCommMonoid M]

/-- Eight terms added as a balanced tree are their sum. -/
theorem tree8 (a : Fin 8 → M) :
    ((a 0 + a 1) + (a 2 + a 3)) + ((a 4 + a 5) + (a 6 + a 7)) = ∑ i, a i := by
  rw [Fin.sum_univ_eight]; abel

/-- Three nested sums with the order of summation reversed. -/
theorem sum_comm3 {α β γ : Type*} [Fintype α] [Fintype β] [Fintype γ] (F : α → β → γ → M) :
    ∑ a, ∑ b, ∑ c, F a b c = ∑ c, ∑ b, ∑ a, F a b c :=
  calc ∑ a, ∑ b, ∑ c, F a b c = ∑ b, ∑ a, ∑ c, F a b c := Finset.sum_comm
    _ = ∑ b, ∑ c, ∑ a, F a b c := Finset.sum_congr rfl fun b _ => Finset.sum_comm
    _ = ∑ c, ∑ b, ∑ a, F a b c := Finset.sum_comm

/-- A row of 384 entries summed as 16 lanes l, each over the 24 vectors k = q · 8 + a of the row by residue a
    (the accumulator a vector is added to) and round q: entry k · 16 + l. -/
theorem row_by_lanes (g : ℕ → M) :
    ∑ w : Fin 384, g w.val = ∑ l : Fin 16, ∑ a : Fin 8, ∑ q : Fin 3, g ((q.val * 8 + a.val) * 16 + l.val) :=
  calc ∑ w : Fin 384, g w.val = ∑ k : Fin 24, ∑ l : Fin 16, g (k.val * 16 + l.val) := sum_fin_mul 24 16 g
    _ = ∑ q : Fin 3, ∑ a : Fin 8, ∑ l : Fin 16, g ((q.val * 8 + a.val) * 16 + l.val) :=
        sum_fin_mul 3 8 fun k => ∑ l : Fin 16, g (k * 16 + l.val)
    _ = _ := sum_comm3 _

/-- A plane's 384 × 384 entries summed lane by lane: for lane l and residue a, over the rows in 6 chunks of 64 and
    the 3 vectors of residue a in each row. -/
theorem plane_by_lanes (f : ℕ → ℕ → M) :
    ∑ h : Fin 384, ∑ w : Fin 384, f h.val w.val
      = ∑ l : Fin 16, ∑ a : Fin 8, ∑ ch : Fin 6, ∑ i : Fin 64, ∑ q : Fin 3,
          f (ch.val * 64 + i.val) ((q.val * 8 + a.val) * 16 + l.val) :=
  calc ∑ h : Fin 384, ∑ w : Fin 384, f h.val w.val
      = ∑ h : Fin 384, ∑ l : Fin 16, ∑ a : Fin 8, ∑ q : Fin 3, f h.val ((q.val * 8 + a.val) * 16 + l.val) :=
        Finset.sum_congr rfl fun h _ => row_by_lanes (f h.val)
    _ = ∑ l : Fin 16, ∑ h : Fin 384, ∑ a : Fin 8, ∑ q : Fin 3, f h.val ((q.val * 8 + a.val) * 16 + l.val) := Finset.sum_comm
    _ = ∑ l : Fin 16, ∑ a : Fin 8, ∑ h : Fin 384, ∑ q : Fin 3, f h.val ((q.val * 8 + a.val) * 16 + l.val) :=
        Finset.sum_congr rfl fun l _ => Finset.sum_comm
    _ = _ := Finset.sum_congr rfl fun l _ => Finset.sum_congr rfl fun a _ =>
        sum_fin_mul 6 64 fun h => ∑ q : Fin 3, f h ((q.val * 8 + a.val) * 16 + l.val)

end Lanes

end Cert.Proof.Spec

end
-- ==== Proof.RefValue.lean ====
/-
  The reference computes the specification's function: at entry (b, e) its result is
      ∑ c < 96, ((0 + ∑ h, ∑ w, x[b, c, h, w]) / 147456) · Wᵀ[c, e],
  the quotient by the real 147456 is the product with its reciprocal at every extended real, and the transpose
  reads W[e, c]. The sum over the two plane axes is a sum over the indices (b, c, h, w) that drop to (b, c); they are
  in bijection with the pairs (h, w).
-/
import proofs.«215010_g72713796321855_cont_9to1c4b_299_31_alg».proof.Proof.Gen.ReferenceIdeal.Read
import proofs.«215010_g72713796321855_cont_9to1c4b_299_31_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- The word 0x48100000 is the float 147456.0 = 2¹⁷ · 1.125, the real 147456. -/
theorem ofBits_147456 : Ideal.ofBits .f32 0x48100000#32 = ((147456 : ℝ) : EReal) := by
  simp [Ideal.ofBits, Ideal.ieee, -EReal.coe_mul]; norm_num

/-- The indices of x that drop to (b, c) when the two plane axes are removed are (b, c, h, w) for h, w < 384: a sum over
    them is the double sum over h and w. -/
theorem sum_filter_drop (h' : S8x96x384x384.ReducesTo [2, 3] S8x96) (x : S8x96x384x384.Idx → EReal) (b : Fin 8) (c : Fin 96) :
    ∑ i ∈ Finset.univ.filter (fun i => h'.drop i = ix2 b c), x i = ∑ h : Fin 384, ∑ w : Fin 384, x (ix4 b c h w) := by
  rw [← Finset.sum_product' Finset.univ Finset.univ fun h w => x (ix4 b c h w)]
  have back : ∀ i ∈ Finset.univ.filter (fun i => h'.drop i = ix2 b c), ix4 b c (i 2) (i 3) = i := fun i hi => by
    have hj := (Finset.mem_filter.1 hi).2
    funext a
    match a with
    | ⟨0, _⟩ => exact Fin.ext ((congrArg Fin.val (congrFun hj 0)).symm.trans (h'.drop_apply_val_of_eq i 0 0))
    | ⟨1, _⟩ => exact Fin.ext ((congrArg Fin.val (congrFun hj 1)).symm.trans (h'.drop_apply_val_of_eq i 1 1))
    | ⟨2, _⟩ => rfl
    | ⟨3, _⟩ => rfl
  refine Finset.sum_nbij' (fun i => (i 2, i 3)) (fun p => ix4 b c p.1 p.2) ?_ ?_ back ?_ ?_
  · intro i _; exact Finset.mem_product.2 ⟨Finset.mem_univ _, Finset.mem_univ _⟩
  · intro p _
    refine Finset.mem_filter.2 ⟨Finset.mem_univ _, funext fun a => ?_⟩
    match a with
    | ⟨0, _⟩ => exact Fin.ext (h'.drop_apply_val_of_eq (ix4 b c p.1 p.2) 0 0)
    | ⟨1, _⟩ => exact Fin.ext (h'.drop_apply_val_of_eq (ix4 b c p.1 p.2) 1 1)
  · intro p _; rfl
  · intro i hi; exact congrArg x (back i hi).symm

/-- The reference's sum over the plane axes at (b, c): zero plus the plane's sum. -/
theorem val_main_v0_apply (x0 : (⟨S8x96x384x384, .f32⟩ : BufTy).Contents (Elt Ideal)) (b : Fin 8) (c : Fin 96) :
    val_main_v0 (F := Ideal) x0 (ix2 b c) = Cert.Proof.Spec.planeSum x0 b c := by
  show Ideal.ofBits .f32 0x00000000#32 + ∑ i ∈ Finset.univ.filter (fun i => (reducesTo_S8x96x384x384_S8x96_d2_3).drop i = ix2 b c), x0 i = _
  rw [Ideal.ofBits_zero_f32, zero_add, sum_filter_drop]
  rfl

/-- The reference's result is the specification's function of its two arguments. -/
theorem ref_eq_G (x0 : (⟨S8x96x384x384, .f32⟩ : BufTy).Contents (Elt Ideal)) (x1 : (⟨S16x96, .f32⟩ : BufTy).Contents (Elt Ideal)) :
    val_main_v4 (F := Ideal) x0 x1 = Cert.Proof.Spec.G x0 x1 := by
  funext i
  obtain ⟨b, e, rfl⟩ : ∃ (b : Fin 8) (e : Fin 16), i = ix2 b e := ⟨i 0, i 1, eq_ix2 i⟩
  rw [val_main_v4_apply, Cert.Proof.Spec.G_ix2]
  unfold Cert.Proof.Spec.Gat
  refine Finset.sum_congr rfl fun k _ => ?_
  have el : lidx_main_v4 (ix2 b e) k = ix2 b k := funext fun a => Fin.ext (by match a with | ⟨0, _⟩ => rfl | ⟨1, _⟩ => rfl)
  have er : idx_main_v3 (ridx_main_v4 (ix2 b e) k) = ix2 e k := funext fun a => Fin.ext (by match a with | ⟨0, _⟩ => rfl | ⟨1, _⟩ => rfl)
  rw [val_main_v3_apply, val_main_v2_apply, val_main_v1_apply, val_main_cst_0_apply, el, er, val_main_v0_apply]
  show Ideal.div (Cert.Proof.Spec.planeSum x0 b k) (Ideal.ofBits .f32 0x48100000#32) * x1 (ix2 e k) = _
  rw [ofBits_147456, Ideal.div_coe (by norm_num : (147456 : ℝ) ≠ 0)]
  rfl

end Cert.ReferenceIdeal.RefValue

end
-- ==== Proof.KernelTerm.lean ====
/-
  The last stage of the idealized kernel as a pure function, for every float instance: from the TensorCore pool's 576
  plane sums s, the SparseCore pool's 3072 lane sums p and the weights W to the [8, 16] result.

  The host builds the 128 × 768 matrix M with M[b · 16 + e, b' · 96 + c] = δ(b, b') · W[e, c] (the 8 × 8 identity against
  W, the four axes (b, e, b', c) flattened two by two) and cuts it at column 576; the projection kernel multiplies the
  left part with s · (1/147456) and the right part with (each plane's 16 lane sums added) · (1/147456), adds the two
  products, and the host reads the 128 numbers as [8, 16].
-/
import proofs.«215010_g72713796321855_cont_9to1c4b_299_31_alg».proof.Proof.Gen.KernelIdeal.Skeleton

noncomputable section

namespace Cert.KernelIdeal.KTerm

open Cert.KernelIdeal Cert.KernelIdeal.Gen Idealize.ShloMosaic

variable {F : FTy → Type} [FloatOps F] [Named F]

/-- The 8 × 8 identity matrix, as the host makes it: row number = column number, as a float. -/
def eye8 : FVec F S8x8 .f32 :=
  uitofp .f32 (cmpi .eq (addi (iotaInDim S8x8 32 0) (broadcastInDim S8x8 ![] bcast_S_S8x8 (constantI S_ 32 0#32))) (iotaInDim S8x8 32 1))

/-- The identity against W over the axes (b, e, b', c). -/
def eyeW (W : FVec F S16x96 .f32) : FVec F S8x16x8x96 .f32 :=
  mulf (broadcastInDim S8x16x8x96 ![0, 1, 2, 3] bcast_S8x1x8x1_S8x16x8x96_0_1_2_3 (broadcastInDim S8x1x8x1 ![0, 2] bcast_S8x8_S8x1x8x1_0_2 (eye8 (F := F))))
    (broadcastInDim S8x16x8x96 ![0, 1, 2, 3] bcast_S1x16x1x96_S8x16x8x96_0_1_2_3 (broadcastInDim S1x16x1x96 ![1, 3] bcast_S16x96_S1x16x1x96_1_3 W))

/-- The block-diagonal matrix, 128 × 768. -/
def blockMat (W : FVec F S16x96 .f32) : FVec F S128x768 .f32 := shapeCast S128x768 (eyeW W) shapeCasts_S8x16x8x96_S128x768

/-- The result from the two pools' sums and the weights. -/
def result (s : FVec F S576x1x1 .f32) (p : FVec F S3072 .f32) (W : FVec F S16x96 .f32) : FVec F S8x16 .f32 :=
  shapeCast S8x16
    (k2_pay1 (shapeCast S576x1 s shapeCasts_S576x1x1_S576x1) (shapeCast S192x16 p shapeCasts_S3072_S192x16)
      (extractStridedSlice S128x576 ![0, 0] (blockMat W) slices_S128x768_S128x576_0_0)
      (extractStridedSlice S128x192 ![0, 576] (blockMat W) slices_S128x768_S128x192_0_576))
    shapeCasts_S128x1_S8x16

end Cert.KernelIdeal.KTerm

end
-- ==== Proof.HostValue.lean ====
/-
  What the host's operations between the calls leave, as pure terms of what they found: the planes are x read as
  [768, 384, 384]; the projection's four operands are the TensorCore pool's sums as a column, the SparseCore pool's as
  rows of sixteen lanes, and the two column blocks of the block-diagonal weight matrix; the result is the projection's
  column read as [8, 16].
-/
import proofs.«215010_g72713796321855_cont_9to1c4b_299_31_alg».proof.Proof.KI.Main
import proofs.«215010_g72713796321855_cont_9to1c4b_299_31_alg».proof.Proof.KernelTerm

noncomputable section

namespace Cert.Proof.KI

open Cert.KernelIdeal Cert.KernelIdeal.Gen Cert.KernelIdeal.KTerm
open Idealize.ShloMosaic Idealize.ShloMosaic.StableHlo
open Idealize.SL Idealize.SL.Sem

variable {F : FTy → Type} [FloatOps F] [Named F]

theorem opsA_v0 (V : Valuation τ sig (Elt F)) :
    after opsA V (Proc.devRef .tc main_v0)
      = shapeCast S768x384x384 (V (Proc.devRef .tc main_arg0)) shapeCasts_S8x96x384x384_S768x384x384 := by
  after_results; rfl

theorem opsB_v15 (V : Valuation τ sig (Elt F)) :
    after opsB V (Proc.devRef .tc main_v15) = shapeCast S576x1 (V (Proc.devRef .tc main_v1)) shapeCasts_S576x1x1_S576x1 := by
  after_results; rfl

theorem opsB_v16 (V : Valuation τ sig (Elt F)) :
    after opsB V (Proc.devRef .tc main_v16) = shapeCast S192x16 (V (Proc.devRef .tc main_v2)) shapeCasts_S3072_S192x16 := by
  after_results; rfl

theorem opsB_v17 (V : Valuation τ sig (Elt F)) :
    after opsB V (Proc.devRef .tc main_v17)
      = extractStridedSlice S128x576 ![0, 0] (blockMat (V (Proc.devRef .tc main_arg1))) slices_S128x768_S128x576_0_0 := by
  after_results; rfl

theorem opsB_v18 (V : Valuation τ sig (Elt F)) :
    after opsB V (Proc.devRef .tc main_v18)
      = extractStridedSlice S128x192 ![0, 576] (blockMat (V (Proc.devRef .tc main_arg1))) slices_S128x768_S128x192_0_576 := by
  after_results; rfl

theorem opsC_v20 (V : Valuation τ sig (Elt F)) :
    after opsC V (Proc.devRef .tc main_v20) = shapeCast S8x16 (V (Proc.devRef .tc main_v19)) shapeCasts_S128x1_S8x16 := by
  after_results; rfl

/-- The final array from what the projection stored, when its four operands are what the host laid out from a
    valuation V: the pure function of the two pools' sums and the weights. -/
theorem result_of_opsB (V : Valuation τ sig (Elt F)) :
    shapeCast S8x16 (k2_pay1 (after opsB V (Proc.devRef .tc main_v15)) (after opsB V (Proc.devRef .tc main_v16))
        (after opsB V (Proc.devRef .tc main_v17)) (after opsB V (Proc.devRef .tc main_v18))) shapeCasts_S128x1_S8x16
      = result (V (Proc.devRef .tc main_v1)) (V (Proc.devRef .tc main_v2)) (V (Proc.devRef .tc main_arg1)) := by
  rw [opsB_v15, opsB_v16, opsB_v17, opsB_v18]
  rfl

end Cert.Proof.KI

end
-- ==== Proof.KI.KVal.lean ====
/-
  The kernel's result array as the pure function of the two pools' sums and the weights: the valuations the entry
  program runs between, read through. A region with no grid writes its result's one block, the whole array, back at
  its one point, and stages each operand's one block, the whole array; the host's operations between are the
  specification of the last stage.
-/
import proofs.«215010_g72713796321855_cont_9to1c4b_299_31_alg».proof.Proof.KI.Regions
import proofs.«215010_g72713796321855_cont_9to1c4b_299_31_alg».proof.Proof.HostValue
import Idealize.ShloMosaic.Lib.Pipeline.Value

noncomputable section

namespace Cert.Proof.KI

open Cert.KernelIdeal Cert.KernelIdeal.Gen Cert.KernelIdeal.KTerm
open Idealize.ShloMosaic
open Idealize.ShloMosaic.SparseCore (S V T)
open Idealize.ShloMosaic.SparseCore.Cfg (HIx)
open Idealize.SL Idealize.SL.Sem
open Idealize.ShloMosaic.StableHlo (after)

variable {F : FTy → Type} [FloatOps F] [Named F]

variable (m : (ℓ : Loc nD τ sig) → Buf (Elt F) ℓ)
variable (tcVal : (d : Dev nD) → (cfg0.win 0).block.Idx → Elt F (cfg0.win 0).elt)
variable (pv : (d : Dev nD) → Buf (Elt F) (pLoc d))
variable (projVal : (d : Dev nD) → (cfg2.win 4).block.Idx → Elt F (cfg2.win 4).elt)

/-! ## A region with no grid: its result's block is the whole array, its operands' blocks the whole arrays -/

/-- The projection's result array after its one write-back: what the body left in the staging buffer. -/
theorem arrAt2_out (d : Dev nD) (i : S128x1.Idx) : (dat2 m tcVal pv projVal d).arrAt 4 cfg2.N i = projVal d i := by
  have hG : ∀ t, (cfg2.win 4).flush t = true → (dat2 m tcVal pv projVal d).flushed 4 t
      = ((cfg2.win 4).blk t).view.read (Elt F) (fun i => projVal d i) := by
    intro t _
    obtain rfl := fin_N2 t
    funext y
    show projVal d ((cfg2.win 4).xinj (cfg2.grid.coords t2_0) y) = projVal d (((cfg2.win 4).blk t2_0).view.emb y)
    refine congrArg (projVal d) (funext fun a => Fin.ext ?_)
    match a with
    | ⟨0, _⟩ => show (y 0).val = 0 * 128 + 1 * (y 0).val; omega
    | ⟨1, _⟩ => show (y 1).val = 0 * 1 + 1 * (y 1).val; omega
  have hc : ∀ j : ((cfg2.win 4).arr.view.loc (d.tc : Thread nD τ)).2.ty.Idx,
      ∃ t : Fin cfg2.N, (cfg2.win 4).flush t = true ∧ j ∈ ((cfg2.win 4).blk t).view.set := by
    intro j
    refine ⟨t2_0, flush2_4 t2_0, ?_⟩
    show j ∈ ((View.whole main_v19).slice (win2_4.rect t2_0)).set
    rw [View.set_slice_whole, Rect.mem_set_unit]
    intro a
    match a with
    | ⟨0, _⟩ => show 0 * 128 ≤ (j 0).val ∧ (j 0).val < 0 * 128 + 128; have h : (j 0).val < 128 := (j 0).isLt; omega
    | ⟨1, _⟩ => show 0 * 1 ≤ (j 1).val ∧ (j 1).val < 0 * 1 + 1; have h : (j 1).val < 1 := (j 1).isLt; omega
  exact congrFun ((dat2 m tcVal pv projVal d).arrAt_eq_of_cover 4 (fun i => projVal d i) hG hc) i

/-- The pool's result array after its one write-back: what the body left in the staging buffer. -/
theorem arrAt0_out (d : Dev nD) (i : S576x1x1.Idx) : (dat0 m tcVal d).arrAt 0 cfg0.N i = tcVal d i := by
  have hG : ∀ t, (cfg0.win 0).flush t = true → (dat0 m tcVal d).flushed 0 t
      = ((cfg0.win 0).blk t).view.read (Elt F) (fun i => tcVal d i) := by
    intro t _
    obtain rfl := fin_N0 t
    funext y
    show tcVal d ((cfg0.win 0).xinj (cfg0.grid.coords t0_0) y) = tcVal d (((cfg0.win 0).blk t0_0).view.emb y)
    refine congrArg (tcVal d) (funext fun a => Fin.ext ?_)
    match a with
    | ⟨0, _⟩ => show (y 0).val = 0 * 576 + 1 * (y 0).val; omega
    | ⟨1, _⟩ => show (y 1).val = 0 * 1 + 1 * (y 1).val; omega
    | ⟨2, _⟩ => show (y 2).val = 0 * 1 + 1 * (y 2).val; omega
  have hc : ∀ j : ((cfg0.win 0).arr.view.loc (d.tc : Thread nD τ)).2.ty.Idx,
      ∃ t : Fin cfg0.N, (cfg0.win 0).flush t = true ∧ j ∈ ((cfg0.win 0).blk t).view.set := by
    intro j
    refine ⟨t0_0, flush0_0 t0_0, ?_⟩
    show j ∈ ((View.whole main_v1).slice (win0_0.rect t0_0)).set
    rw [View.set_slice_whole, Rect.mem_set_unit]
    intro a
    match a with
    | ⟨0, _⟩ => show 0 * 576 ≤ (j 0).val ∧ (j 0).val < 0 * 576 + 576; have h : (j 0).val < 576 := (j 0).isLt; omega
    | ⟨1, _⟩ => show 0 * 1 ≤ (j 1).val ∧ (j 1).val < 0 * 1 + 1; have h : (j 1).val < 1 := (j 1).isLt; omega
    | ⟨2, _⟩ => show 0 * 1 ≤ (j 2).val ∧ (j 2).val < 0 * 1 + 1; have h : (j 2).val < 1 := (j 2).isLt; omega
  exact congrFun ((dat0 m tcVal d).arrAt_eq_of_cover 0 (fun i => tcVal d i) hG hc) i

/-- Each operand of the projection is staged whole. -/
theorem after2_0 (d : Dev nD) (y : S576x1.Idx) :
    (dat2 m tcVal pv projVal d).after 0 t2_0 y = VB m tcVal pv d (Proc.devRef .tc main_v15) y := by
  show VB m tcVal pv d (Proc.devRef .tc main_v15) (((cfg2.win 0).blk t2_0).view.emb y) = _
  refine congrArg (VB m tcVal pv d (Proc.devRef .tc main_v15)) (funext fun a => Fin.ext ?_)
  match a with
  | ⟨0, _⟩ => show 0 * 576 + 1 * (y 0).val = (y 0).val; omega
  | ⟨1, _⟩ => show 0 * 1 + 1 * (y 1).val = (y 1).val; omega
theorem after2_1 (d : Dev nD) (y : S192x16.Idx) :
    (dat2 m tcVal pv projVal d).after 1 t2_0 y = VB m tcVal pv d (Proc.devRef .tc main_v16) y := by
  show VB m tcVal pv d (Proc.devRef .tc main_v16) (((cfg2.win 1).blk t2_0).view.emb y) = _
  refine congrArg (VB m tcVal pv d (Proc.devRef .tc main_v16)) (funext fun a => Fin.ext ?_)
  match a with
  | ⟨0, _⟩ => show 0 * 192 + 1 * (y 0).val = (y 0).val; omega
  | ⟨1, _⟩ => show 0 * 16 + 1 * (y 1).val = (y 1).val; omega
theorem after2_2 (d : Dev nD) (y : S128x576.Idx) :
    (dat2 m tcVal pv projVal d).after 2 t2_0 y = VB m tcVal pv d (Proc.devRef .tc main_v17) y := by
  show VB m tcVal pv d (Proc.devRef .tc main_v17) (((cfg2.win 2).blk t2_0).view.emb y) = _
  refine congrArg (VB m tcVal pv d (Proc.devRef .tc main_v17)) (funext fun a => Fin.ext ?_)
  match a with
  | ⟨0, _⟩ => show 0 * 128 + 1 * (y 0).val = (y 0).val; omega
  | ⟨1, _⟩ => show 0 * 576 + 1 * (y 1).val = (y 1).val; omega
theorem after2_3 (d : Dev nD) (y : S128x192.Idx) :
    (dat2 m tcVal pv projVal d).after 3 t2_0 y = VB m tcVal pv d (Proc.devRef .tc main_v18) y := by
  show VB m tcVal pv d (Proc.devRef .tc main_v18) (((cfg2.win 3).blk t2_0).view.emb y) = _
  refine congrArg (VB m tcVal pv d (Proc.devRef .tc main_v18)) (funext fun a => Fin.ext ?_)
  match a with
  | ⟨0, _⟩ => show 0 * 128 + 1 * (y 0).val = (y 0).val; omega
  | ⟨1, _⟩ => show 0 * 192 + 1 * (y 1).val = (y 1).val; omega

/-! ## The valuation between the SparseCore call and the host's operations -/

theorem V2_v1 (d : Dev nD) : V2 m tcVal pv d v1' = fun i => tcVal d i := by
  unfold V2 V1
  rw [Function.update_of_ne (by decide), Function.update_self]
  exact funext (arrAt0_out m tcVal d)

theorem V2_v2 (d : Dev nD) : V2 m tcVal pv d v2' = pv d := by
  unfold V2; rw [Function.update_self]

theorem V2_arg1 (d : Dev nD) : V2 m tcVal pv d (Proc.devRef .tc main_arg1) = m (a1Loc d) := by
  unfold V2 V1
  rw [Function.update_of_ne (by decide), Function.update_of_ne (by decide)]
  show after opsA (V0 m d) (Proc.devRef .tc main_arg1) = _
  after_results

/-! ## The result -/

/-- THE KERNEL'S RESULT ARRAY is the pure function of the TensorCore pool's staged sums, the SparseCore pool's
    partials and the weights, once the projection's staged result is its store of its four staged operands. -/
theorem KV_eq (d : Dev nD)
    (hproj : projVal d = k2_pay1 ((dat2 m tcVal pv projVal d).after 0 t2_0) ((dat2 m tcVal pv projVal d).after 1 t2_0)
      ((dat2 m tcVal pv projVal d).after 2 t2_0) ((dat2 m tcVal pv projVal d).after 3 t2_0)) :
    KV m tcVal pv projVal d = result (F := F) (tcVal d) (pv d) (m (a1Loc d)) := by
  show after opsC (V3 m tcVal pv projVal d) v20' = _
  rw [opsC_v20]
  have h19 : V3 m tcVal pv projVal d (Proc.devRef .tc main_v19)
      = k2_pay1 (VB m tcVal pv d (Proc.devRef .tc main_v15)) (VB m tcVal pv d (Proc.devRef .tc main_v16))
          (VB m tcVal pv d (Proc.devRef .tc main_v17)) (VB m tcVal pv d (Proc.devRef .tc main_v18)) := by
    unfold V3
    rw [Function.update_self]
    refine (funext (arrAt2_out m tcVal pv projVal d)).trans ?_
    refine hproj.trans ?_
    rw [show (dat2 m tcVal pv projVal d).after 0 t2_0 = VB m tcVal pv d (Proc.devRef .tc main_v15) from funext (after2_0 m tcVal pv projVal d),
      show (dat2 m tcVal pv projVal d).after 1 t2_0 = VB m tcVal pv d (Proc.devRef .tc main_v16) from funext (after2_1 m tcVal pv projVal d),
      show (dat2 m tcVal pv projVal d).after 2 t2_0 = VB m tcVal pv d (Proc.devRef .tc main_v17) from funext (after2_2 m tcVal pv projVal d),
      show (dat2 m tcVal pv projVal d).after 3 t2_0 = VB m tcVal pv d (Proc.devRef .tc main_v18) from funext (after2_3 m tcVal pv projVal d)]
  rw [h19]
  refine (result_of_opsB (V2 m tcVal pv d)).trans ?_
  rw [V2_v1, V2_v2, V2_arg1]

end Cert.Proof.KI

end
-- ==== Proof.KernelValue.lean ====
/-
  The idealized kernel's last stage computes the specification's function.

  At the extended reals the projection kernel's store, at row r of its 128 × 1 result, is
      ∑ k < 576, M[r, k] · (s[k] · (1/147456))  +  ∑ k < 192, M[r, 576 + k] · ((∑ l < 16, p[k · 16 + l]) · (1/147456)),
  a product with a zero accumulator being the sum of the products and the named reciprocal being 1/147456. The host's
  matrix is M[b · 16 + e, j] = δ(b, j / 96) · W[e, j % 96]. So once s[k] is the sum of plane k and the sixteen lane sums
  p[k · 16 + ·] add up to the sum of plane 576 + k, entry (b, e) of the result is the block-diagonal product of the
  specification module: ∑ c, (the sum of plane b · 96 + c) · (1/147456) · W[e, c].
-/
import proofs.«215010_g72713796321855_cont_9to1c4b_299_31_alg».proof.Proof.KernelTerm
import proofs.«215010_g72713796321855_cont_9to1c4b_299_31_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.KValue

open Cert.KernelIdeal Cert.KernelIdeal.Gen Cert.KernelIdeal.KTerm Idealize.ShloMosaic Idealize.ShloMosaic.ValueIdx

/-- The kernel's named reciprocal is the rational 1/147456, by the certificate's table. -/
theorem inv_n : Named.named (F := Ideal) κ "inv_147456" (φ := .f32) 0x36E38E39#32 = Cert.Proof.Spec.inv :=
  IdealRules.named_const.ideal_named_scalar _ _ _ _ rfl

/-! ## The two matrix products at a row -/

theorem dot_S128x576_S576x1_S128x1_1_0_0_1_n_n_lhs0 (i : S128x1.Idx) (q : dot_S128x576_S576x1_S128x1_1_0_0_1_n_n.contr.Idx) : (dot_S128x576_S576x1_S128x1_1_0_0_1_n_n.lhsIdx i q 0).val = (i 0).val := by
  unfold DotDims.lhsIdx
  rw [dif_neg (show ¬(0 : Fin S128x576.rank) ∈ dot_S128x576_S576x1_S128x1_1_0_0_1_n_n.lhsBatch by decide), dif_pos (show (0 : Fin S128x576.rank) ∈ dot_S128x576_S576x1_S128x1_1_0_0_1_n_n.lhsNonContracting by decide)]
  rfl
theorem dot_S128x576_S576x1_S128x1_1_0_0_1_n_n_rhs1 (i : S128x1.Idx) (q : dot_S128x576_S576x1_S128x1_1_0_0_1_n_n.contr.Idx) : (dot_S128x576_S576x1_S128x1_1_0_0_1_n_n.rhsIdx i q 1).val = (i 1).val := by
  unfold DotDims.rhsIdx
  rw [dif_neg (show ¬(1 : Fin S576x1.rank) ∈ dot_S128x576_S576x1_S128x1_1_0_0_1_n_n.rhsBatch by decide), dif_pos (show (1 : Fin S576x1.rank) ∈ dot_S128x576_S576x1_S128x1_1_0_0_1_n_n.rhsNonContracting by decide)]
  rfl
/-- The product of a 128 × 576 matrix with a 576 × 1 column into a zero accumulator, at row r: the sum over the
    576 columns. -/
theorem dot_S128x576_S576x1_S128x1_1_0_0_1_n_n_apply (A : FVec Ideal S128x576 .f32) (v : FVec Ideal S576x1 .f32) (r : Fin 128) (z : Fin 1) :
    matmul dot_S128x576_S576x1_S128x1_1_0_0_1_n_n none A v (constant S128x1 .f32 0x00000000#32) (ix2 r z) = ∑ k : Fin 576, A (ix2 r k) * v (ix2 k z) := by
  refine (Ideal.matmul_constant_zero_apply _ none A v (ix2 r z)).trans ?_
  rw [← Equiv.sum_comp (contrEquiv1 dot_S128x576_S576x1_S128x1_1_0_0_1_n_n 576 rfl rfl).symm]
  refine Finset.sum_congr rfl fun k _ => ?_
  have hk := contrEquiv1_symm_val dot_S128x576_S576x1_S128x1_1_0_0_1_n_n 576 rfl rfl k
  have el : dot_S128x576_S576x1_S128x1_1_0_0_1_n_n.lhsIdx (ix2 r z) ((contrEquiv1 dot_S128x576_S576x1_S128x1_1_0_0_1_n_n 576 rfl rfl).symm k) = ix2 r k := funext fun a => Fin.ext (by
    match a with
    | ⟨0, _⟩ => exact dot_S128x576_S576x1_S128x1_1_0_0_1_n_n_lhs0 _ _
    | ⟨1, _⟩ => exact (dot_S128x576_S576x1_S128x1_1_0_0_1_n_n.lhsIdx_val_of_single rfl _ _).trans hk)
  have er : dot_S128x576_S576x1_S128x1_1_0_0_1_n_n.rhsIdx (ix2 r z) ((contrEquiv1 dot_S128x576_S576x1_S128x1_1_0_0_1_n_n 576 rfl rfl).symm k) = ix2 k z := funext fun a => Fin.ext (by
    match a with
    | ⟨0, _⟩ => exact (dot_S128x576_S576x1_S128x1_1_0_0_1_n_n.rhsIdx_val_of_single rfl _ _).trans hk
    | ⟨1, _⟩ => exact dot_S128x576_S576x1_S128x1_1_0_0_1_n_n_rhs1 _ _)
  rw [el, er]

theorem dot_S128x192_S192x1_S128x1_1_0_0_1_n_n_lhs0 (i : S128x1.Idx) (q : dot_S128x192_S192x1_S128x1_1_0_0_1_n_n.contr.Idx) : (dot_S128x192_S192x1_S128x1_1_0_0_1_n_n.lhsIdx i q 0).val = (i 0).val := by
  unfold DotDims.lhsIdx
  rw [dif_neg (show ¬(0 : Fin S128x192.rank) ∈ dot_S128x192_S192x1_S128x1_1_0_0_1_n_n.lhsBatch by decide), dif_pos (show (0 : Fin S128x192.rank) ∈ dot_S128x192_S192x1_S128x1_1_0_0_1_n_n.lhsNonContracting by decide)]
  rfl
theorem dot_S128x192_S192x1_S128x1_1_0_0_1_n_n_rhs1 (i : S128x1.Idx) (q : dot_S128x192_S192x1_S128x1_1_0_0_1_n_n.contr.Idx) : (dot_S128x192_S192x1_S128x1_1_0_0_1_n_n.rhsIdx i q 1).val = (i 1).val := by
  unfold DotDims.rhsIdx
  rw [dif_neg (show ¬(1 : Fin S192x1.rank) ∈ dot_S128x192_S192x1_S128x1_1_0_0_1_n_n.rhsBatch by decide), dif_pos (show (1 : Fin S192x1.rank) ∈ dot_S128x192_S192x1_S128x1_1_0_0_1_n_n.rhsNonContracting by decide)]
  rfl
/-- The product of a 128 × 192 matrix with a 192 × 1 column into a zero accumulator, at row r: the sum over the
    192 columns. -/
theorem dot_S128x192_S192x1_S128x1_1_0_0_1_n_n_apply (A : FVec Ideal S128x192 .f32) (v : FVec Ideal S192x1 .f32) (r : Fin 128) (z : Fin 1) :
    matmul dot_S128x192_S192x1_S128x1_1_0_0_1_n_n none A v (constant S128x1 .f32 0x00000000#32) (ix2 r z) = ∑ k : Fin 192, A (ix2 r k) * v (ix2 k z) := by
  refine (Ideal.matmul_constant_zero_apply _ none A v (ix2 r z)).trans ?_
  rw [← Equiv.sum_comp (contrEquiv1 dot_S128x192_S192x1_S128x1_1_0_0_1_n_n 192 rfl rfl).symm]
  refine Finset.sum_congr rfl fun k _ => ?_
  have hk := contrEquiv1_symm_val dot_S128x192_S192x1_S128x1_1_0_0_1_n_n 192 rfl rfl k
  have el : dot_S128x192_S192x1_S128x1_1_0_0_1_n_n.lhsIdx (ix2 r z) ((contrEquiv1 dot_S128x192_S192x1_S128x1_1_0_0_1_n_n 192 rfl rfl).symm k) = ix2 r k := funext fun a => Fin.ext (by
    match a with
    | ⟨0, _⟩ => exact dot_S128x192_S192x1_S128x1_1_0_0_1_n_n_lhs0 _ _
    | ⟨1, _⟩ => exact (dot_S128x192_S192x1_S128x1_1_0_0_1_n_n.lhsIdx_val_of_single rfl _ _).trans hk)
  have er : dot_S128x192_S192x1_S128x1_1_0_0_1_n_n.rhsIdx (ix2 r z) ((contrEquiv1 dot_S128x192_S192x1_S128x1_1_0_0_1_n_n 192 rfl rfl).symm k) = ix2 k z := funext fun a => Fin.ext (by
    match a with
    | ⟨0, _⟩ => exact (dot_S128x192_S192x1_S128x1_1_0_0_1_n_n.rhsIdx_val_of_single rfl _ _).trans hk
    | ⟨1, _⟩ => exact dot_S128x192_S192x1_S128x1_1_0_0_1_n_n_rhs1 _ _)
  rw [el, er]

/-! ## The projection kernel's store at a row -/

/-- The sixteen lanes of row k added, as a 192 × 1 column. -/
theorem laneSum_apply (v4 : FVec Ideal S192x16 .f32) (k : Fin 192) (z : Fin 1) :
    shapeCast S192x1 (multiReduction .add [1] S192 v4 0x00000000#32 reduces_S192x16_S192 (.inl rfl) rfl) shapeCasts_S192_S192x1 (ix2 k z)
      = ∑ l : Fin 16, v4 (ix2 k l) := by
  refine (shapeCast_apply _ shapeCasts_S192_S192x1 (ix2 k z) (ix1 k) (by
    have hz : z.val = 0 := by omega
    rw [Shape.rowMajor_val_two, Shape.rowMajor_val_one]
    show k.val = k.val * 1 + z.val
    omega)).trans ?_
  refine (Ideal.multiReduction_add_single v4 0x00000000#32 reduces_S192x16_S192 (.inl rfl) rfl (ix1 k)).trans ?_
  refine Finset.sum_congr rfl fun l _ => congrArg v4 (funext fun a => Fin.ext ?_)
  match a with
  | ⟨0, _⟩ => rfl
  | ⟨1, _⟩ => rfl

/-- The store of the projection kernel at row r. -/
theorem k2_pay1_apply (v0 : FVec Ideal S576x1 .f32) (v4 : FVec Ideal S192x16 .f32) (v10 : FVec Ideal S128x576 .f32)
    (v13 : FVec Ideal S128x192 .f32) (r : Fin 128) (z : Fin 1) :
    k2_pay1 (F := Ideal) v0 v4 v10 v13 (ix2 r z)
      = (∑ k : Fin 576, v10 (ix2 r k) * (v0 (ix2 k z) * Cert.Proof.Spec.inv))
        + ∑ k : Fin 192, v13 (ix2 r k) * ((∑ l : Fin 16, v4 (ix2 k l)) * Cert.Proof.Spec.inv) := by
  unfold k2_pay1
  simp only [shapeCast_self]
  rw [addf_apply, dot_S128x576_S576x1_S128x1_1_0_0_1_n_n_apply, dot_S128x192_S192x1_S128x1_1_0_0_1_n_n_apply]
  refine congrArg₂ (· + ·) (Finset.sum_congr rfl fun k _ => ?_) (Finset.sum_congr rfl fun k _ => ?_)
  · rw [mulf_apply, broadcast_apply, inv_n]
  · rw [mulf_apply, broadcast_apply, inv_n, laneSum_apply]

/-! ## The host's matrix at an index -/

/-- The identity matrix at (b, b'). -/
theorem eye8_apply (b b' : Fin 8) : eye8 (F := Ideal) (ix2 b b') = if b.val = b'.val then 1 else 0 := by
  have key : eye8 (F := Ideal) (ix2 b b')
      = (((IntOp.cmpi .eq (IntOp.addi (BitVec.ofNat 32 b.val) 0#32) (BitVec.ofNat 32 b'.val)).toNat : ℝ) : EReal) := rfl
  rw [key]
  have hb := b.isLt
  have hb' := b'.isLt
  by_cases h : b.val = b'.val
  · rw [if_pos h, h]
    simp [IntOp.cmpi, IntOp.addi]
  · rw [if_neg h]
    have hne : ¬ (BitVec.ofNat 32 b.val = BitVec.ofNat 32 b'.val) := by
      intro e
      have e' := congrArg BitVec.toNat e
      simp only [BitVec.toNat_ofNat] at e'
      omega
    simp [IntOp.cmpi, IntOp.addi, hne]

/-- The identity against W at (b, e, b', c). -/
theorem eyeW_apply (W : FVec Ideal S16x96 .f32) (b : Fin 8) (e : Fin 16) (b' : Fin 8) (c : Fin 96) :
    eyeW W (ix4 b e b' c) = (if b.val = b'.val then 1 else 0) * W (ix2 e c) := by
  unfold eyeW
  rw [mulf_apply]
  refine congrArg₂ (· * ·) ?_ ?_
  · refine (broadcastInDim_apply _ bcast_S8x1x8x1_S8x16x8x96_0_1_2_3 _ (ix4 b e b' c) (ix4 b (0 : Fin 1) b' (0 : Fin 1)) (fun a => by
      match a with
      | ⟨0, _⟩ => rfl
      | ⟨1, _⟩ => rfl
      | ⟨2, _⟩ => rfl
      | ⟨3, _⟩ => rfl)).trans ?_
    refine (broadcastInDim_apply _ bcast_S8x8_S8x1x8x1_0_2 _ (ix4 b (0 : Fin 1) b' (0 : Fin 1)) (ix2 b b') (fun a => by
      match a with
      | ⟨0, _⟩ => rfl
      | ⟨1, _⟩ => rfl)).trans ?_
    exact eye8_apply b b'
  · refine (broadcastInDim_apply _ bcast_S1x16x1x96_S8x16x8x96_0_1_2_3 _ (ix4 b e b' c) (ix4 (0 : Fin 1) e (0 : Fin 1) c) (fun a => by
      match a with
      | ⟨0, _⟩ => rfl
      | ⟨1, _⟩ => rfl
      | ⟨2, _⟩ => rfl
      | ⟨3, _⟩ => rfl)).trans ?_
    exact broadcastInDim_apply _ bcast_S16x96_S1x16x1x96_1_3 _ (ix4 (0 : Fin 1) e (0 : Fin 1) c) (ix2 e c) (fun a => by
      match a with
      | ⟨0, _⟩ => rfl
      | ⟨1, _⟩ => rfl)

/-- The matrix at row b · 16 + e and column j: δ(b, j / 96) · W[e, j % 96]. -/
theorem blockMat_apply (W : FVec Ideal S16x96 .f32) (b : Fin 8) (e : Fin 16) (j : Fin 768) :
    blockMat W (ix2 (⟨b.val * 16 + e.val, by have := b.isLt; have := e.isLt; omega⟩ : Fin 128) j)
      = (if b.val = j.val / 96 then 1 else 0) * W (ix2 e (⟨j.val % 96, Nat.mod_lt _ (by norm_num)⟩ : Fin 96)) := by
  unfold blockMat
  have hj := j.isLt
  refine (shapeCast_apply _ shapeCasts_S8x16x8x96_S128x768 _
    (ix4 b e (⟨j.val / 96, by omega⟩ : Fin 8) (⟨j.val % 96, Nat.mod_lt _ (by norm_num)⟩ : Fin 96)) (by
      rw [Shape.rowMajor_val_four, Shape.rowMajor_val_two]
      show ((b.val * 16 + e.val) * 8 + j.val / 96) * 96 + j.val % 96 = (b.val * 16 + e.val) * 768 + j.val
      omega)).trans ?_
  exact eyeW_apply W b e _ _

/-- The left cut of the matrix: its first 576 columns. -/
theorem matLeft_apply (W : FVec Ideal S16x96 .f32) (r : Fin 128) (k : Fin 576) :
    extractStridedSlice S128x576 ![0, 0] (blockMat W) slices_S128x768_S128x576_0_0 (ix2 r k)
      = blockMat W (ix2 r (⟨k.val, by have := k.isLt; omega⟩ : Fin 768)) :=
  extractStridedSlice_apply _ _ slices_S128x768_S128x576_0_0 _ _ fun a => by
    match a with
    | ⟨0, _⟩ => show r.val = 0 + r.val; omega
    | ⟨1, _⟩ => show k.val = 0 + k.val; omega

/-- The right cut: its last 192 columns. -/
theorem matRight_apply (W : FVec Ideal S16x96 .f32) (r : Fin 128) (k : Fin 192) :
    extractStridedSlice S128x192 ![0, 576] (blockMat W) slices_S128x768_S128x192_0_576 (ix2 r k)
      = blockMat W (ix2 r (⟨576 + k.val, by have := k.isLt; omega⟩ : Fin 768)) :=
  extractStridedSlice_apply _ _ slices_S128x768_S128x192_0_576 _ _ fun a => by
    match a with
    | ⟨0, _⟩ => show r.val = 0 + r.val; omega
    | ⟨1, _⟩ => show 576 + k.val = 576 + k.val; rfl

/-! ## The result -/

/-- The sum of plane j of the 768 planes. -/
def planeSum3 (x3 : FVec Ideal S768x384x384 .f32) (j : Fin 768) : EReal := ∑ h : Fin 384, ∑ w : Fin 384, x3 (ix3 j h w)

/-- Plane b · 96 + c of x read as 768 planes is plane (b, c) of x. -/
theorem planeSum3_reshape (x : FVec Ideal S8x96x384x384 .f32) (b : Fin 8) (c : Fin 96) :
    planeSum3 (shapeCast S768x384x384 x shapeCasts_S8x96x384x384_S768x384x384)
        (⟨b.val * 96 + c.val, by have := b.isLt; have := c.isLt; omega⟩ : Fin 768)
      = Cert.Proof.Spec.planeSum x b c := by
  unfold planeSum3 Cert.Proof.Spec.planeSum
  refine Finset.sum_congr rfl fun h _ => Finset.sum_congr rfl fun w _ => ?_
  exact shapeCast_apply _ shapeCasts_S8x96x384x384_S768x384x384 _ (ix4 b c h w) (by
    rw [Shape.rowMajor_val_four, Shape.rowMajor_val_three]
    rfl)

/-- Entry (b, e) of the result from the two pools' sums: the two products with the cut matrix, spelt out. -/
theorem result_apply (s : FVec Ideal S576x1x1 .f32) (p : FVec Ideal S3072 .f32) (W : FVec Ideal S16x96 .f32) (b : Fin 8) (e : Fin 16) :
    result (F := Ideal) s p W (ix2 b e)
      = (∑ k : Fin 576, (if b.val = k.val / 96 then (1 : EReal) else 0) * W (ix2 e (⟨k.val % 96, Nat.mod_lt _ (by norm_num)⟩ : Fin 96))
            * (s (ix3 k (0 : Fin 1) (0 : Fin 1)) * Cert.Proof.Spec.inv))
        + ∑ k : Fin 192, (if b.val = (576 + k.val) / 96 then (1 : EReal) else 0)
            * W (ix2 e (⟨(576 + k.val) % 96, Nat.mod_lt _ (by norm_num)⟩ : Fin 96))
            * ((∑ l : Fin 16, p (ix1 (⟨k.val * 16 + l.val, by have := k.isLt; have := l.isLt; omega⟩ : Fin 3072))) * Cert.Proof.Spec.inv) := by
  unfold result
  refine (shapeCast_apply _ shapeCasts_S128x1_S8x16 (ix2 b e)
    (ix2 (⟨b.val * 16 + e.val, by have := b.isLt; have := e.isLt; omega⟩ : Fin 128) (0 : Fin 1)) (by
      rw [Shape.rowMajor_val_two, Shape.rowMajor_val_two]
      show (b.val * 16 + e.val) * 1 + 0 = b.val * 16 + e.val
      omega)).trans ?_
  rw [k2_pay1_apply]
  refine congrArg₂ (· + ·) (Finset.sum_congr rfl fun k _ => ?_) (Finset.sum_congr rfl fun k _ => ?_)
  · rw [matLeft_apply, blockMat_apply]
    refine congrArg (_ * ·) (congrArg (· * _) ?_)
    exact shapeCast_apply _ shapeCasts_S576x1x1_S576x1 (ix2 k (0 : Fin 1)) (ix3 k (0 : Fin 1) (0 : Fin 1)) (by
      rw [Shape.rowMajor_val_three, Shape.rowMajor_val_two]
      show (k.val * 1 + 0) * 1 + 0 = k.val * 1 + 0
      omega)
  · rw [matRight_apply, blockMat_apply]
    refine congrArg (_ * ·) (congrArg (· * _) (Finset.sum_congr rfl fun l _ => ?_))
    exact shapeCast_apply _ shapeCasts_S3072_S192x16 (ix2 k l) (ix1 _) (by
      rw [Shape.rowMajor_val_one, Shape.rowMajor_val_two]
      rfl)

/-- THE KERNEL'S RESULT IS THE SPECIFICATION'S FUNCTION, once the TensorCore pool's word k is the sum of plane k < 576
    and the SparseCore pool's sixteen words k · 16 + l add up to the sum of plane 576 + k, the planes being x read as
    768 of them. -/
theorem result_eq_G (x : FVec Ideal S8x96x384x384 .f32) (W : FVec Ideal S16x96 .f32) (s : FVec Ideal S576x1x1 .f32)
    (p : FVec Ideal S3072 .f32)
    (hs : ∀ k : Fin 576, s (ix3 k (0 : Fin 1) (0 : Fin 1))
      = planeSum3 (shapeCast S768x384x384 x shapeCasts_S8x96x384x384_S768x384x384) (⟨k.val, by have := k.isLt; omega⟩ : Fin 768))
    (hp : ∀ k : Fin 192, ∑ l : Fin 16, p (ix1 (⟨k.val * 16 + l.val, by have := k.isLt; have := l.isLt; omega⟩ : Fin 3072))
      = planeSum3 (shapeCast S768x384x384 x shapeCasts_S8x96x384x384_S768x384x384) (⟨576 + k.val, by have := k.isLt; omega⟩ : Fin 768)) :
    result (F := Ideal) s p W = Cert.Proof.Spec.G x W := by
  funext i
  obtain ⟨b, e, rfl⟩ : ∃ (b : Fin 8) (e : Fin 16), i = ix2 b e := ⟨i 0, i 1, eq_ix2 i⟩
  rw [result_apply, Cert.Proof.Spec.G_ix2]
  simp only [hs, hp]
  refine (Cert.Proof.Spec.blockdiag_sum b (fun c => W (ix2 e c))
    (fun j => planeSum3 (shapeCast S768x384x384 x shapeCasts_S8x96x384x384_S768x384x384) j * Cert.Proof.Spec.inv)).trans ?_
  unfold Cert.Proof.Spec.Gat
  refine Finset.sum_congr rfl fun c _ => ?_
  rw [planeSum3_reshape]

end Cert.KernelIdeal.KValue

end
-- ==== Proof.Bridge.lean ====
/-
  The kernel's result array, at the extended reals, is the specification's function of the two arguments: the last
  stage as a pure function of the pools' sums (the valuations read through), the block-diagonal product, and the planes
  being x read as 768 of them.
-/
import proofs.«215010_g72713796321855_cont_9to1c4b_299_31_alg».proof.Proof.KI.KVal
import proofs.«215010_g72713796321855_cont_9to1c4b_299_31_alg».proof.Proof.KernelValue

noncomputable section

open scoped BigOperators

namespace Cert.Proof.KI

open Cert.KernelIdeal Cert.KernelIdeal.Gen Cert.KernelIdeal.KTerm Cert.KernelIdeal.KValue
open Idealize.ShloMosaic Idealize.ShloMosaic.ValueIdx
open Idealize.ShloMosaic.SparseCore (S V T)
open Idealize.SL Idealize.SL.Sem

variable (m : (ℓ : Loc nD τ sig) → Buf (Elt Ideal) ℓ)
variable (tcVal : (d : Dev nD) → FVec Ideal S576x1x1 .f32)
variable (pv : (d : Dev nD) → FVec Ideal S3072 .f32)
variable (projVal : (d : Dev nD) → (cfg2.win 4).block.Idx → Elt Ideal (cfg2.win 4).elt)

/-- The planes the two pools read are the first argument read as 768 planes. -/
theorem x3v_eq {F : FTy → Type} [FloatOps F] [Named F] (m : (ℓ : Loc nD τ sig) → Buf (Elt F) ℓ) (d : Dev nD) :
    x3v m d = shapeCast S768x384x384 (m (a0Loc d)) shapeCasts_S8x96x384x384_S768x384x384 :=
  opsA_v0 (V0 m d)

/-- THE KERNEL'S RESULT IS THE SPECIFICATION'S FUNCTION of its arguments, once the projection's staged result is its
    store of its staged operands, the TensorCore pool's staged word k is the sum of plane k < 576, and the SparseCore
    pool's sixteen words k · 16 + l add up to the sum of plane 576 + k. -/
theorem KV_eq_G (d : Dev nD)
    (hproj : projVal d = k2_pay1 ((dat2 m tcVal pv projVal d).after 0 t2_0) ((dat2 m tcVal pv projVal d).after 1 t2_0)
      ((dat2 m tcVal pv projVal d).after 2 t2_0) ((dat2 m tcVal pv projVal d).after 3 t2_0))
    (hs : ∀ k : Fin 576, tcVal d (ix3 k (0 : Fin 1) (0 : Fin 1)) = planeSum3 (x3v m d) (⟨k.val, by have := k.isLt; omega⟩ : Fin 768))
    (hp : ∀ k : Fin 192, ∑ l : Fin 16, pv d (ix1 (⟨k.val * 16 + l.val, by have := k.isLt; have := l.isLt; omega⟩ : Fin 3072))
      = planeSum3 (x3v m d) (⟨576 + k.val, by have := k.isLt; omega⟩ : Fin 768)) :
    KV m tcVal pv projVal d = Cert.Proof.Spec.G (m (a0Loc d)) (m (a1Loc d)) := by
  rw [KV_eq m tcVal pv projVal d hproj]
  rw [x3v_eq] at hs hp
  exact result_eq_G (m (a0Loc d)) (m (a1Loc d)) (tcVal d) (pv d) hs hp

end Cert.Proof.KI

end
-- ==== Proof.Algebraic.lean ====
/-
  The two idealized programs end with equal results: the kernel's result array is the specification's function of its
  arguments (the bridge), the reference's is too, and the arguments agree.
-/
import proofs.«215010_g72713796321855_cont_9to1c4b_299_31_alg».proof.Defs
import proofs.«215010_g72713796321855_cont_9to1c4b_299_31_alg».proof.Proof.Gen.Pre_finite_inputs
import proofs.«215010_g72713796321855_cont_9to1c4b_299_31_alg».proof.Proof.Gen.ReferenceIdeal.Run
import proofs.«215010_g72713796321855_cont_9to1c4b_299_31_alg».proof.Proof.RefValue
import proofs.«215010_g72713796321855_cont_9to1c4b_299_31_alg».proof.Proof.Bridge

noncomputable section

open scoped BigOperators

namespace Cert.Proof

open Idealize.ShloMosaic Idealize.ShloMosaic.ValueIdx Idealize.SL.Sem
open Cert.KernelIdeal Cert.KernelIdeal.Gen Cert.KernelIdeal.KValue

/-- From the kernel's run, stated with its result array named through the valuations and with what the three kernels
    leave (the projection's store of its staged operands; each plane's sum from the TensorCore pool; sixteen lanes that
    add up to each plane's sum from the SparseCore pool), to the claim that the two idealized programs agree. -/
theorem algebraic_of_run
    (hrun : ∀ (m : (ℓ : Loc nD τ sig) → Buf (Elt Ideal) ℓ) (g : Dev nD → PrngReg),
      ∃ (tcVal : (d : Dev nD) → FVec Ideal S576x1x1 .f32) (pv : (d : Dev nD) → FVec Ideal S3072 .f32)
        (projVal : (d : Dev nD) → (cfg2.win 4).block.Idx → Elt Ideal (cfg2.win 4).elt),
        (∀ d, projVal d = k2_pay1 ((KI.dat2 m tcVal pv projVal d).after 0 t2_0) ((KI.dat2 m tcVal pv projVal d).after 1 t2_0)
          ((KI.dat2 m tcVal pv projVal d).after 2 t2_0) ((KI.dat2 m tcVal pv projVal d).after 3 t2_0))
        ∧ (∀ d (k : Fin 576), tcVal d (ix3 k (0 : Fin 1) (0 : Fin 1))
            = planeSum3 (KI.x3v m d) (⟨k.val, by have := k.isLt; omega⟩ : Fin 768))
        ∧ (∀ d (k : Fin 192), ∑ l : Fin 16, pv d (ix1 (⟨k.val * 16 + l.val, by have := k.isLt; have := l.isLt; omega⟩ : Fin 3072))
            = planeSum3 (KI.x3v m d) (⟨576 + k.val, by have := k.isLt; omega⟩ : Fin 768))
        ∧ θ_run (Cert.KernelIdeal.defs (F := Ideal)) (Cert.KernelIdeal.threads (F := Ideal)) ⟨m, fun _ => 0, g⟩
            (KI.QC m (KI.KV m tcVal pv projVal))) :
    Cert.algebraic_KernelIdeal_ReferenceIdeal := by
  intro m g m' g' _ hagree
  obtain ⟨tcVal, pv, projVal, hproj, hs, hp, hr⟩ := hrun m g
  refine ⟨fun c => Cert.Proof.Spec.G (m (KI.a0Loc c)) (m (KI.a1Loc c)), ?_, ?_⟩
  · exact (θ_run _ _ _).mono (fun r h c =>
      ⟨(h c).1.trans (KI.KV_eq_G m tcVal pv projVal c (hproj c) (hs c) (hp c)), (h c).2⟩) hr
  · refine (θ_run Cert.ReferenceIdeal.defs _ _).mono (fun _ h c => ⟨(h c).1.trans ?_, (h c).2⟩)
      (Cert.ReferenceIdeal.Value.run (F := Ideal) m' g')
    rw [Cert.ReferenceIdeal.Read.val_main_v4_eq, Cert.ReferenceIdeal.RefValue.ref_eq_G, (hagree c).1, (hagree c).2]

end Cert.Proof

end
-- ==== Proof.PoolPay.lean ====
/-
  The TensorCore pool's store at an index: a slab of 8 planes, read as [1, 8, 384, 384], summed over its two plane axes
  and kept as [8, 1, 1], holds at (q, 0, 0) the sum of the slab's plane q. The sum over the two axes is a sum over the
  indices (q, h, w) that drop to q, which are in bijection with the pairs (h, w).
-/
import proofs.«215010_g72713796321855_cont_9to1c4b_299_31_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.PoolPay

open Cert.KernelIdeal Cert.KernelIdeal.Gen Idealize.ShloMosaic Idealize.ShloMosaic.ValueIdx

/-- The indices of a slab that drop to q when the two plane axes are removed are (q, h, w) for h, w < 384. -/
theorem sum_filter_drop (h' : S8x384x384.Reduces [1, 2] S8) (v : S8x384x384.Idx → EReal) (q : Fin 8) :
    ∑ i ∈ Finset.univ.filter (fun i => h'.drop i = ix1 q), v i = ∑ h : Fin 384, ∑ w : Fin 384, v (ix3 q h w) := by
  rw [← Finset.sum_product' Finset.univ Finset.univ fun h w => v (ix3 q h w)]
  have back : ∀ i ∈ Finset.univ.filter (fun i => h'.drop i = ix1 q), ix3 q (i 1) (i 2) = i := fun i hi => by
    have hj := (Finset.mem_filter.1 hi).2
    funext a
    match a with
    | ⟨0, _⟩ => exact Fin.ext ((congrArg Fin.val (congrFun hj 0)).symm.trans (h'.drop_apply_val_of_eq i 0 0))
    | ⟨1, _⟩ => rfl
    | ⟨2, _⟩ => rfl
  refine Finset.sum_nbij' (fun i => (i 1, i 2)) (fun p => ix3 q p.1 p.2) ?_ ?_ back ?_ ?_
  · intro i _; exact Finset.mem_product.2 ⟨Finset.mem_univ _, Finset.mem_univ _⟩
  · intro p _
    refine Finset.mem_filter.2 ⟨Finset.mem_univ _, funext fun a => ?_⟩
    match a with
    | ⟨0, _⟩ => exact Fin.ext (h'.drop_apply_val_of_eq (ix3 q p.1 p.2) 0 0)
  · intro p _; rfl
  · intro i hi; exact congrArg v (back i hi).symm

/-- A slab's plane sums, kept as [8, 1, 1], at (q, 0, 0). -/
theorem slabSum_apply (v : FVec Ideal S1x8x384x384 .f32) (q : Fin 8) (z z' : Fin 1) :
    shapeCast S8x1x1 (multiReduction .add [1, 2] S8 (shapeCast S8x384x384 v shapeCasts_S1x8x384x384_S8x384x384) 0x00000000#32
        reduces_S8x384x384_S8 (.inl rfl) rfl) shapeCasts_S8_S8x1x1 (ix3 q z z')
      = ∑ h : Fin 384, ∑ w : Fin 384, v (ix4 (0 : Fin 1) q h w) := by
  refine (shapeCast_apply _ shapeCasts_S8_S8x1x1 (ix3 q z z') (ix1 q) (by
    have hz : z.val = 0 := by omega
    have hz' : z'.val = 0 := by omega
    rw [Shape.rowMajor_val_three, Shape.rowMajor_val_one]
    show q.val = (q.val * 1 + z.val) * 1 + z'.val
    omega)).trans ?_
  show ∑ i ∈ Finset.univ.filter (fun i => (reduces_S8x384x384_S8).drop i = ix1 q),
      (shapeCast S8x384x384 v shapeCasts_S1x8x384x384_S8x384x384) i = _
  rw [sum_filter_drop]
  exact Finset.sum_congr rfl fun h _ => Finset.sum_congr rfl fun w _ => shapeCast_1abc_abc_apply v _ q h w

/-- The pool's store in the prologue and in the loop: the same arithmetic. -/
theorem k0_pay1_apply (v : FVec Ideal S1x8x384x384 .f32) (q : Fin 8) (z z' : Fin 1) :
    k0_pay1 (F := Ideal) v (ix3 q z z') = ∑ h : Fin 384, ∑ w : Fin 384, v (ix4 (0 : Fin 1) q h w) := slabSum_apply v q z z'
theorem k0_pay2_apply (v : FVec Ideal S1x8x384x384 .f32) (q : Fin 8) (z z' : Fin 1) :
    k0_pay2 (F := Ideal) v (ix3 q z z') = ∑ h : Fin 384, ∑ w : Fin 384, v (ix4 (0 : Fin 1) q h w) := slabSum_apply v q z z'

end Cert.KernelIdeal.PoolPay

end
-- ==== Proof.TcValue.lean ====
/-
  What the TensorCore pool leaves, at the extended reals: row k of its output is the sum of plane k. The output is the
  canonical contents of 72 stored pieces, slab b's at rows 8 b .. 8 b + 7; a piece's row q is the sum over the two plane
  axes of what the pool read back of the slab's ring slot, which is what the slab's transfer carried, the slab's planes
  as they stand in the plane array.
-/
import proofs.«215010_g72713796321855_cont_9to1c4b_299_31_alg».proof.Proof.KI.TcPoolRun
import proofs.«215010_g72713796321855_cont_9to1c4b_299_31_alg».proof.Proof.KernelValue
import proofs.«215010_g72713796321855_cont_9to1c4b_299_31_alg».proof.Proof.PoolPay
import Idealize.ShloMosaic.Lib.ValueLayout

noncomputable section

open scoped BigOperators

namespace Cert.Proof.KI.TcPool

open Cert.KernelIdeal Cert.KernelIdeal.Gen Cert.KernelIdeal.KValue
open Idealize.ShloMosaic Idealize.ShloMosaic.ValueIdx
open Idealize.ShloMosaic.SparseCore (S V T)
open Idealize.SL Idealize.SL.Sem

variable (c : Dev nD)

/-- The pieces stored for the first n slabs are those slabs' pieces. -/
theorem mem_pcs (x3v : Buf (Elt Ideal) ((Memref.whole main_v0).view.loc (T c : Thread nD τ))) :
    ∀ (n : ℕ) (p : View.Piece (Elt Ideal) S576x1x1 .f32), p ∈ pcs c x3v n → ∃ b, b < n ∧ p = pc c x3v b
  | 0, _, h => absurd h List.not_mem_nil
  | n + 1, p, h => by
    rcases List.mem_cons.mp h with rfl | h
    · exact ⟨n, Nat.lt_succ_self n, rfl⟩
    · obtain ⟨b, hb, e⟩ := mem_pcs x3v n p h
      exact ⟨b, Nat.lt_succ_of_lt hb, e⟩

/-- What is read back of a ring slot that a transfer carrying w has filled is w. -/
theorem loadedAt_apply (so : Fin 4 → Nat) (hso hlo : ∀ a, so a + S1x8x384x384.size a ≤ S8x8x384x384.size a)
    (w : S8x384x384.Idx → Elt Ideal .f32) (z : Fin 1) (q : Fin 8) (h w' : Fin 384) :
    loadedAt (F := Ideal) so hso so hlo w (ix4 z q h w') = w (ix3 q h w') := by
  obtain rfl : z = 0 := Subsingleton.elim _ _
  have e := View.read_writes_cons_emb (slotP so hso).view (slotP so hso).view.junk (Rect.whole S8x384x384) w [] (ix3 q h w')
  rw [Rect.emb_whole_apply, Memref.read_squeeze_slice (Memref.whole cc0_scratch0)
    (Rect.unit (s := S8x8x384x384) so S1x8x384x384.size hso) (fun _ => rfl) squeezes_S1x8x384x384_S8x384x384
    shapeCasts_S1x8x384x384_S8x384x384, shapeCast_1abc_abc_apply] at e
  unfold loadedAt
  exact e

/-- What a slab's transfer carries: the slab's planes as they stand in the plane array. -/
theorem payAt_apply (x3v : Buf (Elt Ideal) ((Memref.whole main_v0).view.loc (T c : Thread nD τ))) (bo : Fin 3 → Nat)
    (hbo : ∀ a, bo a + S8x384x384.size a ≤ S768x384x384.size a) (r : ℕ) (h0 : bo 0 = r) (h1 : bo 1 = 0) (h2 : bo 2 = 0)
    (hr : r + 8 ≤ 768) (q : Fin 8) (h w' : Fin 384) :
    payAt (F := Ideal) c x3v bo hbo (ix3 q h w')
      = (x3v : FVec Ideal S768x384x384 .f32) (ix3 (⟨r + q.val, by have := q.isLt; omega⟩ : Fin 768) h w') := by
  show x3v _ = x3v _
  refine congrArg x3v (funext fun a => Fin.ext ?_)
  match a with
  | ⟨0, _⟩ => show bo 0 + 1 * q.val = r + q.val; omega
  | ⟨1, _⟩ => show bo 1 + 1 * h.val = h.val; omega
  | ⟨2, _⟩ => show bo 2 + 1 * w'.val = w'.val; omega

/-- The plane sums as a function of the output's row. -/
def rowSum (x3v : Buf (Elt Ideal) ((Memref.whole main_v0).view.loc (T c : Thread nD τ))) : S576x1x1.Idx → Elt Ideal .f32 :=
  fun i => planeSum3 x3v (⟨(i 0).val, lt_of_lt_of_le (i 0).isLt (by decide : S576x1x1.size 0 ≤ 768)⟩ : Fin 768)

/-- Slab b's piece, at its own row q, is the sum of the plane that row of the output stands for. -/
theorem pc_rowSum (x3v : Buf (Elt Ideal) ((Memref.whole main_v0).view.loc (T c : Thread nD τ))) (b : ℕ)
    (x : (pc (F := Ideal) c x3v b).1.shape.Idx) :
    (pc (F := Ideal) c x3v b).2 x = rowSum c x3v ((pc (F := Ideal) c x3v b).1.emb x) := by
  obtain ⟨q, z, z', rfl⟩ : ∃ (q : Fin 8) (z z' : Fin 1), x = ix3 q z z' := ⟨x 0, x 1, x 2, eq_ix3 x⟩
  have hq := q.isLt
  have hb : b % 72 < 72 := Nat.mod_lt _ (by decide)
  show k0_pay1 (F := Ideal) (loadedAt (F := Ideal) ![(sOf b).val, 0, 0, 0] (inbSlot (sOf b)) ![(sOf b).val, 0, 0, 0] (inbSlot (sOf b))
      (payAt (F := Ideal) c x3v ![8 * (b % 72), 0, 0] (inbSlab b))) (ix3 q z z')
    = planeSum3 x3v (⟨8 * (b % 72) + 1 * q.val, by omega⟩ : Fin 768)
  rw [Cert.KernelIdeal.PoolPay.k0_pay1_apply]
  unfold planeSum3
  refine Finset.sum_congr rfl fun h _ => Finset.sum_congr rfl fun w' _ => ?_
  rw [loadedAt_apply, payAt_apply c x3v _ _ (8 * (b % 72)) rfl rfl rfl (by omega)]
  exact congrArg x3v (funext fun a => Fin.ext (by
    match a with
    | ⟨0, _⟩ => show 8 * (b % 72) + q.val = 8 * (b % 72) + 1 * q.val; omega
    | ⟨1, _⟩ => rfl
    | ⟨2, _⟩ => rfl))

/-- ROW k OF THE POOL'S OUTPUT IS THE SUM OF PLANE k: what the bridge asks of the TensorCore pool. -/
theorem tcVal_rowSum (x3v : Buf (Elt Ideal) ((Memref.whole main_v0).view.loc (T c : Thread nD τ))) (k : Fin 576) :
    (tcVal (F := Ideal) c x3v : FVec Ideal S576x1x1 .f32) (ix3 k (0 : Fin 1) (0 : Fin 1))
      = planeSum3 x3v (⟨k.val, by have := k.isLt; omega⟩ : Fin 768) := by
  unfold tcVal
  rw [View.canon_apply_of_pieces (rowSum c x3v) (pcs c x3v 72) (fun p hp x => by
    obtain ⟨b, _, rfl⟩ := mem_pcs c x3v 72 p hp
    exact pc_rowSum c x3v b x) (ix3 k (0 : Fin 1) (0 : Fin 1)) (pcs_cover c x3v _)]
  rfl

end Cert.Proof.KI.TcPool

end
-- ==== Proof.LaneValue.lean ====
/-
  The SparseCore pool's arrangement of one plane's sum. A plane's row of 384 numbers is 24 vectors of 16 lanes; vector
  k of every row is added into accumulator k % 8, so that after the 384 rows (6 chunks of 64) accumulator a holds, in
  lane l, the sum over the rows and the three rounds q of entry (q · 8 + a) · 16 + l of the row. The eight accumulators
  are added as a balanced tree and the sixteen lanes are stored; the projection adds the lanes. All of it is the plane's
  sum in another order.
-/
import proofs.«215010_g72713796321855_cont_9to1c4b_299_31_alg».proof.Proof.KernelValue

noncomputable section

open scoped BigOperators

namespace Cert.KernelIdeal.KValue

open Cert.KernelIdeal Cert.KernelIdeal.Gen Idealize.ShloMosaic Idealize.ShloMosaic.ValueIdx

/-- Plane j of the 768 planes as a function of a row number and a column number, zero outside the plane. -/
def planeFn (x3 : FVec Ideal S768x384x384 .f32) (j : Fin 768) (h w : ℕ) : EReal :=
  if hh : h < 384 then if hw : w < 384 then x3 (ix3 j (⟨h, hh⟩ : Fin 384) (⟨w, hw⟩ : Fin 384)) else 0 else 0

theorem planeFn_of_lt (x3 : FVec Ideal S768x384x384 .f32) (j : Fin 768) (h w : ℕ) (hh : h < 384) (hw : w < 384) :
    planeFn x3 j h w = x3 (ix3 j (⟨h, hh⟩ : Fin 384) (⟨w, hw⟩ : Fin 384)) := by
  unfold planeFn; rw [dif_pos hh, dif_pos hw]

/-- Row ch · 64 + i of the plane at column k · 16 + l: what lane l of vector k of row i of chunk ch holds. -/
theorem planeFn_chunk (x3 : FVec Ideal S768x384x384 .f32) (j : Fin 768) (ch : Fin 6) (i : Fin 64) (k : Fin 24) (l : Fin 16) :
    planeFn x3 j (ch.val * 64 + i.val) (k.val * 16 + l.val)
      = x3 (ix3 j (⟨ch.val * 64 + i.val, by have := ch.isLt; have := i.isLt; omega⟩ : Fin 384)
          (⟨k.val * 16 + l.val, by have := k.isLt; have := l.isLt; omega⟩ : Fin 384)) :=
  planeFn_of_lt x3 j _ _ _ _

theorem planeSum3_eq_planeFn (x3 : FVec Ideal S768x384x384 .f32) (j : Fin 768) :
    planeSum3 x3 j = ∑ h : Fin 384, ∑ w : Fin 384, planeFn x3 j h.val w.val :=
  Finset.sum_congr rfl fun h _ => Finset.sum_congr rfl fun w _ => (planeFn_of_lt x3 j h.val w.val h.isLt w.isLt).symm

/-- What accumulator a holds in lane l once every row of plane j has been added. -/
def laneAcc (x3 : FVec Ideal S768x384x384 .f32) (j : Fin 768) (a : Fin 8) (l : Fin 16) : EReal :=
  ∑ ch : Fin 6, ∑ i : Fin 64, ∑ q : Fin 3, planeFn x3 j (ch.val * 64 + i.val) ((q.val * 8 + a.val) * 16 + l.val)

/-- The eight accumulators added as a balanced tree, lane by lane, then the sixteen lanes added: the plane's sum. -/
theorem planeSum3_by_lanes (x3 : FVec Ideal S768x384x384 .f32) (j : Fin 768) :
    ∑ l : Fin 16, (((laneAcc x3 j 0 l + laneAcc x3 j 1 l) + (laneAcc x3 j 2 l + laneAcc x3 j 3 l))
        + ((laneAcc x3 j 4 l + laneAcc x3 j 5 l) + (laneAcc x3 j 6 l + laneAcc x3 j 7 l)))
      = planeSum3 x3 j := by
  rw [planeSum3_eq_planeFn, Cert.Proof.Spec.plane_by_lanes (planeFn x3 j)]
  exact Finset.sum_congr rfl fun l _ => Cert.Proof.Spec.tree8 fun a => laneAcc x3 j a l

/-- So the SparseCore pool's side of the bridge's hypothesis follows from what each stored lane is. -/
theorem lanes_sum (x3 : FVec Ideal S768x384x384 .f32) (p : FVec Ideal S3072 .f32)
    (hp : ∀ (k : Fin 192) (l : Fin 16), p (ix1 (⟨k.val * 16 + l.val, by have := k.isLt; have := l.isLt; omega⟩ : Fin 3072))
      = ((laneAcc x3 ⟨576 + k.val, by have := k.isLt; omega⟩ 0 l + laneAcc x3 ⟨576 + k.val, by have := k.isLt; omega⟩ 1 l)
          + (laneAcc x3 ⟨576 + k.val, by have := k.isLt; omega⟩ 2 l + laneAcc x3 ⟨576 + k.val, by have := k.isLt; omega⟩ 3 l))
        + ((laneAcc x3 ⟨576 + k.val, by have := k.isLt; omega⟩ 4 l + laneAcc x3 ⟨576 + k.val, by have := k.isLt; omega⟩ 5 l)
          + (laneAcc x3 ⟨576 + k.val, by have := k.isLt; omega⟩ 6 l + laneAcc x3 ⟨576 + k.val, by have := k.isLt; omega⟩ 7 l)))
    (k : Fin 192) :
    ∑ l : Fin 16, p (ix1 (⟨k.val * 16 + l.val, by have := k.isLt; have := l.isLt; omega⟩ : Fin 3072))
      = planeSum3 x3 (⟨576 + k.val, by have := k.isLt; omega⟩ : Fin 768) :=
  (Finset.sum_congr rfl fun l _ => hp k l).trans (planeSum3_by_lanes x3 _)

/-! ## The accumulators row by row -/

/-- What accumulator a holds in lane l after the first n rows of plane j (rows counted through the plane: row i of chunk
    ch is row ch · 64 + i). -/
def accUpTo (x3 : FVec Ideal S768x384x384 .f32) (j : Fin 768) (a : Fin 8) (l : Fin 16) (n : ℕ) : EReal :=
  ∑ r ∈ Finset.range n, ∑ q : Fin 3, planeFn x3 j r ((q.val * 8 + a.val) * 16 + l.val)

/-- Before the first row: zero. -/
theorem accUpTo_zero (x3 : FVec Ideal S768x384x384 .f32) (j : Fin 768) (a : Fin 8) (l : Fin 16) : accUpTo x3 j a l 0 = 0 :=
  Finset.sum_range_zero _

/-- One more row: its vectors a, a + 8 and a + 16 added in turn. -/
theorem accUpTo_succ (x3 : FVec Ideal S768x384x384 .f32) (j : Fin 768) (a : Fin 8) (l : Fin 16) (n : ℕ) :
    accUpTo x3 j a l (n + 1)
      = ((accUpTo x3 j a l n + planeFn x3 j n (a.val * 16 + l.val)) + planeFn x3 j n ((a.val + 8) * 16 + l.val))
          + planeFn x3 j n ((a.val + 16) * 16 + l.val) := by
  unfold accUpTo
  rw [Finset.sum_range_succ, Fin.sum_univ_three]
  have e0 : ((0 : Fin 3).val * 8 + a.val) * 16 + l.val = a.val * 16 + l.val := by show (0 * 8 + a.val) * 16 + l.val = _; omega
  have e1 : ((1 : Fin 3).val * 8 + a.val) * 16 + l.val = (a.val + 8) * 16 + l.val := by show (1 * 8 + a.val) * 16 + l.val = _; omega
  have e2 : ((2 : Fin 3).val * 8 + a.val) * 16 + l.val = (a.val + 16) * 16 + l.val := by show (2 * 8 + a.val) * 16 + l.val = _; omega
  rw [e0, e1, e2, add_assoc, add_assoc, add_assoc]

/-- After all 384 rows: the accumulator's final value. -/
theorem accUpTo_all (x3 : FVec Ideal S768x384x384 .f32) (j : Fin 768) (a : Fin 8) (l : Fin 16) :
    accUpTo x3 j a l 384 = laneAcc x3 j a l := by
  unfold accUpTo laneAcc
  rw [Finset.sum_range]
  exact Cert.Proof.Spec.sum_fin_mul 6 64 fun r => ∑ q : Fin 3, planeFn x3 j r ((q.val * 8 + a.val) * 16 + l.val)

end Cert.KernelIdeal.KValue

end
-- ==== Proof.ScValue.lean ====
/-
  What one vector subcore leaves for a plane, at the extended reals: accumulator a holds in lane l, after n rows, the sum
  over those rows of entries (a, a + 8, a + 16) · 16 + l of the row; so the sixteen stored lanes of a plane add up to
  the plane's sum, whatever the order the additions were made in.
-/
import proofs.«215010_g72713796321855_cont_9to1c4b_299_31_alg».proof.Proof.KI.ScVal
import proofs.«215010_g72713796321855_cont_9to1c4b_299_31_alg».proof.Proof.LaneValue
import Idealize.ShloMosaic.Lib.ValueLayout

noncomputable section

open scoped BigOperators

namespace Cert.Proof.KI.ScVal

open Cert.KernelIdeal Cert.KernelIdeal.Gen Cert.KernelIdeal.KValue
open Idealize.ShloMosaic Idealize.ShloMosaic.ValueIdx

/-- Accumulator a of the eight. -/
def comp (A : Acc8 Ideal) : Fin 8 → FVec Ideal S16 .f32
  | ⟨0, _⟩ => A.1
  | ⟨1, _⟩ => A.2.1
  | ⟨2, _⟩ => A.2.2.1
  | ⟨3, _⟩ => A.2.2.2.1
  | ⟨4, _⟩ => A.2.2.2.2.1
  | ⟨5, _⟩ => A.2.2.2.2.2.1
  | ⟨6, _⟩ => A.2.2.2.2.2.2.1
  | ⟨7, _⟩ => A.2.2.2.2.2.2.2
  | ⟨_ + 8, h⟩ => absurd h (Nat.not_lt.2 (Nat.le_add_left _ _))

/-- A row vector read as sixteen lanes. -/
theorem sc_apply (v : FVec Ideal S1x16 .f32) (l : Fin 16) :
    shapeCast S16 v shapeCasts_S1x16_S16 (ix1 l) = v (ix2 (0 : Fin 1) l) := shapeCast_1a_a_apply v _ l

/-- A vector load from the whole buffer at row r, column c: the sixteen entries from column c on. -/
theorem rd_b0 (fb : FVec Ideal S64x384 .f32) (off : Fin 2 → ℕ) (inb : ∀ a, off a + S1x16.size a ≤ S64x384.size a)
    (r c : ℕ) (h0 : off 0 = r) (h1 : off 1 = c) (hr : r < 64) (hc : c + 16 ≤ 384) (z : Fin 1) (l : Fin 16) :
    rd (F := Ideal) (Memref.whole cc1_scratch0 : Memref sig .scVector .vmem S64x384 .f32) fb off inb (ix2 z l)
      = fb (ix2 (⟨r, hr⟩ : Fin 64) (⟨c + l.val, by have := l.isLt; omega⟩ : Fin 384)) := by
  show fb _ = fb _
  refine congrArg fb (funext fun a => Fin.ext ?_)
  have hz : z.val = 0 := by omega
  match a with
  | ⟨0, _⟩ => show off 0 + 1 * z.val = r; omega
  | ⟨1, _⟩ => show off 1 + 1 * l.val = c + l.val; omega

/-- A vector load from the whole buffer at row r, column c: the sixteen entries from column c on. -/
theorem rd_b1 (fb : FVec Ideal S64x384 .f32) (off : Fin 2 → ℕ) (inb : ∀ a, off a + S1x16.size a ≤ S64x384.size a)
    (r c : ℕ) (h0 : off 0 = r) (h1 : off 1 = c) (hr : r < 64) (hc : c + 16 ≤ 384) (z : Fin 1) (l : Fin 16) :
    rd (F := Ideal) (Memref.whole cc1_scratch1 : Memref sig .scVector .vmem S64x384 .f32) fb off inb (ix2 z l)
      = fb (ix2 (⟨r, hr⟩ : Fin 64) (⟨c + l.val, by have := l.isLt; omega⟩ : Fin 384)) := by
  show fb _ = fb _
  refine congrArg fb (funext fun a => Fin.ext ?_)
  have hz : z.val = 0 := by omega
  match a with
  | ⟨0, _⟩ => show off 0 + 1 * z.val = r; omega
  | ⟨1, _⟩ => show off 1 + 1 * l.val = c + l.val; omega

/-- A vector load from the whole buffer at row r, column c: the sixteen entries from column c on. -/
theorem rd_b2 (fb : FVec Ideal S64x384 .f32) (off : Fin 2 → ℕ) (inb : ∀ a, off a + S1x16.size a ≤ S64x384.size a)
    (r c : ℕ) (h0 : off 0 = r) (h1 : off 1 = c) (hr : r < 64) (hc : c + 16 ≤ 384) (z : Fin 1) (l : Fin 16) :
    rd (F := Ideal) (Memref.whole cc1_scratch2 : Memref sig .scVector .vmem S64x384 .f32) fb off inb (ix2 z l)
      = fb (ix2 (⟨r, hr⟩ : Fin 64) (⟨c + l.val, by have := l.isLt; omega⟩ : Fin 384)) := by
  show fb _ = fb _
  refine congrArg fb (funext fun a => Fin.ext ?_)
  have hz : z.val = 0 := by omega
  match a with
  | ⟨0, _⟩ => show off 0 + 1 * z.val = r; omega
  | ⟨1, _⟩ => show off 1 + 1 * l.val = c + l.val; omega

theorem trips2 : k1_t2_loop.trips ≤ 64 := k1_t2_abs.2.1

/-- One row added: accumulator a takes the row's vectors a, a + 8 and a + 16, in turn. -/
theorem step2_comp (fb : FVec Ideal S64x384 .f32) (j : Fin k1_t2_loop.trips) (A : Acc8 Ideal) (a : Fin 8) (l : Fin 16) :
    comp (step2 (F := Ideal) fb j A) a (ix1 l)
      = ((comp A a (ix1 l)
          + fb (ix2 (⟨j.val, lt_of_lt_of_le j.isLt trips2⟩ : Fin 64) (⟨a.val * 16 + l.val, by have := a.isLt; have := l.isLt; omega⟩ : Fin 384)))
          + fb (ix2 (⟨j.val, lt_of_lt_of_le j.isLt trips2⟩ : Fin 64) (⟨(a.val + 8) * 16 + l.val, by have := a.isLt; have := l.isLt; omega⟩ : Fin 384)))
          + fb (ix2 (⟨j.val, lt_of_lt_of_le j.isLt trips2⟩ : Fin 64) (⟨(a.val + 16) * 16 + l.val, by have := a.isLt; have := l.isLt; omega⟩ : Fin 384)) := by
  obtain ⟨a0, a1, a2, a3, a4, a5, a6, a7⟩ := A
  have hj : j.val < 64 := lt_of_lt_of_le j.isLt trips2
  have hl := l.isLt
  match a with
  | ⟨0, _⟩ =>
    show ((a0 (ix1 l) + shapeCast S16 (rd (F := Ideal) (Memref.whole cc1_scratch0) fb (k1_off5 j) (k1_off5_inb j)) shapeCasts_S1x16_S16 (ix1 l))
        + shapeCast S16 (rd (F := Ideal) (Memref.whole cc1_scratch0) fb (k1_off13 j) (k1_off13_inb j)) shapeCasts_S1x16_S16 (ix1 l))
        + shapeCast S16 (rd (F := Ideal) (Memref.whole cc1_scratch0) fb (k1_off21 j) (k1_off21_inb j)) shapeCasts_S1x16_S16 (ix1 l) = _
    rw [sc_apply, sc_apply, sc_apply,
      rd_b0 fb (k1_off5 j) (k1_off5_inb j) j.val 0 (congrFun (k1_off5_eq j) 0) (congrFun (k1_off5_eq j) 1) hj (by omega),
      rd_b0 fb (k1_off13 j) (k1_off13_inb j) j.val 128 (congrFun (k1_off13_eq j) 0) (congrFun (k1_off13_eq j) 1) hj (by omega),
      rd_b0 fb (k1_off21 j) (k1_off21_inb j) j.val 256 (congrFun (k1_off21_eq j) 0) (congrFun (k1_off21_eq j) 1) hj (by omega)]
    rfl
  | ⟨1, _⟩ =>
    show ((a1 (ix1 l) + shapeCast S16 (rd (F := Ideal) (Memref.whole cc1_scratch0) fb (k1_off6 j) (k1_off6_inb j)) shapeCasts_S1x16_S16 (ix1 l))
        + shapeCast S16 (rd (F := Ideal) (Memref.whole cc1_scratch0) fb (k1_off14 j) (k1_off14_inb j)) shapeCasts_S1x16_S16 (ix1 l))
        + shapeCast S16 (rd (F := Ideal) (Memref.whole cc1_scratch0) fb (k1_off22 j) (k1_off22_inb j)) shapeCasts_S1x16_S16 (ix1 l) = _
    rw [sc_apply, sc_apply, sc_apply,
      rd_b0 fb (k1_off6 j) (k1_off6_inb j) j.val 16 (congrFun (k1_off6_eq j) 0) (congrFun (k1_off6_eq j) 1) hj (by omega),
      rd_b0 fb (k1_off14 j) (k1_off14_inb j) j.val 144 (congrFun (k1_off14_eq j) 0) (congrFun (k1_off14_eq j) 1) hj (by omega),
      rd_b0 fb (k1_off22 j) (k1_off22_inb j) j.val 272 (congrFun (k1_off22_eq j) 0) (congrFun (k1_off22_eq j) 1) hj (by omega)]
    rfl
  | ⟨2, _⟩ =>
    show ((a2 (ix1 l) + shapeCast S16 (rd (F := Ideal) (Memref.whole cc1_scratch0) fb (k1_off7 j) (k1_off7_inb j)) shapeCasts_S1x16_S16 (ix1 l))
        + shapeCast S16 (rd (F := Ideal) (Memref.whole cc1_scratch0) fb (k1_off15 j) (k1_off15_inb j)) shapeCasts_S1x16_S16 (ix1 l))
        + shapeCast S16 (rd (F := Ideal) (Memref.whole cc1_scratch0) fb (k1_off23 j) (k1_off23_inb j)) shapeCasts_S1x16_S16 (ix1 l) = _
    rw [sc_apply, sc_apply, sc_apply,
      rd_b0 fb (k1_off7 j) (k1_off7_inb j) j.val 32 (congrFun (k1_off7_eq j) 0) (congrFun (k1_off7_eq j) 1) hj (by omega),
      rd_b0 fb (k1_off15 j) (k1_off15_inb j) j.val 160 (congrFun (k1_off15_eq j) 0) (congrFun (k1_off15_eq j) 1) hj (by omega),
      rd_b0 fb (k1_off23 j) (k1_off23_inb j) j.val 288 (congrFun (k1_off23_eq j) 0) (congrFun (k1_off23_eq j) 1) hj (by omega)]
    rfl
  | ⟨3, _⟩ =>
    show ((a3 (ix1 l) + shapeCast S16 (rd (F := Ideal) (Memref.whole cc1_scratch0) fb (k1_off8 j) (k1_off8_inb j)) shapeCasts_S1x16_S16 (ix1 l))
        + shapeCast S16 (rd (F := Ideal) (Memref.whole cc1_scratch0) fb (k1_off16 j) (k1_off16_inb j)) shapeCasts_S1x16_S16 (ix1 l))
        + shapeCast S16 (rd (F := Ideal) (Memref.whole cc1_scratch0) fb (k1_off24 j) (k1_off24_inb j)) shapeCasts_S1x16_S16 (ix1 l) = _
    rw [sc_apply, sc_apply, sc_apply,
      rd_b0 fb (k1_off8 j) (k1_off8_inb j) j.val 48 (congrFun (k1_off8_eq j) 0) (congrFun (k1_off8_eq j) 1) hj (by omega),
      rd_b0 fb (k1_off16 j) (k1_off16_inb j) j.val 176 (congrFun (k1_off16_eq j) 0) (congrFun (k1_off16_eq j) 1) hj (by omega),
      rd_b0 fb (k1_off24 j) (k1_off24_inb j) j.val 304 (congrFun (k1_off24_eq j) 0) (congrFun (k1_off24_eq j) 1) hj (by omega)]
    rfl
  | ⟨4, _⟩ =>
    show ((a4 (ix1 l) + shapeCast S16 (rd (F := Ideal) (Memref.whole cc1_scratch0) fb (k1_off9 j) (k1_off9_inb j)) shapeCasts_S1x16_S16 (ix1 l))
        + shapeCast S16 (rd (F := Ideal) (Memref.whole cc1_scratch0) fb (k1_off17 j) (k1_off17_inb j)) shapeCasts_S1x16_S16 (ix1 l))
        + shapeCast S16 (rd (F := Ideal) (Memref.whole cc1_scratch0) fb (k1_off25 j) (k1_off25_inb j)) shapeCasts_S1x16_S16 (ix1 l) = _
    rw [sc_apply, sc_apply, sc_apply,
      rd_b0 fb (k1_off9 j) (k1_off9_inb j) j.val 64 (congrFun (k1_off9_eq j) 0) (congrFun (k1_off9_eq j) 1) hj (by omega),
      rd_b0 fb (k1_off17 j) (k1_off17_inb j) j.val 192 (congrFun (k1_off17_eq j) 0) (congrFun (k1_off17_eq j) 1) hj (by omega),
      rd_b0 fb (k1_off25 j) (k1_off25_inb j) j.val 320 (congrFun (k1_off25_eq j) 0) (congrFun (k1_off25_eq j) 1) hj (by omega)]
    rfl
  | ⟨5, _⟩ =>
    show ((a5 (ix1 l) + shapeCast S16 (rd (F := Ideal) (Memref.whole cc1_scratch0) fb (k1_off10 j) (k1_off10_inb j)) shapeCasts_S1x16_S16 (ix1 l))
        + shapeCast S16 (rd (F := Ideal) (Memref.whole cc1_scratch0) fb (k1_off18 j) (k1_off18_inb j)) shapeCasts_S1x16_S16 (ix1 l))
        + shapeCast S16 (rd (F := Ideal) (Memref.whole cc1_scratch0) fb (k1_off26 j) (k1_off26_inb j)) shapeCasts_S1x16_S16 (ix1 l) = _
    rw [sc_apply, sc_apply, sc_apply,
      rd_b0 fb (k1_off10 j) (k1_off10_inb j) j.val 80 (congrFun (k1_off10_eq j) 0) (congrFun (k1_off10_eq j) 1) hj (by omega),
      rd_b0 fb (k1_off18 j) (k1_off18_inb j) j.val 208 (congrFun (k1_off18_eq j) 0) (congrFun (k1_off18_eq j) 1) hj (by omega),
      rd_b0 fb (k1_off26 j) (k1_off26_inb j) j.val 336 (congrFun (k1_off26_eq j) 0) (congrFun (k1_off26_eq j) 1) hj (by omega)]
    rfl
  | ⟨6, _⟩ =>
    show ((a6 (ix1 l) + shapeCast S16 (rd (F := Ideal) (Memref.whole cc1_scratch0) fb (k1_off11 j) (k1_off11_inb j)) shapeCasts_S1x16_S16 (ix1 l))
        + shapeCast S16 (rd (F := Ideal) (Memref.whole cc1_scratch0) fb (k1_off19 j) (k1_off19_inb j)) shapeCasts_S1x16_S16 (ix1 l))
        + shapeCast S16 (rd (F := Ideal) (Memref.whole cc1_scratch0) fb (k1_off27 j) (k1_off27_inb j)) shapeCasts_S1x16_S16 (ix1 l) = _
    rw [sc_apply, sc_apply, sc_apply,
      rd_b0 fb (k1_off11 j) (k1_off11_inb j) j.val 96 (congrFun (k1_off11_eq j) 0) (congrFun (k1_off11_eq j) 1) hj (by omega),
      rd_b0 fb (k1_off19 j) (k1_off19_inb j) j.val 224 (congrFun (k1_off19_eq j) 0) (congrFun (k1_off19_eq j) 1) hj (by omega),
      rd_b0 fb (k1_off27 j) (k1_off27_inb j) j.val 352 (congrFun (k1_off27_eq j) 0) (congrFun (k1_off27_eq j) 1) hj (by omega)]
    rfl
  | ⟨7, _⟩ =>
    show ((a7 (ix1 l) + shapeCast S16 (rd (F := Ideal) (Memref.whole cc1_scratch0) fb (k1_off12 j) (k1_off12_inb j)) shapeCasts_S1x16_S16 (ix1 l))
        + shapeCast S16 (rd (F := Ideal) (Memref.whole cc1_scratch0) fb (k1_off20 j) (k1_off20_inb j)) shapeCasts_S1x16_S16 (ix1 l))
        + shapeCast S16 (rd (F := Ideal) (Memref.whole cc1_scratch0) fb (k1_off28 j) (k1_off28_inb j)) shapeCasts_S1x16_S16 (ix1 l) = _
    rw [sc_apply, sc_apply, sc_apply,
      rd_b0 fb (k1_off12 j) (k1_off12_inb j) j.val 112 (congrFun (k1_off12_eq j) 0) (congrFun (k1_off12_eq j) 1) hj (by omega),
      rd_b0 fb (k1_off20 j) (k1_off20_inb j) j.val 240 (congrFun (k1_off20_eq j) 0) (congrFun (k1_off20_eq j) 1) hj (by omega),
      rd_b0 fb (k1_off28 j) (k1_off28_inb j) j.val 368 (congrFun (k1_off28_eq j) 0) (congrFun (k1_off28_eq j) 1) hj (by omega)]
    rfl
  | ⟨n + 8, h⟩ => exact absurd h (Nat.not_lt.2 (Nat.le_add_left _ _))

theorem trips3 : k1_t3_loop.trips ≤ 64 := k1_t3_abs.2.1

/-- One row added: accumulator a takes the row's vectors a, a + 8 and a + 16, in turn. -/
theorem step3_comp (fb : FVec Ideal S64x384 .f32) (j : Fin k1_t3_loop.trips) (A : Acc8 Ideal) (a : Fin 8) (l : Fin 16) :
    comp (step3 (F := Ideal) fb j A) a (ix1 l)
      = ((comp A a (ix1 l)
          + fb (ix2 (⟨j.val, lt_of_lt_of_le j.isLt trips3⟩ : Fin 64) (⟨a.val * 16 + l.val, by have := a.isLt; have := l.isLt; omega⟩ : Fin 384)))
          + fb (ix2 (⟨j.val, lt_of_lt_of_le j.isLt trips3⟩ : Fin 64) (⟨(a.val + 8) * 16 + l.val, by have := a.isLt; have := l.isLt; omega⟩ : Fin 384)))
          + fb (ix2 (⟨j.val, lt_of_lt_of_le j.isLt trips3⟩ : Fin 64) (⟨(a.val + 16) * 16 + l.val, by have := a.isLt; have := l.isLt; omega⟩ : Fin 384)) := by
  obtain ⟨a0, a1, a2, a3, a4, a5, a6, a7⟩ := A
  have hj : j.val < 64 := lt_of_lt_of_le j.isLt trips3
  have hl := l.isLt
  match a with
  | ⟨0, _⟩ =>
    show ((a0 (ix1 l) + shapeCast S16 (rd (F := Ideal) (Memref.whole cc1_scratch1) fb (k1_off30 j) (k1_off30_inb j)) shapeCasts_S1x16_S16 (ix1 l))
        + shapeCast S16 (rd (F := Ideal) (Memref.whole cc1_scratch1) fb (k1_off38 j) (k1_off38_inb j)) shapeCasts_S1x16_S16 (ix1 l))
        + shapeCast S16 (rd (F := Ideal) (Memref.whole cc1_scratch1) fb (k1_off46 j) (k1_off46_inb j)) shapeCasts_S1x16_S16 (ix1 l) = _
    rw [sc_apply, sc_apply, sc_apply,
      rd_b1 fb (k1_off30 j) (k1_off30_inb j) j.val 0 (congrFun (k1_off30_eq j) 0) (congrFun (k1_off30_eq j) 1) hj (by omega),
      rd_b1 fb (k1_off38 j) (k1_off38_inb j) j.val 128 (congrFun (k1_off38_eq j) 0) (congrFun (k1_off38_eq j) 1) hj (by omega),
      rd_b1 fb (k1_off46 j) (k1_off46_inb j) j.val 256 (congrFun (k1_off46_eq j) 0) (congrFun (k1_off46_eq j) 1) hj (by omega)]
    rfl
  | ⟨1, _⟩ =>
    show ((a1 (ix1 l) + shapeCast S16 (rd (F := Ideal) (Memref.whole cc1_scratch1) fb (k1_off31 j) (k1_off31_inb j)) shapeCasts_S1x16_S16 (ix1 l))
        + shapeCast S16 (rd (F := Ideal) (Memref.whole cc1_scratch1) fb (k1_off39 j) (k1_off39_inb j)) shapeCasts_S1x16_S16 (ix1 l))
        + shapeCast S16 (rd (F := Ideal) (Memref.whole cc1_scratch1) fb (k1_off47 j) (k1_off47_inb j)) shapeCasts_S1x16_S16 (ix1 l) = _
    rw [sc_apply, sc_apply, sc_apply,
      rd_b1 fb (k1_off31 j) (k1_off31_inb j) j.val 16 (congrFun (k1_off31_eq j) 0) (congrFun (k1_off31_eq j) 1) hj (by omega),
      rd_b1 fb (k1_off39 j) (k1_off39_inb j) j.val 144 (congrFun (k1_off39_eq j) 0) (congrFun (k1_off39_eq j) 1) hj (by omega),
      rd_b1 fb (k1_off47 j) (k1_off47_inb j) j.val 272 (congrFun (k1_off47_eq j) 0) (congrFun (k1_off47_eq j) 1) hj (by omega)]
    rfl
  | ⟨2, _⟩ =>
    show ((a2 (ix1 l) + shapeCast S16 (rd (F := Ideal) (Memref.whole cc1_scratch1) fb (k1_off32 j) (k1_off32_inb j)) shapeCasts_S1x16_S16 (ix1 l))
        + shapeCast S16 (rd (F := Ideal) (Memref.whole cc1_scratch1) fb (k1_off40 j) (k1_off40_inb j)) shapeCasts_S1x16_S16 (ix1 l))
        + shapeCast S16 (rd (F := Ideal) (Memref.whole cc1_scratch1) fb (k1_off48 j) (k1_off48_inb j)) shapeCasts_S1x16_S16 (ix1 l) = _
    rw [sc_apply, sc_apply, sc_apply,
      rd_b1 fb (k1_off32 j) (k1_off32_inb j) j.val 32 (congrFun (k1_off32_eq j) 0) (congrFun (k1_off32_eq j) 1) hj (by omega),
      rd_b1 fb (k1_off40 j) (k1_off40_inb j) j.val 160 (congrFun (k1_off40_eq j) 0) (congrFun (k1_off40_eq j) 1) hj (by omega),
      rd_b1 fb (k1_off48 j) (k1_off48_inb j) j.val 288 (congrFun (k1_off48_eq j) 0) (congrFun (k1_off48_eq j) 1) hj (by omega)]
    rfl
  | ⟨3, _⟩ =>
    show ((a3 (ix1 l) + shapeCast S16 (rd (F := Ideal) (Memref.whole cc1_scratch1) fb (k1_off33 j) (k1_off33_inb j)) shapeCasts_S1x16_S16 (ix1 l))
        + shapeCast S16 (rd (F := Ideal) (Memref.whole cc1_scratch1) fb (k1_off41 j) (k1_off41_inb j)) shapeCasts_S1x16_S16 (ix1 l))
        + shapeCast S16 (rd (F := Ideal) (Memref.whole cc1_scratch1) fb (k1_off49 j) (k1_off49_inb j)) shapeCasts_S1x16_S16 (ix1 l) = _
    rw [sc_apply, sc_apply, sc_apply,
      rd_b1 fb (k1_off33 j) (k1_off33_inb j) j.val 48 (congrFun (k1_off33_eq j) 0) (congrFun (k1_off33_eq j) 1) hj (by omega),
      rd_b1 fb (k1_off41 j) (k1_off41_inb j) j.val 176 (congrFun (k1_off41_eq j) 0) (congrFun (k1_off41_eq j) 1) hj (by omega),
      rd_b1 fb (k1_off49 j) (k1_off49_inb j) j.val 304 (congrFun (k1_off49_eq j) 0) (congrFun (k1_off49_eq j) 1) hj (by omega)]
    rfl
  | ⟨4, _⟩ =>
    show ((a4 (ix1 l) + shapeCast S16 (rd (F := Ideal) (Memref.whole cc1_scratch1) fb (k1_off34 j) (k1_off34_inb j)) shapeCasts_S1x16_S16 (ix1 l))
        + shapeCast S16 (rd (F := Ideal) (Memref.whole cc1_scratch1) fb (k1_off42 j) (k1_off42_inb j)) shapeCasts_S1x16_S16 (ix1 l))
        + shapeCast S16 (rd (F := Ideal) (Memref.whole cc1_scratch1) fb (k1_off50 j) (k1_off50_inb j)) shapeCasts_S1x16_S16 (ix1 l) = _
    rw [sc_apply, sc_apply, sc_apply,
      rd_b1 fb (k1_off34 j) (k1_off34_inb j) j.val 64 (congrFun (k1_off34_eq j) 0) (congrFun (k1_off34_eq j) 1) hj (by omega),
      rd_b1 fb (k1_off42 j) (k1_off42_inb j) j.val 192 (congrFun (k1_off42_eq j) 0) (congrFun (k1_off42_eq j) 1) hj (by omega),
      rd_b1 fb (k1_off50 j) (k1_off50_inb j) j.val 320 (congrFun (k1_off50_eq j) 0) (congrFun (k1_off50_eq j) 1) hj (by omega)]
    rfl
  | ⟨5, _⟩ =>
    show ((a5 (ix1 l) + shapeCast S16 (rd (F := Ideal) (Memref.whole cc1_scratch1) fb (k1_off35 j) (k1_off35_inb j)) shapeCasts_S1x16_S16 (ix1 l))
        + shapeCast S16 (rd (F := Ideal) (Memref.whole cc1_scratch1) fb (k1_off43 j) (k1_off43_inb j)) shapeCasts_S1x16_S16 (ix1 l))
        + shapeCast S16 (rd (F := Ideal) (Memref.whole cc1_scratch1) fb (k1_off51 j) (k1_off51_inb j)) shapeCasts_S1x16_S16 (ix1 l) = _
    rw [sc_apply, sc_apply, sc_apply,
      rd_b1 fb (k1_off35 j) (k1_off35_inb j) j.val 80 (congrFun (k1_off35_eq j) 0) (congrFun (k1_off35_eq j) 1) hj (by omega),
      rd_b1 fb (k1_off43 j) (k1_off43_inb j) j.val 208 (congrFun (k1_off43_eq j) 0) (congrFun (k1_off43_eq j) 1) hj (by omega),
      rd_b1 fb (k1_off51 j) (k1_off51_inb j) j.val 336 (congrFun (k1_off51_eq j) 0) (congrFun (k1_off51_eq j) 1) hj (by omega)]
    rfl
  | ⟨6, _⟩ =>
    show ((a6 (ix1 l) + shapeCast S16 (rd (F := Ideal) (Memref.whole cc1_scratch1) fb (k1_off36 j) (k1_off36_inb j)) shapeCasts_S1x16_S16 (ix1 l))
        + shapeCast S16 (rd (F := Ideal) (Memref.whole cc1_scratch1) fb (k1_off44 j) (k1_off44_inb j)) shapeCasts_S1x16_S16 (ix1 l))
        + shapeCast S16 (rd (F := Ideal) (Memref.whole cc1_scratch1) fb (k1_off52 j) (k1_off52_inb j)) shapeCasts_S1x16_S16 (ix1 l) = _
    rw [sc_apply, sc_apply, sc_apply,
      rd_b1 fb (k1_off36 j) (k1_off36_inb j) j.val 96 (congrFun (k1_off36_eq j) 0) (congrFun (k1_off36_eq j) 1) hj (by omega),
      rd_b1 fb (k1_off44 j) (k1_off44_inb j) j.val 224 (congrFun (k1_off44_eq j) 0) (congrFun (k1_off44_eq j) 1) hj (by omega),
      rd_b1 fb (k1_off52 j) (k1_off52_inb j) j.val 352 (congrFun (k1_off52_eq j) 0) (congrFun (k1_off52_eq j) 1) hj (by omega)]
    rfl
  | ⟨7, _⟩ =>
    show ((a7 (ix1 l) + shapeCast S16 (rd (F := Ideal) (Memref.whole cc1_scratch1) fb (k1_off37 j) (k1_off37_inb j)) shapeCasts_S1x16_S16 (ix1 l))
        + shapeCast S16 (rd (F := Ideal) (Memref.whole cc1_scratch1) fb (k1_off45 j) (k1_off45_inb j)) shapeCasts_S1x16_S16 (ix1 l))
        + shapeCast S16 (rd (F := Ideal) (Memref.whole cc1_scratch1) fb (k1_off53 j) (k1_off53_inb j)) shapeCasts_S1x16_S16 (ix1 l) = _
    rw [sc_apply, sc_apply, sc_apply,
      rd_b1 fb (k1_off37 j) (k1_off37_inb j) j.val 112 (congrFun (k1_off37_eq j) 0) (congrFun (k1_off37_eq j) 1) hj (by omega),
      rd_b1 fb (k1_off45 j) (k1_off45_inb j) j.val 240 (congrFun (k1_off45_eq j) 0) (congrFun (k1_off45_eq j) 1) hj (by omega),
      rd_b1 fb (k1_off53 j) (k1_off53_inb j) j.val 368 (congrFun (k1_off53_eq j) 0) (congrFun (k1_off53_eq j) 1) hj (by omega)]
    rfl
  | ⟨n + 8, h⟩ => exact absurd h (Nat.not_lt.2 (Nat.le_add_left _ _))

theorem trips4 : k1_t4_loop.trips ≤ 64 := k1_t4_abs.2.1

/-- One row added: accumulator a takes the row's vectors a, a + 8 and a + 16, in turn. -/
theorem step4_comp (fb : FVec Ideal S64x384 .f32) (j : Fin k1_t4_loop.trips) (A : Acc8 Ideal) (a : Fin 8) (l : Fin 16) :
    comp (step4 (F := Ideal) fb j A) a (ix1 l)
      = ((comp A a (ix1 l)
          + fb (ix2 (⟨j.val, lt_of_lt_of_le j.isLt trips4⟩ : Fin 64) (⟨a.val * 16 + l.val, by have := a.isLt; have := l.isLt; omega⟩ : Fin 384)))
          + fb (ix2 (⟨j.val, lt_of_lt_of_le j.isLt trips4⟩ : Fin 64) (⟨(a.val + 8) * 16 + l.val, by have := a.isLt; have := l.isLt; omega⟩ : Fin 384)))
          + fb (ix2 (⟨j.val, lt_of_lt_of_le j.isLt trips4⟩ : Fin 64) (⟨(a.val + 16) * 16 + l.val, by have := a.isLt; have := l.isLt; omega⟩ : Fin 384)) := by
  obtain ⟨a0, a1, a2, a3, a4, a5, a6, a7⟩ := A
  have hj : j.val < 64 := lt_of_lt_of_le j.isLt trips4
  have hl := l.isLt
  match a with
  | ⟨0, _⟩ =>
    show ((a0 (ix1 l) + shapeCast S16 (rd (F := Ideal) (Memref.whole cc1_scratch2) fb (k1_off55 j) (k1_off55_inb j)) shapeCasts_S1x16_S16 (ix1 l))
        + shapeCast S16 (rd (F := Ideal) (Memref.whole cc1_scratch2) fb (k1_off63 j) (k1_off63_inb j)) shapeCasts_S1x16_S16 (ix1 l))
        + shapeCast S16 (rd (F := Ideal) (Memref.whole cc1_scratch2) fb (k1_off71 j) (k1_off71_inb j)) shapeCasts_S1x16_S16 (ix1 l) = _
    rw [sc_apply, sc_apply, sc_apply,
      rd_b2 fb (k1_off55 j) (k1_off55_inb j) j.val 0 (congrFun (k1_off55_eq j) 0) (congrFun (k1_off55_eq j) 1) hj (by omega),
      rd_b2 fb (k1_off63 j) (k1_off63_inb j) j.val 128 (congrFun (k1_off63_eq j) 0) (congrFun (k1_off63_eq j) 1) hj (by omega),
      rd_b2 fb (k1_off71 j) (k1_off71_inb j) j.val 256 (congrFun (k1_off71_eq j) 0) (congrFun (k1_off71_eq j) 1) hj (by omega)]
    rfl
  | ⟨1, _⟩ =>
    show ((a1 (ix1 l) + shapeCast S16 (rd (F := Ideal) (Memref.whole cc1_scratch2) fb (k1_off56 j) (k1_off56_inb j)) shapeCasts_S1x16_S16 (ix1 l))
        + shapeCast S16 (rd (F := Ideal) (Memref.whole cc1_scratch2) fb (k1_off64 j) (k1_off64_inb j)) shapeCasts_S1x16_S16 (ix1 l))
        + shapeCast S16 (rd (F := Ideal) (Memref.whole cc1_scratch2) fb (k1_off72 j) (k1_off72_inb j)) shapeCasts_S1x16_S16 (ix1 l) = _
    rw [sc_apply, sc_apply, sc_apply,
      rd_b2 fb (k1_off56 j) (k1_off56_inb j) j.val 16 (congrFun (k1_off56_eq j) 0) (congrFun (k1_off56_eq j) 1) hj (by omega),
      rd_b2 fb (k1_off64 j) (k1_off64_inb j) j.val 144 (congrFun (k1_off64_eq j) 0) (congrFun (k1_off64_eq j) 1) hj (by omega),
      rd_b2 fb (k1_off72 j) (k1_off72_inb j) j.val 272 (congrFun (k1_off72_eq j) 0) (congrFun (k1_off72_eq j) 1) hj (by omega)]
    rfl
  | ⟨2, _⟩ =>
    show ((a2 (ix1 l) + shapeCast S16 (rd (F := Ideal) (Memref.whole cc1_scratch2) fb (k1_off57 j) (k1_off57_inb j)) shapeCasts_S1x16_S16 (ix1 l))
        + shapeCast S16 (rd (F := Ideal) (Memref.whole cc1_scratch2) fb (k1_off65 j) (k1_off65_inb j)) shapeCasts_S1x16_S16 (ix1 l))
        + shapeCast S16 (rd (F := Ideal) (Memref.whole cc1_scratch2) fb (k1_off73 j) (k1_off73_inb j)) shapeCasts_S1x16_S16 (ix1 l) = _
    rw [sc_apply, sc_apply, sc_apply,
      rd_b2 fb (k1_off57 j) (k1_off57_inb j) j.val 32 (congrFun (k1_off57_eq j) 0) (congrFun (k1_off57_eq j) 1) hj (by omega),
      rd_b2 fb (k1_off65 j) (k1_off65_inb j) j.val 160 (congrFun (k1_off65_eq j) 0) (congrFun (k1_off65_eq j) 1) hj (by omega),
      rd_b2 fb (k1_off73 j) (k1_off73_inb j) j.val 288 (congrFun (k1_off73_eq j) 0) (congrFun (k1_off73_eq j) 1) hj (by omega)]
    rfl
  | ⟨3, _⟩ =>
    show ((a3 (ix1 l) + shapeCast S16 (rd (F := Ideal) (Memref.whole cc1_scratch2) fb (k1_off58 j) (k1_off58_inb j)) shapeCasts_S1x16_S16 (ix1 l))
        + shapeCast S16 (rd (F := Ideal) (Memref.whole cc1_scratch2) fb (k1_off66 j) (k1_off66_inb j)) shapeCasts_S1x16_S16 (ix1 l))
        + shapeCast S16 (rd (F := Ideal) (Memref.whole cc1_scratch2) fb (k1_off74 j) (k1_off74_inb j)) shapeCasts_S1x16_S16 (ix1 l) = _
    rw [sc_apply, sc_apply, sc_apply,
      rd_b2 fb (k1_off58 j) (k1_off58_inb j) j.val 48 (congrFun (k1_off58_eq j) 0) (congrFun (k1_off58_eq j) 1) hj (by omega),
      rd_b2 fb (k1_off66 j) (k1_off66_inb j) j.val 176 (congrFun (k1_off66_eq j) 0) (congrFun (k1_off66_eq j) 1) hj (by omega),
      rd_b2 fb (k1_off74 j) (k1_off74_inb j) j.val 304 (congrFun (k1_off74_eq j) 0) (congrFun (k1_off74_eq j) 1) hj (by omega)]
    rfl
  | ⟨4, _⟩ =>
    show ((a4 (ix1 l) + shapeCast S16 (rd (F := Ideal) (Memref.whole cc1_scratch2) fb (k1_off59 j) (k1_off59_inb j)) shapeCasts_S1x16_S16 (ix1 l))
        + shapeCast S16 (rd (F := Ideal) (Memref.whole cc1_scratch2) fb (k1_off67 j) (k1_off67_inb j)) shapeCasts_S1x16_S16 (ix1 l))
        + shapeCast S16 (rd (F := Ideal) (Memref.whole cc1_scratch2) fb (k1_off75 j) (k1_off75_inb j)) shapeCasts_S1x16_S16 (ix1 l) = _
    rw [sc_apply, sc_apply, sc_apply,
      rd_b2 fb (k1_off59 j) (k1_off59_inb j) j.val 64 (congrFun (k1_off59_eq j) 0) (congrFun (k1_off59_eq j) 1) hj (by omega),
      rd_b2 fb (k1_off67 j) (k1_off67_inb j) j.val 192 (congrFun (k1_off67_eq j) 0) (congrFun (k1_off67_eq j) 1) hj (by omega),
      rd_b2 fb (k1_off75 j) (k1_off75_inb j) j.val 320 (congrFun (k1_off75_eq j) 0) (congrFun (k1_off75_eq j) 1) hj (by omega)]
    rfl
  | ⟨5, _⟩ =>
    show ((a5 (ix1 l) + shapeCast S16 (rd (F := Ideal) (Memref.whole cc1_scratch2) fb (k1_off60 j) (k1_off60_inb j)) shapeCasts_S1x16_S16 (ix1 l))
        + shapeCast S16 (rd (F := Ideal) (Memref.whole cc1_scratch2) fb (k1_off68 j) (k1_off68_inb j)) shapeCasts_S1x16_S16 (ix1 l))
        + shapeCast S16 (rd (F := Ideal) (Memref.whole cc1_scratch2) fb (k1_off76 j) (k1_off76_inb j)) shapeCasts_S1x16_S16 (ix1 l) = _
    rw [sc_apply, sc_apply, sc_apply,
      rd_b2 fb (k1_off60 j) (k1_off60_inb j) j.val 80 (congrFun (k1_off60_eq j) 0) (congrFun (k1_off60_eq j) 1) hj (by omega),
      rd_b2 fb (k1_off68 j) (k1_off68_inb j) j.val 208 (congrFun (k1_off68_eq j) 0) (congrFun (k1_off68_eq j) 1) hj (by omega),
      rd_b2 fb (k1_off76 j) (k1_off76_inb j) j.val 336 (congrFun (k1_off76_eq j) 0) (congrFun (k1_off76_eq j) 1) hj (by omega)]
    rfl
  | ⟨6, _⟩ =>
    show ((a6 (ix1 l) + shapeCast S16 (rd (F := Ideal) (Memref.whole cc1_scratch2) fb (k1_off61 j) (k1_off61_inb j)) shapeCasts_S1x16_S16 (ix1 l))
        + shapeCast S16 (rd (F := Ideal) (Memref.whole cc1_scratch2) fb (k1_off69 j) (k1_off69_inb j)) shapeCasts_S1x16_S16 (ix1 l))
        + shapeCast S16 (rd (F := Ideal) (Memref.whole cc1_scratch2) fb (k1_off77 j) (k1_off77_inb j)) shapeCasts_S1x16_S16 (ix1 l) = _
    rw [sc_apply, sc_apply, sc_apply,
      rd_b2 fb (k1_off61 j) (k1_off61_inb j) j.val 96 (congrFun (k1_off61_eq j) 0) (congrFun (k1_off61_eq j) 1) hj (by omega),
      rd_b2 fb (k1_off69 j) (k1_off69_inb j) j.val 224 (congrFun (k1_off69_eq j) 0) (congrFun (k1_off69_eq j) 1) hj (by omega),
      rd_b2 fb (k1_off77 j) (k1_off77_inb j) j.val 352 (congrFun (k1_off77_eq j) 0) (congrFun (k1_off77_eq j) 1) hj (by omega)]
    rfl
  | ⟨7, _⟩ =>
    show ((a7 (ix1 l) + shapeCast S16 (rd (F := Ideal) (Memref.whole cc1_scratch2) fb (k1_off62 j) (k1_off62_inb j)) shapeCasts_S1x16_S16 (ix1 l))
        + shapeCast S16 (rd (F := Ideal) (Memref.whole cc1_scratch2) fb (k1_off70 j) (k1_off70_inb j)) shapeCasts_S1x16_S16 (ix1 l))
        + shapeCast S16 (rd (F := Ideal) (Memref.whole cc1_scratch2) fb (k1_off78 j) (k1_off78_inb j)) shapeCasts_S1x16_S16 (ix1 l) = _
    rw [sc_apply, sc_apply, sc_apply,
      rd_b2 fb (k1_off62 j) (k1_off62_inb j) j.val 112 (congrFun (k1_off62_eq j) 0) (congrFun (k1_off62_eq j) 1) hj (by omega),
      rd_b2 fb (k1_off70 j) (k1_off70_inb j) j.val 240 (congrFun (k1_off70_eq j) 0) (congrFun (k1_off70_eq j) 1) hj (by omega),
      rd_b2 fb (k1_off78 j) (k1_off78_inb j) j.val 368 (congrFun (k1_off78_eq j) 0) (congrFun (k1_off78_eq j) 1) hj (by omega)]
    rfl
  | ⟨n + 8, h⟩ => exact absurd h (Nat.not_lt.2 (Nat.le_add_left _ _))

theorem trips5 : k1_t5_loop.trips ≤ 64 := k1_t5_abs.2.1

/-- One row added: accumulator a takes the row's vectors a, a + 8 and a + 16, in turn. -/
theorem step5_comp (fb : FVec Ideal S64x384 .f32) (j : Fin k1_t5_loop.trips) (A : Acc8 Ideal) (a : Fin 8) (l : Fin 16) :
    comp (step5 (F := Ideal) fb j A) a (ix1 l)
      = ((comp A a (ix1 l)
          + fb (ix2 (⟨j.val, lt_of_lt_of_le j.isLt trips5⟩ : Fin 64) (⟨a.val * 16 + l.val, by have := a.isLt; have := l.isLt; omega⟩ : Fin 384)))
          + fb (ix2 (⟨j.val, lt_of_lt_of_le j.isLt trips5⟩ : Fin 64) (⟨(a.val + 8) * 16 + l.val, by have := a.isLt; have := l.isLt; omega⟩ : Fin 384)))
          + fb (ix2 (⟨j.val, lt_of_lt_of_le j.isLt trips5⟩ : Fin 64) (⟨(a.val + 16) * 16 + l.val, by have := a.isLt; have := l.isLt; omega⟩ : Fin 384)) := by
  obtain ⟨a0, a1, a2, a3, a4, a5, a6, a7⟩ := A
  have hj : j.val < 64 := lt_of_lt_of_le j.isLt trips5
  have hl := l.isLt
  match a with
  | ⟨0, _⟩ =>
    show ((a0 (ix1 l) + shapeCast S16 (rd (F := Ideal) (Memref.whole cc1_scratch0) fb (k1_off80 j) (k1_off80_inb j)) shapeCasts_S1x16_S16 (ix1 l))
        + shapeCast S16 (rd (F := Ideal) (Memref.whole cc1_scratch0) fb (k1_off88 j) (k1_off88_inb j)) shapeCasts_S1x16_S16 (ix1 l))
        + shapeCast S16 (rd (F := Ideal) (Memref.whole cc1_scratch0) fb (k1_off96 j) (k1_off96_inb j)) shapeCasts_S1x16_S16 (ix1 l) = _
    rw [sc_apply, sc_apply, sc_apply,
      rd_b0 fb (k1_off80 j) (k1_off80_inb j) j.val 0 (congrFun (k1_off80_eq j) 0) (congrFun (k1_off80_eq j) 1) hj (by omega),
      rd_b0 fb (k1_off88 j) (k1_off88_inb j) j.val 128 (congrFun (k1_off88_eq j) 0) (congrFun (k1_off88_eq j) 1) hj (by omega),
      rd_b0 fb (k1_off96 j) (k1_off96_inb j) j.val 256 (congrFun (k1_off96_eq j) 0) (congrFun (k1_off96_eq j) 1) hj (by omega)]
    rfl
  | ⟨1, _⟩ =>
    show ((a1 (ix1 l) + shapeCast S16 (rd (F := Ideal) (Memref.whole cc1_scratch0) fb (k1_off81 j) (k1_off81_inb j)) shapeCasts_S1x16_S16 (ix1 l))
        + shapeCast S16 (rd (F := Ideal) (Memref.whole cc1_scratch0) fb (k1_off89 j) (k1_off89_inb j)) shapeCasts_S1x16_S16 (ix1 l))
        + shapeCast S16 (rd (F := Ideal) (Memref.whole cc1_scratch0) fb (k1_off97 j) (k1_off97_inb j)) shapeCasts_S1x16_S16 (ix1 l) = _
    rw [sc_apply, sc_apply, sc_apply,
      rd_b0 fb (k1_off81 j) (k1_off81_inb j) j.val 16 (congrFun (k1_off81_eq j) 0) (congrFun (k1_off81_eq j) 1) hj (by omega),
      rd_b0 fb (k1_off89 j) (k1_off89_inb j) j.val 144 (congrFun (k1_off89_eq j) 0) (congrFun (k1_off89_eq j) 1) hj (by omega),
      rd_b0 fb (k1_off97 j) (k1_off97_inb j) j.val 272 (congrFun (k1_off97_eq j) 0) (congrFun (k1_off97_eq j) 1) hj (by omega)]
    rfl
  | ⟨2, _⟩ =>
    show ((a2 (ix1 l) + shapeCast S16 (rd (F := Ideal) (Memref.whole cc1_scratch0) fb (k1_off82 j) (k1_off82_inb j)) shapeCasts_S1x16_S16 (ix1 l))
        + shapeCast S16 (rd (F := Ideal) (Memref.whole cc1_scratch0) fb (k1_off90 j) (k1_off90_inb j)) shapeCasts_S1x16_S16 (ix1 l))
        + shapeCast S16 (rd (F := Ideal) (Memref.whole cc1_scratch0) fb (k1_off98 j) (k1_off98_inb j)) shapeCasts_S1x16_S16 (ix1 l) = _
    rw [sc_apply, sc_apply, sc_apply,
      rd_b0 fb (k1_off82 j) (k1_off82_inb j) j.val 32 (congrFun (k1_off82_eq j) 0) (congrFun (k1_off82_eq j) 1) hj (by omega),
      rd_b0 fb (k1_off90 j) (k1_off90_inb j) j.val 160 (congrFun (k1_off90_eq j) 0) (congrFun (k1_off90_eq j) 1) hj (by omega),
      rd_b0 fb (k1_off98 j) (k1_off98_inb j) j.val 288 (congrFun (k1_off98_eq j) 0) (congrFun (k1_off98_eq j) 1) hj (by omega)]
    rfl
  | ⟨3, _⟩ =>
    show ((a3 (ix1 l) + shapeCast S16 (rd (F := Ideal) (Memref.whole cc1_scratch0) fb (k1_off83 j) (k1_off83_inb j)) shapeCasts_S1x16_S16 (ix1 l))
        + shapeCast S16 (rd (F := Ideal) (Memref.whole cc1_scratch0) fb (k1_off91 j) (k1_off91_inb j)) shapeCasts_S1x16_S16 (ix1 l))
        + shapeCast S16 (rd (F := Ideal) (Memref.whole cc1_scratch0) fb (k1_off99 j) (k1_off99_inb j)) shapeCasts_S1x16_S16 (ix1 l) = _
    rw [sc_apply, sc_apply, sc_apply,
      rd_b0 fb (k1_off83 j) (k1_off83_inb j) j.val 48 (congrFun (k1_off83_eq j) 0) (congrFun (k1_off83_eq j) 1) hj (by omega),
      rd_b0 fb (k1_off91 j) (k1_off91_inb j) j.val 176 (congrFun (k1_off91_eq j) 0) (congrFun (k1_off91_eq j) 1) hj (by omega),
      rd_b0 fb (k1_off99 j) (k1_off99_inb j) j.val 304 (congrFun (k1_off99_eq j) 0) (congrFun (k1_off99_eq j) 1) hj (by omega)]
    rfl
  | ⟨4, _⟩ =>
    show ((a4 (ix1 l) + shapeCast S16 (rd (F := Ideal) (Memref.whole cc1_scratch0) fb (k1_off84 j) (k1_off84_inb j)) shapeCasts_S1x16_S16 (ix1 l))
        + shapeCast S16 (rd (F := Ideal) (Memref.whole cc1_scratch0) fb (k1_off92 j) (k1_off92_inb j)) shapeCasts_S1x16_S16 (ix1 l))
        + shapeCast S16 (rd (F := Ideal) (Memref.whole cc1_scratch0) fb (k1_off100 j) (k1_off100_inb j)) shapeCasts_S1x16_S16 (ix1 l) = _
    rw [sc_apply, sc_apply, sc_apply,
      rd_b0 fb (k1_off84 j) (k1_off84_inb j) j.val 64 (congrFun (k1_off84_eq j) 0) (congrFun (k1_off84_eq j) 1) hj (by omega),
      rd_b0 fb (k1_off92 j) (k1_off92_inb j) j.val 192 (congrFun (k1_off92_eq j) 0) (congrFun (k1_off92_eq j) 1) hj (by omega),
      rd_b0 fb (k1_off100 j) (k1_off100_inb j) j.val 320 (congrFun (k1_off100_eq j) 0) (congrFun (k1_off100_eq j) 1) hj (by omega)]
    rfl
  | ⟨5, _⟩ =>
    show ((a5 (ix1 l) + shapeCast S16 (rd (F := Ideal) (Memref.whole cc1_scratch0) fb (k1_off85 j) (k1_off85_inb j)) shapeCasts_S1x16_S16 (ix1 l))
        + shapeCast S16 (rd (F := Ideal) (Memref.whole cc1_scratch0) fb (k1_off93 j) (k1_off93_inb j)) shapeCasts_S1x16_S16 (ix1 l))
        + shapeCast S16 (rd (F := Ideal) (Memref.whole cc1_scratch0) fb (k1_off101 j) (k1_off101_inb j)) shapeCasts_S1x16_S16 (ix1 l) = _
    rw [sc_apply, sc_apply, sc_apply,
      rd_b0 fb (k1_off85 j) (k1_off85_inb j) j.val 80 (congrFun (k1_off85_eq j) 0) (congrFun (k1_off85_eq j) 1) hj (by omega),
      rd_b0 fb (k1_off93 j) (k1_off93_inb j) j.val 208 (congrFun (k1_off93_eq j) 0) (congrFun (k1_off93_eq j) 1) hj (by omega),
      rd_b0 fb (k1_off101 j) (k1_off101_inb j) j.val 336 (congrFun (k1_off101_eq j) 0) (congrFun (k1_off101_eq j) 1) hj (by omega)]
    rfl
  | ⟨6, _⟩ =>
    show ((a6 (ix1 l) + shapeCast S16 (rd (F := Ideal) (Memref.whole cc1_scratch0) fb (k1_off86 j) (k1_off86_inb j)) shapeCasts_S1x16_S16 (ix1 l))
        + shapeCast S16 (rd (F := Ideal) (Memref.whole cc1_scratch0) fb (k1_off94 j) (k1_off94_inb j)) shapeCasts_S1x16_S16 (ix1 l))
        + shapeCast S16 (rd (F := Ideal) (Memref.whole cc1_scratch0) fb (k1_off102 j) (k1_off102_inb j)) shapeCasts_S1x16_S16 (ix1 l) = _
    rw [sc_apply, sc_apply, sc_apply,
      rd_b0 fb (k1_off86 j) (k1_off86_inb j) j.val 96 (congrFun (k1_off86_eq j) 0) (congrFun (k1_off86_eq j) 1) hj (by omega),
      rd_b0 fb (k1_off94 j) (k1_off94_inb j) j.val 224 (congrFun (k1_off94_eq j) 0) (congrFun (k1_off94_eq j) 1) hj (by omega),
      rd_b0 fb (k1_off102 j) (k1_off102_inb j) j.val 352 (congrFun (k1_off102_eq j) 0) (congrFun (k1_off102_eq j) 1) hj (by omega)]
    rfl
  | ⟨7, _⟩ =>
    show ((a7 (ix1 l) + shapeCast S16 (rd (F := Ideal) (Memref.whole cc1_scratch0) fb (k1_off87 j) (k1_off87_inb j)) shapeCasts_S1x16_S16 (ix1 l))
        + shapeCast S16 (rd (F := Ideal) (Memref.whole cc1_scratch0) fb (k1_off95 j) (k1_off95_inb j)) shapeCasts_S1x16_S16 (ix1 l))
        + shapeCast S16 (rd (F := Ideal) (Memref.whole cc1_scratch0) fb (k1_off103 j) (k1_off103_inb j)) shapeCasts_S1x16_S16 (ix1 l) = _
    rw [sc_apply, sc_apply, sc_apply,
      rd_b0 fb (k1_off87 j) (k1_off87_inb j) j.val 112 (congrFun (k1_off87_eq j) 0) (congrFun (k1_off87_eq j) 1) hj (by omega),
      rd_b0 fb (k1_off95 j) (k1_off95_inb j) j.val 240 (congrFun (k1_off95_eq j) 0) (congrFun (k1_off95_eq j) 1) hj (by omega),
      rd_b0 fb (k1_off103 j) (k1_off103_inb j) j.val 368 (congrFun (k1_off103_eq j) 0) (congrFun (k1_off103_eq j) 1) hj (by omega)]
    rfl
  | ⟨n + 8, h⟩ => exact absurd h (Nat.not_lt.2 (Nat.le_add_left _ _))

theorem trips6 : k1_t6_loop.trips ≤ 64 := k1_t6_abs.2.1

/-- One row added: accumulator a takes the row's vectors a, a + 8 and a + 16, in turn. -/
theorem step6_comp (fb : FVec Ideal S64x384 .f32) (j : Fin k1_t6_loop.trips) (A : Acc8 Ideal) (a : Fin 8) (l : Fin 16) :
    comp (step6 (F := Ideal) fb j A) a (ix1 l)
      = ((comp A a (ix1 l)
          + fb (ix2 (⟨j.val, lt_of_lt_of_le j.isLt trips6⟩ : Fin 64) (⟨a.val * 16 + l.val, by have := a.isLt; have := l.isLt; omega⟩ : Fin 384)))
          + fb (ix2 (⟨j.val, lt_of_lt_of_le j.isLt trips6⟩ : Fin 64) (⟨(a.val + 8) * 16 + l.val, by have := a.isLt; have := l.isLt; omega⟩ : Fin 384)))
          + fb (ix2 (⟨j.val, lt_of_lt_of_le j.isLt trips6⟩ : Fin 64) (⟨(a.val + 16) * 16 + l.val, by have := a.isLt; have := l.isLt; omega⟩ : Fin 384)) := by
  obtain ⟨a0, a1, a2, a3, a4, a5, a6, a7⟩ := A
  have hj : j.val < 64 := lt_of_lt_of_le j.isLt trips6
  have hl := l.isLt
  match a with
  | ⟨0, _⟩ =>
    show ((a0 (ix1 l) + shapeCast S16 (rd (F := Ideal) (Memref.whole cc1_scratch1) fb (k1_off105 j) (k1_off105_inb j)) shapeCasts_S1x16_S16 (ix1 l))
        + shapeCast S16 (rd (F := Ideal) (Memref.whole cc1_scratch1) fb (k1_off113 j) (k1_off113_inb j)) shapeCasts_S1x16_S16 (ix1 l))
        + shapeCast S16 (rd (F := Ideal) (Memref.whole cc1_scratch1) fb (k1_off121 j) (k1_off121_inb j)) shapeCasts_S1x16_S16 (ix1 l) = _
    rw [sc_apply, sc_apply, sc_apply,
      rd_b1 fb (k1_off105 j) (k1_off105_inb j) j.val 0 (congrFun (k1_off105_eq j) 0) (congrFun (k1_off105_eq j) 1) hj (by omega),
      rd_b1 fb (k1_off113 j) (k1_off113_inb j) j.val 128 (congrFun (k1_off113_eq j) 0) (congrFun (k1_off113_eq j) 1) hj (by omega),
      rd_b1 fb (k1_off121 j) (k1_off121_inb j) j.val 256 (congrFun (k1_off121_eq j) 0) (congrFun (k1_off121_eq j) 1) hj (by omega)]
    rfl
  | ⟨1, _⟩ =>
    show ((a1 (ix1 l) + shapeCast S16 (rd (F := Ideal) (Memref.whole cc1_scratch1) fb (k1_off106 j) (k1_off106_inb j)) shapeCasts_S1x16_S16 (ix1 l))
        + shapeCast S16 (rd (F := Ideal) (Memref.whole cc1_scratch1) fb (k1_off114 j) (k1_off114_inb j)) shapeCasts_S1x16_S16 (ix1 l))
        + shapeCast S16 (rd (F := Ideal) (Memref.whole cc1_scratch1) fb (k1_off122 j) (k1_off122_inb j)) shapeCasts_S1x16_S16 (ix1 l) = _
    rw [sc_apply, sc_apply, sc_apply,
      rd_b1 fb (k1_off106 j) (k1_off106_inb j) j.val 16 (congrFun (k1_off106_eq j) 0) (congrFun (k1_off106_eq j) 1) hj (by omega),
      rd_b1 fb (k1_off114 j) (k1_off114_inb j) j.val 144 (congrFun (k1_off114_eq j) 0) (congrFun (k1_off114_eq j) 1) hj (by omega),
      rd_b1 fb (k1_off122 j) (k1_off122_inb j) j.val 272 (congrFun (k1_off122_eq j) 0) (congrFun (k1_off122_eq j) 1) hj (by omega)]
    rfl
  | ⟨2, _⟩ =>
    show ((a2 (ix1 l) + shapeCast S16 (rd (F := Ideal) (Memref.whole cc1_scratch1) fb (k1_off107 j) (k1_off107_inb j)) shapeCasts_S1x16_S16 (ix1 l))
        + shapeCast S16 (rd (F := Ideal) (Memref.whole cc1_scratch1) fb (k1_off115 j) (k1_off115_inb j)) shapeCasts_S1x16_S16 (ix1 l))
        + shapeCast S16 (rd (F := Ideal) (Memref.whole cc1_scratch1) fb (k1_off123 j) (k1_off123_inb j)) shapeCasts_S1x16_S16 (ix1 l) = _
    rw [sc_apply, sc_apply, sc_apply,
      rd_b1 fb (k1_off107 j) (k1_off107_inb j) j.val 32 (congrFun (k1_off107_eq j) 0) (congrFun (k1_off107_eq j) 1) hj (by omega),
      rd_b1 fb (k1_off115 j) (k1_off115_inb j) j.val 160 (congrFun (k1_off115_eq j) 0) (congrFun (k1_off115_eq j) 1) hj (by omega),
      rd_b1 fb (k1_off123 j) (k1_off123_inb j) j.val 288 (congrFun (k1_off123_eq j) 0) (congrFun (k1_off123_eq j) 1) hj (by omega)]
    rfl
  | ⟨3, _⟩ =>
    show ((a3 (ix1 l) + shapeCast S16 (rd (F := Ideal) (Memref.whole cc1_scratch1) fb (k1_off108 j) (k1_off108_inb j)) shapeCasts_S1x16_S16 (ix1 l))
        + shapeCast S16 (rd (F := Ideal) (Memref.whole cc1_scratch1) fb (k1_off116 j) (k1_off116_inb j)) shapeCasts_S1x16_S16 (ix1 l))
        + shapeCast S16 (rd (F := Ideal) (Memref.whole cc1_scratch1) fb (k1_off124 j) (k1_off124_inb j)) shapeCasts_S1x16_S16 (ix1 l) = _
    rw [sc_apply, sc_apply, sc_apply,
      rd_b1 fb (k1_off108 j) (k1_off108_inb j) j.val 48 (congrFun (k1_off108_eq j) 0) (congrFun (k1_off108_eq j) 1) hj (by omega),
      rd_b1 fb (k1_off116 j) (k1_off116_inb j) j.val 176 (congrFun (k1_off116_eq j) 0) (congrFun (k1_off116_eq j) 1) hj (by omega),
      rd_b1 fb (k1_off124 j) (k1_off124_inb j) j.val 304 (congrFun (k1_off124_eq j) 0) (congrFun (k1_off124_eq j) 1) hj (by omega)]
    rfl
  | ⟨4, _⟩ =>
    show ((a4 (ix1 l) + shapeCast S16 (rd (F := Ideal) (Memref.whole cc1_scratch1) fb (k1_off109 j) (k1_off109_inb j)) shapeCasts_S1x16_S16 (ix1 l))
        + shapeCast S16 (rd (F := Ideal) (Memref.whole cc1_scratch1) fb (k1_off117 j) (k1_off117_inb j)) shapeCasts_S1x16_S16 (ix1 l))
        + shapeCast S16 (rd (F := Ideal) (Memref.whole cc1_scratch1) fb (k1_off125 j) (k1_off125_inb j)) shapeCasts_S1x16_S16 (ix1 l) = _
    rw [sc_apply, sc_apply, sc_apply,
      rd_b1 fb (k1_off109 j) (k1_off109_inb j) j.val 64 (congrFun (k1_off109_eq j) 0) (congrFun (k1_off109_eq j) 1) hj (by omega),
      rd_b1 fb (k1_off117 j) (k1_off117_inb j) j.val 192 (congrFun (k1_off117_eq j) 0) (congrFun (k1_off117_eq j) 1) hj (by omega),
      rd_b1 fb (k1_off125 j) (k1_off125_inb j) j.val 320 (congrFun (k1_off125_eq j) 0) (congrFun (k1_off125_eq j) 1) hj (by omega)]
    rfl
  | ⟨5, _⟩ =>
    show ((a5 (ix1 l) + shapeCast S16 (rd (F := Ideal) (Memref.whole cc1_scratch1) fb (k1_off110 j) (k1_off110_inb j)) shapeCasts_S1x16_S16 (ix1 l))
        + shapeCast S16 (rd (F := Ideal) (Memref.whole cc1_scratch1) fb (k1_off118 j) (k1_off118_inb j)) shapeCasts_S1x16_S16 (ix1 l))
        + shapeCast S16 (rd (F := Ideal) (Memref.whole cc1_scratch1) fb (k1_off126 j) (k1_off126_inb j)) shapeCasts_S1x16_S16 (ix1 l) = _
    rw [sc_apply, sc_apply, sc_apply,
      rd_b1 fb (k1_off110 j) (k1_off110_inb j) j.val 80 (congrFun (k1_off110_eq j) 0) (congrFun (k1_off110_eq j) 1) hj (by omega),
      rd_b1 fb (k1_off118 j) (k1_off118_inb j) j.val 208 (congrFun (k1_off118_eq j) 0) (congrFun (k1_off118_eq j) 1) hj (by omega),
      rd_b1 fb (k1_off126 j) (k1_off126_inb j) j.val 336 (congrFun (k1_off126_eq j) 0) (congrFun (k1_off126_eq j) 1) hj (by omega)]
    rfl
  | ⟨6, _⟩ =>
    show ((a6 (ix1 l) + shapeCast S16 (rd (F := Ideal) (Memref.whole cc1_scratch1) fb (k1_off111 j) (k1_off111_inb j)) shapeCasts_S1x16_S16 (ix1 l))
        + shapeCast S16 (rd (F := Ideal) (Memref.whole cc1_scratch1) fb (k1_off119 j) (k1_off119_inb j)) shapeCasts_S1x16_S16 (ix1 l))
        + shapeCast S16 (rd (F := Ideal) (Memref.whole cc1_scratch1) fb (k1_off127 j) (k1_off127_inb j)) shapeCasts_S1x16_S16 (ix1 l) = _
    rw [sc_apply, sc_apply, sc_apply,
      rd_b1 fb (k1_off111 j) (k1_off111_inb j) j.val 96 (congrFun (k1_off111_eq j) 0) (congrFun (k1_off111_eq j) 1) hj (by omega),
      rd_b1 fb (k1_off119 j) (k1_off119_inb j) j.val 224 (congrFun (k1_off119_eq j) 0) (congrFun (k1_off119_eq j) 1) hj (by omega),
      rd_b1 fb (k1_off127 j) (k1_off127_inb j) j.val 352 (congrFun (k1_off127_eq j) 0) (congrFun (k1_off127_eq j) 1) hj (by omega)]
    rfl
  | ⟨7, _⟩ =>
    show ((a7 (ix1 l) + shapeCast S16 (rd (F := Ideal) (Memref.whole cc1_scratch1) fb (k1_off112 j) (k1_off112_inb j)) shapeCasts_S1x16_S16 (ix1 l))
        + shapeCast S16 (rd (F := Ideal) (Memref.whole cc1_scratch1) fb (k1_off120 j) (k1_off120_inb j)) shapeCasts_S1x16_S16 (ix1 l))
        + shapeCast S16 (rd (F := Ideal) (Memref.whole cc1_scratch1) fb (k1_off128 j) (k1_off128_inb j)) shapeCasts_S1x16_S16 (ix1 l) = _
    rw [sc_apply, sc_apply, sc_apply,
      rd_b1 fb (k1_off112 j) (k1_off112_inb j) j.val 112 (congrFun (k1_off112_eq j) 0) (congrFun (k1_off112_eq j) 1) hj (by omega),
      rd_b1 fb (k1_off120 j) (k1_off120_inb j) j.val 240 (congrFun (k1_off120_eq j) 0) (congrFun (k1_off120_eq j) 1) hj (by omega),
      rd_b1 fb (k1_off128 j) (k1_off128_inb j) j.val 368 (congrFun (k1_off128_eq j) 0) (congrFun (k1_off128_eq j) 1) hj (by omega)]
    rfl
  | ⟨n + 8, h⟩ => exact absurd h (Nat.not_lt.2 (Nat.le_add_left _ _))

theorem trips7 : k1_t7_loop.trips ≤ 64 := k1_t7_abs.2.1

/-- One row added: accumulator a takes the row's vectors a, a + 8 and a + 16, in turn. -/
theorem step7_comp (fb : FVec Ideal S64x384 .f32) (j : Fin k1_t7_loop.trips) (A : Acc8 Ideal) (a : Fin 8) (l : Fin 16) :
    comp (step7 (F := Ideal) fb j A) a (ix1 l)
      = ((comp A a (ix1 l)
          + fb (ix2 (⟨j.val, lt_of_lt_of_le j.isLt trips7⟩ : Fin 64) (⟨a.val * 16 + l.val, by have := a.isLt; have := l.isLt; omega⟩ : Fin 384)))
          + fb (ix2 (⟨j.val, lt_of_lt_of_le j.isLt trips7⟩ : Fin 64) (⟨(a.val + 8) * 16 + l.val, by have := a.isLt; have := l.isLt; omega⟩ : Fin 384)))
          + fb (ix2 (⟨j.val, lt_of_lt_of_le j.isLt trips7⟩ : Fin 64) (⟨(a.val + 16) * 16 + l.val, by have := a.isLt; have := l.isLt; omega⟩ : Fin 384)) := by
  obtain ⟨a0, a1, a2, a3, a4, a5, a6, a7⟩ := A
  have hj : j.val < 64 := lt_of_lt_of_le j.isLt trips7
  have hl := l.isLt
  match a with
  | ⟨0, _⟩ =>
    show ((a0 (ix1 l) + shapeCast S16 (rd (F := Ideal) (Memref.whole cc1_scratch2) fb (k1_off130 j) (k1_off130_inb j)) shapeCasts_S1x16_S16 (ix1 l))
        + shapeCast S16 (rd (F := Ideal) (Memref.whole cc1_scratch2) fb (k1_off138 j) (k1_off138_inb j)) shapeCasts_S1x16_S16 (ix1 l))
        + shapeCast S16 (rd (F := Ideal) (Memref.whole cc1_scratch2) fb (k1_off146 j) (k1_off146_inb j)) shapeCasts_S1x16_S16 (ix1 l) = _
    rw [sc_apply, sc_apply, sc_apply,
      rd_b2 fb (k1_off130 j) (k1_off130_inb j) j.val 0 (congrFun (k1_off130_eq j) 0) (congrFun (k1_off130_eq j) 1) hj (by omega),
      rd_b2 fb (k1_off138 j) (k1_off138_inb j) j.val 128 (congrFun (k1_off138_eq j) 0) (congrFun (k1_off138_eq j) 1) hj (by omega),
      rd_b2 fb (k1_off146 j) (k1_off146_inb j) j.val 256 (congrFun (k1_off146_eq j) 0) (congrFun (k1_off146_eq j) 1) hj (by omega)]
    rfl
  | ⟨1, _⟩ =>
    show ((a1 (ix1 l) + shapeCast S16 (rd (F := Ideal) (Memref.whole cc1_scratch2) fb (k1_off131 j) (k1_off131_inb j)) shapeCasts_S1x16_S16 (ix1 l))
        + shapeCast S16 (rd (F := Ideal) (Memref.whole cc1_scratch2) fb (k1_off139 j) (k1_off139_inb j)) shapeCasts_S1x16_S16 (ix1 l))
        + shapeCast S16 (rd (F := Ideal) (Memref.whole cc1_scratch2) fb (k1_off147 j) (k1_off147_inb j)) shapeCasts_S1x16_S16 (ix1 l) = _
    rw [sc_apply, sc_apply, sc_apply,
      rd_b2 fb (k1_off131 j) (k1_off131_inb j) j.val 16 (congrFun (k1_off131_eq j) 0) (congrFun (k1_off131_eq j) 1) hj (by omega),
      rd_b2 fb (k1_off139 j) (k1_off139_inb j) j.val 144 (congrFun (k1_off139_eq j) 0) (congrFun (k1_off139_eq j) 1) hj (by omega),
      rd_b2 fb (k1_off147 j) (k1_off147_inb j) j.val 272 (congrFun (k1_off147_eq j) 0) (congrFun (k1_off147_eq j) 1) hj (by omega)]
    rfl
  | ⟨2, _⟩ =>
    show ((a2 (ix1 l) + shapeCast S16 (rd (F := Ideal) (Memref.whole cc1_scratch2) fb (k1_off132 j) (k1_off132_inb j)) shapeCasts_S1x16_S16 (ix1 l))
        + shapeCast S16 (rd (F := Ideal) (Memref.whole cc1_scratch2) fb (k1_off140 j) (k1_off140_inb j)) shapeCasts_S1x16_S16 (ix1 l))
        + shapeCast S16 (rd (F := Ideal) (Memref.whole cc1_scratch2) fb (k1_off148 j) (k1_off148_inb j)) shapeCasts_S1x16_S16 (ix1 l) = _
    rw [sc_apply, sc_apply, sc_apply,
      rd_b2 fb (k1_off132 j) (k1_off132_inb j) j.val 32 (congrFun (k1_off132_eq j) 0) (congrFun (k1_off132_eq j) 1) hj (by omega),
      rd_b2 fb (k1_off140 j) (k1_off140_inb j) j.val 160 (congrFun (k1_off140_eq j) 0) (congrFun (k1_off140_eq j) 1) hj (by omega),
      rd_b2 fb (k1_off148 j) (k1_off148_inb j) j.val 288 (congrFun (k1_off148_eq j) 0) (congrFun (k1_off148_eq j) 1) hj (by omega)]
    rfl
  | ⟨3, _⟩ =>
    show ((a3 (ix1 l) + shapeCast S16 (rd (F := Ideal) (Memref.whole cc1_scratch2) fb (k1_off133 j) (k1_off133_inb j)) shapeCasts_S1x16_S16 (ix1 l))
        + shapeCast S16 (rd (F := Ideal) (Memref.whole cc1_scratch2) fb (k1_off141 j) (k1_off141_inb j)) shapeCasts_S1x16_S16 (ix1 l))
        + shapeCast S16 (rd (F := Ideal) (Memref.whole cc1_scratch2) fb (k1_off149 j) (k1_off149_inb j)) shapeCasts_S1x16_S16 (ix1 l) = _
    rw [sc_apply, sc_apply, sc_apply,
      rd_b2 fb (k1_off133 j) (k1_off133_inb j) j.val 48 (congrFun (k1_off133_eq j) 0) (congrFun (k1_off133_eq j) 1) hj (by omega),
      rd_b2 fb (k1_off141 j) (k1_off141_inb j) j.val 176 (congrFun (k1_off141_eq j) 0) (congrFun (k1_off141_eq j) 1) hj (by omega),
      rd_b2 fb (k1_off149 j) (k1_off149_inb j) j.val 304 (congrFun (k1_off149_eq j) 0) (congrFun (k1_off149_eq j) 1) hj (by omega)]
    rfl
  | ⟨4, _⟩ =>
    show ((a4 (ix1 l) + shapeCast S16 (rd (F := Ideal) (Memref.whole cc1_scratch2) fb (k1_off134 j) (k1_off134_inb j)) shapeCasts_S1x16_S16 (ix1 l))
        + shapeCast S16 (rd (F := Ideal) (Memref.whole cc1_scratch2) fb (k1_off142 j) (k1_off142_inb j)) shapeCasts_S1x16_S16 (ix1 l))
        + shapeCast S16 (rd (F := Ideal) (Memref.whole cc1_scratch2) fb (k1_off150 j) (k1_off150_inb j)) shapeCasts_S1x16_S16 (ix1 l) = _
    rw [sc_apply, sc_apply, sc_apply,
      rd_b2 fb (k1_off134 j) (k1_off134_inb j) j.val 64 (congrFun (k1_off134_eq j) 0) (congrFun (k1_off134_eq j) 1) hj (by omega),
      rd_b2 fb (k1_off142 j) (k1_off142_inb j) j.val 192 (congrFun (k1_off142_eq j) 0) (congrFun (k1_off142_eq j) 1) hj (by omega),
      rd_b2 fb (k1_off150 j) (k1_off150_inb j) j.val 320 (congrFun (k1_off150_eq j) 0) (congrFun (k1_off150_eq j) 1) hj (by omega)]
    rfl
  | ⟨5, _⟩ =>
    show ((a5 (ix1 l) + shapeCast S16 (rd (F := Ideal) (Memref.whole cc1_scratch2) fb (k1_off135 j) (k1_off135_inb j)) shapeCasts_S1x16_S16 (ix1 l))
        + shapeCast S16 (rd (F := Ideal) (Memref.whole cc1_scratch2) fb (k1_off143 j) (k1_off143_inb j)) shapeCasts_S1x16_S16 (ix1 l))
        + shapeCast S16 (rd (F := Ideal) (Memref.whole cc1_scratch2) fb (k1_off151 j) (k1_off151_inb j)) shapeCasts_S1x16_S16 (ix1 l) = _
    rw [sc_apply, sc_apply, sc_apply,
      rd_b2 fb (k1_off135 j) (k1_off135_inb j) j.val 80 (congrFun (k1_off135_eq j) 0) (congrFun (k1_off135_eq j) 1) hj (by omega),
      rd_b2 fb (k1_off143 j) (k1_off143_inb j) j.val 208 (congrFun (k1_off143_eq j) 0) (congrFun (k1_off143_eq j) 1) hj (by omega),
      rd_b2 fb (k1_off151 j) (k1_off151_inb j) j.val 336 (congrFun (k1_off151_eq j) 0) (congrFun (k1_off151_eq j) 1) hj (by omega)]
    rfl
  | ⟨6, _⟩ =>
    show ((a6 (ix1 l) + shapeCast S16 (rd (F := Ideal) (Memref.whole cc1_scratch2) fb (k1_off136 j) (k1_off136_inb j)) shapeCasts_S1x16_S16 (ix1 l))
        + shapeCast S16 (rd (F := Ideal) (Memref.whole cc1_scratch2) fb (k1_off144 j) (k1_off144_inb j)) shapeCasts_S1x16_S16 (ix1 l))
        + shapeCast S16 (rd (F := Ideal) (Memref.whole cc1_scratch2) fb (k1_off152 j) (k1_off152_inb j)) shapeCasts_S1x16_S16 (ix1 l) = _
    rw [sc_apply, sc_apply, sc_apply,
      rd_b2 fb (k1_off136 j) (k1_off136_inb j) j.val 96 (congrFun (k1_off136_eq j) 0) (congrFun (k1_off136_eq j) 1) hj (by omega),
      rd_b2 fb (k1_off144 j) (k1_off144_inb j) j.val 224 (congrFun (k1_off144_eq j) 0) (congrFun (k1_off144_eq j) 1) hj (by omega),
      rd_b2 fb (k1_off152 j) (k1_off152_inb j) j.val 352 (congrFun (k1_off152_eq j) 0) (congrFun (k1_off152_eq j) 1) hj (by omega)]
    rfl
  | ⟨7, _⟩ =>
    show ((a7 (ix1 l) + shapeCast S16 (rd (F := Ideal) (Memref.whole cc1_scratch2) fb (k1_off137 j) (k1_off137_inb j)) shapeCasts_S1x16_S16 (ix1 l))
        + shapeCast S16 (rd (F := Ideal) (Memref.whole cc1_scratch2) fb (k1_off145 j) (k1_off145_inb j)) shapeCasts_S1x16_S16 (ix1 l))
        + shapeCast S16 (rd (F := Ideal) (Memref.whole cc1_scratch2) fb (k1_off153 j) (k1_off153_inb j)) shapeCasts_S1x16_S16 (ix1 l) = _
    rw [sc_apply, sc_apply, sc_apply,
      rd_b2 fb (k1_off137 j) (k1_off137_inb j) j.val 112 (congrFun (k1_off137_eq j) 0) (congrFun (k1_off137_eq j) 1) hj (by omega),
      rd_b2 fb (k1_off145 j) (k1_off145_inb j) j.val 240 (congrFun (k1_off145_eq j) 0) (congrFun (k1_off145_eq j) 1) hj (by omega),
      rd_b2 fb (k1_off153 j) (k1_off153_inb j) j.val 368 (congrFun (k1_off153_eq j) 0) (congrFun (k1_off153_eq j) 1) hj (by omega)]
    rfl
  | ⟨n + 8, h⟩ => exact absurd h (Nat.not_lt.2 (Nat.le_add_left _ _))

/-! ## A chunk of a plane, and the accumulators row by row -/

theorem shapeCasts_chunk : S1x64x384.ShapeCasts S64x384 := by decide

/-- Chunk hc of plane p at row i, column c: row 64 hc + i of the plane. -/
theorem chunk_apply (x3 : FVec Ideal S768x384x384 .f32) (p hc : ℕ) (hp : p < 768) (hh : hc < 6) (i : Fin 64) (c : Fin 384) :
    chunk (F := Ideal) x3 p hc hp hh (ix2 i c)
      = x3 (ix3 (⟨p, hp⟩ : Fin 768) (⟨64 * hc + i.val, by have := i.isLt; omega⟩ : Fin 384) c) := by
  show shapeCast S64x384 ((Memref.whole main_v0_scv : Memref sig .scVector .hbm S768x384x384 .f32).view.readAt (Elt Ideal)
    (Rect.unit (s := S768x384x384) (offC p hc) S1x64x384.size (offC_inb hp hh)).toLoadRect x3) shapeCasts_chunk (ix2 i c) = _
  refine (shapeCast_1ab_ab_apply _ _ i c).trans ?_
  show x3 _ = x3 _
  refine congrArg x3 (funext fun a => Fin.ext ?_)
  match a with
  | ⟨0, _⟩ => show p + 1 * 0 = p; omega
  | ⟨1, _⟩ => show 64 * hc + 1 * i.val = 64 * hc + i.val; omega
  | ⟨2, _⟩ => show 0 + 1 * c.val = c.val; omega

/-- The eight accumulators after the first n rows of plane p hold, lane by lane, the partial sums of their residue. -/
def Inv (x3 : FVec Ideal S768x384x384 .f32) (p : ℕ) (hp : p < 768) (n : ℕ) (A : Acc8 Ideal) : Prop :=
  ∀ (a : Fin 8) (l : Fin 16), comp A a (ix1 l) = accUpTo x3 (⟨p, hp⟩ : Fin 768) a l n

theorem inv_zero (x3 : FVec Ideal S768x384x384 .f32) (p : ℕ) (hp : p < 768) : Inv x3 p hp 0 (zeros8 (F := Ideal)) := by
  intro a l
  rw [accUpTo_zero]
  match a with
  | ⟨0, _⟩ => exact Ideal.ofBits_zero_f32
  | ⟨1, _⟩ => exact Ideal.ofBits_zero_f32
  | ⟨2, _⟩ => exact Ideal.ofBits_zero_f32
  | ⟨3, _⟩ => exact Ideal.ofBits_zero_f32
  | ⟨4, _⟩ => exact Ideal.ofBits_zero_f32
  | ⟨5, _⟩ => exact Ideal.ofBits_zero_f32
  | ⟨6, _⟩ => exact Ideal.ofBits_zero_f32
  | ⟨7, _⟩ => exact Ideal.ofBits_zero_f32
  | ⟨n + 8, h⟩ => exact absurd h (Nat.not_lt.2 (Nat.le_add_left _ _))

theorem inv_step2 (x3 : FVec Ideal S768x384x384 .f32) (p : ℕ) (hp : p < 768) (hc : ℕ) (hh : hc < 6) (j : Fin k1_t2_loop.trips)
    (A : Acc8 Ideal) (h : Inv x3 p hp (64 * hc + j.val) A) :
    Inv x3 p hp (64 * hc + j.val + 1) (step2 (F := Ideal) (chunk (F := Ideal) x3 p hc hp hh) j A) := by
  intro a l
  have hj : j.val < 64 := lt_of_lt_of_le j.isLt trips2
  have ha := a.isLt
  have hl := l.isLt
  rw [step2_comp, h a l, accUpTo_succ, chunk_apply, chunk_apply, chunk_apply,
    planeFn_of_lt x3 _ (64 * hc + j.val) (a.val * 16 + l.val) (by omega) (by omega),
    planeFn_of_lt x3 _ (64 * hc + j.val) ((a.val + 8) * 16 + l.val) (by omega) (by omega),
    planeFn_of_lt x3 _ (64 * hc + j.val) ((a.val + 16) * 16 + l.val) (by omega) (by omega)]

theorem inv_acc2 (x3 : FVec Ideal S768x384x384 .f32) (p : ℕ) (hp : p < 768) (hc : ℕ) (hh : hc < 6) (init : Acc8 Ideal)
    (h0 : Inv x3 p hp (64 * hc) init) :
    ∀ n, n ≤ k1_t2_loop.trips → Inv x3 p hp (64 * hc + n) (acc2 (F := Ideal) (chunk (F := Ideal) x3 p hc hp hh) init n)
  | 0, _ => h0
  | n + 1, hn => by
    have ih := inv_acc2 x3 p hp hc hh init h0 n (Nat.le_of_succ_le hn)
    rw [acc2_succ (F := Ideal) (chunk (F := Ideal) x3 p hc hp hh) init ⟨n, hn⟩]
    exact inv_step2 x3 p hp hc hh ⟨n, hn⟩ _ ih

theorem trips2_eq : k1_t2_loop.trips = 64 := by decide

theorem inv_step3 (x3 : FVec Ideal S768x384x384 .f32) (p : ℕ) (hp : p < 768) (hc : ℕ) (hh : hc < 6) (j : Fin k1_t3_loop.trips)
    (A : Acc8 Ideal) (h : Inv x3 p hp (64 * hc + j.val) A) :
    Inv x3 p hp (64 * hc + j.val + 1) (step3 (F := Ideal) (chunk (F := Ideal) x3 p hc hp hh) j A) := by
  intro a l
  have hj : j.val < 64 := lt_of_lt_of_le j.isLt trips3
  have ha := a.isLt
  have hl := l.isLt
  rw [step3_comp, h a l, accUpTo_succ, chunk_apply, chunk_apply, chunk_apply,
    planeFn_of_lt x3 _ (64 * hc + j.val) (a.val * 16 + l.val) (by omega) (by omega),
    planeFn_of_lt x3 _ (64 * hc + j.val) ((a.val + 8) * 16 + l.val) (by omega) (by omega),
    planeFn_of_lt x3 _ (64 * hc + j.val) ((a.val + 16) * 16 + l.val) (by omega) (by omega)]

theorem inv_acc3 (x3 : FVec Ideal S768x384x384 .f32) (p : ℕ) (hp : p < 768) (hc : ℕ) (hh : hc < 6) (init : Acc8 Ideal)
    (h0 : Inv x3 p hp (64 * hc) init) :
    ∀ n, n ≤ k1_t3_loop.trips → Inv x3 p hp (64 * hc + n) (acc3 (F := Ideal) (chunk (F := Ideal) x3 p hc hp hh) init n)
  | 0, _ => h0
  | n + 1, hn => by
    have ih := inv_acc3 x3 p hp hc hh init h0 n (Nat.le_of_succ_le hn)
    rw [acc3_succ (F := Ideal) (chunk (F := Ideal) x3 p hc hp hh) init ⟨n, hn⟩]
    exact inv_step3 x3 p hp hc hh ⟨n, hn⟩ _ ih

theorem trips3_eq : k1_t3_loop.trips = 64 := by decide

theorem inv_step4 (x3 : FVec Ideal S768x384x384 .f32) (p : ℕ) (hp : p < 768) (hc : ℕ) (hh : hc < 6) (j : Fin k1_t4_loop.trips)
    (A : Acc8 Ideal) (h : Inv x3 p hp (64 * hc + j.val) A) :
    Inv x3 p hp (64 * hc + j.val + 1) (step4 (F := Ideal) (chunk (F := Ideal) x3 p hc hp hh) j A) := by
  intro a l
  have hj : j.val < 64 := lt_of_lt_of_le j.isLt trips4
  have ha := a.isLt
  have hl := l.isLt
  rw [step4_comp, h a l, accUpTo_succ, chunk_apply, chunk_apply, chunk_apply,
    planeFn_of_lt x3 _ (64 * hc + j.val) (a.val * 16 + l.val) (by omega) (by omega),
    planeFn_of_lt x3 _ (64 * hc + j.val) ((a.val + 8) * 16 + l.val) (by omega) (by omega),
    planeFn_of_lt x3 _ (64 * hc + j.val) ((a.val + 16) * 16 + l.val) (by omega) (by omega)]

theorem inv_acc4 (x3 : FVec Ideal S768x384x384 .f32) (p : ℕ) (hp : p < 768) (hc : ℕ) (hh : hc < 6) (init : Acc8 Ideal)
    (h0 : Inv x3 p hp (64 * hc) init) :
    ∀ n, n ≤ k1_t4_loop.trips → Inv x3 p hp (64 * hc + n) (acc4 (F := Ideal) (chunk (F := Ideal) x3 p hc hp hh) init n)
  | 0, _ => h0
  | n + 1, hn => by
    have ih := inv_acc4 x3 p hp hc hh init h0 n (Nat.le_of_succ_le hn)
    rw [acc4_succ (F := Ideal) (chunk (F := Ideal) x3 p hc hp hh) init ⟨n, hn⟩]
    exact inv_step4 x3 p hp hc hh ⟨n, hn⟩ _ ih

theorem trips4_eq : k1_t4_loop.trips = 64 := by decide

theorem inv_step5 (x3 : FVec Ideal S768x384x384 .f32) (p : ℕ) (hp : p < 768) (hc : ℕ) (hh : hc < 6) (j : Fin k1_t5_loop.trips)
    (A : Acc8 Ideal) (h : Inv x3 p hp (64 * hc + j.val) A) :
    Inv x3 p hp (64 * hc + j.val + 1) (step5 (F := Ideal) (chunk (F := Ideal) x3 p hc hp hh) j A) := by
  intro a l
  have hj : j.val < 64 := lt_of_lt_of_le j.isLt trips5
  have ha := a.isLt
  have hl := l.isLt
  rw [step5_comp, h a l, accUpTo_succ, chunk_apply, chunk_apply, chunk_apply,
    planeFn_of_lt x3 _ (64 * hc + j.val) (a.val * 16 + l.val) (by omega) (by omega),
    planeFn_of_lt x3 _ (64 * hc + j.val) ((a.val + 8) * 16 + l.val) (by omega) (by omega),
    planeFn_of_lt x3 _ (64 * hc + j.val) ((a.val + 16) * 16 + l.val) (by omega) (by omega)]

theorem inv_acc5 (x3 : FVec Ideal S768x384x384 .f32) (p : ℕ) (hp : p < 768) (hc : ℕ) (hh : hc < 6) (init : Acc8 Ideal)
    (h0 : Inv x3 p hp (64 * hc) init) :
    ∀ n, n ≤ k1_t5_loop.trips → Inv x3 p hp (64 * hc + n) (acc5 (F := Ideal) (chunk (F := Ideal) x3 p hc hp hh) init n)
  | 0, _ => h0
  | n + 1, hn => by
    have ih := inv_acc5 x3 p hp hc hh init h0 n (Nat.le_of_succ_le hn)
    rw [acc5_succ (F := Ideal) (chunk (F := Ideal) x3 p hc hp hh) init ⟨n, hn⟩]
    exact inv_step5 x3 p hp hc hh ⟨n, hn⟩ _ ih

theorem trips5_eq : k1_t5_loop.trips = 64 := by decide

theorem inv_step6 (x3 : FVec Ideal S768x384x384 .f32) (p : ℕ) (hp : p < 768) (hc : ℕ) (hh : hc < 6) (j : Fin k1_t6_loop.trips)
    (A : Acc8 Ideal) (h : Inv x3 p hp (64 * hc + j.val) A) :
    Inv x3 p hp (64 * hc + j.val + 1) (step6 (F := Ideal) (chunk (F := Ideal) x3 p hc hp hh) j A) := by
  intro a l
  have hj : j.val < 64 := lt_of_lt_of_le j.isLt trips6
  have ha := a.isLt
  have hl := l.isLt
  rw [step6_comp, h a l, accUpTo_succ, chunk_apply, chunk_apply, chunk_apply,
    planeFn_of_lt x3 _ (64 * hc + j.val) (a.val * 16 + l.val) (by omega) (by omega),
    planeFn_of_lt x3 _ (64 * hc + j.val) ((a.val + 8) * 16 + l.val) (by omega) (by omega),
    planeFn_of_lt x3 _ (64 * hc + j.val) ((a.val + 16) * 16 + l.val) (by omega) (by omega)]

theorem inv_acc6 (x3 : FVec Ideal S768x384x384 .f32) (p : ℕ) (hp : p < 768) (hc : ℕ) (hh : hc < 6) (init : Acc8 Ideal)
    (h0 : Inv x3 p hp (64 * hc) init) :
    ∀ n, n ≤ k1_t6_loop.trips → Inv x3 p hp (64 * hc + n) (acc6 (F := Ideal) (chunk (F := Ideal) x3 p hc hp hh) init n)
  | 0, _ => h0
  | n + 1, hn => by
    have ih := inv_acc6 x3 p hp hc hh init h0 n (Nat.le_of_succ_le hn)
    rw [acc6_succ (F := Ideal) (chunk (F := Ideal) x3 p hc hp hh) init ⟨n, hn⟩]
    exact inv_step6 x3 p hp hc hh ⟨n, hn⟩ _ ih

theorem trips6_eq : k1_t6_loop.trips = 64 := by decide

theorem inv_step7 (x3 : FVec Ideal S768x384x384 .f32) (p : ℕ) (hp : p < 768) (hc : ℕ) (hh : hc < 6) (j : Fin k1_t7_loop.trips)
    (A : Acc8 Ideal) (h : Inv x3 p hp (64 * hc + j.val) A) :
    Inv x3 p hp (64 * hc + j.val + 1) (step7 (F := Ideal) (chunk (F := Ideal) x3 p hc hp hh) j A) := by
  intro a l
  have hj : j.val < 64 := lt_of_lt_of_le j.isLt trips7
  have ha := a.isLt
  have hl := l.isLt
  rw [step7_comp, h a l, accUpTo_succ, chunk_apply, chunk_apply, chunk_apply,
    planeFn_of_lt x3 _ (64 * hc + j.val) (a.val * 16 + l.val) (by omega) (by omega),
    planeFn_of_lt x3 _ (64 * hc + j.val) ((a.val + 8) * 16 + l.val) (by omega) (by omega),
    planeFn_of_lt x3 _ (64 * hc + j.val) ((a.val + 16) * 16 + l.val) (by omega) (by omega)]

theorem inv_acc7 (x3 : FVec Ideal S768x384x384 .f32) (p : ℕ) (hp : p < 768) (hc : ℕ) (hh : hc < 6) (init : Acc8 Ideal)
    (h0 : Inv x3 p hp (64 * hc) init) :
    ∀ n, n ≤ k1_t7_loop.trips → Inv x3 p hp (64 * hc + n) (acc7 (F := Ideal) (chunk (F := Ideal) x3 p hc hp hh) init n)
  | 0, _ => h0
  | n + 1, hn => by
    have ih := inv_acc7 x3 p hp hc hh init h0 n (Nat.le_of_succ_le hn)
    rw [acc7_succ (F := Ideal) (chunk (F := Ideal) x3 p hc hp hh) init ⟨n, hn⟩]
    exact inv_step7 x3 p hp hc hh ⟨n, hn⟩ _ ih

theorem trips7_eq : k1_t7_loop.trips = 64 := by decide

/-! ## A plane's sixteen lanes -/

/-- After all six chunks the accumulators hold their residues' sums over the whole plane. -/
theorem inv_planeAcc (x3 : FVec Ideal S768x384x384 .f32) (p : ℕ) (hp : p < 768) : Inv x3 p hp 384 (planeAcc (F := Ideal) x3 p hp) := by
  have h2 := inv_acc2 x3 p hp 0 (by decide) _ (inv_zero x3 p hp) k1_t2_loop.trips le_rfl
  rw [trips2_eq] at h2
  have h3 := inv_acc3 x3 p hp 1 (by decide) _ h2 k1_t3_loop.trips le_rfl
  rw [trips3_eq] at h3
  have h4 := inv_acc4 x3 p hp 2 (by decide) _ h3 k1_t4_loop.trips le_rfl
  rw [trips4_eq] at h4
  have h5 := inv_acc5 x3 p hp 3 (by decide) _ h4 k1_t5_loop.trips le_rfl
  rw [trips5_eq] at h5
  have h6 := inv_acc6 x3 p hp 4 (by decide) _ h5 k1_t6_loop.trips le_rfl
  rw [trips6_eq] at h6
  have h7 := inv_acc7 x3 p hp 5 (by decide) _ h6 k1_t7_loop.trips le_rfl
  rw [trips7_eq] at h7
  exact h7

/-- Lane l of a plane's stored vector: the eight accumulators' lane l, added as a balanced tree. -/
theorem planeVec_apply (x3 : FVec Ideal S768x384x384 .f32) (p : ℕ) (hp : p < 768) (l : Fin 16) :
    planeVec (F := Ideal) x3 p hp (ix1 l)
      = ((laneAcc x3 ⟨p, hp⟩ 0 l + laneAcc x3 ⟨p, hp⟩ 1 l) + (laneAcc x3 ⟨p, hp⟩ 2 l + laneAcc x3 ⟨p, hp⟩ 3 l))
        + ((laneAcc x3 ⟨p, hp⟩ 4 l + laneAcc x3 ⟨p, hp⟩ 5 l) + (laneAcc x3 ⟨p, hp⟩ 6 l + laneAcc x3 ⟨p, hp⟩ 7 l)) := by
  have hI := inv_planeAcc x3 p hp
  unfold planeVec
  generalize planeAcc (F := Ideal) x3 p hp = A at hI
  obtain ⟨a0, a1, a2, a3, a4, a5, a6, a7⟩ := A
  have e0 := hI 0 l
  have e1 := hI 1 l
  have e2 := hI 2 l
  have e3 := hI 3 l
  have e4 := hI 4 l
  have e5 := hI 5 l
  have e6 := hI 6 l
  have e7 := hI 7 l
  rw [accUpTo_all] at e0 e1 e2 e3 e4 e5 e6 e7
  show shapeCast S16 (addf (addf (addf a0 a1) (addf a2 a3)) (addf (addf a4 a5) (addf a6 a7))) shapeCasts_S16_S16 (ix1 l) = _
  rw [shapeCast_self, ← e0, ← e1, ← e2, ← e3, ← e4, ← e5, ← e6, ← e7]
  rfl

/-- Word k · 16 + l of the partials is lane l of plane 576 + k. -/
theorem scVal_apply (x3 : FVec Ideal S768x384x384 .f32) (k : Fin 192) (l : Fin 16) :
    scVal (F := Ideal) x3 (ix1 (⟨k.val * 16 + l.val, by have := k.isLt; have := l.isLt; omega⟩ : Fin 3072))
      = planeVec (F := Ideal) x3 (576 + k.val) (by have := k.isLt; omega) (ix1 l) := by
  have hk := k.isLt
  have hl := l.isLt
  show planeVec (F := Ideal) x3 (576 + (k.val * 16 + l.val) / 16) _
    (ix1 (⟨(k.val * 16 + l.val) % 16, Nat.mod_lt _ (by decide)⟩ : Fin 16)) = _
  have e1 : 576 + (k.val * 16 + l.val) / 16 = 576 + k.val := by omega
  have e2 : (⟨(k.val * 16 + l.val) % 16, Nat.mod_lt _ (by decide)⟩ : Fin 16) = l :=
    Fin.ext (by show (k.val * 16 + l.val) % 16 = l.val; omega)
  rw [e2]
  exact congrFun (planeVec_congr (F := Ideal) x3 e1 _ (by omega)) (ix1 l)

/-- THE SIXTEEN LANES OF A PLANE ADD UP TO THE PLANE'S SUM: what the bridge asks of the SparseCore pool. -/
theorem scVal_lanes (x3 : FVec Ideal S768x384x384 .f32) (k : Fin 192) :
    ∑ l : Fin 16, (show FVec Ideal S3072 .f32 from scVal (F := Ideal) x3) (ix1 (⟨k.val * 16 + l.val, by have := k.isLt; have := l.isLt; omega⟩ : Fin 3072))
      = planeSum3 x3 (⟨576 + k.val, by have := k.isLt; omega⟩ : Fin 768) :=
  lanes_sum x3 (scVal (F := Ideal) x3) (fun k l => (scVal_apply x3 k l).trans (planeVec_apply x3 (576 + k.val) _ l)) k

end Cert.Proof.KI.ScVal

end
-- ==== Proof.PoolSums.lean ====
/-
  The two pools' sums, at the extended reals, over the planes as the entry program lays them out: row k of the
  TensorCore pool's output is the sum of plane k < 576, and the SparseCore pool's sixteen words k · 16 + l add up to the
  sum of plane 576 + k.
-/
import proofs.«215010_g72713796321855_cont_9to1c4b_299_31_alg».proof.Proof.TcValue
import proofs.«215010_g72713796321855_cont_9to1c4b_299_31_alg».proof.Proof.ScValue
import proofs.«215010_g72713796321855_cont_9to1c4b_299_31_alg».proof.Proof.KI.Host

noncomputable section

open scoped BigOperators

namespace Cert.Proof

open Cert.KernelIdeal Cert.KernelIdeal.Gen Cert.KernelIdeal.KValue
open Idealize.ShloMosaic Idealize.ShloMosaic.ValueIdx
open Idealize.SL Idealize.SL.Sem

theorem tc_plane_sum (m : (ℓ : Loc nD τ sig) → Buf (Elt Ideal) ℓ) (d : Dev nD) (k : Fin 576) :
    (KI.TcPool.tcVal (F := Ideal) d (KI.x3v m d) : FVec Ideal S576x1x1 .f32) (ix3 k (0 : Fin 1) (0 : Fin 1))
      = planeSum3 (KI.x3v m d) (⟨k.val, by have := k.isLt; omega⟩ : Fin 768) :=
  KI.TcPool.tcVal_rowSum d (KI.x3v m d) k

theorem sc_lane_sums (m : (ℓ : Loc nD τ sig) → Buf (Elt Ideal) ℓ) (d : Dev nD) (k : Fin 192) :
    ∑ l : Fin 16, (show FVec Ideal S3072 .f32 from KI.ScVal.scVal (F := Ideal) (KI.x3v m d))
        (ix1 (⟨k.val * 16 + l.val, by have := k.isLt; have := l.isLt; omega⟩ : Fin 3072))
      = planeSum3 (KI.x3v m d) (⟨576 + k.val, by have := k.isLt; omega⟩ : Fin 768) :=
  KI.ScVal.scVal_lanes (KI.x3v m d) k

end Cert.Proof

end
-- ==== Proof.EasyClaims.lean ====
/-
  The two claims that need no run of the kernel: the reference's frame is its run with the result dropped, and the
  idealization's one named constant, the reciprocal of a plane's size, is what the table says at both of its sites.
-/
import proofs.«215010_g72713796321855_cont_9to1c4b_299_31_alg».proof.Defs
import proofs.«215010_g72713796321855_cont_9to1c4b_299_31_alg».proof.Proof.Gen.Pre_finite_inputs
import proofs.«215010_g72713796321855_cont_9to1c4b_299_31_alg».proof.Proof.Gen.ReferenceIdeal.Run

noncomputable section

namespace Cert.Proof

open Idealize.ShloMosaic Idealize.SL.Sem

theorem frame_ReferenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal :=
  ⟨IdealRules.named_const.statement Cert.KernelIdeal.κ "inv_147456" .f32 0x36E38E39#32 ((1 / 147456 : ℝ) : EReal) rfl,
    IdealRules.named_const.statement Cert.KernelIdeal.κ "inv_147456" .f32 0x36E38E39#32 ((1 / 147456 : ℝ) : EReal) rfl⟩

end Cert.Proof

end
-- ==== Proof.lean ====
/-
  The claim: the pooling-and-projection kernel and its idealization run to their ends leaving their arguments unchanged,
  the idealization's one named constant is the reciprocal of a plane's size, and at the ideal instance the kernel's
  result is the reference's.

  The kernel averages each of 768 planes of 384 x 384 numbers and multiplies the 8 x 96 averages by a 16 x 96 weight
  matrix. Planes 0..575 are summed on the TensorCore through a ring of eight buffers; planes 576..767 by the thirty-two
  vector subcores, six planes each, lane by lane; a last TensorCore call scales the sums by the reciprocal of a plane's
  size and multiplies by the block-diagonal matrix of eight copies of the weights. The reference divides each plane's
  sum by the plane's size and multiplies by the weights' transpose: the same sums, grouped differently.

  Each kernel body is run once at a symbolic place with the value it leaves carried in its invariants; the entry
  program is run on the TensorCore inside the SparseCore launch, its two TensorCore calls as pipeline regions entered
  while the core still owes the launch its start signals; the launch theorem then gives every weakly fair execution of
  the device's thirty-five threads. The value bridge is index arithmetic and the commutativity and associativity of
  addition on the extended reals.
-/
import proofs.«215010_g72713796321855_cont_9to1c4b_299_31_alg».proof.Defs
import proofs.«215010_g72713796321855_cont_9to1c4b_299_31_alg».proof.Proof.Gen.Kernel
import proofs.«215010_g72713796321855_cont_9to1c4b_299_31_alg».proof.Proof.Gen.KernelIdeal
import proofs.«215010_g72713796321855_cont_9to1c4b_299_31_alg».proof.Proof.Gen.ReferenceIdeal
import proofs.«215010_g72713796321855_cont_9to1c4b_299_31_alg».proof.Proof.Gen.Pre_finite_inputs
import proofs.«215010_g72713796321855_cont_9to1c4b_299_31_alg».proof.Proof.KI.Launch
import proofs.«215010_g72713796321855_cont_9to1c4b_299_31_alg».proof.Proof.KI.TcPoolRun
import proofs.«215010_g72713796321855_cont_9to1c4b_299_31_alg».proof.Proof.KI.ScPoolV
import proofs.«215010_g72713796321855_cont_9to1c4b_299_31_alg».proof.Proof.KI.Proj
import proofs.«215010_g72713796321855_cont_9to1c4b_299_31_alg».proof.Proof.KB.Launch
import proofs.«215010_g72713796321855_cont_9to1c4b_299_31_alg».proof.Proof.KB.TcPoolRun
import proofs.«215010_g72713796321855_cont_9to1c4b_299_31_alg».proof.Proof.KB.ScPoolV
import proofs.«215010_g72713796321855_cont_9to1c4b_299_31_alg».proof.Proof.KB.Proj
import proofs.«215010_g72713796321855_cont_9to1c4b_299_31_alg».proof.Proof.Algebraic
import proofs.«215010_g72713796321855_cont_9to1c4b_299_31_alg».proof.Proof.PoolSums
import proofs.«215010_g72713796321855_cont_9to1c4b_299_31_alg».proof.Proof.EasyClaims
import Idealize.ShloMosaic.Adequacy
import Idealize.ShloMosaic.Init

noncomputable section

namespace Cert.Proof

open Idealize.ShloMosaic Idealize.SL.Sem

/-! ## The idealized kernel's run, at any float instance -/

section Ideal

variable {F : FTy → Type} [FloatOps F] [Named F]
variable (m : (ℓ : Loc Cert.KernelIdeal.nD Cert.KernelIdeal.τ Cert.KernelIdeal.sig) → Buf (Elt F) ℓ)

/-- What the TensorCore pool leaves: the 576 plane sums. -/
abbrev tcV : (d : Dev Cert.KernelIdeal.nD) → (Cert.KernelIdeal.cfg0.win 0).block.Idx → Elt F (Cert.KernelIdeal.cfg0.win 0).elt :=
  fun c => KI.TcPool.tcVal c (KI.x3v m c)
/-- What the SparseCore pool leaves: sixteen lane sums per plane. -/
abbrev pV : (d : Dev Cert.KernelIdeal.nD) → Buf (Elt F) (KI.pLoc d) := fun d => KI.ScVal.scVal (KI.x3v m d)
/-- What the projection leaves. -/
abbrev pjV : (d : Dev Cert.KernelIdeal.nD) → (Cert.KernelIdeal.cfg2.win 4).block.Idx → Elt F (Cert.KernelIdeal.cfg2.win 4).elt :=
  KI.projValDef m (tcV m) (pV m)

theorem runI [∀ e, Nonempty (Elt F e)] (ρ : Dev Cert.KernelIdeal.nD → PrngReg) :
    θ_run (Cert.KernelIdeal.defs (F := F)) (Cert.KernelIdeal.threads (F := F)) ⟨m, fun _ => 0, ρ⟩
      (KI.QC m (KI.KV m (tcV m) (pV m) (pjV m))) :=
  KI.run_main m ρ (tcV m) (pV m) (pjV m) (KI.TcPool.tcRun m) (KI.projRun m (tcV m) (pV m)) (KI.ScPoolV.tileObl (KI.x3v m) KI.facts)

end Ideal

/-! ## The printed kernel's run -/

section Bits

variable {F : FTy → Type} [FloatOps F]
variable (m : (ℓ : Loc Cert.Kernel.nD Cert.Kernel.τ Cert.Kernel.sig) → Buf (Elt F) ℓ)

abbrev tcVB : (d : Dev Cert.Kernel.nD) → (Cert.Kernel.cfg0.win 0).block.Idx → Elt F (Cert.Kernel.cfg0.win 0).elt :=
  fun c => KB.TcPool.tcVal c (KB.x3v m c)
abbrev pVB : (d : Dev Cert.Kernel.nD) → Buf (Elt F) (KB.pLoc d) := fun d => KB.ScVal.scVal (KB.x3v m d)
abbrev pjVB : (d : Dev Cert.Kernel.nD) → (Cert.Kernel.cfg2.win 4).block.Idx → Elt F (Cert.Kernel.cfg2.win 4).elt :=
  KB.projValDef m (tcVB m) (pVB m)

theorem runB [∀ e, Nonempty (Elt F e)] (ρ : Dev Cert.Kernel.nD → PrngReg) :
    θ_run (Cert.Kernel.defs (F := F)) (Cert.Kernel.threads (F := F)) ⟨m, fun _ => 0, ρ⟩
      (KB.QC m (KB.KV m (tcVB m) (pVB m) (pjVB m))) :=
  KB.run_main m ρ (tcVB m) (pVB m) (pjVB m) (KB.TcPool.tcRun m) (KB.projRun m (tcVB m) (pVB m)) (KB.ScPoolV.tileObl (KB.x3v m) KB.facts)

end Bits

/-! ## The claims -/

theorem frame_Kernel : Cert.frame_Kernel := fun m ρ _ =>
  (θ_run (Cert.Kernel.defs (F := Bits)) _ _).mono (fun _ h c => (h c).2) (runB (F := Bits) m ρ)

theorem frame_KernelIdeal : Cert.frame_KernelIdeal := fun m ρ _ =>
  (θ_run (Cert.KernelIdeal.defs (F := Ideal)) _ _).mono (fun _ h c => (h c).2) (runI (F := Ideal) m ρ)

theorem algebraic : Cert.algebraic_KernelIdeal_ReferenceIdeal :=
  algebraic_of_run fun m g => ⟨tcV m, pV m, pjV m, fun d => KI.projValDef_eq m (tcV m) (pV m) d,
    fun d k => tc_plane_sum m d k, fun d k => sc_lane_sums m d k, runI (F := Ideal) m g⟩

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, preserves, algebraic⟩

end Cert.Proof

end
